-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v247)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v247) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v434) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x8 : Shape := ⟨2, ![50000, 8]⟩
abbrev S2x800000 : Shape := ⟨2, ![2, 800000]⟩
abbrev S64x8 : Shape := ⟨2, ![64, 8]⟩
abbrev S64 : Shape := ⟨1, ![64]⟩
abbrev S7x64x64 : Shape := ⟨3, ![7, 64, 64]⟩
abbrev S7x64 : Shape := ⟨2, ![7, 64]⟩
abbrev S8x64 : Shape := ⟨2, ![8, 64]⟩
abbrev S200x64 : Shape := ⟨2, ![200, 64]⟩
abbrev S200 : Shape := ⟨1, ![200]⟩
abbrev S_ : Shape := ⟨0, ![]⟩

class Facts : Prop where
  bcast_S_S50000x8 : S_.BroadcastsInDim S50000x8 (![] : Fin 0 → Fin S50000x8.rank)
  reducesTo_S50000x8_S_d0_1 : S50000x8.ReducesTo [0, 1] S_
  h_S_ : 0 < S_.numel
  bcast_S_S64x8 : S_.BroadcastsInDim S64x8 (![] : Fin 0 → Fin S64x8.rank)
  reducesTo_S64x8_S_d0_1 : S64x8.ReducesTo [0, 1] S_
  bcast_S_S64 : S_.BroadcastsInDim S64 (![] : Fin 0 → Fin S64.rank)
  reducesTo_S64_S_d0 : S64.ReducesTo [0] S_
  bcast_S_S7x64x64 : S_.BroadcastsInDim S7x64x64 (![] : Fin 0 → Fin S7x64x64.rank)
  reducesTo_S7x64x64_S_d0_1_2 : S7x64x64.ReducesTo [0, 1, 2] S_
  bcast_S_S7x64 : S_.BroadcastsInDim S7x64 (![] : Fin 0 → Fin S7x64.rank)
  reducesTo_S7x64_S_d0_1 : S7x64.ReducesTo [0, 1] S_
  bcast_S_S8x64 : S_.BroadcastsInDim S8x64 (![] : Fin 0 → Fin S8x64.rank)
  reducesTo_S8x64_S_d0_1 : S8x64.ReducesTo [0, 1] S_
  bcast_S_S200x64 : S_.BroadcastsInDim S200x64 (![] : Fin 0 → Fin S200x64.rank)
  reducesTo_S200x64_S_d0_1 : S200x64.ReducesTo [0, 1] S_
  bcast_S_S200 : S_.BroadcastsInDim S200 (![] : Fin 0 → Fin S200.rank)
  reducesTo_S200_S_d0 : S200.ReducesTo [0] S_

variable [Facts]

def fn_part3 {F : FTy → Type} [FloatOps F] (main_v48 : IVec S_ 1) (main_v49 : FVec F S200 .f32) (main_v50 : FVec F S200 .f32) : IVec S_ 1 :=
  let main_v51 : IVec S200 1 := cmpf .olt main_v49 main_v50
  let main_c_19 : IVec S_ 1 := constantI S_ 1 1#1
  let main_v52 : IVec S_ 1 := (fun x v => Host.reduce IntOp.andi x v reducesTo_S200_S_d0 h_S_) main_v51 main_c_19
  let main_v53 : IVec S_ 1 := andi main_v48 main_v52
  main_v53

def fn_part2 {F : FTy → Type} [FloatOps F] (main_arg8 : FVec F S8x64 .f32) (main_arg9 : FVec F S8x64 .f32) (main_arg10 : FVec F S200x64 .f32) (main_arg11 : FVec F S200 .f32) (main_v33 : IVec S_ 1) : IVec S_ 1 :=
  let main_v34 : FVec F S8x64 .f32 := Host.absf main_arg8
  let main_cst_12 : FVec F S_ .f32 := constant S_ .f32 0x7F800000#32
  let main_v35 : FVec F S8x64 .f32 := broadcastInDim S8x64 ![] bcast_S_S8x64 main_cst_12
  let main_v36 : IVec S8x64 1 := cmpf .olt main_v34 main_v35
  let main_c_13 : IVec S_ 1 := constantI S_ 1 1#1
  let main_v37 : IVec S_ 1 := (fun x v => Host.reduce IntOp.andi x v reducesTo_S8x64_S_d0_1 h_S_) main_v36 main_c_13
  let main_v38 : IVec S_ 1 := andi main_v33 main_v37
  let main_v39 : FVec F S8x64 .f32 := Host.absf main_arg9
  let main_cst_14 : FVec F S_ .f32 := constant S_ .f32 0x7F800000#32
  let main_v40 : FVec F S8x64 .f32 := broadcastInDim S8x64 ![] bcast_S_S8x64 main_cst_14
  let main_v41 : IVec S8x64 1 := cmpf .olt main_v39 main_v40
  let main_c_15 : IVec S_ 1 := constantI S_ 1 1#1
  let main_v42 : IVec S_ 1 := (fun x v => Host.reduce IntOp.andi x v reducesTo_S8x64_S_d0_1 h_S_) main_v41 main_c_15
  let main_v43 : IVec S_ 1 := andi main_v38 main_v42
  let main_v44 : FVec F S200x64 .f32 := Host.absf main_arg10
  let main_cst_16 : FVec F S_ .f32 := constant S_ .f32 0x7F800000#32
  let main_v45 : FVec F S200x64 .f32 := broadcastInDim S200x64 ![] bcast_S_S200x64 main_cst_16
  let main_v46 : IVec S200x64 1 := cmpf .olt main_v44 main_v45
  let main_c_17 : IVec S_ 1 := constantI S_ 1 1#1
  let main_v47 : IVec S_ 1 := (fun x v => Host.reduce IntOp.andi x v reducesTo_S200x64_S_d0_1 h_S_) main_v46 main_c_17
  let main_v48 : IVec S_ 1 := andi main_v43 main_v47
  let main_v49 : FVec F S200 .f32 := Host.absf main_arg11
  let main_cst_18 : FVec F S_ .f32 := constant S_ .f32 0x7F800000#32
  let main_v50 : FVec F S200 .f32 := broadcastInDim S200 ![] bcast_S_S200 main_cst_18
  fn_part3 (F := F) main_v48 main_v49 main_v50

def fn_part1 {F : FTy → Type} [FloatOps F] (main_arg5 : FVec F S7x64x64 .f32) (main_arg6 : FVec F S7x64x64 .f32) (main_arg7 : FVec F S7x64 .f32) (main_arg8 : FVec F S8x64 .f32) (main_arg9 : FVec F S8x64 .f32) (main_arg10 : FVec F S200x64 .f32) (main_arg11 : FVec F S200 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S7x64x64 .f32 := Host.absf main_arg5
  let main_cst_6 : FVec F S_ .f32 := constant S_ .f32 0x7F800000#32
  let main_v20 : FVec F S7x64x64 .f32 := broadcastInDim S7x64x64 ![] bcast_S_S7x64x64 main_cst_6
  let main_v21 : IVec S7x64x64 1 := cmpf .olt main_v19 main_v20
  let main_c_7 : IVec S_ 1 := constantI S_ 1 1#1
  let main_v22 : IVec S_ 1 := (fun x v => Host.reduce IntOp.andi x v reducesTo_S7x64x64_S_d0_1_2 h_S_) main_v21 main_c_7
  let main_v23 : IVec S_ 1 := andi main_v18 main_v22
  let main_v24 : FVec F S7x64x64 .f32 := Host.absf main_arg6
  let main_cst_8 : FVec F S_ .f32 := constant S_ .f32 0x7F800000#32
  let main_v25 : FVec F S7x64x64 .f32 := broadcastInDim S7x64x64 ![] bcast_S_S7x64x64 main_cst_8
  let main_v26 : IVec S7x64x64 1 := cmpf .olt main_v24 main_v25
  let main_c_9 : IVec S_ 1 := constantI S_ 1 1#1
  let main_v27 : IVec S_ 1 := (fun x v => Host.reduce IntOp.andi x v reducesTo_S7x64x64_S_d0_1_2 h_S_) main_v26 main_c_9
  let main_v28 : IVec S_ 1 := andi main_v23 main_v27
  let main_v29 : FVec F S7x64 .f32 := Host.absf main_arg7
  let main_cst_10 : FVec F S_ .f32 := constant S_ .f32 0x7F800000#32
  let main_v30 : FVec F S7x64 .f32 := broadcastInDim S7x64 ![] bcast_S_S7x64 main_cst_10
  let main_v31 : IVec S7x64 1 := cmpf .olt main_v29 main_v30
  let main_c_11 : IVec S_ 1 := constantI S_ 1 1#1
  let main_v32 : IVec S_ 1 := (fun x v => Host.reduce IntOp.andi x v reducesTo_S7x64_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x8 .f32) (main_arg1 : IVec S2x800000 32) (main_arg2 : FVec F S64x8 .f32) (main_arg3 : FVec F S64x8 .f32) (main_arg4 : FVec F S64 .f32) (main_arg5 : FVec F S7x64x64 .f32) (main_arg6 : FVec F S7x64x64 .f32) (main_arg7 : FVec F S7x64 .f32) (main_arg8 : FVec F S8x64 .f32) (main_arg9 : FVec F S8x64 .f32) (main_arg10 : FVec F S200x64 .f32) (main_arg11 : FVec F S200 .f32) : IVec S_ 1 :=
  let main_v0 : FVec F S50000x8 .f32 := Host.absf main_arg0
  let main_cst : FVec F S_ .f32 := constant S_ .f32 0x7F800000#32
  let main_v1 : FVec F S50000x8 .f32 := broadcastInDim S50000x8 ![] bcast_S_S50000x8 main_cst
  let main_v2 : IVec S50000x8 1 := cmpf .olt main_v0 main_v1
  let main_c : IVec S_ 1 := constantI S_ 1 1#1
  let main_v3 : IVec S_ 1 := (fun x v => Host.reduce IntOp.andi x v reducesTo_S50000x8_S_d0_1 h_S_) main_v2 main_c
  let main_v4 : FVec F S64x8 .f32 := Host.absf main_arg2
  let main_cst_0 : FVec F S_ .f32 := constant S_ .f32 0x7F800000#32
  let main_v5 : FVec F S64x8 .f32 := broadcastInDim S64x8 ![] bcast_S_S64x8 main_cst_0
  let main_v6 : IVec S64x8 1 := cmpf .olt main_v4 main_v5
  let main_c_1 : IVec S_ 1 := constantI S_ 1 1#1
  let main_v7 : IVec S_ 1 := (fun x v => Host.reduce IntOp.andi x v reducesTo_S64x8_S_d0_1 h_S_) main_v6 main_c_1
  let main_v8 : IVec S_ 1 := andi main_v3 main_v7
  let main_v9 : FVec F S64x8 .f32 := Host.absf main_arg3
  let main_cst_2 : FVec F S_ .f32 := constant S_ .f32 0x7F800000#32
  let main_v10 : FVec F S64x8 .f32 := broadcastInDim S64x8 ![] bcast_S_S64x8 main_cst_2
  let main_v11 : IVec S64x8 1 := cmpf .olt main_v9 main_v10
  let main_c_3 : IVec S_ 1 := constantI S_ 1 1#1
  let main_v12 : IVec S_ 1 := (fun x v => Host.reduce IntOp.andi x v reducesTo_S64x8_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_v13 main_v16
-- ==== Kernel.lean ====
abbrev S50000x8 : Shape := ⟨2, ![50000, 8]⟩
abbrev S2x800000 : Shape := ⟨2, ![2, 800000]⟩
abbrev S64x8 : Shape := ⟨2, ![64, 8]⟩
abbrev S64 : Shape := ⟨1, ![64]⟩
abbrev S7x64x64 : Shape := ⟨3, ![7, 64, 64]⟩
abbrev S7x64 : Shape := ⟨2, ![7, 64]⟩
abbrev S8x64 : Shape := ⟨2, ![8, 64]⟩
abbrev S200x64 : Shape := ⟨2, ![200, 64]⟩
abbrev S200 : Shape := ⟨1, ![200]⟩
abbrev S1x800000 : Shape := ⟨2, ![1, 800000]⟩
abbrev S800000 : Shape := ⟨1, ![800000]⟩
abbrev S1x64 : Shape := ⟨2, ![1, 64]⟩
abbrev S_ : Shape := ⟨0, ![]⟩
abbrev S800000x1 : Shape := ⟨2, ![800000, 1]⟩
abbrev S800000x8 : Shape := ⟨2, ![800000, 8]⟩
abbrev S50000x64 : Shape := ⟨2, ![50000, 64]⟩
abbrev S5000x8 : Shape := ⟨2, ![5000, 8]⟩
abbrev S5000x64 : Shape := ⟨2, ![5000, 64]⟩
abbrev S1x64x64 : Shape := ⟨3, ![1, 64, 64]⟩
abbrev S64x64 : Shape := ⟨2, ![64, 64]⟩
abbrev S800000x64 : Shape := ⟨2, ![800000, 64]⟩
abbrev S1x200 : Shape := ⟨2, ![1, 200]⟩
abbrev S50000x200 : Shape := ⟨2, ![50000, 200]⟩
abbrev S5000x200 : Shape := ⟨2, ![5000, 200]⟩
abbrev S64x200 : Shape := ⟨2, ![64, 200]⟩

abbrev nBuf : Space → Nat
  | .hbm => 316
  | .vmem => 158
  | .smem => 0
  | _ => 0

abbrev hbmTy0_0 (i : Nat) : BufTy := match i % 128 with
  | 0 => ⟨S50000x8, .f32⟩
  | 1 => ⟨S2x800000, .i32⟩
  | 2 => ⟨S64x8, .f32⟩
  | 3 => ⟨S64x8, .f32⟩
  | 4 => ⟨S64, .f32⟩
  | 5 => ⟨S7x64x64, .f32⟩
  | 6 => ⟨S7x64x64, .f32⟩
  | 7 => ⟨S7x64, .f32⟩
  | 8 => ⟨S8x64, .f32⟩
  | 9 => ⟨S8x64, .f32⟩
  | 10 => ⟨S200x64, .f32⟩
  | 11 => ⟨S200, .f32⟩
  | 12 => ⟨S1x800000, .i32⟩
  | 13 => ⟨S800000, .i32⟩
  | 14 => ⟨S1x800000, .i32⟩
  | 15 => ⟨S800000, .i32⟩
  | 16 => ⟨S1x64, .f32⟩
  | 17 => ⟨S64, .f32⟩
  | 18 => ⟨S1x64, .f32⟩
  | 19 => ⟨S64, .f32⟩
  | 20 => ⟨S_, .i32⟩
  | 21 => ⟨S800000, .i32⟩
  | 22 => ⟨S800000, .i1⟩
  | 23 => ⟨S_, .i32⟩
  | 24 => ⟨S800000, .i32⟩
  | 25 => ⟨S800000, .i32⟩
  | 26 => ⟨S800000, .i32⟩
  | 27 => ⟨S800000x1, .i32⟩
  | 28 => ⟨S800000x8, .f32⟩
  | 29 => ⟨S_, .f32⟩
  | 30 => ⟨S50000x8, .f32⟩
  | 31 => ⟨S800000x1, .i32⟩
  | 32 => ⟨S50000x8, .f32⟩
  | 33 => ⟨S1x64, .f32⟩
  | 34 => ⟨S50000x64, .f32⟩
  | 35 => ⟨S1x64, .f32⟩
  | 36 => ⟨S1x64, .f32⟩
  | 37 => ⟨S_, .f32⟩
  | 38 => ⟨S1x64, .f32⟩
  | 39 => ⟨S1x64, .f32⟩
  | 40 => ⟨S_, .f32⟩
  | 41 => ⟨S1x64, .f32⟩
  | 42 => ⟨S1x64, .f32⟩
  | 43 => ⟨S1x64, .f32⟩
  | 44 => ⟨S1x64, .f32⟩
  | 45 => ⟨S1x64, .f32⟩
  | 46 => ⟨S1x64, .f32⟩
  | 47 => ⟨S50000x64, .f32⟩
  | 48 => ⟨S1x64x64, .f32⟩
  | 49 => ⟨S64x64, .f32⟩
  | 50 => ⟨S1x64x64, .f32⟩
  | 51 => ⟨S64x64, .f32⟩
  | 52 => ⟨S1x64, .f32⟩
  | 53 => ⟨S64, .f32⟩
  | 54 => ⟨S1x64, .f32⟩
  | 55 => ⟨S64, .f32⟩
  | 56 => ⟨S1x64, .f32⟩
  | 57 => ⟨S64, .f32⟩
  | 58 => ⟨S_, .i32⟩
  | 59 => ⟨S800000, .i32⟩
  | 60 => ⟨S800000, .i1⟩
  | 61 => ⟨S_, .i32⟩
  | 62 => ⟨S800000, .i32⟩
  | 63 => ⟨S800000, .i32⟩
  | 64 => ⟨S800000, .i32⟩
  | 65 => ⟨S800000x1, .i32⟩
  | 66 => ⟨S800000x64, .f32⟩
  | 67 => ⟨S_, .f32⟩
  | 68 => ⟨S50000x64, .f32⟩
  | 69 => ⟨S800000x1, .i32⟩
  | 70 => ⟨S50000x64, .f32⟩
  | 71 => ⟨S1x64, .f32⟩
  | 72 => ⟨S50000x64, .f32⟩
  | 73 => ⟨S1x64, .f32⟩
  | 74 => ⟨S1x64, .f32⟩
  | 75 => ⟨S_, .f32⟩
  | 76 => ⟨S1x64, .f32⟩
  | 77 => ⟨S1x64, .f32⟩
  | 78 => ⟨S_, .f32⟩
  | 79 => ⟨S1x64, .f32⟩
  | 80 => ⟨S1x64, .f32⟩
  | 81 => ⟨S1x64, .f32⟩
  | 82 => ⟨S1x64, .f32⟩
  | 83 => ⟨S1x64, .f32⟩
  | 84 => ⟨S1x64, .f32⟩
  | 85 => ⟨S50000x64, .f32⟩
  | 86 => ⟨S1x64x64, .f32⟩
  | 87 => ⟨S64x64, .f32⟩
  | 88 => ⟨S1x64x64, .f32⟩
  | 89 => ⟨S64x64, .f32⟩
  | 90 => ⟨S1x64, .f32⟩
  | 91 => ⟨S64, .f32⟩
  | 92 => ⟨S1x64, .f32⟩
  | 93 => ⟨S64, .f32⟩
  | 94 => ⟨S1x64, .f32⟩
  | 95 => ⟨S64, .f32⟩
  | 96 => ⟨S_, .i32⟩
  | 97 => ⟨S800000, .i32⟩
  | 98 => ⟨S800000, .i1⟩
  | 99 => ⟨S_, .i32⟩
  | 100 => ⟨S800000, .i32⟩
  | 101 => ⟨S800000, .i32⟩
  | 102 => ⟨S800000, .i32⟩
  | 103 => ⟨S800000x1, .i32⟩
  | 104 => ⟨S800000x64, .f32⟩
  | 105 => ⟨S_, .f32⟩
  | 106 => ⟨S50000x64, .f32⟩
  | 107 => ⟨S800000x1, .i32⟩
  | 108 => ⟨S50000x64, .f32⟩
  | 109 => ⟨S1x64, .f32⟩
  | 110 => ⟨S50000x64, .f32⟩
  | 111 => ⟨S1x64, .f32⟩
  | 112 => ⟨S1x64, .f32⟩
  | 113 => ⟨S_, .f32⟩
  | 114 => ⟨S1x64, .f32⟩
  | 115 => ⟨S1x64, .f32⟩
  | 116 => ⟨S_, .f32⟩
  | 117 => ⟨S1x64, .f32⟩
  | 118 => ⟨S1x64, .f32⟩
  | 119 => ⟨S1x64, .f32⟩
  | 120 => ⟨S1x64, .f32⟩
  | 121 => ⟨S1x64, .f32⟩
  | 122 => ⟨S1x64, .f32⟩
  | 123 => ⟨S50000x64, .f32⟩
  | 124 => ⟨S1x64x64, .f32⟩
  | 125 => ⟨S64x64, .f32⟩
  | 126 => ⟨S1x64x64, .f32⟩
  | 127 => ⟨S64x64, .f32⟩
  | _ => ⟨S50000x8, .f32⟩

abbrev hbmTy0_1 (i : Nat) : BufTy := match i % 128 with
  | 0 => ⟨S1x64, .f32⟩
  | 1 => ⟨S64, .f32⟩
  | 2 => ⟨S1x64, .f32⟩
  | 3 => ⟨S64, .f32⟩
  | 4 => ⟨S1x64, .f32⟩
  | 5 => ⟨S64, .f32⟩
  | 6 => ⟨S_, .i32⟩
  | 7 => ⟨S800000, .i32⟩
  | 8 => ⟨S800000, .i1⟩
  | 9 => ⟨S_, .i32⟩
  | 10 => ⟨S800000, .i32⟩
  | 11 => ⟨S800000, .i32⟩
  | 12 => ⟨S800000, .i32⟩
  | 13 => ⟨S800000x1, .i32⟩
  | 14 => ⟨S800000x64, .f32⟩
  | 15 => ⟨S_, .f32⟩
  | 16 => ⟨S50000x64, .f32⟩
  | 17 => ⟨S800000x1, .i32⟩
  | 18 => ⟨S50000x64, .f32⟩
  | 19 => ⟨S1x64, .f32⟩
  | 20 => ⟨S50000x64, .f32⟩
  | 21 => ⟨S1x64, .f32⟩
  | 22 => ⟨S1x64, .f32⟩
  | 23 => ⟨S_, .f32⟩
  | 24 => ⟨S1x64, .f32⟩
  | 25 => ⟨S1x64, .f32⟩
  | 26 => ⟨S_, .f32⟩
  | 27 => ⟨S1x64, .f32⟩
  | 28 => ⟨S1x64, .f32⟩
  | 29 => ⟨S1x64, .f32⟩
  | 30 => ⟨S1x64, .f32⟩
  | 31 => ⟨S1x64, .f32⟩
  | 32 => ⟨S1x64, .f32⟩
  | 33 => ⟨S50000x64, .f32⟩
  | 34 => ⟨S1x64x64, .f32⟩
  | 35 => ⟨S64x64, .f32⟩
  | 36 => ⟨S1x64x64, .f32⟩
  | 37 => ⟨S64x64, .f32⟩
  | 38 => ⟨S1x64, .f32⟩
  | 39 => ⟨S64, .f32⟩
  | 40 => ⟨S1x64, .f32⟩
  | 41 => ⟨S64, .f32⟩
  | 42 => ⟨S1x64, .f32⟩
  | 43 => ⟨S64, .f32⟩
  | 44 => ⟨S_, .i32⟩
  | 45 => ⟨S800000, .i32⟩
  | 46 => ⟨S800000, .i1⟩
  | 47 => ⟨S_, .i32⟩
  | 48 => ⟨S800000, .i32⟩
  | 49 => ⟨S800000, .i32⟩
  | 50 => ⟨S800000, .i32⟩
  | 51 => ⟨S800000x1, .i32⟩
  | 52 => ⟨S800000x64, .f32⟩
  | 53 => ⟨S_, .f32⟩
  | 54 => ⟨S50000x64, .f32⟩
  | 55 => ⟨S800000x1, .i32⟩
  | 56 => ⟨S50000x64, .f32⟩
  | 57 => ⟨S1x64, .f32⟩
  | 58 => ⟨S50000x64, .f32⟩
  | 59 => ⟨S1x64, .f32⟩
  | 60 => ⟨S1x64, .f32⟩
  | 61 => ⟨S_, .f32⟩
  | 62 => ⟨S1x64, .f32⟩
  | 63 => ⟨S1x64, .f32⟩
  | 64 => ⟨S_, .f32⟩
  | 65 => ⟨S1x64, .f32⟩
  | 66 => ⟨S1x64, .f32⟩
  | 67 => ⟨S1x64, .f32⟩
  | 68 => ⟨S1x64, .f32⟩
  | 69 => ⟨S1x64, .f32⟩
  | 70 => ⟨S1x64, .f32⟩
  | 71 => ⟨S50000x64, .f32⟩
  | 72 => ⟨S1x64x64, .f32⟩
  | 73 => ⟨S64x64, .f32⟩
  | 74 => ⟨S1x64x64, .f32⟩
  | 75 => ⟨S64x64, .f32⟩
  | 76 => ⟨S1x64, .f32⟩
  | 77 => ⟨S64, .f32⟩
  | 78 => ⟨S1x64, .f32⟩
  | 79 => ⟨S64, .f32⟩
  | 80 => ⟨S1x64, .f32⟩
  | 81 => ⟨S64, .f32⟩
  | 82 => ⟨S_, .i32⟩
  | 83 => ⟨S800000, .i32⟩
  | 84 => ⟨S800000, .i1⟩
  | 85 => ⟨S_, .i32⟩
  | 86 => ⟨S800000, .i32⟩
  | 87 => ⟨S800000, .i32⟩
  | 88 => ⟨S800000, .i32⟩
  | 89 => ⟨S800000x1, .i32⟩
  | 90 => ⟨S800000x64, .f32⟩
  | 91 => ⟨S_, .f32⟩
  | 92 => ⟨S50000x64, .f32⟩
  | 93 => ⟨S800000x1, .i32⟩
  | 94 => ⟨S50000x64, .f32⟩
  | 95 => ⟨S1x64, .f32⟩
  | 96 => ⟨S50000x64, .f32⟩
  | 97 => ⟨S1x64, .f32⟩
  | 98 => ⟨S1x64, .f32⟩
  | 99 => ⟨S_, .f32⟩
  | 100 => ⟨S1x64, .f32⟩
  | 101 => ⟨S1x64, .f32⟩
  | 102 => ⟨S_, .f32⟩
  | 103 => ⟨S1x64, .f32⟩
  | 104 => ⟨S1x64, .f32⟩
  | 105 => ⟨S1x64, .f32⟩
  | 106 => ⟨S1x64, .f32⟩
  | 107 => ⟨S1x64, .f32⟩
  | 108 => ⟨S1x64, .f32⟩
  | 109 => ⟨S50000x64, .f32⟩
  | 110 => ⟨S1x64x64, .f32⟩
  | 111 => ⟨S64x64, .f32⟩
  | 112 => ⟨S1x64x64, .f32⟩
  | 113 => ⟨S64x64, .f32⟩
  | 114 => ⟨S1x64, .f32⟩
  | 115 => ⟨S64, .f32⟩
  | 116 => ⟨S1x64, .f32⟩
  | 117 => ⟨S64, .f32⟩
  | 118 => ⟨S1x64, .f32⟩
  | 119 => ⟨S64, .f32⟩
  | 120 => ⟨S_, .i32⟩
  | 121 => ⟨S800000, .i32⟩
  | 122 => ⟨S800000, .i1⟩
  | 123 => ⟨S_, .i32⟩
  | 124 => ⟨S800000, .i32⟩
  | 125 => ⟨S800000, .i32⟩
  | 126 => ⟨S800000, .i32⟩
  | 127 => ⟨S800000x1, .i32⟩
  | _ => ⟨S50000x8, .f32⟩

abbrev hbmTy0_2 (i : Nat) : BufTy := match i % 128 with
  | 0 => ⟨S800000x64, .f32⟩
  | 1 => ⟨S_, .f32⟩
  | 2 => ⟨S50000x64, .f32⟩
  | 3 => ⟨S800000x1, .i32⟩
  | 4 => ⟨S50000x64, .f32⟩
  | 5 => ⟨S1x64, .f32⟩
  | 6 => ⟨S50000x64, .f32⟩
  | 7 => ⟨S1x64, .f32⟩
  | 8 => ⟨S1x64, .f32⟩
  | 9 => ⟨S_, .f32⟩
  | 10 => ⟨S1x64, .f32⟩
  | 11 => ⟨S1x64, .f32⟩
  | 12 => ⟨S_, .f32⟩
  | 13 => ⟨S1x64, .f32⟩
  | 14 => ⟨S1x64, .f32⟩
  | 15 => ⟨S1x64, .f32⟩
  | 16 => ⟨S1x64, .f32⟩
  | 17 => ⟨S1x64, .f32⟩
  | 18 => ⟨S1x64, .f32⟩
  | 19 => ⟨S50000x64, .f32⟩
  | 20 => ⟨S1x64x64, .f32⟩
  | 21 => ⟨S64x64, .f32⟩
  | 22 => ⟨S1x64x64, .f32⟩
  | 23 => ⟨S64x64, .f32⟩
  | 24 => ⟨S1x64, .f32⟩
  | 25 => ⟨S64, .f32⟩
  | 26 => ⟨S1x64, .f32⟩
  | 27 => ⟨S64, .f32⟩
  | 28 => ⟨S1x64, .f32⟩
  | 29 => ⟨S64, .f32⟩
  | 30 => ⟨S_, .i32⟩
  | 31 => ⟨S800000, .i32⟩
  | 32 => ⟨S800000, .i1⟩
  | 33 => ⟨S_, .i32⟩
  | 34 => ⟨S800000, .i32⟩
  | 35 => ⟨S800000, .i32⟩
  | 36 => ⟨S800000, .i32⟩
  | 37 => ⟨S800000x1, .i32⟩
  | 38 => ⟨S800000x64, .f32⟩
  | 39 => ⟨S_, .f32⟩
  | 40 => ⟨S50000x64, .f32⟩
  | 41 => ⟨S800000x1, .i32⟩
  | 42 => ⟨S50000x64, .f32⟩
  | 43 => ⟨S1x64, .f32⟩
  | 44 => ⟨S50000x64, .f32⟩
  | 45 => ⟨S1x64, .f32⟩
  | 46 => ⟨S1x64, .f32⟩
  | 47 => ⟨S_, .f32⟩
  | 48 => ⟨S1x64, .f32⟩
  | 49 => ⟨S1x64, .f32⟩
  | 50 => ⟨S_, .f32⟩
  | 51 => ⟨S1x64, .f32⟩
  | 52 => ⟨S1x64, .f32⟩
  | 53 => ⟨S1x64, .f32⟩
  | 54 => ⟨S1x64, .f32⟩
  | 55 => ⟨S1x64, .f32⟩
  | 56 => ⟨S1x64, .f32⟩
  | 57 => ⟨S50000x64, .f32⟩
  | 58 => ⟨S1x200, .f32⟩
  | 59 => ⟨S50000x200, .f32⟩
  | _ => ⟨S50000x8, .f32⟩

abbrev hbmTy (i : Nat) : BufTy := match i / 128 with
  | 0 => hbmTy0_0 i
  | 1 => hbmTy0_1 i
  | 2 => hbmTy0_2 i
  | _ => ⟨S50000x8, .f32⟩

abbrev vmemTy0_0 (i : Nat) : BufTy := match i % 128 with
  | 0 => ⟨S5000x8, .f32⟩
  | 1 => ⟨S5000x8, .f32⟩
  | 2 => ⟨S5000x8, .f32⟩
  | 3 => ⟨S5000x8, .f32⟩
  | 4 => ⟨S64x8, .f32⟩
  | 5 => ⟨S64x8, .f32⟩
  | 6 => ⟨S1x64, .f32⟩
  | 7 => ⟨S5000x64, .f32⟩
  | 8 => ⟨S5000x64, .f32⟩
  | 9 => ⟨S1x64, .f32⟩
  | 10 => ⟨S1x64, .f32⟩
  | 11 => ⟨S5000x64, .f32⟩
  | 12 => ⟨S5000x64, .f32⟩
  | 13 => ⟨S1x64, .f32⟩
  | 14 => ⟨S1x64, .f32⟩
  | 15 => ⟨S1x64, .f32⟩
  | 16 => ⟨S1x64, .f32⟩
  | 17 => ⟨S5000x64, .f32⟩
  | 18 => ⟨S5000x64, .f32⟩
  | 19 => ⟨S5000x64, .f32⟩
  | 20 => ⟨S5000x64, .f32⟩
  | 21 => ⟨S5000x64, .f32⟩
  | 22 => ⟨S5000x64, .f32⟩
  | 23 => ⟨S64x64, .f32⟩
  | 24 => ⟨S64x64, .f32⟩
  | 25 => ⟨S1x64, .f32⟩
  | 26 => ⟨S5000x64, .f32⟩
  | 27 => ⟨S5000x64, .f32⟩
  | 28 => ⟨S1x64, .f32⟩
  | 29 => ⟨S1x64, .f32⟩
  | 30 => ⟨S5000x64, .f32⟩
  | 31 => ⟨S5000x64, .f32⟩
  | 32 => ⟨S1x64, .f32⟩
  | 33 => ⟨S1x64, .f32⟩
  | 34 => ⟨S1x64, .f32⟩
  | 35 => ⟨S1x64, .f32⟩
  | 36 => ⟨S5000x64, .f32⟩
  | 37 => ⟨S5000x64, .f32⟩
  | 38 => ⟨S5000x64, .f32⟩
  | 39 => ⟨S5000x64, .f32⟩
  | 40 => ⟨S5000x64, .f32⟩
  | 41 => ⟨S5000x64, .f32⟩
  | 42 => ⟨S64x64, .f32⟩
  | 43 => ⟨S64x64, .f32⟩
  | 44 => ⟨S1x64, .f32⟩
  | 45 => ⟨S5000x64, .f32⟩
  | 46 => ⟨S5000x64, .f32⟩
  | 47 => ⟨S1x64, .f32⟩
  | 48 => ⟨S1x64, .f32⟩
  | 49 => ⟨S5000x64, .f32⟩
  | 50 => ⟨S5000x64, .f32⟩
  | 51 => ⟨S1x64, .f32⟩
  | 52 => ⟨S1x64, .f32⟩
  | 53 => ⟨S1x64, .f32⟩
  | 54 => ⟨S1x64, .f32⟩
  | 55 => ⟨S5000x64, .f32⟩
  | 56 => ⟨S5000x64, .f32⟩
  | 57 => ⟨S5000x64, .f32⟩
  | 58 => ⟨S5000x64, .f32⟩
  | 59 => ⟨S5000x64, .f32⟩
  | 60 => ⟨S5000x64, .f32⟩
  | 61 => ⟨S64x64, .f32⟩
  | 62 => ⟨S64x64, .f32⟩
  | 63 => ⟨S1x64, .f32⟩
  | 64 => ⟨S5000x64, .f32⟩
  | 65 => ⟨S5000x64, .f32⟩
  | 66 => ⟨S1x64, .f32⟩
  | 67 => ⟨S1x64, .f32⟩
  | 68 => ⟨S5000x64, .f32⟩
  | 69 => ⟨S5000x64, .f32⟩
  | 70 => ⟨S1x64, .f32⟩
  | 71 => ⟨S1x64, .f32⟩
  | 72 => ⟨S1x64, .f32⟩
  | 73 => ⟨S1x64, .f32⟩
  | 74 => ⟨S5000x64, .f32⟩
  | 75 => ⟨S5000x64, .f32⟩
  | 76 => ⟨S5000x64, .f32⟩
  | 77 => ⟨S5000x64, .f32⟩
  | 78 => ⟨S5000x64, .f32⟩
  | 79 => ⟨S5000x64, .f32⟩
  | 80 => ⟨S64x64, .f32⟩
  | 81 => ⟨S64x64, .f32⟩
  | 82 => ⟨S1x64, .f32⟩
  | 83 => ⟨S5000x64, .f32⟩
  | 84 => ⟨S5000x64, .f32⟩
  | 85 => ⟨S1x64, .f32⟩
  | 86 => ⟨S1x64, .f32⟩
  | 87 => ⟨S5000x64, .f32⟩
  | 88 => ⟨S5000x64, .f32⟩
  | 89 => ⟨S1x64, .f32⟩
  | 90 => ⟨S1x64, .f32⟩
  | 91 => ⟨S1x64, .f32⟩
  | 92 => ⟨S1x64, .f32⟩
  | 93 => ⟨S5000x64, .f32⟩
  | 94 => ⟨S5000x64, .f32⟩
  | 95 => ⟨S5000x64, .f32⟩
  | 96 => ⟨S5000x64, .f32⟩
  | 97 => ⟨S5000x64, .f32⟩
  | 98 => ⟨S5000x64, .f32⟩
  | 99 => ⟨S64x64, .f32⟩
  | 100 => ⟨S64x64, .f32⟩
  | 101 => ⟨S1x64, .f32⟩
  | 102 => ⟨S5000x64, .f32⟩
  | 103 => ⟨S5000x64, .f32⟩
  | 104 => ⟨S1x64, .f32⟩
  | 105 => ⟨S1x64, .f32⟩
  | 106 => ⟨S5000x64, .f32⟩
  | 107 => ⟨S5000x64, .f32⟩
  | 108 => ⟨S1x64, .f32⟩
  | 109 => ⟨S1x64, .f32⟩
  | 110 => ⟨S1x64, .f32⟩
  | 111 => ⟨S1x64, .f32⟩
  | 112 => ⟨S5000x64, .f32⟩
  | 113 => ⟨S5000x64, .f32⟩
  | 114 => ⟨S5000x64, .f32⟩
  | 115 => ⟨S5000x64, .f32⟩
  | 116 => ⟨S5000x64, .f32⟩
  | 117 => ⟨S5000x64, .f32⟩
  | 118 => ⟨S64x64, .f32⟩
  | 119 => ⟨S64x64, .f32⟩
  | 120 => ⟨S1x64, .f32⟩
  | 121 => ⟨S5000x64, .f32⟩
  | 122 => ⟨S5000x64, .f32⟩
  | 123 => ⟨S1x64, .f32⟩
  | 124 => ⟨S1x64, .f32⟩
  | 125 => ⟨S5000x64, .f32⟩
  | 126 => ⟨S5000x64, .f32⟩
  | 127 => ⟨S1x64, .f32⟩
  | _ => ⟨S50000x8, .f32⟩

abbrev vmemTy0_1 (i : Nat) : BufTy := match i % 128 with
  | 0 => ⟨S1x64, .f32⟩
  | 1 => ⟨S1x64, .f32⟩
  | 2 => ⟨S1x64, .f32⟩
  | 3 => ⟨S5000x64, .f32⟩
  | 4 => ⟨S5000x64, .f32⟩
  | 5 => ⟨S5000x64, .f32⟩
  | 6 => ⟨S5000x64, .f32⟩
  | 7 => ⟨S5000x64, .f32⟩
  | 8 => ⟨S5000x64, .f32⟩
  | 9 => ⟨S64x64, .f32⟩
  | 10 => ⟨S64x64, .f32⟩
  | 11 => ⟨S1x64, .f32⟩
  | 12 => ⟨S5000x64, .f32⟩
  | 13 => ⟨S5000x64, .f32⟩
  | 14 => ⟨S1x64, .f32⟩
  | 15 => ⟨S1x64, .f32⟩
  | 16 => ⟨S5000x64, .f32⟩
  | 17 => ⟨S5000x64, .f32⟩
  | 18 => ⟨S1x64, .f32⟩
  | 19 => ⟨S1x64, .f32⟩
  | 20 => ⟨S1x64, .f32⟩
  | 21 => ⟨S1x64, .f32⟩
  | 22 => ⟨S5000x64, .f32⟩
  | 23 => ⟨S5000x64, .f32⟩
  | 24 => ⟨S5000x64, .f32⟩
  | 25 => ⟨S5000x64, .f32⟩
  | 26 => ⟨S200x64, .f32⟩
  | 27 => ⟨S1x200, .f32⟩
  | 28 => ⟨S5000x200, .f32⟩
  | 29 => ⟨S5000x200, .f32⟩
  | _ => ⟨S50000x8, .f32⟩

abbrev vmemTy (i : Nat) : BufTy := match i / 128 with
  | 0 => vmemTy0_0 i
  | 1 => vmemTy0_1 i
  | _ => ⟨S50000x8, .f32⟩

abbrev bufTy : (tb : Table) → Fin (tcTables nBuf tb) → BufTy
  | .hbm, ⟨i, _⟩ => hbmTy i
  | .local _ .vmem, ⟨i, _⟩ => vmemTy i
  | _, _ => ⟨S50000x8, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 158 → Bool
  | ⟨i, _⟩ => dmaSemScopedAt i

abbrev sig : RefSig :=
  ofTc nBuf bufTy 0 158 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c : Ref sig .tc := ⟨.hbm, 20, rfl⟩
abbrev main_v8 : Ref sig .tc := ⟨.hbm, 21, rfl⟩
abbrev main_v9 : Ref sig .tc := ⟨.hbm, 22, rfl⟩
abbrev main_c_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19_0 : Ref sig .tc := ⟨.hbm, 34, rfl⟩
abbrev main_v19_1 : Ref sig .tc := ⟨.hbm, 35, rfl⟩
abbrev main_v19_2 : Ref sig .tc := ⟨.hbm, 36, rfl⟩
abbrev main_cst_1 : Ref sig .tc := ⟨.hbm, 37, rfl⟩
abbrev main_v20 : Ref sig .tc := ⟨.hbm, 38, rfl⟩
abbrev main_v21 : Ref sig .tc := ⟨.hbm, 39, rfl⟩
abbrev main_cst_2 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_c_3 : Ref sig .tc := ⟨.hbm, 58, rfl⟩
abbrev main_v39 : Ref sig .tc := ⟨.hbm, 59, rfl⟩
abbrev main_v40 : Ref sig .tc := ⟨.hbm, 60, rfl⟩
abbrev main_c_4 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_5 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50_0 : Ref sig .tc := ⟨.hbm, 72, rfl⟩
abbrev main_v50_1 : Ref sig .tc := ⟨.hbm, 73, rfl⟩
abbrev main_v50_2 : Ref sig .tc := ⟨.hbm, 74, rfl⟩
abbrev main_cst_6 : Ref sig .tc := ⟨.hbm, 75, rfl⟩
abbrev main_v51 : Ref sig .tc := ⟨.hbm, 76, rfl⟩
abbrev main_v52 : Ref sig .tc := ⟨.hbm, 77, rfl⟩
abbrev main_cst_7 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_c_8 : Ref sig .tc := ⟨.hbm, 96, rfl⟩
abbrev main_v70 : Ref sig .tc := ⟨.hbm, 97, rfl⟩
abbrev main_v71 : Ref sig .tc := ⟨.hbm, 98, rfl⟩
abbrev main_c_9 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_cst_10 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81_0 : Ref sig .tc := ⟨.hbm, 110, rfl⟩
abbrev main_v81_1 : Ref sig .tc := ⟨.hbm, 111, rfl⟩
abbrev main_v81_2 : Ref sig .tc := ⟨.hbm, 112, rfl⟩
abbrev main_cst_11 : Ref sig .tc := ⟨.hbm, 113, rfl⟩
abbrev main_v82 : Ref sig .tc := ⟨.hbm, 114, rfl⟩
abbrev main_v83 : Ref sig .tc := ⟨.hbm, 115, rfl⟩
abbrev main_cst_12 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_c_13 : Ref sig .tc := ⟨.hbm, 134, rfl⟩
abbrev main_v101 : Ref sig .tc := ⟨.hbm, 135, rfl⟩
abbrev main_v102 : Ref sig .tc := ⟨.hbm, 136, rfl⟩
abbrev main_c_14 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_cst_15 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112_0 : Ref sig .tc := ⟨.hbm, 148, rfl⟩
abbrev main_v112_1 : Ref sig .tc := ⟨.hbm, 149, rfl⟩
abbrev main_v112_2 : Ref sig .tc := ⟨.hbm, 150, rfl⟩
abbrev main_cst_16 : Ref sig .tc := ⟨.hbm, 151, rfl⟩
abbrev main_v113 : Ref sig .tc := ⟨.hbm, 152, rfl⟩
abbrev main_v114 : Ref sig .tc := ⟨.hbm, 153, rfl⟩
abbrev main_cst_17 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_c_18 : Ref sig .tc := ⟨.hbm, 172, rfl⟩
abbrev main_v132 : Ref sig .tc := ⟨.hbm, 173, rfl⟩
abbrev main_v133 : Ref sig .tc := ⟨.hbm, 174, rfl⟩
abbrev main_c_19 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_cst_20 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143_0 : Ref sig .tc := ⟨.hbm, 186, rfl⟩
abbrev main_v143_1 : Ref sig .tc := ⟨.hbm, 187, rfl⟩
abbrev main_v143_2 : Ref sig .tc := ⟨.hbm, 188, rfl⟩
abbrev main_cst_21 : Ref sig .tc := ⟨.hbm, 189, rfl⟩
abbrev main_v144 : Ref sig .tc := ⟨.hbm, 190, rfl⟩
abbrev main_v145 : Ref sig .tc := ⟨.hbm, 191, rfl⟩
abbrev main_cst_22 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_c_23 : Ref sig .tc := ⟨.hbm, 210, rfl⟩
abbrev main_v163 : Ref sig .tc := ⟨.hbm, 211, rfl⟩
abbrev main_v164 : Ref sig .tc := ⟨.hbm, 212, rfl⟩
abbrev main_c_24 : Ref sig .tc := ⟨.hbm, 213, rfl⟩
abbrev main_v165 : Ref sig .tc := ⟨.hbm, 214, rfl⟩
abbrev main_v166 : Ref sig .tc := ⟨.hbm, 215, rfl⟩
abbrev main_v167 : Ref sig .tc := ⟨.hbm, 216, rfl⟩
abbrev main_v168 : Ref sig .tc := ⟨.hbm, 217, rfl⟩
abbrev main_v169 : Ref sig .tc := ⟨.hbm, 218, rfl⟩
abbrev main_cst_25 : Ref sig .tc := ⟨.hbm, 219, rfl⟩
abbrev main_v170 : Ref sig .tc := ⟨.hbm, 220, rfl⟩
abbrev main_v171 : Ref sig .tc := ⟨.hbm, 221, rfl⟩
abbrev main_v172 : Ref sig .tc := ⟨.hbm, 222, rfl⟩
abbrev main_v173 : Ref sig .tc := ⟨.hbm, 223, rfl⟩
abbrev main_v174_0 : Ref sig .tc := ⟨.hbm, 224, rfl⟩
abbrev main_v174_1 : Ref sig .tc := ⟨.hbm, 225, rfl⟩
abbrev main_v174_2 : Ref sig .tc := ⟨.hbm, 226, rfl⟩
abbrev main_cst_26 : Ref sig .tc := ⟨.hbm, 227, rfl⟩
abbrev main_v175 : Ref sig .tc := ⟨.hbm, 228, rfl⟩
abbrev main_v176 : Ref sig .tc := ⟨.hbm, 229, rfl⟩
abbrev main_cst_27 : Ref sig .tc := ⟨.hbm, 230, rfl⟩
abbrev main_v177 : Ref sig .tc := ⟨.hbm, 231, rfl⟩
abbrev main_v178 : Ref sig .tc := ⟨.hbm, 232, rfl⟩
abbrev main_v179 : Ref sig .tc := ⟨.hbm, 233, rfl⟩
abbrev main_v180 : Ref sig .tc := ⟨.hbm, 234, rfl⟩
abbrev main_v181 : Ref sig .tc := ⟨.hbm, 235, rfl⟩
abbrev main_v182 : Ref sig .tc := ⟨.hbm, 236, rfl⟩
abbrev main_v183 : Ref sig .tc := ⟨.hbm, 237, rfl⟩
abbrev main_v184 : Ref sig .tc := ⟨.hbm, 238, rfl⟩
abbrev main_v185 : Ref sig .tc := ⟨.hbm, 239, rfl⟩
abbrev main_v186 : Ref sig .tc := ⟨.hbm, 240, rfl⟩
abbrev main_v187 : Ref sig .tc := ⟨.hbm, 241, rfl⟩
abbrev main_v188 : Ref sig .tc := ⟨.hbm, 242, rfl⟩
abbrev main_v189 : Ref sig .tc := ⟨.hbm, 243, rfl⟩
abbrev main_v190 : Ref sig .tc := ⟨.hbm, 244, rfl⟩
abbrev main_v191 : Ref sig .tc := ⟨.hbm, 245, rfl⟩
abbrev main_v192 : Ref sig .tc := ⟨.hbm, 246, rfl⟩
abbrev main_v193 : Ref sig .tc := ⟨.hbm, 247, rfl⟩
abbrev main_c_28 : Ref sig .tc := ⟨.hbm, 248, rfl⟩
abbrev main_v194 : Ref sig .tc := ⟨.hbm, 249, rfl⟩
abbrev main_v195 : Ref sig .tc := ⟨.hbm, 250, rfl⟩
abbrev main_c_29 : Ref sig .tc := ⟨.hbm, 251, rfl⟩
abbrev main_v196 : Ref sig .tc := ⟨.hbm, 252, rfl⟩
abbrev main_v197 : Ref sig .tc := ⟨.hbm, 253, rfl⟩
abbrev main_v198 : Ref sig .tc := ⟨.hbm, 254, rfl⟩
abbrev main_v199 : Ref sig .tc := ⟨.hbm, 255, rfl⟩
abbrev main_v200 : Ref sig .tc := ⟨.hbm, 256, rfl⟩
abbrev main_cst_30 : Ref sig .tc := ⟨.hbm, 257, rfl⟩
abbrev main_v201 : Ref sig .tc := ⟨.hbm, 258, rfl⟩
abbrev main_v202 : Ref sig .tc := ⟨.hbm, 259, rfl⟩
abbrev main_v203 : Ref sig .tc := ⟨.hbm, 260, rfl⟩
abbrev main_v204 : Ref sig .tc := ⟨.hbm, 261, rfl⟩
abbrev main_v205_0 : Ref sig .tc := ⟨.hbm, 262, rfl⟩
abbrev main_v205_1 : Ref sig .tc := ⟨.hbm, 263, rfl⟩
abbrev main_v205_2 : Ref sig .tc := ⟨.hbm, 264, rfl⟩
abbrev main_cst_31 : Ref sig .tc := ⟨.hbm, 265, rfl⟩
abbrev main_v206 : Ref sig .tc := ⟨.hbm, 266, rfl⟩
abbrev main_v207 : Ref sig .tc := ⟨.hbm, 267, rfl⟩
abbrev main_cst_32 : Ref sig .tc := ⟨.hbm, 268, rfl⟩
abbrev main_v208 : Ref sig .tc := ⟨.hbm, 269, rfl⟩
abbrev main_v209 : Ref sig .tc := ⟨.hbm, 270, rfl⟩
abbrev main_v210 : Ref sig .tc := ⟨.hbm, 271, rfl⟩
abbrev main_v211 : Ref sig .tc := ⟨.hbm, 272, rfl⟩
abbrev main_v212 : Ref sig .tc := ⟨.hbm, 273, rfl⟩
abbrev main_v213 : Ref sig .tc := ⟨.hbm, 274, rfl⟩
abbrev main_v214 : Ref sig .tc := ⟨.hbm, 275, rfl⟩
abbrev main_v215 : Ref sig .tc := ⟨.hbm, 276, rfl⟩
abbrev main_v216 : Ref sig .tc := ⟨.hbm, 277, rfl⟩
abbrev main_v217 : Ref sig .tc := ⟨.hbm, 278, rfl⟩
abbrev main_v218 : Ref sig .tc := ⟨.hbm, 279, rfl⟩
abbrev main_v219 : Ref sig .tc := ⟨.hbm, 280, rfl⟩
abbrev main_v220 : Ref sig .tc := ⟨.hbm, 281, rfl⟩
abbrev main_v221 : Ref sig .tc := ⟨.hbm, 282, rfl⟩
abbrev main_v222 : Ref sig .tc := ⟨.hbm, 283, rfl⟩
abbrev main_v223 : Ref sig .tc := ⟨.hbm, 284, rfl⟩
abbrev main_v224 : Ref sig .tc := ⟨.hbm, 285, rfl⟩
abbrev main_c_33 : Ref sig .tc := ⟨.hbm, 286, rfl⟩
abbrev main_v225 : Ref sig .tc := ⟨.hbm, 287, rfl⟩
abbrev main_v226 : Ref sig .tc := ⟨.hbm, 288, rfl⟩
abbrev main_c_34 : Ref sig .tc := ⟨.hbm, 289, rfl⟩
abbrev main_v227 : Ref sig .tc := ⟨.hbm, 290, rfl⟩
abbrev main_v228 : Ref sig .tc := ⟨.hbm, 291, rfl⟩
abbrev main_v229 : Ref sig .tc := ⟨.hbm, 292, rfl⟩
abbrev main_v230 : Ref sig .tc := ⟨.hbm, 293, rfl⟩
abbrev main_v231 : Ref sig .tc := ⟨.hbm, 294, rfl⟩
abbrev main_cst_35 : Ref sig .tc := ⟨.hbm, 295, rfl⟩
abbrev main_v232 : Ref sig .tc := ⟨.hbm, 296, rfl⟩
abbrev main_v233 : Ref sig .tc := ⟨.hbm, 297, rfl⟩
abbrev main_v234 : Ref sig .tc := ⟨.hbm, 298, rfl⟩
abbrev main_v235 : Ref sig .tc := ⟨.hbm, 299, rfl⟩
abbrev main_v236_0 : Ref sig .tc := ⟨.hbm, 300, rfl⟩
abbrev main_v236_1 : Ref sig .tc := ⟨.hbm, 301, rfl⟩
abbrev main_v236_2 : Ref sig .tc := ⟨.hbm, 302, rfl⟩
abbrev main_cst_36 : Ref sig .tc := ⟨.hbm, 303, rfl⟩
abbrev main_v237 : Ref sig .tc := ⟨.hbm, 304, rfl⟩
abbrev main_v238 : Ref sig .tc := ⟨.hbm, 305, rfl⟩
abbrev main_cst_37 : Ref sig .tc := ⟨.hbm, 306, rfl⟩
abbrev main_v239 : Ref sig .tc := ⟨.hbm, 307, rfl⟩
abbrev main_v240 : Ref sig .tc := ⟨.hbm, 308, rfl⟩
abbrev main_v241 : Ref sig .tc := ⟨.hbm, 309, rfl⟩
abbrev main_v242 : Ref sig .tc := ⟨.hbm, 310, rfl⟩
abbrev main_v243 : Ref sig .tc := ⟨.hbm, 311, rfl⟩
abbrev main_v244 : Ref sig .tc := ⟨.hbm, 312, rfl⟩
abbrev main_v245 : Ref sig .tc := ⟨.hbm, 313, rfl⟩
abbrev main_v246 : Ref sig .tc := ⟨.hbm, 314, rfl⟩
abbrev main_v247 : Ref sig .tc := ⟨.hbm, 315, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg5_1 : Ref sig .tc := ⟨.vmem, 27, rfl⟩
abbrev cc2_stg6_0 : Ref sig .tc := ⟨.vmem, 28, rfl⟩
abbrev cc2_stg7_0 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg5_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg1_1 : Ref sig .tc := ⟨.vmem, 41, rfl⟩
abbrev cc4_stg2_0 : Ref sig .tc := ⟨.vmem, 42, rfl⟩
abbrev cc4_stg3_0 : Ref sig .tc := ⟨.vmem, 43, rfl⟩
abbrev cc4_stg4_0 : Ref sig .tc := ⟨.vmem, 44, rfl⟩
abbrev cc4_stg5_0 : Ref sig .tc := ⟨.vmem, 45, rfl⟩
abbrev cc4_stg5_1 : Ref sig .tc := ⟨.vmem, 46, rfl⟩
abbrev cc4_stg6_0 : Ref sig .tc := ⟨.vmem, 47, rfl⟩
abbrev cc4_stg7_0 : Ref sig .tc := ⟨.vmem, 48, rfl⟩
abbrev cc5_stg0_0 : Ref sig .tc := ⟨.vmem, 49, rfl⟩
abbrev cc5_stg0_1 : Ref sig .tc := ⟨.vmem, 50, rfl⟩
abbrev cc5_stg1_0 : Ref sig .tc := ⟨.vmem, 51, rfl⟩
abbrev cc5_stg2_0 : Ref sig .tc := ⟨.vmem, 52, rfl⟩
abbrev cc5_stg3_0 : Ref sig .tc := ⟨.vmem, 53, rfl⟩
abbrev cc5_stg4_0 : Ref sig .tc := ⟨.vmem, 54, rfl⟩
abbrev cc5_stg5_0 : Ref sig .tc := ⟨.vmem, 55, rfl⟩
abbrev cc5_stg5_1 : Ref sig .tc := ⟨.vmem, 56, rfl⟩
abbrev cc6_stg0_0 : Ref sig .tc := ⟨.vmem, 57, rfl⟩
abbrev cc6_stg0_1 : Ref sig .tc := ⟨.vmem, 58, rfl⟩
abbrev cc6_stg1_0 : Ref sig .tc := ⟨.vmem, 59, rfl⟩
abbrev cc6_stg1_1 : Ref sig .tc := ⟨.vmem, 60, rfl⟩
abbrev cc6_stg2_0 : Ref sig .tc := ⟨.vmem, 61, rfl⟩
abbrev cc6_stg3_0 : Ref sig .tc := ⟨.vmem, 62, rfl⟩
abbrev cc6_stg4_0 : Ref sig .tc := ⟨.vmem, 63, rfl⟩
abbrev cc6_stg5_0 : Ref sig .tc := ⟨.vmem, 64, rfl⟩
abbrev cc6_stg5_1 : Ref sig .tc := ⟨.vmem, 65, rfl⟩
abbrev cc6_stg6_0 : Ref sig .tc := ⟨.vmem, 66, rfl⟩
abbrev cc6_stg7_0 : Ref sig .tc := ⟨.vmem, 67, rfl⟩
abbrev cc7_stg0_0 : Ref sig .tc := ⟨.vmem, 68, rfl⟩
abbrev cc7_stg0_1 : Ref sig .tc := ⟨.vmem, 69, rfl⟩
abbrev cc7_stg1_0 : Ref sig .tc := ⟨.vmem, 70, rfl⟩
abbrev cc7_stg2_0 : Ref sig .tc := ⟨.vmem, 71, rfl⟩
abbrev cc7_stg3_0 : Ref sig .tc := ⟨.vmem, 72, rfl⟩
abbrev cc7_stg4_0 : Ref sig .tc := ⟨.vmem, 73, rfl⟩
abbrev cc7_stg5_0 : Ref sig .tc := ⟨.vmem, 74, rfl⟩
abbrev cc7_stg5_1 : Ref sig .tc := ⟨.vmem, 75, rfl⟩
abbrev cc8_stg0_0 : Ref sig .tc := ⟨.vmem, 76, rfl⟩
abbrev cc8_stg0_1 : Ref sig .tc := ⟨.vmem, 77, rfl⟩
abbrev cc8_stg1_0 : Ref sig .tc := ⟨.vmem, 78, rfl⟩
abbrev cc8_stg1_1 : Ref sig .tc := ⟨.vmem, 79, rfl⟩
abbrev cc8_stg2_0 : Ref sig .tc := ⟨.vmem, 80, rfl⟩
abbrev cc8_stg3_0 : Ref sig .tc := ⟨.vmem, 81, rfl⟩
abbrev cc8_stg4_0 : Ref sig .tc := ⟨.vmem, 82, rfl⟩
abbrev cc8_stg5_0 : Ref sig .tc := ⟨.vmem, 83, rfl⟩
abbrev cc8_stg5_1 : Ref sig .tc := ⟨.vmem, 84, rfl⟩
abbrev cc8_stg6_0 : Ref sig .tc := ⟨.vmem, 85, rfl⟩
abbrev cc8_stg7_0 : Ref sig .tc := ⟨.vmem, 86, rfl⟩
abbrev cc9_stg0_0 : Ref sig .tc := ⟨.vmem, 87, rfl⟩
abbrev cc9_stg0_1 : Ref sig .tc := ⟨.vmem, 88, rfl⟩
abbrev cc9_stg1_0 : Ref sig .tc := ⟨.vmem, 89, rfl⟩
abbrev cc9_stg2_0 : Ref sig .tc := ⟨.vmem, 90, rfl⟩
abbrev cc9_stg3_0 : Ref sig .tc := ⟨.vmem, 91, rfl⟩
abbrev cc9_stg4_0 : Ref sig .tc := ⟨.vmem, 92, rfl⟩
abbrev cc9_stg5_0 : Ref sig .tc := ⟨.vmem, 93, rfl⟩
abbrev cc9_stg5_1 : Ref sig .tc := ⟨.vmem, 94, rfl⟩
abbrev cc10_stg0_0 : Ref sig .tc := ⟨.vmem, 95, rfl⟩
abbrev cc10_stg0_1 : Ref sig .tc := ⟨.vmem, 96, rfl⟩
abbrev cc10_stg1_0 : Ref sig .tc := ⟨.vmem, 97, rfl⟩
abbrev cc10_stg1_1 : Ref sig .tc := ⟨.vmem, 98, rfl⟩
abbrev cc10_stg2_0 : Ref sig .tc := ⟨.vmem, 99, rfl⟩
abbrev cc10_stg3_0 : Ref sig .tc := ⟨.vmem, 100, rfl⟩
abbrev cc10_stg4_0 : Ref sig .tc := ⟨.vmem, 101, rfl⟩
abbrev cc10_stg5_0 : Ref sig .tc := ⟨.vmem, 102, rfl⟩
abbrev cc10_stg5_1 : Ref sig .tc := ⟨.vmem, 103, rfl⟩
abbrev cc10_stg6_0 : Ref sig .tc := ⟨.vmem, 104, rfl⟩
abbrev cc10_stg7_0 : Ref sig .tc := ⟨.vmem, 105, rfl⟩
abbrev cc11_stg0_0 : Ref sig .tc := ⟨.vmem, 106, rfl⟩
abbrev cc11_stg0_1 : Ref sig .tc := ⟨.vmem, 107, rfl⟩
abbrev cc11_stg1_0 : Ref sig .tc := ⟨.vmem, 108, rfl⟩
abbrev cc11_stg2_0 : Ref sig .tc := ⟨.vmem, 109, rfl⟩
abbrev cc11_stg3_0 : Ref sig .tc := ⟨.vmem, 110, rfl⟩
abbrev cc11_stg4_0 : Ref sig .tc := ⟨.vmem, 111, rfl⟩
abbrev cc11_stg5_0 : Ref sig .tc := ⟨.vmem, 112, rfl⟩
abbrev cc11_stg5_1 : Ref sig .tc := ⟨.vmem, 113, rfl⟩
abbrev cc12_stg0_0 : Ref sig .tc := ⟨.vmem, 114, rfl⟩
abbrev cc12_stg0_1 : Ref sig .tc := ⟨.vmem, 115, rfl⟩
abbrev cc12_stg1_0 : Ref sig .tc := ⟨.vmem, 116, rfl⟩
abbrev cc12_stg1_1 : Ref sig .tc := ⟨.vmem, 117, rfl⟩
abbrev cc12_stg2_0 : Ref sig .tc := ⟨.vmem, 118, rfl⟩
abbrev cc12_stg3_0 : Ref sig .tc := ⟨.vmem, 119, rfl⟩
abbrev cc12_stg4_0 : Ref sig .tc := ⟨.vmem, 120, rfl⟩
abbrev cc12_stg5_0 : Ref sig .tc := ⟨.vmem, 121, rfl⟩
abbrev cc12_stg5_1 : Ref sig .tc := ⟨.vmem, 122, rfl⟩
abbrev cc12_stg6_0 : Ref sig .tc := ⟨.vmem, 123, rfl⟩
abbrev cc12_stg7_0 : Ref sig .tc := ⟨.vmem, 124, rfl⟩
abbrev cc13_stg0_0 : Ref sig .tc := ⟨.vmem, 125, rfl⟩
abbrev cc13_stg0_1 : Ref sig .tc := ⟨.vmem, 126, rfl⟩
abbrev cc13_stg1_0 : Ref sig .tc := ⟨.vmem, 127, rfl⟩
abbrev cc13_stg2_0 : Ref sig .tc := ⟨.vmem, 128, rfl⟩
abbrev cc13_stg3_0 : Ref sig .tc := ⟨.vmem, 129, rfl⟩
abbrev cc13_stg4_0 : Ref sig .tc := ⟨.vmem, 130, rfl⟩
abbrev cc13_stg5_0 : Ref sig .tc := ⟨.vmem, 131, rfl⟩
abbrev cc13_stg5_1 : Ref sig .tc := ⟨.vmem, 132, rfl⟩
abbrev cc14_stg0_0 : Ref sig .tc := ⟨.vmem, 133, rfl⟩
abbrev cc14_stg0_1 : Ref sig .tc := ⟨.vmem, 134, rfl⟩
abbrev cc14_stg1_0 : Ref sig .tc := ⟨.vmem, 135, rfl⟩
abbrev cc14_stg1_1 : Ref sig .tc := ⟨.vmem, 136, rfl⟩
abbrev cc14_stg2_0 : Ref sig .tc := ⟨.vmem, 137, rfl⟩
abbrev cc14_stg3_0 : Ref sig .tc := ⟨.vmem, 138, rfl⟩
abbrev cc14_stg4_0 : Ref sig .tc := ⟨.vmem, 139, rfl⟩
abbrev cc14_stg5_0 : Ref sig .tc := ⟨.vmem, 140, rfl⟩
abbrev cc14_stg5_1 : Ref sig .tc := ⟨.vmem, 141, rfl⟩
abbrev cc14_stg6_0 : Ref sig .tc := ⟨.vmem, 142, rfl⟩
abbrev cc14_stg7_0 : Ref sig .tc := ⟨.vmem, 143, rfl⟩
abbrev cc15_stg0_0 : Ref sig .tc := ⟨.vmem, 144, rfl⟩
abbrev cc15_stg0_1 : Ref sig .tc := ⟨.vmem, 145, rfl⟩
abbrev cc15_stg1_0 : Ref sig .tc := ⟨.vmem, 146, rfl⟩
abbrev cc15_stg2_0 : Ref sig .tc := ⟨.vmem, 147, rfl⟩
abbrev cc15_stg3_0 : Ref sig .tc := ⟨.vmem, 148, rfl⟩
abbrev cc15_stg4_0 : Ref sig .tc := ⟨.vmem, 149, rfl⟩
abbrev cc15_stg5_0 : Ref sig .tc := ⟨.vmem, 150, rfl⟩
abbrev cc15_stg5_1 : Ref sig .tc := ⟨.vmem, 151, rfl⟩
abbrev cc16_stg0_0 : Ref sig .tc := ⟨.vmem, 152, rfl⟩
abbrev cc16_stg0_1 : Ref sig .tc := ⟨.vmem, 153, rfl⟩
abbrev cc16_stg1_0 : Ref sig .tc := ⟨.vmem, 154, rfl⟩
abbrev cc16_stg2_0 : Ref sig .tc := ⟨.vmem, 155, rfl⟩
abbrev cc16_stg3_0 : Ref sig .tc := ⟨.vmem, 156, rfl⟩
abbrev cc16_stg3_1 : Ref sig .tc := ⟨.vmem, 157, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem5_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem5_1 : DmaSem sig := 27
abbrev cc2_sem6_0 : DmaSem sig := 28
abbrev cc2_sem7_0 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem4_0 : DmaSem sig := 35
abbrev cc3_sem5_0 : DmaSem sig := 36
abbrev cc3_sem5_1 : DmaSem sig := 37
abbrev cc4_sem0_0 : DmaSem sig := 38
abbrev cc4_sem0_1 : DmaSem sig := 39
abbrev cc4_sem1_0 : DmaSem sig := 40
abbrev cc4_sem1_1 : DmaSem sig := 41
abbrev cc4_sem2_0 : DmaSem sig := 42
abbrev cc4_sem3_0 : DmaSem sig := 43
abbrev cc4_sem4_0 : DmaSem sig := 44
abbrev cc4_sem5_0 : DmaSem sig := 45
abbrev cc4_sem5_1 : DmaSem sig := 46
abbrev cc4_sem6_0 : DmaSem sig := 47
abbrev cc4_sem7_0 : DmaSem sig := 48
abbrev cc5_sem0_0 : DmaSem sig := 49
abbrev cc5_sem0_1 : DmaSem sig := 50
abbrev cc5_sem1_0 : DmaSem sig := 51
abbrev cc5_sem2_0 : DmaSem sig := 52
abbrev cc5_sem3_0 : DmaSem sig := 53
abbrev cc5_sem4_0 : DmaSem sig := 54
abbrev cc5_sem5_0 : DmaSem sig := 55
abbrev cc5_sem5_1 : DmaSem sig := 56
abbrev cc6_sem0_0 : DmaSem sig := 57
abbrev cc6_sem0_1 : DmaSem sig := 58
abbrev cc6_sem1_0 : DmaSem sig := 59
abbrev cc6_sem1_1 : DmaSem sig := 60
abbrev cc6_sem2_0 : DmaSem sig := 61
abbrev cc6_sem3_0 : DmaSem sig := 62
abbrev cc6_sem4_0 : DmaSem sig := 63
abbrev cc6_sem5_0 : DmaSem sig := 64
abbrev cc6_sem5_1 : DmaSem sig := 65
abbrev cc6_sem6_0 : DmaSem sig := 66
abbrev cc6_sem7_0 : DmaSem sig := 67
abbrev cc7_sem0_0 : DmaSem sig := 68
abbrev cc7_sem0_1 : DmaSem sig := 69
abbrev cc7_sem1_0 : DmaSem sig := 70
abbrev cc7_sem2_0 : DmaSem sig := 71
abbrev cc7_sem3_0 : DmaSem sig := 72
abbrev cc7_sem4_0 : DmaSem sig := 73
abbrev cc7_sem5_0 : DmaSem sig := 74
abbrev cc7_sem5_1 : DmaSem sig := 75
abbrev cc8_sem0_0 : DmaSem sig := 76
abbrev cc8_sem0_1 : DmaSem sig := 77
abbrev cc8_sem1_0 : DmaSem sig := 78
abbrev cc8_sem1_1 : DmaSem sig := 79
abbrev cc8_sem2_0 : DmaSem sig := 80
abbrev cc8_sem3_0 : DmaSem sig := 81
abbrev cc8_sem4_0 : DmaSem sig := 82
abbrev cc8_sem5_0 : DmaSem sig := 83
abbrev cc8_sem5_1 : DmaSem sig := 84
abbrev cc8_sem6_0 : DmaSem sig := 85
abbrev cc8_sem7_0 : DmaSem sig := 86
abbrev cc9_sem0_0 : DmaSem sig := 87
abbrev cc9_sem0_1 : DmaSem sig := 88
abbrev cc9_sem1_0 : DmaSem sig := 89
abbrev cc9_sem2_0 : DmaSem sig := 90
abbrev cc9_sem3_0 : DmaSem sig := 91
abbrev cc9_sem4_0 : DmaSem sig := 92
abbrev cc9_sem5_0 : DmaSem sig := 93
abbrev cc9_sem5_1 : DmaSem sig := 94
abbrev cc10_sem0_0 : DmaSem sig := 95
abbrev cc10_sem0_1 : DmaSem sig := 96
abbrev cc10_sem1_0 : DmaSem sig := 97
abbrev cc10_sem1_1 : DmaSem sig := 98
abbrev cc10_sem2_0 : DmaSem sig := 99
abbrev cc10_sem3_0 : DmaSem sig := 100
abbrev cc10_sem4_0 : DmaSem sig := 101
abbrev cc10_sem5_0 : DmaSem sig := 102
abbrev cc10_sem5_1 : DmaSem sig := 103
abbrev cc10_sem6_0 : DmaSem sig := 104
abbrev cc10_sem7_0 : DmaSem sig := 105
abbrev cc11_sem0_0 : DmaSem sig := 106
abbrev cc11_sem0_1 : DmaSem sig := 107
abbrev cc11_sem1_0 : DmaSem sig := 108
abbrev cc11_sem2_0 : DmaSem sig := 109
abbrev cc11_sem3_0 : DmaSem sig := 110
abbrev cc11_sem4_0 : DmaSem sig := 111
abbrev cc11_sem5_0 : DmaSem sig := 112
abbrev cc11_sem5_1 : DmaSem sig := 113
abbrev cc12_sem0_0 : DmaSem sig := 114
abbrev cc12_sem0_1 : DmaSem sig := 115
abbrev cc12_sem1_0 : DmaSem sig := 116
abbrev cc12_sem1_1 : DmaSem sig := 117
abbrev cc12_sem2_0 : DmaSem sig := 118
abbrev cc12_sem3_0 : DmaSem sig := 119
abbrev cc12_sem4_0 : DmaSem sig := 120
abbrev cc12_sem5_0 : DmaSem sig := 121
abbrev cc12_sem5_1 : DmaSem sig := 122
abbrev cc12_sem6_0 : DmaSem sig := 123
abbrev cc12_sem7_0 : DmaSem sig := 124
abbrev cc13_sem0_0 : DmaSem sig := 125
abbrev cc13_sem0_1 : DmaSem sig := 126
abbrev cc13_sem1_0 : DmaSem sig := 127
abbrev cc13_sem2_0 : DmaSem sig := 128
abbrev cc13_sem3_0 : DmaSem sig := 129
abbrev cc13_sem4_0 : DmaSem sig := 130
abbrev cc13_sem5_0 : DmaSem sig := 131
abbrev cc13_sem5_1 : DmaSem sig := 132
abbrev cc14_sem0_0 : DmaSem sig := 133
abbrev cc14_sem0_1 : DmaSem sig := 134
abbrev cc14_sem1_0 : DmaSem sig := 135
abbrev cc14_sem1_1 : DmaSem sig := 136
abbrev cc14_sem2_0 : DmaSem sig := 137
abbrev cc14_sem3_0 : DmaSem sig := 138
abbrev cc14_sem4_0 : DmaSem sig := 139
abbrev cc14_sem5_0 : DmaSem sig := 140
abbrev cc14_sem5_1 : DmaSem sig := 141
abbrev cc14_sem6_0 : DmaSem sig := 142
abbrev cc14_sem7_0 : DmaSem sig := 143
abbrev cc15_sem0_0 : DmaSem sig := 144
abbrev cc15_sem0_1 : DmaSem sig := 145
abbrev cc15_sem1_0 : DmaSem sig := 146
abbrev cc15_sem2_0 : DmaSem sig := 147
abbrev cc15_sem3_0 : DmaSem sig := 148
abbrev cc15_sem4_0 : DmaSem sig := 149
abbrev cc15_sem5_0 : DmaSem sig := 150
abbrev cc15_sem5_1 : DmaSem sig := 151
abbrev cc16_sem0_0 : DmaSem sig := 152
abbrev cc16_sem0_1 : DmaSem sig := 153
abbrev cc16_sem1_0 : DmaSem sig := 154
abbrev cc16_sem2_0 : DmaSem sig := 155
abbrev cc16_sem3_0 : DmaSem sig := 156
abbrev cc16_sem3_1 : DmaSem sig := 157

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 1 → Memref sig .tc .vmem S1x64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x64 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S64x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x64 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 1 → Memref sig .tc .vmem S1x64 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S1x64 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S5000x64 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S5000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x64 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S64x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S64x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x64 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S5000x64 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev stage8_6 : Fin 1 → Memref sig .tc .vmem S1x64 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 1 → Memref sig .tc .vmem S1x64 .f32 := fun | 0 => Memref.whole cc8_stg7_0 | ⟨_ + 1, h⟩ => absurd h (Nat.not_lt.2 (Nat.le_add_left _ _))
abbrev sem8_7 : Fin 1 → DmaSem sig := fun | 0 => cc8_sem7_0 | ⟨_ + 1, h⟩ => absurd h (Nat.not_lt.2 (Nat.le_add_left _ _))
abbrev reads8_7 : Fin grid8.rank → Bool := ![false]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x64 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x64 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x64 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x64 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S5000x64 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_6 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_7 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 2 → Memref sig .tc .vmem S5000x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S5000x64 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 1 → Memref sig .tc .vmem S64x64 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S64x64 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x64 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 2 → Memref sig .tc .vmem S5000x64 .f32 := fun | 0 => Memref.whole cc10_stg5_0 | 1 => Memref.whole cc10_stg5_1 | ⟨_ + 2, h⟩ => absurd h (Nat.not_lt.2 (Nat.le_add_left _ _))
abbrev sem10_5 : Fin 2 → DmaSem sig := fun | 0 => cc10_sem5_0 | 1 => cc10_sem5_1 | ⟨_ + 2, h⟩ => absurd h (Nat.not_lt.2 (Nat.le_add_left _ _))
abbrev reads10_5 : Fin grid10.rank → Bool := ![true]

abbrev stage10_6 : Fin 1 → Memref sig .tc .vmem S1x64 .f32 := fun | 0 => Memref.whole cc10_stg6_0 | ⟨_ + 1, h⟩ => absurd h (Nat.not_lt.2 (Nat.le_add_left _ _))
abbrev sem10_6 : Fin 1 → DmaSem sig := fun | 0 => cc10_sem6_0 | ⟨_ + 1, h⟩ => absurd h (Nat.not_lt.2 (Nat.le_add_left _ _))
abbrev reads10_6 : Fin grid10.rank → Bool := ![false]

abbrev stage10_7 : Fin 1 → Memref sig .tc .vmem S1x64 .f32 := fun | 0 => Memref.whole cc10_stg7_0 | ⟨_ + 1, h⟩ => absurd h (Nat.not_lt.2 (Nat.le_add_left _ _))
abbrev sem10_7 : Fin 1 → DmaSem sig := fun | 0 => cc10_sem7_0 | ⟨_ + 1, h⟩ => absurd h (Nat.not_lt.2 (Nat.le_add_left _ _))
abbrev reads10_7 : Fin grid10.rank → Bool := ![false]

abbrev grid11 : Pipeline.Grid := ⟨1, ![10], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S5000x64 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x64 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x64 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x64 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x64 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 2 → Memref sig .tc .vmem S5000x64 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

abbrev grid12 : Pipeline.Grid := ⟨1, ![10], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_5 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_6 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_7 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage12_0 : Fin 2 → Memref sig .tc .vmem S5000x64 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S5000x64 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 1 → Memref sig .tc .vmem S64x64 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S64x64 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 1 → Memref sig .tc .vmem S1x64 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev stage12_5 : Fin 2 → Memref sig .tc .vmem S5000x64 .f32 := fun | 0 => Memref.whole cc12_stg5_0 | 1 => Memref.whole cc12_stg5_1 | ⟨_ + 2, h⟩ => absurd h (Nat.not_lt.2 (Nat.le_add_left _ _))
abbrev sem12_5 : Fin 2 → DmaSem sig := fun | 0 => cc12_sem5_0 | 1 => cc12_sem5_1 | ⟨_ + 2, h⟩ => absurd h (Nat.not_lt.2 (Nat.le_add_left _ _))
abbrev reads12_5 : Fin grid12.rank → Bool := ![true]

abbrev stage12_6 : Fin 1 → Memref sig .tc .vmem S1x64 .f32 := fun | 0 => Memref.whole cc12_stg6_0 | ⟨_ + 1, h⟩ => absurd h (Nat.not_lt.2 (Nat.le_add_left _ _))
abbrev sem12_6 : Fin 1 → DmaSem sig := fun | 0 => cc12_sem6_0 | ⟨_ + 1, h⟩ => absurd h (Nat.not_lt.2 (Nat.le_add_left _ _))
abbrev reads12_6 : Fin grid12.rank → Bool := ![false]

abbrev stage12_7 : Fin 1 → Memref sig .tc .vmem S1x64 .f32 := fun | 0 => Memref.whole cc12_stg7_0 | ⟨_ + 1, h⟩ => absurd h (Nat.not_lt.2 (Nat.le_add_left _ _))
abbrev sem12_7 : Fin 1 → DmaSem sig := fun | 0 => cc12_sem7_0 | ⟨_ + 1, h⟩ => absurd h (Nat.not_lt.2 (Nat.le_add_left _ _))
abbrev reads12_7 : Fin grid12.rank → Bool := ![false]

abbrev grid13 : Pipeline.Grid := ⟨1, ![10], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_5 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S5000x64 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S1x64 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 1 → Memref sig .tc .vmem S1x64 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S1x64 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 1 → Memref sig .tc .vmem S1x64 .f32 := fun | 0 => Memref.whole cc13_stg4_0 | ⟨_ + 1, h⟩ => absurd h (Nat.not_lt.2 (Nat.le_add_left _ _))
abbrev sem13_4 : Fin 1 → DmaSem sig := fun | 0 => cc13_sem4_0 | ⟨_ + 1, h⟩ => absurd h (Nat.not_lt.2 (Nat.le_add_left _ _))
abbrev reads13_4 : Fin grid13.rank → Bool := ![false]

abbrev stage13_5 : Fin 2 → Memref sig .tc .vmem S5000x64 .f32 := fun | 0 => Memref.whole cc13_stg5_0 | 1 => Memref.whole cc13_stg5_1 | ⟨_ + 2, h⟩ => absurd h (Nat.not_lt.2 (Nat.le_add_left _ _))
abbrev sem13_5 : Fin 2 → DmaSem sig := fun | 0 => cc13_sem5_0 | 1 => cc13_sem5_1 | ⟨_ + 2, h⟩ => absurd h (Nat.not_lt.2 (Nat.le_add_left _ _))
abbrev reads13_5 : Fin grid13.rank → Bool := ![true]

abbrev grid14 : Pipeline.Grid := ⟨1, ![10], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_4 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_5 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_6 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_7 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage14_0 : Fin 2 → Memref sig .tc .vmem S5000x64 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 2 → Memref sig .tc .vmem S5000x64 .f32 := fun | 0 => Memref.whole cc14_stg1_0 | 1 => Memref.whole cc14_stg1_1 | ⟨_ + 2, h⟩ => absurd h (Nat.not_lt.2 (Nat.le_add_left _ _))
abbrev sem14_1 : Fin 2 → DmaSem sig := fun | 0 => cc14_sem1_0 | 1 => cc14_sem1_1 | ⟨_ + 2, h⟩ => absurd h (Nat.not_lt.2 (Nat.le_add_left _ _))
abbrev reads14_1 : Fin grid14.rank → Bool := ![true]

abbrev stage14_2 : Fin 1 → Memref sig .tc .vmem S64x64 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 1 → Memref sig .tc .vmem S64x64 .f32 := fun | 0 => Memref.whole cc14_stg3_0 | ⟨_ + 1, h⟩ => absurd h (Nat.not_lt.2 (Nat.le_add_left _ _))
abbrev sem14_3 : Fin 1 → DmaSem sig := fun | 0 => cc14_sem3_0 | ⟨_ + 1, h⟩ => absurd h (Nat.not_lt.2 (Nat.le_add_left _ _))
abbrev reads14_3 : Fin grid14.rank → Bool := ![false]

abbrev stage14_4 : Fin 1 → Memref sig .tc .vmem S1x64 .f32 := fun | 0 => Memref.whole cc14_stg4_0 | ⟨_ + 1, h⟩ => absurd h (Nat.not_lt.2 (Nat.le_add_left _ _))
abbrev sem14_4 : Fin 1 → DmaSem sig := fun | 0 => cc14_sem4_0 | ⟨_ + 1, h⟩ => absurd h (Nat.not_lt.2 (Nat.le_add_left _ _))
abbrev reads14_4 : Fin grid14.rank → Bool := ![false]

abbrev stage14_5 : Fin 2 → Memref sig .tc .vmem S5000x64 .f32 := fun | 0 => Memref.whole cc14_stg5_0 | 1 => Memref.whole cc14_stg5_1 | ⟨_ + 2, h⟩ => absurd h (Nat.not_lt.2 (Nat.le_add_left _ _))
abbrev sem14_5 : Fin 2 → DmaSem sig := fun | 0 => cc14_sem5_0 | 1 => cc14_sem5_1 | ⟨_ + 2, h⟩ => absurd h (Nat.not_lt.2 (Nat.le_add_left _ _))
abbrev reads14_5 : Fin grid14.rank → Bool := ![true]

abbrev stage14_6 : Fin 1 → Memref sig .tc .vmem S1x64 .f32 := fun | 0 => Memref.whole cc14_stg6_0 | ⟨_ + 1, h⟩ => absurd h (Nat.not_lt.2 (Nat.le_add_left _ _))
abbrev sem14_6 : Fin 1 → DmaSem sig := fun | 0 => cc14_sem6_0 | ⟨_ + 1, h⟩ => absurd h (Nat.not_lt.2 (Nat.le_add_left _ _))
abbrev reads14_6 : Fin grid14.rank → Bool := ![false]

abbrev stage14_7 : Fin 1 → Memref sig .tc .vmem S1x64 .f32 := fun | 0 => Memref.whole cc14_stg7_0 | ⟨_ + 1, h⟩ => absurd h (Nat.not_lt.2 (Nat.le_add_left _ _))
abbrev sem14_7 : Fin 1 → DmaSem sig := fun | 0 => cc14_sem7_0 | ⟨_ + 1, h⟩ => absurd h (Nat.not_lt.2 (Nat.le_add_left _ _))
abbrev reads14_7 : Fin grid14.rank → Bool := ![false]

abbrev grid15 : Pipeline.Grid := ⟨1, ![10], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_2 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_3 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_4 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_5 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S5000x64 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 1 → Memref sig .tc .vmem S1x64 .f32 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![false]

abbrev stage15_2 : Fin 1 → Memref sig .tc .vmem S1x64 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

abbrev stage15_3 : Fin 1 → Memref sig .tc .vmem S1x64 .f32 := fun | 0 => Memref.whole cc15_stg3_0 | ⟨_ + 1, h⟩ => absurd h (Nat.not_lt.2 (Nat.le_add_left _ _))
abbrev sem15_3 : Fin 1 → DmaSem sig := fun | 0 => cc15_sem3_0 | ⟨_ + 1, h⟩ => absurd h (Nat.not_lt.2 (Nat.le_add_left _ _))
abbrev reads15_3 : Fin grid15.rank → Bool := ![false]

abbrev stage15_4 : Fin 1 → Memref sig .tc .vmem S1x64 .f32 := fun | 0 => Memref.whole cc15_stg4_0 | ⟨_ + 1, h⟩ => absurd h (Nat.not_lt.2 (Nat.le_add_left _ _))
abbrev sem15_4 : Fin 1 → DmaSem sig := fun | 0 => cc15_sem4_0 | ⟨_ + 1, h⟩ => absurd h (Nat.not_lt.2 (Nat.le_add_left _ _))
abbrev reads15_4 : Fin grid15.rank → Bool := ![false]

abbrev stage15_5 : Fin 2 → Memref sig .tc .vmem S5000x64 .f32 := fun | 0 => Memref.whole cc15_stg5_0 | 1 => Memref.whole cc15_stg5_1 | ⟨_ + 2, h⟩ => absurd h (Nat.not_lt.2 (Nat.le_add_left _ _))
abbrev sem15_5 : Fin 2 → DmaSem sig := fun | 0 => cc15_sem5_0 | 1 => cc15_sem5_1 | ⟨_ + 2, h⟩ => absurd h (Nat.not_lt.2 (Nat.le_add_left _ _))
abbrev reads15_5 : Fin grid15.rank → Bool := ![true]

abbrev grid16 : Pipeline.Grid := ⟨1, ![10], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_2 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_3 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage16_0 : Fin 2 → Memref sig .tc .vmem S5000x64 .f32 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 1 → Memref sig .tc .vmem S200x64 .f32 := fun | 0 => Memref.whole cc16_stg1_0 | ⟨_ + 1, h⟩ => absurd h (Nat.not_lt.2 (Nat.le_add_left _ _))
abbrev sem16_1 : Fin 1 → DmaSem sig := fun | 0 => cc16_sem1_0 | ⟨_ + 1, h⟩ => absurd h (Nat.not_lt.2 (Nat.le_add_left _ _))
abbrev reads16_1 : Fin grid16.rank → Bool := ![false]

abbrev stage16_2 : Fin 1 → Memref sig .tc .vmem S1x200 .f32 := fun | 0 => Memref.whole cc16_stg2_0 | ⟨_ + 1, h⟩ => absurd h (Nat.not_lt.2 (Nat.le_add_left _ _))
abbrev sem16_2 : Fin 1 → DmaSem sig := fun | 0 => cc16_sem2_0 | ⟨_ + 1, h⟩ => absurd h (Nat.not_lt.2 (Nat.le_add_left _ _))
abbrev reads16_2 : Fin grid16.rank → Bool := ![false]

abbrev stage16_3 : Fin 2 → Memref sig .tc .vmem S5000x200 .f32 := fun | 0 => Memref.whole cc16_stg3_0 | 1 => Memref.whole cc16_stg3_1 | ⟨_ + 2, h⟩ => absurd h (Nat.not_lt.2 (Nat.le_add_left _ _))
abbrev sem16_3 : Fin 2 → DmaSem sig := fun | 0 => cc16_sem3_0 | 1 => cc16_sem3_1 | ⟨_ + 2, h⟩ => absurd h (Nat.not_lt.2 (Nat.le_add_left _ _))
abbrev reads16_3 : Fin grid16.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S8x64_S1x64_0_0 : S8x64.Slices ![0, 0] S1x64
  shapeCasts_S1x64_S64 : S1x64.ShapeCasts S64
  bcast_S_S800000 : S_.BroadcastsInDim S800000 (![] : Fin 0 → Fin S800000.rank)
  bcast_S800000_S800000x1_0 : S800000.BroadcastsInDim S800000x1 (![0] : Fin 1 → Fin S800000x1.rank)
  bcast_S_S50000x8 : S_.BroadcastsInDim S50000x8 (![] : Fin 0 → Fin S50000x8.rank)
  bcast_S64_S1x64_1 : S64.BroadcastsInDim S1x64 (![1] : Fin 1 → Fin S1x64.rank)
  inb_S1x64_S1x64_0_0 : ∀ a, (![0, 0] : Fin 2 → Nat) a + S1x64.size a ≤ S1x64.size a
  h_S1x64 : 0 < S1x64.numel
  inb_S5000x8_S5000x8_0_0 : ∀ a, (![0, 0] : Fin 2 → Nat) a + S5000x8.size a ≤ S5000x8.size a
  h_S5000x8 : 0 < S5000x8.numel
  shapeCasts_S5000x8_S5000x8 : S5000x8.ShapeCasts S5000x8
  inb_S64x8_S64x8_0_0 : ∀ a, (![0, 0] : Fin 2 → Nat) a + S64x8.size a ≤ S64x8.size a
  h_S64x8 : 0 < S64x8.numel
  transposes_S64x8_p1_0_S8x64 : S64x8.Transposes [1, 0] S8x64
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  reduces_S5000x64_S64 : S5000x64.Reduces [0] S64
  shapeCasts_S64_S1x64 : S64.ShapeCasts S1x64
  bcast_S_S1x64 : S_.BroadcastsInDim S1x64 (![] : Fin 0 → Fin S1x64.rank)
  shapeCasts_S5000x64_S5000x64 : S5000x64.ShapeCasts S5000x64
  slices_S7x64x64_S1x64x64_0_0_0 : S7x64x64.Slices ![0, 0, 0] S1x64x64
  shapeCasts_S1x64x64_S64x64 : S1x64x64.ShapeCasts S64x64
  slices_S7x64_S1x64_0_0 : S7x64.Slices ![0, 0] S1x64
  slices_S8x64_S1x64_1_0 : S8x64.Slices ![1, 0] S1x64
  bcast_S_S50000x64 : S_.BroadcastsInDim S50000x64 (![] : Fin 0 → Fin S50000x64.rank)
  inb_S64x64_S64x64_0_0 : ∀ a, (![0, 0] : Fin 2 → Nat) a + S64x64.size a ≤ S64x64.size a
  h_S64x64 : 0 < S64x64.numel
  shapeCasts_S64x64_S64x64 : S64x64.ShapeCasts S64x64
  transposes_S64x64_p1_0_S64x64 : S64x64.Transposes [1, 0] S64x64
  slices_S7x64x64_S1x64x64_1_0_0 : S7x64x64.Slices ![1, 0, 0] S1x64x64
  slices_S7x64_S1x64_1_0 : S7x64.Slices ![1, 0] S1x64
  slices_S8x64_S1x64_2_0 : S8x64.Slices ![2, 0] S1x64
  slices_S7x64x64_S1x64x64_2_0_0 : S7x64x64.Slices ![2, 0, 0] S1x64x64
  slices_S7x64_S1x64_2_0 : S7x64.Slices ![2, 0] S1x64
  slices_S8x64_S1x64_3_0 : S8x64.Slices ![3, 0] S1x64
  slices_S7x64x64_S1x64x64_3_0_0 : S7x64x64.Slices ![3, 0, 0] S1x64x64
  slices_S7x64_S1x64_3_0 : S7x64.Slices ![3, 0] S1x64
  slices_S8x64_S1x64_4_0 : S8x64.Slices ![4, 0] S1x64
  slices_S7x64x64_S1x64x64_4_0_0 : S7x64x64.Slices ![4, 0, 0] S1x64x64
  slices_S7x64_S1x64_4_0 : S7x64.Slices ![4, 0] S1x64
  slices_S8x64_S1x64_5_0 : S8x64.Slices ![5, 0] S1x64
  slices_S7x64x64_S1x64x64_5_0_0 : S7x64x64.Slices ![5, 0, 0] S1x64x64
  slices_S7x64_S1x64_5_0 : S7x64.Slices ![5, 0] S1x64
  slices_S8x64_S1x64_6_0 : S8x64.Slices ![6, 0] S1x64
  slices_S7x64x64_S1x64x64_6_0_0 : S7x64x64.Slices ![6, 0, 0] S1x64x64
  slices_S7x64_S1x64_6_0 : S7x64.Slices ![6, 0] S1x64
  slices_S8x64_S1x64_7_0 : S8x64.Slices ![7, 0] S1x64
  bcast_S200_S1x200_1 : S200.BroadcastsInDim S1x200 (![1] : Fin 1 → Fin S1x200.rank)
  inb_S200x64_S200x64_0_0 : ∀ a, (![0, 0] : Fin 2 → Nat) a + S200x64.size a ≤ S200x64.size a
  h_S200x64 : 0 < S200x64.numel
  transposes_S200x64_p1_0_S64x200 : S200x64.Transposes [1, 0] S64x200
  inb_S1x200_S1x200_0_0 : ∀ a, (![0, 0] : Fin 2 → Nat) a + S1x200.size a ≤ S1x200.size a
  h_S1x200 : 0 < S1x200.numel
  shapeCasts_S1x200_S1x200 : S1x200.ShapeCasts S1x200
  broadcasts_S1x200_S5000x200 : S1x200.Broadcasts S5000x200
  inb_S5000x200_S5000x200_0_0 : ∀ a, (![0, 0] : Fin 2 → Nat) a + S5000x200.size a ≤ S5000x200.size a
  h_S5000x200 : 0 < S5000x200.numel
  gather_S50000x8_S800000x1_S800000x8_1_0_n_n_0_1_18_wf : GatherDims.WF S50000x8 S800000x1 S800000x8 [1] [0] [] [0] [] 1 ![1, 8]
  scatter_S50000x8_S800000x1_S800000x8_1_0_0_1_wf : ScatterDims.WF S50000x8 S800000x1 S800000x8 [1] [0] [0] 1
  dot_S5000x8_S8x64_S5000x64_1_0_0_1_n_n_wf : DotDims.WF S5000x8 S8x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  dot_S5000x64_S64x200_S5000x200_1_0_0_1_n_n_wf : DotDims.WF S5000x64 S64x200 S5000x200 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x8.size a ≤ S50000x8.size a
  hwx0_0 : ∀ i : grid0.Coords, EltTy.bits .f32 = 32 ∨ (Rect.block (s := S50000x8) S5000x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x8.size a ≤ S50000x8.size a
  hwx0_1 : ∀ i : grid0.Coords, EltTy.bits .f32 = 32 ∨ (Rect.block (s := S50000x8) S5000x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x8.size a ≤ S64x8.size a
  hwx0_2 : ∀ i : grid0.Coords, EltTy.bits .f32 = 32 ∨ (Rect.block (s := S64x8) S64x8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x8.size a ≤ S64x8.size a
  hwx0_3 : ∀ i : grid0.Coords, EltTy.bits .f32 = 32 ∨ (Rect.block (s := S64x8) S64x8.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S50000x64.size a
  hwx0_5 : ∀ i : grid0.Coords, EltTy.bits .f32 = 32 ∨ (Rect.block (s := S50000x64) S5000x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S50000x64.size a
  hwx2_5 : ∀ i : grid2.Coords, EltTy.bits .f32 = 32 ∨ (Rect.block (s := S50000x64) S5000x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x64.size a ≤ S1x64.size a
  hwx2_7 : ∀ i : grid2.Coords, EltTy.bits .f32 = 32 ∨ (Rect.block (s := S1x64) S1x64.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S50000x64.size a
  hwx3_5 : ∀ i : grid3.Coords, EltTy.bits .f32 = 32 ∨ (Rect.block (s := S50000x64) S5000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S50000x64.size a
  hwx4_1 : ∀ i : grid4.Coords, EltTy.bits .f32 = 32 ∨ (Rect.block (s := S50000x64) S5000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x64.size a ≤ S64x64.size a
  hwx4_3 : ∀ i : grid4.Coords, EltTy.bits .f32 = 32 ∨ (Rect.block (s := S64x64) S64x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x64.size a ≤ S50000x64.size a
  hwx4_5 : ∀ i : grid4.Coords, EltTy.bits .f32 = 32 ∨ (Rect.block (s := S50000x64) S5000x64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x64.size a ≤ S1x64.size a
  hwx4_6 : ∀ i : grid4.Coords, EltTy.bits .f32 = 32 ∨ (Rect.block (s := S1x64) S1x64.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x64.size a ≤ S1x64.size a
  hwx4_7 : ∀ i : grid4.Coords, EltTy.bits .f32 = 32 ∨ (Rect.block (s := S1x64) S1x64.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x64.size a ≤ S50000x64.size a
  hwx5_5 : ∀ i : grid5.Coords, EltTy.bits .f32 = 32 ∨ (Rect.block (s := S50000x64) S5000x64.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S50000x64.size a
  hwx6_0 : ∀ i : grid6.Coords, EltTy.bits .f32 = 32 ∨ (Rect.block (s := S50000x64) S5000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x64.size a ≤ S50000x64.size a
  hwx6_1 : ∀ i : grid6.Coords, EltTy.bits .f32 = 32 ∨ (Rect.block (s := S50000x64) S5000x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x64.size a ≤ S64x64.size a
  hwx6_2 : ∀ i : grid6.Coords, EltTy.bits .f32 = 32 ∨ (Rect.block (s := S64x64) S64x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x64.size a ≤ S64x64.size a
  hwx6_3 : ∀ i : grid6.Coords, EltTy.bits .f32 = 32 ∨ (Rect.block (s := S64x64) S64x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x64.size a ≤ S1x64.size a
  hwx6_4 : ∀ i : grid6.Coords, EltTy.bits .f32 = 32 ∨ (Rect.block (s := S1x64) S1x64.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x64.size a ≤ S50000x64.size a
  hwx6_5 : ∀ i : grid6.Coords, EltTy.bits .f32 = 32 ∨ (Rect.block (s := S50000x64) S5000x64.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x64.size a ≤ S1x64.size a
  hwx6_6 : ∀ i : grid6.Coords, EltTy.bits .f32 = 32 ∨ (Rect.block (s := S1x64) S1x64.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S1x64.size a ≤ S1x64.size a
  hwx6_7 : ∀ i : grid6.Coords, EltTy.bits .f32 = 32 ∨ (Rect.block (s := S1x64) S1x64.size (cc6_transform_7 i) (hinb6_7 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S50000x64.size a
  hwx7_0 : ∀ i : grid7.Coords, EltTy.bits .f32 = 32 ∨ (Rect.block (s := S50000x64) S5000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x64.size a ≤ S1x64.size a
  hwx7_1 : ∀ i : grid7.Coords, EltTy.bits .f32 = 32 ∨ (Rect.block (s := S1x64) S1x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x64.size a ≤ S1x64.size a
  hwx7_3 : ∀ i : grid7.Coords, EltTy.bits .f32 = 32 ∨ (Rect.block (s := S1x64) S1x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x64.size a ≤ S1x64.size a
  hwx7_4 : ∀ i : grid7.Coords, EltTy.bits .f32 = 32 ∨ (Rect.block (s := S1x64) S1x64.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S5000x64.size a ≤ S50000x64.size a
  hwx7_5 : ∀ i : grid7.Coords, EltTy.bits .f32 = 32 ∨ (Rect.block (s := S50000x64) S5000x64.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x64.size a ≤ S50000x64.size a
  hwx8_0 : ∀ i : grid8.Coords, EltTy.bits .f32 = 32 ∨ (Rect.block (s := S50000x64) S5000x64.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x64.size a ≤ S50000x64.size a
  hwx8_1 : ∀ i : grid8.Coords, EltTy.bits .f32 = 32 ∨ (Rect.block (s := S50000x64) S5000x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S64x64.size a ≤ S64x64.size a
  hwx8_2 : ∀ i : grid8.Coords, EltTy.bits .f32 = 32 ∨ (Rect.block (s := S64x64) S64x64.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S64x64.size a ≤ S64x64.size a
  hwx8_3 : ∀ i : grid8.Coords, EltTy.bits .f32 = 32 ∨ (Rect.block (s := S64x64) S64x64.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x64.size a ≤ S1x64.size a
  hwx8_4 : ∀ i : grid8.Coords, EltTy.bits .f32 = 32 ∨ (Rect.block (s := S1x64) S1x64.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S5000x64.size a ≤ S50000x64.size a
  hwx8_5 : ∀ i : grid8.Coords, EltTy.bits .f32 = 32 ∨ (Rect.block (s := S50000x64) S5000x64.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S1x64.size a ≤ S1x64.size a
  hwx8_6 : ∀ i : grid8.Coords, EltTy.bits .f32 = 32 ∨ (Rect.block (s := S1x64) S1x64.size (cc8_transform_6 i) (hinb8_6 i)).WholeWords (EltTy.packing .f32)
  hstage8_7 : ∀ j, (stage8_7 j).IsWhole
  nbuf8_7 : grid8.bufCount reads8_7 true = 1
  hreads8_7 : ∀ i i' : grid8.Coords, (∀ a, reads8_7 a = true → i a = i' a) → cc8_transform_7 i = cc8_transform_7 i'
  hinb8_7 : ∀ (i : grid8.Coords) a, (cc8_transform_7 i a + 1) * S1x64.size a ≤ S1x64.size a
  hwx8_7 : ∀ i : grid8.Coords, EltTy.bits .f32 = 32 ∨ (Rect.block (s := S1x64) S1x64.size (cc8_transform_7 i) (hinb8_7 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x64.size a ≤ S50000x64.size a
  hwx9_0 : ∀ i : grid9.Coords, EltTy.bits .f32 = 32 ∨ (Rect.block (s := S50000x64) S5000x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x64.size a ≤ S1x64.size a
  hwx9_1 : ∀ i : grid9.Coords, EltTy.bits .f32 = 32 ∨ (Rect.block (s := S1x64) S1x64.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x64.size a ≤ S1x64.size a
  hwx9_2 : ∀ i : grid9.Coords, EltTy.bits .f32 = 32 ∨ (Rect.block (s := S1x64) S1x64.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x64.size a ≤ S1x64.size a
  hwx9_3 : ∀ i : grid9.Coords, EltTy.bits .f32 = 32 ∨ (Rect.block (s := S1x64) S1x64.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x64.size a ≤ S1x64.size a
  hwx9_4 : ∀ i : grid9.Coords, EltTy.bits .f32 = 32 ∨ (Rect.block (s := S1x64) S1x64.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S5000x64.size a ≤ S50000x64.size a
  hwx9_5 : ∀ i : grid9.Coords, EltTy.bits .f32 = 32 ∨ (Rect.block (s := S50000x64) S5000x64.size (cc9_transform_5 i) (hinb9_5 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x64.size a ≤ S50000x64.size a
  hwx10_0 : ∀ i : grid10.Coords, EltTy.bits .f32 = 32 ∨ (Rect.block (s := S50000x64) S5000x64.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S5000x64.size a ≤ S50000x64.size a
  hwx10_1 : ∀ i : grid10.Coords, EltTy.bits .f32 = 32 ∨ (Rect.block (s := S50000x64) S5000x64.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S64x64.size a ≤ S64x64.size a
  hwx10_2 : ∀ i : grid10.Coords, EltTy.bits .f32 = 32 ∨ (Rect.block (s := S64x64) S64x64.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S64x64.size a ≤ S64x64.size a
  hwx10_3 : ∀ i : grid10.Coords, EltTy.bits .f32 = 32 ∨ (Rect.block (s := S64x64) S64x64.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x64.size a ≤ S1x64.size a
  hwx10_4 : ∀ i : grid10.Coords, EltTy.bits .f32 = 32 ∨ (Rect.block (s := S1x64) S1x64.size (cc10_transform_4 i) (hinb10_4 i)).WholeWords (EltTy.packing .f32)
  hstage10_5 : ∀ j, (stage10_5 j).IsWhole
  nbuf10_5 : grid10.bufCount reads10_5 false = 2
  hreads10_5 : ∀ i i' : grid10.Coords, (∀ a, reads10_5 a = true → i a = i' a) → cc10_transform_5 i = cc10_transform_5 i'
  hinb10_5 : ∀ (i : grid10.Coords) a, (cc10_transform_5 i a + 1) * S5000x64.size a ≤ S50000x64.size a
  hwx10_5 : ∀ i : grid10.Coords, EltTy.bits .f32 = 32 ∨ (Rect.block (s := S50000x64) S5000x64.size (cc10_transform_5 i) (hinb10_5 i)).WholeWords (EltTy.packing .f32)
  hstage10_6 : ∀ j, (stage10_6 j).IsWhole
  nbuf10_6 : grid10.bufCount reads10_6 true = 1
  hreads10_6 : ∀ i i' : grid10.Coords, (∀ a, reads10_6 a = true → i a = i' a) → cc10_transform_6 i = cc10_transform_6 i'
  hinb10_6 : ∀ (i : grid10.Coords) a, (cc10_transform_6 i a + 1) * S1x64.size a ≤ S1x64.size a
  hwx10_6 : ∀ i : grid10.Coords, EltTy.bits .f32 = 32 ∨ (Rect.block (s := S1x64) S1x64.size (cc10_transform_6 i) (hinb10_6 i)).WholeWords (EltTy.packing .f32)
  hstage10_7 : ∀ j, (stage10_7 j).IsWhole
  nbuf10_7 : grid10.bufCount reads10_7 true = 1
  hreads10_7 : ∀ i i' : grid10.Coords, (∀ a, reads10_7 a = true → i a = i' a) → cc10_transform_7 i = cc10_transform_7 i'
  hinb10_7 : ∀ (i : grid10.Coords) a, (cc10_transform_7 i a + 1) * S1x64.size a ≤ S1x64.size a
  hwx10_7 : ∀ i : grid10.Coords, EltTy.bits .f32 = 32 ∨ (Rect.block (s := S1x64) S1x64.size (cc10_transform_7 i) (hinb10_7 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x64.size a ≤ S50000x64.size a
  hwx11_0 : ∀ i : grid11.Coords, EltTy.bits .f32 = 32 ∨ (Rect.block (s := S50000x64) S5000x64.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x64.size a ≤ S1x64.size a
  hwx11_1 : ∀ i : grid11.Coords, EltTy.bits .f32 = 32 ∨ (Rect.block (s := S1x64) S1x64.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x64.size a ≤ S1x64.size a
  hwx11_2 : ∀ i : grid11.Coords, EltTy.bits .f32 = 32 ∨ (Rect.block (s := S1x64) S1x64.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x64.size a ≤ S1x64.size a
  hwx11_3 : ∀ i : grid11.Coords, EltTy.bits .f32 = 32 ∨ (Rect.block (s := S1x64) S1x64.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x64.size a ≤ S1x64.size a
  hwx11_4 : ∀ i : grid11.Coords, EltTy.bits .f32 = 32 ∨ (Rect.block (s := S1x64) S1x64.size (cc11_transform_4 i) (hinb11_4 i)).WholeWords (EltTy.packing .f32)
  hstage11_5 : ∀ j, (stage11_5 j).IsWhole
  nbuf11_5 : grid11.bufCount reads11_5 false = 2
  hreads11_5 : ∀ i i' : grid11.Coords, (∀ a, reads11_5 a = true → i a = i' a) → cc11_transform_5 i = cc11_transform_5 i'
  hinb11_5 : ∀ (i : grid11.Coords) a, (cc11_transform_5 i a + 1) * S5000x64.size a ≤ S50000x64.size a
  hwx11_5 : ∀ i : grid11.Coords, EltTy.bits .f32 = 32 ∨ (Rect.block (s := S50000x64) S5000x64.size (cc11_transform_5 i) (hinb11_5 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S5000x64.size a ≤ S50000x64.size a
  hwx12_0 : ∀ i : grid12.Coords, EltTy.bits .f32 = 32 ∨ (Rect.block (s := S50000x64) S5000x64.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S5000x64.size a ≤ S50000x64.size a
  hwx12_1 : ∀ i : grid12.Coords, EltTy.bits .f32 = 32 ∨ (Rect.block (s := S50000x64) S5000x64.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S64x64.size a ≤ S64x64.size a
  hwx12_2 : ∀ i : grid12.Coords, EltTy.bits .f32 = 32 ∨ (Rect.block (s := S64x64) S64x64.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S64x64.size a ≤ S64x64.size a
  hwx12_3 : ∀ i : grid12.Coords, EltTy.bits .f32 = 32 ∨ (Rect.block (s := S64x64) S64x64.size (cc12_transform_3 i) (hinb12_3 i)).WholeWords (EltTy.packing .f32)
  hstage12_4 : ∀ j, (stage12_4 j).IsWhole
  nbuf12_4 : grid12.bufCount reads12_4 true = 1
  hreads12_4 : ∀ i i' : grid12.Coords, (∀ a, reads12_4 a = true → i a = i' a) → cc12_transform_4 i = cc12_transform_4 i'
  hinb12_4 : ∀ (i : grid12.Coords) a, (cc12_transform_4 i a + 1) * S1x64.size a ≤ S1x64.size a
  hwx12_4 : ∀ i : grid12.Coords, EltTy.bits .f32 = 32 ∨ (Rect.block (s := S1x64) S1x64.size (cc12_transform_4 i) (hinb12_4 i)).WholeWords (EltTy.packing .f32)
  hstage12_5 : ∀ j, (stage12_5 j).IsWhole
  nbuf12_5 : grid12.bufCount reads12_5 false = 2
  hreads12_5 : ∀ i i' : grid12.Coords, (∀ a, reads12_5 a = true → i a = i' a) → cc12_transform_5 i = cc12_transform_5 i'
  hinb12_5 : ∀ (i : grid12.Coords) a, (cc12_transform_5 i a + 1) * S5000x64.size a ≤ S50000x64.size a
  hwx12_5 : ∀ i : grid12.Coords, EltTy.bits .f32 = 32 ∨ (Rect.block (s := S50000x64) S5000x64.size (cc12_transform_5 i) (hinb12_5 i)).WholeWords (EltTy.packing .f32)
  hstage12_6 : ∀ j, (stage12_6 j).IsWhole
  nbuf12_6 : grid12.bufCount reads12_6 true = 1
  hreads12_6 : ∀ i i' : grid12.Coords, (∀ a, reads12_6 a = true → i a = i' a) → cc12_transform_6 i = cc12_transform_6 i'
  hinb12_6 : ∀ (i : grid12.Coords) a, (cc12_transform_6 i a + 1) * S1x64.size a ≤ S1x64.size a
  hwx12_6 : ∀ i : grid12.Coords, EltTy.bits .f32 = 32 ∨ (Rect.block (s := S1x64) S1x64.size (cc12_transform_6 i) (hinb12_6 i)).WholeWords (EltTy.packing .f32)
  hstage12_7 : ∀ j, (stage12_7 j).IsWhole
  nbuf12_7 : grid12.bufCount reads12_7 true = 1
  hreads12_7 : ∀ i i' : grid12.Coords, (∀ a, reads12_7 a = true → i a = i' a) → cc12_transform_7 i = cc12_transform_7 i'
  hinb12_7 : ∀ (i : grid12.Coords) a, (cc12_transform_7 i a + 1) * S1x64.size a ≤ S1x64.size a
  hwx12_7 : ∀ i : grid12.Coords, EltTy.bits .f32 = 32 ∨ (Rect.block (s := S1x64) S1x64.size (cc12_transform_7 i) (hinb12_7 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S5000x64.size a ≤ S50000x64.size a
  hwx13_0 : ∀ i : grid13.Coords, EltTy.bits .f32 = 32 ∨ (Rect.block (s := S50000x64) S5000x64.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S1x64.size a ≤ S1x64.size a
  hwx13_1 : ∀ i : grid13.Coords, EltTy.bits .f32 = 32 ∨ (Rect.block (s := S1x64) S1x64.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S1x64.size a ≤ S1x64.size a
  hwx13_2 : ∀ i : grid13.Coords, EltTy.bits .f32 = 32 ∨ (Rect.block (s := S1x64) S1x64.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S1x64.size a ≤ S1x64.size a
  hwx13_3 : ∀ i : grid13.Coords, EltTy.bits .f32 = 32 ∨ (Rect.block (s := S1x64) S1x64.size (cc13_transform_3 i) (hinb13_3 i)).WholeWords (EltTy.packing .f32)
  hstage13_4 : ∀ j, (stage13_4 j).IsWhole
  nbuf13_4 : grid13.bufCount reads13_4 true = 1
  hreads13_4 : ∀ i i' : grid13.Coords, (∀ a, reads13_4 a = true → i a = i' a) → cc13_transform_4 i = cc13_transform_4 i'
  hinb13_4 : ∀ (i : grid13.Coords) a, (cc13_transform_4 i a + 1) * S1x64.size a ≤ S1x64.size a
  hwx13_4 : ∀ i : grid13.Coords, EltTy.bits .f32 = 32 ∨ (Rect.block (s := S1x64) S1x64.size (cc13_transform_4 i) (hinb13_4 i)).WholeWords (EltTy.packing .f32)
  hstage13_5 : ∀ j, (stage13_5 j).IsWhole
  nbuf13_5 : grid13.bufCount reads13_5 false = 2
  hreads13_5 : ∀ i i' : grid13.Coords, (∀ a, reads13_5 a = true → i a = i' a) → cc13_transform_5 i = cc13_transform_5 i'
  hinb13_5 : ∀ (i : grid13.Coords) a, (cc13_transform_5 i a + 1) * S5000x64.size a ≤ S50000x64.size a
  hwx13_5 : ∀ i : grid13.Coords, EltTy.bits .f32 = 32 ∨ (Rect.block (s := S50000x64) S5000x64.size (cc13_transform_5 i) (hinb13_5 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S5000x64.size a ≤ S50000x64.size a
  hwx14_0 : ∀ i : grid14.Coords, EltTy.bits .f32 = 32 ∨ (Rect.block (s := S50000x64) S5000x64.size (cc14_transform_0 i) (hinb14_0 i)).WholeWords (EltTy.packing .f32)
  hstage14_1 : ∀ j, (stage14_1 j).IsWhole
  nbuf14_1 : grid14.bufCount reads14_1 false = 2
  hreads14_1 : ∀ i i' : grid14.Coords, (∀ a, reads14_1 a = true → i a = i' a) → cc14_transform_1 i = cc14_transform_1 i'
  hinb14_1 : ∀ (i : grid14.Coords) a, (cc14_transform_1 i a + 1) * S5000x64.size a ≤ S50000x64.size a
  hwx14_1 : ∀ i : grid14.Coords, EltTy.bits .f32 = 32 ∨ (Rect.block (s := S50000x64) S5000x64.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S64x64.size a ≤ S64x64.size a
  hwx14_2 : ∀ i : grid14.Coords, EltTy.bits .f32 = 32 ∨ (Rect.block (s := S64x64) S64x64.size (cc14_transform_2 i) (hinb14_2 i)).WholeWords (EltTy.packing .f32)
  hstage14_3 : ∀ j, (stage14_3 j).IsWhole
  nbuf14_3 : grid14.bufCount reads14_3 true = 1
  hreads14_3 : ∀ i i' : grid14.Coords, (∀ a, reads14_3 a = true → i a = i' a) → cc14_transform_3 i = cc14_transform_3 i'
  hinb14_3 : ∀ (i : grid14.Coords) a, (cc14_transform_3 i a + 1) * S64x64.size a ≤ S64x64.size a
  hwx14_3 : ∀ i : grid14.Coords, EltTy.bits .f32 = 32 ∨ (Rect.block (s := S64x64) S64x64.size (cc14_transform_3 i) (hinb14_3 i)).WholeWords (EltTy.packing .f32)
  hstage14_4 : ∀ j, (stage14_4 j).IsWhole
  nbuf14_4 : grid14.bufCount reads14_4 true = 1
  hreads14_4 : ∀ i i' : grid14.Coords, (∀ a, reads14_4 a = true → i a = i' a) → cc14_transform_4 i = cc14_transform_4 i'
  hinb14_4 : ∀ (i : grid14.Coords) a, (cc14_transform_4 i a + 1) * S1x64.size a ≤ S1x64.size a
  hwx14_4 : ∀ i : grid14.Coords, EltTy.bits .f32 = 32 ∨ (Rect.block (s := S1x64) S1x64.size (cc14_transform_4 i) (hinb14_4 i)).WholeWords (EltTy.packing .f32)
  hstage14_5 : ∀ j, (stage14_5 j).IsWhole
  nbuf14_5 : grid14.bufCount reads14_5 false = 2
  hreads14_5 : ∀ i i' : grid14.Coords, (∀ a, reads14_5 a = true → i a = i' a) → cc14_transform_5 i = cc14_transform_5 i'
  hinb14_5 : ∀ (i : grid14.Coords) a, (cc14_transform_5 i a + 1) * S5000x64.size a ≤ S50000x64.size a
  hwx14_5 : ∀ i : grid14.Coords, EltTy.bits .f32 = 32 ∨ (Rect.block (s := S50000x64) S5000x64.size (cc14_transform_5 i) (hinb14_5 i)).WholeWords (EltTy.packing .f32)
  hstage14_6 : ∀ j, (stage14_6 j).IsWhole
  nbuf14_6 : grid14.bufCount reads14_6 true = 1
  hreads14_6 : ∀ i i' : grid14.Coords, (∀ a, reads14_6 a = true → i a = i' a) → cc14_transform_6 i = cc14_transform_6 i'
  hinb14_6 : ∀ (i : grid14.Coords) a, (cc14_transform_6 i a + 1) * S1x64.size a ≤ S1x64.size a
  hwx14_6 : ∀ i : grid14.Coords, EltTy.bits .f32 = 32 ∨ (Rect.block (s := S1x64) S1x64.size (cc14_transform_6 i) (hinb14_6 i)).WholeWords (EltTy.packing .f32)
  hstage14_7 : ∀ j, (stage14_7 j).IsWhole
  nbuf14_7 : grid14.bufCount reads14_7 true = 1
  hreads14_7 : ∀ i i' : grid14.Coords, (∀ a, reads14_7 a = true → i a = i' a) → cc14_transform_7 i = cc14_transform_7 i'
  hinb14_7 : ∀ (i : grid14.Coords) a, (cc14_transform_7 i a + 1) * S1x64.size a ≤ S1x64.size a
  hwx14_7 : ∀ i : grid14.Coords, EltTy.bits .f32 = 32 ∨ (Rect.block (s := S1x64) S1x64.size (cc14_transform_7 i) (hinb14_7 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S5000x64.size a ≤ S50000x64.size a
  hwx15_0 : ∀ i : grid15.Coords, EltTy.bits .f32 = 32 ∨ (Rect.block (s := S50000x64) S5000x64.size (cc15_transform_0 i) (hinb15_0 i)).WholeWords (EltTy.packing .f32)
  hstage15_1 : ∀ j, (stage15_1 j).IsWhole
  nbuf15_1 : grid15.bufCount reads15_1 true = 1
  hreads15_1 : ∀ i i' : grid15.Coords, (∀ a, reads15_1 a = true → i a = i' a) → cc15_transform_1 i = cc15_transform_1 i'
  hinb15_1 : ∀ (i : grid15.Coords) a, (cc15_transform_1 i a + 1) * S1x64.size a ≤ S1x64.size a
  hwx15_1 : ∀ i : grid15.Coords, EltTy.bits .f32 = 32 ∨ (Rect.block (s := S1x64) S1x64.size (cc15_transform_1 i) (hinb15_1 i)).WholeWords (EltTy.packing .f32)
  hstage15_2 : ∀ j, (stage15_2 j).IsWhole
  nbuf15_2 : grid15.bufCount reads15_2 true = 1
  hreads15_2 : ∀ i i' : grid15.Coords, (∀ a, reads15_2 a = true → i a = i' a) → cc15_transform_2 i = cc15_transform_2 i'
  hinb15_2 : ∀ (i : grid15.Coords) a, (cc15_transform_2 i a + 1) * S1x64.size a ≤ S1x64.size a
  hwx15_2 : ∀ i : grid15.Coords, EltTy.bits .f32 = 32 ∨ (Rect.block (s := S1x64) S1x64.size (cc15_transform_2 i) (hinb15_2 i)).WholeWords (EltTy.packing .f32)
  hstage15_3 : ∀ j, (stage15_3 j).IsWhole
  nbuf15_3 : grid15.bufCount reads15_3 true = 1
  hreads15_3 : ∀ i i' : grid15.Coords, (∀ a, reads15_3 a = true → i a = i' a) → cc15_transform_3 i = cc15_transform_3 i'
  hinb15_3 : ∀ (i : grid15.Coords) a, (cc15_transform_3 i a + 1) * S1x64.size a ≤ S1x64.size a
  hwx15_3 : ∀ i : grid15.Coords, EltTy.bits .f32 = 32 ∨ (Rect.block (s := S1x64) S1x64.size (cc15_transform_3 i) (hinb15_3 i)).WholeWords (EltTy.packing .f32)
  hstage15_4 : ∀ j, (stage15_4 j).IsWhole
  nbuf15_4 : grid15.bufCount reads15_4 true = 1
  hreads15_4 : ∀ i i' : grid15.Coords, (∀ a, reads15_4 a = true → i a = i' a) → cc15_transform_4 i = cc15_transform_4 i'
  hinb15_4 : ∀ (i : grid15.Coords) a, (cc15_transform_4 i a + 1) * S1x64.size a ≤ S1x64.size a
  hwx15_4 : ∀ i : grid15.Coords, EltTy.bits .f32 = 32 ∨ (Rect.block (s := S1x64) S1x64.size (cc15_transform_4 i) (hinb15_4 i)).WholeWords (EltTy.packing .f32)
  hstage15_5 : ∀ j, (stage15_5 j).IsWhole
  nbuf15_5 : grid15.bufCount reads15_5 false = 2
  hreads15_5 : ∀ i i' : grid15.Coords, (∀ a, reads15_5 a = true → i a = i' a) → cc15_transform_5 i = cc15_transform_5 i'
  hinb15_5 : ∀ (i : grid15.Coords) a, (cc15_transform_5 i a + 1) * S5000x64.size a ≤ S50000x64.size a
  hwx15_5 : ∀ i : grid15.Coords, EltTy.bits .f32 = 32 ∨ (Rect.block (s := S50000x64) S5000x64.size (cc15_transform_5 i) (hinb15_5 i)).WholeWords (EltTy.packing .f32)
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S5000x64.size a ≤ S50000x64.size a
  hwx16_0 : ∀ i : grid16.Coords, EltTy.bits .f32 = 32 ∨ (Rect.block (s := S50000x64) S5000x64.size (cc16_transform_0 i) (hinb16_0 i)).WholeWords (EltTy.packing .f32)
  hstage16_1 : ∀ j, (stage16_1 j).IsWhole
  nbuf16_1 : grid16.bufCount reads16_1 true = 1
  hreads16_1 : ∀ i i' : grid16.Coords, (∀ a, reads16_1 a = true → i a = i' a) → cc16_transform_1 i = cc16_transform_1 i'
  hinb16_1 : ∀ (i : grid16.Coords) a, (cc16_transform_1 i a + 1) * S200x64.size a ≤ S200x64.size a
  hwx16_1 : ∀ i : grid16.Coords, EltTy.bits .f32 = 32 ∨ (Rect.block (s := S200x64) S200x64.size (cc16_transform_1 i) (hinb16_1 i)).WholeWords (EltTy.packing .f32)
  hstage16_2 : ∀ j, (stage16_2 j).IsWhole
  nbuf16_2 : grid16.bufCount reads16_2 true = 1
  hreads16_2 : ∀ i i' : grid16.Coords, (∀ a, reads16_2 a = true → i a = i' a) → cc16_transform_2 i = cc16_transform_2 i'
  hinb16_2 : ∀ (i : grid16.Coords) a, (cc16_transform_2 i a + 1) * S1x200.size a ≤ S1x200.size a
  hwx16_2 : ∀ i : grid16.Coords, EltTy.bits .f32 = 32 ∨ (Rect.block (s := S1x200) S1x200.size (cc16_transform_2 i) (hinb16_2 i)).WholeWords (EltTy.packing .f32)
  hstage16_3 : ∀ j, (stage16_3 j).IsWhole
  nbuf16_3 : grid16.bufCount reads16_3 false = 2
  hreads16_3 : ∀ i i' : grid16.Coords, (∀ a, reads16_3 a = true → i a = i' a) → cc16_transform_3 i = cc16_transform_3 i'
  hinb16_3 : ∀ (i : grid16.Coords) a, (cc16_transform_3 i a + 1) * S5000x200.size a ≤ S50000x200.size a
  hwx16_3 : ∀ i : grid16.Coords, EltTy.bits .f32 = 32 ∨ (Rect.block (s := S50000x200) S5000x200.size (cc16_transform_3 i) (hinb16_3 i)).WholeWords (EltTy.packing .f32)

variable [Facts₀]

def gather_S50000x8_S800000x1_S800000x8_1_0_n_n_0_1_18 : GatherDims S50000x8 S800000x1 S800000x8 where
  offsetDims := [1]
  collapsedSliceDims := [0]
  operandBatchingDims := []
  startIndicesBatchingDims := []
  startIndexMap := [0]
  indexVectorDim := 1
  sliceSizes := ![1, 8]
  wf := gather_S50000x8_S800000x1_S800000x8_1_0_n_n_0_1_18_wf
def scatter_S50000x8_S800000x1_S800000x8_1_0_0_1 : ScatterDims S50000x8 S800000x1 S800000x8 where
  updateWindowDims := [1]
  insertedWindowDims := [0]
  scatterDimsToOperandDims := [0]
  indexVectorDim := 1
  wf := scatter_S50000x8_S800000x1_S800000x8_1_0_0_1_wf
def dot_S5000x8_S8x64_S5000x64_1_0_0_1_n_n : DotDims S5000x8 S8x64 S5000x64 where
  lhsContracting := [1]
  rhsContracting := [0]
  lhsNonContracting := [0]
  rhsNonContracting := [1]
  lhsBatch := []
  rhsBatch := []
  wf := dot_S5000x8_S8x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x200_S5000x200_1_0_0_1_n_n : DotDims S5000x64 S64x200 S5000x200 where
  lhsContracting := [1]
  rhsContracting := [0]
  lhsNonContracting := [0]
  rhsNonContracting := [1]
  lhsBatch := []
  rhsBatch := []
  wf := dot_S5000x64_S64x200_S5000x200_1_0_0_1_n_n_wf

abbrev win0_0 : Pipeline.Window sig grid0 :=
  Pipeline.Window.ofSpec (Memref.whole main_v17) S5000x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x8.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19_0) S5000x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v19_1) S1x64.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v19_2) S1x64.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v19_0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v25) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v48) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v30) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v32) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v49) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v50_0) S5000x64.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v50_1) S1x64.size cc2_transform_6 reads2_6 true true 1 stage2_6 sem2_6
    hrank2 hreads2_6 hinb2_6 nbuf2_6 (Memref.isWhole_whole _) hwx2_6 hstage2_6

abbrev win2_7 : Pipeline.Window sig grid2 :=
  Pipeline.Window.ofSpec (Memref.whole main_v50_2) S1x64.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v50_0) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v52) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v56) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v57) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v58) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v59) S5000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v79) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v59) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v61) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v63) S64x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v80) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v81_0) S5000x64.size cc4_transform_5 reads4_5 true false 2 stage4_5 sem4_5
    hrank4 hreads4_5 hinb4_5 nbuf4_5 (Memref.isWhole_whole _) hwx4_5 hstage4_5

abbrev win4_6 : Pipeline.Window sig grid4 :=
  Pipeline.Window.ofSpec (Memref.whole main_v81_1) S1x64.size cc4_transform_6 reads4_6 true true 1 stage4_6 sem4_6
    hrank4 hreads4_6 hinb4_6 nbuf4_6 (Memref.isWhole_whole _) hwx4_6 hstage4_6

abbrev win4_7 : Pipeline.Window sig grid4 :=
  Pipeline.Window.ofSpec (Memref.whole main_v81_2) S1x64.size cc4_transform_7 reads4_7 true true 1 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v81_0) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v83) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v87) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v88) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v89) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v90) S5000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v110) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v90) S5000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v92) S64x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v94) S64x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v111) S1x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v112_0) S5000x64.size cc6_transform_5 reads6_5 true false 2 stage6_5 sem6_5
    hrank6 hreads6_5 hinb6_5 nbuf6_5 (Memref.isWhole_whole _) hwx6_5 hstage6_5

abbrev win6_6 : Pipeline.Window sig grid6 :=
  Pipeline.Window.ofSpec (Memref.whole main_v112_1) S1x64.size cc6_transform_6 reads6_6 true true 1 stage6_6 sem6_6
    hrank6 hreads6_6 hinb6_6 nbuf6_6 (Memref.isWhole_whole _) hwx6_6 hstage6_6

abbrev win6_7 : Pipeline.Window sig grid6 :=
  Pipeline.Window.ofSpec (Memref.whole main_v112_2) S1x64.size cc6_transform_7 reads6_7 true true 1 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

abbrev win7_0 : Pipeline.Window sig grid7 :=
  Pipeline.Window.ofSpec (Memref.whole main_v112_0) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v114) S1x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v118) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v119) S1x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v120) S1x64.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v121) S5000x64.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v141) S5000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v121) S5000x64.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v123) S64x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v125) S64x64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v142) S1x64.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v143_0) S5000x64.size cc8_transform_5 reads8_5 true false 2 stage8_5 sem8_5
    hrank8 hreads8_5 hinb8_5 nbuf8_5 (Memref.isWhole_whole _) hwx8_5 hstage8_5

abbrev win8_6 : Pipeline.Window sig grid8 :=
  Pipeline.Window.ofSpec (Memref.whole main_v143_1) S1x64.size cc8_transform_6 reads8_6 true true 1 stage8_6 sem8_6
    hrank8 hreads8_6 hinb8_6 nbuf8_6 (Memref.isWhole_whole _) hwx8_6 hstage8_6

abbrev win8_7 : Pipeline.Window sig grid8 :=
  Pipeline.Window.ofSpec (Memref.whole main_v143_2) S1x64.size cc8_transform_7 reads8_7 true true 1 stage8_7 sem8_7
    hrank8 hreads8_7 hinb8_7 nbuf8_7 (Memref.isWhole_whole _) hwx8_7 hstage8_7

abbrev win8 : Fin 8 → Pipeline.Window sig grid8 := fun | 0 => win8_0 | 1 => win8_1 | 2 => win8_2 | 3 => win8_3 | 4 => win8_4 | 5 => win8_5 | 6 => win8_6 | 7 => win8_7 | ⟨_ + 8, h⟩ => absurd h (Nat.not_lt.2 (Nat.le_add_left _ _))
abbrev spec8 : Fin 8 → Pipeline.WinSpec sig grid8.rank := fun w => (win8 w).toWinSpec

abbrev win9_0 : Pipeline.Window sig grid9 :=
  Pipeline.Window.ofSpec (Memref.whole main_v143_0) S5000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v145) S1x64.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v149) S1x64.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v150) S1x64.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v151) S1x64.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v152) S5000x64.size cc9_transform_5 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

abbrev win10_0 : Pipeline.Window sig grid10 :=
  Pipeline.Window.ofSpec (Memref.whole main_v172) S5000x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v152) S5000x64.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v154) S64x64.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v156) S64x64.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v173) S1x64.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v174_0) S5000x64.size cc10_transform_5 reads10_5 true false 2 stage10_5 sem10_5
    hrank10 hreads10_5 hinb10_5 nbuf10_5 (Memref.isWhole_whole _) hwx10_5 hstage10_5

abbrev win10_6 : Pipeline.Window sig grid10 :=
  Pipeline.Window.ofSpec (Memref.whole main_v174_1) S1x64.size cc10_transform_6 reads10_6 true true 1 stage10_6 sem10_6
    hrank10 hreads10_6 hinb10_6 nbuf10_6 (Memref.isWhole_whole _) hwx10_6 hstage10_6

abbrev win10_7 : Pipeline.Window sig grid10 :=
  Pipeline.Window.ofSpec (Memref.whole main_v174_2) S1x64.size cc10_transform_7 reads10_7 true true 1 stage10_7 sem10_7
    hrank10 hreads10_7 hinb10_7 nbuf10_7 (Memref.isWhole_whole _) hwx10_7 hstage10_7

abbrev win10 : Fin 8 → Pipeline.Window sig grid10 := fun | 0 => win10_0 | 1 => win10_1 | 2 => win10_2 | 3 => win10_3 | 4 => win10_4 | 5 => win10_5 | 6 => win10_6 | 7 => win10_7 | ⟨_ + 8, h⟩ => absurd h (Nat.not_lt.2 (Nat.le_add_left _ _))
abbrev spec10 : Fin 8 → Pipeline.WinSpec sig grid10.rank := fun w => (win10 w).toWinSpec

abbrev win11_0 : Pipeline.Window sig grid11 :=
  Pipeline.Window.ofSpec (Memref.whole main_v174_0) S5000x64.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v176) S1x64.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v180) S1x64.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v181) S1x64.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v182) S1x64.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v183) S5000x64.size cc11_transform_5 reads11_5 true false 2 stage11_5 sem11_5
    hrank11 hreads11_5 hinb11_5 nbuf11_5 (Memref.isWhole_whole _) hwx11_5 hstage11_5

abbrev win11 : Fin 6 → Pipeline.Window sig grid11 := fun | 0 => win11_0 | 1 => win11_1 | 2 => win11_2 | 3 => win11_3 | 4 => win11_4 | 5 => win11_5 | ⟨_ + 6, h⟩ => absurd h (Nat.not_lt.2 (Nat.le_add_left _ _))
abbrev spec11 : Fin 6 → Pipeline.WinSpec sig grid11.rank := fun w => (win11 w).toWinSpec

abbrev win12_0 : Pipeline.Window sig grid12 :=
  Pipeline.Window.ofSpec (Memref.whole main_v203) S5000x64.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v183) S5000x64.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v185) S64x64.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v187) S64x64.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v204) S1x64.size cc12_transform_4 reads12_4 false true 1 stage12_4 sem12_4
    hrank12 hreads12_4 hinb12_4 nbuf12_4 (Memref.isWhole_whole _) hwx12_4 hstage12_4

abbrev win12_5 : Pipeline.Window sig grid12 :=
  Pipeline.Window.ofSpec (Memref.whole main_v205_0) S5000x64.size cc12_transform_5 reads12_5 true false 2 stage12_5 sem12_5
    hrank12 hreads12_5 hinb12_5 nbuf12_5 (Memref.isWhole_whole _) hwx12_5 hstage12_5

abbrev win12_6 : Pipeline.Window sig grid12 :=
  Pipeline.Window.ofSpec (Memref.whole main_v205_1) S1x64.size cc12_transform_6 reads12_6 true true 1 stage12_6 sem12_6
    hrank12 hreads12_6 hinb12_6 nbuf12_6 (Memref.isWhole_whole _) hwx12_6 hstage12_6

abbrev win12_7 : Pipeline.Window sig grid12 :=
  Pipeline.Window.ofSpec (Memref.whole main_v205_2) S1x64.size cc12_transform_7 reads12_7 true true 1 stage12_7 sem12_7
    hrank12 hreads12_7 hinb12_7 nbuf12_7 (Memref.isWhole_whole _) hwx12_7 hstage12_7

abbrev win12 : Fin 8 → Pipeline.Window sig grid12 := fun | 0 => win12_0 | 1 => win12_1 | 2 => win12_2 | 3 => win12_3 | 4 => win12_4 | 5 => win12_5 | 6 => win12_6 | 7 => win12_7 | ⟨_ + 8, h⟩ => absurd h (Nat.not_lt.2 (Nat.le_add_left _ _))
abbrev spec12 : Fin 8 → Pipeline.WinSpec sig grid12.rank := fun w => (win12 w).toWinSpec

abbrev win13_0 : Pipeline.Window sig grid13 :=
  Pipeline.Window.ofSpec (Memref.whole main_v205_0) S5000x64.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v207) S1x64.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v211) S1x64.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v212) S1x64.size cc13_transform_3 reads13_3 false true 1 stage13_3 sem13_3
    hrank13 hreads13_3 hinb13_3 nbuf13_3 (Memref.isWhole_whole _) hwx13_3 hstage13_3

abbrev win13_4 : Pipeline.Window sig grid13 :=
  Pipeline.Window.ofSpec (Memref.whole main_v213) S1x64.size cc13_transform_4 reads13_4 false true 1 stage13_4 sem13_4
    hrank13 hreads13_4 hinb13_4 nbuf13_4 (Memref.isWhole_whole _) hwx13_4 hstage13_4

abbrev win13_5 : Pipeline.Window sig grid13 :=
  Pipeline.Window.ofSpec (Memref.whole main_v214) S5000x64.size cc13_transform_5 reads13_5 true false 2 stage13_5 sem13_5
    hrank13 hreads13_5 hinb13_5 nbuf13_5 (Memref.isWhole_whole _) hwx13_5 hstage13_5

abbrev win13 : Fin 6 → Pipeline.Window sig grid13 := fun | 0 => win13_0 | 1 => win13_1 | 2 => win13_2 | 3 => win13_3 | 4 => win13_4 | 5 => win13_5 | ⟨_ + 6, h⟩ => absurd h (Nat.not_lt.2 (Nat.le_add_left _ _))
abbrev spec13 : Fin 6 → Pipeline.WinSpec sig grid13.rank := fun w => (win13 w).toWinSpec

abbrev win14_0 : Pipeline.Window sig grid14 :=
  Pipeline.Window.ofSpec (Memref.whole main_v234) S5000x64.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v214) S5000x64.size cc14_transform_1 reads14_1 false false 2 stage14_1 sem14_1
    hrank14 hreads14_1 hinb14_1 nbuf14_1 (Memref.isWhole_whole _) hwx14_1 hstage14_1

abbrev win14_2 : Pipeline.Window sig grid14 :=
  Pipeline.Window.ofSpec (Memref.whole main_v216) S64x64.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v218) S64x64.size cc14_transform_3 reads14_3 false true 1 stage14_3 sem14_3
    hrank14 hreads14_3 hinb14_3 nbuf14_3 (Memref.isWhole_whole _) hwx14_3 hstage14_3

abbrev win14_4 : Pipeline.Window sig grid14 :=
  Pipeline.Window.ofSpec (Memref.whole main_v235) S1x64.size cc14_transform_4 reads14_4 false true 1 stage14_4 sem14_4
    hrank14 hreads14_4 hinb14_4 nbuf14_4 (Memref.isWhole_whole _) hwx14_4 hstage14_4

abbrev win14_5 : Pipeline.Window sig grid14 :=
  Pipeline.Window.ofSpec (Memref.whole main_v236_0) S5000x64.size cc14_transform_5 reads14_5 true false 2 stage14_5 sem14_5
    hrank14 hreads14_5 hinb14_5 nbuf14_5 (Memref.isWhole_whole _) hwx14_5 hstage14_5

abbrev win14_6 : Pipeline.Window sig grid14 :=
  Pipeline.Window.ofSpec (Memref.whole main_v236_1) S1x64.size cc14_transform_6 reads14_6 true true 1 stage14_6 sem14_6
    hrank14 hreads14_6 hinb14_6 nbuf14_6 (Memref.isWhole_whole _) hwx14_6 hstage14_6

abbrev win14_7 : Pipeline.Window sig grid14 :=
  Pipeline.Window.ofSpec (Memref.whole main_v236_2) S1x64.size cc14_transform_7 reads14_7 true true 1 stage14_7 sem14_7
    hrank14 hreads14_7 hinb14_7 nbuf14_7 (Memref.isWhole_whole _) hwx14_7 hstage14_7

abbrev win14 : Fin 8 → Pipeline.Window sig grid14 := fun | 0 => win14_0 | 1 => win14_1 | 2 => win14_2 | 3 => win14_3 | 4 => win14_4 | 5 => win14_5 | 6 => win14_6 | 7 => win14_7 | ⟨_ + 8, h⟩ => absurd h (Nat.not_lt.2 (Nat.le_add_left _ _))
abbrev spec14 : Fin 8 → Pipeline.WinSpec sig grid14.rank := fun w => (win14 w).toWinSpec

abbrev win15_0 : Pipeline.Window sig grid15 :=
  Pipeline.Window.ofSpec (Memref.whole main_v236_0) S5000x64.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v238) S1x64.size cc15_transform_1 reads15_1 false true 1 stage15_1 sem15_1
    hrank15 hreads15_1 hinb15_1 nbuf15_1 (Memref.isWhole_whole _) hwx15_1 hstage15_1

abbrev win15_2 : Pipeline.Window sig grid15 :=
  Pipeline.Window.ofSpec (Memref.whole main_v242) S1x64.size cc15_transform_2 reads15_2 false true 1 stage15_2 sem15_2
    hrank15 hreads15_2 hinb15_2 nbuf15_2 (Memref.isWhole_whole _) hwx15_2 hstage15_2

abbrev win15_3 : Pipeline.Window sig grid15 :=
  Pipeline.Window.ofSpec (Memref.whole main_v243) S1x64.size cc15_transform_3 reads15_3 false true 1 stage15_3 sem15_3
    hrank15 hreads15_3 hinb15_3 nbuf15_3 (Memref.isWhole_whole _) hwx15_3 hstage15_3

abbrev win15_4 : Pipeline.Window sig grid15 :=
  Pipeline.Window.ofSpec (Memref.whole main_v244) S1x64.size cc15_transform_4 reads15_4 false true 1 stage15_4 sem15_4
    hrank15 hreads15_4 hinb15_4 nbuf15_4 (Memref.isWhole_whole _) hwx15_4 hstage15_4

abbrev win15_5 : Pipeline.Window sig grid15 :=
  Pipeline.Window.ofSpec (Memref.whole main_v245) S5000x64.size cc15_transform_5 reads15_5 true false 2 stage15_5 sem15_5
    hrank15 hreads15_5 hinb15_5 nbuf15_5 (Memref.isWhole_whole _) hwx15_5 hstage15_5

abbrev win15 : Fin 6 → Pipeline.Window sig grid15 := fun | 0 => win15_0 | 1 => win15_1 | 2 => win15_2 | 3 => win15_3 | 4 => win15_4 | 5 => win15_5 | ⟨_ + 6, h⟩ => absurd h (Nat.not_lt.2 (Nat.le_add_left _ _))
abbrev spec15 : Fin 6 → Pipeline.WinSpec sig grid15.rank := fun w => (win15 w).toWinSpec

abbrev win16_0 : Pipeline.Window sig grid16 :=
  Pipeline.Window.ofSpec (Memref.whole main_v245) S5000x64.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_arg10) S200x64.size cc16_transform_1 reads16_1 false true 1 stage16_1 sem16_1
    hrank16 hreads16_1 hinb16_1 nbuf16_1 (Memref.isWhole_whole _) hwx16_1 hstage16_1

abbrev win16_2 : Pipeline.Window sig grid16 :=
  Pipeline.Window.ofSpec (Memref.whole main_v246) S1x200.size cc16_transform_2 reads16_2 false true 1 stage16_2 sem16_2
    hrank16 hreads16_2 hinb16_2 nbuf16_2 (Memref.isWhole_whole _) hwx16_2 hstage16_2

abbrev win16_3 : Pipeline.Window sig grid16 :=
  Pipeline.Window.ofSpec (Memref.whole main_v247) S5000x200.size cc16_transform_3 reads16_3 true false 2 stage16_3 sem16_3
    hrank16 hreads16_3 hinb16_3 nbuf16_3 (Memref.isWhole_whole _) hwx16_3 hstage16_3

abbrev win16 : Fin 4 → Pipeline.Window sig grid16 := fun | 0 => win16_0 | 1 => win16_1 | 2 => win16_2 | 3 => win16_3 | ⟨_ + 4, h⟩ => absurd h (Nat.not_lt.2 (Nat.le_add_left _ _))
abbrev spec16 : Fin 4 → Pipeline.WinSpec sig grid16.rank := fun w => (win16 w).toWinSpec

class Facts : Prop extends Facts₀ where

variable [Facts]
-- ==== ReferenceIdeal.lean ====
abbrev S50000x8 : Shape := ⟨2, ![50000, 8]⟩
abbrev S2x800000 : Shape := ⟨2, ![2, 800000]⟩
abbrev S64x8 : Shape := ⟨2, ![64, 8]⟩
abbrev S64 : Shape := ⟨1, ![64]⟩
abbrev S7x64x64 : Shape := ⟨3, ![7, 64, 64]⟩
abbrev S7x64 : Shape := ⟨2, ![7, 64]⟩
abbrev S8x64 : Shape := ⟨2, ![8, 64]⟩
abbrev S200x64 : Shape := ⟨2, ![200, 64]⟩
abbrev S200 : Shape := ⟨1, ![200]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x8 : Shape := ⟨2, ![800000, 8]⟩
abbrev S50000x64 : Shape := ⟨2, ![50000, 64]⟩
abbrev S1x64 : Shape := ⟨2, ![1, 64]⟩
abbrev S1x64x64 : Shape := ⟨3, ![1, 64, 64]⟩
abbrev S64x64 : Shape := ⟨2, ![64, 64]⟩
abbrev S800000x64 : Shape := ⟨2, ![800000, 64]⟩
abbrev S64x200 : Shape := ⟨2, ![64, 200]⟩
abbrev S50000x200 : Shape := ⟨2, ![50000, 200]⟩
abbrev S1x200 : Shape := ⟨2, ![1, 200]⟩

abbrev nBuf : Space → Nat
  | .hbm => 511
  | .vmem => 0
  | .smem => 0
  | _ => 0

abbrev hbmTy0_0 (i : Nat) : BufTy := match i % 128 with
  | 0 => ⟨S50000x8, .f32⟩
  | 1 => ⟨S2x800000, .i32⟩
  | 2 => ⟨S64x8, .f32⟩
  | 3 => ⟨S64x8, .f32⟩
  | 4 => ⟨S64, .f32⟩
  | 5 => ⟨S7x64x64, .f32⟩
  | 6 => ⟨S7x64x64, .f32⟩
  | 7 => ⟨S7x64, .f32⟩
  | 8 => ⟨S8x64, .f32⟩
  | 9 => ⟨S8x64, .f32⟩
  | 10 => ⟨S200x64, .f32⟩
  | 11 => ⟨S200, .f32⟩
  | 12 => ⟨S1x800000, .i32⟩
  | 13 => ⟨S800000, .i32⟩
  | 14 => ⟨S1x800000, .i32⟩
  | 15 => ⟨S800000, .i32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S800000x8, .f32⟩
  | 25 => ⟨S_, .f32⟩
  | 26 => ⟨S50000x8, .f32⟩
  | 27 => ⟨S800000x1, .i32⟩
  | 28 => ⟨S50000x8, .f32⟩
  | 29 => ⟨S8x64, .f32⟩
  | 30 => ⟨S50000x64, .f32⟩
  | 31 => ⟨S1x64, .f32⟩
  | 32 => ⟨S50000x64, .f32⟩
  | 33 => ⟨S50000x64, .f32⟩
  | 34 => ⟨S8x64, .f32⟩
  | 35 => ⟨S50000x64, .f32⟩
  | 36 => ⟨S50000x64, .f32⟩
  | 37 => ⟨S1x64, .f32⟩
  | 38 => ⟨S64, .f32⟩
  | 39 => ⟨S1x64, .f32⟩
  | 40 => ⟨S64, .f32⟩
  | 41 => ⟨S_, .f32⟩
  | 42 => ⟨S64, .f32⟩
  | 43 => ⟨S_, .f32⟩
  | 44 => ⟨S64, .f32⟩
  | 45 => ⟨S64, .f32⟩
  | 46 => ⟨S1x64, .f32⟩
  | 47 => ⟨S50000x64, .f32⟩
  | 48 => ⟨S50000x64, .f32⟩
  | 49 => ⟨S50000x64, .f32⟩
  | 50 => ⟨S_, .f32⟩
  | 51 => ⟨S64, .f32⟩
  | 52 => ⟨S_, .f32⟩
  | 53 => ⟨S64, .f32⟩
  | 54 => ⟨S64, .f32⟩
  | 55 => ⟨S1x64, .f32⟩
  | 56 => ⟨S50000x64, .f32⟩
  | 57 => ⟨S50000x64, .f32⟩
  | 58 => ⟨S_, .f32⟩
  | 59 => ⟨S64, .f32⟩
  | 60 => ⟨S64, .f32⟩
  | 61 => ⟨S64, .f32⟩
  | 62 => ⟨S1x64, .f32⟩
  | 63 => ⟨S50000x64, .f32⟩
  | 64 => ⟨S50000x64, .f32⟩
  | 65 => ⟨S1x64, .f32⟩
  | 66 => ⟨S50000x64, .f32⟩
  | 67 => ⟨S50000x64, .f32⟩
  | 68 => ⟨S1x64, .f32⟩
  | 69 => ⟨S50000x64, .f32⟩
  | 70 => ⟨S50000x64, .f32⟩
  | 71 => ⟨S50000x64, .f32⟩
  | 72 => ⟨S1x64x64, .f32⟩
  | 73 => ⟨S64x64, .f32⟩
  | 74 => ⟨S1x64x64, .f32⟩
  | 75 => ⟨S64x64, .f32⟩
  | 76 => ⟨S1x64, .f32⟩
  | 77 => ⟨S64, .f32⟩
  | 78 => ⟨S_, .i32⟩
  | 79 => ⟨S800000, .i32⟩
  | 80 => ⟨S800000, .i1⟩
  | 81 => ⟨S_, .i32⟩
  | 82 => ⟨S800000, .i32⟩
  | 83 => ⟨S800000, .i32⟩
  | 84 => ⟨S800000, .i32⟩
  | 85 => ⟨S800000x1, .i32⟩
  | 86 => ⟨S800000x64, .f32⟩
  | 87 => ⟨S_, .f32⟩
  | 88 => ⟨S50000x64, .f32⟩
  | 89 => ⟨S800000x1, .i32⟩
  | 90 => ⟨S50000x64, .f32⟩
  | 91 => ⟨S64x64, .f32⟩
  | 92 => ⟨S50000x64, .f32⟩
  | 93 => ⟨S1x64, .f32⟩
  | 94 => ⟨S50000x64, .f32⟩
  | 95 => ⟨S50000x64, .f32⟩
  | 96 => ⟨S64x64, .f32⟩
  | 97 => ⟨S50000x64, .f32⟩
  | 98 => ⟨S50000x64, .f32⟩
  | 99 => ⟨S1x64, .f32⟩
  | 100 => ⟨S64, .f32⟩
  | 101 => ⟨S1x64, .f32⟩
  | 102 => ⟨S64, .f32⟩
  | 103 => ⟨S_, .f32⟩
  | 104 => ⟨S64, .f32⟩
  | 105 => ⟨S_, .f32⟩
  | 106 => ⟨S64, .f32⟩
  | 107 => ⟨S64, .f32⟩
  | 108 => ⟨S1x64, .f32⟩
  | 109 => ⟨S50000x64, .f32⟩
  | 110 => ⟨S50000x64, .f32⟩
  | 111 => ⟨S50000x64, .f32⟩
  | 112 => ⟨S_, .f32⟩
  | 113 => ⟨S64, .f32⟩
  | 114 => ⟨S_, .f32⟩
  | 115 => ⟨S64, .f32⟩
  | 116 => ⟨S64, .f32⟩
  | 117 => ⟨S1x64, .f32⟩
  | 118 => ⟨S50000x64, .f32⟩
  | 119 => ⟨S50000x64, .f32⟩
  | 120 => ⟨S_, .f32⟩
  | 121 => ⟨S64, .f32⟩
  | 122 => ⟨S64, .f32⟩
  | 123 => ⟨S64, .f32⟩
  | 124 => ⟨S1x64, .f32⟩
  | 125 => ⟨S50000x64, .f32⟩
  | 126 => ⟨S50000x64, .f32⟩
  | 127 => ⟨S1x64, .f32⟩
  | _ => ⟨S50000x8, .f32⟩

abbrev hbmTy0_1 (i : Nat) : BufTy := match i % 128 with
  | 0 => ⟨S50000x64, .f32⟩
  | 1 => ⟨S50000x64, .f32⟩
  | 2 => ⟨S1x64, .f32⟩
  | 3 => ⟨S50000x64, .f32⟩
  | 4 => ⟨S50000x64, .f32⟩
  | 5 => ⟨S50000x64, .f32⟩
  | 6 => ⟨S1x64x64, .f32⟩
  | 7 => ⟨S64x64, .f32⟩
  | 8 => ⟨S1x64x64, .f32⟩
  | 9 => ⟨S64x64, .f32⟩
  | 10 => ⟨S1x64, .f32⟩
  | 11 => ⟨S64, .f32⟩
  | 12 => ⟨S_, .i32⟩
  | 13 => ⟨S800000, .i32⟩
  | 14 => ⟨S800000, .i1⟩
  | 15 => ⟨S_, .i32⟩
  | 16 => ⟨S800000, .i32⟩
  | 17 => ⟨S800000, .i32⟩
  | 18 => ⟨S800000, .i32⟩
  | 19 => ⟨S800000x1, .i32⟩
  | 20 => ⟨S800000x64, .f32⟩
  | 21 => ⟨S_, .f32⟩
  | 22 => ⟨S50000x64, .f32⟩
  | 23 => ⟨S800000x1, .i32⟩
  | 24 => ⟨S50000x64, .f32⟩
  | 25 => ⟨S64x64, .f32⟩
  | 26 => ⟨S50000x64, .f32⟩
  | 27 => ⟨S1x64, .f32⟩
  | 28 => ⟨S50000x64, .f32⟩
  | 29 => ⟨S50000x64, .f32⟩
  | 30 => ⟨S64x64, .f32⟩
  | 31 => ⟨S50000x64, .f32⟩
  | 32 => ⟨S50000x64, .f32⟩
  | 33 => ⟨S1x64, .f32⟩
  | 34 => ⟨S64, .f32⟩
  | 35 => ⟨S1x64, .f32⟩
  | 36 => ⟨S64, .f32⟩
  | 37 => ⟨S_, .f32⟩
  | 38 => ⟨S64, .f32⟩
  | 39 => ⟨S_, .f32⟩
  | 40 => ⟨S64, .f32⟩
  | 41 => ⟨S64, .f32⟩
  | 42 => ⟨S1x64, .f32⟩
  | 43 => ⟨S50000x64, .f32⟩
  | 44 => ⟨S50000x64, .f32⟩
  | 45 => ⟨S50000x64, .f32⟩
  | 46 => ⟨S_, .f32⟩
  | 47 => ⟨S64, .f32⟩
  | 48 => ⟨S_, .f32⟩
  | 49 => ⟨S64, .f32⟩
  | 50 => ⟨S64, .f32⟩
  | 51 => ⟨S1x64, .f32⟩
  | 52 => ⟨S50000x64, .f32⟩
  | 53 => ⟨S50000x64, .f32⟩
  | 54 => ⟨S_, .f32⟩
  | 55 => ⟨S64, .f32⟩
  | 56 => ⟨S64, .f32⟩
  | 57 => ⟨S64, .f32⟩
  | 58 => ⟨S1x64, .f32⟩
  | 59 => ⟨S50000x64, .f32⟩
  | 60 => ⟨S50000x64, .f32⟩
  | 61 => ⟨S1x64, .f32⟩
  | 62 => ⟨S50000x64, .f32⟩
  | 63 => ⟨S50000x64, .f32⟩
  | 64 => ⟨S1x64, .f32⟩
  | 65 => ⟨S50000x64, .f32⟩
  | 66 => ⟨S50000x64, .f32⟩
  | 67 => ⟨S50000x64, .f32⟩
  | 68 => ⟨S1x64x64, .f32⟩
  | 69 => ⟨S64x64, .f32⟩
  | 70 => ⟨S1x64x64, .f32⟩
  | 71 => ⟨S64x64, .f32⟩
  | 72 => ⟨S1x64, .f32⟩
  | 73 => ⟨S64, .f32⟩
  | 74 => ⟨S_, .i32⟩
  | 75 => ⟨S800000, .i32⟩
  | 76 => ⟨S800000, .i1⟩
  | 77 => ⟨S_, .i32⟩
  | 78 => ⟨S800000, .i32⟩
  | 79 => ⟨S800000, .i32⟩
  | 80 => ⟨S800000, .i32⟩
  | 81 => ⟨S800000x1, .i32⟩
  | 82 => ⟨S800000x64, .f32⟩
  | 83 => ⟨S_, .f32⟩
  | 84 => ⟨S50000x64, .f32⟩
  | 85 => ⟨S800000x1, .i32⟩
  | 86 => ⟨S50000x64, .f32⟩
  | 87 => ⟨S64x64, .f32⟩
  | 88 => ⟨S50000x64, .f32⟩
  | 89 => ⟨S1x64, .f32⟩
  | 90 => ⟨S50000x64, .f32⟩
  | 91 => ⟨S50000x64, .f32⟩
  | 92 => ⟨S64x64, .f32⟩
  | 93 => ⟨S50000x64, .f32⟩
  | 94 => ⟨S50000x64, .f32⟩
  | 95 => ⟨S1x64, .f32⟩
  | 96 => ⟨S64, .f32⟩
  | 97 => ⟨S1x64, .f32⟩
  | 98 => ⟨S64, .f32⟩
  | 99 => ⟨S_, .f32⟩
  | 100 => ⟨S64, .f32⟩
  | 101 => ⟨S_, .f32⟩
  | 102 => ⟨S64, .f32⟩
  | 103 => ⟨S64, .f32⟩
  | 104 => ⟨S1x64, .f32⟩
  | 105 => ⟨S50000x64, .f32⟩
  | 106 => ⟨S50000x64, .f32⟩
  | 107 => ⟨S50000x64, .f32⟩
  | 108 => ⟨S_, .f32⟩
  | 109 => ⟨S64, .f32⟩
  | 110 => ⟨S_, .f32⟩
  | 111 => ⟨S64, .f32⟩
  | 112 => ⟨S64, .f32⟩
  | 113 => ⟨S1x64, .f32⟩
  | 114 => ⟨S50000x64, .f32⟩
  | 115 => ⟨S50000x64, .f32⟩
  | 116 => ⟨S_, .f32⟩
  | 117 => ⟨S64, .f32⟩
  | 118 => ⟨S64, .f32⟩
  | 119 => ⟨S64, .f32⟩
  | 120 => ⟨S1x64, .f32⟩
  | 121 => ⟨S50000x64, .f32⟩
  | 122 => ⟨S50000x64, .f32⟩
  | 123 => ⟨S1x64, .f32⟩
  | 124 => ⟨S50000x64, .f32⟩
  | 125 => ⟨S50000x64, .f32⟩
  | 126 => ⟨S1x64, .f32⟩
  | 127 => ⟨S50000x64, .f32⟩
  | _ => ⟨S50000x8, .f32⟩

abbrev hbmTy0_2 (i : Nat) : BufTy := match i % 128 with
  | 0 => ⟨S50000x64, .f32⟩
  | 1 => ⟨S50000x64, .f32⟩
  | 2 => ⟨S1x64x64, .f32⟩
  | 3 => ⟨S64x64, .f32⟩
  | 4 => ⟨S1x64x64, .f32⟩
  | 5 => ⟨S64x64, .f32⟩
  | 6 => ⟨S1x64, .f32⟩
  | 7 => ⟨S64, .f32⟩
  | 8 => ⟨S_, .i32⟩
  | 9 => ⟨S800000, .i32⟩
  | 10 => ⟨S800000, .i1⟩
  | 11 => ⟨S_, .i32⟩
  | 12 => ⟨S800000, .i32⟩
  | 13 => ⟨S800000, .i32⟩
  | 14 => ⟨S800000, .i32⟩
  | 15 => ⟨S800000x1, .i32⟩
  | 16 => ⟨S800000x64, .f32⟩
  | 17 => ⟨S_, .f32⟩
  | 18 => ⟨S50000x64, .f32⟩
  | 19 => ⟨S800000x1, .i32⟩
  | 20 => ⟨S50000x64, .f32⟩
  | 21 => ⟨S64x64, .f32⟩
  | 22 => ⟨S50000x64, .f32⟩
  | 23 => ⟨S1x64, .f32⟩
  | 24 => ⟨S50000x64, .f32⟩
  | 25 => ⟨S50000x64, .f32⟩
  | 26 => ⟨S64x64, .f32⟩
  | 27 => ⟨S50000x64, .f32⟩
  | 28 => ⟨S50000x64, .f32⟩
  | 29 => ⟨S1x64, .f32⟩
  | 30 => ⟨S64, .f32⟩
  | 31 => ⟨S1x64, .f32⟩
  | 32 => ⟨S64, .f32⟩
  | 33 => ⟨S_, .f32⟩
  | 34 => ⟨S64, .f32⟩
  | 35 => ⟨S_, .f32⟩
  | 36 => ⟨S64, .f32⟩
  | 37 => ⟨S64, .f32⟩
  | 38 => ⟨S1x64, .f32⟩
  | 39 => ⟨S50000x64, .f32⟩
  | 40 => ⟨S50000x64, .f32⟩
  | 41 => ⟨S50000x64, .f32⟩
  | 42 => ⟨S_, .f32⟩
  | 43 => ⟨S64, .f32⟩
  | 44 => ⟨S_, .f32⟩
  | 45 => ⟨S64, .f32⟩
  | 46 => ⟨S64, .f32⟩
  | 47 => ⟨S1x64, .f32⟩
  | 48 => ⟨S50000x64, .f32⟩
  | 49 => ⟨S50000x64, .f32⟩
  | 50 => ⟨S_, .f32⟩
  | 51 => ⟨S64, .f32⟩
  | 52 => ⟨S64, .f32⟩
  | 53 => ⟨S64, .f32⟩
  | 54 => ⟨S1x64, .f32⟩
  | 55 => ⟨S50000x64, .f32⟩
  | 56 => ⟨S50000x64, .f32⟩
  | 57 => ⟨S1x64, .f32⟩
  | 58 => ⟨S50000x64, .f32⟩
  | 59 => ⟨S50000x64, .f32⟩
  | 60 => ⟨S1x64, .f32⟩
  | 61 => ⟨S50000x64, .f32⟩
  | 62 => ⟨S50000x64, .f32⟩
  | 63 => ⟨S50000x64, .f32⟩
  | 64 => ⟨S1x64x64, .f32⟩
  | 65 => ⟨S64x64, .f32⟩
  | 66 => ⟨S1x64x64, .f32⟩
  | 67 => ⟨S64x64, .f32⟩
  | 68 => ⟨S1x64, .f32⟩
  | 69 => ⟨S64, .f32⟩
  | 70 => ⟨S_, .i32⟩
  | 71 => ⟨S800000, .i32⟩
  | 72 => ⟨S800000, .i1⟩
  | 73 => ⟨S_, .i32⟩
  | 74 => ⟨S800000, .i32⟩
  | 75 => ⟨S800000, .i32⟩
  | 76 => ⟨S800000, .i32⟩
  | 77 => ⟨S800000x1, .i32⟩
  | 78 => ⟨S800000x64, .f32⟩
  | 79 => ⟨S_, .f32⟩
  | 80 => ⟨S50000x64, .f32⟩
  | 81 => ⟨S800000x1, .i32⟩
  | 82 => ⟨S50000x64, .f32⟩
  | 83 => ⟨S64x64, .f32⟩
  | 84 => ⟨S50000x64, .f32⟩
  | 85 => ⟨S1x64, .f32⟩
  | 86 => ⟨S50000x64, .f32⟩
  | 87 => ⟨S50000x64, .f32⟩
  | 88 => ⟨S64x64, .f32⟩
  | 89 => ⟨S50000x64, .f32⟩
  | 90 => ⟨S50000x64, .f32⟩
  | 91 => ⟨S1x64, .f32⟩
  | 92 => ⟨S64, .f32⟩
  | 93 => ⟨S1x64, .f32⟩
  | 94 => ⟨S64, .f32⟩
  | 95 => ⟨S_, .f32⟩
  | 96 => ⟨S64, .f32⟩
  | 97 => ⟨S_, .f32⟩
  | 98 => ⟨S64, .f32⟩
  | 99 => ⟨S64, .f32⟩
  | 100 => ⟨S1x64, .f32⟩
  | 101 => ⟨S50000x64, .f32⟩
  | 102 => ⟨S50000x64, .f32⟩
  | 103 => ⟨S50000x64, .f32⟩
  | 104 => ⟨S_, .f32⟩
  | 105 => ⟨S64, .f32⟩
  | 106 => ⟨S_, .f32⟩
  | 107 => ⟨S64, .f32⟩
  | 108 => ⟨S64, .f32⟩
  | 109 => ⟨S1x64, .f32⟩
  | 110 => ⟨S50000x64, .f32⟩
  | 111 => ⟨S50000x64, .f32⟩
  | 112 => ⟨S_, .f32⟩
  | 113 => ⟨S64, .f32⟩
  | 114 => ⟨S64, .f32⟩
  | 115 => ⟨S64, .f32⟩
  | 116 => ⟨S1x64, .f32⟩
  | 117 => ⟨S50000x64, .f32⟩
  | 118 => ⟨S50000x64, .f32⟩
  | 119 => ⟨S1x64, .f32⟩
  | 120 => ⟨S50000x64, .f32⟩
  | 121 => ⟨S50000x64, .f32⟩
  | 122 => ⟨S1x64, .f32⟩
  | 123 => ⟨S50000x64, .f32⟩
  | 124 => ⟨S50000x64, .f32⟩
  | 125 => ⟨S50000x64, .f32⟩
  | 126 => ⟨S1x64x64, .f32⟩
  | 127 => ⟨S64x64, .f32⟩
  | _ => ⟨S50000x8, .f32⟩

abbrev hbmTy0_3 (i : Nat) : BufTy := match i % 128 with
  | 0 => ⟨S1x64x64, .f32⟩
  | 1 => ⟨S64x64, .f32⟩
  | 2 => ⟨S1x64, .f32⟩
  | 3 => ⟨S64, .f32⟩
  | 4 => ⟨S_, .i32⟩
  | 5 => ⟨S800000, .i32⟩
  | 6 => ⟨S800000, .i1⟩
  | 7 => ⟨S_, .i32⟩
  | 8 => ⟨S800000, .i32⟩
  | 9 => ⟨S800000, .i32⟩
  | 10 => ⟨S800000, .i32⟩
  | 11 => ⟨S800000x1, .i32⟩
  | 12 => ⟨S800000x64, .f32⟩
  | 13 => ⟨S_, .f32⟩
  | 14 => ⟨S50000x64, .f32⟩
  | 15 => ⟨S800000x1, .i32⟩
  | 16 => ⟨S50000x64, .f32⟩
  | 17 => ⟨S64x64, .f32⟩
  | 18 => ⟨S50000x64, .f32⟩
  | 19 => ⟨S1x64, .f32⟩
  | 20 => ⟨S50000x64, .f32⟩
  | 21 => ⟨S50000x64, .f32⟩
  | 22 => ⟨S64x64, .f32⟩
  | 23 => ⟨S50000x64, .f32⟩
  | 24 => ⟨S50000x64, .f32⟩
  | 25 => ⟨S1x64, .f32⟩
  | 26 => ⟨S64, .f32⟩
  | 27 => ⟨S1x64, .f32⟩
  | 28 => ⟨S64, .f32⟩
  | 29 => ⟨S_, .f32⟩
  | 30 => ⟨S64, .f32⟩
  | 31 => ⟨S_, .f32⟩
  | 32 => ⟨S64, .f32⟩
  | 33 => ⟨S64, .f32⟩
  | 34 => ⟨S1x64, .f32⟩
  | 35 => ⟨S50000x64, .f32⟩
  | 36 => ⟨S50000x64, .f32⟩
  | 37 => ⟨S50000x64, .f32⟩
  | 38 => ⟨S_, .f32⟩
  | 39 => ⟨S64, .f32⟩
  | 40 => ⟨S_, .f32⟩
  | 41 => ⟨S64, .f32⟩
  | 42 => ⟨S64, .f32⟩
  | 43 => ⟨S1x64, .f32⟩
  | 44 => ⟨S50000x64, .f32⟩
  | 45 => ⟨S50000x64, .f32⟩
  | 46 => ⟨S_, .f32⟩
  | 47 => ⟨S64, .f32⟩
  | 48 => ⟨S64, .f32⟩
  | 49 => ⟨S64, .f32⟩
  | 50 => ⟨S1x64, .f32⟩
  | 51 => ⟨S50000x64, .f32⟩
  | 52 => ⟨S50000x64, .f32⟩
  | 53 => ⟨S1x64, .f32⟩
  | 54 => ⟨S50000x64, .f32⟩
  | 55 => ⟨S50000x64, .f32⟩
  | 56 => ⟨S1x64, .f32⟩
  | 57 => ⟨S50000x64, .f32⟩
  | 58 => ⟨S50000x64, .f32⟩
  | 59 => ⟨S50000x64, .f32⟩
  | 60 => ⟨S1x64x64, .f32⟩
  | 61 => ⟨S64x64, .f32⟩
  | 62 => ⟨S1x64x64, .f32⟩
  | 63 => ⟨S64x64, .f32⟩
  | 64 => ⟨S1x64, .f32⟩
  | 65 => ⟨S64, .f32⟩
  | 66 => ⟨S_, .i32⟩
  | 67 => ⟨S800000, .i32⟩
  | 68 => ⟨S800000, .i1⟩
  | 69 => ⟨S_, .i32⟩
  | 70 => ⟨S800000, .i32⟩
  | 71 => ⟨S800000, .i32⟩
  | 72 => ⟨S800000, .i32⟩
  | 73 => ⟨S800000x1, .i32⟩
  | 74 => ⟨S800000x64, .f32⟩
  | 75 => ⟨S_, .f32⟩
  | 76 => ⟨S50000x64, .f32⟩
  | 77 => ⟨S800000x1, .i32⟩
  | 78 => ⟨S50000x64, .f32⟩
  | 79 => ⟨S64x64, .f32⟩
  | 80 => ⟨S50000x64, .f32⟩
  | 81 => ⟨S1x64, .f32⟩
  | 82 => ⟨S50000x64, .f32⟩
  | 83 => ⟨S50000x64, .f32⟩
  | 84 => ⟨S64x64, .f32⟩
  | 85 => ⟨S50000x64, .f32⟩
  | 86 => ⟨S50000x64, .f32⟩
  | 87 => ⟨S1x64, .f32⟩
  | 88 => ⟨S64, .f32⟩
  | 89 => ⟨S1x64, .f32⟩
  | 90 => ⟨S64, .f32⟩
  | 91 => ⟨S_, .f32⟩
  | 92 => ⟨S64, .f32⟩
  | 93 => ⟨S_, .f32⟩
  | 94 => ⟨S64, .f32⟩
  | 95 => ⟨S64, .f32⟩
  | 96 => ⟨S1x64, .f32⟩
  | 97 => ⟨S50000x64, .f32⟩
  | 98 => ⟨S50000x64, .f32⟩
  | 99 => ⟨S50000x64, .f32⟩
  | 100 => ⟨S_, .f32⟩
  | 101 => ⟨S64, .f32⟩
  | 102 => ⟨S_, .f32⟩
  | 103 => ⟨S64, .f32⟩
  | 104 => ⟨S64, .f32⟩
  | 105 => ⟨S1x64, .f32⟩
  | 106 => ⟨S50000x64, .f32⟩
  | 107 => ⟨S50000x64, .f32⟩
  | 108 => ⟨S_, .f32⟩
  | 109 => ⟨S64, .f32⟩
  | 110 => ⟨S64, .f32⟩
  | 111 => ⟨S64, .f32⟩
  | 112 => ⟨S1x64, .f32⟩
  | 113 => ⟨S50000x64, .f32⟩
  | 114 => ⟨S50000x64, .f32⟩
  | 115 => ⟨S1x64, .f32⟩
  | 116 => ⟨S50000x64, .f32⟩
  | 117 => ⟨S50000x64, .f32⟩
  | 118 => ⟨S1x64, .f32⟩
  | 119 => ⟨S50000x64, .f32⟩
  | 120 => ⟨S50000x64, .f32⟩
  | 121 => ⟨S50000x64, .f32⟩
  | 122 => ⟨S64x200, .f32⟩
  | 123 => ⟨S50000x200, .f32⟩
  | 124 => ⟨S1x200, .f32⟩
  | 125 => ⟨S50000x200, .f32⟩
  | 126 => ⟨S50000x200, .f32⟩
  | _ => ⟨S50000x8, .f32⟩

abbrev hbmTy (i : Nat) : BufTy := match i / 128 with
  | 0 => hbmTy0_0 i
  | 1 => hbmTy0_1 i
  | 2 => hbmTy0_2 i
  | 3 => hbmTy0_3 i
  | _ => ⟨S50000x8, .f32⟩

abbrev bufTy : (tb : Table) → Fin (tcTables nBuf tb) → BufTy
  | .hbm, ⟨i, _⟩ => hbmTy i
  | _, _ => ⟨S50000x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_1 : Ref sig .tc := ⟨.hbm, 41, rfl⟩
abbrev main_v26 : Ref sig .tc := ⟨.hbm, 42, rfl⟩
abbrev main_cst_2 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_3 : Ref sig .tc := ⟨.hbm, 50, rfl⟩
abbrev main_v33 : Ref sig .tc := ⟨.hbm, 51, rfl⟩
abbrev main_cst_4 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_5 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_c_6 : Ref sig .tc := ⟨.hbm, 78, rfl⟩
abbrev main_v58 : Ref sig .tc := ⟨.hbm, 79, rfl⟩
abbrev main_v59 : Ref sig .tc := ⟨.hbm, 80, rfl⟩
abbrev main_c_7 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_8 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_cst_9 : Ref sig .tc := ⟨.hbm, 103, rfl⟩
abbrev main_v80 : Ref sig .tc := ⟨.hbm, 104, rfl⟩
abbrev main_cst_10 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_cst_11 : Ref sig .tc := ⟨.hbm, 112, rfl⟩
abbrev main_v87 : Ref sig .tc := ⟨.hbm, 113, rfl⟩
abbrev main_cst_12 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_cst_13 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_c_14 : Ref sig .tc := ⟨.hbm, 140, rfl⟩
abbrev main_v112 : Ref sig .tc := ⟨.hbm, 141, rfl⟩
abbrev main_v113 : Ref sig .tc := ⟨.hbm, 142, rfl⟩
abbrev main_c_15 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_cst_16 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_cst_17 : Ref sig .tc := ⟨.hbm, 165, rfl⟩
abbrev main_v134 : Ref sig .tc := ⟨.hbm, 166, rfl⟩
abbrev main_cst_18 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_cst_19 : Ref sig .tc := ⟨.hbm, 174, rfl⟩
abbrev main_v141 : Ref sig .tc := ⟨.hbm, 175, rfl⟩
abbrev main_cst_20 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_cst_21 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_c_22 : Ref sig .tc := ⟨.hbm, 202, rfl⟩
abbrev main_v166 : Ref sig .tc := ⟨.hbm, 203, rfl⟩
abbrev main_v167 : Ref sig .tc := ⟨.hbm, 204, rfl⟩
abbrev main_c_23 : Ref sig .tc := ⟨.hbm, 205, rfl⟩
abbrev main_v168 : Ref sig .tc := ⟨.hbm, 206, rfl⟩
abbrev main_v169 : Ref sig .tc := ⟨.hbm, 207, rfl⟩
abbrev main_v170 : Ref sig .tc := ⟨.hbm, 208, rfl⟩
abbrev main_v171 : Ref sig .tc := ⟨.hbm, 209, rfl⟩
abbrev main_v172 : Ref sig .tc := ⟨.hbm, 210, rfl⟩
abbrev main_cst_24 : Ref sig .tc := ⟨.hbm, 211, rfl⟩
abbrev main_v173 : Ref sig .tc := ⟨.hbm, 212, rfl⟩
abbrev main_v174 : Ref sig .tc := ⟨.hbm, 213, rfl⟩
abbrev main_v175 : Ref sig .tc := ⟨.hbm, 214, rfl⟩
abbrev main_v176 : Ref sig .tc := ⟨.hbm, 215, rfl⟩
abbrev main_v177 : Ref sig .tc := ⟨.hbm, 216, rfl⟩
abbrev main_v178 : Ref sig .tc := ⟨.hbm, 217, rfl⟩
abbrev main_v179 : Ref sig .tc := ⟨.hbm, 218, rfl⟩
abbrev main_v180 : Ref sig .tc := ⟨.hbm, 219, rfl⟩
abbrev main_v181 : Ref sig .tc := ⟨.hbm, 220, rfl⟩
abbrev main_v182 : Ref sig .tc := ⟨.hbm, 221, rfl⟩
abbrev main_v183 : Ref sig .tc := ⟨.hbm, 222, rfl⟩
abbrev main_v184 : Ref sig .tc := ⟨.hbm, 223, rfl⟩
abbrev main_v185 : Ref sig .tc := ⟨.hbm, 224, rfl⟩
abbrev main_v186 : Ref sig .tc := ⟨.hbm, 225, rfl⟩
abbrev main_v187 : Ref sig .tc := ⟨.hbm, 226, rfl⟩
abbrev main_cst_25 : Ref sig .tc := ⟨.hbm, 227, rfl⟩
abbrev main_v188 : Ref sig .tc := ⟨.hbm, 228, rfl⟩
abbrev main_cst_26 : Ref sig .tc := ⟨.hbm, 229, rfl⟩
abbrev main_v189 : Ref sig .tc := ⟨.hbm, 230, rfl⟩
abbrev main_v190 : Ref sig .tc := ⟨.hbm, 231, rfl⟩
abbrev main_v191 : Ref sig .tc := ⟨.hbm, 232, rfl⟩
abbrev main_v192 : Ref sig .tc := ⟨.hbm, 233, rfl⟩
abbrev main_v193 : Ref sig .tc := ⟨.hbm, 234, rfl⟩
abbrev main_v194 : Ref sig .tc := ⟨.hbm, 235, rfl⟩
abbrev main_cst_27 : Ref sig .tc := ⟨.hbm, 236, rfl⟩
abbrev main_v195 : Ref sig .tc := ⟨.hbm, 237, rfl⟩
abbrev main_cst_28 : Ref sig .tc := ⟨.hbm, 238, rfl⟩
abbrev main_v196 : Ref sig .tc := ⟨.hbm, 239, rfl⟩
abbrev main_v197 : Ref sig .tc := ⟨.hbm, 240, rfl⟩
abbrev main_v198 : Ref sig .tc := ⟨.hbm, 241, rfl⟩
abbrev main_v199 : Ref sig .tc := ⟨.hbm, 242, rfl⟩
abbrev main_v200 : Ref sig .tc := ⟨.hbm, 243, rfl⟩
abbrev main_cst_29 : Ref sig .tc := ⟨.hbm, 244, rfl⟩
abbrev main_v201 : Ref sig .tc := ⟨.hbm, 245, rfl⟩
abbrev main_v202 : Ref sig .tc := ⟨.hbm, 246, rfl⟩
abbrev main_v203 : Ref sig .tc := ⟨.hbm, 247, rfl⟩
abbrev main_v204 : Ref sig .tc := ⟨.hbm, 248, rfl⟩
abbrev main_v205 : Ref sig .tc := ⟨.hbm, 249, rfl⟩
abbrev main_v206 : Ref sig .tc := ⟨.hbm, 250, rfl⟩
abbrev main_v207 : Ref sig .tc := ⟨.hbm, 251, rfl⟩
abbrev main_v208 : Ref sig .tc := ⟨.hbm, 252, rfl⟩
abbrev main_v209 : Ref sig .tc := ⟨.hbm, 253, rfl⟩
abbrev main_v210 : Ref sig .tc := ⟨.hbm, 254, rfl⟩
abbrev main_v211 : Ref sig .tc := ⟨.hbm, 255, rfl⟩
abbrev main_v212 : Ref sig .tc := ⟨.hbm, 256, rfl⟩
abbrev main_v213 : Ref sig .tc := ⟨.hbm, 257, rfl⟩
abbrev main_v214 : Ref sig .tc := ⟨.hbm, 258, rfl⟩
abbrev main_v215 : Ref sig .tc := ⟨.hbm, 259, rfl⟩
abbrev main_v216 : Ref sig .tc := ⟨.hbm, 260, rfl⟩
abbrev main_v217 : Ref sig .tc := ⟨.hbm, 261, rfl⟩
abbrev main_v218 : Ref sig .tc := ⟨.hbm, 262, rfl⟩
abbrev main_v219 : Ref sig .tc := ⟨.hbm, 263, rfl⟩
abbrev main_c_30 : Ref sig .tc := ⟨.hbm, 264, rfl⟩
abbrev main_v220 : Ref sig .tc := ⟨.hbm, 265, rfl⟩
abbrev main_v221 : Ref sig .tc := ⟨.hbm, 266, rfl⟩
abbrev main_c_31 : Ref sig .tc := ⟨.hbm, 267, rfl⟩
abbrev main_v222 : Ref sig .tc := ⟨.hbm, 268, rfl⟩
abbrev main_v223 : Ref sig .tc := ⟨.hbm, 269, rfl⟩
abbrev main_v224 : Ref sig .tc := ⟨.hbm, 270, rfl⟩
abbrev main_v225 : Ref sig .tc := ⟨.hbm, 271, rfl⟩
abbrev main_v226 : Ref sig .tc := ⟨.hbm, 272, rfl⟩
abbrev main_cst_32 : Ref sig .tc := ⟨.hbm, 273, rfl⟩
abbrev main_v227 : Ref sig .tc := ⟨.hbm, 274, rfl⟩
abbrev main_v228 : Ref sig .tc := ⟨.hbm, 275, rfl⟩
abbrev main_v229 : Ref sig .tc := ⟨.hbm, 276, rfl⟩
abbrev main_v230 : Ref sig .tc := ⟨.hbm, 277, rfl⟩
abbrev main_v231 : Ref sig .tc := ⟨.hbm, 278, rfl⟩
abbrev main_v232 : Ref sig .tc := ⟨.hbm, 279, rfl⟩
abbrev main_v233 : Ref sig .tc := ⟨.hbm, 280, rfl⟩
abbrev main_v234 : Ref sig .tc := ⟨.hbm, 281, rfl⟩
abbrev main_v235 : Ref sig .tc := ⟨.hbm, 282, rfl⟩
abbrev main_v236 : Ref sig .tc := ⟨.hbm, 283, rfl⟩
abbrev main_v237 : Ref sig .tc := ⟨.hbm, 284, rfl⟩
abbrev main_v238 : Ref sig .tc := ⟨.hbm, 285, rfl⟩
abbrev main_v239 : Ref sig .tc := ⟨.hbm, 286, rfl⟩
abbrev main_v240 : Ref sig .tc := ⟨.hbm, 287, rfl⟩
abbrev main_v241 : Ref sig .tc := ⟨.hbm, 288, rfl⟩
abbrev main_cst_33 : Ref sig .tc := ⟨.hbm, 289, rfl⟩
abbrev main_v242 : Ref sig .tc := ⟨.hbm, 290, rfl⟩
abbrev main_cst_34 : Ref sig .tc := ⟨.hbm, 291, rfl⟩
abbrev main_v243 : Ref sig .tc := ⟨.hbm, 292, rfl⟩
abbrev main_v244 : Ref sig .tc := ⟨.hbm, 293, rfl⟩
abbrev main_v245 : Ref sig .tc := ⟨.hbm, 294, rfl⟩
abbrev main_v246 : Ref sig .tc := ⟨.hbm, 295, rfl⟩
abbrev main_v247 : Ref sig .tc := ⟨.hbm, 296, rfl⟩
abbrev main_v248 : Ref sig .tc := ⟨.hbm, 297, rfl⟩
abbrev main_cst_35 : Ref sig .tc := ⟨.hbm, 298, rfl⟩
abbrev main_v249 : Ref sig .tc := ⟨.hbm, 299, rfl⟩
abbrev main_cst_36 : Ref sig .tc := ⟨.hbm, 300, rfl⟩
abbrev main_v250 : Ref sig .tc := ⟨.hbm, 301, rfl⟩
abbrev main_v251 : Ref sig .tc := ⟨.hbm, 302, rfl⟩
abbrev main_v252 : Ref sig .tc := ⟨.hbm, 303, rfl⟩
abbrev main_v253 : Ref sig .tc := ⟨.hbm, 304, rfl⟩
abbrev main_v254 : Ref sig .tc := ⟨.hbm, 305, rfl⟩
abbrev main_cst_37 : Ref sig .tc := ⟨.hbm, 306, rfl⟩
abbrev main_v255 : Ref sig .tc := ⟨.hbm, 307, rfl⟩
abbrev main_v256 : Ref sig .tc := ⟨.hbm, 308, rfl⟩
abbrev main_v257 : Ref sig .tc := ⟨.hbm, 309, rfl⟩
abbrev main_v258 : Ref sig .tc := ⟨.hbm, 310, rfl⟩
abbrev main_v259 : Ref sig .tc := ⟨.hbm, 311, rfl⟩
abbrev main_v260 : Ref sig .tc := ⟨.hbm, 312, rfl⟩
abbrev main_v261 : Ref sig .tc := ⟨.hbm, 313, rfl⟩
abbrev main_v262 : Ref sig .tc := ⟨.hbm, 314, rfl⟩
abbrev main_v263 : Ref sig .tc := ⟨.hbm, 315, rfl⟩
abbrev main_v264 : Ref sig .tc := ⟨.hbm, 316, rfl⟩
abbrev main_v265 : Ref sig .tc := ⟨.hbm, 317, rfl⟩
abbrev main_v266 : Ref sig .tc := ⟨.hbm, 318, rfl⟩
abbrev main_v267 : Ref sig .tc := ⟨.hbm, 319, rfl⟩
abbrev main_v268 : Ref sig .tc := ⟨.hbm, 320, rfl⟩
abbrev main_v269 : Ref sig .tc := ⟨.hbm, 321, rfl⟩
abbrev main_v270 : Ref sig .tc := ⟨.hbm, 322, rfl⟩
abbrev main_v271 : Ref sig .tc := ⟨.hbm, 323, rfl⟩
abbrev main_v272 : Ref sig .tc := ⟨.hbm, 324, rfl⟩
abbrev main_v273 : Ref sig .tc := ⟨.hbm, 325, rfl⟩
abbrev main_c_38 : Ref sig .tc := ⟨.hbm, 326, rfl⟩
abbrev main_v274 : Ref sig .tc := ⟨.hbm, 327, rfl⟩
abbrev main_v275 : Ref sig .tc := ⟨.hbm, 328, rfl⟩
abbrev main_c_39 : Ref sig .tc := ⟨.hbm, 329, rfl⟩
abbrev main_v276 : Ref sig .tc := ⟨.hbm, 330, rfl⟩
abbrev main_v277 : Ref sig .tc := ⟨.hbm, 331, rfl⟩
abbrev main_v278 : Ref sig .tc := ⟨.hbm, 332, rfl⟩
abbrev main_v279 : Ref sig .tc := ⟨.hbm, 333, rfl⟩
abbrev main_v280 : Ref sig .tc := ⟨.hbm, 334, rfl⟩
abbrev main_cst_40 : Ref sig .tc := ⟨.hbm, 335, rfl⟩
abbrev main_v281 : Ref sig .tc := ⟨.hbm, 336, rfl⟩
abbrev main_v282 : Ref sig .tc := ⟨.hbm, 337, rfl⟩
abbrev main_v283 : Ref sig .tc := ⟨.hbm, 338, rfl⟩
abbrev main_v284 : Ref sig .tc := ⟨.hbm, 339, rfl⟩
abbrev main_v285 : Ref sig .tc := ⟨.hbm, 340, rfl⟩
abbrev main_v286 : Ref sig .tc := ⟨.hbm, 341, rfl⟩
abbrev main_v287 : Ref sig .tc := ⟨.hbm, 342, rfl⟩
abbrev main_v288 : Ref sig .tc := ⟨.hbm, 343, rfl⟩
abbrev main_v289 : Ref sig .tc := ⟨.hbm, 344, rfl⟩
abbrev main_v290 : Ref sig .tc := ⟨.hbm, 345, rfl⟩
abbrev main_v291 : Ref sig .tc := ⟨.hbm, 346, rfl⟩
abbrev main_v292 : Ref sig .tc := ⟨.hbm, 347, rfl⟩
abbrev main_v293 : Ref sig .tc := ⟨.hbm, 348, rfl⟩
abbrev main_v294 : Ref sig .tc := ⟨.hbm, 349, rfl⟩
abbrev main_v295 : Ref sig .tc := ⟨.hbm, 350, rfl⟩
abbrev main_cst_41 : Ref sig .tc := ⟨.hbm, 351, rfl⟩
abbrev main_v296 : Ref sig .tc := ⟨.hbm, 352, rfl⟩
abbrev main_cst_42 : Ref sig .tc := ⟨.hbm, 353, rfl⟩
abbrev main_v297 : Ref sig .tc := ⟨.hbm, 354, rfl⟩
abbrev main_v298 : Ref sig .tc := ⟨.hbm, 355, rfl⟩
abbrev main_v299 : Ref sig .tc := ⟨.hbm, 356, rfl⟩
abbrev main_v300 : Ref sig .tc := ⟨.hbm, 357, rfl⟩
abbrev main_v301 : Ref sig .tc := ⟨.hbm, 358, rfl⟩
abbrev main_v302 : Ref sig .tc := ⟨.hbm, 359, rfl⟩
abbrev main_cst_43 : Ref sig .tc := ⟨.hbm, 360, rfl⟩
abbrev main_v303 : Ref sig .tc := ⟨.hbm, 361, rfl⟩
abbrev main_cst_44 : Ref sig .tc := ⟨.hbm, 362, rfl⟩
abbrev main_v304 : Ref sig .tc := ⟨.hbm, 363, rfl⟩
abbrev main_v305 : Ref sig .tc := ⟨.hbm, 364, rfl⟩
abbrev main_v306 : Ref sig .tc := ⟨.hbm, 365, rfl⟩
abbrev main_v307 : Ref sig .tc := ⟨.hbm, 366, rfl⟩
abbrev main_v308 : Ref sig .tc := ⟨.hbm, 367, rfl⟩
abbrev main_cst_45 : Ref sig .tc := ⟨.hbm, 368, rfl⟩
abbrev main_v309 : Ref sig .tc := ⟨.hbm, 369, rfl⟩
abbrev main_v310 : Ref sig .tc := ⟨.hbm, 370, rfl⟩
abbrev main_v311 : Ref sig .tc := ⟨.hbm, 371, rfl⟩
abbrev main_v312 : Ref sig .tc := ⟨.hbm, 372, rfl⟩
abbrev main_v313 : Ref sig .tc := ⟨.hbm, 373, rfl⟩
abbrev main_v314 : Ref sig .tc := ⟨.hbm, 374, rfl⟩
abbrev main_v315 : Ref sig .tc := ⟨.hbm, 375, rfl⟩
abbrev main_v316 : Ref sig .tc := ⟨.hbm, 376, rfl⟩
abbrev main_v317 : Ref sig .tc := ⟨.hbm, 377, rfl⟩
abbrev main_v318 : Ref sig .tc := ⟨.hbm, 378, rfl⟩
abbrev main_v319 : Ref sig .tc := ⟨.hbm, 379, rfl⟩
abbrev main_v320 : Ref sig .tc := ⟨.hbm, 380, rfl⟩
abbrev main_v321 : Ref sig .tc := ⟨.hbm, 381, rfl⟩
abbrev main_v322 : Ref sig .tc := ⟨.hbm, 382, rfl⟩
abbrev main_v323 : Ref sig .tc := ⟨.hbm, 383, rfl⟩
abbrev main_v324 : Ref sig .tc := ⟨.hbm, 384, rfl⟩
abbrev main_v325 : Ref sig .tc := ⟨.hbm, 385, rfl⟩
abbrev main_v326 : Ref sig .tc := ⟨.hbm, 386, rfl⟩
abbrev main_v327 : Ref sig .tc := ⟨.hbm, 387, rfl⟩
abbrev main_c_46 : Ref sig .tc := ⟨.hbm, 388, rfl⟩
abbrev main_v328 : Ref sig .tc := ⟨.hbm, 389, rfl⟩
abbrev main_v329 : Ref sig .tc := ⟨.hbm, 390, rfl⟩
abbrev main_c_47 : Ref sig .tc := ⟨.hbm, 391, rfl⟩
abbrev main_v330 : Ref sig .tc := ⟨.hbm, 392, rfl⟩
abbrev main_v331 : Ref sig .tc := ⟨.hbm, 393, rfl⟩
abbrev main_v332 : Ref sig .tc := ⟨.hbm, 394, rfl⟩
abbrev main_v333 : Ref sig .tc := ⟨.hbm, 395, rfl⟩
abbrev main_v334 : Ref sig .tc := ⟨.hbm, 396, rfl⟩
abbrev main_cst_48 : Ref sig .tc := ⟨.hbm, 397, rfl⟩
abbrev main_v335 : Ref sig .tc := ⟨.hbm, 398, rfl⟩
abbrev main_v336 : Ref sig .tc := ⟨.hbm, 399, rfl⟩
abbrev main_v337 : Ref sig .tc := ⟨.hbm, 400, rfl⟩
abbrev main_v338 : Ref sig .tc := ⟨.hbm, 401, rfl⟩
abbrev main_v339 : Ref sig .tc := ⟨.hbm, 402, rfl⟩
abbrev main_v340 : Ref sig .tc := ⟨.hbm, 403, rfl⟩
abbrev main_v341 : Ref sig .tc := ⟨.hbm, 404, rfl⟩
abbrev main_v342 : Ref sig .tc := ⟨.hbm, 405, rfl⟩
abbrev main_v343 : Ref sig .tc := ⟨.hbm, 406, rfl⟩
abbrev main_v344 : Ref sig .tc := ⟨.hbm, 407, rfl⟩
abbrev main_v345 : Ref sig .tc := ⟨.hbm, 408, rfl⟩
abbrev main_v346 : Ref sig .tc := ⟨.hbm, 409, rfl⟩
abbrev main_v347 : Ref sig .tc := ⟨.hbm, 410, rfl⟩
abbrev main_v348 : Ref sig .tc := ⟨.hbm, 411, rfl⟩
abbrev main_v349 : Ref sig .tc := ⟨.hbm, 412, rfl⟩
abbrev main_cst_49 : Ref sig .tc := ⟨.hbm, 413, rfl⟩
abbrev main_v350 : Ref sig .tc := ⟨.hbm, 414, rfl⟩
abbrev main_cst_50 : Ref sig .tc := ⟨.hbm, 415, rfl⟩
abbrev main_v351 : Ref sig .tc := ⟨.hbm, 416, rfl⟩
abbrev main_v352 : Ref sig .tc := ⟨.hbm, 417, rfl⟩
abbrev main_v353 : Ref sig .tc := ⟨.hbm, 418, rfl⟩
abbrev main_v354 : Ref sig .tc := ⟨.hbm, 419, rfl⟩
abbrev main_v355 : Ref sig .tc := ⟨.hbm, 420, rfl⟩
abbrev main_v356 : Ref sig .tc := ⟨.hbm, 421, rfl⟩
abbrev main_cst_51 : Ref sig .tc := ⟨.hbm, 422, rfl⟩
abbrev main_v357 : Ref sig .tc := ⟨.hbm, 423, rfl⟩
abbrev main_cst_52 : Ref sig .tc := ⟨.hbm, 424, rfl⟩
abbrev main_v358 : Ref sig .tc := ⟨.hbm, 425, rfl⟩
abbrev main_v359 : Ref sig .tc := ⟨.hbm, 426, rfl⟩
abbrev main_v360 : Ref sig .tc := ⟨.hbm, 427, rfl⟩
abbrev main_v361 : Ref sig .tc := ⟨.hbm, 428, rfl⟩
abbrev main_v362 : Ref sig .tc := ⟨.hbm, 429, rfl⟩
abbrev main_cst_53 : Ref sig .tc := ⟨.hbm, 430, rfl⟩
abbrev main_v363 : Ref sig .tc := ⟨.hbm, 431, rfl⟩
abbrev main_v364 : Ref sig .tc := ⟨.hbm, 432, rfl⟩
abbrev main_v365 : Ref sig .tc := ⟨.hbm, 433, rfl⟩
abbrev main_v366 : Ref sig .tc := ⟨.hbm, 434, rfl⟩
abbrev main_v367 : Ref sig .tc := ⟨.hbm, 435, rfl⟩
abbrev main_v368 : Ref sig .tc := ⟨.hbm, 436, rfl⟩
abbrev main_v369 : Ref sig .tc := ⟨.hbm, 437, rfl⟩
abbrev main_v370 : Ref sig .tc := ⟨.hbm, 438, rfl⟩
abbrev main_v371 : Ref sig .tc := ⟨.hbm, 439, rfl⟩
abbrev main_v372 : Ref sig .tc := ⟨.hbm, 440, rfl⟩
abbrev main_v373 : Ref sig .tc := ⟨.hbm, 441, rfl⟩
abbrev main_v374 : Ref sig .tc := ⟨.hbm, 442, rfl⟩
abbrev main_v375 : Ref sig .tc := ⟨.hbm, 443, rfl⟩
abbrev main_v376 : Ref sig .tc := ⟨.hbm, 444, rfl⟩
abbrev main_v377 : Ref sig .tc := ⟨.hbm, 445, rfl⟩
abbrev main_v378 : Ref sig .tc := ⟨.hbm, 446, rfl⟩
abbrev main_v379 : Ref sig .tc := ⟨.hbm, 447, rfl⟩
abbrev main_v380 : Ref sig .tc := ⟨.hbm, 448, rfl⟩
abbrev main_v381 : Ref sig .tc := ⟨.hbm, 449, rfl⟩
abbrev main_c_54 : Ref sig .tc := ⟨.hbm, 450, rfl⟩
abbrev main_v382 : Ref sig .tc := ⟨.hbm, 451, rfl⟩
abbrev main_v383 : Ref sig .tc := ⟨.hbm, 452, rfl⟩
abbrev main_c_55 : Ref sig .tc := ⟨.hbm, 453, rfl⟩
abbrev main_v384 : Ref sig .tc := ⟨.hbm, 454, rfl⟩
abbrev main_v385 : Ref sig .tc := ⟨.hbm, 455, rfl⟩
abbrev main_v386 : Ref sig .tc := ⟨.hbm, 456, rfl⟩
abbrev main_v387 : Ref sig .tc := ⟨.hbm, 457, rfl⟩
abbrev main_v388 : Ref sig .tc := ⟨.hbm, 458, rfl⟩
abbrev main_cst_56 : Ref sig .tc := ⟨.hbm, 459, rfl⟩
abbrev main_v389 : Ref sig .tc := ⟨.hbm, 460, rfl⟩
abbrev main_v390 : Ref sig .tc := ⟨.hbm, 461, rfl⟩
abbrev main_v391 : Ref sig .tc := ⟨.hbm, 462, rfl⟩
abbrev main_v392 : Ref sig .tc := ⟨.hbm, 463, rfl⟩
abbrev main_v393 : Ref sig .tc := ⟨.hbm, 464, rfl⟩
abbrev main_v394 : Ref sig .tc := ⟨.hbm, 465, rfl⟩
abbrev main_v395 : Ref sig .tc := ⟨.hbm, 466, rfl⟩
abbrev main_v396 : Ref sig .tc := ⟨.hbm, 467, rfl⟩
abbrev main_v397 : Ref sig .tc := ⟨.hbm, 468, rfl⟩
abbrev main_v398 : Ref sig .tc := ⟨.hbm, 469, rfl⟩
abbrev main_v399 : Ref sig .tc := ⟨.hbm, 470, rfl⟩
abbrev main_v400 : Ref sig .tc := ⟨.hbm, 471, rfl⟩
abbrev main_v401 : Ref sig .tc := ⟨.hbm, 472, rfl⟩
abbrev main_v402 : Ref sig .tc := ⟨.hbm, 473, rfl⟩
abbrev main_v403 : Ref sig .tc := ⟨.hbm, 474, rfl⟩
abbrev main_cst_57 : Ref sig .tc := ⟨.hbm, 475, rfl⟩
abbrev main_v404 : Ref sig .tc := ⟨.hbm, 476, rfl⟩
abbrev main_cst_58 : Ref sig .tc := ⟨.hbm, 477, rfl⟩
abbrev main_v405 : Ref sig .tc := ⟨.hbm, 478, rfl⟩
abbrev main_v406 : Ref sig .tc := ⟨.hbm, 479, rfl⟩
abbrev main_v407 : Ref sig .tc := ⟨.hbm, 480, rfl⟩
abbrev main_v408 : Ref sig .tc := ⟨.hbm, 481, rfl⟩
abbrev main_v409 : Ref sig .tc := ⟨.hbm, 482, rfl⟩
abbrev main_v410 : Ref sig .tc := ⟨.hbm, 483, rfl⟩
abbrev main_cst_59 : Ref sig .tc := ⟨.hbm, 484, rfl⟩
abbrev main_v411 : Ref sig .tc := ⟨.hbm, 485, rfl⟩
abbrev main_cst_60 : Ref sig .tc := ⟨.hbm, 486, rfl⟩
abbrev main_v412 : Ref sig .tc := ⟨.hbm, 487, rfl⟩
abbrev main_v413 : Ref sig .tc := ⟨.hbm, 488, rfl⟩
abbrev main_v414 : Ref sig .tc := ⟨.hbm, 489, rfl⟩
abbrev main_v415 : Ref sig .tc := ⟨.hbm, 490, rfl⟩
abbrev main_v416 : Ref sig .tc := ⟨.hbm, 491, rfl⟩
abbrev main_cst_61 : Ref sig .tc := ⟨.hbm, 492, rfl⟩
abbrev main_v417 : Ref sig .tc := ⟨.hbm, 493, rfl⟩
abbrev main_v418 : Ref sig .tc := ⟨.hbm, 494, rfl⟩
abbrev main_v419 : Ref sig .tc := ⟨.hbm, 495, rfl⟩
abbrev main_v420 : Ref sig .tc := ⟨.hbm, 496, rfl⟩
abbrev main_v421 : Ref sig .tc := ⟨.hbm, 497, rfl⟩
abbrev main_v422 : Ref sig .tc := ⟨.hbm, 498, rfl⟩
abbrev main_v423 : Ref sig .tc := ⟨.hbm, 499, rfl⟩
abbrev main_v424 : Ref sig .tc := ⟨.hbm, 500, rfl⟩
abbrev main_v425 : Ref sig .tc := ⟨.hbm, 501, rfl⟩
abbrev main_v426 : Ref sig .tc := ⟨.hbm, 502, rfl⟩
abbrev main_v427 : Ref sig .tc := ⟨.hbm, 503, rfl⟩
abbrev main_v428 : Ref sig .tc := ⟨.hbm, 504, rfl⟩
abbrev main_v429 : Ref sig .tc := ⟨.hbm, 505, rfl⟩
abbrev main_v430 : Ref sig .tc := ⟨.hbm, 506, rfl⟩
abbrev main_v431 : Ref sig .tc := ⟨.hbm, 507, rfl⟩
abbrev main_v432 : Ref sig .tc := ⟨.hbm, 508, rfl⟩
abbrev main_v433 : Ref sig .tc := ⟨.hbm, 509, rfl⟩
abbrev main_v434 : Ref sig .tc := ⟨.hbm, 510, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x8 : S_.BroadcastsInDim S50000x8 (![] : Fin 0 → Fin S50000x8.rank)
  transposes_S64x8_S8x64_1_0 : S64x8.Transposes [1, 0] S8x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  slices_S8x64_S1x64_0_0 : S8x64.Slices ![0, 0] S1x64
  shapeCasts_S1x64_S64 : S1x64.ShapeCasts S64
  reducesTo_S50000x64_S64_d0 : S50000x64.ReducesTo [0] S64
  h_S_ : 0 < S_.numel
  bcast_S_S64 : S_.BroadcastsInDim S64 (![] : Fin 0 → Fin S64.rank)
  slices_S7x64x64_S1x64x64_0_0_0 : S7x64x64.Slices ![0, 0, 0] S1x64x64
  shapeCasts_S1x64x64_S64x64 : S1x64x64.ShapeCasts S64x64
  slices_S7x64_S1x64_0_0 : S7x64.Slices ![0, 0] S1x64
  bcast_S_S50000x64 : S_.BroadcastsInDim S50000x64 (![] : Fin 0 → Fin S50000x64.rank)
  transposes_S64x64_S64x64_1_0 : S64x64.Transposes [1, 0] S64x64
  slices_S8x64_S1x64_1_0 : S8x64.Slices ![1, 0] S1x64
  slices_S7x64x64_S1x64x64_1_0_0 : S7x64x64.Slices ![1, 0, 0] S1x64x64
  slices_S7x64_S1x64_1_0 : S7x64.Slices ![1, 0] S1x64
  slices_S8x64_S1x64_2_0 : S8x64.Slices ![2, 0] S1x64
  slices_S7x64x64_S1x64x64_2_0_0 : S7x64x64.Slices ![2, 0, 0] S1x64x64
  slices_S7x64_S1x64_2_0 : S7x64.Slices ![2, 0] S1x64
  slices_S8x64_S1x64_3_0 : S8x64.Slices ![3, 0] S1x64
  slices_S7x64x64_S1x64x64_3_0_0 : S7x64x64.Slices ![3, 0, 0] S1x64x64
  slices_S7x64_S1x64_3_0 : S7x64.Slices ![3, 0] S1x64
  slices_S8x64_S1x64_4_0 : S8x64.Slices ![4, 0] S1x64
  slices_S7x64x64_S1x64x64_4_0_0 : S7x64x64.Slices ![4, 0, 0] S1x64x64
  slices_S7x64_S1x64_4_0 : S7x64.Slices ![4, 0] S1x64
  slices_S8x64_S1x64_5_0 : S8x64.Slices ![5, 0] S1x64
  slices_S7x64x64_S1x64x64_5_0_0 : S7x64x64.Slices ![5, 0, 0] S1x64x64
  slices_S7x64_S1x64_5_0 : S7x64.Slices ![5, 0] S1x64
  slices_S8x64_S1x64_6_0 : S8x64.Slices ![6, 0] S1x64
  slices_S7x64x64_S1x64x64_6_0_0 : S7x64x64.Slices ![6, 0, 0] S1x64x64
  slices_S7x64_S1x64_6_0 : S7x64.Slices ![6, 0] S1x64
  slices_S8x64_S1x64_7_0 : S8x64.Slices ![7, 0] S1x64
  transposes_S200x64_S64x200_1_0 : S200x64.Transposes [1, 0] S64x200
  bcast_S200_S1x200_1 : S200.BroadcastsInDim S1x200 (![1] : Fin 1 → Fin S1x200.rank)
  bcast_S1x200_S50000x200_0_1 : S1x200.BroadcastsInDim S50000x200 (![0, 1] : Fin 2 → Fin S50000x200.rank)
  gather_S50000x8_S800000x1_S800000x8_1_0_n_n_0_1_18_wf : GatherDims.WF S50000x8 S800000x1 S800000x8 [1] [0] [] [0] [] 1 ![1, 8]
  scatter_S50000x8_S800000x1_S800000x8_1_0_0_1_wf : ScatterDims.WF S50000x8 S800000x1 S800000x8 [1] [0] [0] 1
  dot_S50000x8_S8x64_S50000x64_1_0_0_1_n_n_wf : DotDims.WF S50000x8 S8x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []
  dot_S50000x64_S64x200_S50000x200_1_0_0_1_n_n_wf : DotDims.WF S50000x64 S64x200 S50000x200 [1] [0] [0] [1] [] []

variable [Facts₀]

def gather_S50000x8_S800000x1_S800000x8_1_0_n_n_0_1_18 : GatherDims S50000x8 S800000x1 S800000x8 where
  offsetDims := [1]
  collapsedSliceDims := [0]
  operandBatchingDims := []
  startIndicesBatchingDims := []
  startIndexMap := [0]
  indexVectorDim := 1
  sliceSizes := ![1, 8]
  wf := gather_S50000x8_S800000x1_S800000x8_1_0_n_n_0_1_18_wf
def scatter_S50000x8_S800000x1_S800000x8_1_0_0_1 : ScatterDims S50000x8 S800000x1 S800000x8 where
  updateWindowDims := [1]
  insertedWindowDims := [0]
  scatterDimsToOperandDims := [0]
  indexVectorDim := 1
  wf := scatter_S50000x8_S800000x1_S800000x8_1_0_0_1_wf
def dot_S50000x8_S8x64_S50000x64_1_0_0_1_n_n : DotDims S50000x8 S8x64 S50000x64 where
  lhsContracting := [1]
  rhsContracting := [0]
  lhsNonContracting := [0]
  rhsNonContracting := [1]
  lhsBatch := []
  rhsBatch := []
  wf := dot_S50000x8_S8x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x200_S50000x200_1_0_0_1_n_n : DotDims S50000x64 S64x200 S50000x200 where
  lhsContracting := [1]
  rhsContracting := [0]
  lhsNonContracting := [0]
  rhsNonContracting := [1]
  lhsBatch := []
  rhsBatch := []
  wf := dot_S50000x64_S64x200_S50000x200_1_0_0_1_n_n_wf

class Facts : Prop extends Facts₀ where

variable [Facts]
-- ==== Proof.KernelRun.lean ====
/-
  The idealized kernel program's run, with its result named.

  The program is seventeen launches among stretches of host operations.  Its run from any memory terminates without a
  fault; this module states, beside the arguments ending as launched, what the result buffer holds at the end: the
  contents the last boundary of the fold through the program assigns it (each host stretch applied to the contents
  before it, each launch's arrays at what its write-backs leave).  Reading that fold down to the arguments is the
  work of the modules that import this one.
-/
import proofs.«147565_j9259949490665_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the last
    boundary's contents and the argument arrays as launched. -/
theorem run : θ_run defs (onTc (τ := τ) (main (F := F))) ⟨m, fun _ => 0, ρ⟩ (fun r => ∀ c : Dev nD,
      r.2.mem ((c.tc : Thread nD τ).loc main_v247) = W34 m ρ c (Proc.devRef .tc main_v247)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W34 m ρ c b)
    (hfin := fun c s' => by
      iintro ⟨⟨Hh, -⟩, HSI⟩
      unfold StableHlo.held
      imodintro
      iapply (pointsTo_read_all (Pipeline.ucRefs τ sig) (fun b => (((c : Thread nD τ)).1, b)) (W34 m ρ c) s')
      isplitl [Hh] <;> iassumption)
    (hQ := fun s h c =>
      ⟨h c _ (mem_uc main_v247 (by decide)),
       (h c _ (mem_uc main_arg0 (by decide))).trans (W34_main_arg0 m ρ c),
       (h c _ (mem_uc main_arg1 (by decide))).trans (W34_main_arg1 m ρ c),
       (h c _ (mem_uc main_arg2 (by decide))).trans (W34_main_arg2 m ρ c),
       (h c _ (mem_uc main_arg3 (by decide))).trans (W34_main_arg3 m ρ c),
       (h c _ (mem_uc main_arg4 (by decide))).trans (W34_main_arg4 m ρ c),
       (h c _ (mem_uc main_arg5 (by decide))).trans (W34_main_arg5 m ρ c),
       (h c _ (mem_uc main_arg6 (by decide))).trans (W34_main_arg6 m ρ c),
       (h c _ (mem_uc main_arg7 (by decide))).trans (W34_main_arg7 m ρ c),
       (h c _ (mem_uc main_arg8 (by decide))).trans (W34_main_arg8 m ρ c),
       (h c _ (mem_uc main_arg9 (by decide))).trans (W34_main_arg9 m ρ c),
       (h c _ (mem_uc main_arg10 (by decide))).trans (W34_main_arg10 m ρ c),
       (h c _ (mem_uc main_arg11 (by decide))).trans (W34_main_arg11 m ρ c)⟩)

end Cert.KernelIdeal.RunValue

end
-- ==== Proof.KHostFn.lean ====
/-
  The host operations between the launches, as functions.

  From the 2×E edge list: the source and target index vectors (its two rows).  The aggregation of a feature array h: the
  rows h[src e] (a negative source index wrapped by the number of nodes) are added into a zero array at the rows tgt e.
  A layer's weights, bias, gain and offset are slices of the stacked parameter arrays, reshaped to drop the unit axis.
-/
import proofs.«147565_j9259949490665_1_alg».proof.KernelIdeal
import Idealize.ShloMosaic.PureOps.Ideal

noncomputable section

namespace Cert.KernelIdeal.HostFn

open Idealize.ShloMosaic Cert.KernelIdeal

variable [Cert.KernelIdeal.Facts]
open Cert.KernelIdeal.Facts₀ Cert.KernelIdeal.Facts

/-- Row `r` of the edge list (r = 0 the sources, r = 1 the targets). -/
def idxRow (off : Fin 2 → Nat) (h : S2x800000.Slices off S1x800000) (ei : IVec S2x800000 32) : IVec S800000 32 :=
  shapeCast S800000 (extractStridedSlice S1x800000 off ei h) shapeCasts_S1x800000_S800000

/-- The source indices as gather start indices: a negative index wrapped by 50000, as an E×1 column. -/
def srcCol (v1 : IVec S800000 32) : IVec S800000x1 32 :=
  broadcastInDim S800000x1 ![0] bcast_S800000_S800000x1_0
    (select (cmpi .slt v1 (broadcastInDim S800000 ![] bcast_S_S800000 (constantI S_ 32 0#32)))
      (addi v1 (broadcastInDim S800000 ![] bcast_S_S800000 (constantI S_ 32 50000#32))) v1)

/-- The target indices as an E×1 column. -/
def dstCol (v3 : IVec S800000 32) : IVec S800000x1 32 := broadcastInDim S800000x1 ![0] bcast_S800000_S800000x1_0 v3

/-- The aggregation of an array of 8 features. -/
def agg8 (v1 v3 : IVec S800000 32) (x : FVec Ideal S50000x8 .f32) : FVec Ideal S50000x8 .f32 :=
  Host.scatterAdd scatter_S50000x8_S800000x1_S800000x8_1_0_0_1
    (broadcastInDim S50000x8 ![] bcast_S_S50000x8 (constant S_ .f32 0x00000000#32)) (dstCol v3)
    (Host.gather gather_S50000x8_S800000x1_S800000x8_1_0_n_n_0_1_18 x (srcCol v1))

/-- The aggregation of an array of 64 features. -/
def agg64 (v1 v3 : IVec S800000 32) (x : FVec Ideal S50000x64 .f32) : FVec Ideal S50000x64 .f32 :=
  Host.scatterAdd scatter_S50000x64_S800000x1_S800000x64_1_0_0_1
    (broadcastInDim S50000x64 ![] bcast_S_S50000x64 (constant S_ .f32 0x00000000#32)) (dstCol v3)
    (Host.gather gather_S50000x64_S800000x1_S800000x64_1_0_n_n_0_1_164 x (srcCol v1))

/-- One 64×64 matrix of a stack of seven. -/
def matSlice (off : Fin 3 → Nat) (h : S7x64x64.Slices off S1x64x64) (w : FVec Ideal S7x64x64 .f32) : FVec Ideal S64x64 .f32 :=
  shapeCast S64x64 (extractStridedSlice S1x64x64 off w h) shapeCasts_S1x64x64_S64x64

/-- One length-64 row of a stack of seven. -/
def vecSlice7 (off : Fin 2 → Nat) (h : S7x64.Slices off S1x64) (w : FVec Ideal S7x64 .f32) : FVec Ideal S64 .f32 :=
  shapeCast S64 (extractStridedSlice S1x64 off w h) shapeCasts_S1x64_S64

/-- One length-64 row of a stack of eight. -/
def vecSlice8 (off : Fin 2 → Nat) (h : S8x64.Slices off S1x64) (w : FVec Ideal S8x64 .f32) : FVec Ideal S64 .f32 :=
  shapeCast S64 (extractStridedSlice S1x64 off w h) shapeCasts_S1x64_S64

end Cert.KernelIdeal.HostFn

end
-- ==== Proof.Spec.lean ====
/-
  The layer's three steps as functions of whole arrays over the extended reals, index by index.

  For a node-feature array with R rows: the dense step adds, at entry (p, q), the aggregated row p against row q of the
  neighbour weights, the bias entry q, and the node's own row p against row q of the root weights; the column sums add
  an array's entries, or their squares, down each column; the normalising step subtracts a per-column mean, scales by
  the reciprocal square root of a per-column variance plus a fixed small constant and by a per-column gain, adds a
  per-column offset and takes the hyperbolic tangent; the projection is a dense step with one product.  Weights are
  stored with the OUTPUT feature as their row, so every product contracts the second axis of both operands.
-/
import Idealize.ShloMosaic.PureOps.Ideal.Laws
import Idealize.ShloMosaic.Lib.ValueIdx

noncomputable section

namespace Cert.Layer

open Idealize.ShloMosaic Idealize.ShloMosaic.ValueIdx
open scoped BigOperators

/-- An R×C array of extended reals. -/
abbrev Mat (R C : ℕ) : Type := (⟨2, ![R, C]⟩ : Shape).Idx → EReal

/-- The small constant added to a variance before the reciprocal square root (the binary value both programs spell). -/
def eps : EReal := Ideal.ofBits .f32 0x3727C5AC#32

/-- The dense step: (a·wlᵀ + b) + x·wrᵀ at entry (p, q). -/
def lin {R K N : ℕ} (a x : Mat R K) (wl wr : Mat N K) (b : Mat 1 N) : Mat R N :=
  fun i => ((∑ k : Fin K, a (ix2 (i 0) k) * wl (ix2 (i 1) k)) + b (ix2 0 (i 1)))
    + ∑ k : Fin K, x (ix2 (i 0) k) * wr (ix2 (i 1) k)

/-- The sum of each column, as a 1×N row. -/
def colSum {R N : ℕ} (h : Mat R N) : Mat 1 N := fun j => ∑ p : Fin R, h (ix2 p (j 1))

/-- The sum of the squares of each column, as a 1×N row. -/
def colSumSq {R N : ℕ} (h : Mat R N) : Mat 1 N := fun j => ∑ p : Fin R, h (ix2 p (j 1)) * h (ix2 p (j 1))

/-- The normalising step: tanh(((h − mean)·rsqrt(var + eps))·g + b), the four rows read at the entry's column. -/
def bn {R N : ℕ} (h : Mat R N) (mean var g b : Mat 1 N) : Mat R N :=
  fun i => Ideal.tanh ((((h i - mean (ix2 0 (i 1))) * Ideal.rsqrt (var (ix2 0 (i 1)) + eps)) * g (ix2 0 (i 1)))
    + b (ix2 0 (i 1)))

/-- The projection: h·wᵀ + b at entry (p, q). -/
def proj {R K N : ℕ} (h : Mat R K) (w : Mat N K) (b : Mat 1 N) : Mat R N :=
  fun i => (∑ k : Fin K, h (ix2 (i 0) k) * w (ix2 (i 1) k)) + b (ix2 0 (i 1))

theorem lin_apply {R K N : ℕ} (a x : Mat R K) (wl wr : Mat N K) (b : Mat 1 N) (p : Fin R) (q : Fin N) :
    lin a x wl wr b (ix2 p q) = ((∑ k : Fin K, a (ix2 p k) * wl (ix2 q k)) + b (ix2 0 q)) + ∑ k : Fin K, x (ix2 p k) * wr (ix2 q k) := rfl

theorem colSum_apply {R N : ℕ} (h : Mat R N) (q : Fin N) : colSum h (ix2 0 q) = ∑ p : Fin R, h (ix2 p q) := rfl

theorem colSumSq_apply {R N : ℕ} (h : Mat R N) (q : Fin N) :
    colSumSq h (ix2 0 q) = ∑ p : Fin R, h (ix2 p q) * h (ix2 p q) := rfl

theorem bn_apply {R N : ℕ} (h : Mat R N) (mean var g b : Mat 1 N) (p : Fin R) (q : Fin N) :
    bn h mean var g b (ix2 p q)
      = Ideal.tanh ((((h (ix2 p q) - mean (ix2 0 q)) * Ideal.rsqrt (var (ix2 0 q) + eps)) * g (ix2 0 q)) + b (ix2 0 q)) := rfl

theorem proj_apply {R K N : ℕ} (h : Mat R K) (w : Mat N K) (b : Mat 1 N) (p : Fin R) (q : Fin N) :
    proj h w b (ix2 p q) = (∑ k : Fin K, h (ix2 p k) * w (ix2 q k)) + b (ix2 0 q) := rfl

end Cert.Layer

end
-- ==== Proof.LibBiasRow.lean ====
/-
  The bias of a layer, a length-N vector, as the 1×N row both programs add to every row of a product.  The kernel reshapes
  the vector to 1×N on the host and the body broadcasts that row over its block; the reference broadcasts the vector to
  1×N and then to M×N.  Either way entry (p, q) of what is added is entry q of the vector.
-/
import Idealize.ShloMosaic.PureOps.Ideal.Laws
import Idealize.ShloMosaic.Lib.ValueIdx
import Idealize.ShloMosaic.Lib.Pipeline.Value
import Idealize.ShloMosaic.Lib.KernelVsHost

noncomputable section

namespace Cert.Row

open Idealize.ShloMosaic Idealize.ShloMosaic.ValueIdx

variable {M N : ℕ}

/-- A length-N vector as a 1×N row. -/
def rowOf (b : FVec Ideal ⟨1, ![N]⟩ .f32) : FVec Ideal ⟨2, ![1, N]⟩ .f32 := fun j => b (ix1 (j 1))

/-- The reshape of the vector to 1×N is that row. -/
theorem shapeCast_row (b : FVec Ideal ⟨1, ![N]⟩ .f32) (h : (⟨1, ![N]⟩ : Shape).ShapeCasts ⟨2, ![1, N]⟩) :
    shapeCast ⟨2, ![1, N]⟩ b h = rowOf b := by
  funext j
  refine (shapeCast_addUnit_apply ![N] b h j).trans ?_
  unfold rowOf
  exact congrArg b (funext fun a => by match a with | ⟨0, _⟩ => rfl)

/-- The two broadcasts of the vector, to 1×N and then to M×N, read at (p, q): the row at (0, q). -/
theorem bcast_row_apply (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = rowOf b (ix2 0 q) := by
  rw [broadcastInDim_oneRow_apply]
  refine broadcastInDim_apply ![1] h1 b (ix2 (0 : Fin 1) q) (ix1 q) (fun a => ?_)
  match a with
  | ⟨0, _⟩ =>
    show q.val = if N = 1 then 0 else q.val
    split_ifs with hN
    · have := q.isLt; omega
    · rfl

end Cert.Row

end
-- ==== Proof.LayerDefs.lean ====
/-
  The normalising step with its statistics taken from the array itself.

  For an array h with R = 50000 rows the per-column mean is (Σₚ h(p,q)) / 50000 and the per-column variance, in the form
  "mean of squares minus square of mean", is (Σₚ h(p,q)²) / 50000 − mean(q)².  The step then is the normalisation of
  Spec.lean with those two rows.  Also here: the host's forms of these rows (a division of a 1×N row by the broadcast
  constant 50000.0, a product, a difference), the value of the constant, and a length-N vector broadcast to a 1×N row.
-/
import proofs.«147565_j9259949490665_1_alg».proof.Proof.Spec
import proofs.«147565_j9259949490665_1_alg».proof.Proof.LibBiasRow

noncomputable section

namespace Cert.Layer

open Idealize.ShloMosaic Idealize.ShloMosaic.ValueIdx
open scoped BigOperators

/-- The number of rows, as an extended real. -/
def nRows : EReal := ((50000 : ℝ) : EReal)

/-- The float word 50000.0 denotes the real 50000. -/
theorem ofBits_nRows : Ideal.ofBits .f32 0x47435000#32 = nRows := by
  unfold nRows
  simp [Ideal.ofBits, Ideal.ieee, -EReal.coe_mul]; norm_num

/-- The per-column mean. -/
def meanOf {R N : ℕ} (h : Mat R N) : Mat 1 N := fun j => Ideal.div (colSum h j) nRows

/-- The per-column variance, as the mean of the squares minus the square of the mean. -/
def varOf {R N : ℕ} (h : Mat R N) : Mat 1 N := fun j => Ideal.div (colSumSq h j) nRows - meanOf h j * meanOf h j

/-- The normalising step with the array's own mean and variance. -/
def bnStep {R N : ℕ} (h : Mat R N) (g b : Mat 1 N) : Mat R N := bn h (meanOf h) (varOf h) g b

/-- A row divided, entry by entry, by the broadcast constant 50000.0. -/
theorem divRow_eq {S : Shape} (s : FVec Ideal S .f32) (hb : (⟨0, ![]⟩ : Shape).BroadcastsInDim S (![] : Fin 0 → Fin S.rank)) :
    Host.divf s (broadcastInDim S ![] hb (constant (F := Ideal) ⟨0, ![]⟩ .f32 0x47435000#32)) = fun j => Ideal.div (s j) nRows := by
  funext j
  simp only [Host.divf, broadcastInDim, constant, Ideal.hostDivf_def, Ideal.ofBits_def, ofBits_nRows]

/-- The host's mean row of a column-sum row. -/
theorem meanRow_eq {R N : ℕ} (h : Mat R N) (hb : (⟨0, ![]⟩ : Shape).BroadcastsInDim ⟨2, ![1, N]⟩ (![] : Fin 0 → Fin 2)) :
    Host.divf (colSum h) (broadcastInDim ⟨2, ![1, N]⟩ ![] hb (constant (F := Ideal) ⟨0, ![]⟩ .f32 0x47435000#32)) = meanOf h :=
  divRow_eq (colSum h) hb

/-- The host's variance row: the mean of squares row minus the product of the mean row with itself. -/
theorem varRow_eq {R N : ℕ} (h : Mat R N) (hb : (⟨0, ![]⟩ : Shape).BroadcastsInDim ⟨2, ![1, N]⟩ (![] : Fin 0 → Fin 2)) :
    subf (Host.divf (colSumSq h) (broadcastInDim ⟨2, ![1, N]⟩ ![] hb (constant (F := Ideal) ⟨0, ![]⟩ .f32 0x47435000#32)))
      (mulf (meanOf h) (meanOf h)) = varOf h := by
  rw [divRow_eq]
  rfl

/-- A length-N vector broadcast to a 1×N row is that row. -/
theorem bcast1_row {N : ℕ} (b : FVec Ideal ⟨1, ![N]⟩ .f32) (h1 : (⟨1, ![N]⟩ : Shape).BroadcastsInDim ⟨2, ![1, N]⟩ ![1]) :
    broadcastInDim ⟨2, ![1, N]⟩ ![1] h1 b = Cert.Row.rowOf b := by
  funext j
  obtain ⟨p, q, rfl⟩ : ∃ (p : Fin 1) (q : Fin N), j = ix2 p q := ⟨j 0, j 1, eq_ix2 j⟩
  refine broadcastInDim_apply ![1] h1 b (ix2 p q) (ix1 q) (fun a => ?_)
  match a with
  | ⟨0, _⟩ =>
    show q.val = if N = 1 then 0 else q.val
    split_ifs with hN
    · have := q.isLt; omega
    · rfl

end Cert.Layer

end
-- ==== Proof.KHostA0.lean ====
/-
  The host operations before launch 0: which buffers they write, and what the ones the layer reads hold afterwards.
-/
import proofs.«147565_j9259949490665_1_alg».proof.Proof.Gen.KernelIdeal.Frame
import proofs.«147565_j9259949490665_1_alg».proof.Proof.KHostFn
import proofs.«147565_j9259949490665_1_alg».proof.Proof.LayerDefs

set_option maxRecDepth 16384

noncomputable section

namespace Cert.KernelIdeal.Fold

open Idealize.ShloMosaic Idealize.ShloMosaic.TcCoe Idealize.SL.Sem Idealize.ShloMosaic.ValueIdx
open Cert.KernelIdeal Cert.KernelIdeal.Gen Cert.KernelIdeal.HostFn Cert.Layer

variable (m : (ℓ : Loc nD τ sig) → Buf (Elt Ideal) ℓ) (ρ : Dev nD → PrngReg)

/-- The buffers the host operations before launch 0 write. -/
abbrev hostOps0_W : List (Ref sig .tc) := [main_v0, main_v1, main_v2, main_v3, main_v4, main_v5, main_v6, main_v7, main_c, main_v8, main_v9, main_c_0, main_v10, main_v11, main_v12, main_v13, main_v14, main_cst, main_v15, main_v16, main_v17, main_v18]

theorem hostOps0_writes : (hostOps0 : List (HloOp τ sig (Elt Ideal))).Forall fun op => op.writes ⊆ (hostOps0_W.map (Proc.devRef (τ := τ) .tc)).toFinset := by
  simp only [hostOps0, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- A buffer those operations do not write keeps its contents through them. -/
theorem keepH0 (c : Dev nD) (r : Ref sig .tc) (h : r ∉ hostOps0_W) :
    W1 m ρ c (Proc.devRef .tc r) = W0 m ρ c (Proc.devRef .tc r) :=
  StableHlo.after_of_writes_sub hostOps0 _ hostOps0_writes h

theorem W1_v1 (c : Dev nD) : W1 m ρ c (Proc.devRef .tc main_v1) = (idxRow ![0, 0] slices_S2x800000_S1x800000_0_0 (W0 m ρ c (Proc.devRef .tc main_arg1))) := by
  show StableHlo.after hostOps0 (W0 m ρ c) (Proc.devRef .tc main_v1) = _
  simp only [hostOps0]
  first | (after_results_simp <;> rfl) | (after_results <;> rfl)
theorem W1_v3 (c : Dev nD) : W1 m ρ c (Proc.devRef .tc main_v3) = (idxRow ![1, 0] slices_S2x800000_S1x800000_1_0 (W0 m ρ c (Proc.devRef .tc main_arg1))) := by
  show StableHlo.after hostOps0 (W0 m ρ c) (Proc.devRef .tc main_v3) = _
  simp only [hostOps0]
  first | (after_results_simp <;> rfl) | (after_results <;> rfl)
theorem W1_wl (c : Dev nD) : W1 m ρ c (Proc.devRef .tc main_arg2) = W0 m ρ c (Proc.devRef .tc main_arg2) := keepH0 m ρ c main_arg2 (by decide)
theorem W1_wr (c : Dev nD) : W1 m ρ c (Proc.devRef .tc main_arg3) = W0 m ρ c (Proc.devRef .tc main_arg3) := keepH0 m ρ c main_arg3 (by decide)
theorem W1_brow (c : Dev nD) : W1 m ρ c (Proc.devRef .tc main_v18) = broadcastInDim S1x64 ![1] bcast_S64_S1x64_1 (W0 m ρ c (Proc.devRef .tc main_arg4)) := by
  show StableHlo.after hostOps0 (W0 m ρ c) (Proc.devRef .tc main_v18) = _
  simp only [hostOps0]
  first | (after_results_simp <;> rfl) | (after_results <;> rfl)
theorem W1_gv (c : Dev nD) : W1 m ρ c (Proc.devRef .tc main_v5) = (vecSlice8 ![0, 0] slices_S8x64_S1x64_0_0 (W0 m ρ c (Proc.devRef .tc main_arg8))) := by
  show StableHlo.after hostOps0 (W0 m ρ c) (Proc.devRef .tc main_v5) = _
  simp only [hostOps0]
  first | (after_results_simp <;> rfl) | (after_results <;> rfl)
theorem W1_bev (c : Dev nD) : W1 m ρ c (Proc.devRef .tc main_v7) = (vecSlice8 ![0, 0] slices_S8x64_S1x64_0_0 (W0 m ρ c (Proc.devRef .tc main_arg9))) := by
  show StableHlo.after hostOps0 (W0 m ρ c) (Proc.devRef .tc main_v7) = _
  simp only [hostOps0]
  first | (after_results_simp <;> rfl) | (after_results <;> rfl)
theorem W1_agg (c : Dev nD) : W1 m ρ c (Proc.devRef .tc main_v17) = (agg8 (idxRow ![0, 0] slices_S2x800000_S1x800000_0_0 (W0 m ρ c (Proc.devRef .tc main_arg1))) (idxRow ![1, 0] slices_S2x800000_S1x800000_1_0 (W0 m ρ c (Proc.devRef .tc main_arg1))) (W0 m ρ c (Proc.devRef .tc main_arg0))) := by
  show StableHlo.after hostOps0 (W0 m ρ c) (Proc.devRef .tc main_v17) = _
  simp only [hostOps0]
  first | (after_results_simp <;> rfl) | (after_results <;> rfl)
theorem W1_hp (c : Dev nD) : W1 m ρ c (Proc.devRef .tc main_arg0) = W0 m ρ c (Proc.devRef .tc main_arg0) := keepH0 m ρ c main_arg0 (by decide)

end Cert.KernelIdeal.Fold

end
-- ==== Proof.KHostB0.lean ====
/-
  The host operations before launch 1: the mean row, the variance row, the gain and offset rows.
-/
import proofs.«147565_j9259949490665_1_alg».proof.Proof.Gen.KernelIdeal.Frame
import proofs.«147565_j9259949490665_1_alg».proof.Proof.KHostFn
import proofs.«147565_j9259949490665_1_alg».proof.Proof.LayerDefs

set_option maxRecDepth 16384

noncomputable section

namespace Cert.KernelIdeal.Fold

open Idealize.ShloMosaic Idealize.ShloMosaic.TcCoe Idealize.SL.Sem Idealize.ShloMosaic.ValueIdx
open Cert.KernelIdeal Cert.KernelIdeal.Gen Cert.KernelIdeal.HostFn Cert.Layer

variable (m : (ℓ : Loc nD τ sig) → Buf (Elt Ideal) ℓ) (ρ : Dev nD → PrngReg)

/-- The buffers the host operations before launch 1 write. -/
abbrev hostOps1_W : List (Ref sig .tc) := [main_cst_1, main_v20, main_v21, main_cst_2, main_v22, main_v23, main_v24, main_v25, main_v26, main_v27]

theorem hostOps1_writes : (hostOps1 : List (HloOp τ sig (Elt Ideal))).Forall fun op => op.writes ⊆ (hostOps1_W.map (Proc.devRef (τ := τ) .tc)).toFinset := by
  simp only [hostOps1, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- A buffer those operations do not write keeps its contents through them. -/
theorem keepH1 (c : Dev nD) (r : Ref sig .tc) (h : r ∉ hostOps1_W) :
    W3 m ρ c (Proc.devRef .tc r) = W2 m ρ c (Proc.devRef .tc r) :=
  StableHlo.after_of_writes_sub hostOps1 _ hostOps1_writes h

theorem W3_mean (c : Dev nD) : W3 m ρ c (Proc.devRef .tc main_v21) = (Host.divf (F := Ideal) (W2 m ρ c (Proc.devRef .tc main_v19_1)) (broadcastInDim S1x64 ![] bcast_S_S1x64 (constant (F := Ideal) S_ .f32 0x47435000#32)) : FVec Ideal S1x64 .f32) := by
  show StableHlo.after hostOps1 (W2 m ρ c) (Proc.devRef .tc main_v21) = _
  simp only [hostOps1]
  first | (after_results_simp <;> rfl) | (after_results <;> rfl)
theorem W3_var (c : Dev nD) : W3 m ρ c (Proc.devRef .tc main_v25) = (subf (F := Ideal) (Host.divf (F := Ideal) (W2 m ρ c (Proc.devRef .tc main_v19_2)) (broadcastInDim S1x64 ![] bcast_S_S1x64 (constant (F := Ideal) S_ .f32 0x47435000#32))) (mulf (F := Ideal) (Host.divf (F := Ideal) (W2 m ρ c (Proc.devRef .tc main_v19_1)) (broadcastInDim S1x64 ![] bcast_S_S1x64 (constant (F := Ideal) S_ .f32 0x47435000#32))) (Host.divf (F := Ideal) (W2 m ρ c (Proc.devRef .tc main_v19_1)) (broadcastInDim S1x64 ![] bcast_S_S1x64 (constant (F := Ideal) S_ .f32 0x47435000#32)))) : FVec Ideal S1x64 .f32) := by
  show StableHlo.after hostOps1 (W2 m ρ c) (Proc.devRef .tc main_v25) = _
  simp only [hostOps1]
  first | (after_results_simp <;> rfl) | (after_results <;> rfl)
theorem W3_grow (c : Dev nD) : W3 m ρ c (Proc.devRef .tc main_v26) = (broadcastInDim S1x64 ![1] bcast_S64_S1x64_1 (W2 m ρ c (Proc.devRef .tc main_v5)) : FVec Ideal S1x64 .f32) := by
  show StableHlo.after hostOps1 (W2 m ρ c) (Proc.devRef .tc main_v26) = _
  simp only [hostOps1]
  first | (after_results_simp <;> rfl) | (after_results <;> rfl)
theorem W3_berow (c : Dev nD) : W3 m ρ c (Proc.devRef .tc main_v27) = (broadcastInDim S1x64 ![1] bcast_S64_S1x64_1 (W2 m ρ c (Proc.devRef .tc main_v7)) : FVec Ideal S1x64 .f32) := by
  show StableHlo.after hostOps1 (W2 m ρ c) (Proc.devRef .tc main_v27) = _
  simp only [hostOps1]
  first | (after_results_simp <;> rfl) | (after_results <;> rfl)
theorem W3_hpre (c : Dev nD) : W3 m ρ c (Proc.devRef .tc main_v19_0) = W2 m ρ c (Proc.devRef .tc main_v19_0) := keepH1 m ρ c main_v19_0 (by decide)

end Cert.KernelIdeal.Fold

end
-- ==== Proof.LibScatterSum.lean ====
/-
  Two general facts for comparing a blocked, dense computation with a gather / scatter-add formulation of the
  same sums. Nothing here mentions a program.

  * Over the extended reals the host's accumulating float scatter is, at each element, the operand's element plus
    the sum of the updates whose result index is that element. When those updates are exactly the image of an
    injective enumeration `g` (for a dense edge list: the edges with a given target, enumerated by their source),
    the sum is a plain sum over the enumeration.
  * A sum over `m * n` consecutive rows is the sum over the `m` blocks of the sums over each block's `n` rows.
-/
import Idealize.ShloMosaic.PureOps.Ideal
import Mathlib.Algebra.BigOperators.Fin
import Mathlib.Logic.Equiv.Fin.Basic

noncomputable section

namespace Cert.Lib.ScatterSum

open Idealize.ShloMosaic

/-- The accumulating scatter at element `i`, when the updates landing on `i` are enumerated without repetition by
    `g`: the operand's element plus the sum of those updates. -/
theorem hostScatterAdd_apply_of_fiber {s si su : Shape} (d : ScatterDims s si su) {w : Nat} (x : s.Idx → EReal)
    (idx : IVec si w) (upd : su.Idx → EReal) (i : s.Idx) {κ : Type*} [Fintype κ] (g : κ → su.Idx)
    (hg : Function.Injective g) (h : ∀ j, d.resultIdx? j idx = some i ↔ ∃ k, g k = j) :
    Ideal.hostScatterAdd d x idx upd i = x i + ∑ k, upd (g k) := by
  classical
  unfold Ideal.hostScatterAdd
  have e : (Finset.univ.filter fun j => d.resultIdx? j idx = some i) = Finset.univ.image g := by
    ext j
    simp only [Finset.mem_filter, Finset.mem_univ, true_and, Finset.mem_image, h]
  have e' : (∑ j ∈ Finset.univ.filter (fun j => d.resultIdx? j idx = some i), upd j) = ∑ k, upd (g k) := by
    rw [← Finset.sum_image (s := Finset.univ) (g := g) (f := upd) (fun a _ b _ hab => hg hab), ← e]
  exact congrArg (x i + ·) e'

/-- Row `i` of block `b` is a row of the whole. -/
theorem block_row_lt {m n b i : ℕ} (hb : b < m) (hi : i < n) : b * n + i < m * n :=
  calc b * n + i < b * n + n := Nat.add_lt_add_left hi _
    _ = (b + 1) * n := by ring
    _ ≤ m * n := Nat.mul_le_mul_right _ hb

/-- A sum over `m * n` rows, block by block. -/
theorem sum_blocks {M : Type*} [AddCommMonoid M] (m n : ℕ) (f : Fin (m * n) → M) :
    ∑ k, f k = ∑ b : Fin m, ∑ i : Fin n, f ⟨b.val * n + i.val, block_row_lt b.isLt i.isLt⟩ := by
  rw [← Equiv.sum_comp finProdFinEquiv f, Fintype.sum_prod_type]
  refine Finset.sum_congr rfl fun b _ => Finset.sum_congr rfl fun i _ => congrArg f (Fin.ext ?_)
  simp only [finProdFinEquiv_apply_val]
  ring

end Cert.Lib.ScatterSum

end
-- ==== Proof.LibRowBlocks.lean ====
/-
  Blocks of consecutive rows.

  * The sum of a function over m·n rows is the sum of its m block sums, block s being rows s·n … s·n + n − 1.  The
    block sum is defined for every natural s (zero past the last block), so that sums of the first few blocks are
    sums over an initial range of naturals and grow one block at a time.
  * The dense step at one entry depends only on one row of each node-feature operand, one row of each weight and one
    bias entry: operands that agree there (a block of rows against the whole array, say) give the same entry.
-/
import proofs.«147565_j9259949490665_1_alg».proof.Proof.LibScatterSum
import proofs.«147565_j9259949490665_1_alg».proof.Proof.Spec

noncomputable section

namespace Cert.LibRowBlocks

open Idealize.ShloMosaic Idealize.ShloMosaic.ValueIdx
open Cert.Lib.ScatterSum (block_row_lt sum_blocks)
open Cert.Layer (Mat lin lin_apply)
open scoped BigOperators

section Sums
variable {M : Type*} [AddCommMonoid M]

/-- The sum of block s of a function on m·n rows; zero past the last block. -/
def blockSum (m n : ℕ) (f : Fin (m * n) → M) (s : ℕ) : M :=
  if h : s < m then ∑ i : Fin n, f ⟨s * n + i.val, block_row_lt h i.isLt⟩ else 0

theorem blockSum_of_lt (m n : ℕ) (f : Fin (m * n) → M) {s : ℕ} (h : s < m) :
    blockSum m n f s = ∑ i : Fin n, f ⟨s * n + i.val, block_row_lt h i.isLt⟩ := dif_pos h

/-- The m block sums add up to the sum over all rows. -/
theorem sum_range_blockSum (m n : ℕ) (f : Fin (m * n) → M) :
    ∑ s ∈ Finset.range m, blockSum m n f s = ∑ k, f k := by
  rw [Finset.sum_range, sum_blocks]
  exact Finset.sum_congr rfl fun s _ => dif_pos s.isLt

end Sums

/-- The dense step at (p, q) of operands that agree with others' row p′ (node features), row q (weights) and entry
    q (bias) is the others' dense step at (p′, q). -/
theorem lin_congr {R R' K N : ℕ} (a x : Mat R K) (A X : Mat R' K) (wl wr Wl Wr : Mat N K) (b B : Mat 1 N)
    (p : Fin R) (p' : Fin R') (q : Fin N)
    (ha : ∀ k, a (ix2 p k) = A (ix2 p' k)) (hx : ∀ k, x (ix2 p k) = X (ix2 p' k))
    (hwl : ∀ k, wl (ix2 q k) = Wl (ix2 q k)) (hwr : ∀ k, wr (ix2 q k) = Wr (ix2 q k))
    (hb : b (ix2 0 q) = B (ix2 0 q)) :
    lin a x wl wr b (ix2 p q) = lin A X Wl Wr B (ix2 p' q) := by
  rw [lin_apply, lin_apply, hb]
  exact congrArg₂ (· + ·)
    (congrArg (· + B (ix2 0 q)) (Finset.sum_congr rfl fun k _ => by rw [ha k, hwl k]))
    (Finset.sum_congr rfl fun k _ => by rw [hx k, hwr k])

end Cert.LibRowBlocks

end
-- ==== Proof.LibColumnSum.lean ====
/-
  Sums down the rows of an array of extended reals.

  The sum over the row axis of an m×n array, taken from the zero value (its result is a length-n vector) and recast as a
  1×n row, has at column q the sum of the m entries of column q.  The index of the reduced vector with a row put back
  is that row's entry of the column.  Both offsets of a whole two-axis block are zero.
-/
import Idealize.ShloMosaic.PureOps.Ideal.Laws
import Idealize.ShloMosaic.Lib.ValueIdx
import Idealize.ShloMosaic.Lib.ValueLayout

noncomputable section

namespace Cert.LibColumnSum

open Idealize.ShloMosaic Idealize.ShloMosaic.ValueIdx
open scoped BigOperators

variable {m n : ℕ}

/-- Both offsets of a whole two-axis block are zero. -/
theorem offsets_zero : (![0, 0] : Fin 2 → Nat) = fun _ => 0 := funext fun a => by fin_cases a <;> rfl

/-- Column q of the reduced vector with row k put back is entry (k, q). -/
theorem lift_row (h : (⟨2, ![m, n]⟩ : Shape).Reduces [0] (⟨1, ![n]⟩ : Shape)) (q : Fin n)
    (k : Fin ((⟨2, ![m, n]⟩ : Shape).size 0)) : h.lift (ix1 q) k = ix2 (⟨k.val, k.isLt⟩ : Fin m) q := by
  funext c; apply Fin.ext
  fin_cases c <;> rfl

/-- The sum over the row axis from the zero word, recast as a 1×n row, read at column q: the sum of column q. -/
theorem rowReduce_apply (src : FVec Ideal ⟨2, ![m, n]⟩ .f32) (h : (⟨2, ![m, n]⟩ : Shape).Reduces [0] (⟨1, ![n]⟩ : Shape))
    (hφ : FKind.Formats FTy.f32) (hacc : (0x00000000#32 : BitVec FTy.f32.bits) = FKind.add.neutral .f32 hφ)
    (hc : (⟨1, ![n]⟩ : Shape).ShapeCasts ⟨2, ![1, n]⟩) (u : Fin 1) (q : Fin n) :
    shapeCast ⟨2, ![1, n]⟩ (multiReduction (F := Ideal) .add [0] ⟨1, ![n]⟩ src 0x00000000#32 h hφ hacc) hc (ix2 u q)
      = ∑ r : Fin m, src (ix2 r q) := by
  refine (shapeCast_a_1a_apply _ hc u q).trans ?_
  refine (Ideal.multiReduction_add_single src 0x00000000#32 h hφ hacc (ix1 q)).trans ?_
  exact Finset.sum_congr rfl fun k _ => congrArg src (lift_row h q k)

end Cert.LibColumnSum

end
-- ==== Proof.RegionR0Pieces.lean ====
/-
  What one step of the dense-step body leaves in its three result blocks, as arithmetic of the blocks it read.

  At the first step of a run the two running rows are set to zero before the step adds to them; at every later step
  they are read as the step before left them.  In both cases the block of pre-activations is the same arithmetic of
  the five operand blocks, the row of sums is the previous row plus the block's column sums, and the row of sums of
  squares is the previous row plus the block's column sums of squares.
-/
import proofs.«147565_j9259949490665_1_alg».proof.Proof.Gen.KernelIdeal.Frame
import proofs.«147565_j9259949490665_1_alg».proof.Proof.LibColumnSum
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.RegionValue

open Cert.KernelIdeal Cert.KernelIdeal.Gen
open Cert.LibColumnSum (offsets_zero)

variable {F : FTy → Type} [FloatOps F]

theorem out0_A_5_eq (c : Dev nD) (i : grid0.Coords) (a1 : Memref sig .tc .vmem S5000x8 .f32) (h1 : a1.IsWhole) (a2 : Memref sig .tc .vmem S5000x8 .f32) (h2 : a2.IsWhole) (a3 : Memref sig .tc .vmem S64x8 .f32) (h3 : a3.IsWhole) (a4 : Memref sig .tc .vmem S64x8 .f32) (h4 : a4.IsWhole) (a5 : Memref sig .tc .vmem S1x64 .f32) (h5 : a5.IsWhole) (a6 : Memref sig .tc .vmem S5000x64 .f32) (h6 : a6.IsWhole) (a7 : Memref sig .tc .vmem S1x64 .f32) (h7 : a7.IsWhole) (a8 : Memref sig .tc .vmem S1x64 .f32) (h8 : a8.IsWhole) (hc : cond0_0 i)
    (x0 : Vec F S5000x8 .f32) (x1 : Vec F S5000x8 .f32) (x2 : Vec F S64x8 .f32) (x3 : Vec F S64x8 .f32) (x4 : Vec F S1x64 .f32) :
    out0_A_5 c i a1 h1 a2 h2 a3 h3 a4 h4 a5 h5 a6 h6 a7 h7 a8 h8 hc x0 x1 x2 x3 x4 = k0_pay3 x0 x2 x4 x1 x3 := by
  unfold out0_A_5
  rw [View.read_writes_eq_canon _ _ _ (cover0_A_5 c i a1 h1 a2 h2 a3 h3 a4 h4 a5 h5 a6 h6 a7 h7 a8 h8 hc x0 x1 x2 x3 x4)]
  unfold kernelRun0_A
  dsimp only
  sl_unfold_words
  rw [View.canon_unit_zero offsets_zero]
  simp only [View.readAt_eq_ld, h1.read_unread, h2.read_unread, h3.read_unread, h4.read_unread, h5.read_unread, h7.read_unread, h8.read_unread, View.ld_unit_zero (S := S5000x8) offsets_zero, View.ld_unit_zero (S := S64x8) offsets_zero, View.ld_unit_zero (S := S1x64) offsets_zero, View.ld_unit_zero (S := S5000x64) offsets_zero]

theorem out0_A_6_eq (c : Dev nD) (i : grid0.Coords) (a1 : Memref sig .tc .vmem S5000x8 .f32) (h1 : a1.IsWhole) (a2 : Memref sig .tc .vmem S5000x8 .f32) (h2 : a2.IsWhole) (a3 : Memref sig .tc .vmem S64x8 .f32) (h3 : a3.IsWhole) (a4 : Memref sig .tc .vmem S64x8 .f32) (h4 : a4.IsWhole) (a5 : Memref sig .tc .vmem S1x64 .f32) (h5 : a5.IsWhole) (a6 : Memref sig .tc .vmem S5000x64 .f32) (h6 : a6.IsWhole) (a7 : Memref sig .tc .vmem S1x64 .f32) (h7 : a7.IsWhole) (a8 : Memref sig .tc .vmem S1x64 .f32) (h8 : a8.IsWhole) (hc : cond0_0 i)
    (x0 : Vec F S5000x8 .f32) (x1 : Vec F S5000x8 .f32) (x2 : Vec F S64x8 .f32) (x3 : Vec F S64x8 .f32) (x4 : Vec F S1x64 .f32) :
    out0_A_6 c i a1 h1 a2 h2 a3 h3 a4 h4 a5 h5 a6 h6 a7 h7 a8 h8 hc x0 x1 x2 x3 x4 = k0_pay4 x0 x2 x4 x1 x3 (k0_pay1 (F := F)) := by
  unfold out0_A_6
  rw [View.read_writes_eq_canon _ _ _ (cover0_A_6 c i a1 h1 a2 h2 a3 h3 a4 h4 a5 h5 a6 h6 a7 h7 a8 h8 hc x0 x1 x2 x3 x4)]
  unfold kernelRun0_A
  dsimp only
  sl_unfold_words
  rw [View.canon_cons_unit_zero (S := S1x64) offsets_zero, View.readCov_unit_zero (S := S1x64) _ offsets_zero]
  simp only [View.readAt_eq_ld, h1.read_unread, h2.read_unread, h3.read_unread, h4.read_unread, h5.read_unread, h7.read_unread, h8.read_unread, View.ld_unit_zero (S := S5000x8) offsets_zero, View.ld_unit_zero (S := S64x8) offsets_zero, View.ld_unit_zero (S := S1x64) offsets_zero, View.ld_unit_zero (S := S5000x64) offsets_zero]

theorem out0_A_7_eq (c : Dev nD) (i : grid0.Coords) (a1 : Memref sig .tc .vmem S5000x8 .f32) (h1 : a1.IsWhole) (a2 : Memref sig .tc .vmem S5000x8 .f32) (h2 : a2.IsWhole) (a3 : Memref sig .tc .vmem S64x8 .f32) (h3 : a3.IsWhole) (a4 : Memref sig .tc .vmem S64x8 .f32) (h4 : a4.IsWhole) (a5 : Memref sig .tc .vmem S1x64 .f32) (h5 : a5.IsWhole) (a6 : Memref sig .tc .vmem S5000x64 .f32) (h6 : a6.IsWhole) (a7 : Memref sig .tc .vmem S1x64 .f32) (h7 : a7.IsWhole) (a8 : Memref sig .tc .vmem S1x64 .f32) (h8 : a8.IsWhole) (hc : cond0_0 i)
    (x0 : Vec F S5000x8 .f32) (x1 : Vec F S5000x8 .f32) (x2 : Vec F S64x8 .f32) (x3 : Vec F S64x8 .f32) (x4 : Vec F S1x64 .f32) :
    out0_A_7 c i a1 h1 a2 h2 a3 h3 a4 h4 a5 h5 a6 h6 a7 h7 a8 h8 hc x0 x1 x2 x3 x4 = k0_pay5 x0 x2 x4 x1 x3 (k0_pay2 (F := F)) := by
  unfold out0_A_7
  rw [View.read_writes_eq_canon _ _ _ (cover0_A_7 c i a1 h1 a2 h2 a3 h3 a4 h4 a5 h5 a6 h6 a7 h7 a8 h8 hc x0 x1 x2 x3 x4)]
  unfold kernelRun0_A
  dsimp only
  sl_unfold_words
  rw [View.canon_cons_unit_zero (S := S1x64) offsets_zero, View.readCov_unit_zero (S := S1x64) _ offsets_zero]
  simp only [View.readAt_eq_ld, h1.read_unread, h2.read_unread, h3.read_unread, h4.read_unread, h5.read_unread, h7.read_unread, h8.read_unread, View.ld_unit_zero (S := S5000x8) offsets_zero, View.ld_unit_zero (S := S64x8) offsets_zero, View.ld_unit_zero (S := S1x64) offsets_zero, View.ld_unit_zero (S := S5000x64) offsets_zero]

theorem out0_B_5_eq (c : Dev nD) (i : grid0.Coords) (a1 : Memref sig .tc .vmem S5000x8 .f32) (h1 : a1.IsWhole) (a2 : Memref sig .tc .vmem S5000x8 .f32) (h2 : a2.IsWhole) (a3 : Memref sig .tc .vmem S64x8 .f32) (h3 : a3.IsWhole) (a4 : Memref sig .tc .vmem S64x8 .f32) (h4 : a4.IsWhole) (a5 : Memref sig .tc .vmem S1x64 .f32) (h5 : a5.IsWhole) (a6 : Memref sig .tc .vmem S5000x64 .f32) (h6 : a6.IsWhole) (a7 : Memref sig .tc .vmem S1x64 .f32) (h7 : a7.IsWhole) (a8 : Memref sig .tc .vmem S1x64 .f32) (h8 : a8.IsWhole) (hc : ¬cond0_0 i)
    (x0 : Vec F S5000x8 .f32) (x1 : Vec F S5000x8 .f32) (x2 : Vec F S64x8 .f32) (x3 : Vec F S64x8 .f32) (x4 : Vec F S1x64 .f32) (xo6 : Vec F S1x64 .f32) (xo7 : Vec F S1x64 .f32) :
    out0_B_5 c i a1 h1 a2 h2 a3 h3 a4 h4 a5 h5 a6 h6 a7 h7 a8 h8 hc x0 x1 x2 x3 x4 xo6 xo7 = k0_pay3 x0 x2 x4 x1 x3 := by
  unfold out0_B_5
  rw [View.read_writes_eq_canon _ _ _ (cover0_B_5 c i a1 h1 a2 h2 a3 h3 a4 h4 a5 h5 a6 h6 a7 h7 a8 h8 hc x0 x1 x2 x3 x4 xo6 xo7)]
  unfold kernelRun0_B
  dsimp only
  sl_unfold_words
  rw [View.canon_unit_zero offsets_zero]
  simp only [View.readAt_eq_ld, h1.read_unread, h2.read_unread, h3.read_unread, h4.read_unread, h5.read_unread, h7.read_unread, h8.read_unread, View.ld_unit_zero (S := S5000x8) offsets_zero, View.ld_unit_zero (S := S64x8) offsets_zero, View.ld_unit_zero (S := S1x64) offsets_zero, View.ld_unit_zero (S := S5000x64) offsets_zero]

theorem out0_B_6_eq (c : Dev nD) (i : grid0.Coords) (a1 : Memref sig .tc .vmem S5000x8 .f32) (h1 : a1.IsWhole) (a2 : Memref sig .tc .vmem S5000x8 .f32) (h2 : a2.IsWhole) (a3 : Memref sig .tc .vmem S64x8 .f32) (h3 : a3.IsWhole) (a4 : Memref sig .tc .vmem S64x8 .f32) (h4 : a4.IsWhole) (a5 : Memref sig .tc .vmem S1x64 .f32) (h5 : a5.IsWhole) (a6 : Memref sig .tc .vmem S5000x64 .f32) (h6 : a6.IsWhole) (a7 : Memref sig .tc .vmem S1x64 .f32) (h7 : a7.IsWhole) (a8 : Memref sig .tc .vmem S1x64 .f32) (h8 : a8.IsWhole) (hc : ¬cond0_0 i)
    (x0 : Vec F S5000x8 .f32) (x1 : Vec F S5000x8 .f32) (x2 : Vec F S64x8 .f32) (x3 : Vec F S64x8 .f32) (x4 : Vec F S1x64 .f32) (xo6 : Vec F S1x64 .f32) (xo7 : Vec F S1x64 .f32) :
    out0_B_6 c i a1 h1 a2 h2 a3 h3 a4 h4 a5 h5 a6 h6 a7 h7 a8 h8 hc x0 x1 x2 x3 x4 xo6 xo7 = k0_pay4 x0 x2 x4 x1 x3 xo6 := by
  unfold out0_B_6
  rw [View.read_writes_eq_canon _ _ _ (cover0_B_6 c i a1 h1 a2 h2 a3 h3 a4 h4 a5 h5 a6 h6 a7 h7 a8 h8 hc x0 x1 x2 x3 x4 xo6 xo7)]
  unfold kernelRun0_B
  dsimp only
  sl_unfold_words
  rw [View.canon_unit_zero offsets_zero]
  simp only [View.readAt_eq_ld, h1.read_unread, h2.read_unread, h3.read_unread, h4.read_unread, h5.read_unread, h7.read_unread, h8.read_unread, View.ld_unit_zero (S := S5000x8) offsets_zero, View.ld_unit_zero (S := S64x8) offsets_zero, View.ld_unit_zero (S := S1x64) offsets_zero, View.ld_unit_zero (S := S5000x64) offsets_zero]

theorem out0_B_7_eq (c : Dev nD) (i : grid0.Coords) (a1 : Memref sig .tc .vmem S5000x8 .f32) (h1 : a1.IsWhole) (a2 : Memref sig .tc .vmem S5000x8 .f32) (h2 : a2.IsWhole) (a3 : Memref sig .tc .vmem S64x8 .f32) (h3 : a3.IsWhole) (a4 : Memref sig .tc .vmem S64x8 .f32) (h4 : a4.IsWhole) (a5 : Memref sig .tc .vmem S1x64 .f32) (h5 : a5.IsWhole) (a6 : Memref sig .tc .vmem S5000x64 .f32) (h6 : a6.IsWhole) (a7 : Memref sig .tc .vmem S1x64 .f32) (h7 : a7.IsWhole) (a8 : Memref sig .tc .vmem S1x64 .f32) (h8 : a8.IsWhole) (hc : ¬cond0_0 i)
    (x0 : Vec F S5000x8 .f32) (x1 : Vec F S5000x8 .f32) (x2 : Vec F S64x8 .f32) (x3 : Vec F S64x8 .f32) (x4 : Vec F S1x64 .f32) (xo6 : Vec F S1x64 .f32) (xo7 : Vec F S1x64 .f32) :
    out0_B_7 c i a1 h1 a2 h2 a3 h3 a4 h4 a5 h5 a6 h6 a7 h7 a8 h8 hc x0 x1 x2 x3 x4 xo6 xo7 = k0_pay5 x0 x2 x4 x1 x3 xo7 := by
  unfold out0_B_7
  rw [View.read_writes_eq_canon _ _ _ (cover0_B_7 c i a1 h1 a2 h2 a3 h3 a4 h4 a5 h5 a6 h6 a7 h7 a8 h8 hc x0 x1 x2 x3 x4 xo6 xo7)]
  unfold kernelRun0_B
  dsimp only
  sl_unfold_words
  rw [View.canon_unit_zero offsets_zero]
  simp only [View.readAt_eq_ld, h1.read_unread, h2.read_unread, h3.read_unread, h4.read_unread, h5.read_unread, h7.read_unread, h8.read_unread, View.ld_unit_zero (S := S5000x8) offsets_zero, View.ld_unit_zero (S := S64x8) offsets_zero, View.ld_unit_zero (S := S1x64) offsets_zero, View.ld_unit_zero (S := S5000x64) offsets_zero]

end Cert.KernelIdeal.RegionValue

end
-- ==== Proof.LibPlainDot.lean ====
/-
  A plain matrix product over the extended reals, read at one entry.

  For an M×K matrix `l` and a K×N matrix `r` the product contracted over `l`'s columns and `r`'s rows has, at
  entry (p, q), the value ∑ₖ l(p,k)·r(k,q). This holds both for the vector unit's product into a zero accumulator
  and for the host's `dot_general`, so the two are the same sum; the only work is to identify the contraction's
  one-axis index type with `Fin K` and the operand indices with (p,k) and (k,q).
-/
import Idealize.ShloMosaic.PureOps.Ideal.Laws
import Idealize.ShloMosaic.Lib.ValueIdx

noncomputable section

namespace Cert.LibPlainDot

open Idealize.ShloMosaic Idealize.ShloMosaic.ValueIdx
open scoped BigOperators

variable {M K N : ℕ} {φ₁ φ₂ : FTy}

/-- The sum over the contraction index of a plain M×K by K×N product is the sum over `k : Fin K` of the left operand
    at (row, k) times the right operand at (k, column). -/
theorem plain_sum (l : FVec Ideal ⟨2, ![M, K]⟩ φ₁) (r : FVec Ideal ⟨2, ![K, N]⟩ φ₂) (p : Fin M) (q : Fin N) :
    (∑ c : (DotDims.plain M K N).contr.Idx,
        l ((DotDims.plain M K N).lhsIdx (ix2 p q) c) * r ((DotDims.plain M K N).rhsIdx (ix2 p q) c))
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl (ix2 p q) _).trans hk
      | ⟨1, _⟩ => rfl)
  rw [el, er]

/-- The vector unit's product into the zero accumulator, for any dimension record that is the plain one. -/
theorem matmul_zero_apply (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  subst hd
  exact (Ideal.matmul_constant_zero_apply _ prec l r (ix2 p q)).trans (plain_sum l r p q)

/-- The host's `dot_general`, for any dimension record that is the plain one. -/
theorem dotGeneral_apply (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (p : Fin M) (q : Fin N) :
    FloatOps.dotGeneral d prec sched l r (ix2 p q) = ∑ k : Fin K, l (ix2 p k) * r (ix2 k q) := by
  subst hd
  exact (Ideal.dotGeneral_apply _ prec sched l r (ix2 p q)).trans (plain_sum l r p q)

end Cert.LibPlainDot

end
-- ==== Proof.RegionR0Pay.lean ====
/-
  The dense step's block arithmetic read entry by entry over the extended reals.

  For one block of 5000 rows: the block of pre-activations at (p, q) is the aggregated row p against row q of the
  neighbour weights, plus the bias entry q, plus the node's own row p against row q of the root weights (each
  product is a sum over the 8 input features; the weights are stored with the output feature as their row, so the
  transposed weight read at (k, q) is the weight at (q, k)).  The two running rows are the previous row plus the
  block's column sums of the pre-activations, and of their squares.  The row that starts a run is zero.
-/
import proofs.«147565_j9259949490665_1_alg».proof.Proof.Gen.KernelIdeal.Skeleton
import proofs.«147565_j9259949490665_1_alg».proof.Proof.Spec
import proofs.«147565_j9259949490665_1_alg».proof.Proof.LibPlainDot
import proofs.«147565_j9259949490665_1_alg».proof.Proof.LibColumnSum
import Idealize.ShloMosaic.Lib.Pipeline.Value
import Idealize.ShloMosaic.Lib.ValueLayout

noncomputable section

open Idealize.ShloMosaic Idealize.ShloMosaic.ValueIdx
open scoped BigOperators

namespace Cert.KernelIdeal.RegionValue

open Cert.KernelIdeal Cert.KernelIdeal.Gen

/-- The block of pre-activations at (p, q): the dense step of the block's operands there. -/
theorem pay0_lin (a x : Vec Ideal S5000x8 .f32) (wl wr : Vec Ideal S64x8 .f32) (b : Vec Ideal S1x64 .f32)
    (p : Fin 5000) (q : Fin 64) :
    k0_pay3 (F := Ideal) a wl b x wr (ix2 p q) = Cert.Layer.lin a x wl wr b (ix2 p q) := by
  have hd : dot_S5000x8_S8x64_S5000x64_1_0_0_1_n_n = DotDims.plain 5000 8 64 := rfl
  -- the aggregated block is re-cast to its own shape before its product; the node's own block is not
  have tr : ∀ (w : FVec Ideal S64x8 .f32) (k : Fin 8),
      transpose S8x64 [1, 0] w transposes_S64x8_p1_0_S8x64 (ix2 k q) = w (ix2 q k) :=
    fun w k => transpose_ix2_apply w _ k q
  have e1a : ∀ (l : FVec Ideal S5000x8 .f32) (w : FVec Ideal S64x8 .f32),
      matmul dot_S5000x8_S8x64_S5000x64_1_0_0_1_n_n none (shapeCast S5000x8 l shapeCasts_S5000x8_S5000x8)
          (transpose S8x64 [1, 0] w transposes_S64x8_p1_0_S8x64) (constant S5000x64 .f32 0x00000000#32) (ix2 p q)
        = ∑ k : Fin 8, l (ix2 p k) * w (ix2 q k) := by
    intro l w
    rw [shapeCast_self]
    refine (Cert.LibPlainDot.matmul_zero_apply _ hd none l _ p q).trans ?_
    exact Finset.sum_congr rfl fun k _ => congrArg (l (ix2 p k) * ·) (tr w k)
  have e1x : ∀ (l : FVec Ideal S5000x8 .f32) (w : FVec Ideal S64x8 .f32),
      matmul dot_S5000x8_S8x64_S5000x64_1_0_0_1_n_n none l
          (transpose S8x64 [1, 0] w transposes_S64x8_p1_0_S8x64) (constant S5000x64 .f32 0x00000000#32) (ix2 p q)
        = ∑ k : Fin 8, l (ix2 p k) * w (ix2 q k) := by
    intro l w
    refine (Cert.LibPlainDot.matmul_zero_apply _ hd none l _ p q).trans ?_
    exact Finset.sum_congr rfl fun k _ => congrArg (l (ix2 p k) * ·) (tr w k)
  have e2 : broadcastTo S5000x64 (shapeCast S1x64 b shapeCasts_S1x64_S1x64) broadcasts_S1x64_S5000x64 (ix2 p q)
      = b (ix2 0 q) := by
    rw [shapeCast_self]
    exact broadcastTo_1b_ab_apply b _ p q
  rw [Cert.Layer.lin_apply]
  unfold k0_pay3
  exact congrArg₂ (· + ·) (congrArg₂ (· + ·) (e1a a wl) e2) (e1x x wr)

/-- The row that starts a run is zero. -/
theorem pay0_zero6 (j : S1x64.Idx) : k0_pay1 (F := Ideal) j = 0 := Ideal.ofBits_zero_f32

theorem pay0_zero7 (j : S1x64.Idx) : k0_pay2 (F := Ideal) j = 0 := Ideal.ofBits_zero_f32

/-- The running row of sums after a block: the row before plus the block's column sums. -/
theorem pay0_sum (a x : Vec Ideal S5000x8 .f32) (wl wr : Vec Ideal S64x8 .f32) (b acc : Vec Ideal S1x64 .f32) (q : Fin 64) :
    k0_pay4 (F := Ideal) a wl b x wr acc (ix2 0 q)
      = acc (ix2 0 q) + ∑ r : Fin 5000, k0_pay3 (F := Ideal) a wl b x wr (ix2 r q) := by
  unfold k0_pay4
  exact congrArg₂ (· + ·) (congrFun (shapeCast_self acc _) _)
    (Cert.LibColumnSum.rowReduce_apply (k0_pay3 (F := Ideal) a wl b x wr) reduces_S5000x64_S64 (.inl rfl) rfl
      shapeCasts_S64_S1x64 0 q)

/-- The running row of sums of squares after a block: the row before plus the block's column sums of squares. -/
theorem pay0_sumsq (a x : Vec Ideal S5000x8 .f32) (wl wr : Vec Ideal S64x8 .f32) (b acc : Vec Ideal S1x64 .f32) (q : Fin 64) :
    k0_pay5 (F := Ideal) a wl b x wr acc (ix2 0 q)
      = acc (ix2 0 q) + ∑ r : Fin 5000, k0_pay3 (F := Ideal) a wl b x wr (ix2 r q) * k0_pay3 (F := Ideal) a wl b x wr (ix2 r q) := by
  unfold k0_pay5
  exact congrArg₂ (· + ·) (congrFun (shapeCast_self acc _) _)
    (Cert.LibColumnSum.rowReduce_apply (mulf (k0_pay3 (F := Ideal) a wl b x wr) (k0_pay3 (F := Ideal) a wl b x wr))
      reduces_S5000x64_S64 (.inl rfl) rfl shapeCasts_S64_S1x64 0 q)

end Cert.KernelIdeal.RegionValue

end
-- ==== Proof.RegionR0.lean ====
/-
  The value of one dense-step stage: what its three result arrays hold after all ten steps.

  The stage walks ten blocks of 5000 rows.  Step t reads block t of the aggregated and of the node features (rows
  5000·t … 5000·t + 4999 of the arrays) and the whole of both weight arrays and of the bias row; it writes block t of
  the pre-activations, which is therefore block t of the dense step of the WHOLE arrays (an entry of the dense step
  depends on one row of each node-feature operand only), and adds the block's column sums, and column sums of
  squares, to two running rows that start at zero.  By induction on the step the running rows after step n hold the
  sums over the rows of blocks 0 … n, so after step 9, when they are written out, they hold the full column sums:
  a sum over 50000 = 10 · 5000 rows is the sum of its ten block sums.  Sums of extended reals are regrouped freely
  (addition is associative and commutative, and 0 + x = x); no law that needs finite values is used.
-/
import proofs.«147565_j9259949490665_1_alg».proof.Proof.Gen.KernelIdeal.Frame
import proofs.«147565_j9259949490665_1_alg».proof.Proof.Spec
import proofs.«147565_j9259949490665_1_alg».proof.Proof.LibRowBlocks
import proofs.«147565_j9259949490665_1_alg».proof.Proof.RegionR0Pieces
import proofs.«147565_j9259949490665_1_alg».proof.Proof.RegionR0Pay
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)
open scoped BigOperators

namespace Cert.KernelIdeal.RegionValue

open Cert.KernelIdeal Cert.KernelIdeal.Gen
open Cert.Layer (Mat lin colSum colSumSq)
open Cert.LibRowBlocks (blockSum blockSum_of_lt sum_range_blockSum lin_congr)

section Region0

variable (V : (c : Dev nD) → (b : Ref sig .tc) → Buf (Elt Ideal) ((c : Thread nD τ).loc b)) (c : Dev nD)

/-- The five operand arrays as the stage finds them. -/
abbrev agg0 : Mat 50000 8 := V c (Pipeline.arrRef spec0 0)
abbrev self0 : Mat 50000 8 := V c (Pipeline.arrRef spec0 1)
abbrev wl0 : Mat 64 8 := V c (Pipeline.arrRef spec0 2)
abbrev wr0 : Mat 64 8 := V c (Pipeline.arrRef spec0 3)
abbrev bias0 : Mat 1 64 := V c (Pipeline.arrRef spec0 4)

/-- The pre-activations of the whole arrays. -/
abbrev hpre0 : Mat 50000 64 := lin (agg0 V c) (self0 V c) (wl0 V c) (wr0 V c) (bias0 V c)

/-- Where each step's blocks sit: the row-blocked operands and the pre-activations at block t, column block 0. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_5.index t (0 : Fin 2) = t.val ∧ win0_5.index t (1 : Fin 2) = 0 :=
  (by decide +kernel : ∀ t : Fin grid0.N, _)

/-- The weights, the bias row and the two running rows are one block each, at block (0, 0) at every step. -/
theorem whole0 : ∀ t : Fin cfg0.N,
    win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- Row r of step t's block of operand 0 is row 5000·t + r of the array. -/
theorem blk0_0 (t : Fin cfg0.N) (r : Fin 5000) (k : Fin 8) (hr : t.val * 5000 + r.val < 50000) :
    iblk0 V c 0 t (ix2 r k) = agg0 V c (ix2 ⟨t.val * 5000 + r.val, hr⟩ k) := by
  have e0 := (idx0 t).1
  have e1 := (idx0 t).2.1
  show V c (Pipeline.arrRef spec0 0) (((cfg0.win 0).blk t).view.emb (ix2 r k))
    = V c (Pipeline.arrRef spec0 0) (ix2 ⟨t.val * 5000 + r.val, hr⟩ k)
  refine congrArg (V c (Pipeline.arrRef spec0 0)) (funext fun a => Fin.ext ?_)
  match a with
  | ⟨0, _⟩ => show win0_0.index t (0 : Fin 2) * 5000 + 1 * r.val = t.val * 5000 + r.val; rw [e0]; omega
  | ⟨1, _⟩ => show win0_0.index t (1 : Fin 2) * 8 + 1 * k.val = k.val; rw [e1]; omega

/-- Row r of step t's block of operand 1 is row 5000·t + r of the array. -/
theorem blk0_1 (t : Fin cfg0.N) (r : Fin 5000) (k : Fin 8) (hr : t.val * 5000 + r.val < 50000) :
    iblk0 V c 1 t (ix2 r k) = self0 V c (ix2 ⟨t.val * 5000 + r.val, hr⟩ k) := by
  have e0 := (idx0 t).2.2.1
  have e1 := (idx0 t).2.2.2.1
  show V c (Pipeline.arrRef spec0 1) (((cfg0.win 1).blk t).view.emb (ix2 r k))
    = V c (Pipeline.arrRef spec0 1) (ix2 ⟨t.val * 5000 + r.val, hr⟩ k)
  refine congrArg (V c (Pipeline.arrRef spec0 1)) (funext fun a => Fin.ext ?_)
  match a with
  | ⟨0, _⟩ => show win0_1.index t (0 : Fin 2) * 5000 + 1 * r.val = t.val * 5000 + r.val; rw [e0]; omega
  | ⟨1, _⟩ => show win0_1.index t (1 : Fin 2) * 8 + 1 * k.val = k.val; rw [e1]; omega

/-- Step t's block of operand 2 is the whole array. -/
theorem blk0_2 (t : Fin cfg0.N) (p : Fin 64) (k : Fin 8) :
    iblk0 V c 2 t (ix2 p k) = wl0 V c (ix2 p k) := by
  have e0 := (whole0 t).1
  have e1 := (whole0 t).2.1
  show V c (Pipeline.arrRef spec0 2) (((cfg0.win 2).blk t).view.emb (ix2 p k))
    = V c (Pipeline.arrRef spec0 2) (ix2 p k)
  refine congrArg (V c (Pipeline.arrRef spec0 2)) (funext fun a => Fin.ext ?_)
  match a with
  | ⟨0, _⟩ => show win0_2.index t (0 : Fin 2) * 64 + 1 * p.val = p.val; rw [e0]; omega
  | ⟨1, _⟩ => show win0_2.index t (1 : Fin 2) * 8 + 1 * k.val = k.val; rw [e1]; omega

/-- Step t's block of operand 3 is the whole array. -/
theorem blk0_3 (t : Fin cfg0.N) (p : Fin 64) (k : Fin 8) :
    iblk0 V c 3 t (ix2 p k) = wr0 V c (ix2 p k) := by
  have e0 := (whole0 t).2.2.1
  have e1 := (whole0 t).2.2.2.1
  show V c (Pipeline.arrRef spec0 3) (((cfg0.win 3).blk t).view.emb (ix2 p k))
    = V c (Pipeline.arrRef spec0 3) (ix2 p k)
  refine congrArg (V c (Pipeline.arrRef spec0 3)) (funext fun a => Fin.ext ?_)
  match a with
  | ⟨0, _⟩ => show win0_3.index t (0 : Fin 2) * 64 + 1 * p.val = p.val; rw [e0]; omega
  | ⟨1, _⟩ => show win0_3.index t (1 : Fin 2) * 8 + 1 * k.val = k.val; rw [e1]; omega

/-- Step t's block of operand 4 is the whole array. -/
theorem blk0_4 (t : Fin cfg0.N) (p : Fin 1) (k : Fin 64) :
    iblk0 V c 4 t (ix2 p k) = bias0 V c (ix2 p k) := by
  have e0 := (whole0 t).2.2.2.2.1
  have e1 := (whole0 t).2.2.2.2.2.1
  show V c (Pipeline.arrRef spec0 4) (((cfg0.win 4).blk t).view.emb (ix2 p k))
    = V c (Pipeline.arrRef spec0 4) (ix2 p k)
  refine congrArg (V c (Pipeline.arrRef spec0 4)) (funext fun a => Fin.ext ?_)
  match a with
  | ⟨0, _⟩ => show win0_4.index t (0 : Fin 2) * 1 + 1 * p.val = p.val; rw [e0]; omega
  | ⟨1, _⟩ => show win0_4.index t (1 : Fin 2) * 64 + 1 * k.val = k.val; rw [e1]; omega

/-- The block of pre-activations step t computes is block t of the whole arrays' pre-activations. -/
theorem hblk0 (t : Fin cfg0.N) (j : S5000x64.Idx) (hr : t.val * 5000 + (j 0).val < 50000) :
    (k0_pay3 (F := Ideal) (iblk0 V c 0 t) (iblk0 V c 2 t) (iblk0 V c 4 t) (iblk0 V c 1 t) (iblk0 V c 3 t)) j = hpre0 V c (ix2 ⟨t.val * 5000 + (j 0).val, hr⟩ (j 1)) := by
  obtain ⟨r, q, rfl⟩ : ∃ (r : Fin 5000) (q : Fin 64), j = ix2 r q := ⟨j 0, j 1, eq_ix2 j⟩
  exact (pay0_lin (iblk0 V c 0 t) (iblk0 V c 1 t) (iblk0 V c 2 t) (iblk0 V c 3 t) (iblk0 V c 4 t) r q).trans
    (lin_congr (R := 5000) (R' := 50000) (K := 8) (N := 64) (iblk0 V c 0 t) (iblk0 V c 1 t) (agg0 V c) (self0 V c)
      (iblk0 V c 2 t) (iblk0 V c 3 t) (wl0 V c) (wr0 V c) (iblk0 V c 4 t) (bias0 V c) r ⟨t.val * 5000 + r.val, hr⟩ q
      (fun k => blk0_0 V c t r k hr) (fun k => blk0_1 V c t r k hr) (fun k => blk0_2 V c t q k) (fun k => blk0_3 V c t q k)
      (blk0_4 V c t 0 q))

/-- What the three result blocks hold after a step that starts a run, -/
theorem outs0_A (t : Fin cfg0.N) (h0 : t.val % 10 = 0) :
    outsAt0 V c t.val t.isLt
      = (k0_pay3 (F := Ideal) (iblk0 V c 0 t) (iblk0 V c 2 t) (iblk0 V c 4 t) (iblk0 V c 1 t) (iblk0 V c 3 t), k0_pay4 (F := Ideal) (iblk0 V c 0 t) (iblk0 V c 2 t) (iblk0 V c 4 t) (iblk0 V c 1 t) (iblk0 V c 3 t) (k0_pay1 (F := Ideal)), k0_pay5 (F := Ideal) (iblk0 V c 0 t) (iblk0 V c 2 t) (iblk0 V c 4 t) (iblk0 V c 1 t) (iblk0 V c 3 t) (k0_pay2 (F := Ideal))) :=
  (outsAt0_A V c t h0).trans (congrArg₂ Prod.mk (out0_A_5_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk0 V c 0 t) (iblk0 V c 1 t) (iblk0 V c 2 t) (iblk0 V c 3 t) (iblk0 V c 4 t))
    (congrArg₂ Prod.mk (out0_A_6_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk0 V c 0 t) (iblk0 V c 1 t) (iblk0 V c 2 t) (iblk0 V c 3 t) (iblk0 V c 4 t))
      (out0_A_7_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk0 V c 0 t) (iblk0 V c 1 t) (iblk0 V c 2 t) (iblk0 V c 3 t) (iblk0 V c 4 t))))

/-- and after any later step, over what the step before left in the running rows. -/
theorem outs0_B (t : Fin cfg0.N) (h0 : ¬t.val % 10 = 0) :
    outsAt0 V c t.val t.isLt
      = (k0_pay3 (F := Ideal) (iblk0 V c 0 t) (iblk0 V c 2 t) (iblk0 V c 4 t) (iblk0 V c 1 t) (iblk0 V c 3 t), k0_pay4 (F := Ideal) (iblk0 V c 0 t) (iblk0 V c 2 t) (iblk0 V c 4 t) (iblk0 V c 1 t) (iblk0 V c 3 t) (outsAt0 V c (t.val - 1) (Nat.lt_of_le_of_lt (Nat.sub_le _ _) t.isLt)).2.1, k0_pay5 (F := Ideal) (iblk0 V c 0 t) (iblk0 V c 2 t) (iblk0 V c 4 t) (iblk0 V c 1 t) (iblk0 V c 3 t) (outsAt0 V c (t.val - 1) (Nat.lt_of_le_of_lt (Nat.sub_le _ _) t.isLt)).2.2) :=
  (outsAt0_B V c t h0).trans (congrArg₂ Prod.mk (out0_B_5_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2)
    (congrArg₂ Prod.mk (out0_B_6_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2)
      (out0_B_7_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2)))

/-- The column sums of step t's block of pre-activations are block sum t of the whole arrays' column, -/
theorem colblk0 (t : Fin cfg0.N) (q : Fin 64) :
    ∑ r : Fin 5000, (k0_pay3 (F := Ideal) (iblk0 V c 0 t) (iblk0 V c 2 t) (iblk0 V c 4 t) (iblk0 V c 1 t) (iblk0 V c 3 t)) (ix2 r q) = blockSum 10 5000 (fun p : Fin 50000 => hpre0 V c (ix2 p q)) t.val := by
  have ht : t.val < 10 := lt_of_lt_of_eq t.isLt (show cfg0.N = 10 from N_0)
  rw [blockSum_of_lt 10 5000 _ ht]
  exact Finset.sum_congr rfl fun r _ =>
    hblk0 V c t (ix2 r q) (show t.val * 5000 + r.val < 50000 by have := r.isLt; omega)

/-- and likewise the column sums of its squares. -/
theorem colblksq0 (t : Fin cfg0.N) (q : Fin 64) :
    ∑ r : Fin 5000, (k0_pay3 (F := Ideal) (iblk0 V c 0 t) (iblk0 V c 2 t) (iblk0 V c 4 t) (iblk0 V c 1 t) (iblk0 V c 3 t)) (ix2 r q) * (k0_pay3 (F := Ideal) (iblk0 V c 0 t) (iblk0 V c 2 t) (iblk0 V c 4 t) (iblk0 V c 1 t) (iblk0 V c 3 t)) (ix2 r q)
      = blockSum 10 5000 (fun p : Fin 50000 => hpre0 V c (ix2 p q) * hpre0 V c (ix2 p q)) t.val := by
  have ht : t.val < 10 := lt_of_lt_of_eq t.isLt (show cfg0.N = 10 from N_0)
  rw [blockSum_of_lt 10 5000 _ ht]
  exact Finset.sum_congr rfl fun r _ =>
    congrArg₂ (· * ·) (hblk0 V c t (ix2 r q) (show t.val * 5000 + r.val < 50000 by have := r.isLt; omega))
      (hblk0 V c t (ix2 r q) (show t.val * 5000 + r.val < 50000 by have := r.isLt; omega))

/-- THE RUNNING ROWS: after step n they hold the sums, and the sums of squares, over the rows of blocks 0 … n. -/
theorem rows0 : ∀ (n : ℕ) (h : n < cfg0.N) (q : Fin 64),
    (outsAt0 V c n h).2.1 (ix2 0 q) = ∑ s ∈ Finset.range (n + 1), blockSum 10 5000 (fun p : Fin 50000 => hpre0 V c (ix2 p q)) s
    ∧ (outsAt0 V c n h).2.2 (ix2 0 q)
        = ∑ s ∈ Finset.range (n + 1), blockSum 10 5000 (fun p : Fin 50000 => hpre0 V c (ix2 p q) * hpre0 V c (ix2 p q)) s
  | 0, h, q => by
    have e : outsAt0 V c 0 h = _ := outs0_A V c ⟨0, h⟩ rfl
    rw [e]
    exact ⟨((pay0_sum (iblk0 V c 0 ⟨0, h⟩) (iblk0 V c 1 ⟨0, h⟩) (iblk0 V c 2 ⟨0, h⟩) (iblk0 V c 3 ⟨0, h⟩) (iblk0 V c 4 ⟨0, h⟩) (k0_pay1 (F := Ideal)) q).trans
        ((congrArg₂ (· + ·) (pay0_zero6 (ix2 0 q)) (colblk0 V c ⟨0, h⟩ q)).trans (zero_add _))).trans
          (Finset.sum_range_one _).symm,
      ((pay0_sumsq (iblk0 V c 0 ⟨0, h⟩) (iblk0 V c 1 ⟨0, h⟩) (iblk0 V c 2 ⟨0, h⟩) (iblk0 V c 3 ⟨0, h⟩) (iblk0 V c 4 ⟨0, h⟩) (k0_pay2 (F := Ideal)) q).trans
        ((congrArg₂ (· + ·) (pay0_zero7 (ix2 0 q)) (colblksq0 V c ⟨0, h⟩ q)).trans (zero_add _))).trans
          (Finset.sum_range_one _).symm⟩
  | n + 1, h, q => by
    have hN : cfg0.N = 10 := N_0
    have hB : ¬(⟨n + 1, h⟩ : Fin cfg0.N).val % 10 = 0 := by dsimp only; omega
    have e : outsAt0 V c (n + 1) h = _ := outs0_B V c ⟨n + 1, h⟩ hB
    obtain ⟨ih6, ih7⟩ := rows0 n (Nat.lt_of_succ_lt h) q
    rw [e]
    exact ⟨((pay0_sum (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (outsAt0 V c n (Nat.lt_of_succ_lt h)).2.1 q).trans
        (congrArg₂ (· + ·) ih6 (colblk0 V c ⟨n + 1, h⟩ q))).trans (Finset.sum_range_succ _ (n + 1)).symm,
      ((pay0_sumsq (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (outsAt0 V c n (Nat.lt_of_succ_lt h)).2.2 q).trans
        (congrArg₂ (· + ·) ih7 (colblksq0 V c ⟨n + 1, h⟩ q))).trans (Finset.sum_range_succ _ (n + 1)).symm⟩

/-- The block of pre-activations after every step, whichever case the step is. -/
theorem first0 (t : Fin cfg0.N) : (outsAt0 V c t.val t.isLt).1 = k0_pay3 (F := Ideal) (iblk0 V c 0 t) (iblk0 V c 2 t) (iblk0 V c 4 t) (iblk0 V c 1 t) (iblk0 V c 3 t) := by
  by_cases h0 : t.val % 10 = 0
  · exact congrArg Prod.fst (outs0_A V c t h0)
  · exact congrArg Prod.fst (outs0_B V c t h0)

/-! ### The pre-activations array: every step writes its block back -/

/-- An index of the array is in step t's block iff each coordinate is in the block's range. -/
theorem mem_blk0_5 (t : Fin cfg0.N) (i : S50000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v19_0).slice (win0_5.rect t)).set ↔ _
  rw [View.set_slice_whole, Rect.mem_set_unit]
  exact Iff.rfl

/-- What step t writes back is block t of the whole arrays' pre-activations. -/
theorem flushed0_5 (t : Fin cfg0.N) :
    (dat0 V c).flushed 5 t = ((cfg0.win 5).blk t).view.read (Elt Ideal) (hpre0 V c) := by
  show (cfg0.win 5).cut (grid0.coords t) ((dat0 V c).after 5 t) = _
  rw [after0_5, first0 V c t]
  have ht : t.val < 10 := lt_of_lt_of_eq t.isLt (show cfg0.N = 10 from N_0)
  have e0 := (idx0 t).2.2.2.2.1
  have e1 := (idx0 t).2.2.2.2.2
  funext y
  have hy0 : (y 0).val < 5000 := (y 0).isLt
  have hy1 : (y 1).val < 64 := (y 1).isLt
  have hr : t.val * 5000 + (y 0).val < 50000 := by omega
  show (k0_pay3 (F := Ideal) (iblk0 V c 0 t) (iblk0 V c 2 t) (iblk0 V c 4 t) (iblk0 V c 1 t) (iblk0 V c 3 t)) ((cfg0.win 5).xinj (grid0.coords t) y) = hpre0 V c (((cfg0.win 5).blk t).view.emb y)
  refine (hblk0 V c t ((cfg0.win 5).xinj (grid0.coords t) y) hr).trans (congrArg (hpre0 V c) (funext fun a => Fin.ext ?_))
  match a with
  | ⟨0, _⟩ => show t.val * 5000 + (y 0).val = win0_5.index t (0 : Fin 2) * 5000 + 1 * (y 0).val; rw [e0]; omega
  | ⟨1, _⟩ => show (y 1).val = win0_5.index t (1 : Fin 2) * 64 + 1 * (y 1).val; rw [e1]; omega

/-- Row r of the array is in block r / 5000. -/
theorem cover0_5 (i : S50000x64.Idx) :
    ∃ t : Fin cfg0.N, (cfg0.win 5).flush t = true ∧ i ∈ ((cfg0.win 5).blk t).view.set := by
  have hi0 : (i 0).val < 50000 := (i 0).isLt
  have hi1 : (i 1).val < 64 := (i 1).isLt
  have hN : cfg0.N = 10 := N_0
  have hq : (i 0).val / 5000 < cfg0.N := by omega
  have e0 : win0_5.index ⟨(i 0).val / 5000, hq⟩ (0 : Fin 2) = (i 0).val / 5000 := (idx0 ⟨(i 0).val / 5000, hq⟩).2.2.2.2.1
  have e1 := (idx0 ⟨(i 0).val / 5000, hq⟩).2.2.2.2.2
  refine ⟨⟨(i 0).val / 5000, hq⟩, flush0_5 _, ?_⟩
  rw [mem_blk0_5]
  intro a
  match a with
  | ⟨0, _⟩ => show win0_5.index ⟨(i 0).val / 5000, hq⟩ (0 : Fin 2) * 5000 ≤ (i 0).val ∧ (i 0).val < win0_5.index ⟨(i 0).val / 5000, hq⟩ (0 : Fin 2) * 5000 + 5000; rw [e0]; omega
  | ⟨1, _⟩ => show win0_5.index ⟨(i 0).val / 5000, hq⟩ (1 : Fin 2) * 64 ≤ (i 1).val ∧ (i 1).val < win0_5.index ⟨(i 0).val / 5000, hq⟩ (1 : Fin 2) * 64 + 64; rw [e1]; omega

/-! ### The two rows: written back once, after the last step -/

/-- The last step. -/
abbrev last0 : Fin cfg0.N := ⟨9, by rw [show cfg0.N = 10 from N_0]; decide⟩

theorem mem_blk0_6 (t : Fin cfg0.N) (i : S1x64.Idx) :
    i ∈ ((cfg0.win 6).blk t).view.set ↔ ∀ a : Fin 2, win0_6.index t a * S1x64.size a ≤ (i a).val ∧ (i a).val < win0_6.index t a * S1x64.size a + S1x64.size a := by
  show i ∈ ((View.whole main_v19_1).slice (win0_6.rect t)).set ↔ _
  rw [View.set_slice_whole, Rect.mem_set_unit]
  exact Iff.rfl

/-- After the last step this running row is the full column sums: ten block sums make the sum over all rows. -/
theorem row0_6 (hl : 9 < cfg0.N) :
    ((outsAt0 V c 9 hl).2.1 : Mat 1 64) = colSum (hpre0 V c) := by
  funext j
  obtain ⟨u, q, rfl⟩ : ∃ (u : Fin 1) (q : Fin 64), j = ix2 u q := ⟨j 0, j 1, eq_ix2 j⟩
  obtain rfl : u = 0 := Subsingleton.elim _ _
  exact ((rows0 V c 9 hl q).1.trans
    (sum_range_blockSum 10 5000 (fun p : Fin 50000 => hpre0 V c (ix2 p q)))).trans
      (Cert.Layer.colSum_apply (hpre0 V c) q).symm

/-- The one write-back of this row, after step 9, writes the full column sums (its block is the whole row). -/
theorem flushed0_6 (t : Fin cfg0.N) (hf : (cfg0.win 6).flush t = true) :
    (dat0 V c).flushed 6 t = ((cfg0.win 6).blk t).view.read (Elt Ideal) (colSum (hpre0 V c)) := by
  have hN : cfg0.N = 10 := N_0
  have h9 : t.val = 9 := by have := (flush0_6 t).mp hf; have := t.isLt; omega
  have hl : 9 < cfg0.N := by omega
  have eo : ∀ (n : ℕ) (hn : n < cfg0.N), n = 9 → outsAt0 V c n hn = outsAt0 V c 9 hl :=
    fun n hn e => by subst e; rfl
  show (cfg0.win 6).cut (grid0.coords t) ((dat0 V c).after 6 t) = _
  rw [after0_6, eo t.val t.isLt h9, row0_6 V c hl]
  have e0 := (whole0 t).2.2.2.2.2.2.1
  have e1 := (whole0 t).2.2.2.2.2.2.2.1
  have hz' : (fun a => win0_6.index t a * main_v19_1.ty.shape.size a) = fun _ => 0 := funext fun a => by
    fin_cases a
    · show win0_6.index t (0 : Fin 2) * 1 = 0; rw [e0]
    · show win0_6.index t (1 : Fin 2) * 64 = 0; rw [e1]
  generalize colSum (hpre0 V c) = G
  exact (Memref.read_access_unit_zero (Elt Ideal) main_v19_1 hz' (fun a => by rw [congrFun hz' a]; simp) G).symm

/-- The last step's block is the whole row. -/
theorem cover0_6 (i : S1x64.Idx) :
    ∃ t : Fin cfg0.N, (cfg0.win 6).flush t = true ∧ i ∈ ((cfg0.win 6).blk t).view.set := by
  have hi0 : (i 0).val < 1 := (i 0).isLt
  have hi1 : (i 1).val < 64 := (i 1).isLt
  have e0 := (whole0 last0).2.2.2.2.2.2.1
  have e1 := (whole0 last0).2.2.2.2.2.2.2.1
  refine ⟨last0, (flush0_6 last0).mpr rfl, ?_⟩
  rw [mem_blk0_6]
  intro a
  match a with
  | ⟨0, _⟩ => show win0_6.index last0 (0 : Fin 2) * 1 ≤ (i 0).val ∧ (i 0).val < win0_6.index last0 (0 : Fin 2) * 1 + 1; rw [e0]; omega
  | ⟨1, _⟩ => show win0_6.index last0 (1 : Fin 2) * 64 ≤ (i 1).val ∧ (i 1).val < win0_6.index last0 (1 : Fin 2) * 64 + 64; rw [e1]; omega

theorem mem_blk0_7 (t : Fin cfg0.N) (i : S1x64.Idx) :
    i ∈ ((cfg0.win 7).blk t).view.set ↔ ∀ a : Fin 2, win0_7.index t a * S1x64.size a ≤ (i a).val ∧ (i a).val < win0_7.index t a * S1x64.size a + S1x64.size a := by
  show i ∈ ((View.whole main_v19_2).slice (win0_7.rect t)).set ↔ _
  rw [View.set_slice_whole, Rect.mem_set_unit]
  exact Iff.rfl

/-- After the last step this running row is the full column sums: ten block sums make the sum over all rows. -/
theorem row0_7 (hl : 9 < cfg0.N) :
    ((outsAt0 V c 9 hl).2.2 : Mat 1 64) = colSumSq (hpre0 V c) := by
  funext j
  obtain ⟨u, q, rfl⟩ : ∃ (u : Fin 1) (q : Fin 64), j = ix2 u q := ⟨j 0, j 1, eq_ix2 j⟩
  obtain rfl : u = 0 := Subsingleton.elim _ _
  exact ((rows0 V c 9 hl q).2.trans
    (sum_range_blockSum 10 5000 (fun p : Fin 50000 => hpre0 V c (ix2 p q) * hpre0 V c (ix2 p q)))).trans
      (Cert.Layer.colSumSq_apply (hpre0 V c) q).symm

/-- The one write-back of this row, after step 9, writes the full column sums (its block is the whole row). -/
theorem flushed0_7 (t : Fin cfg0.N) (hf : (cfg0.win 7).flush t = true) :
    (dat0 V c).flushed 7 t = ((cfg0.win 7).blk t).view.read (Elt Ideal) (colSumSq (hpre0 V c)) := by
  have hN : cfg0.N = 10 := N_0
  have h9 : t.val = 9 := by have := (flush0_7 t).mp hf; have := t.isLt; omega
  have hl : 9 < cfg0.N := by omega
  have eo : ∀ (n : ℕ) (hn : n < cfg0.N), n = 9 → outsAt0 V c n hn = outsAt0 V c 9 hl :=
    fun n hn e => by subst e; rfl
  show (cfg0.win 7).cut (grid0.coords t) ((dat0 V c).after 7 t) = _
  rw [after0_7, eo t.val t.isLt h9, row0_7 V c hl]
  have e0 := (whole0 t).2.2.2.2.2.2.2.2.1
  have e1 := (whole0 t).2.2.2.2.2.2.2.2.2
  have hz' : (fun a => win0_7.index t a * main_v19_2.ty.shape.size a) = fun _ => 0 := funext fun a => by
    fin_cases a
    · show win0_7.index t (0 : Fin 2) * 1 = 0; rw [e0]
    · show win0_7.index t (1 : Fin 2) * 64 = 0; rw [e1]
  generalize colSumSq (hpre0 V c) = G
  exact (Memref.read_access_unit_zero (Elt Ideal) main_v19_2 hz' (fun a => by rw [congrFun hz' a]; simp) G).symm

/-- The last step's block is the whole row. -/
theorem cover0_7 (i : S1x64.Idx) :
    ∃ t : Fin cfg0.N, (cfg0.win 7).flush t = true ∧ i ∈ ((cfg0.win 7).blk t).view.set := by
  have hi0 : (i 0).val < 1 := (i 0).isLt
  have hi1 : (i 1).val < 64 := (i 1).isLt
  have e0 := (whole0 last0).2.2.2.2.2.2.2.2.1
  have e1 := (whole0 last0).2.2.2.2.2.2.2.2.2
  refine ⟨last0, (flush0_7 last0).mpr rfl, ?_⟩
  rw [mem_blk0_7]
  intro a
  match a with
  | ⟨0, _⟩ => show win0_7.index last0 (0 : Fin 2) * 1 ≤ (i 0).val ∧ (i 0).val < win0_7.index last0 (0 : Fin 2) * 1 + 1; rw [e0]; omega
  | ⟨1, _⟩ => show win0_7.index last0 (1 : Fin 2) * 64 ≤ (i 1).val ∧ (i 1).val < win0_7.index last0 (1 : Fin 2) * 64 + 64; rw [e1]; omega

end Region0

/-- The pre-activations array after the stage: the dense step of the arrays the stage found. -/
theorem final0_5 (V : (c : Dev nD) → (b : Ref sig .tc) → Buf (Elt Ideal) ((c : Thread nD τ).loc b)) (c : Dev nD) :
    (Gen.dat0 (F := Ideal) V c).arrAt 5 cfg0.N
      = Cert.Layer.lin (V c (Pipeline.arrRef spec0 0)) (V c (Pipeline.arrRef spec0 1)) (V c (Pipeline.arrRef spec0 2)) (V c (Pipeline.arrRef spec0 3)) (V c (Pipeline.arrRef spec0 4)) :=
  (dat0 V c).arrAt_eq_of_cover 5 (hpre0 V c) (fun t _ => flushed0_5 V c t) cover0_5

/-- The row of sums after the stage: the column sums of that dense step. -/
theorem final0_6 (V : (c : Dev nD) → (b : Ref sig .tc) → Buf (Elt Ideal) ((c : Thread nD τ).loc b)) (c : Dev nD) :
    (Gen.dat0 (F := Ideal) V c).arrAt 6 cfg0.N
      = Cert.Layer.colSum (Cert.Layer.lin (V c (Pipeline.arrRef spec0 0)) (V c (Pipeline.arrRef spec0 1)) (V c (Pipeline.arrRef spec0 2)) (V c (Pipeline.arrRef spec0 3)) (V c (Pipeline.arrRef spec0 4))) :=
  (dat0 V c).arrAt_eq_of_cover 6 (colSum (hpre0 V c)) (flushed0_6 V c) cover0_6

/-- The row of sums of squares after the stage: the column sums of squares of that dense step. -/
theorem final0_7 (V : (c : Dev nD) → (b : Ref sig .tc) → Buf (Elt Ideal) ((c : Thread nD τ).loc b)) (c : Dev nD) :
    (Gen.dat0 (F := Ideal) V c).arrAt 7 cfg0.N
      = Cert.Layer.colSumSq (Cert.Layer.lin (V c (Pipeline.arrRef spec0 0)) (V c (Pipeline.arrRef spec0 1)) (V c (Pipeline.arrRef spec0 2)) (V c (Pipeline.arrRef spec0 3)) (V c (Pipeline.arrRef spec0 4))) :=
  (dat0 V c).arrAt_eq_of_cover 7 (colSumSq (hpre0 V c)) (flushed0_7 V c) cover0_7

end Cert.KernelIdeal.RegionValue

end
-- ==== Proof.RegionA1.lean ====
/-
  The normalising step of one layer, read off the pipeline's write-backs.

  The pipeline walks ten row blocks of 5000 rows.  At block t the body holds rows 5000·t … 5000·t + 4999 of the
  pre-activation array and the four per-column rows (mean, variance, gain, offset), and stores, at row p and column q of
  the block, tanh(((h − mean q)·rsqrt(var q + eps))·gain q + offset q) with h the pre-activation at row 5000·t + p.  That
  is block t of ONE function of the whole arrays, the blocks tile the 50000 rows, and every block is written back: so the
  output array ends holding that function.
-/
import proofs.«147565_j9259949490665_1_alg».proof.Proof.Gen.KernelIdeal.Frame
import proofs.«147565_j9259949490665_1_alg».proof.Proof.Spec
import Idealize.ShloMosaic.Lib.Pipeline.Value
import Idealize.ShloMosaic.Lib.ValueLayout

set_option maxRecDepth 16384

noncomputable section

namespace Cert.KernelIdeal.RegionValue

open Idealize.ShloMosaic Idealize.ShloMosaic.TcCoe Idealize.ShloMosaic.ValueIdx
open Idealize.ShloMosaic.Pipeline (Dat)

/-- The zero offsets of an access to a whole buffer. -/
theorem zero_off1 : (![0, 0] : Fin 2 → Nat) = fun _ => 0 := funext fun a => by fin_cases a <;> rfl

/-- Two functions of a 5000×64 block agree when they agree at every row and column. -/
theorem ext_block1 {α : Type} (f g : S5000x64.Idx → α) (h : ∀ (p : Fin 5000) (q : Fin 64), f (ix2 p q) = g (ix2 p q)) :
    f = g := funext fun j => by rw [eq_ix2 j]; exact h _ _

/-- The body's arithmetic at row p, column q of its block: the four rows are read at column q, the constant is the
    same binary word as the specification's. -/
theorem pay1_apply (x0 : Vec Ideal S5000x64 .f32) (x1 x2 x3 x4 : Vec Ideal S1x64 .f32) (p : Fin 5000) (q : Fin 64) :
    Gen.k1_pay1 (F := Ideal) x2 x0 x1 x3 x4 (ix2 p q)
      = Ideal.tanh ((((x0 (ix2 p q) - x1 (ix2 0 q)) * Ideal.rsqrt (x2 (ix2 0 q) + Cert.Layer.eps)) * x3 (ix2 0 q))
          + x4 (ix2 0 q)) := by
  unfold Gen.k1_pay1
  simp only [shapeCast_self]
  show Ideal.tanh ((((x0 (ix2 p q) - broadcastTo S5000x64 x1 _ (ix2 p q))
      * broadcastTo S5000x64 (rsqrt (F := Ideal) (addf (F := Ideal) x2 (broadcast S1x64 (Scalar.ofBits (F := Ideal) .f32 0x3727C5AC#32)))) _ (ix2 p q))
      * broadcastTo S5000x64 x3 _ (ix2 p q)) + broadcastTo S5000x64 x4 _ (ix2 p q)) = _
  simp only [broadcastTo_1b_ab_apply]
  rfl

/-- What the body leaves in the output block: its one store covers the block, and its loads read whole blocks, so the
    block holds the body's arithmetic of the five input blocks. -/
theorem out1_eq (x0 : Vec Ideal S5000x64 .f32) (x1 x2 x3 x4 : Vec Ideal S1x64 .f32) :
    Gen.out1_5 (F := Ideal) x0 x1 x2 x3 x4 = Gen.k1_pay1 x2 x0 x1 x3 x4 := by
  unfold Gen.out1_5
  rw [View.canon_unit_zero zero_off1]
  simp only [View.ld_unit_zero (S := S5000x64) zero_off1, View.ld_unit_zero (S := S1x64) zero_off1]

/-- When row p of the first block is row r of a whole array and the four rows are those of whole arrays, entry (p, q) of
    the output block is entry (r, q) of the normalising step of the whole arrays. -/
theorem block_val1 (x0 : Vec Ideal S5000x64 .f32) (x1 x2 x3 x4 : Vec Ideal S1x64 .f32)
    (A0 : Cert.Layer.Mat 50000 64) (A1 A2 A3 A4 : Cert.Layer.Mat 1 64) (p : Fin 5000) (q : Fin 64) (r : Fin 50000)
    (h0 : x0 (ix2 p q) = A0 (ix2 r q)) (h1 : x1 (ix2 0 q) = A1 (ix2 0 q)) (h2 : x2 (ix2 0 q) = A2 (ix2 0 q))
    (h3 : x3 (ix2 0 q) = A3 (ix2 0 q)) (h4 : x4 (ix2 0 q) = A4 (ix2 0 q)) :
    Gen.out1_5 (F := Ideal) x0 x1 x2 x3 x4 (ix2 p q) = Cert.Layer.bn A0 A1 A2 A3 A4 (ix2 r q) := by
  rw [out1_eq, pay1_apply, Cert.Layer.bn_apply, h0, h1, h2, h3, h4]

/-- The block index of every window at every point of the grid: the two row-blocked windows sit at block (t, 0), the
    four rows at block (0, 0). -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The grid has ten points. -/
theorem point_lt1 (t : Fin cfg1.N) : t.val < 10 := lt_of_lt_of_eq t.isLt Gen.N_1

/-- Row p, column q of the pre-activation block at point t sits at row 5000·t + p of the pre-activation array. -/
theorem emb1_0 (t : Fin cfg1.N) (p : Fin 5000) (q : Fin 64) (r : Fin 50000) (hr : r.val = t.val * 5000 + p.val) :
    (((cfg1.win 0).blk t).view.emb (ix2 p q : S5000x64.Idx) : S50000x64.Idx) = ix2 r q := by
  obtain ⟨e0, e1, -⟩ := idx_facts1 t
  refine funext fun a => Fin.ext ?_
  match a with
  | ⟨0, _⟩ => show win1_0.index t (0 : Fin 2) * 5000 + 1 * p.val = r.val; rw [e0, hr]; omega
  | ⟨1, _⟩ => show win1_0.index t (1 : Fin 2) * 64 + 1 * q.val = q.val; rw [e1]; omega

/-- Column q of per-column row 1's block at any point sits at column q of the row. -/
theorem emb1_1 (t : Fin cfg1.N) (q : Fin 64) :
    (((cfg1.win 1).blk t).view.emb (ix2 0 q : S1x64.Idx) : S1x64.Idx) = ix2 0 q := by
  obtain ⟨-, -, e0, e1, -⟩ := idx_facts1 t
  refine funext fun a => Fin.ext ?_
  match a with
  | ⟨0, _⟩ => show win1_1.index t (0 : Fin 2) * 1 + 1 * 0 = 0; rw [e0]
  | ⟨1, _⟩ => show win1_1.index t (1 : Fin 2) * 64 + 1 * q.val = q.val; rw [e1]; omega

/-- Column q of per-column row 2's block at any point sits at column q of the row. -/
theorem emb1_2 (t : Fin cfg1.N) (q : Fin 64) :
    (((cfg1.win 2).blk t).view.emb (ix2 0 q : S1x64.Idx) : S1x64.Idx) = ix2 0 q := by
  obtain ⟨-, -, -, -, e0, e1, -⟩ := idx_facts1 t
  refine funext fun a => Fin.ext ?_
  match a with
  | ⟨0, _⟩ => show win1_2.index t (0 : Fin 2) * 1 + 1 * 0 = 0; rw [e0]
  | ⟨1, _⟩ => show win1_2.index t (1 : Fin 2) * 64 + 1 * q.val = q.val; rw [e1]; omega

/-- Column q of per-column row 3's block at any point sits at column q of the row. -/
theorem emb1_3 (t : Fin cfg1.N) (q : Fin 64) :
    (((cfg1.win 3).blk t).view.emb (ix2 0 q : S1x64.Idx) : S1x64.Idx) = ix2 0 q := by
  obtain ⟨-, -, -, -, -, -, e0, e1, -⟩ := idx_facts1 t
  refine funext fun a => Fin.ext ?_
  match a with
  | ⟨0, _⟩ => show win1_3.index t (0 : Fin 2) * 1 + 1 * 0 = 0; rw [e0]
  | ⟨1, _⟩ => show win1_3.index t (1 : Fin 2) * 64 + 1 * q.val = q.val; rw [e1]; omega

/-- Column q of per-column row 4's block at any point sits at column q of the row. -/
theorem emb1_4 (t : Fin cfg1.N) (q : Fin 64) :
    (((cfg1.win 4).blk t).view.emb (ix2 0 q : S1x64.Idx) : S1x64.Idx) = ix2 0 q := by
  obtain ⟨-, -, -, -, -, -, -, -, e0, e1, -⟩ := idx_facts1 t
  refine funext fun a => Fin.ext ?_
  match a with
  | ⟨0, _⟩ => show win1_4.index t (0 : Fin 2) * 1 + 1 * 0 = 0; rw [e0]
  | ⟨1, _⟩ => show win1_4.index t (1 : Fin 2) * 64 + 1 * q.val = q.val; rw [e1]; omega

/-- Row p, column q of the output block at point t sits at row 5000·t + p of the output array. -/
theorem emb1_5 (t : Fin cfg1.N) (p : Fin 5000) (q : Fin 64) (r : Fin 50000) (hr : r.val = t.val * 5000 + p.val) :
    (((cfg1.win 5).blk t).view.emb (ix2 p q : S5000x64.Idx) : S50000x64.Idx) = ix2 r q := by
  obtain ⟨-, -, -, -, -, -, -, -, -, -, e0, e1⟩ := idx_facts1 t
  refine funext fun a => Fin.ext ?_
  match a with
  | ⟨0, _⟩ => show win1_5.index t (0 : Fin 2) * 5000 + 1 * p.val = r.val; rw [e0, hr]; omega
  | ⟨1, _⟩ => show win1_5.index t (1 : Fin 2) * 64 + 1 * q.val = q.val; rw [e1]; omega

section
variable (V : (c : Dev nD) → (b : Ref sig .tc) → Buf (Elt Ideal) ((c : Thread nD τ).loc b))

set_option maxHeartbeats 1000000 in
/-- Row p, column q of the pre-activation block at point t is row 5000·t + p of the pre-activation array. -/
theorem blk1_0_apply (c : Dev nD) (t : Fin cfg1.N) (p : Fin 5000) (q : Fin 64) (r : Fin 50000)
    (hr : r.val = t.val * 5000 + p.val) :
    (Gen.iblk1 (F := Ideal) V c 0 t : S5000x64.Idx → EReal) (ix2 p q)
      = (V c (Pipeline.arrRef spec1 0) : S50000x64.Idx → EReal) (ix2 r q) :=
  congrArg (V c (Pipeline.arrRef spec1 0) : S50000x64.Idx → EReal) (emb1_0 t p q r hr)

set_option maxHeartbeats 1000000 in
/-- The block of per-column row 1 at any point is the row itself. -/
theorem blk1_1_apply (c : Dev nD) (t : Fin cfg1.N) (q : Fin 64) :
    (Gen.iblk1 (F := Ideal) V c 1 t : S1x64.Idx → EReal) (ix2 0 q)
      = (V c (Pipeline.arrRef spec1 1) : S1x64.Idx → EReal) (ix2 0 q) :=
  congrArg (V c (Pipeline.arrRef spec1 1) : S1x64.Idx → EReal) (emb1_1 t q)

set_option maxHeartbeats 1000000 in
/-- The block of per-column row 2 at any point is the row itself. -/
theorem blk1_2_apply (c : Dev nD) (t : Fin cfg1.N) (q : Fin 64) :
    (Gen.iblk1 (F := Ideal) V c 2 t : S1x64.Idx → EReal) (ix2 0 q)
      = (V c (Pipeline.arrRef spec1 2) : S1x64.Idx → EReal) (ix2 0 q) :=
  congrArg (V c (Pipeline.arrRef spec1 2) : S1x64.Idx → EReal) (emb1_2 t q)

set_option maxHeartbeats 1000000 in
/-- The block of per-column row 3 at any point is the row itself. -/
theorem blk1_3_apply (c : Dev nD) (t : Fin cfg1.N) (q : Fin 64) :
    (Gen.iblk1 (F := Ideal) V c 3 t : S1x64.Idx → EReal) (ix2 0 q)
      = (V c (Pipeline.arrRef spec1 3) : S1x64.Idx → EReal) (ix2 0 q) :=
  congrArg (V c (Pipeline.arrRef spec1 3) : S1x64.Idx → EReal) (emb1_3 t q)

set_option maxHeartbeats 1000000 in
/-- The block of per-column row 4 at any point is the row itself. -/
theorem blk1_4_apply (c : Dev nD) (t : Fin cfg1.N) (q : Fin 64) :
    (Gen.iblk1 (F := Ideal) V c 4 t : S1x64.Idx → EReal) (ix2 0 q)
      = (V c (Pipeline.arrRef spec1 4) : S1x64.Idx → EReal) (ix2 0 q) :=
  congrArg (V c (Pipeline.arrRef spec1 4) : S1x64.Idx → EReal) (emb1_4 t q)

set_option maxHeartbeats 1000000 in
/-- What point t writes back is block t of the normalising step of the whole arrays. -/
theorem flushed1_5_eq (c : Dev nD) (t : Fin cfg1.N) :
    (Gen.dat1 (F := Ideal) V c).flushed 5 t
      = ((cfg1.win 5).blk t).view.read (Elt Ideal)
          (Cert.Layer.bn (V c (Pipeline.arrRef spec1 0)) (V c (Pipeline.arrRef spec1 1)) (V c (Pipeline.arrRef spec1 2))
            (V c (Pipeline.arrRef spec1 3)) (V c (Pipeline.arrRef spec1 4))) := by
  show (cfg1.win 5).cut (grid1.coords t) ((Gen.dat1 V c).after 5 t) = _
  rw [Gen.after1_5]
  refine ext_block1 _ _ fun p q => ?_
  have hp : p.val < 5000 := p.isLt
  have ht : t.val < 10 := point_lt1 t
  have hr : t.val * 5000 + p.val < 50000 := by omega
  exact (block_val1 (Gen.iblk1 V c 0 t) (Gen.iblk1 V c 1 t) (Gen.iblk1 V c 2 t) (Gen.iblk1 V c 3 t)
      (Gen.iblk1 V c 4 t) (V c (Pipeline.arrRef spec1 0)) (V c (Pipeline.arrRef spec1 1))
      (V c (Pipeline.arrRef spec1 2)) (V c (Pipeline.arrRef spec1 3)) (V c (Pipeline.arrRef spec1 4))
      p q ⟨t.val * 5000 + p.val, hr⟩ (blk1_0_apply V c t p q _ rfl) (blk1_1_apply V c t q) (blk1_2_apply V c t q)
      (blk1_3_apply V c t q) (blk1_4_apply V c t q)).trans
    (congrArg (Cert.Layer.bn (V c (Pipeline.arrRef spec1 0)) (V c (Pipeline.arrRef spec1 1))
      (V c (Pipeline.arrRef spec1 2)) (V c (Pipeline.arrRef spec1 3)) (V c (Pipeline.arrRef spec1 4)))
      (emb1_5 t p q ⟨t.val * 5000 + p.val, hr⟩ rfl).symm)

/-- An index of the output array lies in point t's block iff each coordinate lies in the block's range on its axis. -/
theorem mem_blk1_5 (t : Fin cfg1.N) (i : S50000x64.Idx) :
    i ∈ ((cfg1.win 5).blk t).view.set
      ↔ ∀ a : Fin 2, win1_5.index t a * S5000x64.size a ≤ (i a).val
          ∧ (i a).val < win1_5.index t a * S5000x64.size a + S5000x64.size a := by
  show i ∈ ((View.whole main_v28).slice (win1_5.rect t)).set ↔ _
  rw [View.set_slice_whole, Rect.mem_set_unit]
  exact Iff.rfl

/-- Every row of the output array lies in a block that is written back: row r in the block of point r / 5000. -/
theorem cover1_5 (i : S50000x64.Idx) :
    ∃ t : Fin cfg1.N, (cfg1.win 5).flush t = true ∧ i ∈ ((cfg1.win 5).blk t).view.set := by
  have hi0 : (i 0).val < 50000 := (i 0).isLt
  have hi1 : (i 1).val < 64 := (i 1).isLt
  have hN : (i 0).val / 5000 < cfg1.N := lt_of_lt_of_eq (by omega : (i 0).val / 5000 < 10) Gen.N_1.symm
  refine ⟨⟨(i 0).val / 5000, hN⟩, Gen.flush1_5 _, ?_⟩
  obtain ⟨-, -, -, -, -, -, -, -, -, -, e0, e1⟩ := idx_facts1 ⟨(i 0).val / 5000, hN⟩
  rw [mem_blk1_5]
  intro a
  match a with
  | ⟨0, _⟩ =>
    show win1_5.index ⟨(i 0).val / 5000, hN⟩ (0 : Fin 2) * 5000 ≤ (i 0).val
      ∧ (i 0).val < win1_5.index ⟨(i 0).val / 5000, hN⟩ (0 : Fin 2) * 5000 + 5000
    rw [e0]; show (i 0).val / 5000 * 5000 ≤ (i 0).val ∧ (i 0).val < (i 0).val / 5000 * 5000 + 5000; omega
  | ⟨1, _⟩ =>
    show win1_5.index ⟨(i 0).val / 5000, hN⟩ (1 : Fin 2) * 64 ≤ (i 1).val
      ∧ (i 1).val < win1_5.index ⟨(i 0).val / 5000, hN⟩ (1 : Fin 2) * 64 + 64
    rw [e1]; omega

set_option maxHeartbeats 1000000 in
/-- The output array after the region: the normalising step of the arrays the region found. -/
theorem final1_5 (c : Dev nD) :
    (Gen.dat1 (F := Ideal) V c).arrAt 5 cfg1.N
      = Cert.Layer.bn (V c (Pipeline.arrRef spec1 0)) (V c (Pipeline.arrRef spec1 1)) (V c (Pipeline.arrRef spec1 2))
          (V c (Pipeline.arrRef spec1 3)) (V c (Pipeline.arrRef spec1 4)) :=
  (Gen.dat1 V c).arrAt_eq_of_cover 5 _ (fun t _ => flushed1_5_eq V c t) cover1_5

end

end Cert.KernelIdeal.RegionValue

end
-- ==== Proof.KLayer0.lean ====
/-
  Layer 0 of the kernel program, from the buffer contents before its first host operation to its output array: the
  dense step and its two column-sum rows (launch 0), the mean and variance rows, and the normalising step (launch 1).
-/
import proofs.«147565_j9259949490665_1_alg».proof.Proof.KHostA0
import proofs.«147565_j9259949490665_1_alg».proof.Proof.KHostB0
import proofs.«147565_j9259949490665_1_alg».proof.Proof.RegionR0
import proofs.«147565_j9259949490665_1_alg».proof.Proof.RegionA1

set_option maxRecDepth 16384

noncomputable section

namespace Cert.KernelIdeal.Fold

open Idealize.ShloMosaic Idealize.ShloMosaic.TcCoe Idealize.SL.Sem Idealize.ShloMosaic.ValueIdx
open Cert.KernelIdeal Cert.KernelIdeal.Gen Cert.KernelIdeal.HostFn Cert.Layer

variable (m : (ℓ : Loc nD τ sig) → Buf (Elt Ideal) ℓ) (ρ : Dev nD → PrngReg)

set_option maxHeartbeats 1000000 in
/-- Launch 0's three result arrays at its exit. -/
theorem W2_ro0 (c : Dev nD) : W2 m ρ c (Proc.devRef .tc main_v19_0) = (lin (W1 m ρ c (Proc.devRef .tc main_v17)) (W1 m ρ c (Proc.devRef .tc main_arg0)) (W1 m ρ c (Proc.devRef .tc main_arg2)) (W1 m ρ c (Proc.devRef .tc main_arg3)) (W1 m ρ c (Proc.devRef .tc main_v18))) :=
  (W2_arr m ρ c 5).trans (Cert.KernelIdeal.RegionValue.final0_5 (V1 m ρ) c)
set_option maxHeartbeats 1000000 in
theorem W2_ro1 (c : Dev nD) : W2 m ρ c (Proc.devRef .tc main_v19_1) = colSum (lin (W1 m ρ c (Proc.devRef .tc main_v17)) (W1 m ρ c (Proc.devRef .tc main_arg0)) (W1 m ρ c (Proc.devRef .tc main_arg2)) (W1 m ρ c (Proc.devRef .tc main_arg3)) (W1 m ρ c (Proc.devRef .tc main_v18))) :=
  (W2_arr m ρ c 6).trans (Cert.KernelIdeal.RegionValue.final0_6 (V1 m ρ) c)
set_option maxHeartbeats 1000000 in
theorem W2_ro2 (c : Dev nD) : W2 m ρ c (Proc.devRef .tc main_v19_2) = colSumSq (lin (W1 m ρ c (Proc.devRef .tc main_v17)) (W1 m ρ c (Proc.devRef .tc main_arg0)) (W1 m ρ c (Proc.devRef .tc main_arg2)) (W1 m ρ c (Proc.devRef .tc main_arg3)) (W1 m ρ c (Proc.devRef .tc main_v18))) :=
  (W2_arr m ρ c 7).trans (Cert.KernelIdeal.RegionValue.final0_7 (V1 m ρ) c)
theorem W2_gv (c : Dev nD) : W2 m ρ c (Proc.devRef .tc main_v5) = W1 m ρ c (Proc.devRef .tc main_v5) := W2_of_ne m ρ c main_v5 (by decide)
theorem W2_bev (c : Dev nD) : W2 m ρ c (Proc.devRef .tc main_v7) = W1 m ρ c (Proc.devRef .tc main_v7) := W2_of_ne m ρ c main_v7 (by decide)

set_option maxHeartbeats 1000000 in
/-- Launch 1's result array at its exit. -/
theorem W4_out (c : Dev nD) : W4 m ρ c (Proc.devRef .tc main_v28) = bn (W3 m ρ c (Proc.devRef .tc main_v19_0)) (W3 m ρ c (Proc.devRef .tc main_v21)) (W3 m ρ c (Proc.devRef .tc main_v25)) (W3 m ρ c (Proc.devRef .tc main_v26)) (W3 m ρ c (Proc.devRef .tc main_v27)) :=
  (W4_arr m ρ c 5).trans (Cert.KernelIdeal.RegionValue.final1_5 (V3 m ρ) c)

set_option maxHeartbeats 2000000 in
/-- The layer: its output array is the normalising step, with the array's own mean and variance, of the dense step of the
    aggregated and the plain input. -/
theorem layer0 (c : Dev nD) : W4 m ρ c (Proc.devRef .tc main_v28)
    = bnStep (lin (agg8 (idxRow ![0, 0] slices_S2x800000_S1x800000_0_0 (W0 m ρ c (Proc.devRef .tc main_arg1))) (idxRow ![1, 0] slices_S2x800000_S1x800000_1_0 (W0 m ρ c (Proc.devRef .tc main_arg1))) (W0 m ρ c (Proc.devRef .tc main_arg0))) (W0 m ρ c (Proc.devRef .tc main_arg0)) (W0 m ρ c (Proc.devRef .tc main_arg2)) (W0 m ρ c (Proc.devRef .tc main_arg3)) (Cert.Row.rowOf (W0 m ρ c (Proc.devRef .tc main_arg4)))) (Cert.Row.rowOf (vecSlice8 ![0, 0] slices_S8x64_S1x64_0_0 (W0 m ρ c (Proc.devRef .tc main_arg8)))) (Cert.Row.rowOf (vecSlice8 ![0, 0] slices_S8x64_S1x64_0_0 (W0 m ρ c (Proc.devRef .tc main_arg9)))) := by
  rw [W4_out, W3_hpre, W3_mean, W3_var, W3_grow, W3_berow, W2_ro0, W2_ro1, W2_ro2,
    W2_gv, W2_bev, W1_agg, W1_hp, W1_wl, W1_wr, W1_brow, W1_gv, W1_bev]
  rw [bcast1_row, bcast1_row, bcast1_row, meanRow_eq, varRow_eq]
  rfl

theorem keepL0_v1 (c : Dev nD) : W4 m ρ c (Proc.devRef .tc main_v1) = (idxRow ![0, 0] slices_S2x800000_S1x800000_0_0 (W0 m ρ c (Proc.devRef .tc main_arg1))) :=
  (W4_of_ne m ρ c main_v1 (by decide)).trans ((keepH1 m ρ c main_v1 (by decide)).trans ((W2_of_ne m ρ c main_v1 (by decide)).trans (W1_v1 m ρ c)))
theorem keepL0_v3 (c : Dev nD) : W4 m ρ c (Proc.devRef .tc main_v3) = (idxRow ![1, 0] slices_S2x800000_S1x800000_1_0 (W0 m ρ c (Proc.devRef .tc main_arg1))) :=
  (W4_of_ne m ρ c main_v3 (by decide)).trans ((keepH1 m ρ c main_v3 (by decide)).trans ((W2_of_ne m ρ c main_v3 (by decide)).trans (W1_v3 m ρ c)))
theorem keepL0_arg5 (c : Dev nD) : W4 m ρ c (Proc.devRef .tc main_arg5) = W0 m ρ c (Proc.devRef .tc main_arg5) :=
  (W4_of_ne m ρ c main_arg5 (by decide)).trans ((keepH1 m ρ c main_arg5 (by decide)).trans ((W2_of_ne m ρ c main_arg5 (by decide)).trans (keepH0 m ρ c main_arg5 (by decide))))
theorem keepL0_arg6 (c : Dev nD) : W4 m ρ c (Proc.devRef .tc main_arg6) = W0 m ρ c (Proc.devRef .tc main_arg6) :=
  (W4_of_ne m ρ c main_arg6 (by decide)).trans ((keepH1 m ρ c main_arg6 (by decide)).trans ((W2_of_ne m ρ c main_arg6 (by decide)).trans (keepH0 m ρ c main_arg6 (by decide))))
theorem keepL0_arg7 (c : Dev nD) : W4 m ρ c (Proc.devRef .tc main_arg7) = W0 m ρ c (Proc.devRef .tc main_arg7) :=
  (W4_of_ne m ρ c main_arg7 (by decide)).trans ((keepH1 m ρ c main_arg7 (by decide)).trans ((W2_of_ne m ρ c main_arg7 (by decide)).trans (keepH0 m ρ c main_arg7 (by decide))))
theorem keepL0_arg8 (c : Dev nD) : W4 m ρ c (Proc.devRef .tc main_arg8) = W0 m ρ c (Proc.devRef .tc main_arg8) :=
  (W4_of_ne m ρ c main_arg8 (by decide)).trans ((keepH1 m ρ c main_arg8 (by decide)).trans ((W2_of_ne m ρ c main_arg8 (by decide)).trans (keepH0 m ρ c main_arg8 (by decide))))
theorem keepL0_arg9 (c : Dev nD) : W4 m ρ c (Proc.devRef .tc main_arg9) = W0 m ρ c (Proc.devRef .tc main_arg9) :=
  (W4_of_ne m ρ c main_arg9 (by decide)).trans ((keepH1 m ρ c main_arg9 (by decide)).trans ((W2_of_ne m ρ c main_arg9 (by decide)).trans (keepH0 m ρ c main_arg9 (by decide))))
theorem keepL0_arg10 (c : Dev nD) : W4 m ρ c (Proc.devRef .tc main_arg10) = W0 m ρ c (Proc.devRef .tc main_arg10) :=
  (W4_of_ne m ρ c main_arg10 (by decide)).trans ((keepH1 m ρ c main_arg10 (by decide)).trans ((W2_of_ne m ρ c main_arg10 (by decide)).trans (keepH0 m ρ c main_arg10 (by decide))))
theorem keepL0_arg11 (c : Dev nD) : W4 m ρ c (Proc.devRef .tc main_arg11) = W0 m ρ c (Proc.devRef .tc main_arg11) :=
  (W4_of_ne m ρ c main_arg11 (by decide)).trans ((keepH1 m ρ c main_arg11 (by decide)).trans ((W2_of_ne m ρ c main_arg11 (by decide)).trans (keepH0 m ρ c main_arg11 (by decide))))

end Cert.KernelIdeal.Fold

end
-- ==== Proof.KHostA1.lean ====
/-
  The host operations before launch 2: which buffers they write, and what the ones the layer reads hold afterwards.
-/
import proofs.«147565_j9259949490665_1_alg».proof.Proof.Gen.KernelIdeal.Frame
import proofs.«147565_j9259949490665_1_alg».proof.Proof.KHostFn
import proofs.«147565_j9259949490665_1_alg».proof.Proof.LayerDefs

set_option maxRecDepth 16384

noncomputable section

namespace Cert.KernelIdeal.Fold

open Idealize.ShloMosaic Idealize.ShloMosaic.TcCoe Idealize.SL.Sem Idealize.ShloMosaic.ValueIdx
open Cert.KernelIdeal Cert.KernelIdeal.Gen Cert.KernelIdeal.HostFn Cert.Layer

variable (m : (ℓ : Loc nD τ sig) → Buf (Elt Ideal) ℓ) (ρ : Dev nD → PrngReg)

/-- The buffers the host operations before launch 2 write. -/
abbrev hostOps2_W : List (Ref sig .tc) := [main_v29, main_v30, main_v31, main_v32, main_v33, main_v34, main_v35, main_v36, main_v37, main_v38, main_c_3, main_v39, main_v40, main_c_4, main_v41, main_v42, main_v43, main_v44, main_v45, main_cst_5, main_v46, main_v47, main_v48, main_v49]

theorem hostOps2_writes : (hostOps2 : List (HloOp τ sig (Elt Ideal))).Forall fun op => op.writes ⊆ (hostOps2_W.map (Proc.devRef (τ := τ) .tc)).toFinset := by
  simp only [hostOps2, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- A buffer those operations do not write keeps its contents through them. -/
theorem keepH2 (c : Dev nD) (r : Ref sig .tc) (h : r ∉ hostOps2_W) :
    W5 m ρ c (Proc.devRef .tc r) = W4 m ρ c (Proc.devRef .tc r) :=
  StableHlo.after_of_writes_sub hostOps2 _ hostOps2_writes h

theorem W5_wl (c : Dev nD) : W5 m ρ c (Proc.devRef .tc main_v30) = (matSlice ![0, 0, 0] slices_S7x64x64_S1x64x64_0_0_0 (W4 m ρ c (Proc.devRef .tc main_arg5))) := by
  show StableHlo.after hostOps2 (W4 m ρ c) (Proc.devRef .tc main_v30) = _
  simp only [hostOps2]
  first | (after_results_simp <;> rfl) | (after_results <;> rfl)
theorem W5_wr (c : Dev nD) : W5 m ρ c (Proc.devRef .tc main_v32) = (matSlice ![0, 0, 0] slices_S7x64x64_S1x64x64_0_0_0 (W4 m ρ c (Proc.devRef .tc main_arg6))) := by
  show StableHlo.after hostOps2 (W4 m ρ c) (Proc.devRef .tc main_v32) = _
  simp only [hostOps2]
  first | (after_results_simp <;> rfl) | (after_results <;> rfl)
theorem W5_brow (c : Dev nD) : W5 m ρ c (Proc.devRef .tc main_v49) = broadcastInDim S1x64 ![1] bcast_S64_S1x64_1 (vecSlice7 ![0, 0] slices_S7x64_S1x64_0_0 (W4 m ρ c (Proc.devRef .tc main_arg7))) := by
  show StableHlo.after hostOps2 (W4 m ρ c) (Proc.devRef .tc main_v49) = _
  simp only [hostOps2]
  first | (after_results_simp <;> rfl) | (after_results <;> rfl)
theorem W5_gv (c : Dev nD) : W5 m ρ c (Proc.devRef .tc main_v36) = (vecSlice8 ![1, 0] slices_S8x64_S1x64_1_0 (W4 m ρ c (Proc.devRef .tc main_arg8))) := by
  show StableHlo.after hostOps2 (W4 m ρ c) (Proc.devRef .tc main_v36) = _
  simp only [hostOps2]
  first | (after_results_simp <;> rfl) | (after_results <;> rfl)
theorem W5_bev (c : Dev nD) : W5 m ρ c (Proc.devRef .tc main_v38) = (vecSlice8 ![1, 0] slices_S8x64_S1x64_1_0 (W4 m ρ c (Proc.devRef .tc main_arg9))) := by
  show StableHlo.after hostOps2 (W4 m ρ c) (Proc.devRef .tc main_v38) = _
  simp only [hostOps2]
  first | (after_results_simp <;> rfl) | (after_results <;> rfl)
theorem W5_agg (c : Dev nD) : W5 m ρ c (Proc.devRef .tc main_v48) = (agg64 (W4 m ρ c (Proc.devRef .tc main_v1)) (W4 m ρ c (Proc.devRef .tc main_v3)) (W4 m ρ c (Proc.devRef .tc main_v28))) := by
  show StableHlo.after hostOps2 (W4 m ρ c) (Proc.devRef .tc main_v48) = _
  simp only [hostOps2]
  first | (after_results_simp <;> rfl) | (after_results <;> rfl)
theorem W5_hp (c : Dev nD) : W5 m ρ c (Proc.devRef .tc main_v28) = W4 m ρ c (Proc.devRef .tc main_v28) := keepH2 m ρ c main_v28 (by decide)

end Cert.KernelIdeal.Fold

end
-- ==== Proof.KHostB1.lean ====
/-
  The host operations before launch 3: the mean row, the variance row, the gain and offset rows.
-/
import proofs.«147565_j9259949490665_1_alg».proof.Proof.Gen.KernelIdeal.Frame
import proofs.«147565_j9259949490665_1_alg».proof.Proof.KHostFn
import proofs.«147565_j9259949490665_1_alg».proof.Proof.LayerDefs

set_option maxRecDepth 16384

noncomputable section

namespace Cert.KernelIdeal.Fold

open Idealize.ShloMosaic Idealize.ShloMosaic.TcCoe Idealize.SL.Sem Idealize.ShloMosaic.ValueIdx
open Cert.KernelIdeal Cert.KernelIdeal.Gen Cert.KernelIdeal.HostFn Cert.Layer

variable (m : (ℓ : Loc nD τ sig) → Buf (Elt Ideal) ℓ) (ρ : Dev nD → PrngReg)

/-- The buffers the host operations before launch 3 write. -/
abbrev hostOps3_W : List (Ref sig .tc) := [main_cst_6, main_v51, main_v52, main_cst_7, main_v53, main_v54, main_v55, main_v56, main_v57, main_v58]

theorem hostOps3_writes : (hostOps3 : List (HloOp τ sig (Elt Ideal))).Forall fun op => op.writes ⊆ (hostOps3_W.map (Proc.devRef (τ := τ) .tc)).toFinset := by
  simp only [hostOps3, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- A buffer those operations do not write keeps its contents through them. -/
theorem keepH3 (c : Dev nD) (r : Ref sig .tc) (h : r ∉ hostOps3_W) :
    W7 m ρ c (Proc.devRef .tc r) = W6 m ρ c (Proc.devRef .tc r) :=
  StableHlo.after_of_writes_sub hostOps3 _ hostOps3_writes h

theorem W7_mean (c : Dev nD) : W7 m ρ c (Proc.devRef .tc main_v52) = (Host.divf (F := Ideal) (W6 m ρ c (Proc.devRef .tc main_v50_1)) (broadcastInDim S1x64 ![] bcast_S_S1x64 (constant (F := Ideal) S_ .f32 0x47435000#32)) : FVec Ideal S1x64 .f32) := by
  show StableHlo.after hostOps3 (W6 m ρ c) (Proc.devRef .tc main_v52) = _
  simp only [hostOps3]
  first | (after_results_simp <;> rfl) | (after_results <;> rfl)
theorem W7_var (c : Dev nD) : W7 m ρ c (Proc.devRef .tc main_v56) = (subf (F := Ideal) (Host.divf (F := Ideal) (W6 m ρ c (Proc.devRef .tc main_v50_2)) (broadcastInDim S1x64 ![] bcast_S_S1x64 (constant (F := Ideal) S_ .f32 0x47435000#32))) (mulf (F := Ideal) (Host.divf (F := Ideal) (W6 m ρ c (Proc.devRef .tc main_v50_1)) (broadcastInDim S1x64 ![] bcast_S_S1x64 (constant (F := Ideal) S_ .f32 0x47435000#32))) (Host.divf (F := Ideal) (W6 m ρ c (Proc.devRef .tc main_v50_1)) (broadcastInDim S1x64 ![] bcast_S_S1x64 (constant (F := Ideal) S_ .f32 0x47435000#32)))) : FVec Ideal S1x64 .f32) := by
  show StableHlo.after hostOps3 (W6 m ρ c) (Proc.devRef .tc main_v56) = _
  simp only [hostOps3]
  first | (after_results_simp <;> rfl) | (after_results <;> rfl)
theorem W7_grow (c : Dev nD) : W7 m ρ c (Proc.devRef .tc main_v57) = (broadcastInDim S1x64 ![1] bcast_S64_S1x64_1 (W6 m ρ c (Proc.devRef .tc main_v36)) : FVec Ideal S1x64 .f32) := by
  show StableHlo.after hostOps3 (W6 m ρ c) (Proc.devRef .tc main_v57) = _
  simp only [hostOps3]
  first | (after_results_simp <;> rfl) | (after_results <;> rfl)
theorem W7_berow (c : Dev nD) : W7 m ρ c (Proc.devRef .tc main_v58) = (broadcastInDim S1x64 ![1] bcast_S64_S1x64_1 (W6 m ρ c (Proc.devRef .tc main_v38)) : FVec Ideal S1x64 .f32) := by
  show StableHlo.after hostOps3 (W6 m ρ c) (Proc.devRef .tc main_v58) = _
  simp only [hostOps3]
  first | (after_results_simp <;> rfl) | (after_results <;> rfl)
theorem W7_hpre (c : Dev nD) : W7 m ρ c (Proc.devRef .tc main_v50_0) = W6 m ρ c (Proc.devRef .tc main_v50_0) := keepH3 m ρ c main_v50_0 (by decide)

end Cert.KernelIdeal.Fold

end
-- ==== Proof.RegionR2Pieces.lean ====
/-
  What one step of the dense-step body leaves in its three result blocks, as arithmetic of the blocks it read.

  At the first step of a run the two running rows are set to zero before the step adds to them; at every later step
  they are read as the step before left them.  In both cases the block of pre-activations is the same arithmetic of
  the five operand blocks, the row of sums is the previous row plus the block's column sums, and the row of sums of
  squares is the previous row plus the block's column sums of squares.
-/
import proofs.«147565_j9259949490665_1_alg».proof.Proof.Gen.KernelIdeal.Frame
import proofs.«147565_j9259949490665_1_alg».proof.Proof.LibColumnSum
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.RegionValue

open Cert.KernelIdeal Cert.KernelIdeal.Gen
open Cert.LibColumnSum (offsets_zero)

variable {F : FTy → Type} [FloatOps F]

theorem out2_A_5_eq (c : Dev nD) (i : grid2.Coords) (a1 : Memref sig .tc .vmem S5000x64 .f32) (h1 : a1.IsWhole) (a2 : Memref sig .tc .vmem S5000x64 .f32) (h2 : a2.IsWhole) (a3 : Memref sig .tc .vmem S64x64 .f32) (h3 : a3.IsWhole) (a4 : Memref sig .tc .vmem S64x64 .f32) (h4 : a4.IsWhole) (a5 : Memref sig .tc .vmem S1x64 .f32) (h5 : a5.IsWhole) (a6 : Memref sig .tc .vmem S5000x64 .f32) (h6 : a6.IsWhole) (a7 : Memref sig .tc .vmem S1x64 .f32) (h7 : a7.IsWhole) (a8 : Memref sig .tc .vmem S1x64 .f32) (h8 : a8.IsWhole) (hc : cond2_0 i)
    (x0 : Vec F S5000x64 .f32) (x1 : Vec F S5000x64 .f32) (x2 : Vec F S64x64 .f32) (x3 : Vec F S64x64 .f32) (x4 : Vec F S1x64 .f32) :
    out2_A_5 c i a1 h1 a2 h2 a3 h3 a4 h4 a5 h5 a6 h6 a7 h7 a8 h8 hc x0 x1 x2 x3 x4 = k2_pay4 x0 x2 x4 x1 x3 := by
  unfold out2_A_5
  rw [View.read_writes_eq_canon _ _ _ (cover2_A_5 c i a1 h1 a2 h2 a3 h3 a4 h4 a5 h5 a6 h6 a7 h7 a8 h8 hc x0 x1 x2 x3 x4)]
  unfold kernelRun2_A
  dsimp only
  sl_unfold_words
  rw [View.canon_unit_zero offsets_zero]
  simp only [View.readAt_eq_ld, h1.read_unread, h2.read_unread, h3.read_unread, h4.read_unread, h5.read_unread, h7.read_unread, h8.read_unread, View.ld_unit_zero (S := S5000x64) offsets_zero, View.ld_unit_zero (S := S64x64) offsets_zero, View.ld_unit_zero (S := S1x64) offsets_zero]

theorem out2_A_6_eq (c : Dev nD) (i : grid2.Coords) (a1 : Memref sig .tc .vmem S5000x64 .f32) (h1 : a1.IsWhole) (a2 : Memref sig .tc .vmem S5000x64 .f32) (h2 : a2.IsWhole) (a3 : Memref sig .tc .vmem S64x64 .f32) (h3 : a3.IsWhole) (a4 : Memref sig .tc .vmem S64x64 .f32) (h4 : a4.IsWhole) (a5 : Memref sig .tc .vmem S1x64 .f32) (h5 : a5.IsWhole) (a6 : Memref sig .tc .vmem S5000x64 .f32) (h6 : a6.IsWhole) (a7 : Memref sig .tc .vmem S1x64 .f32) (h7 : a7.IsWhole) (a8 : Memref sig .tc .vmem S1x64 .f32) (h8 : a8.IsWhole) (hc : cond2_0 i)
    (x0 : Vec F S5000x64 .f32) (x1 : Vec F S5000x64 .f32) (x2 : Vec F S64x64 .f32) (x3 : Vec F S64x64 .f32) (x4 : Vec F S1x64 .f32) :
    out2_A_6 c i a1 h1 a2 h2 a3 h3 a4 h4 a5 h5 a6 h6 a7 h7 a8 h8 hc x0 x1 x2 x3 x4 = k2_pay5 x0 x2 x4 x1 x3 (k2_pay2 (F := F)) := by
  unfold out2_A_6
  rw [View.read_writes_eq_canon _ _ _ (cover2_A_6 c i a1 h1 a2 h2 a3 h3 a4 h4 a5 h5 a6 h6 a7 h7 a8 h8 hc x0 x1 x2 x3 x4)]
  unfold kernelRun2_A
  dsimp only
  sl_unfold_words
  rw [View.canon_cons_unit_zero (S := S1x64) offsets_zero, View.readCov_unit_zero (S := S1x64) _ offsets_zero]
  simp only [View.readAt_eq_ld, h1.read_unread, h2.read_unread, h3.read_unread, h4.read_unread, h5.read_unread, h7.read_unread, h8.read_unread, View.ld_unit_zero (S := S5000x64) offsets_zero, View.ld_unit_zero (S := S64x64) offsets_zero, View.ld_unit_zero (S := S1x64) offsets_zero]

theorem out2_A_7_eq (c : Dev nD) (i : grid2.Coords) (a1 : Memref sig .tc .vmem S5000x64 .f32) (h1 : a1.IsWhole) (a2 : Memref sig .tc .vmem S5000x64 .f32) (h2 : a2.IsWhole) (a3 : Memref sig .tc .vmem S64x64 .f32) (h3 : a3.IsWhole) (a4 : Memref sig .tc .vmem S64x64 .f32) (h4 : a4.IsWhole) (a5 : Memref sig .tc .vmem S1x64 .f32) (h5 : a5.IsWhole) (a6 : Memref sig .tc .vmem S5000x64 .f32) (h6 : a6.IsWhole) (a7 : Memref sig .tc .vmem S1x64 .f32) (h7 : a7.IsWhole) (a8 : Memref sig .tc .vmem S1x64 .f32) (h8 : a8.IsWhole) (hc : cond2_0 i)
    (x0 : Vec F S5000x64 .f32) (x1 : Vec F S5000x64 .f32) (x2 : Vec F S64x64 .f32) (x3 : Vec F S64x64 .f32) (x4 : Vec F S1x64 .f32) :
    out2_A_7 c i a1 h1 a2 h2 a3 h3 a4 h4 a5 h5 a6 h6 a7 h7 a8 h8 hc x0 x1 x2 x3 x4 = k2_pay1 (k2_pay6 (k2_pay3 (F := F))) (k2_pay7 x0 x2 x4 x1 x3) := by
  unfold out2_A_7
  rw [View.read_writes_eq_canon _ _ _ (cover2_A_7 c i a1 h1 a2 h2 a3 h3 a4 h4 a5 h5 a6 h6 a7 h7 a8 h8 hc x0 x1 x2 x3 x4)]
  unfold kernelRun2_A
  dsimp only
  sl_unfold_words
  rw [View.canon_cons_unit_zero (S := S1x64) offsets_zero, View.readCov_unit_zero (S := S1x64) _ offsets_zero]
  simp only [View.readAt_eq_ld, h1.read_unread, h2.read_unread, h3.read_unread, h4.read_unread, h5.read_unread, h7.read_unread, h8.read_unread, View.ld_unit_zero (S := S5000x64) offsets_zero, View.ld_unit_zero (S := S64x64) offsets_zero, View.ld_unit_zero (S := S1x64) offsets_zero]

theorem out2_B_5_eq (c : Dev nD) (i : grid2.Coords) (a1 : Memref sig .tc .vmem S5000x64 .f32) (h1 : a1.IsWhole) (a2 : Memref sig .tc .vmem S5000x64 .f32) (h2 : a2.IsWhole) (a3 : Memref sig .tc .vmem S64x64 .f32) (h3 : a3.IsWhole) (a4 : Memref sig .tc .vmem S64x64 .f32) (h4 : a4.IsWhole) (a5 : Memref sig .tc .vmem S1x64 .f32) (h5 : a5.IsWhole) (a6 : Memref sig .tc .vmem S5000x64 .f32) (h6 : a6.IsWhole) (a7 : Memref sig .tc .vmem S1x64 .f32) (h7 : a7.IsWhole) (a8 : Memref sig .tc .vmem S1x64 .f32) (h8 : a8.IsWhole) (hc : ¬cond2_0 i)
    (x0 : Vec F S5000x64 .f32) (x1 : Vec F S5000x64 .f32) (x2 : Vec F S64x64 .f32) (x3 : Vec F S64x64 .f32) (x4 : Vec F S1x64 .f32) (xo6 : Vec F S1x64 .f32) (xo7 : Vec F S1x64 .f32) :
    out2_B_5 c i a1 h1 a2 h2 a3 h3 a4 h4 a5 h5 a6 h6 a7 h7 a8 h8 hc x0 x1 x2 x3 x4 xo6 xo7 = k2_pay4 x0 x2 x4 x1 x3 := by
  unfold out2_B_5
  rw [View.read_writes_eq_canon _ _ _ (cover2_B_5 c i a1 h1 a2 h2 a3 h3 a4 h4 a5 h5 a6 h6 a7 h7 a8 h8 hc x0 x1 x2 x3 x4 xo6 xo7)]
  unfold kernelRun2_B
  dsimp only
  sl_unfold_words
  rw [View.canon_unit_zero offsets_zero]
  simp only [View.readAt_eq_ld, h1.read_unread, h2.read_unread, h3.read_unread, h4.read_unread, h5.read_unread, h7.read_unread, h8.read_unread, View.ld_unit_zero (S := S5000x64) offsets_zero, View.ld_unit_zero (S := S64x64) offsets_zero, View.ld_unit_zero (S := S1x64) offsets_zero]

theorem out2_B_6_eq (c : Dev nD) (i : grid2.Coords) (a1 : Memref sig .tc .vmem S5000x64 .f32) (h1 : a1.IsWhole) (a2 : Memref sig .tc .vmem S5000x64 .f32) (h2 : a2.IsWhole) (a3 : Memref sig .tc .vmem S64x64 .f32) (h3 : a3.IsWhole) (a4 : Memref sig .tc .vmem S64x64 .f32) (h4 : a4.IsWhole) (a5 : Memref sig .tc .vmem S1x64 .f32) (h5 : a5.IsWhole) (a6 : Memref sig .tc .vmem S5000x64 .f32) (h6 : a6.IsWhole) (a7 : Memref sig .tc .vmem S1x64 .f32) (h7 : a7.IsWhole) (a8 : Memref sig .tc .vmem S1x64 .f32) (h8 : a8.IsWhole) (hc : ¬cond2_0 i)
    (x0 : Vec F S5000x64 .f32) (x1 : Vec F S5000x64 .f32) (x2 : Vec F S64x64 .f32) (x3 : Vec F S64x64 .f32) (x4 : Vec F S1x64 .f32) (xo6 : Vec F S1x64 .f32) (xo7 : Vec F S1x64 .f32) :
    out2_B_6 c i a1 h1 a2 h2 a3 h3 a4 h4 a5 h5 a6 h6 a7 h7 a8 h8 hc x0 x1 x2 x3 x4 xo6 xo7 = k2_pay5 x0 x2 x4 x1 x3 xo6 := by
  unfold out2_B_6
  rw [View.read_writes_eq_canon _ _ _ (cover2_B_6 c i a1 h1 a2 h2 a3 h3 a4 h4 a5 h5 a6 h6 a7 h7 a8 h8 hc x0 x1 x2 x3 x4 xo6 xo7)]
  unfold kernelRun2_B
  dsimp only
  sl_unfold_words
  rw [View.canon_unit_zero offsets_zero]
  simp only [View.readAt_eq_ld, h1.read_unread, h2.read_unread, h3.read_unread, h4.read_unread, h5.read_unread, h7.read_unread, h8.read_unread, View.ld_unit_zero (S := S5000x64) offsets_zero, View.ld_unit_zero (S := S64x64) offsets_zero, View.ld_unit_zero (S := S1x64) offsets_zero]

theorem out2_B_7_eq (c : Dev nD) (i : grid2.Coords) (a1 : Memref sig .tc .vmem S5000x64 .f32) (h1 : a1.IsWhole) (a2 : Memref sig .tc .vmem S5000x64 .f32) (h2 : a2.IsWhole) (a3 : Memref sig .tc .vmem S64x64 .f32) (h3 : a3.IsWhole) (a4 : Memref sig .tc .vmem S64x64 .f32) (h4 : a4.IsWhole) (a5 : Memref sig .tc .vmem S1x64 .f32) (h5 : a5.IsWhole) (a6 : Memref sig .tc .vmem S5000x64 .f32) (h6 : a6.IsWhole) (a7 : Memref sig .tc .vmem S1x64 .f32) (h7 : a7.IsWhole) (a8 : Memref sig .tc .vmem S1x64 .f32) (h8 : a8.IsWhole) (hc : ¬cond2_0 i)
    (x0 : Vec F S5000x64 .f32) (x1 : Vec F S5000x64 .f32) (x2 : Vec F S64x64 .f32) (x3 : Vec F S64x64 .f32) (x4 : Vec F S1x64 .f32) (xo6 : Vec F S1x64 .f32) (xo7 : Vec F S1x64 .f32) :
    out2_B_7 c i a1 h1 a2 h2 a3 h3 a4 h4 a5 h5 a6 h6 a7 h7 a8 h8 hc x0 x1 x2 x3 x4 xo6 xo7 = k2_pay1 (k2_pay6 xo7) (k2_pay7 x0 x2 x4 x1 x3) := by
  unfold out2_B_7
  rw [View.read_writes_eq_canon _ _ _ (cover2_B_7 c i a1 h1 a2 h2 a3 h3 a4 h4 a5 h5 a6 h6 a7 h7 a8 h8 hc x0 x1 x2 x3 x4 xo6 xo7)]
  unfold kernelRun2_B
  dsimp only
  sl_unfold_words
  rw [View.canon_unit_zero offsets_zero]
  simp only [View.readAt_eq_ld, h1.read_unread, h2.read_unread, h3.read_unread, h4.read_unread, h5.read_unread, h7.read_unread, h8.read_unread, View.ld_unit_zero (S := S5000x64) offsets_zero, View.ld_unit_zero (S := S64x64) offsets_zero, View.ld_unit_zero (S := S1x64) offsets_zero]

end Cert.KernelIdeal.RegionValue

end
-- ==== Proof.RegionR2Pay.lean ====
/-
  The dense step's block arithmetic read entry by entry over the extended reals.

  For one block of 5000 rows: the block of pre-activations at (p, q) is the aggregated row p against row q of the
  neighbour weights, plus the bias entry q, plus the node's own row p against row q of the root weights (each
  product is a sum over the 64 input features; the weights are stored with the output feature as their row, so the
  transposed weight read at (k, q) is the weight at (q, k)).  The two running rows are the previous row plus the
  block's column sums of the pre-activations, and of their squares.  The row that starts a run is zero.
-/
import proofs.«147565_j9259949490665_1_alg».proof.Proof.Gen.KernelIdeal.Skeleton
import proofs.«147565_j9259949490665_1_alg».proof.Proof.Spec
import proofs.«147565_j9259949490665_1_alg».proof.Proof.LibPlainDot
import proofs.«147565_j9259949490665_1_alg».proof.Proof.LibColumnSum
import Idealize.ShloMosaic.Lib.Pipeline.Value
import Idealize.ShloMosaic.Lib.ValueLayout

noncomputable section

open Idealize.ShloMosaic Idealize.ShloMosaic.ValueIdx
open scoped BigOperators

namespace Cert.KernelIdeal.RegionValue

open Cert.KernelIdeal Cert.KernelIdeal.Gen

/-- The block of pre-activations at (p, q): the dense step of the block's operands there. -/
theorem pay2_lin (a x : Vec Ideal S5000x64 .f32) (wl wr : Vec Ideal S64x64 .f32) (b : Vec Ideal S1x64 .f32)
    (p : Fin 5000) (q : Fin 64) :
    k2_pay4 (F := Ideal) a wl b x wr (ix2 p q) = Cert.Layer.lin a x wl wr b (ix2 p q) := by
  have hd : dot_S5000x64_S64x64_S5000x64_1_0_0_1_n_n = DotDims.plain 5000 64 64 := rfl
  have e1 : ∀ (l : FVec Ideal S5000x64 .f32) (w : FVec Ideal S64x64 .f32),
      matmul dot_S5000x64_S64x64_S5000x64_1_0_0_1_n_n none (shapeCast S5000x64 l shapeCasts_S5000x64_S5000x64)
          (transpose S64x64 [1, 0] (shapeCast S64x64 w shapeCasts_S64x64_S64x64) transposes_S64x64_p1_0_S64x64)
          (constant S5000x64 .f32 0x00000000#32) (ix2 p q)
        = ∑ k : Fin 64, l (ix2 p k) * w (ix2 q k) := by
    intro l w
    rw [shapeCast_self, shapeCast_self]
    refine (Cert.LibPlainDot.matmul_zero_apply _ hd none l _ p q).trans ?_
    exact Finset.sum_congr rfl fun k _ => congrArg (l (ix2 p k) * ·) (transpose_ix2_apply w _ k q)
  have e2 : broadcastTo S5000x64 (shapeCast S1x64 b shapeCasts_S1x64_S1x64) broadcasts_S1x64_S5000x64 (ix2 p q)
      = b (ix2 0 q) := by
    rw [shapeCast_self]
    exact broadcastTo_1b_ab_apply b _ p q
  rw [Cert.Layer.lin_apply]
  unfold k2_pay4
  exact congrArg₂ (· + ·) (congrArg₂ (· + ·) (e1 a wl) e2) (e1 x wr)

/-- The row that starts a run is zero. -/
theorem pay2_zero6 (j : S1x64.Idx) : k2_pay2 (F := Ideal) j = 0 := Ideal.ofBits_zero_f32

theorem pay2_zero7 (j : S1x64.Idx) : k2_pay3 (F := Ideal) j = 0 := Ideal.ofBits_zero_f32

/-- The running row of sums after a block: the row before plus the block's column sums. -/
theorem pay2_sum (a x : Vec Ideal S5000x64 .f32) (wl wr : Vec Ideal S64x64 .f32) (b acc : Vec Ideal S1x64 .f32) (q : Fin 64) :
    k2_pay5 (F := Ideal) a wl b x wr acc (ix2 0 q)
      = acc (ix2 0 q) + ∑ r : Fin 5000, k2_pay4 (F := Ideal) a wl b x wr (ix2 r q) := by
  unfold k2_pay5
  exact congrArg₂ (· + ·) (congrFun (shapeCast_self acc _) _)
    (Cert.LibColumnSum.rowReduce_apply (k2_pay4 (F := Ideal) a wl b x wr) reduces_S5000x64_S64 (.inl rfl) rfl
      shapeCasts_S64_S1x64 0 q)

/-- The running row of sums of squares after a block: the row before plus the block's column sums of squares. -/
theorem pay2_sumsq (a x : Vec Ideal S5000x64 .f32) (wl wr : Vec Ideal S64x64 .f32) (b acc : Vec Ideal S1x64 .f32) (q : Fin 64) :
    k2_pay1 (k2_pay6 (F := Ideal) acc) (k2_pay7 (F := Ideal) a wl b x wr) (ix2 0 q)
      = acc (ix2 0 q) + ∑ r : Fin 5000, k2_pay4 (F := Ideal) a wl b x wr (ix2 r q) * k2_pay4 (F := Ideal) a wl b x wr (ix2 r q) := by
  unfold k2_pay1 k2_pay6 k2_pay7
  exact congrArg₂ (· + ·) (congrFun (shapeCast_self acc _) _)
    (Cert.LibColumnSum.rowReduce_apply (mulf (k2_pay4 (F := Ideal) a wl b x wr) (k2_pay4 (F := Ideal) a wl b x wr))
      reduces_S5000x64_S64 (.inl rfl) rfl shapeCasts_S64_S1x64 0 q)

end Cert.KernelIdeal.RegionValue

end
-- ==== Proof.RegionR2.lean ====
/-
  The value of one dense-step stage: what its three result arrays hold after all ten steps.

  The stage walks ten blocks of 5000 rows.  Step t reads block t of the aggregated and of the node features (rows
  5000·t … 5000·t + 4999 of the arrays) and the whole of both weight arrays and of the bias row; it writes block t of
  the pre-activations, which is therefore block t of the dense step of the WHOLE arrays (an entry of the dense step
  depends on one row of each node-feature operand only), and adds the block's column sums, and column sums of
  squares, to two running rows that start at zero.  By induction on the step the running rows after step n hold the
  sums over the rows of blocks 0 … n, so after step 9, when they are written out, they hold the full column sums:
  a sum over 50000 = 10 · 5000 rows is the sum of its ten block sums.  Sums of extended reals are regrouped freely
  (addition is associative and commutative, and 0 + x = x); no law that needs finite values is used.
-/
import proofs.«147565_j9259949490665_1_alg».proof.Proof.Gen.KernelIdeal.Frame
import proofs.«147565_j9259949490665_1_alg».proof.Proof.Spec
import proofs.«147565_j9259949490665_1_alg».proof.Proof.LibRowBlocks
import proofs.«147565_j9259949490665_1_alg».proof.Proof.RegionR2Pieces
import proofs.«147565_j9259949490665_1_alg».proof.Proof.RegionR2Pay
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)
open scoped BigOperators

namespace Cert.KernelIdeal.RegionValue

open Cert.KernelIdeal Cert.KernelIdeal.Gen
open Cert.Layer (Mat lin colSum colSumSq)
open Cert.LibRowBlocks (blockSum blockSum_of_lt sum_range_blockSum lin_congr)

section Region2

variable (V : (c : Dev nD) → (b : Ref sig .tc) → Buf (Elt Ideal) ((c : Thread nD τ).loc b)) (c : Dev nD)

/-- The five operand arrays as the stage finds them. -/
abbrev agg2 : Mat 50000 64 := V c (Pipeline.arrRef spec2 0)
abbrev self2 : Mat 50000 64 := V c (Pipeline.arrRef spec2 1)
abbrev wl2 : Mat 64 64 := V c (Pipeline.arrRef spec2 2)
abbrev wr2 : Mat 64 64 := V c (Pipeline.arrRef spec2 3)
abbrev bias2 : Mat 1 64 := V c (Pipeline.arrRef spec2 4)

/-- The pre-activations of the whole arrays. -/
abbrev hpre2 : Mat 50000 64 := lin (agg2 V c) (self2 V c) (wl2 V c) (wr2 V c) (bias2 V c)

/-- Where each step's blocks sit: the row-blocked operands and the pre-activations at block t, column block 0. -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_5.index t (0 : Fin 2) = t.val ∧ win2_5.index t (1 : Fin 2) = 0 :=
  (by decide +kernel : ∀ t : Fin grid2.N, _)

/-- The weights, the bias row and the two running rows are one block each, at block (0, 0) at every step. -/
theorem whole2 : ∀ t : Fin cfg2.N,
    win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_6.index t (0 : Fin 2) = 0 ∧ win2_6.index t (1 : Fin 2) = 0
    ∧ win2_7.index t (0 : Fin 2) = 0 ∧ win2_7.index t (1 : Fin 2) = 0 :=
  (by decide +kernel : ∀ t : Fin grid2.N, _)

/-- Row r of step t's block of operand 0 is row 5000·t + r of the array. -/
theorem blk2_0 (t : Fin cfg2.N) (r : Fin 5000) (k : Fin 64) (hr : t.val * 5000 + r.val < 50000) :
    iblk2 V c 0 t (ix2 r k) = agg2 V c (ix2 ⟨t.val * 5000 + r.val, hr⟩ k) := by
  have e0 := (idx2 t).1
  have e1 := (idx2 t).2.1
  show V c (Pipeline.arrRef spec2 0) (((cfg2.win 0).blk t).view.emb (ix2 r k))
    = V c (Pipeline.arrRef spec2 0) (ix2 ⟨t.val * 5000 + r.val, hr⟩ k)
  refine congrArg (V c (Pipeline.arrRef spec2 0)) (funext fun a => Fin.ext ?_)
  match a with
  | ⟨0, _⟩ => show win2_0.index t (0 : Fin 2) * 5000 + 1 * r.val = t.val * 5000 + r.val; rw [e0]; omega
  | ⟨1, _⟩ => show win2_0.index t (1 : Fin 2) * 64 + 1 * k.val = k.val; rw [e1]; omega

/-- Row r of step t's block of operand 1 is row 5000·t + r of the array. -/
theorem blk2_1 (t : Fin cfg2.N) (r : Fin 5000) (k : Fin 64) (hr : t.val * 5000 + r.val < 50000) :
    iblk2 V c 1 t (ix2 r k) = self2 V c (ix2 ⟨t.val * 5000 + r.val, hr⟩ k) := by
  have e0 := (idx2 t).2.2.1
  have e1 := (idx2 t).2.2.2.1
  show V c (Pipeline.arrRef spec2 1) (((cfg2.win 1).blk t).view.emb (ix2 r k))
    = V c (Pipeline.arrRef spec2 1) (ix2 ⟨t.val * 5000 + r.val, hr⟩ k)
  refine congrArg (V c (Pipeline.arrRef spec2 1)) (funext fun a => Fin.ext ?_)
  match a with
  | ⟨0, _⟩ => show win2_1.index t (0 : Fin 2) * 5000 + 1 * r.val = t.val * 5000 + r.val; rw [e0]; omega
  | ⟨1, _⟩ => show win2_1.index t (1 : Fin 2) * 64 + 1 * k.val = k.val; rw [e1]; omega

/-- Step t's block of operand 2 is the whole array. -/
theorem blk2_2 (t : Fin cfg2.N) (p : Fin 64) (k : Fin 64) :
    iblk2 V c 2 t (ix2 p k) = wl2 V c (ix2 p k) := by
  have e0 := (whole2 t).1
  have e1 := (whole2 t).2.1
  show V c (Pipeline.arrRef spec2 2) (((cfg2.win 2).blk t).view.emb (ix2 p k))
    = V c (Pipeline.arrRef spec2 2) (ix2 p k)
  refine congrArg (V c (Pipeline.arrRef spec2 2)) (funext fun a => Fin.ext ?_)
  match a with
  | ⟨0, _⟩ => show win2_2.index t (0 : Fin 2) * 64 + 1 * p.val = p.val; rw [e0]; omega
  | ⟨1, _⟩ => show win2_2.index t (1 : Fin 2) * 64 + 1 * k.val = k.val; rw [e1]; omega

/-- Step t's block of operand 3 is the whole array. -/
theorem blk2_3 (t : Fin cfg2.N) (p : Fin 64) (k : Fin 64) :
    iblk2 V c 3 t (ix2 p k) = wr2 V c (ix2 p k) := by
  have e0 := (whole2 t).2.2.1
  have e1 := (whole2 t).2.2.2.1
  show V c (Pipeline.arrRef spec2 3) (((cfg2.win 3).blk t).view.emb (ix2 p k))
    = V c (Pipeline.arrRef spec2 3) (ix2 p k)
  refine congrArg (V c (Pipeline.arrRef spec2 3)) (funext fun a => Fin.ext ?_)
  match a with
  | ⟨0, _⟩ => show win2_3.index t (0 : Fin 2) * 64 + 1 * p.val = p.val; rw [e0]; omega
  | ⟨1, _⟩ => show win2_3.index t (1 : Fin 2) * 64 + 1 * k.val = k.val; rw [e1]; omega

/-- Step t's block of operand 4 is the whole array. -/
theorem blk2_4 (t : Fin cfg2.N) (p : Fin 1) (k : Fin 64) :
    iblk2 V c 4 t (ix2 p k) = bias2 V c (ix2 p k) := by
  have e0 := (whole2 t).2.2.2.2.1
  have e1 := (whole2 t).2.2.2.2.2.1
  show V c (Pipeline.arrRef spec2 4) (((cfg2.win 4).blk t).view.emb (ix2 p k))
    = V c (Pipeline.arrRef spec2 4) (ix2 p k)
  refine congrArg (V c (Pipeline.arrRef spec2 4)) (funext fun a => Fin.ext ?_)
  match a with
  | ⟨0, _⟩ => show win2_4.index t (0 : Fin 2) * 1 + 1 * p.val = p.val; rw [e0]; omega
  | ⟨1, _⟩ => show win2_4.index t (1 : Fin 2) * 64 + 1 * k.val = k.val; rw [e1]; omega

/-- The block of pre-activations step t computes is block t of the whole arrays' pre-activations. -/
theorem hblk2 (t : Fin cfg2.N) (j : S5000x64.Idx) (hr : t.val * 5000 + (j 0).val < 50000) :
    (k2_pay4 (F := Ideal) (iblk2 V c 0 t) (iblk2 V c 2 t) (iblk2 V c 4 t) (iblk2 V c 1 t) (iblk2 V c 3 t)) j = hpre2 V c (ix2 ⟨t.val * 5000 + (j 0).val, hr⟩ (j 1)) := by
  obtain ⟨r, q, rfl⟩ : ∃ (r : Fin 5000) (q : Fin 64), j = ix2 r q := ⟨j 0, j 1, eq_ix2 j⟩
  exact (pay2_lin (iblk2 V c 0 t) (iblk2 V c 1 t) (iblk2 V c 2 t) (iblk2 V c 3 t) (iblk2 V c 4 t) r q).trans
    (lin_congr (R := 5000) (R' := 50000) (K := 64) (N := 64) (iblk2 V c 0 t) (iblk2 V c 1 t) (agg2 V c) (self2 V c)
      (iblk2 V c 2 t) (iblk2 V c 3 t) (wl2 V c) (wr2 V c) (iblk2 V c 4 t) (bias2 V c) r ⟨t.val * 5000 + r.val, hr⟩ q
      (fun k => blk2_0 V c t r k hr) (fun k => blk2_1 V c t r k hr) (fun k => blk2_2 V c t q k) (fun k => blk2_3 V c t q k)
      (blk2_4 V c t 0 q))

/-- What the three result blocks hold after a step that starts a run, -/
theorem outs2_A (t : Fin cfg2.N) (h0 : t.val % 10 = 0) :
    outsAt2 V c t.val t.isLt
      = (k2_pay4 (F := Ideal) (iblk2 V c 0 t) (iblk2 V c 2 t) (iblk2 V c 4 t) (iblk2 V c 1 t) (iblk2 V c 3 t), k2_pay5 (F := Ideal) (iblk2 V c 0 t) (iblk2 V c 2 t) (iblk2 V c 4 t) (iblk2 V c 1 t) (iblk2 V c 3 t) (k2_pay2 (F := Ideal)), k2_pay1 (k2_pay6 (F := Ideal) (k2_pay3 (F := Ideal))) (k2_pay7 (F := Ideal) (iblk2 V c 0 t) (iblk2 V c 2 t) (iblk2 V c 4 t) (iblk2 V c 1 t) (iblk2 V c 3 t))) :=
  (outsAt2_A V c t h0).trans (congrArg₂ Prod.mk (out2_A_5_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) ((hcond2_0 t).mpr h0) (iblk2 V c 0 t) (iblk2 V c 1 t) (iblk2 V c 2 t) (iblk2 V c 3 t) (iblk2 V c 4 t))
    (congrArg₂ Prod.mk (out2_A_6_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) ((hcond2_0 t).mpr h0) (iblk2 V c 0 t) (iblk2 V c 1 t) (iblk2 V c 2 t) (iblk2 V c 3 t) (iblk2 V c 4 t))
      (out2_A_7_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) ((hcond2_0 t).mpr h0) (iblk2 V c 0 t) (iblk2 V c 1 t) (iblk2 V c 2 t) (iblk2 V c 3 t) (iblk2 V c 4 t))))

/-- and after any later step, over what the step before left in the running rows. -/
theorem outs2_B (t : Fin cfg2.N) (h0 : ¬t.val % 10 = 0) :
    outsAt2 V c t.val t.isLt
      = (k2_pay4 (F := Ideal) (iblk2 V c 0 t) (iblk2 V c 2 t) (iblk2 V c 4 t) (iblk2 V c 1 t) (iblk2 V c 3 t), k2_pay5 (F := Ideal) (iblk2 V c 0 t) (iblk2 V c 2 t) (iblk2 V c 4 t) (iblk2 V c 1 t) (iblk2 V c 3 t) (outsAt2 V c (t.val - 1) (Nat.lt_of_le_of_lt (Nat.sub_le _ _) t.isLt)).2.1, k2_pay1 (k2_pay6 (F := Ideal) (outsAt2 V c (t.val - 1) (Nat.lt_of_le_of_lt (Nat.sub_le _ _) t.isLt)).2.2) (k2_pay7 (F := Ideal) (iblk2 V c 0 t) (iblk2 V c 2 t) (iblk2 V c 4 t) (iblk2 V c 1 t) (iblk2 V c 3 t))) :=
  (outsAt2_B V c t h0).trans (congrArg₂ Prod.mk (out2_B_5_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (fun h => h0 ((hcond2_0 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2)
    (congrArg₂ Prod.mk (out2_B_6_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (fun h => h0 ((hcond2_0 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2)
      (out2_B_7_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (fun h => h0 ((hcond2_0 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2)))

/-- The column sums of step t's block of pre-activations are block sum t of the whole arrays' column, -/
theorem colblk2 (t : Fin cfg2.N) (q : Fin 64) :
    ∑ r : Fin 5000, (k2_pay4 (F := Ideal) (iblk2 V c 0 t) (iblk2 V c 2 t) (iblk2 V c 4 t) (iblk2 V c 1 t) (iblk2 V c 3 t)) (ix2 r q) = blockSum 10 5000 (fun p : Fin 50000 => hpre2 V c (ix2 p q)) t.val := by
  have ht : t.val < 10 := lt_of_lt_of_eq t.isLt (show cfg2.N = 10 from N_2)
  rw [blockSum_of_lt 10 5000 _ ht]
  exact Finset.sum_congr rfl fun r _ =>
    hblk2 V c t (ix2 r q) (show t.val * 5000 + r.val < 50000 by have := r.isLt; omega)

/-- and likewise the column sums of its squares. -/
theorem colblksq2 (t : Fin cfg2.N) (q : Fin 64) :
    ∑ r : Fin 5000, (k2_pay4 (F := Ideal) (iblk2 V c 0 t) (iblk2 V c 2 t) (iblk2 V c 4 t) (iblk2 V c 1 t) (iblk2 V c 3 t)) (ix2 r q) * (k2_pay4 (F := Ideal) (iblk2 V c 0 t) (iblk2 V c 2 t) (iblk2 V c 4 t) (iblk2 V c 1 t) (iblk2 V c 3 t)) (ix2 r q)
      = blockSum 10 5000 (fun p : Fin 50000 => hpre2 V c (ix2 p q) * hpre2 V c (ix2 p q)) t.val := by
  have ht : t.val < 10 := lt_of_lt_of_eq t.isLt (show cfg2.N = 10 from N_2)
  rw [blockSum_of_lt 10 5000 _ ht]
  exact Finset.sum_congr rfl fun r _ =>
    congrArg₂ (· * ·) (hblk2 V c t (ix2 r q) (show t.val * 5000 + r.val < 50000 by have := r.isLt; omega))
      (hblk2 V c t (ix2 r q) (show t.val * 5000 + r.val < 50000 by have := r.isLt; omega))

/-- THE RUNNING ROWS: after step n they hold the sums, and the sums of squares, over the rows of blocks 0 … n. -/
theorem rows2 : ∀ (n : ℕ) (h : n < cfg2.N) (q : Fin 64),
    (outsAt2 V c n h).2.1 (ix2 0 q) = ∑ s ∈ Finset.range (n + 1), blockSum 10 5000 (fun p : Fin 50000 => hpre2 V c (ix2 p q)) s
    ∧ (outsAt2 V c n h).2.2 (ix2 0 q)
        = ∑ s ∈ Finset.range (n + 1), blockSum 10 5000 (fun p : Fin 50000 => hpre2 V c (ix2 p q) * hpre2 V c (ix2 p q)) s
  | 0, h, q => by
    have e : outsAt2 V c 0 h = _ := outs2_A V c ⟨0, h⟩ rfl
    rw [e]
    exact ⟨((pay2_sum (iblk2 V c 0 ⟨0, h⟩) (iblk2 V c 1 ⟨0, h⟩) (iblk2 V c 2 ⟨0, h⟩) (iblk2 V c 3 ⟨0, h⟩) (iblk2 V c 4 ⟨0, h⟩) (k2_pay2 (F := Ideal)) q).trans
        ((congrArg₂ (· + ·) (pay2_zero6 (ix2 0 q)) (colblk2 V c ⟨0, h⟩ q)).trans (zero_add _))).trans
          (Finset.sum_range_one _).symm,
      ((pay2_sumsq (iblk2 V c 0 ⟨0, h⟩) (iblk2 V c 1 ⟨0, h⟩) (iblk2 V c 2 ⟨0, h⟩) (iblk2 V c 3 ⟨0, h⟩) (iblk2 V c 4 ⟨0, h⟩) (k2_pay3 (F := Ideal)) q).trans
        ((congrArg₂ (· + ·) (pay2_zero7 (ix2 0 q)) (colblksq2 V c ⟨0, h⟩ q)).trans (zero_add _))).trans
          (Finset.sum_range_one _).symm⟩
  | n + 1, h, q => by
    have hN : cfg2.N = 10 := N_2
    have hB : ¬(⟨n + 1, h⟩ : Fin cfg2.N).val % 10 = 0 := by dsimp only; omega
    have e : outsAt2 V c (n + 1) h = _ := outs2_B V c ⟨n + 1, h⟩ hB
    obtain ⟨ih6, ih7⟩ := rows2 n (Nat.lt_of_succ_lt h) q
    rw [e]
    exact ⟨((pay2_sum (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (outsAt2 V c n (Nat.lt_of_succ_lt h)).2.1 q).trans
        (congrArg₂ (· + ·) ih6 (colblk2 V c ⟨n + 1, h⟩ q))).trans (Finset.sum_range_succ _ (n + 1)).symm,
      ((pay2_sumsq (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (outsAt2 V c n (Nat.lt_of_succ_lt h)).2.2 q).trans
        (congrArg₂ (· + ·) ih7 (colblksq2 V c ⟨n + 1, h⟩ q))).trans (Finset.sum_range_succ _ (n + 1)).symm⟩

/-- The block of pre-activations after every step, whichever case the step is. -/
theorem first2 (t : Fin cfg2.N) : (outsAt2 V c t.val t.isLt).1 = k2_pay4 (F := Ideal) (iblk2 V c 0 t) (iblk2 V c 2 t) (iblk2 V c 4 t) (iblk2 V c 1 t) (iblk2 V c 3 t) := by
  by_cases h0 : t.val % 10 = 0
  · exact congrArg Prod.fst (outs2_A V c t h0)
  · exact congrArg Prod.fst (outs2_B V c t h0)

/-! ### The pre-activations array: every step writes its block back -/

/-- An index of the array is in step t's block iff each coordinate is in the block's range. -/
theorem mem_blk2_5 (t : Fin cfg2.N) (i : S50000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v50_0).slice (win2_5.rect t)).set ↔ _
  rw [View.set_slice_whole, Rect.mem_set_unit]
  exact Iff.rfl

/-- What step t writes back is block t of the whole arrays' pre-activations. -/
theorem flushed2_5 (t : Fin cfg2.N) :
    (dat2 V c).flushed 5 t = ((cfg2.win 5).blk t).view.read (Elt Ideal) (hpre2 V c) := by
  show (cfg2.win 5).cut (grid2.coords t) ((dat2 V c).after 5 t) = _
  rw [after2_5, first2 V c t]
  have ht : t.val < 10 := lt_of_lt_of_eq t.isLt (show cfg2.N = 10 from N_2)
  have e0 := (idx2 t).2.2.2.2.1
  have e1 := (idx2 t).2.2.2.2.2
  funext y
  have hy0 : (y 0).val < 5000 := (y 0).isLt
  have hy1 : (y 1).val < 64 := (y 1).isLt
  have hr : t.val * 5000 + (y 0).val < 50000 := by omega
  show (k2_pay4 (F := Ideal) (iblk2 V c 0 t) (iblk2 V c 2 t) (iblk2 V c 4 t) (iblk2 V c 1 t) (iblk2 V c 3 t)) ((cfg2.win 5).xinj (grid2.coords t) y) = hpre2 V c (((cfg2.win 5).blk t).view.emb y)
  refine (hblk2 V c t ((cfg2.win 5).xinj (grid2.coords t) y) hr).trans (congrArg (hpre2 V c) (funext fun a => Fin.ext ?_))
  match a with
  | ⟨0, _⟩ => show t.val * 5000 + (y 0).val = win2_5.index t (0 : Fin 2) * 5000 + 1 * (y 0).val; rw [e0]; omega
  | ⟨1, _⟩ => show (y 1).val = win2_5.index t (1 : Fin 2) * 64 + 1 * (y 1).val; rw [e1]; omega

/-- Row r of the array is in block r / 5000. -/
theorem cover2_5 (i : S50000x64.Idx) :
    ∃ t : Fin cfg2.N, (cfg2.win 5).flush t = true ∧ i ∈ ((cfg2.win 5).blk t).view.set := by
  have hi0 : (i 0).val < 50000 := (i 0).isLt
  have hi1 : (i 1).val < 64 := (i 1).isLt
  have hN : cfg2.N = 10 := N_2
  have hq : (i 0).val / 5000 < cfg2.N := by omega
  have e0 : win2_5.index ⟨(i 0).val / 5000, hq⟩ (0 : Fin 2) = (i 0).val / 5000 := (idx2 ⟨(i 0).val / 5000, hq⟩).2.2.2.2.1
  have e1 := (idx2 ⟨(i 0).val / 5000, hq⟩).2.2.2.2.2
  refine ⟨⟨(i 0).val / 5000, hq⟩, flush2_5 _, ?_⟩
  rw [mem_blk2_5]
  intro a
  match a with
  | ⟨0, _⟩ => show win2_5.index ⟨(i 0).val / 5000, hq⟩ (0 : Fin 2) * 5000 ≤ (i 0).val ∧ (i 0).val < win2_5.index ⟨(i 0).val / 5000, hq⟩ (0 : Fin 2) * 5000 + 5000; rw [e0]; omega
  | ⟨1, _⟩ => show win2_5.index ⟨(i 0).val / 5000, hq⟩ (1 : Fin 2) * 64 ≤ (i 1).val ∧ (i 1).val < win2_5.index ⟨(i 0).val / 5000, hq⟩ (1 : Fin 2) * 64 + 64; rw [e1]; omega

/-! ### The two rows: written back once, after the last step -/

/-- The last step. -/
abbrev last2 : Fin cfg2.N := ⟨9, by rw [show cfg2.N = 10 from N_2]; decide⟩

theorem mem_blk2_6 (t : Fin cfg2.N) (i : S1x64.Idx) :
    i ∈ ((cfg2.win 6).blk t).view.set ↔ ∀ a : Fin 2, win2_6.index t a * S1x64.size a ≤ (i a).val ∧ (i a).val < win2_6.index t a * S1x64.size a + S1x64.size a := by
  show i ∈ ((View.whole main_v50_1).slice (win2_6.rect t)).set ↔ _
  rw [View.set_slice_whole, Rect.mem_set_unit]
  exact Iff.rfl

/-- After the last step this running row is the full column sums: ten block sums make the sum over all rows. -/
theorem row2_6 (hl : 9 < cfg2.N) :
    ((outsAt2 V c 9 hl).2.1 : Mat 1 64) = colSum (hpre2 V c) := by
  funext j
  obtain ⟨u, q, rfl⟩ : ∃ (u : Fin 1) (q : Fin 64), j = ix2 u q := ⟨j 0, j 1, eq_ix2 j⟩
  obtain rfl : u = 0 := Subsingleton.elim _ _
  exact ((rows2 V c 9 hl q).1.trans
    (sum_range_blockSum 10 5000 (fun p : Fin 50000 => hpre2 V c (ix2 p q)))).trans
      (Cert.Layer.colSum_apply (hpre2 V c) q).symm

/-- The one write-back of this row, after step 9, writes the full column sums (its block is the whole row). -/
theorem flushed2_6 (t : Fin cfg2.N) (hf : (cfg2.win 6).flush t = true) :
    (dat2 V c).flushed 6 t = ((cfg2.win 6).blk t).view.read (Elt Ideal) (colSum (hpre2 V c)) := by
  have hN : cfg2.N = 10 := N_2
  have h9 : t.val = 9 := by have := (flush2_6 t).mp hf; have := t.isLt; omega
  have hl : 9 < cfg2.N := by omega
  have eo : ∀ (n : ℕ) (hn : n < cfg2.N), n = 9 → outsAt2 V c n hn = outsAt2 V c 9 hl :=
    fun n hn e => by subst e; rfl
  show (cfg2.win 6).cut (grid2.coords t) ((dat2 V c).after 6 t) = _
  rw [after2_6, eo t.val t.isLt h9, row2_6 V c hl]
  have e0 := (whole2 t).2.2.2.2.2.2.1
  have e1 := (whole2 t).2.2.2.2.2.2.2.1
  have hz' : (fun a => win2_6.index t a * main_v50_1.ty.shape.size a) = fun _ => 0 := funext fun a => by
    fin_cases a
    · show win2_6.index t (0 : Fin 2) * 1 = 0; rw [e0]
    · show win2_6.index t (1 : Fin 2) * 64 = 0; rw [e1]
  generalize colSum (hpre2 V c) = G
  exact (Memref.read_access_unit_zero (Elt Ideal) main_v50_1 hz' (fun a => by rw [congrFun hz' a]; simp) G).symm

/-- The last step's block is the whole row. -/
theorem cover2_6 (i : S1x64.Idx) :
    ∃ t : Fin cfg2.N, (cfg2.win 6).flush t = true ∧ i ∈ ((cfg2.win 6).blk t).view.set := by
  have hi0 : (i 0).val < 1 := (i 0).isLt
  have hi1 : (i 1).val < 64 := (i 1).isLt
  have e0 := (whole2 last2).2.2.2.2.2.2.1
  have e1 := (whole2 last2).2.2.2.2.2.2.2.1
  refine ⟨last2, (flush2_6 last2).mpr rfl, ?_⟩
  rw [mem_blk2_6]
  intro a
  match a with
  | ⟨0, _⟩ => show win2_6.index last2 (0 : Fin 2) * 1 ≤ (i 0).val ∧ (i 0).val < win2_6.index last2 (0 : Fin 2) * 1 + 1; rw [e0]; omega
  | ⟨1, _⟩ => show win2_6.index last2 (1 : Fin 2) * 64 ≤ (i 1).val ∧ (i 1).val < win2_6.index last2 (1 : Fin 2) * 64 + 64; rw [e1]; omega

theorem mem_blk2_7 (t : Fin cfg2.N) (i : S1x64.Idx) :
    i ∈ ((cfg2.win 7).blk t).view.set ↔ ∀ a : Fin 2, win2_7.index t a * S1x64.size a ≤ (i a).val ∧ (i a).val < win2_7.index t a * S1x64.size a + S1x64.size a := by
  show i ∈ ((View.whole main_v50_2).slice (win2_7.rect t)).set ↔ _
  rw [View.set_slice_whole, Rect.mem_set_unit]
  exact Iff.rfl

/-- After the last step this running row is the full column sums: ten block sums make the sum over all rows. -/
theorem row2_7 (hl : 9 < cfg2.N) :
    ((outsAt2 V c 9 hl).2.2 : Mat 1 64) = colSumSq (hpre2 V c) := by
  funext j
  obtain ⟨u, q, rfl⟩ : ∃ (u : Fin 1) (q : Fin 64), j = ix2 u q := ⟨j 0, j 1, eq_ix2 j⟩
  obtain rfl : u = 0 := Subsingleton.elim _ _
  exact ((rows2 V c 9 hl q).2.trans
    (sum_range_blockSum 10 5000 (fun p : Fin 50000 => hpre2 V c (ix2 p q) * hpre2 V c (ix2 p q)))).trans
      (Cert.Layer.colSumSq_apply (hpre2 V c) q).symm

/-- The one write-back of this row, after step 9, writes the full column sums (its block is the whole row). -/
theorem flushed2_7 (t : Fin cfg2.N) (hf : (cfg2.win 7).flush t = true) :
    (dat2 V c).flushed 7 t = ((cfg2.win 7).blk t).view.read (Elt Ideal) (colSumSq (hpre2 V c)) := by
  have hN : cfg2.N = 10 := N_2
  have h9 : t.val = 9 := by have := (flush2_7 t).mp hf; have := t.isLt; omega
  have hl : 9 < cfg2.N := by omega
  have eo : ∀ (n : ℕ) (hn : n < cfg2.N), n = 9 → outsAt2 V c n hn = outsAt2 V c 9 hl :=
    fun n hn e => by subst e; rfl
  show (cfg2.win 7).cut (grid2.coords t) ((dat2 V c).after 7 t) = _
  rw [after2_7, eo t.val t.isLt h9, row2_7 V c hl]
  have e0 := (whole2 t).2.2.2.2.2.2.2.2.1
  have e1 := (whole2 t).2.2.2.2.2.2.2.2.2
  have hz' : (fun a => win2_7.index t a * main_v50_2.ty.shape.size a) = fun _ => 0 := funext fun a => by
    fin_cases a
    · show win2_7.index t (0 : Fin 2) * 1 = 0; rw [e0]
    · show win2_7.index t (1 : Fin 2) * 64 = 0; rw [e1]
  generalize colSumSq (hpre2 V c) = G
  exact (Memref.read_access_unit_zero (Elt Ideal) main_v50_2 hz' (fun a => by rw [congrFun hz' a]; simp) G).symm

/-- The last step's block is the whole row. -/
theorem cover2_7 (i : S1x64.Idx) :
    ∃ t : Fin cfg2.N, (cfg2.win 7).flush t = true ∧ i ∈ ((cfg2.win 7).blk t).view.set := by
  have hi0 : (i 0).val < 1 := (i 0).isLt
  have hi1 : (i 1).val < 64 := (i 1).isLt
  have e0 := (whole2 last2).2.2.2.2.2.2.2.2.1
  have e1 := (whole2 last2).2.2.2.2.2.2.2.2.2
  refine ⟨last2, (flush2_7 last2).mpr rfl, ?_⟩
  rw [mem_blk2_7]
  intro a
  match a with
  | ⟨0, _⟩ => show win2_7.index last2 (0 : Fin 2) * 1 ≤ (i 0).val ∧ (i 0).val < win2_7.index last2 (0 : Fin 2) * 1 + 1; rw [e0]; omega
  | ⟨1, _⟩ => show win2_7.index last2 (1 : Fin 2) * 64 ≤ (i 1).val ∧ (i 1).val < win2_7.index last2 (1 : Fin 2) * 64 + 64; rw [e1]; omega

end Region2

/-- The pre-activations array after the stage: the dense step of the arrays the stage found. -/
theorem final2_5 (V : (c : Dev nD) → (b : Ref sig .tc) → Buf (Elt Ideal) ((c : Thread nD τ).loc b)) (c : Dev nD) :
    (Gen.dat2 (F := Ideal) V c).arrAt 5 cfg2.N
      = Cert.Layer.lin (V c (Pipeline.arrRef spec2 0)) (V c (Pipeline.arrRef spec2 1)) (V c (Pipeline.arrRef spec2 2)) (V c (Pipeline.arrRef spec2 3)) (V c (Pipeline.arrRef spec2 4)) :=
  (dat2 V c).arrAt_eq_of_cover 5 (hpre2 V c) (fun t _ => flushed2_5 V c t) cover2_5

/-- The row of sums after the stage: the column sums of that dense step. -/
theorem final2_6 (V : (c : Dev nD) → (b : Ref sig .tc) → Buf (Elt Ideal) ((c : Thread nD τ).loc b)) (c : Dev nD) :
    (Gen.dat2 (F := Ideal) V c).arrAt 6 cfg2.N
      = Cert.Layer.colSum (Cert.Layer.lin (V c (Pipeline.arrRef spec2 0)) (V c (Pipeline.arrRef spec2 1)) (V c (Pipeline.arrRef spec2 2)) (V c (Pipeline.arrRef spec2 3)) (V c (Pipeline.arrRef spec2 4))) :=
  (dat2 V c).arrAt_eq_of_cover 6 (colSum (hpre2 V c)) (flushed2_6 V c) cover2_6

/-- The row of sums of squares after the stage: the column sums of squares of that dense step. -/
theorem final2_7 (V : (c : Dev nD) → (b : Ref sig .tc) → Buf (Elt Ideal) ((c : Thread nD τ).loc b)) (c : Dev nD) :
    (Gen.dat2 (F := Ideal) V c).arrAt 7 cfg2.N
      = Cert.Layer.colSumSq (Cert.Layer.lin (V c (Pipeline.arrRef spec2 0)) (V c (Pipeline.arrRef spec2 1)) (V c (Pipeline.arrRef spec2 2)) (V c (Pipeline.arrRef spec2 3)) (V c (Pipeline.arrRef spec2 4))) :=
  (dat2 V c).arrAt_eq_of_cover 7 (colSumSq (hpre2 V c)) (flushed2_7 V c) cover2_7

end Cert.KernelIdeal.RegionValue

end
-- ==== Proof.RegionA3.lean ====
/-
  The normalising step of one layer, read off the pipeline's write-backs.

  The pipeline walks ten row blocks of 5000 rows.  At block t the body holds rows 5000·t … 5000·t + 4999 of the
  pre-activation array and the four per-column rows (mean, variance, gain, offset), and stores, at row p and column q of
  the block, tanh(((h − mean q)·rsqrt(var q + eps))·gain q + offset q) with h the pre-activation at row 5000·t + p.  That
  is block t of ONE function of the whole arrays, the blocks tile the 50000 rows, and every block is written back: so the
  output array ends holding that function.
-/
import proofs.«147565_j9259949490665_1_alg».proof.Proof.Gen.KernelIdeal.Frame
import proofs.«147565_j9259949490665_1_alg».proof.Proof.Spec
import Idealize.ShloMosaic.Lib.Pipeline.Value
import Idealize.ShloMosaic.Lib.ValueLayout

set_option maxRecDepth 16384

noncomputable section

namespace Cert.KernelIdeal.RegionValue

open Idealize.ShloMosaic Idealize.ShloMosaic.TcCoe Idealize.ShloMosaic.ValueIdx
open Idealize.ShloMosaic.Pipeline (Dat)

/-- The zero offsets of an access to a whole buffer. -/
theorem zero_off3 : (![0, 0] : Fin 2 → Nat) = fun _ => 0 := funext fun a => by fin_cases a <;> rfl

/-- Two functions of a 5000×64 block agree when they agree at every row and column. -/
theorem ext_block3 {α : Type} (f g : S5000x64.Idx → α) (h : ∀ (p : Fin 5000) (q : Fin 64), f (ix2 p q) = g (ix2 p q)) :
    f = g := funext fun j => by rw [eq_ix2 j]; exact h _ _

/-- The body's arithmetic at row p, column q of its block: the four rows are read at column q, the constant is the
    same binary word as the specification's. -/
theorem pay3_apply (x0 : Vec Ideal S5000x64 .f32) (x1 x2 x3 x4 : Vec Ideal S1x64 .f32) (p : Fin 5000) (q : Fin 64) :
    Gen.k3_pay1 (F := Ideal) x2 x0 x1 x3 x4 (ix2 p q)
      = Ideal.tanh ((((x0 (ix2 p q) - x1 (ix2 0 q)) * Ideal.rsqrt (x2 (ix2 0 q) + Cert.Layer.eps)) * x3 (ix2 0 q))
          + x4 (ix2 0 q)) := by
  unfold Gen.k3_pay1
  simp only [shapeCast_self]
  show Ideal.tanh ((((x0 (ix2 p q) - broadcastTo S5000x64 x1 _ (ix2 p q))
      * broadcastTo S5000x64 (rsqrt (F := Ideal) (addf (F := Ideal) x2 (broadcast S1x64 (Scalar.ofBits (F := Ideal) .f32 0x3727C5AC#32)))) _ (ix2 p q))
      * broadcastTo S5000x64 x3 _ (ix2 p q)) + broadcastTo S5000x64 x4 _ (ix2 p q)) = _
  simp only [broadcastTo_1b_ab_apply]
  rfl

/-- What the body leaves in the output block: its one store covers the block, and its loads read whole blocks, so the
    block holds the body's arithmetic of the five input blocks. -/
theorem out3_eq (x0 : Vec Ideal S5000x64 .f32) (x1 x2 x3 x4 : Vec Ideal S1x64 .f32) :
    Gen.out3_5 (F := Ideal) x0 x1 x2 x3 x4 = Gen.k3_pay1 x2 x0 x1 x3 x4 := by
  unfold Gen.out3_5
  rw [View.canon_unit_zero zero_off3]
  simp only [View.ld_unit_zero (S := S5000x64) zero_off3, View.ld_unit_zero (S := S1x64) zero_off3]

/-- When row p of the first block is row r of a whole array and the four rows are those of whole arrays, entry (p, q) of
    the output block is entry (r, q) of the normalising step of the whole arrays. -/
theorem block_val3 (x0 : Vec Ideal S5000x64 .f32) (x1 x2 x3 x4 : Vec Ideal S1x64 .f32)
    (A0 : Cert.Layer.Mat 50000 64) (A1 A2 A3 A4 : Cert.Layer.Mat 1 64) (p : Fin 5000) (q : Fin 64) (r : Fin 50000)
    (h0 : x0 (ix2 p q) = A0 (ix2 r q)) (h1 : x1 (ix2 0 q) = A1 (ix2 0 q)) (h2 : x2 (ix2 0 q) = A2 (ix2 0 q))
    (h3 : x3 (ix2 0 q) = A3 (ix2 0 q)) (h4 : x4 (ix2 0 q) = A4 (ix2 0 q)) :
    Gen.out3_5 (F := Ideal) x0 x1 x2 x3 x4 (ix2 p q) = Cert.Layer.bn A0 A1 A2 A3 A4 (ix2 r q) := by
  rw [out3_eq, pay3_apply, Cert.Layer.bn_apply, h0, h1, h2, h3, h4]

/-- The block index of every window at every point of the grid: the two row-blocked windows sit at block (t, 0), the
    four rows at block (0, 0). -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The grid has ten points. -/
theorem point_lt3 (t : Fin cfg3.N) : t.val < 10 := lt_of_lt_of_eq t.isLt Gen.N_3

/-- Row p, column q of the pre-activation block at point t sits at row 5000·t + p of the pre-activation array. -/
theorem emb3_0 (t : Fin cfg3.N) (p : Fin 5000) (q : Fin 64) (r : Fin 50000) (hr : r.val = t.val * 5000 + p.val) :
    (((cfg3.win 0).blk t).view.emb (ix2 p q : S5000x64.Idx) : S50000x64.Idx) = ix2 r q := by
  obtain ⟨e0, e1, -⟩ := idx_facts3 t
  refine funext fun a => Fin.ext ?_
  match a with
  | ⟨0, _⟩ => show win3_0.index t (0 : Fin 2) * 5000 + 1 * p.val = r.val; rw [e0, hr]; omega
  | ⟨1, _⟩ => show win3_0.index t (1 : Fin 2) * 64 + 1 * q.val = q.val; rw [e1]; omega

/-- Column q of per-column row 1's block at any point sits at column q of the row. -/
theorem emb3_1 (t : Fin cfg3.N) (q : Fin 64) :
    (((cfg3.win 1).blk t).view.emb (ix2 0 q : S1x64.Idx) : S1x64.Idx) = ix2 0 q := by
  obtain ⟨-, -, e0, e1, -⟩ := idx_facts3 t
  refine funext fun a => Fin.ext ?_
  match a with
  | ⟨0, _⟩ => show win3_1.index t (0 : Fin 2) * 1 + 1 * 0 = 0; rw [e0]
  | ⟨1, _⟩ => show win3_1.index t (1 : Fin 2) * 64 + 1 * q.val = q.val; rw [e1]; omega

/-- Column q of per-column row 2's block at any point sits at column q of the row. -/
theorem emb3_2 (t : Fin cfg3.N) (q : Fin 64) :
    (((cfg3.win 2).blk t).view.emb (ix2 0 q : S1x64.Idx) : S1x64.Idx) = ix2 0 q := by
  obtain ⟨-, -, -, -, e0, e1, -⟩ := idx_facts3 t
  refine funext fun a => Fin.ext ?_
  match a with
  | ⟨0, _⟩ => show win3_2.index t (0 : Fin 2) * 1 + 1 * 0 = 0; rw [e0]
  | ⟨1, _⟩ => show win3_2.index t (1 : Fin 2) * 64 + 1 * q.val = q.val; rw [e1]; omega

/-- Column q of per-column row 3's block at any point sits at column q of the row. -/
theorem emb3_3 (t : Fin cfg3.N) (q : Fin 64) :
    (((cfg3.win 3).blk t).view.emb (ix2 0 q : S1x64.Idx) : S1x64.Idx) = ix2 0 q := by
  obtain ⟨-, -, -, -, -, -, e0, e1, -⟩ := idx_facts3 t
  refine funext fun a => Fin.ext ?_
  match a with
  | ⟨0, _⟩ => show win3_3.index t (0 : Fin 2) * 1 + 1 * 0 = 0; rw [e0]
  | ⟨1, _⟩ => show win3_3.index t (1 : Fin 2) * 64 + 1 * q.val = q.val; rw [e1]; omega

/-- Column q of per-column row 4's block at any point sits at column q of the row. -/
theorem emb3_4 (t : Fin cfg3.N) (q : Fin 64) :
    (((cfg3.win 4).blk t).view.emb (ix2 0 q : S1x64.Idx) : S1x64.Idx) = ix2 0 q := by
  obtain ⟨-, -, -, -, -, -, -, -, e0, e1, -⟩ := idx_facts3 t
  refine funext fun a => Fin.ext ?_
  match a with
  | ⟨0, _⟩ => show win3_4.index t (0 : Fin 2) * 1 + 1 * 0 = 0; rw [e0]
  | ⟨1, _⟩ => show win3_4.index t (1 : Fin 2) * 64 + 1 * q.val = q.val; rw [e1]; omega

/-- Row p, column q of the output block at point t sits at row 5000·t + p of the output array. -/
theorem emb3_5 (t : Fin cfg3.N) (p : Fin 5000) (q : Fin 64) (r : Fin 50000) (hr : r.val = t.val * 5000 + p.val) :
    (((cfg3.win 5).blk t).view.emb (ix2 p q : S5000x64.Idx) : S50000x64.Idx) = ix2 r q := by
  obtain ⟨-, -, -, -, -, -, -, -, -, -, e0, e1⟩ := idx_facts3 t
  refine funext fun a => Fin.ext ?_
  match a with
  | ⟨0, _⟩ => show win3_5.index t (0 : Fin 2) * 5000 + 1 * p.val = r.val; rw [e0, hr]; omega
  | ⟨1, _⟩ => show win3_5.index t (1 : Fin 2) * 64 + 1 * q.val = q.val; rw [e1]; omega

section
variable (V : (c : Dev nD) → (b : Ref sig .tc) → Buf (Elt Ideal) ((c : Thread nD τ).loc b))

set_option maxHeartbeats 1000000 in
/-- Row p, column q of the pre-activation block at point t is row 5000·t + p of the pre-activation array. -/
theorem blk3_0_apply (c : Dev nD) (t : Fin cfg3.N) (p : Fin 5000) (q : Fin 64) (r : Fin 50000)
    (hr : r.val = t.val * 5000 + p.val) :
    (Gen.iblk3 (F := Ideal) V c 0 t : S5000x64.Idx → EReal) (ix2 p q)
      = (V c (Pipeline.arrRef spec3 0) : S50000x64.Idx → EReal) (ix2 r q) :=
  congrArg (V c (Pipeline.arrRef spec3 0) : S50000x64.Idx → EReal) (emb3_0 t p q r hr)

set_option maxHeartbeats 1000000 in
/-- The block of per-column row 1 at any point is the row itself. -/
theorem blk3_1_apply (c : Dev nD) (t : Fin cfg3.N) (q : Fin 64) :
    (Gen.iblk3 (F := Ideal) V c 1 t : S1x64.Idx → EReal) (ix2 0 q)
      = (V c (Pipeline.arrRef spec3 1) : S1x64.Idx → EReal) (ix2 0 q) :=
  congrArg (V c (Pipeline.arrRef spec3 1) : S1x64.Idx → EReal) (emb3_1 t q)

set_option maxHeartbeats 1000000 in
/-- The block of per-column row 2 at any point is the row itself. -/
theorem blk3_2_apply (c : Dev nD) (t : Fin cfg3.N) (q : Fin 64) :
    (Gen.iblk3 (F := Ideal) V c 2 t : S1x64.Idx → EReal) (ix2 0 q)
      = (V c (Pipeline.arrRef spec3 2) : S1x64.Idx → EReal) (ix2 0 q) :=
  congrArg (V c (Pipeline.arrRef spec3 2) : S1x64.Idx → EReal) (emb3_2 t q)

set_option maxHeartbeats 1000000 in
/-- The block of per-column row 3 at any point is the row itself. -/
theorem blk3_3_apply (c : Dev nD) (t : Fin cfg3.N) (q : Fin 64) :
    (Gen.iblk3 (F := Ideal) V c 3 t : S1x64.Idx → EReal) (ix2 0 q)
      = (V c (Pipeline.arrRef spec3 3) : S1x64.Idx → EReal) (ix2 0 q) :=
  congrArg (V c (Pipeline.arrRef spec3 3) : S1x64.Idx → EReal) (emb3_3 t q)

set_option maxHeartbeats 1000000 in
/-- The block of per-column row 4 at any point is the row itself. -/
theorem blk3_4_apply (c : Dev nD) (t : Fin cfg3.N) (q : Fin 64) :
    (Gen.iblk3 (F := Ideal) V c 4 t : S1x64.Idx → EReal) (ix2 0 q)
      = (V c (Pipeline.arrRef spec3 4) : S1x64.Idx → EReal) (ix2 0 q) :=
  congrArg (V c (Pipeline.arrRef spec3 4) : S1x64.Idx → EReal) (emb3_4 t q)

set_option maxHeartbeats 1000000 in
/-- What point t writes back is block t of the normalising step of the whole arrays. -/
theorem flushed3_5_eq (c : Dev nD) (t : Fin cfg3.N) :
    (Gen.dat3 (F := Ideal) V c).flushed 5 t
      = ((cfg3.win 5).blk t).view.read (Elt Ideal)
          (Cert.Layer.bn (V c (Pipeline.arrRef spec3 0)) (V c (Pipeline.arrRef spec3 1)) (V c (Pipeline.arrRef spec3 2))
            (V c (Pipeline.arrRef spec3 3)) (V c (Pipeline.arrRef spec3 4))) := by
  show (cfg3.win 5).cut (grid3.coords t) ((Gen.dat3 V c).after 5 t) = _
  rw [Gen.after3_5]
  refine ext_block3 _ _ fun p q => ?_
  have hp : p.val < 5000 := p.isLt
  have ht : t.val < 10 := point_lt3 t
  have hr : t.val * 5000 + p.val < 50000 := by omega
  exact (block_val3 (Gen.iblk3 V c 0 t) (Gen.iblk3 V c 1 t) (Gen.iblk3 V c 2 t) (Gen.iblk3 V c 3 t)
      (Gen.iblk3 V c 4 t) (V c (Pipeline.arrRef spec3 0)) (V c (Pipeline.arrRef spec3 1))
      (V c (Pipeline.arrRef spec3 2)) (V c (Pipeline.arrRef spec3 3)) (V c (Pipeline.arrRef spec3 4))
      p q ⟨t.val * 5000 + p.val, hr⟩ (blk3_0_apply V c t p q _ rfl) (blk3_1_apply V c t q) (blk3_2_apply V c t q)
      (blk3_3_apply V c t q) (blk3_4_apply V c t q)).trans
    (congrArg (Cert.Layer.bn (V c (Pipeline.arrRef spec3 0)) (V c (Pipeline.arrRef spec3 1))
      (V c (Pipeline.arrRef spec3 2)) (V c (Pipeline.arrRef spec3 3)) (V c (Pipeline.arrRef spec3 4)))
      (emb3_5 t p q ⟨t.val * 5000 + p.val, hr⟩ rfl).symm)

/-- An index of the output array lies in point t's block iff each coordinate lies in the block's range on its axis. -/
theorem mem_blk3_5 (t : Fin cfg3.N) (i : S50000x64.Idx) :
    i ∈ ((cfg3.win 5).blk t).view.set
      ↔ ∀ a : Fin 2, win3_5.index t a * S5000x64.size a ≤ (i a).val
          ∧ (i a).val < win3_5.index t a * S5000x64.size a + S5000x64.size a := by
  show i ∈ ((View.whole main_v59).slice (win3_5.rect t)).set ↔ _
  rw [View.set_slice_whole, Rect.mem_set_unit]
  exact Iff.rfl

/-- Every row of the output array lies in a block that is written back: row r in the block of point r / 5000. -/
theorem cover3_5 (i : S50000x64.Idx) :
    ∃ t : Fin cfg3.N, (cfg3.win 5).flush t = true ∧ i ∈ ((cfg3.win 5).blk t).view.set := by
  have hi0 : (i 0).val < 50000 := (i 0).isLt
  have hi1 : (i 1).val < 64 := (i 1).isLt
  have hN : (i 0).val / 5000 < cfg3.N := lt_of_lt_of_eq (by omega : (i 0).val / 5000 < 10) Gen.N_3.symm
  refine ⟨⟨(i 0).val / 5000, hN⟩, Gen.flush3_5 _, ?_⟩
  obtain ⟨-, -, -, -, -, -, -, -, -, -, e0, e1⟩ := idx_facts3 ⟨(i 0).val / 5000, hN⟩
  rw [mem_blk3_5]
  intro a
  match a with
  | ⟨0, _⟩ =>
    show win3_5.index ⟨(i 0).val / 5000, hN⟩ (0 : Fin 2) * 5000 ≤ (i 0).val
      ∧ (i 0).val < win3_5.index ⟨(i 0).val / 5000, hN⟩ (0 : Fin 2) * 5000 + 5000
    rw [e0]; show (i 0).val / 5000 * 5000 ≤ (i 0).val ∧ (i 0).val < (i 0).val / 5000 * 5000 + 5000; omega
  | ⟨1, _⟩ =>
    show win3_5.index ⟨(i 0).val / 5000, hN⟩ (1 : Fin 2) * 64 ≤ (i 1).val
      ∧ (i 1).val < win3_5.index ⟨(i 0).val / 5000, hN⟩ (1 : Fin 2) * 64 + 64
    rw [e1]; omega

set_option maxHeartbeats 1000000 in
/-- The output array after the region: the normalising step of the arrays the region found. -/
theorem final3_5 (c : Dev nD) :
    (Gen.dat3 (F := Ideal) V c).arrAt 5 cfg3.N
      = Cert.Layer.bn (V c (Pipeline.arrRef spec3 0)) (V c (Pipeline.arrRef spec3 1)) (V c (Pipeline.arrRef spec3 2))
          (V c (Pipeline.arrRef spec3 3)) (V c (Pipeline.arrRef spec3 4)) :=
  (Gen.dat3 V c).arrAt_eq_of_cover 5 _ (fun t _ => flushed3_5_eq V c t) cover3_5

end

end Cert.KernelIdeal.RegionValue

end
-- ==== Proof.KLayer1.lean ====
/-
  Layer 1 of the kernel program, from the buffer contents before its first host operation to its output array: the
  dense step and its two column-sum rows (launch 2), the mean and variance rows, and the normalising step (launch 3).
-/
import proofs.«147565_j9259949490665_1_alg».proof.Proof.KHostA1
import proofs.«147565_j9259949490665_1_alg».proof.Proof.KHostB1
import proofs.«147565_j9259949490665_1_alg».proof.Proof.RegionR2
import proofs.«147565_j9259949490665_1_alg».proof.Proof.RegionA3

set_option maxRecDepth 16384

noncomputable section

namespace Cert.KernelIdeal.Fold

open Idealize.ShloMosaic Idealize.ShloMosaic.TcCoe Idealize.SL.Sem Idealize.ShloMosaic.ValueIdx
open Cert.KernelIdeal Cert.KernelIdeal.Gen Cert.KernelIdeal.HostFn Cert.Layer

variable (m : (ℓ : Loc nD τ sig) → Buf (Elt Ideal) ℓ) (ρ : Dev nD → PrngReg)

set_option maxHeartbeats 1000000 in
/-- Launch 2's three result arrays at its exit. -/
theorem W6_ro0 (c : Dev nD) : W6 m ρ c (Proc.devRef .tc main_v50_0) = (lin (W5 m ρ c (Proc.devRef .tc main_v48)) (W5 m ρ c (Proc.devRef .tc main_v28)) (W5 m ρ c (Proc.devRef .tc main_v30)) (W5 m ρ c (Proc.devRef .tc main_v32)) (W5 m ρ c (Proc.devRef .tc main_v49))) :=
  (W6_arr m ρ c 5).trans (Cert.KernelIdeal.RegionValue.final2_5 (V5 m ρ) c)
set_option maxHeartbeats 1000000 in
theorem W6_ro1 (c : Dev nD) : W6 m ρ c (Proc.devRef .tc main_v50_1) = colSum (lin (W5 m ρ c (Proc.devRef .tc main_v48)) (W5 m ρ c (Proc.devRef .tc main_v28)) (W5 m ρ c (Proc.devRef .tc main_v30)) (W5 m ρ c (Proc.devRef .tc main_v32)) (W5 m ρ c (Proc.devRef .tc main_v49))) :=
  (W6_arr m ρ c 6).trans (Cert.KernelIdeal.RegionValue.final2_6 (V5 m ρ) c)
set_option maxHeartbeats 1000000 in
theorem W6_ro2 (c : Dev nD) : W6 m ρ c (Proc.devRef .tc main_v50_2) = colSumSq (lin (W5 m ρ c (Proc.devRef .tc main_v48)) (W5 m ρ c (Proc.devRef .tc main_v28)) (W5 m ρ c (Proc.devRef .tc main_v30)) (W5 m ρ c (Proc.devRef .tc main_v32)) (W5 m ρ c (Proc.devRef .tc main_v49))) :=
  (W6_arr m ρ c 7).trans (Cert.KernelIdeal.RegionValue.final2_7 (V5 m ρ) c)
theorem W6_gv (c : Dev nD) : W6 m ρ c (Proc.devRef .tc main_v36) = W5 m ρ c (Proc.devRef .tc main_v36) := W6_of_ne m ρ c main_v36 (by decide)
theorem W6_bev (c : Dev nD) : W6 m ρ c (Proc.devRef .tc main_v38) = W5 m ρ c (Proc.devRef .tc main_v38) := W6_of_ne m ρ c main_v38 (by decide)

set_option maxHeartbeats 1000000 in
/-- Launch 3's result array at its exit. -/
theorem W8_out (c : Dev nD) : W8 m ρ c (Proc.devRef .tc main_v59) = bn (W7 m ρ c (Proc.devRef .tc main_v50_0)) (W7 m ρ c (Proc.devRef .tc main_v52)) (W7 m ρ c (Proc.devRef .tc main_v56)) (W7 m ρ c (Proc.devRef .tc main_v57)) (W7 m ρ c (Proc.devRef .tc main_v58)) :=
  (W8_arr m ρ c 5).trans (Cert.KernelIdeal.RegionValue.final3_5 (V7 m ρ) c)

set_option maxHeartbeats 2000000 in
/-- The layer: its output array is the normalising step, with the array's own mean and variance, of the dense step of the
    aggregated and the plain input. -/
theorem layer1 (c : Dev nD) : W8 m ρ c (Proc.devRef .tc main_v59)
    = bnStep (lin (agg64 (W4 m ρ c (Proc.devRef .tc main_v1)) (W4 m ρ c (Proc.devRef .tc main_v3)) (W4 m ρ c (Proc.devRef .tc main_v28))) (W4 m ρ c (Proc.devRef .tc main_v28)) (matSlice ![0, 0, 0] slices_S7x64x64_S1x64x64_0_0_0 (W4 m ρ c (Proc.devRef .tc main_arg5))) (matSlice ![0, 0, 0] slices_S7x64x64_S1x64x64_0_0_0 (W4 m ρ c (Proc.devRef .tc main_arg6))) (Cert.Row.rowOf (vecSlice7 ![0, 0] slices_S7x64_S1x64_0_0 (W4 m ρ c (Proc.devRef .tc main_arg7))))) (Cert.Row.rowOf (vecSlice8 ![1, 0] slices_S8x64_S1x64_1_0 (W4 m ρ c (Proc.devRef .tc main_arg8)))) (Cert.Row.rowOf (vecSlice8 ![1, 0] slices_S8x64_S1x64_1_0 (W4 m ρ c (Proc.devRef .tc main_arg9)))) := by
  rw [W8_out, W7_hpre, W7_mean, W7_var, W7_grow, W7_berow, W6_ro0, W6_ro1, W6_ro2,
    W6_gv, W6_bev, W5_agg, W5_hp, W5_wl, W5_wr, W5_brow, W5_gv, W5_bev]
  rw [bcast1_row, bcast1_row, bcast1_row, meanRow_eq, varRow_eq]
  rfl

theorem keepL1_v1 (c : Dev nD) : W8 m ρ c (Proc.devRef .tc main_v1) = W4 m ρ c (Proc.devRef .tc main_v1) :=
  (W8_of_ne m ρ c main_v1 (by decide)).trans ((keepH3 m ρ c main_v1 (by decide)).trans ((W6_of_ne m ρ c main_v1 (by decide)).trans (keepH2 m ρ c main_v1 (by decide))))
theorem keepL1_v3 (c : Dev nD) : W8 m ρ c (Proc.devRef .tc main_v3) = W4 m ρ c (Proc.devRef .tc main_v3) :=
  (W8_of_ne m ρ c main_v3 (by decide)).trans ((keepH3 m ρ c main_v3 (by decide)).trans ((W6_of_ne m ρ c main_v3 (by decide)).trans (keepH2 m ρ c main_v3 (by decide))))
theorem keepL1_arg5 (c : Dev nD) : W8 m ρ c (Proc.devRef .tc main_arg5) = W4 m ρ c (Proc.devRef .tc main_arg5) :=
  (W8_of_ne m ρ c main_arg5 (by decide)).trans ((keepH3 m ρ c main_arg5 (by decide)).trans ((W6_of_ne m ρ c main_arg5 (by decide)).trans (keepH2 m ρ c main_arg5 (by decide))))
theorem keepL1_arg6 (c : Dev nD) : W8 m ρ c (Proc.devRef .tc main_arg6) = W4 m ρ c (Proc.devRef .tc main_arg6) :=
  (W8_of_ne m ρ c main_arg6 (by decide)).trans ((keepH3 m ρ c main_arg6 (by decide)).trans ((W6_of_ne m ρ c main_arg6 (by decide)).trans (keepH2 m ρ c main_arg6 (by decide))))
theorem keepL1_arg7 (c : Dev nD) : W8 m ρ c (Proc.devRef .tc main_arg7) = W4 m ρ c (Proc.devRef .tc main_arg7) :=
  (W8_of_ne m ρ c main_arg7 (by decide)).trans ((keepH3 m ρ c main_arg7 (by decide)).trans ((W6_of_ne m ρ c main_arg7 (by decide)).trans (keepH2 m ρ c main_arg7 (by decide))))
theorem keepL1_arg8 (c : Dev nD) : W8 m ρ c (Proc.devRef .tc main_arg8) = W4 m ρ c (Proc.devRef .tc main_arg8) :=
  (W8_of_ne m ρ c main_arg8 (by decide)).trans ((keepH3 m ρ c main_arg8 (by decide)).trans ((W6_of_ne m ρ c main_arg8 (by decide)).trans (keepH2 m ρ c main_arg8 (by decide))))
theorem keepL1_arg9 (c : Dev nD) : W8 m ρ c (Proc.devRef .tc main_arg9) = W4 m ρ c (Proc.devRef .tc main_arg9) :=
  (W8_of_ne m ρ c main_arg9 (by decide)).trans ((keepH3 m ρ c main_arg9 (by decide)).trans ((W6_of_ne m ρ c main_arg9 (by decide)).trans (keepH2 m ρ c main_arg9 (by decide))))
theorem keepL1_arg10 (c : Dev nD) : W8 m ρ c (Proc.devRef .tc main_arg10) = W4 m ρ c (Proc.devRef .tc main_arg10) :=
  (W8_of_ne m ρ c main_arg10 (by decide)).trans ((keepH3 m ρ c main_arg10 (by decide)).trans ((W6_of_ne m ρ c main_arg10 (by decide)).trans (keepH2 m ρ c main_arg10 (by decide))))
theorem keepL1_arg11 (c : Dev nD) : W8 m ρ c (Proc.devRef .tc main_arg11) = W4 m ρ c (Proc.devRef .tc main_arg11) :=
  (W8_of_ne m ρ c main_arg11 (by decide)).trans ((keepH3 m ρ c main_arg11 (by decide)).trans ((W6_of_ne m ρ c main_arg11 (by decide)).trans (keepH2 m ρ c main_arg11 (by decide))))

end Cert.KernelIdeal.Fold

end
-- ==== Proof.KHostA2.lean ====
/-
  The host operations before launch 4: which buffers they write, and what the ones the layer reads hold afterwards.
-/
import proofs.«147565_j9259949490665_1_alg».proof.Proof.Gen.KernelIdeal.Frame
import proofs.«147565_j9259949490665_1_alg».proof.Proof.KHostFn
import proofs.«147565_j9259949490665_1_alg».proof.Proof.LayerDefs

set_option maxRecDepth 16384

noncomputable section

namespace Cert.KernelIdeal.Fold

open Idealize.ShloMosaic Idealize.ShloMosaic.TcCoe Idealize.SL.Sem Idealize.ShloMosaic.ValueIdx
open Cert.KernelIdeal Cert.KernelIdeal.Gen Cert.KernelIdeal.HostFn Cert.Layer

variable (m : (ℓ : Loc nD τ sig) → Buf (Elt Ideal) ℓ) (ρ : Dev nD → PrngReg)

/-- The buffers the host operations before launch 4 write. -/
abbrev hostOps4_W : List (Ref sig .tc) := [main_v60, main_v61, main_v62, main_v63, main_v64, main_v65, main_v66, main_v67, main_v68, main_v69, main_c_8, main_v70, main_v71, main_c_9, main_v72, main_v73, main_v74, main_v75, main_v76, main_cst_10, main_v77, main_v78, main_v79, main_v80]

theorem hostOps4_writes : (hostOps4 : List (HloOp τ sig (Elt Ideal))).Forall fun op => op.writes ⊆ (hostOps4_W.map (Proc.devRef (τ := τ) .tc)).toFinset := by
  simp only [hostOps4, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- A buffer those operations do not write keeps its contents through them. -/
theorem keepH4 (c : Dev nD) (r : Ref sig .tc) (h : r ∉ hostOps4_W) :
    W9 m ρ c (Proc.devRef .tc r) = W8 m ρ c (Proc.devRef .tc r) :=
  StableHlo.after_of_writes_sub hostOps4 _ hostOps4_writes h

theorem W9_wl (c : Dev nD) : W9 m ρ c (Proc.devRef .tc main_v61) = (matSlice ![1, 0, 0] slices_S7x64x64_S1x64x64_1_0_0 (W8 m ρ c (Proc.devRef .tc main_arg5))) := by
  show StableHlo.after hostOps4 (W8 m ρ c) (Proc.devRef .tc main_v61) = _
  simp only [hostOps4]
  first | (after_results_simp <;> rfl) | (after_results <;> rfl)
theorem W9_wr (c : Dev nD) : W9 m ρ c (Proc.devRef .tc main_v63) = (matSlice ![1, 0, 0] slices_S7x64x64_S1x64x64_1_0_0 (W8 m ρ c (Proc.devRef .tc main_arg6))) := by
  show StableHlo.after hostOps4 (W8 m ρ c) (Proc.devRef .tc main_v63) = _
  simp only [hostOps4]
  first | (after_results_simp <;> rfl) | (after_results <;> rfl)
theorem W9_brow (c : Dev nD) : W9 m ρ c (Proc.devRef .tc main_v80) = broadcastInDim S1x64 ![1] bcast_S64_S1x64_1 (vecSlice7 ![1, 0] slices_S7x64_S1x64_1_0 (W8 m ρ c (Proc.devRef .tc main_arg7))) := by
  show StableHlo.after hostOps4 (W8 m ρ c) (Proc.devRef .tc main_v80) = _
  simp only [hostOps4]
  first | (after_results_simp <;> rfl) | (after_results <;> rfl)
theorem W9_gv (c : Dev nD) : W9 m ρ c (Proc.devRef .tc main_v67) = (vecSlice8 ![2, 0] slices_S8x64_S1x64_2_0 (W8 m ρ c (Proc.devRef .tc main_arg8))) := by
  show StableHlo.after hostOps4 (W8 m ρ c) (Proc.devRef .tc main_v67) = _
  simp only [hostOps4]
  first | (after_results_simp <;> rfl) | (after_results <;> rfl)
theorem W9_bev (c : Dev nD) : W9 m ρ c (Proc.devRef .tc main_v69) = (vecSlice8 ![2, 0] slices_S8x64_S1x64_2_0 (W8 m ρ c (Proc.devRef .tc main_arg9))) := by
  show StableHlo.after hostOps4 (W8 m ρ c) (Proc.devRef .tc main_v69) = _
  simp only [hostOps4]
  first | (after_results_simp <;> rfl) | (after_results <;> rfl)
theorem W9_agg (c : Dev nD) : W9 m ρ c (Proc.devRef .tc main_v79) = (agg64 (W8 m ρ c (Proc.devRef .tc main_v1)) (W8 m ρ c (Proc.devRef .tc main_v3)) (W8 m ρ c (Proc.devRef .tc main_v59))) := by
  show StableHlo.after hostOps4 (W8 m ρ c) (Proc.devRef .tc main_v79) = _
  simp only [hostOps4]
  first | (after_results_simp <;> rfl) | (after_results <;> rfl)
theorem W9_hp (c : Dev nD) : W9 m ρ c (Proc.devRef .tc main_v59) = W8 m ρ c (Proc.devRef .tc main_v59) := keepH4 m ρ c main_v59 (by decide)

end Cert.KernelIdeal.Fold

end
-- ==== Proof.KHostB2.lean ====
/-
  The host operations before launch 5: the mean row, the variance row, the gain and offset rows.
-/
import proofs.«147565_j9259949490665_1_alg».proof.Proof.Gen.KernelIdeal.Frame
import proofs.«147565_j9259949490665_1_alg».proof.Proof.KHostFn
import proofs.«147565_j9259949490665_1_alg».proof.Proof.LayerDefs

set_option maxRecDepth 16384

noncomputable section

namespace Cert.KernelIdeal.Fold

open Idealize.ShloMosaic Idealize.ShloMosaic.TcCoe Idealize.SL.Sem Idealize.ShloMosaic.ValueIdx
open Cert.KernelIdeal Cert.KernelIdeal.Gen Cert.KernelIdeal.HostFn Cert.Layer

variable (m : (ℓ : Loc nD τ sig) → Buf (Elt Ideal) ℓ) (ρ : Dev nD → PrngReg)

/-- The buffers the host operations before launch 5 write. -/
abbrev hostOps5_W : List (Ref sig .tc) := [main_cst_11, main_v82, main_v83, main_cst_12, main_v84, main_v85, main_v86, main_v87, main_v88, main_v89]

theorem hostOps5_writes : (hostOps5 : List (HloOp τ sig (Elt Ideal))).Forall fun op => op.writes ⊆ (hostOps5_W.map (Proc.devRef (τ := τ) .tc)).toFinset := by
  simp only [hostOps5, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- A buffer those operations do not write keeps its contents through them. -/
theorem keepH5 (c : Dev nD) (r : Ref sig .tc) (h : r ∉ hostOps5_W) :
    W11 m ρ c (Proc.devRef .tc r) = W10 m ρ c (Proc.devRef .tc r) :=
  StableHlo.after_of_writes_sub hostOps5 _ hostOps5_writes h

theorem W11_mean (c : Dev nD) : W11 m ρ c (Proc.devRef .tc main_v83) = (Host.divf (F := Ideal) (W10 m ρ c (Proc.devRef .tc main_v81_1)) (broadcastInDim S1x64 ![] bcast_S_S1x64 (constant (F := Ideal) S_ .f32 0x47435000#32)) : FVec Ideal S1x64 .f32) := by
  show StableHlo.after hostOps5 (W10 m ρ c) (Proc.devRef .tc main_v83) = _
  simp only [hostOps5]
  first | (after_results_simp <;> rfl) | (after_results <;> rfl)
theorem W11_var (c : Dev nD) : W11 m ρ c (Proc.devRef .tc main_v87) = (subf (F := Ideal) (Host.divf (F := Ideal) (W10 m ρ c (Proc.devRef .tc main_v81_2)) (broadcastInDim S1x64 ![] bcast_S_S1x64 (constant (F := Ideal) S_ .f32 0x47435000#32))) (mulf (F := Ideal) (Host.divf (F := Ideal) (W10 m ρ c (Proc.devRef .tc main_v81_1)) (broadcastInDim S1x64 ![] bcast_S_S1x64 (constant (F := Ideal) S_ .f32 0x47435000#32))) (Host.divf (F := Ideal) (W10 m ρ c (Proc.devRef .tc main_v81_1)) (broadcastInDim S1x64 ![] bcast_S_S1x64 (constant (F := Ideal) S_ .f32 0x47435000#32)))) : FVec Ideal S1x64 .f32) := by
  show StableHlo.after hostOps5 (W10 m ρ c) (Proc.devRef .tc main_v87) = _
  simp only [hostOps5]
  first | (after_results_simp <;> rfl) | (after_results <;> rfl)
theorem W11_grow (c : Dev nD) : W11 m ρ c (Proc.devRef .tc main_v88) = (broadcastInDim S1x64 ![1] bcast_S64_S1x64_1 (W10 m ρ c (Proc.devRef .tc main_v67)) : FVec Ideal S1x64 .f32) := by
  show StableHlo.after hostOps5 (W10 m ρ c) (Proc.devRef .tc main_v88) = _
  simp only [hostOps5]
  first | (after_results_simp <;> rfl) | (after_results <;> rfl)
theorem W11_berow (c : Dev nD) : W11 m ρ c (Proc.devRef .tc main_v89) = (broadcastInDim S1x64 ![1] bcast_S64_S1x64_1 (W10 m ρ c (Proc.devRef .tc main_v69)) : FVec Ideal S1x64 .f32) := by
  show StableHlo.after hostOps5 (W10 m ρ c) (Proc.devRef .tc main_v89) = _
  simp only [hostOps5]
  first | (after_results_simp <;> rfl) | (after_results <;> rfl)
theorem W11_hpre (c : Dev nD) : W11 m ρ c (Proc.devRef .tc main_v81_0) = W10 m ρ c (Proc.devRef .tc main_v81_0) := keepH5 m ρ c main_v81_0 (by decide)

end Cert.KernelIdeal.Fold

end
-- ==== Proof.RegionR4Pieces.lean ====
/-
  What one step of the dense-step body leaves in its three result blocks, as arithmetic of the blocks it read.

  At the first step of a run the two running rows are set to zero before the step adds to them; at every later step
  they are read as the step before left them.  In both cases the block of pre-activations is the same arithmetic of
  the five operand blocks, the row of sums is the previous row plus the block's column sums, and the row of sums of
  squares is the previous row plus the block's column sums of squares.
-/
import proofs.«147565_j9259949490665_1_alg».proof.Proof.Gen.KernelIdeal.Frame
import proofs.«147565_j9259949490665_1_alg».proof.Proof.LibColumnSum
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.RegionValue

open Cert.KernelIdeal Cert.KernelIdeal.Gen
open Cert.LibColumnSum (offsets_zero)

variable {F : FTy → Type} [FloatOps F]

theorem out4_A_5_eq (c : Dev nD) (i : grid4.Coords) (a1 : Memref sig .tc .vmem S5000x64 .f32) (h1 : a1.IsWhole) (a2 : Memref sig .tc .vmem S5000x64 .f32) (h2 : a2.IsWhole) (a3 : Memref sig .tc .vmem S64x64 .f32) (h3 : a3.IsWhole) (a4 : Memref sig .tc .vmem S64x64 .f32) (h4 : a4.IsWhole) (a5 : Memref sig .tc .vmem S1x64 .f32) (h5 : a5.IsWhole) (a6 : Memref sig .tc .vmem S5000x64 .f32) (h6 : a6.IsWhole) (a7 : Memref sig .tc .vmem S1x64 .f32) (h7 : a7.IsWhole) (a8 : Memref sig .tc .vmem S1x64 .f32) (h8 : a8.IsWhole) (hc : cond4_0 i)
    (x0 : Vec F S5000x64 .f32) (x1 : Vec F S5000x64 .f32) (x2 : Vec F S64x64 .f32) (x3 : Vec F S64x64 .f32) (x4 : Vec F S1x64 .f32) :
    out4_A_5 c i a1 h1 a2 h2 a3 h3 a4 h4 a5 h5 a6 h6 a7 h7 a8 h8 hc x0 x1 x2 x3 x4 = k4_pay4 x0 x2 x4 x1 x3 := by
  unfold out4_A_5
  rw [View.read_writes_eq_canon _ _ _ (cover4_A_5 c i a1 h1 a2 h2 a3 h3 a4 h4 a5 h5 a6 h6 a7 h7 a8 h8 hc x0 x1 x2 x3 x4)]
  unfold kernelRun4_A
  dsimp only
  sl_unfold_words
  rw [View.canon_unit_zero offsets_zero]
  simp only [View.readAt_eq_ld, h1.read_unread, h2.read_unread, h3.read_unread, h4.read_unread, h5.read_unread, h7.read_unread, h8.read_unread, View.ld_unit_zero (S := S5000x64) offsets_zero, View.ld_unit_zero (S := S64x64) offsets_zero, View.ld_unit_zero (S := S1x64) offsets_zero]

theorem out4_A_6_eq (c : Dev nD) (i : grid4.Coords) (a1 : Memref sig .tc .vmem S5000x64 .f32) (h1 : a1.IsWhole) (a2 : Memref sig .tc .vmem S5000x64 .f32) (h2 : a2.IsWhole) (a3 : Memref sig .tc .vmem S64x64 .f32) (h3 : a3.IsWhole) (a4 : Memref sig .tc .vmem S64x64 .f32) (h4 : a4.IsWhole) (a5 : Memref sig .tc .vmem S1x64 .f32) (h5 : a5.IsWhole) (a6 : Memref sig .tc .vmem S5000x64 .f32) (h6 : a6.IsWhole) (a7 : Memref sig .tc .vmem S1x64 .f32) (h7 : a7.IsWhole) (a8 : Memref sig .tc .vmem S1x64 .f32) (h8 : a8.IsWhole) (hc : cond4_0 i)
    (x0 : Vec F S5000x64 .f32) (x1 : Vec F S5000x64 .f32) (x2 : Vec F S64x64 .f32) (x3 : Vec F S64x64 .f32) (x4 : Vec F S1x64 .f32) :
    out4_A_6 c i a1 h1 a2 h2 a3 h3 a4 h4 a5 h5 a6 h6 a7 h7 a8 h8 hc x0 x1 x2 x3 x4 = k4_pay5 x0 x2 x4 x1 x3 (k4_pay2 (F := F)) := by
  unfold out4_A_6
  rw [View.read_writes_eq_canon _ _ _ (cover4_A_6 c i a1 h1 a2 h2 a3 h3 a4 h4 a5 h5 a6 h6 a7 h7 a8 h8 hc x0 x1 x2 x3 x4)]
  unfold kernelRun4_A
  dsimp only
  sl_unfold_words
  rw [View.canon_cons_unit_zero (S := S1x64) offsets_zero, View.readCov_unit_zero (S := S1x64) _ offsets_zero]
  simp only [View.readAt_eq_ld, h1.read_unread, h2.read_unread, h3.read_unread, h4.read_unread, h5.read_unread, h7.read_unread, h8.read_unread, View.ld_unit_zero (S := S5000x64) offsets_zero, View.ld_unit_zero (S := S64x64) offsets_zero, View.ld_unit_zero (S := S1x64) offsets_zero]

theorem out4_A_7_eq (c : Dev nD) (i : grid4.Coords) (a1 : Memref sig .tc .vmem S5000x64 .f32) (h1 : a1.IsWhole) (a2 : Memref sig .tc .vmem S5000x64 .f32) (h2 : a2.IsWhole) (a3 : Memref sig .tc .vmem S64x64 .f32) (h3 : a3.IsWhole) (a4 : Memref sig .tc .vmem S64x64 .f32) (h4 : a4.IsWhole) (a5 : Memref sig .tc .vmem S1x64 .f32) (h5 : a5.IsWhole) (a6 : Memref sig .tc .vmem S5000x64 .f32) (h6 : a6.IsWhole) (a7 : Memref sig .tc .vmem S1x64 .f32) (h7 : a7.IsWhole) (a8 : Memref sig .tc .vmem S1x64 .f32) (h8 : a8.IsWhole) (hc : cond4_0 i)
    (x0 : Vec F S5000x64 .f32) (x1 : Vec F S5000x64 .f32) (x2 : Vec F S64x64 .f32) (x3 : Vec F S64x64 .f32) (x4 : Vec F S1x64 .f32) :
    out4_A_7 c i a1 h1 a2 h2 a3 h3 a4 h4 a5 h5 a6 h6 a7 h7 a8 h8 hc x0 x1 x2 x3 x4 = k4_pay1 (k4_pay6 (k4_pay3 (F := F))) (k4_pay7 x0 x2 x4 x1 x3) := by
  unfold out4_A_7
  rw [View.read_writes_eq_canon _ _ _ (cover4_A_7 c i a1 h1 a2 h2 a3 h3 a4 h4 a5 h5 a6 h6 a7 h7 a8 h8 hc x0 x1 x2 x3 x4)]
  unfold kernelRun4_A
  dsimp only
  sl_unfold_words
  rw [View.canon_cons_unit_zero (S := S1x64) offsets_zero, View.readCov_unit_zero (S := S1x64) _ offsets_zero]
  simp only [View.readAt_eq_ld, h1.read_unread, h2.read_unread, h3.read_unread, h4.read_unread, h5.read_unread, h7.read_unread, h8.read_unread, View.ld_unit_zero (S := S5000x64) offsets_zero, View.ld_unit_zero (S := S64x64) offsets_zero, View.ld_unit_zero (S := S1x64) offsets_zero]

theorem out4_B_5_eq (c : Dev nD) (i : grid4.Coords) (a1 : Memref sig .tc .vmem S5000x64 .f32) (h1 : a1.IsWhole) (a2 : Memref sig .tc .vmem S5000x64 .f32) (h2 : a2.IsWhole) (a3 : Memref sig .tc .vmem S64x64 .f32) (h3 : a3.IsWhole) (a4 : Memref sig .tc .vmem S64x64 .f32) (h4 : a4.IsWhole) (a5 : Memref sig .tc .vmem S1x64 .f32) (h5 : a5.IsWhole) (a6 : Memref sig .tc .vmem S5000x64 .f32) (h6 : a6.IsWhole) (a7 : Memref sig .tc .vmem S1x64 .f32) (h7 : a7.IsWhole) (a8 : Memref sig .tc .vmem S1x64 .f32) (h8 : a8.IsWhole) (hc : ¬cond4_0 i)
    (x0 : Vec F S5000x64 .f32) (x1 : Vec F S5000x64 .f32) (x2 : Vec F S64x64 .f32) (x3 : Vec F S64x64 .f32) (x4 : Vec F S1x64 .f32) (xo6 : Vec F S1x64 .f32) (xo7 : Vec F S1x64 .f32) :
    out4_B_5 c i a1 h1 a2 h2 a3 h3 a4 h4 a5 h5 a6 h6 a7 h7 a8 h8 hc x0 x1 x2 x3 x4 xo6 xo7 = k4_pay4 x0 x2 x4 x1 x3 := by
  unfold out4_B_5
  rw [View.read_writes_eq_canon _ _ _ (cover4_B_5 c i a1 h1 a2 h2 a3 h3 a4 h4 a5 h5 a6 h6 a7 h7 a8 h8 hc x0 x1 x2 x3 x4 xo6 xo7)]
  unfold kernelRun4_B
  dsimp only
  sl_unfold_words
  rw [View.canon_unit_zero offsets_zero]
  simp only [View.readAt_eq_ld, h1.read_unread, h2.read_unread, h3.read_unread, h4.read_unread, h5.read_unread, h7.read_unread, h8.read_unread, View.ld_unit_zero (S := S5000x64) offsets_zero, View.ld_unit_zero (S := S64x64) offsets_zero, View.ld_unit_zero (S := S1x64) offsets_zero]

theorem out4_B_6_eq (c : Dev nD) (i : grid4.Coords) (a1 : Memref sig .tc .vmem S5000x64 .f32) (h1 : a1.IsWhole) (a2 : Memref sig .tc .vmem S5000x64 .f32) (h2 : a2.IsWhole) (a3 : Memref sig .tc .vmem S64x64 .f32) (h3 : a3.IsWhole) (a4 : Memref sig .tc .vmem S64x64 .f32) (h4 : a4.IsWhole) (a5 : Memref sig .tc .vmem S1x64 .f32) (h5 : a5.IsWhole) (a6 : Memref sig .tc .vmem S5000x64 .f32) (h6 : a6.IsWhole) (a7 : Memref sig .tc .vmem S1x64 .f32) (h7 : a7.IsWhole) (a8 : Memref sig .tc .vmem S1x64 .f32) (h8 : a8.IsWhole) (hc : ¬cond4_0 i)
    (x0 : Vec F S5000x64 .f32) (x1 : Vec F S5000x64 .f32) (x2 : Vec F S64x64 .f32) (x3 : Vec F S64x64 .f32) (x4 : Vec F S1x64 .f32) (xo6 : Vec F S1x64 .f32) (xo7 : Vec F S1x64 .f32) :
    out4_B_6 c i a1 h1 a2 h2 a3 h3 a4 h4 a5 h5 a6 h6 a7 h7 a8 h8 hc x0 x1 x2 x3 x4 xo6 xo7 = k4_pay5 x0 x2 x4 x1 x3 xo6 := by
  unfold out4_B_6
  rw [View.read_writes_eq_canon _ _ _ (cover4_B_6 c i a1 h1 a2 h2 a3 h3 a4 h4 a5 h5 a6 h6 a7 h7 a8 h8 hc x0 x1 x2 x3 x4 xo6 xo7)]
  unfold kernelRun4_B
  dsimp only
  sl_unfold_words
  rw [View.canon_unit_zero offsets_zero]
  simp only [View.readAt_eq_ld, h1.read_unread, h2.read_unread, h3.read_unread, h4.read_unread, h5.read_unread, h7.read_unread, h8.read_unread, View.ld_unit_zero (S := S5000x64) offsets_zero, View.ld_unit_zero (S := S64x64) offsets_zero, View.ld_unit_zero (S := S1x64) offsets_zero]

theorem out4_B_7_eq (c : Dev nD) (i : grid4.Coords) (a1 : Memref sig .tc .vmem S5000x64 .f32) (h1 : a1.IsWhole) (a2 : Memref sig .tc .vmem S5000x64 .f32) (h2 : a2.IsWhole) (a3 : Memref sig .tc .vmem S64x64 .f32) (h3 : a3.IsWhole) (a4 : Memref sig .tc .vmem S64x64 .f32) (h4 : a4.IsWhole) (a5 : Memref sig .tc .vmem S1x64 .f32) (h5 : a5.IsWhole) (a6 : Memref sig .tc .vmem S5000x64 .f32) (h6 : a6.IsWhole) (a7 : Memref sig .tc .vmem S1x64 .f32) (h7 : a7.IsWhole) (a8 : Memref sig .tc .vmem S1x64 .f32) (h8 : a8.IsWhole) (hc : ¬cond4_0 i)
    (x0 : Vec F S5000x64 .f32) (x1 : Vec F S5000x64 .f32) (x2 : Vec F S64x64 .f32) (x3 : Vec F S64x64 .f32) (x4 : Vec F S1x64 .f32) (xo6 : Vec F S1x64 .f32) (xo7 : Vec F S1x64 .f32) :
    out4_B_7 c i a1 h1 a2 h2 a3 h3 a4 h4 a5 h5 a6 h6 a7 h7 a8 h8 hc x0 x1 x2 x3 x4 xo6 xo7 = k4_pay1 (k4_pay6 xo7) (k4_pay7 x0 x2 x4 x1 x3) := by
  unfold out4_B_7
  rw [View.read_writes_eq_canon _ _ _ (cover4_B_7 c i a1 h1 a2 h2 a3 h3 a4 h4 a5 h5 a6 h6 a7 h7 a8 h8 hc x0 x1 x2 x3 x4 xo6 xo7)]
  unfold kernelRun4_B
  dsimp only
  sl_unfold_words
  rw [View.canon_unit_zero offsets_zero]
  simp only [View.readAt_eq_ld, h1.read_unread, h2.read_unread, h3.read_unread, h4.read_unread, h5.read_unread, h7.read_unread, h8.read_unread, View.ld_unit_zero (S := S5000x64) offsets_zero, View.ld_unit_zero (S := S64x64) offsets_zero, View.ld_unit_zero (S := S1x64) offsets_zero]

end Cert.KernelIdeal.RegionValue

end
-- ==== Proof.RegionR4Pay.lean ====
/-
  The dense step's block arithmetic read entry by entry over the extended reals.

  For one block of 5000 rows: the block of pre-activations at (p, q) is the aggregated row p against row q of the
  neighbour weights, plus the bias entry q, plus the node's own row p against row q of the root weights (each
  product is a sum over the 64 input features; the weights are stored with the output feature as their row, so the
  transposed weight read at (k, q) is the weight at (q, k)).  The two running rows are the previous row plus the
  block's column sums of the pre-activations, and of their squares.  The row that starts a run is zero.
-/
import proofs.«147565_j9259949490665_1_alg».proof.Proof.Gen.KernelIdeal.Skeleton
import proofs.«147565_j9259949490665_1_alg».proof.Proof.Spec
import proofs.«147565_j9259949490665_1_alg».proof.Proof.LibPlainDot
import proofs.«147565_j9259949490665_1_alg».proof.Proof.LibColumnSum
import Idealize.ShloMosaic.Lib.Pipeline.Value
import Idealize.ShloMosaic.Lib.ValueLayout

noncomputable section

open Idealize.ShloMosaic Idealize.ShloMosaic.ValueIdx
open scoped BigOperators

namespace Cert.KernelIdeal.RegionValue

open Cert.KernelIdeal Cert.KernelIdeal.Gen

/-- The block of pre-activations at (p, q): the dense step of the block's operands there. -/
theorem pay4_lin (a x : Vec Ideal S5000x64 .f32) (wl wr : Vec Ideal S64x64 .f32) (b : Vec Ideal S1x64 .f32)
    (p : Fin 5000) (q : Fin 64) :
    k4_pay4 (F := Ideal) a wl b x wr (ix2 p q) = Cert.Layer.lin a x wl wr b (ix2 p q) := by
  have hd : dot_S5000x64_S64x64_S5000x64_1_0_0_1_n_n = DotDims.plain 5000 64 64 := rfl
  have e1 : ∀ (l : FVec Ideal S5000x64 .f32) (w : FVec Ideal S64x64 .f32),
      matmul dot_S5000x64_S64x64_S5000x64_1_0_0_1_n_n none (shapeCast S5000x64 l shapeCasts_S5000x64_S5000x64)
          (transpose S64x64 [1, 0] (shapeCast S64x64 w shapeCasts_S64x64_S64x64) transposes_S64x64_p1_0_S64x64)
          (constant S5000x64 .f32 0x00000000#32) (ix2 p q)
        = ∑ k : Fin 64, l (ix2 p k) * w (ix2 q k) := by
    intro l w
    rw [shapeCast_self, shapeCast_self]
    refine (Cert.LibPlainDot.matmul_zero_apply _ hd none l _ p q).trans ?_
    exact Finset.sum_congr rfl fun k _ => congrArg (l (ix2 p k) * ·) (transpose_ix2_apply w _ k q)
  have e2 : broadcastTo S5000x64 (shapeCast S1x64 b shapeCasts_S1x64_S1x64) broadcasts_S1x64_S5000x64 (ix2 p q)
      = b (ix2 0 q) := by
    rw [shapeCast_self]
    exact broadcastTo_1b_ab_apply b _ p q
  rw [Cert.Layer.lin_apply]
  unfold k4_pay4
  exact congrArg₂ (· + ·) (congrArg₂ (· + ·) (e1 a wl) e2) (e1 x wr)

/-- The row that starts a run is zero. -/
theorem pay4_zero6 (j : S1x64.Idx) : k4_pay2 (F := Ideal) j = 0 := Ideal.ofBits_zero_f32

theorem pay4_zero7 (j : S1x64.Idx) : k4_pay3 (F := Ideal) j = 0 := Ideal.ofBits_zero_f32

/-- The running row of sums after a block: the row before plus the block's column sums. -/
theorem pay4_sum (a x : Vec Ideal S5000x64 .f32) (wl wr : Vec Ideal S64x64 .f32) (b acc : Vec Ideal S1x64 .f32) (q : Fin 64) :
    k4_pay5 (F := Ideal) a wl b x wr acc (ix2 0 q)
      = acc (ix2 0 q) + ∑ r : Fin 5000, k4_pay4 (F := Ideal) a wl b x wr (ix2 r q) := by
  unfold k4_pay5
  exact congrArg₂ (· + ·) (congrFun (shapeCast_self acc _) _)
    (Cert.LibColumnSum.rowReduce_apply (k4_pay4 (F := Ideal) a wl b x wr) reduces_S5000x64_S64 (.inl rfl) rfl
      shapeCasts_S64_S1x64 0 q)

/-- The running row of sums of squares after a block: the row before plus the block's column sums of squares. -/
theorem pay4_sumsq (a x : Vec Ideal S5000x64 .f32) (wl wr : Vec Ideal S64x64 .f32) (b acc : Vec Ideal S1x64 .f32) (q : Fin 64) :
    k4_pay1 (k4_pay6 (F := Ideal) acc) (k4_pay7 (F := Ideal) a wl b x wr) (ix2 0 q)
      = acc (ix2 0 q) + ∑ r : Fin 5000, k4_pay4 (F := Ideal) a wl b x wr (ix2 r q) * k4_pay4 (F := Ideal) a wl b x wr (ix2 r q) := by
  unfold k4_pay1 k4_pay6 k4_pay7
  exact congrArg₂ (· + ·) (congrFun (shapeCast_self acc _) _)
    (Cert.LibColumnSum.rowReduce_apply (mulf (k4_pay4 (F := Ideal) a wl b x wr) (k4_pay4 (F := Ideal) a wl b x wr))
      reduces_S5000x64_S64 (.inl rfl) rfl shapeCasts_S64_S1x64 0 q)

end Cert.KernelIdeal.RegionValue

end
-- ==== Proof.RegionR4.lean ====
/-
  The value of one dense-step stage: what its three result arrays hold after all ten steps.

  The stage walks ten blocks of 5000 rows.  Step t reads block t of the aggregated and of the node features (rows
  5000·t … 5000·t + 4999 of the arrays) and the whole of both weight arrays and of the bias row; it writes block t of
  the pre-activations, which is therefore block t of the dense step of the WHOLE arrays (an entry of the dense step
  depends on one row of each node-feature operand only), and adds the block's column sums, and column sums of
  squares, to two running rows that start at zero.  By induction on the step the running rows after step n hold the
  sums over the rows of blocks 0 … n, so after step 9, when they are written out, they hold the full column sums:
  a sum over 50000 = 10 · 5000 rows is the sum of its ten block sums.  Sums of extended reals are regrouped freely
  (addition is associative and commutative, and 0 + x = x); no law that needs finite values is used.
-/
import proofs.«147565_j9259949490665_1_alg».proof.Proof.Gen.KernelIdeal.Frame
import proofs.«147565_j9259949490665_1_alg».proof.Proof.Spec
import proofs.«147565_j9259949490665_1_alg».proof.Proof.LibRowBlocks
import proofs.«147565_j9259949490665_1_alg».proof.Proof.RegionR4Pieces
import proofs.«147565_j9259949490665_1_alg».proof.Proof.RegionR4Pay
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)
open scoped BigOperators

namespace Cert.KernelIdeal.RegionValue

open Cert.KernelIdeal Cert.KernelIdeal.Gen
open Cert.Layer (Mat lin colSum colSumSq)
open Cert.LibRowBlocks (blockSum blockSum_of_lt sum_range_blockSum lin_congr)

section Region4

variable (V : (c : Dev nD) → (b : Ref sig .tc) → Buf (Elt Ideal) ((c : Thread nD τ).loc b)) (c : Dev nD)

/-- The five operand arrays as the stage finds them. -/
abbrev agg4 : Mat 50000 64 := V c (Pipeline.arrRef spec4 0)
abbrev self4 : Mat 50000 64 := V c (Pipeline.arrRef spec4 1)
abbrev wl4 : Mat 64 64 := V c (Pipeline.arrRef spec4 2)
abbrev wr4 : Mat 64 64 := V c (Pipeline.arrRef spec4 3)
abbrev bias4 : Mat 1 64 := V c (Pipeline.arrRef spec4 4)

/-- The pre-activations of the whole arrays. -/
abbrev hpre4 : Mat 50000 64 := lin (agg4 V c) (self4 V c) (wl4 V c) (wr4 V c) (bias4 V c)

/-- Where each step's blocks sit: the row-blocked operands and the pre-activations at block t, column block 0. -/
theorem idx4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_5.index t (0 : Fin 2) = t.val ∧ win4_5.index t (1 : Fin 2) = 0 :=
  (by decide +kernel : ∀ t : Fin grid4.N, _)

/-- The weights, the bias row and the two running rows are one block each, at block (0, 0) at every step. -/
theorem whole4 : ∀ t : Fin cfg4.N,
    win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_6.index t (0 : Fin 2) = 0 ∧ win4_6.index t (1 : Fin 2) = 0
    ∧ win4_7.index t (0 : Fin 2) = 0 ∧ win4_7.index t (1 : Fin 2) = 0 :=
  (by decide +kernel : ∀ t : Fin grid4.N, _)

/-- Row r of step t's block of operand 0 is row 5000·t + r of the array. -/
theorem blk4_0 (t : Fin cfg4.N) (r : Fin 5000) (k : Fin 64) (hr : t.val * 5000 + r.val < 50000) :
    iblk4 V c 0 t (ix2 r k) = agg4 V c (ix2 ⟨t.val * 5000 + r.val, hr⟩ k) := by
  have e0 := (idx4 t).1
  have e1 := (idx4 t).2.1
  show V c (Pipeline.arrRef spec4 0) (((cfg4.win 0).blk t).view.emb (ix2 r k))
    = V c (Pipeline.arrRef spec4 0) (ix2 ⟨t.val * 5000 + r.val, hr⟩ k)
  refine congrArg (V c (Pipeline.arrRef spec4 0)) (funext fun a => Fin.ext ?_)
  match a with
  | ⟨0, _⟩ => show win4_0.index t (0 : Fin 2) * 5000 + 1 * r.val = t.val * 5000 + r.val; rw [e0]; omega
  | ⟨1, _⟩ => show win4_0.index t (1 : Fin 2) * 64 + 1 * k.val = k.val; rw [e1]; omega

/-- Row r of step t's block of operand 1 is row 5000·t + r of the array. -/
theorem blk4_1 (t : Fin cfg4.N) (r : Fin 5000) (k : Fin 64) (hr : t.val * 5000 + r.val < 50000) :
    iblk4 V c 1 t (ix2 r k) = self4 V c (ix2 ⟨t.val * 5000 + r.val, hr⟩ k) := by
  have e0 := (idx4 t).2.2.1
  have e1 := (idx4 t).2.2.2.1
  show V c (Pipeline.arrRef spec4 1) (((cfg4.win 1).blk t).view.emb (ix2 r k))
    = V c (Pipeline.arrRef spec4 1) (ix2 ⟨t.val * 5000 + r.val, hr⟩ k)
  refine congrArg (V c (Pipeline.arrRef spec4 1)) (funext fun a => Fin.ext ?_)
  match a with
  | ⟨0, _⟩ => show win4_1.index t (0 : Fin 2) * 5000 + 1 * r.val = t.val * 5000 + r.val; rw [e0]; omega
  | ⟨1, _⟩ => show win4_1.index t (1 : Fin 2) * 64 + 1 * k.val = k.val; rw [e1]; omega

/-- Step t's block of operand 2 is the whole array. -/
theorem blk4_2 (t : Fin cfg4.N) (p : Fin 64) (k : Fin 64) :
    iblk4 V c 2 t (ix2 p k) = wl4 V c (ix2 p k) := by
  have e0 := (whole4 t).1
  have e1 := (whole4 t).2.1
  show V c (Pipeline.arrRef spec4 2) (((cfg4.win 2).blk t).view.emb (ix2 p k))
    = V c (Pipeline.arrRef spec4 2) (ix2 p k)
  refine congrArg (V c (Pipeline.arrRef spec4 2)) (funext fun a => Fin.ext ?_)
  match a with
  | ⟨0, _⟩ => show win4_2.index t (0 : Fin 2) * 64 + 1 * p.val = p.val; rw [e0]; omega
  | ⟨1, _⟩ => show win4_2.index t (1 : Fin 2) * 64 + 1 * k.val = k.val; rw [e1]; omega

/-- Step t's block of operand 3 is the whole array. -/
theorem blk4_3 (t : Fin cfg4.N) (p : Fin 64) (k : Fin 64) :
    iblk4 V c 3 t (ix2 p k) = wr4 V c (ix2 p k) := by
  have e0 := (whole4 t).2.2.1
  have e1 := (whole4 t).2.2.2.1
  show V c (Pipeline.arrRef spec4 3) (((cfg4.win 3).blk t).view.emb (ix2 p k))
    = V c (Pipeline.arrRef spec4 3) (ix2 p k)
  refine congrArg (V c (Pipeline.arrRef spec4 3)) (funext fun a => Fin.ext ?_)
  match a with
  | ⟨0, _⟩ => show win4_3.index t (0 : Fin 2) * 64 + 1 * p.val = p.val; rw [e0]; omega
  | ⟨1, _⟩ => show win4_3.index t (1 : Fin 2) * 64 + 1 * k.val = k.val; rw [e1]; omega

/-- Step t's block of operand 4 is the whole array. -/
theorem blk4_4 (t : Fin cfg4.N) (p : Fin 1) (k : Fin 64) :
    iblk4 V c 4 t (ix2 p k) = bias4 V c (ix2 p k) := by
  have e0 := (whole4 t).2.2.2.2.1
  have e1 := (whole4 t).2.2.2.2.2.1
  show V c (Pipeline.arrRef spec4 4) (((cfg4.win 4).blk t).view.emb (ix2 p k))
    = V c (Pipeline.arrRef spec4 4) (ix2 p k)
  refine congrArg (V c (Pipeline.arrRef spec4 4)) (funext fun a => Fin.ext ?_)
  match a with
  | ⟨0, _⟩ => show win4_4.index t (0 : Fin 2) * 1 + 1 * p.val = p.val; rw [e0]; omega
  | ⟨1, _⟩ => show win4_4.index t (1 : Fin 2) * 64 + 1 * k.val = k.val; rw [e1]; omega

/-- The block of pre-activations step t computes is block t of the whole arrays' pre-activations. -/
theorem hblk4 (t : Fin cfg4.N) (j : S5000x64.Idx) (hr : t.val * 5000 + (j 0).val < 50000) :
    (k4_pay4 (F := Ideal) (iblk4 V c 0 t) (iblk4 V c 2 t) (iblk4 V c 4 t) (iblk4 V c 1 t) (iblk4 V c 3 t)) j = hpre4 V c (ix2 ⟨t.val * 5000 + (j 0).val, hr⟩ (j 1)) := by
  obtain ⟨r, q, rfl⟩ : ∃ (r : Fin 5000) (q : Fin 64), j = ix2 r q := ⟨j 0, j 1, eq_ix2 j⟩
  exact (pay4_lin (iblk4 V c 0 t) (iblk4 V c 1 t) (iblk4 V c 2 t) (iblk4 V c 3 t) (iblk4 V c 4 t) r q).trans
    (lin_congr (R := 5000) (R' := 50000) (K := 64) (N := 64) (iblk4 V c 0 t) (iblk4 V c 1 t) (agg4 V c) (self4 V c)
      (iblk4 V c 2 t) (iblk4 V c 3 t) (wl4 V c) (wr4 V c) (iblk4 V c 4 t) (bias4 V c) r ⟨t.val * 5000 + r.val, hr⟩ q
      (fun k => blk4_0 V c t r k hr) (fun k => blk4_1 V c t r k hr) (fun k => blk4_2 V c t q k) (fun k => blk4_3 V c t q k)
      (blk4_4 V c t 0 q))

/-- What the three result blocks hold after a step that starts a run, -/
theorem outs4_A (t : Fin cfg4.N) (h0 : t.val % 10 = 0) :
    outsAt4 V c t.val t.isLt
      = (k4_pay4 (F := Ideal) (iblk4 V c 0 t) (iblk4 V c 2 t) (iblk4 V c 4 t) (iblk4 V c 1 t) (iblk4 V c 3 t), k4_pay5 (F := Ideal) (iblk4 V c 0 t) (iblk4 V c 2 t) (iblk4 V c 4 t) (iblk4 V c 1 t) (iblk4 V c 3 t) (k4_pay2 (F := Ideal)), k4_pay1 (k4_pay6 (F := Ideal) (k4_pay3 (F := Ideal))) (k4_pay7 (F := Ideal) (iblk4 V c 0 t) (iblk4 V c 2 t) (iblk4 V c 4 t) (iblk4 V c 1 t) (iblk4 V c 3 t))) :=
  (outsAt4_A V c t h0).trans (congrArg₂ Prod.mk (out4_A_5_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) ((hcond4_0 t).mpr h0) (iblk4 V c 0 t) (iblk4 V c 1 t) (iblk4 V c 2 t) (iblk4 V c 3 t) (iblk4 V c 4 t))
    (congrArg₂ Prod.mk (out4_A_6_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) ((hcond4_0 t).mpr h0) (iblk4 V c 0 t) (iblk4 V c 1 t) (iblk4 V c 2 t) (iblk4 V c 3 t) (iblk4 V c 4 t))
      (out4_A_7_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) ((hcond4_0 t).mpr h0) (iblk4 V c 0 t) (iblk4 V c 1 t) (iblk4 V c 2 t) (iblk4 V c 3 t) (iblk4 V c 4 t))))

/-- and after any later step, over what the step before left in the running rows. -/
theorem outs4_B (t : Fin cfg4.N) (h0 : ¬t.val % 10 = 0) :
    outsAt4 V c t.val t.isLt
      = (k4_pay4 (F := Ideal) (iblk4 V c 0 t) (iblk4 V c 2 t) (iblk4 V c 4 t) (iblk4 V c 1 t) (iblk4 V c 3 t), k4_pay5 (F := Ideal) (iblk4 V c 0 t) (iblk4 V c 2 t) (iblk4 V c 4 t) (iblk4 V c 1 t) (iblk4 V c 3 t) (outsAt4 V c (t.val - 1) (Nat.lt_of_le_of_lt (Nat.sub_le _ _) t.isLt)).2.1, k4_pay1 (k4_pay6 (F := Ideal) (outsAt4 V c (t.val - 1) (Nat.lt_of_le_of_lt (Nat.sub_le _ _) t.isLt)).2.2) (k4_pay7 (F := Ideal) (iblk4 V c 0 t) (iblk4 V c 2 t) (iblk4 V c 4 t) (iblk4 V c 1 t) (iblk4 V c 3 t))) :=
  (outsAt4_B V c t h0).trans (congrArg₂ Prod.mk (out4_B_5_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (fun h => h0 ((hcond4_0 t).mp h)) (iblk4 V c 0 t) (iblk4 V c 1 t) (iblk4 V c 2 t) (iblk4 V c 3 t) (iblk4 V c 4 t) (outsAt4 V c (t.val - 1) (Nat.lt_of_le_of_lt (Nat.sub_le _ _) t.isLt)).2.1 (outsAt4 V c (t.val - 1) (Nat.lt_of_le_of_lt (Nat.sub_le _ _) t.isLt)).2.2)
    (congrArg₂ Prod.mk (out4_B_6_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (fun h => h0 ((hcond4_0 t).mp h)) (iblk4 V c 0 t) (iblk4 V c 1 t) (iblk4 V c 2 t) (iblk4 V c 3 t) (iblk4 V c 4 t) (outsAt4 V c (t.val - 1) (Nat.lt_of_le_of_lt (Nat.sub_le _ _) t.isLt)).2.1 (outsAt4 V c (t.val - 1) (Nat.lt_of_le_of_lt (Nat.sub_le _ _) t.isLt)).2.2)
      (out4_B_7_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (fun h => h0 ((hcond4_0 t).mp h)) (iblk4 V c 0 t) (iblk4 V c 1 t) (iblk4 V c 2 t) (iblk4 V c 3 t) (iblk4 V c 4 t) (outsAt4 V c (t.val - 1) (Nat.lt_of_le_of_lt (Nat.sub_le _ _) t.isLt)).2.1 (outsAt4 V c (t.val - 1) (Nat.lt_of_le_of_lt (Nat.sub_le _ _) t.isLt)).2.2)))

/-- The column sums of step t's block of pre-activations are block sum t of the whole arrays' column, -/
theorem colblk4 (t : Fin cfg4.N) (q : Fin 64) :
    ∑ r : Fin 5000, (k4_pay4 (F := Ideal) (iblk4 V c 0 t) (iblk4 V c 2 t) (iblk4 V c 4 t) (iblk4 V c 1 t) (iblk4 V c 3 t)) (ix2 r q) = blockSum 10 5000 (fun p : Fin 50000 => hpre4 V c (ix2 p q)) t.val := by
  have ht : t.val < 10 := lt_of_lt_of_eq t.isLt (show cfg4.N = 10 from N_4)
  rw [blockSum_of_lt 10 5000 _ ht]
  exact Finset.sum_congr rfl fun r _ =>
    hblk4 V c t (ix2 r q) (show t.val * 5000 + r.val < 50000 by have := r.isLt; omega)

/-- and likewise the column sums of its squares. -/
theorem colblksq4 (t : Fin cfg4.N) (q : Fin 64) :
    ∑ r : Fin 5000, (k4_pay4 (F := Ideal) (iblk4 V c 0 t) (iblk4 V c 2 t) (iblk4 V c 4 t) (iblk4 V c 1 t) (iblk4 V c 3 t)) (ix2 r q) * (k4_pay4 (F := Ideal) (iblk4 V c 0 t) (iblk4 V c 2 t) (iblk4 V c 4 t) (iblk4 V c 1 t) (iblk4 V c 3 t)) (ix2 r q)
      = blockSum 10 5000 (fun p : Fin 50000 => hpre4 V c (ix2 p q) * hpre4 V c (ix2 p q)) t.val := by
  have ht : t.val < 10 := lt_of_lt_of_eq t.isLt (show cfg4.N = 10 from N_4)
  rw [blockSum_of_lt 10 5000 _ ht]
  exact Finset.sum_congr rfl fun r _ =>
    congrArg₂ (· * ·) (hblk4 V c t (ix2 r q) (show t.val * 5000 + r.val < 50000 by have := r.isLt; omega))
      (hblk4 V c t (ix2 r q) (show t.val * 5000 + r.val < 50000 by have := r.isLt; omega))

/-- THE RUNNING ROWS: after step n they hold the sums, and the sums of squares, over the rows of blocks 0 … n. -/
theorem rows4 : ∀ (n : ℕ) (h : n < cfg4.N) (q : Fin 64),
    (outsAt4 V c n h).2.1 (ix2 0 q) = ∑ s ∈ Finset.range (n + 1), blockSum 10 5000 (fun p : Fin 50000 => hpre4 V c (ix2 p q)) s
    ∧ (outsAt4 V c n h).2.2 (ix2 0 q)
        = ∑ s ∈ Finset.range (n + 1), blockSum 10 5000 (fun p : Fin 50000 => hpre4 V c (ix2 p q) * hpre4 V c (ix2 p q)) s
  | 0, h, q => by
    have e : outsAt4 V c 0 h = _ := outs4_A V c ⟨0, h⟩ rfl
    rw [e]
    exact ⟨((pay4_sum (iblk4 V c 0 ⟨0, h⟩) (iblk4 V c 1 ⟨0, h⟩) (iblk4 V c 2 ⟨0, h⟩) (iblk4 V c 3 ⟨0, h⟩) (iblk4 V c 4 ⟨0, h⟩) (k4_pay2 (F := Ideal)) q).trans
        ((congrArg₂ (· + ·) (pay4_zero6 (ix2 0 q)) (colblk4 V c ⟨0, h⟩ q)).trans (zero_add _))).trans
          (Finset.sum_range_one _).symm,
      ((pay4_sumsq (iblk4 V c 0 ⟨0, h⟩) (iblk4 V c 1 ⟨0, h⟩) (iblk4 V c 2 ⟨0, h⟩) (iblk4 V c 3 ⟨0, h⟩) (iblk4 V c 4 ⟨0, h⟩) (k4_pay3 (F := Ideal)) q).trans
        ((congrArg₂ (· + ·) (pay4_zero7 (ix2 0 q)) (colblksq4 V c ⟨0, h⟩ q)).trans (zero_add _))).trans
          (Finset.sum_range_one _).symm⟩
  | n + 1, h, q => by
    have hN : cfg4.N = 10 := N_4
    have hB : ¬(⟨n + 1, h⟩ : Fin cfg4.N).val % 10 = 0 := by dsimp only; omega
    have e : outsAt4 V c (n + 1) h = _ := outs4_B V c ⟨n + 1, h⟩ hB
    obtain ⟨ih6, ih7⟩ := rows4 n (Nat.lt_of_succ_lt h) q
    rw [e]
    exact ⟨((pay4_sum (iblk4 V c 0 ⟨n + 1, h⟩) (iblk4 V c 1 ⟨n + 1, h⟩) (iblk4 V c 2 ⟨n + 1, h⟩) (iblk4 V c 3 ⟨n + 1, h⟩) (iblk4 V c 4 ⟨n + 1, h⟩) (outsAt4 V c n (Nat.lt_of_succ_lt h)).2.1 q).trans
        (congrArg₂ (· + ·) ih6 (colblk4 V c ⟨n + 1, h⟩ q))).trans (Finset.sum_range_succ _ (n + 1)).symm,
      ((pay4_sumsq (iblk4 V c 0 ⟨n + 1, h⟩) (iblk4 V c 1 ⟨n + 1, h⟩) (iblk4 V c 2 ⟨n + 1, h⟩) (iblk4 V c 3 ⟨n + 1, h⟩) (iblk4 V c 4 ⟨n + 1, h⟩) (outsAt4 V c n (Nat.lt_of_succ_lt h)).2.2 q).trans
        (congrArg₂ (· + ·) ih7 (colblksq4 V c ⟨n + 1, h⟩ q))).trans (Finset.sum_range_succ _ (n + 1)).symm⟩

/-- The block of pre-activations after every step, whichever case the step is. -/
theorem first4 (t : Fin cfg4.N) : (outsAt4 V c t.val t.isLt).1 = k4_pay4 (F := Ideal) (iblk4 V c 0 t) (iblk4 V c 2 t) (iblk4 V c 4 t) (iblk4 V c 1 t) (iblk4 V c 3 t) := by
  by_cases h0 : t.val % 10 = 0
  · exact congrArg Prod.fst (outs4_A V c t h0)
  · exact congrArg Prod.fst (outs4_B V c t h0)

/-! ### The pre-activations array: every step writes its block back -/

/-- An index of the array is in step t's block iff each coordinate is in the block's range. -/
theorem mem_blk4_5 (t : Fin cfg4.N) (i : S50000x64.Idx) :
    i ∈ ((cfg4.win 5).blk t).view.set ↔ ∀ a : Fin 2, win4_5.index t a * S5000x64.size a ≤ (i a).val ∧ (i a).val < win4_5.index t a * S5000x64.size a + S5000x64.size a := by
  show i ∈ ((View.whole main_v81_0).slice (win4_5.rect t)).set ↔ _
  rw [View.set_slice_whole, Rect.mem_set_unit]
  exact Iff.rfl

/-- What step t writes back is block t of the whole arrays' pre-activations. -/
theorem flushed4_5 (t : Fin cfg4.N) :
    (dat4 V c).flushed 5 t = ((cfg4.win 5).blk t).view.read (Elt Ideal) (hpre4 V c) := by
  show (cfg4.win 5).cut (grid4.coords t) ((dat4 V c).after 5 t) = _
  rw [after4_5, first4 V c t]
  have ht : t.val < 10 := lt_of_lt_of_eq t.isLt (show cfg4.N = 10 from N_4)
  have e0 := (idx4 t).2.2.2.2.1
  have e1 := (idx4 t).2.2.2.2.2
  funext y
  have hy0 : (y 0).val < 5000 := (y 0).isLt
  have hy1 : (y 1).val < 64 := (y 1).isLt
  have hr : t.val * 5000 + (y 0).val < 50000 := by omega
  show (k4_pay4 (F := Ideal) (iblk4 V c 0 t) (iblk4 V c 2 t) (iblk4 V c 4 t) (iblk4 V c 1 t) (iblk4 V c 3 t)) ((cfg4.win 5).xinj (grid4.coords t) y) = hpre4 V c (((cfg4.win 5).blk t).view.emb y)
  refine (hblk4 V c t ((cfg4.win 5).xinj (grid4.coords t) y) hr).trans (congrArg (hpre4 V c) (funext fun a => Fin.ext ?_))
  match a with
  | ⟨0, _⟩ => show t.val * 5000 + (y 0).val = win4_5.index t (0 : Fin 2) * 5000 + 1 * (y 0).val; rw [e0]; omega
  | ⟨1, _⟩ => show (y 1).val = win4_5.index t (1 : Fin 2) * 64 + 1 * (y 1).val; rw [e1]; omega

/-- Row r of the array is in block r / 5000. -/
theorem cover4_5 (i : S50000x64.Idx) :
    ∃ t : Fin cfg4.N, (cfg4.win 5).flush t = true ∧ i ∈ ((cfg4.win 5).blk t).view.set := by
  have hi0 : (i 0).val < 50000 := (i 0).isLt
  have hi1 : (i 1).val < 64 := (i 1).isLt
  have hN : cfg4.N = 10 := N_4
  have hq : (i 0).val / 5000 < cfg4.N := by omega
  have e0 : win4_5.index ⟨(i 0).val / 5000, hq⟩ (0 : Fin 2) = (i 0).val / 5000 := (idx4 ⟨(i 0).val / 5000, hq⟩).2.2.2.2.1
  have e1 := (idx4 ⟨(i 0).val / 5000, hq⟩).2.2.2.2.2
  refine ⟨⟨(i 0).val / 5000, hq⟩, flush4_5 _, ?_⟩
  rw [mem_blk4_5]
  intro a
  match a with
  | ⟨0, _⟩ => show win4_5.index ⟨(i 0).val / 5000, hq⟩ (0 : Fin 2) * 5000 ≤ (i 0).val ∧ (i 0).val < win4_5.index ⟨(i 0).val / 5000, hq⟩ (0 : Fin 2) * 5000 + 5000; rw [e0]; omega
  | ⟨1, _⟩ => show win4_5.index ⟨(i 0).val / 5000, hq⟩ (1 : Fin 2) * 64 ≤ (i 1).val ∧ (i 1).val < win4_5.index ⟨(i 0).val / 5000, hq⟩ (1 : Fin 2) * 64 + 64; rw [e1]; omega

/-! ### The two rows: written back once, after the last step -/

/-- The last step. -/
abbrev last4 : Fin cfg4.N := ⟨9, by rw [show cfg4.N = 10 from N_4]; decide⟩

theorem mem_blk4_6 (t : Fin cfg4.N) (i : S1x64.Idx) :
    i ∈ ((cfg4.win 6).blk t).view.set ↔ ∀ a : Fin 2, win4_6.index t a * S1x64.size a ≤ (i a).val ∧ (i a).val < win4_6.index t a * S1x64.size a + S1x64.size a := by
  show i ∈ ((View.whole main_v81_1).slice (win4_6.rect t)).set ↔ _
  rw [View.set_slice_whole, Rect.mem_set_unit]
  exact Iff.rfl

/-- After the last step this running row is the full column sums: ten block sums make the sum over all rows. -/
theorem row4_6 (hl : 9 < cfg4.N) :
    ((outsAt4 V c 9 hl).2.1 : Mat 1 64) = colSum (hpre4 V c) := by
  funext j
  obtain ⟨u, q, rfl⟩ : ∃ (u : Fin 1) (q : Fin 64), j = ix2 u q := ⟨j 0, j 1, eq_ix2 j⟩
  obtain rfl : u = 0 := Subsingleton.elim _ _
  exact ((rows4 V c 9 hl q).1.trans
    (sum_range_blockSum 10 5000 (fun p : Fin 50000 => hpre4 V c (ix2 p q)))).trans
      (Cert.Layer.colSum_apply (hpre4 V c) q).symm

/-- The one write-back of this row, after step 9, writes the full column sums (its block is the whole row). -/
theorem flushed4_6 (t : Fin cfg4.N) (hf : (cfg4.win 6).flush t = true) :
    (dat4 V c).flushed 6 t = ((cfg4.win 6).blk t).view.read (Elt Ideal) (colSum (hpre4 V c)) := by
  have hN : cfg4.N = 10 := N_4
  have h9 : t.val = 9 := by have := (flush4_6 t).mp hf; have := t.isLt; omega
  have hl : 9 < cfg4.N := by omega
  have eo : ∀ (n : ℕ) (hn : n < cfg4.N), n = 9 → outsAt4 V c n hn = outsAt4 V c 9 hl :=
    fun n hn e => by subst e; rfl
  show (cfg4.win 6).cut (grid4.coords t) ((dat4 V c).after 6 t) = _
  rw [after4_6, eo t.val t.isLt h9, row4_6 V c hl]
  have e0 := (whole4 t).2.2.2.2.2.2.1
  have e1 := (whole4 t).2.2.2.2.2.2.2.1
  have hz' : (fun a => win4_6.index t a * main_v81_1.ty.shape.size a) = fun _ => 0 := funext fun a => by
    fin_cases a
    · show win4_6.index t (0 : Fin 2) * 1 = 0; rw [e0]
    · show win4_6.index t (1 : Fin 2) * 64 = 0; rw [e1]
  generalize colSum (hpre4 V c) = G
  exact (Memref.read_access_unit_zero (Elt Ideal) main_v81_1 hz' (fun a => by rw [congrFun hz' a]; simp) G).symm

/-- The last step's block is the whole row. -/
theorem cover4_6 (i : S1x64.Idx) :
    ∃ t : Fin cfg4.N, (cfg4.win 6).flush t = true ∧ i ∈ ((cfg4.win 6).blk t).view.set := by
  have hi0 : (i 0).val < 1 := (i 0).isLt
  have hi1 : (i 1).val < 64 := (i 1).isLt
  have e0 := (whole4 last4).2.2.2.2.2.2.1
  have e1 := (whole4 last4).2.2.2.2.2.2.2.1
  refine ⟨last4, (flush4_6 last4).mpr rfl, ?_⟩
  rw [mem_blk4_6]
  intro a
  match a with
  | ⟨0, _⟩ => show win4_6.index last4 (0 : Fin 2) * 1 ≤ (i 0).val ∧ (i 0).val < win4_6.index last4 (0 : Fin 2) * 1 + 1; rw [e0]; omega
  | ⟨1, _⟩ => show win4_6.index last4 (1 : Fin 2) * 64 ≤ (i 1).val ∧ (i 1).val < win4_6.index last4 (1 : Fin 2) * 64 + 64; rw [e1]; omega

theorem mem_blk4_7 (t : Fin cfg4.N) (i : S1x64.Idx) :
    i ∈ ((cfg4.win 7).blk t).view.set ↔ ∀ a : Fin 2, win4_7.index t a * S1x64.size a ≤ (i a).val ∧ (i a).val < win4_7.index t a * S1x64.size a + S1x64.size a := by
  show i ∈ ((View.whole main_v81_2).slice (win4_7.rect t)).set ↔ _
  rw [View.set_slice_whole, Rect.mem_set_unit]
  exact Iff.rfl

/-- After the last step this running row is the full column sums: ten block sums make the sum over all rows. -/
theorem row4_7 (hl : 9 < cfg4.N) :
    ((outsAt4 V c 9 hl).2.2 : Mat 1 64) = colSumSq (hpre4 V c) := by
  funext j
  obtain ⟨u, q, rfl⟩ : ∃ (u : Fin 1) (q : Fin 64), j = ix2 u q := ⟨j 0, j 1, eq_ix2 j⟩
  obtain rfl : u = 0 := Subsingleton.elim _ _
  exact ((rows4 V c 9 hl q).2.trans
    (sum_range_blockSum 10 5000 (fun p : Fin 50000 => hpre4 V c (ix2 p q) * hpre4 V c (ix2 p q)))).trans
      (Cert.Layer.colSumSq_apply (hpre4 V c) q).symm

/-- The one write-back of this row, after step 9, writes the full column sums (its block is the whole row). -/
theorem flushed4_7 (t : Fin cfg4.N) (hf : (cfg4.win 7).flush t = true) :
    (dat4 V c).flushed 7 t = ((cfg4.win 7).blk t).view.read (Elt Ideal) (colSumSq (hpre4 V c)) := by
  have hN : cfg4.N = 10 := N_4
  have h9 : t.val = 9 := by have := (flush4_7 t).mp hf; have := t.isLt; omega
  have hl : 9 < cfg4.N := by omega
  have eo : ∀ (n : ℕ) (hn : n < cfg4.N), n = 9 → outsAt4 V c n hn = outsAt4 V c 9 hl :=
    fun n hn e => by subst e; rfl
  show (cfg4.win 7).cut (grid4.coords t) ((dat4 V c).after 7 t) = _
  rw [after4_7, eo t.val t.isLt h9, row4_7 V c hl]
  have e0 := (whole4 t).2.2.2.2.2.2.2.2.1
  have e1 := (whole4 t).2.2.2.2.2.2.2.2.2
  have hz' : (fun a => win4_7.index t a * main_v81_2.ty.shape.size a) = fun _ => 0 := funext fun a => by
    fin_cases a
    · show win4_7.index t (0 : Fin 2) * 1 = 0; rw [e0]
    · show win4_7.index t (1 : Fin 2) * 64 = 0; rw [e1]
  generalize colSumSq (hpre4 V c) = G
  exact (Memref.read_access_unit_zero (Elt Ideal) main_v81_2 hz' (fun a => by rw [congrFun hz' a]; simp) G).symm

/-- The last step's block is the whole row. -/
theorem cover4_7 (i : S1x64.Idx) :
    ∃ t : Fin cfg4.N, (cfg4.win 7).flush t = true ∧ i ∈ ((cfg4.win 7).blk t).view.set := by
  have hi0 : (i 0).val < 1 := (i 0).isLt
  have hi1 : (i 1).val < 64 := (i 1).isLt
  have e0 := (whole4 last4).2.2.2.2.2.2.2.2.1
  have e1 := (whole4 last4).2.2.2.2.2.2.2.2.2
  refine ⟨last4, (flush4_7 last4).mpr rfl, ?_⟩
  rw [mem_blk4_7]
  intro a
  match a with
  | ⟨0, _⟩ => show win4_7.index last4 (0 : Fin 2) * 1 ≤ (i 0).val ∧ (i 0).val < win4_7.index last4 (0 : Fin 2) * 1 + 1; rw [e0]; omega
  | ⟨1, _⟩ => show win4_7.index last4 (1 : Fin 2) * 64 ≤ (i 1).val ∧ (i 1).val < win4_7.index last4 (1 : Fin 2) * 64 + 64; rw [e1]; omega

end Region4

/-- The pre-activations array after the stage: the dense step of the arrays the stage found. -/
theorem final4_5 (V : (c : Dev nD) → (b : Ref sig .tc) → Buf (Elt Ideal) ((c : Thread nD τ).loc b)) (c : Dev nD) :
    (Gen.dat4 (F := Ideal) V c).arrAt 5 cfg4.N
      = Cert.Layer.lin (V c (Pipeline.arrRef spec4 0)) (V c (Pipeline.arrRef spec4 1)) (V c (Pipeline.arrRef spec4 2)) (V c (Pipeline.arrRef spec4 3)) (V c (Pipeline.arrRef spec4 4)) :=
  (dat4 V c).arrAt_eq_of_cover 5 (hpre4 V c) (fun t _ => flushed4_5 V c t) cover4_5

/-- The row of sums after the stage: the column sums of that dense step. -/
theorem final4_6 (V : (c : Dev nD) → (b : Ref sig .tc) → Buf (Elt Ideal) ((c : Thread nD τ).loc b)) (c : Dev nD) :
    (Gen.dat4 (F := Ideal) V c).arrAt 6 cfg4.N
      = Cert.Layer.colSum (Cert.Layer.lin (V c (Pipeline.arrRef spec4 0)) (V c (Pipeline.arrRef spec4 1)) (V c (Pipeline.arrRef spec4 2)) (V c (Pipeline.arrRef spec4 3)) (V c (Pipeline.arrRef spec4 4))) :=
  (dat4 V c).arrAt_eq_of_cover 6 (colSum (hpre4 V c)) (flushed4_6 V c) cover4_6

/-- The row of sums of squares after the stage: the column sums of squares of that dense step. -/
theorem final4_7 (V : (c : Dev nD) → (b : Ref sig .tc) → Buf (Elt Ideal) ((c : Thread nD τ).loc b)) (c : Dev nD) :
    (Gen.dat4 (F := Ideal) V c).arrAt 7 cfg4.N
      = Cert.Layer.colSumSq (Cert.Layer.lin (V c (Pipeline.arrRef spec4 0)) (V c (Pipeline.arrRef spec4 1)) (V c (Pipeline.arrRef spec4 2)) (V c (Pipeline.arrRef spec4 3)) (V c (Pipeline.arrRef spec4 4))) :=
  (dat4 V c).arrAt_eq_of_cover 7 (colSumSq (hpre4 V c)) (flushed4_7 V c) cover4_7

end Cert.KernelIdeal.RegionValue

end
-- ==== Proof.RegionA5.lean ====
/-
  The normalising step of one layer, read off the pipeline's write-backs.

  The pipeline walks ten row blocks of 5000 rows.  At block t the body holds rows 5000·t … 5000·t + 4999 of the
  pre-activation array and the four per-column rows (mean, variance, gain, offset), and stores, at row p and column q of
  the block, tanh(((h − mean q)·rsqrt(var q + eps))·gain q + offset q) with h the pre-activation at row 5000·t + p.  That
  is block t of ONE function of the whole arrays, the blocks tile the 50000 rows, and every block is written back: so the
  output array ends holding that function.
-/
import proofs.«147565_j9259949490665_1_alg».proof.Proof.Gen.KernelIdeal.Frame
import proofs.«147565_j9259949490665_1_alg».proof.Proof.Spec
import Idealize.ShloMosaic.Lib.Pipeline.Value
import Idealize.ShloMosaic.Lib.ValueLayout

set_option maxRecDepth 16384

noncomputable section

namespace Cert.KernelIdeal.RegionValue

open Idealize.ShloMosaic Idealize.ShloMosaic.TcCoe Idealize.ShloMosaic.ValueIdx
open Idealize.ShloMosaic.Pipeline (Dat)

/-- The zero offsets of an access to a whole buffer. -/
theorem zero_off5 : (![0, 0] : Fin 2 → Nat) = fun _ => 0 := funext fun a => by fin_cases a <;> rfl

/-- Two functions of a 5000×64 block agree when they agree at every row and column. -/
theorem ext_block5 {α : Type} (f g : S5000x64.Idx → α) (h : ∀ (p : Fin 5000) (q : Fin 64), f (ix2 p q) = g (ix2 p q)) :
    f = g := funext fun j => by rw [eq_ix2 j]; exact h _ _

/-- The body's arithmetic at row p, column q of its block: the four rows are read at column q, the constant is the
    same binary word as the specification's. -/
theorem pay5_apply (x0 : Vec Ideal S5000x64 .f32) (x1 x2 x3 x4 : Vec Ideal S1x64 .f32) (p : Fin 5000) (q : Fin 64) :
    Gen.k5_pay1 (F := Ideal) x2 x0 x1 x3 x4 (ix2 p q)
      = Ideal.tanh ((((x0 (ix2 p q) - x1 (ix2 0 q)) * Ideal.rsqrt (x2 (ix2 0 q) + Cert.Layer.eps)) * x3 (ix2 0 q))
          + x4 (ix2 0 q)) := by
  unfold Gen.k5_pay1
  simp only [shapeCast_self]
  show Ideal.tanh ((((x0 (ix2 p q) - broadcastTo S5000x64 x1 _ (ix2 p q))
      * broadcastTo S5000x64 (rsqrt (F := Ideal) (addf (F := Ideal) x2 (broadcast S1x64 (Scalar.ofBits (F := Ideal) .f32 0x3727C5AC#32)))) _ (ix2 p q))
      * broadcastTo S5000x64 x3 _ (ix2 p q)) + broadcastTo S5000x64 x4 _ (ix2 p q)) = _
  simp only [broadcastTo_1b_ab_apply]
  rfl

/-- What the body leaves in the output block: its one store covers the block, and its loads read whole blocks, so the
    block holds the body's arithmetic of the five input blocks. -/
theorem out5_eq (x0 : Vec Ideal S5000x64 .f32) (x1 x2 x3 x4 : Vec Ideal S1x64 .f32) :
    Gen.out5_5 (F := Ideal) x0 x1 x2 x3 x4 = Gen.k5_pay1 x2 x0 x1 x3 x4 := by
  unfold Gen.out5_5
  rw [View.canon_unit_zero zero_off5]
  simp only [View.ld_unit_zero (S := S5000x64) zero_off5, View.ld_unit_zero (S := S1x64) zero_off5]

/-- When row p of the first block is row r of a whole array and the four rows are those of whole arrays, entry (p, q) of
    the output block is entry (r, q) of the normalising step of the whole arrays. -/
theorem block_val5 (x0 : Vec Ideal S5000x64 .f32) (x1 x2 x3 x4 : Vec Ideal S1x64 .f32)
    (A0 : Cert.Layer.Mat 50000 64) (A1 A2 A3 A4 : Cert.Layer.Mat 1 64) (p : Fin 5000) (q : Fin 64) (r : Fin 50000)
    (h0 : x0 (ix2 p q) = A0 (ix2 r q)) (h1 : x1 (ix2 0 q) = A1 (ix2 0 q)) (h2 : x2 (ix2 0 q) = A2 (ix2 0 q))
    (h3 : x3 (ix2 0 q) = A3 (ix2 0 q)) (h4 : x4 (ix2 0 q) = A4 (ix2 0 q)) :
    Gen.out5_5 (F := Ideal) x0 x1 x2 x3 x4 (ix2 p q) = Cert.Layer.bn A0 A1 A2 A3 A4 (ix2 r q) := by
  rw [out5_eq, pay5_apply, Cert.Layer.bn_apply, h0, h1, h2, h3, h4]

/-- The block index of every window at every point of the grid: the two row-blocked windows sit at block (t, 0), the
    four rows at block (0, 0). -/
theorem idx_facts5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- The grid has ten points. -/
theorem point_lt5 (t : Fin cfg5.N) : t.val < 10 := lt_of_lt_of_eq t.isLt Gen.N_5

/-- Row p, column q of the pre-activation block at point t sits at row 5000·t + p of the pre-activation array. -/
theorem emb5_0 (t : Fin cfg5.N) (p : Fin 5000) (q : Fin 64) (r : Fin 50000) (hr : r.val = t.val * 5000 + p.val) :
    (((cfg5.win 0).blk t).view.emb (ix2 p q : S5000x64.Idx) : S50000x64.Idx) = ix2 r q := by
  obtain ⟨e0, e1, -⟩ := idx_facts5 t
  refine funext fun a => Fin.ext ?_
  match a with
  | ⟨0, _⟩ => show win5_0.index t (0 : Fin 2) * 5000 + 1 * p.val = r.val; rw [e0, hr]; omega
  | ⟨1, _⟩ => show win5_0.index t (1 : Fin 2) * 64 + 1 * q.val = q.val; rw [e1]; omega

/-- Column q of per-column row 1's block at any point sits at column q of the row. -/
theorem emb5_1 (t : Fin cfg5.N) (q : Fin 64) :
    (((cfg5.win 1).blk t).view.emb (ix2 0 q : S1x64.Idx) : S1x64.Idx) = ix2 0 q := by
  obtain ⟨-, -, e0, e1, -⟩ := idx_facts5 t
  refine funext fun a => Fin.ext ?_
  match a with
  | ⟨0, _⟩ => show win5_1.index t (0 : Fin 2) * 1 + 1 * 0 = 0; rw [e0]
  | ⟨1, _⟩ => show win5_1.index t (1 : Fin 2) * 64 + 1 * q.val = q.val; rw [e1]; omega

/-- Column q of per-column row 2's block at any point sits at column q of the row. -/
theorem emb5_2 (t : Fin cfg5.N) (q : Fin 64) :
    (((cfg5.win 2).blk t).view.emb (ix2 0 q : S1x64.Idx) : S1x64.Idx) = ix2 0 q := by
  obtain ⟨-, -, -, -, e0, e1, -⟩ := idx_facts5 t
  refine funext fun a => Fin.ext ?_
  match a with
  | ⟨0, _⟩ => show win5_2.index t (0 : Fin 2) * 1 + 1 * 0 = 0; rw [e0]
  | ⟨1, _⟩ => show win5_2.index t (1 : Fin 2) * 64 + 1 * q.val = q.val; rw [e1]; omega

/-- Column q of per-column row 3's block at any point sits at column q of the row. -/
theorem emb5_3 (t : Fin cfg5.N) (q : Fin 64) :
    (((cfg5.win 3).blk t).view.emb (ix2 0 q : S1x64.Idx) : S1x64.Idx) = ix2 0 q := by
  obtain ⟨-, -, -, -, -, -, e0, e1, -⟩ := idx_facts5 t
  refine funext fun a => Fin.ext ?_
  match a with
  | ⟨0, _⟩ => show win5_3.index t (0 : Fin 2) * 1 + 1 * 0 = 0; rw [e0]
  | ⟨1, _⟩ => show win5_3.index t (1 : Fin 2) * 64 + 1 * q.val = q.val; rw [e1]; omega

/-- Column q of per-column row 4's block at any point sits at column q of the row. -/
theorem emb5_4 (t : Fin cfg5.N) (q : Fin 64) :
    (((cfg5.win 4).blk t).view.emb (ix2 0 q : S1x64.Idx) : S1x64.Idx) = ix2 0 q := by
  obtain ⟨-, -, -, -, -, -, -, -, e0, e1, -⟩ := idx_facts5 t
  refine funext fun a => Fin.ext ?_
  match a with
  | ⟨0, _⟩ => show win5_4.index t (0 : Fin 2) * 1 + 1 * 0 = 0; rw [e0]
  | ⟨1, _⟩ => show win5_4.index t (1 : Fin 2) * 64 + 1 * q.val = q.val; rw [e1]; omega

/-- Row p, column q of the output block at point t sits at row 5000·t + p of the output array. -/
theorem emb5_5 (t : Fin cfg5.N) (p : Fin 5000) (q : Fin 64) (r : Fin 50000) (hr : r.val = t.val * 5000 + p.val) :
    (((cfg5.win 5).blk t).view.emb (ix2 p q : S5000x64.Idx) : S50000x64.Idx) = ix2 r q := by
  obtain ⟨-, -, -, -, -, -, -, -, -, -, e0, e1⟩ := idx_facts5 t
  refine funext fun a => Fin.ext ?_
  match a with
  | ⟨0, _⟩ => show win5_5.index t (0 : Fin 2) * 5000 + 1 * p.val = r.val; rw [e0, hr]; omega
  | ⟨1, _⟩ => show win5_5.index t (1 : Fin 2) * 64 + 1 * q.val = q.val; rw [e1]; omega

section
variable (V : (c : Dev nD) → (b : Ref sig .tc) → Buf (Elt Ideal) ((c : Thread nD τ).loc b))

set_option maxHeartbeats 1000000 in
/-- Row p, column q of the pre-activation block at point t is row 5000·t + p of the pre-activation array. -/
theorem blk5_0_apply (c : Dev nD) (t : Fin cfg5.N) (p : Fin 5000) (q : Fin 64) (r : Fin 50000)
    (hr : r.val = t.val * 5000 + p.val) :
    (Gen.iblk5 (F := Ideal) V c 0 t : S5000x64.Idx → EReal) (ix2 p q)
      = (V c (Pipeline.arrRef spec5 0) : S50000x64.Idx → EReal) (ix2 r q) :=
  congrArg (V c (Pipeline.arrRef spec5 0) : S50000x64.Idx → EReal) (emb5_0 t p q r hr)

set_option maxHeartbeats 1000000 in
/-- The block of per-column row 1 at any point is the row itself. -/
theorem blk5_1_apply (c : Dev nD) (t : Fin cfg5.N) (q : Fin 64) :
    (Gen.iblk5 (F := Ideal) V c 1 t : S1x64.Idx → EReal) (ix2 0 q)
      = (V c (Pipeline.arrRef spec5 1) : S1x64.Idx → EReal) (ix2 0 q) :=
  congrArg (V c (Pipeline.arrRef spec5 1) : S1x64.Idx → EReal) (emb5_1 t q)

set_option maxHeartbeats 1000000 in
/-- The block of per-column row 2 at any point is the row itself. -/
theorem blk5_2_apply (c : Dev nD) (t : Fin cfg5.N) (q : Fin 64) :
    (Gen.iblk5 (F := Ideal) V c 2 t : S1x64.Idx → EReal) (ix2 0 q)
      = (V c (Pipeline.arrRef spec5 2) : S1x64.Idx → EReal) (ix2 0 q) :=
  congrArg (V c (Pipeline.arrRef spec5 2) : S1x64.Idx → EReal) (emb5_2 t q)

set_option maxHeartbeats 1000000 in
/-- The block of per-column row 3 at any point is the row itself. -/
theorem blk5_3_apply (c : Dev nD) (t : Fin cfg5.N) (q : Fin 64) :
    (Gen.iblk5 (F := Ideal) V c 3 t : S1x64.Idx → EReal) (ix2 0 q)
      = (V c (Pipeline.arrRef spec5 3) : S1x64.Idx → EReal) (ix2 0 q) :=
  congrArg (V c (Pipeline.arrRef spec5 3) : S1x64.Idx → EReal) (emb5_3 t q)

set_option maxHeartbeats 1000000 in
/-- The block of per-column row 4 at any point is the row itself. -/
theorem blk5_4_apply (c : Dev nD) (t : Fin cfg5.N) (q : Fin 64) :
    (Gen.iblk5 (F := Ideal) V c 4 t : S1x64.Idx → EReal) (ix2 0 q)
      = (V c (Pipeline.arrRef spec5 4) : S1x64.Idx → EReal) (ix2 0 q) :=
  congrArg (V c (Pipeline.arrRef spec5 4) : S1x64.Idx → EReal) (emb5_4 t q)

set_option maxHeartbeats 1000000 in
/-- What point t writes back is block t of the normalising step of the whole arrays. -/
theorem flushed5_5_eq (c : Dev nD) (t : Fin cfg5.N) :
    (Gen.dat5 (F := Ideal) V c).flushed 5 t
      = ((cfg5.win 5).blk t).view.read (Elt Ideal)
          (Cert.Layer.bn (V c (Pipeline.arrRef spec5 0)) (V c (Pipeline.arrRef spec5 1)) (V c (Pipeline.arrRef spec5 2))
            (V c (Pipeline.arrRef spec5 3)) (V c (Pipeline.arrRef spec5 4))) := by
  show (cfg5.win 5).cut (grid5.coords t) ((Gen.dat5 V c).after 5 t) = _
  rw [Gen.after5_5]
  refine ext_block5 _ _ fun p q => ?_
  have hp : p.val < 5000 := p.isLt
  have ht : t.val < 10 := point_lt5 t
  have hr : t.val * 5000 + p.val < 50000 := by omega
  exact (block_val5 (Gen.iblk5 V c 0 t) (Gen.iblk5 V c 1 t) (Gen.iblk5 V c 2 t) (Gen.iblk5 V c 3 t)
      (Gen.iblk5 V c 4 t) (V c (Pipeline.arrRef spec5 0)) (V c (Pipeline.arrRef spec5 1))
      (V c (Pipeline.arrRef spec5 2)) (V c (Pipeline.arrRef spec5 3)) (V c (Pipeline.arrRef spec5 4))
      p q ⟨t.val * 5000 + p.val, hr⟩ (blk5_0_apply V c t p q _ rfl) (blk5_1_apply V c t q) (blk5_2_apply V c t q)
      (blk5_3_apply V c t q) (blk5_4_apply V c t q)).trans
    (congrArg (Cert.Layer.bn (V c (Pipeline.arrRef spec5 0)) (V c (Pipeline.arrRef spec5 1))
      (V c (Pipeline.arrRef spec5 2)) (V c (Pipeline.arrRef spec5 3)) (V c (Pipeline.arrRef spec5 4)))
      (emb5_5 t p q ⟨t.val * 5000 + p.val, hr⟩ rfl).symm)

/-- An index of the output array lies in point t's block iff each coordinate lies in the block's range on its axis. -/
theorem mem_blk5_5 (t : Fin cfg5.N) (i : S50000x64.Idx) :
    i ∈ ((cfg5.win 5).blk t).view.set
      ↔ ∀ a : Fin 2, win5_5.index t a * S5000x64.size a ≤ (i a).val
          ∧ (i a).val < win5_5.index t a * S5000x64.size a + S5000x64.size a := by
  show i ∈ ((View.whole main_v90).slice (win5_5.rect t)).set ↔ _
  rw [View.set_slice_whole, Rect.mem_set_unit]
  exact Iff.rfl

/-- Every row of the output array lies in a block that is written back: row r in the block of point r / 5000. -/
theorem cover5_5 (i : S50000x64.Idx) :
    ∃ t : Fin cfg5.N, (cfg5.win 5).flush t = true ∧ i ∈ ((cfg5.win 5).blk t).view.set := by
  have hi0 : (i 0).val < 50000 := (i 0).isLt
  have hi1 : (i 1).val < 64 := (i 1).isLt
  have hN : (i 0).val / 5000 < cfg5.N := lt_of_lt_of_eq (by omega : (i 0).val / 5000 < 10) Gen.N_5.symm
  refine ⟨⟨(i 0).val / 5000, hN⟩, Gen.flush5_5 _, ?_⟩
  obtain ⟨-, -, -, -, -, -, -, -, -, -, e0, e1⟩ := idx_facts5 ⟨(i 0).val / 5000, hN⟩
  rw [mem_blk5_5]
  intro a
  match a with
  | ⟨0, _⟩ =>
    show win5_5.index ⟨(i 0).val / 5000, hN⟩ (0 : Fin 2) * 5000 ≤ (i 0).val
      ∧ (i 0).val < win5_5.index ⟨(i 0).val / 5000, hN⟩ (0 : Fin 2) * 5000 + 5000
    rw [e0]; show (i 0).val / 5000 * 5000 ≤ (i 0).val ∧ (i 0).val < (i 0).val / 5000 * 5000 + 5000; omega
  | ⟨1, _⟩ =>
    show win5_5.index ⟨(i 0).val / 5000, hN⟩ (1 : Fin 2) * 64 ≤ (i 1).val
      ∧ (i 1).val < win5_5.index ⟨(i 0).val / 5000, hN⟩ (1 : Fin 2) * 64 + 64
    rw [e1]; omega

set_option maxHeartbeats 1000000 in
/-- The output array after the region: the normalising step of the arrays the region found. -/
theorem final5_5 (c : Dev nD) :
    (Gen.dat5 (F := Ideal) V c).arrAt 5 cfg5.N
      = Cert.Layer.bn (V c (Pipeline.arrRef spec5 0)) (V c (Pipeline.arrRef spec5 1)) (V c (Pipeline.arrRef spec5 2))
          (V c (Pipeline.arrRef spec5 3)) (V c (Pipeline.arrRef spec5 4)) :=
  (Gen.dat5 V c).arrAt_eq_of_cover 5 _ (fun t _ => flushed5_5_eq V c t) cover5_5

end

end Cert.KernelIdeal.RegionValue

end
-- ==== Proof.KLayer2.lean ====
/-
  Layer 2 of the kernel program, from the buffer contents before its first host operation to its output array: the
  dense step and its two column-sum rows (launch 4), the mean and variance rows, and the normalising step (launch 5).
-/
import proofs.«147565_j9259949490665_1_alg».proof.Proof.KHostA2
import proofs.«147565_j9259949490665_1_alg».proof.Proof.KHostB2
import proofs.«147565_j9259949490665_1_alg».proof.Proof.RegionR4
import proofs.«147565_j9259949490665_1_alg».proof.Proof.RegionA5

set_option maxRecDepth 16384

noncomputable section

namespace Cert.KernelIdeal.Fold

open Idealize.ShloMosaic Idealize.ShloMosaic.TcCoe Idealize.SL.Sem Idealize.ShloMosaic.ValueIdx
open Cert.KernelIdeal Cert.KernelIdeal.Gen Cert.KernelIdeal.HostFn Cert.Layer

variable (m : (ℓ : Loc nD τ sig) → Buf (Elt Ideal) ℓ) (ρ : Dev nD → PrngReg)

set_option maxHeartbeats 1000000 in
/-- Launch 4's three result arrays at its exit. -/
theorem W10_ro0 (c : Dev nD) : W10 m ρ c (Proc.devRef .tc main_v81_0) = (lin (W9 m ρ c (Proc.devRef .tc main_v79)) (W9 m ρ c (Proc.devRef .tc main_v59)) (W9 m ρ c (Proc.devRef .tc main_v61)) (W9 m ρ c (Proc.devRef .tc main_v63)) (W9 m ρ c (Proc.devRef .tc main_v80))) :=
  (W10_arr m ρ c 5).trans (Cert.KernelIdeal.RegionValue.final4_5 (V9 m ρ) c)
set_option maxHeartbeats 1000000 in
theorem W10_ro1 (c : Dev nD) : W10 m ρ c (Proc.devRef .tc main_v81_1) = colSum (lin (W9 m ρ c (Proc.devRef .tc main_v79)) (W9 m ρ c (Proc.devRef .tc main_v59)) (W9 m ρ c (Proc.devRef .tc main_v61)) (W9 m ρ c (Proc.devRef .tc main_v63)) (W9 m ρ c (Proc.devRef .tc main_v80))) :=
  (W10_arr m ρ c 6).trans (Cert.KernelIdeal.RegionValue.final4_6 (V9 m ρ) c)
set_option maxHeartbeats 1000000 in
theorem W10_ro2 (c : Dev nD) : W10 m ρ c (Proc.devRef .tc main_v81_2) = colSumSq (lin (W9 m ρ c (Proc.devRef .tc main_v79)) (W9 m ρ c (Proc.devRef .tc main_v59)) (W9 m ρ c (Proc.devRef .tc main_v61)) (W9 m ρ c (Proc.devRef .tc main_v63)) (W9 m ρ c (Proc.devRef .tc main_v80))) :=
  (W10_arr m ρ c 7).trans (Cert.KernelIdeal.RegionValue.final4_7 (V9 m ρ) c)
theorem W10_gv (c : Dev nD) : W10 m ρ c (Proc.devRef .tc main_v67) = W9 m ρ c (Proc.devRef .tc main_v67) := W10_of_ne m ρ c main_v67 (by decide)
theorem W10_bev (c : Dev nD) : W10 m ρ c (Proc.devRef .tc main_v69) = W9 m ρ c (Proc.devRef .tc main_v69) := W10_of_ne m ρ c main_v69 (by decide)

set_option maxHeartbeats 1000000 in
/-- Launch 5's result array at its exit. -/
theorem W12_out (c : Dev nD) : W12 m ρ c (Proc.devRef .tc main_v90) = bn (W11 m ρ c (Proc.devRef .tc main_v81_0)) (W11 m ρ c (Proc.devRef .tc main_v83)) (W11 m ρ c (Proc.devRef .tc main_v87)) (W11 m ρ c (Proc.devRef .tc main_v88)) (W11 m ρ c (Proc.devRef .tc main_v89)) :=
  (W12_arr m ρ c 5).trans (Cert.KernelIdeal.RegionValue.final5_5 (V11 m ρ) c)

set_option maxHeartbeats 2000000 in
/-- The layer: its output array is the normalising step, with the array's own mean and variance, of the dense step of the
    aggregated and the plain input. -/
theorem layer2 (c : Dev nD) : W12 m ρ c (Proc.devRef .tc main_v90)
    = bnStep (lin (agg64 (W8 m ρ c (Proc.devRef .tc main_v1)) (W8 m ρ c (Proc.devRef .tc main_v3)) (W8 m ρ c (Proc.devRef .tc main_v59))) (W8 m ρ c (Proc.devRef .tc main_v59)) (matSlice ![1, 0, 0] slices_S7x64x64_S1x64x64_1_0_0 (W8 m ρ c (Proc.devRef .tc main_arg5))) (matSlice ![1, 0, 0] slices_S7x64x64_S1x64x64_1_0_0 (W8 m ρ c (Proc.devRef .tc main_arg6))) (Cert.Row.rowOf (vecSlice7 ![1, 0] slices_S7x64_S1x64_1_0 (W8 m ρ c (Proc.devRef .tc main_arg7))))) (Cert.Row.rowOf (vecSlice8 ![2, 0] slices_S8x64_S1x64_2_0 (W8 m ρ c (Proc.devRef .tc main_arg8)))) (Cert.Row.rowOf (vecSlice8 ![2, 0] slices_S8x64_S1x64_2_0 (W8 m ρ c (Proc.devRef .tc main_arg9)))) := by
  rw [W12_out, W11_hpre, W11_mean, W11_var, W11_grow, W11_berow, W10_ro0, W10_ro1, W10_ro2,
    W10_gv, W10_bev, W9_agg, W9_hp, W9_wl, W9_wr, W9_brow, W9_gv, W9_bev]
  rw [bcast1_row, bcast1_row, bcast1_row, meanRow_eq, varRow_eq]
  rfl

theorem keepL2_v1 (c : Dev nD) : W12 m ρ c (Proc.devRef .tc main_v1) = W8 m ρ c (Proc.devRef .tc main_v1) :=
  (W12_of_ne m ρ c main_v1 (by decide)).trans ((keepH5 m ρ c main_v1 (by decide)).trans ((W10_of_ne m ρ c main_v1 (by decide)).trans (keepH4 m ρ c main_v1 (by decide))))
theorem keepL2_v3 (c : Dev nD) : W12 m ρ c (Proc.devRef .tc main_v3) = W8 m ρ c (Proc.devRef .tc main_v3) :=
  (W12_of_ne m ρ c main_v3 (by decide)).trans ((keepH5 m ρ c main_v3 (by decide)).trans ((W10_of_ne m ρ c main_v3 (by decide)).trans (keepH4 m ρ c main_v3 (by decide))))
theorem keepL2_arg5 (c : Dev nD) : W12 m ρ c (Proc.devRef .tc main_arg5) = W8 m ρ c (Proc.devRef .tc main_arg5) :=
  (W12_of_ne m ρ c main_arg5 (by decide)).trans ((keepH5 m ρ c main_arg5 (by decide)).trans ((W10_of_ne m ρ c main_arg5 (by decide)).trans (keepH4 m ρ c main_arg5 (by decide))))
theorem keepL2_arg6 (c : Dev nD) : W12 m ρ c (Proc.devRef .tc main_arg6) = W8 m ρ c (Proc.devRef .tc main_arg6) :=
  (W12_of_ne m ρ c main_arg6 (by decide)).trans ((keepH5 m ρ c main_arg6 (by decide)).trans ((W10_of_ne m ρ c main_arg6 (by decide)).trans (keepH4 m ρ c main_arg6 (by decide))))
theorem keepL2_arg7 (c : Dev nD) : W12 m ρ c (Proc.devRef .tc main_arg7) = W8 m ρ c (Proc.devRef .tc main_arg7) :=
  (W12_of_ne m ρ c main_arg7 (by decide)).trans ((keepH5 m ρ c main_arg7 (by decide)).trans ((W10_of_ne m ρ c main_arg7 (by decide)).trans (keepH4 m ρ c main_arg7 (by decide))))
theorem keepL2_arg8 (c : Dev nD) : W12 m ρ c (Proc.devRef .tc main_arg8) = W8 m ρ c (Proc.devRef .tc main_arg8) :=
  (W12_of_ne m ρ c main_arg8 (by decide)).trans ((keepH5 m ρ c main_arg8 (by decide)).trans ((W10_of_ne m ρ c main_arg8 (by decide)).trans (keepH4 m ρ c main_arg8 (by decide))))
theorem keepL2_arg9 (c : Dev nD) : W12 m ρ c (Proc.devRef .tc main_arg9) = W8 m ρ c (Proc.devRef .tc main_arg9) :=
  (W12_of_ne m ρ c main_arg9 (by decide)).trans ((keepH5 m ρ c main_arg9 (by decide)).trans ((W10_of_ne m ρ c main_arg9 (by decide)).trans (keepH4 m ρ c main_arg9 (by decide))))
theorem keepL2_arg10 (c : Dev nD) : W12 m ρ c (Proc.devRef .tc main_arg10) = W8 m ρ c (Proc.devRef .tc main_arg10) :=
  (W12_of_ne m ρ c main_arg10 (by decide)).trans ((keepH5 m ρ c main_arg10 (by decide)).trans ((W10_of_ne m ρ c main_arg10 (by decide)).trans (keepH4 m ρ c main_arg10 (by decide))))
theorem keepL2_arg11 (c : Dev nD) : W12 m ρ c (Proc.devRef .tc main_arg11) = W8 m ρ c (Proc.devRef .tc main_arg11) :=
  (W12_of_ne m ρ c main_arg11 (by decide)).trans ((keepH5 m ρ c main_arg11 (by decide)).trans ((W10_of_ne m ρ c main_arg11 (by decide)).trans (keepH4 m ρ c main_arg11 (by decide))))

end Cert.KernelIdeal.Fold

end
-- ==== Proof.KHostA3.lean ====
/-
  The host operations before launch 6: which buffers they write, and what the ones the layer reads hold afterwards.
-/
import proofs.«147565_j9259949490665_1_alg».proof.Proof.Gen.KernelIdeal.Frame
import proofs.«147565_j9259949490665_1_alg».proof.Proof.KHostFn
import proofs.«147565_j9259949490665_1_alg».proof.Proof.LayerDefs

set_option maxRecDepth 16384

noncomputable section

namespace Cert.KernelIdeal.Fold

open Idealize.ShloMosaic Idealize.ShloMosaic.TcCoe Idealize.SL.Sem Idealize.ShloMosaic.ValueIdx
open Cert.KernelIdeal Cert.KernelIdeal.Gen Cert.KernelIdeal.HostFn Cert.Layer

variable (m : (ℓ : Loc nD τ sig) → Buf (Elt Ideal) ℓ) (ρ : Dev nD → PrngReg)

/-- The buffers the host operations before launch 6 write. -/
abbrev hostOps6_W : List (Ref sig .tc) := [main_v91, main_v92, main_v93, main_v94, main_v95, main_v96, main_v97, main_v98, main_v99, main_v100, main_c_13, main_v101, main_v102, main_c_14, main_v103, main_v104, main_v105, main_v106, main_v107, main_cst_15, main_v108, main_v109, main_v110, main_v111]

theorem hostOps6_writes : (hostOps6 : List (HloOp τ sig (Elt Ideal))).Forall fun op => op.writes ⊆ (hostOps6_W.map (Proc.devRef (τ := τ) .tc)).toFinset := by
  simp only [hostOps6, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- A buffer those operations do not write keeps its contents through them. -/
theorem keepH6 (c : Dev nD) (r : Ref sig .tc) (h : r ∉ hostOps6_W) :
    W13 m ρ c (Proc.devRef .tc r) = W12 m ρ c (Proc.devRef .tc r) :=
  StableHlo.after_of_writes_sub hostOps6 _ hostOps6_writes h

theorem W13_wl (c : Dev nD) : W13 m ρ c (Proc.devRef .tc main_v92) = (matSlice ![2, 0, 0] slices_S7x64x64_S1x64x64_2_0_0 (W12 m ρ c (Proc.devRef .tc main_arg5))) := by
  show StableHlo.after hostOps6 (W12 m ρ c) (Proc.devRef .tc main_v92) = _
  simp only [hostOps6]
  first | (after_results_simp <;> rfl) | (after_results <;> rfl)
theorem W13_wr (c : Dev nD) : W13 m ρ c (Proc.devRef .tc main_v94) = (matSlice ![2, 0, 0] slices_S7x64x64_S1x64x64_2_0_0 (W12 m ρ c (Proc.devRef .tc main_arg6))) := by
  show StableHlo.after hostOps6 (W12 m ρ c) (Proc.devRef .tc main_v94) = _
  simp only [hostOps6]
  first | (after_results_simp <;> rfl) | (after_results <;> rfl)
theorem W13_brow (c : Dev nD) : W13 m ρ c (Proc.devRef .tc main_v111) = broadcastInDim S1x64 ![1] bcast_S64_S1x64_1 (vecSlice7 ![2, 0] slices_S7x64_S1x64_2_0 (W12 m ρ c (Proc.devRef .tc main_arg7))) := by
  show StableHlo.after hostOps6 (W12 m ρ c) (Proc.devRef .tc main_v111) = _
  simp only [hostOps6]
  first | (after_results_simp <;> rfl) | (after_results <;> rfl)
theorem W13_gv (c : Dev nD) : W13 m ρ c (Proc.devRef .tc main_v98) = (vecSlice8 ![3, 0] slices_S8x64_S1x64_3_0 (W12 m ρ c (Proc.devRef .tc main_arg8))) := by
  show StableHlo.after hostOps6 (W12 m ρ c) (Proc.devRef .tc main_v98) = _
  simp only [hostOps6]
  first | (after_results_simp <;> rfl) | (after_results <;> rfl)
theorem W13_bev (c : Dev nD) : W13 m ρ c (Proc.devRef .tc main_v100) = (vecSlice8 ![3, 0] slices_S8x64_S1x64_3_0 (W12 m ρ c (Proc.devRef .tc main_arg9))) := by
  show StableHlo.after hostOps6 (W12 m ρ c) (Proc.devRef .tc main_v100) = _
  simp only [hostOps6]
  first | (after_results_simp <;> rfl) | (after_results <;> rfl)
theorem W13_agg (c : Dev nD) : W13 m ρ c (Proc.devRef .tc main_v110) = (agg64 (W12 m ρ c (Proc.devRef .tc main_v1)) (W12 m ρ c (Proc.devRef .tc main_v3)) (W12 m ρ c (Proc.devRef .tc main_v90))) := by
  show StableHlo.after hostOps6 (W12 m ρ c) (Proc.devRef .tc main_v110) = _
  simp only [hostOps6]
  first | (after_results_simp <;> rfl) | (after_results <;> rfl)
theorem W13_hp (c : Dev nD) : W13 m ρ c (Proc.devRef .tc main_v90) = W12 m ρ c (Proc.devRef .tc main_v90) := keepH6 m ρ c main_v90 (by decide)

end Cert.KernelIdeal.Fold

end
-- ==== Proof.KHostB3.lean ====
/-
  The host operations before launch 7: the mean row, the variance row, the gain and offset rows.
-/
import proofs.«147565_j9259949490665_1_alg».proof.Proof.Gen.KernelIdeal.Frame
import proofs.«147565_j9259949490665_1_alg».proof.Proof.KHostFn
import proofs.«147565_j9259949490665_1_alg».proof.Proof.LayerDefs

set_option maxRecDepth 16384

noncomputable section

namespace Cert.KernelIdeal.Fold

open Idealize.ShloMosaic Idealize.ShloMosaic.TcCoe Idealize.SL.Sem Idealize.ShloMosaic.ValueIdx
open Cert.KernelIdeal Cert.KernelIdeal.Gen Cert.KernelIdeal.HostFn Cert.Layer

variable (m : (ℓ : Loc nD τ sig) → Buf (Elt Ideal) ℓ) (ρ : Dev nD → PrngReg)

/-- The buffers the host operations before launch 7 write. -/
abbrev hostOps7_W : List (Ref sig .tc) := [main_cst_16, main_v113, main_v114, main_cst_17, main_v115, main_v116, main_v117, main_v118, main_v119, main_v120]

theorem hostOps7_writes : (hostOps7 : List (HloOp τ sig (Elt Ideal))).Forall fun op => op.writes ⊆ (hostOps7_W.map (Proc.devRef (τ := τ) .tc)).toFinset := by
  simp only [hostOps7, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- A buffer those operations do not write keeps its contents through them. -/
theorem keepH7 (c : Dev nD) (r : Ref sig .tc) (h : r ∉ hostOps7_W) :
    W15 m ρ c (Proc.devRef .tc r) = W14 m ρ c (Proc.devRef .tc r) :=
  StableHlo.after_of_writes_sub hostOps7 _ hostOps7_writes h

theorem W15_mean (c : Dev nD) : W15 m ρ c (Proc.devRef .tc main_v114) = (Host.divf (F := Ideal) (W14 m ρ c (Proc.devRef .tc main_v112_1)) (broadcastInDim S1x64 ![] bcast_S_S1x64 (constant (F := Ideal) S_ .f32 0x47435000#32)) : FVec Ideal S1x64 .f32) := by
  show StableHlo.after hostOps7 (W14 m ρ c) (Proc.devRef .tc main_v114) = _
  simp only [hostOps7]
  first | (after_results_simp <;> rfl) | (after_results <;> rfl)
theorem W15_var (c : Dev nD) : W15 m ρ c (Proc.devRef .tc main_v118) = (subf (F := Ideal) (Host.divf (F := Ideal) (W14 m ρ c (Proc.devRef .tc main_v112_2)) (broadcastInDim S1x64 ![] bcast_S_S1x64 (constant (F := Ideal) S_ .f32 0x47435000#32))) (mulf (F := Ideal) (Host.divf (F := Ideal) (W14 m ρ c (Proc.devRef .tc main_v112_1)) (broadcastInDim S1x64 ![] bcast_S_S1x64 (constant (F := Ideal) S_ .f32 0x47435000#32))) (Host.divf (F := Ideal) (W14 m ρ c (Proc.devRef .tc main_v112_1)) (broadcastInDim S1x64 ![] bcast_S_S1x64 (constant (F := Ideal) S_ .f32 0x47435000#32)))) : FVec Ideal S1x64 .f32) := by
  show StableHlo.after hostOps7 (W14 m ρ c) (Proc.devRef .tc main_v118) = _
  simp only [hostOps7]
  first | (after_results_simp <;> rfl) | (after_results <;> rfl)
theorem W15_grow (c : Dev nD) : W15 m ρ c (Proc.devRef .tc main_v119) = (broadcastInDim S1x64 ![1] bcast_S64_S1x64_1 (W14 m ρ c (Proc.devRef .tc main_v98)) : FVec Ideal S1x64 .f32) := by
  show StableHlo.after hostOps7 (W14 m ρ c) (Proc.devRef .tc main_v119) = _
  simp only [hostOps7]
  first | (after_results_simp <;> rfl) | (after_results <;> rfl)
theorem W15_berow (c : Dev nD) : W15 m ρ c (Proc.devRef .tc main_v120) = (broadcastInDim S1x64 ![1] bcast_S64_S1x64_1 (W14 m ρ c (Proc.devRef .tc main_v100)) : FVec Ideal S1x64 .f32) := by
  show StableHlo.after hostOps7 (W14 m ρ c) (Proc.devRef .tc main_v120) = _
  simp only [hostOps7]
  first | (after_results_simp <;> rfl) | (after_results <;> rfl)
theorem W15_hpre (c : Dev nD) : W15 m ρ c (Proc.devRef .tc main_v112_0) = W14 m ρ c (Proc.devRef .tc main_v112_0) := keepH7 m ρ c main_v112_0 (by decide)

end Cert.KernelIdeal.Fold

end
-- ==== Proof.RegionR6Pieces.lean ====
/-
  What one step of the dense-step body leaves in its three result blocks, as arithmetic of the blocks it read.

  At the first step of a run the two running rows are set to zero before the step adds to them; at every later step
  they are read as the step before left them.  In both cases the block of pre-activations is the same arithmetic of
  the five operand blocks, the row of sums is the previous row plus the block's column sums, and the row of sums of
  squares is the previous row plus the block's column sums of squares.
-/
import proofs.«147565_j9259949490665_1_alg».proof.Proof.Gen.KernelIdeal.Frame
import proofs.«147565_j9259949490665_1_alg».proof.Proof.LibColumnSum
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.RegionValue

open Cert.KernelIdeal Cert.KernelIdeal.Gen
open Cert.LibColumnSum (offsets_zero)

variable {F : FTy → Type} [FloatOps F]

theorem out6_A_5_eq (c : Dev nD) (i : grid6.Coords) (a1 : Memref sig .tc .vmem S5000x64 .f32) (h1 : a1.IsWhole) (a2 : Memref sig .tc .vmem S5000x64 .f32) (h2 : a2.IsWhole) (a3 : Memref sig .tc .vmem S64x64 .f32) (h3 : a3.IsWhole) (a4 : Memref sig .tc .vmem S64x64 .f32) (h4 : a4.IsWhole) (a5 : Memref sig .tc .vmem S1x64 .f32) (h5 : a5.IsWhole) (a6 : Memref sig .tc .vmem S5000x64 .f32) (h6 : a6.IsWhole) (a7 : Memref sig .tc .vmem S1x64 .f32) (h7 : a7.IsWhole) (a8 : Memref sig .tc .vmem S1x64 .f32) (h8 : a8.IsWhole) (hc : cond6_0 i)
    (x0 : Vec F S5000x64 .f32) (x1 : Vec F S5000x64 .f32) (x2 : Vec F S64x64 .f32) (x3 : Vec F S64x64 .f32) (x4 : Vec F S1x64 .f32) :
    out6_A_5 c i a1 h1 a2 h2 a3 h3 a4 h4 a5 h5 a6 h6 a7 h7 a8 h8 hc x0 x1 x2 x3 x4 = k6_pay4 x0 x2 x4 x1 x3 := by
  unfold out6_A_5
  rw [View.read_writes_eq_canon _ _ _ (cover6_A_5 c i a1 h1 a2 h2 a3 h3 a4 h4 a5 h5 a6 h6 a7 h7 a8 h8 hc x0 x1 x2 x3 x4)]
  unfold kernelRun6_A
  dsimp only
  sl_unfold_words
  rw [View.canon_unit_zero offsets_zero]
  simp only [View.readAt_eq_ld, h1.read_unread, h2.read_unread, h3.read_unread, h4.read_unread, h5.read_unread, h7.read_unread, h8.read_unread, View.ld_unit_zero (S := S5000x64) offsets_zero, View.ld_unit_zero (S := S64x64) offsets_zero, View.ld_unit_zero (S := S1x64) offsets_zero]

theorem out6_A_6_eq (c : Dev nD) (i : grid6.Coords) (a1 : Memref sig .tc .vmem S5000x64 .f32) (h1 : a1.IsWhole) (a2 : Memref sig .tc .vmem S5000x64 .f32) (h2 : a2.IsWhole) (a3 : Memref sig .tc .vmem S64x64 .f32) (h3 : a3.IsWhole) (a4 : Memref sig .tc .vmem S64x64 .f32) (h4 : a4.IsWhole) (a5 : Memref sig .tc .vmem S1x64 .f32) (h5 : a5.IsWhole) (a6 : Memref sig .tc .vmem S5000x64 .f32) (h6 : a6.IsWhole) (a7 : Memref sig .tc .vmem S1x64 .f32) (h7 : a7.IsWhole) (a8 : Memref sig .tc .vmem S1x64 .f32) (h8 : a8.IsWhole) (hc : cond6_0 i)
    (x0 : Vec F S5000x64 .f32) (x1 : Vec F S5000x64 .f32) (x2 : Vec F S64x64 .f32) (x3 : Vec F S64x64 .f32) (x4 : Vec F S1x64 .f32) :
    out6_A_6 c i a1 h1 a2 h2 a3 h3 a4 h4 a5 h5 a6 h6 a7 h7 a8 h8 hc x0 x1 x2 x3 x4 = k6_pay5 x0 x2 x4 x1 x3 (k6_pay2 (F := F)) := by
  unfold out6_A_6
  rw [View.read_writes_eq_canon _ _ _ (cover6_A_6 c i a1 h1 a2 h2 a3 h3 a4 h4 a5 h5 a6 h6 a7 h7 a8 h8 hc x0 x1 x2 x3 x4)]
  unfold kernelRun6_A
  dsimp only
  sl_unfold_words
  rw [View.canon_cons_unit_zero (S := S1x64) offsets_zero, View.readCov_unit_zero (S := S1x64) _ offsets_zero]
  simp only [View.readAt_eq_ld, h1.read_unread, h2.read_unread, h3.read_unread, h4.read_unread, h5.read_unread, h7.read_unread, h8.read_unread, View.ld_unit_zero (S := S5000x64) offsets_zero, View.ld_unit_zero (S := S64x64) offsets_zero, View.ld_unit_zero (S := S1x64) offsets_zero]

theorem out6_A_7_eq (c : Dev nD) (i : grid6.Coords) (a1 : Memref sig .tc .vmem S5000x64 .f32) (h1 : a1.IsWhole) (a2 : Memref sig .tc .vmem S5000x64 .f32) (h2 : a2.IsWhole) (a3 : Memref sig .tc .vmem S64x64 .f32) (h3 : a3.IsWhole) (a4 : Memref sig .tc .vmem S64x64 .f32) (h4 : a4.IsWhole) (a5 : Memref sig .tc .vmem S1x64 .f32) (h5 : a5.IsWhole) (a6 : Memref sig .tc .vmem S5000x64 .f32) (h6 : a6.IsWhole) (a7 : Memref sig .tc .vmem S1x64 .f32) (h7 : a7.IsWhole) (a8 : Memref sig .tc .vmem S1x64 .f32) (h8 : a8.IsWhole) (hc : cond6_0 i)
    (x0 : Vec F S5000x64 .f32) (x1 : Vec F S5000x64 .f32) (x2 : Vec F S64x64 .f32) (x3 : Vec F S64x64 .f32) (x4 : Vec F S1x64 .f32) :
    out6_A_7 c i a1 h1 a2 h2 a3 h3 a4 h4 a5 h5 a6 h6 a7 h7 a8 h8 hc x0 x1 x2 x3 x4 = k6_pay1 (k6_pay6 (k6_pay3 (F := F))) (k6_pay7 x0 x2 x4 x1 x3) := by
  unfold out6_A_7
  rw [View.read_writes_eq_canon _ _ _ (cover6_A_7 c i a1 h1 a2 h2 a3 h3 a4 h4 a5 h5 a6 h6 a7 h7 a8 h8 hc x0 x1 x2 x3 x4)]
  unfold kernelRun6_A
  dsimp only
  sl_unfold_words
  rw [View.canon_cons_unit_zero (S := S1x64) offsets_zero, View.readCov_unit_zero (S := S1x64) _ offsets_zero]
  simp only [View.readAt_eq_ld, h1.read_unread, h2.read_unread, h3.read_unread, h4.read_unread, h5.read_unread, h7.read_unread, h8.read_unread, View.ld_unit_zero (S := S5000x64) offsets_zero, View.ld_unit_zero (S := S64x64) offsets_zero, View.ld_unit_zero (S := S1x64) offsets_zero]

theorem out6_B_5_eq (c : Dev nD) (i : grid6.Coords) (a1 : Memref sig .tc .vmem S5000x64 .f32) (h1 : a1.IsWhole) (a2 : Memref sig .tc .vmem S5000x64 .f32) (h2 : a2.IsWhole) (a3 : Memref sig .tc .vmem S64x64 .f32) (h3 : a3.IsWhole) (a4 : Memref sig .tc .vmem S64x64 .f32) (h4 : a4.IsWhole) (a5 : Memref sig .tc .vmem S1x64 .f32) (h5 : a5.IsWhole) (a6 : Memref sig .tc .vmem S5000x64 .f32) (h6 : a6.IsWhole) (a7 : Memref sig .tc .vmem S1x64 .f32) (h7 : a7.IsWhole) (a8 : Memref sig .tc .vmem S1x64 .f32) (h8 : a8.IsWhole) (hc : ¬cond6_0 i)
    (x0 : Vec F S5000x64 .f32) (x1 : Vec F S5000x64 .f32) (x2 : Vec F S64x64 .f32) (x3 : Vec F S64x64 .f32) (x4 : Vec F S1x64 .f32) (xo6 : Vec F S1x64 .f32) (xo7 : Vec F S1x64 .f32) :
    out6_B_5 c i a1 h1 a2 h2 a3 h3 a4 h4 a5 h5 a6 h6 a7 h7 a8 h8 hc x0 x1 x2 x3 x4 xo6 xo7 = k6_pay4 x0 x2 x4 x1 x3 := by
  unfold out6_B_5
  rw [View.read_writes_eq_canon _ _ _ (cover6_B_5 c i a1 h1 a2 h2 a3 h3 a4 h4 a5 h5 a6 h6 a7 h7 a8 h8 hc x0 x1 x2 x3 x4 xo6 xo7)]
  unfold kernelRun6_B
  dsimp only
  sl_unfold_words
  rw [View.canon_unit_zero offsets_zero]
  simp only [View.readAt_eq_ld, h1.read_unread, h2.read_unread, h3.read_unread, h4.read_unread, h5.read_unread, h7.read_unread, h8.read_unread, View.ld_unit_zero (S := S5000x64) offsets_zero, View.ld_unit_zero (S := S64x64) offsets_zero, View.ld_unit_zero (S := S1x64) offsets_zero]

theorem out6_B_6_eq (c : Dev nD) (i : grid6.Coords) (a1 : Memref sig .tc .vmem S5000x64 .f32) (h1 : a1.IsWhole) (a2 : Memref sig .tc .vmem S5000x64 .f32) (h2 : a2.IsWhole) (a3 : Memref sig .tc .vmem S64x64 .f32) (h3 : a3.IsWhole) (a4 : Memref sig .tc .vmem S64x64 .f32) (h4 : a4.IsWhole) (a5 : Memref sig .tc .vmem S1x64 .f32) (h5 : a5.IsWhole) (a6 : Memref sig .tc .vmem S5000x64 .f32) (h6 : a6.IsWhole) (a7 : Memref sig .tc .vmem S1x64 .f32) (h7 : a7.IsWhole) (a8 : Memref sig .tc .vmem S1x64 .f32) (h8 : a8.IsWhole) (hc : ¬cond6_0 i)
    (x0 : Vec F S5000x64 .f32) (x1 : Vec F S5000x64 .f32) (x2 : Vec F S64x64 .f32) (x3 : Vec F S64x64 .f32) (x4 : Vec F S1x64 .f32) (xo6 : Vec F S1x64 .f32) (xo7 : Vec F S1x64 .f32) :
    out6_B_6 c i a1 h1 a2 h2 a3 h3 a4 h4 a5 h5 a6 h6 a7 h7 a8 h8 hc x0 x1 x2 x3 x4 xo6 xo7 = k6_pay5 x0 x2 x4 x1 x3 xo6 := by
  unfold out6_B_6
  rw [View.read_writes_eq_canon _ _ _ (cover6_B_6 c i a1 h1 a2 h2 a3 h3 a4 h4 a5 h5 a6 h6 a7 h7 a8 h8 hc x0 x1 x2 x3 x4 xo6 xo7)]
  unfold kernelRun6_B
  dsimp only
  sl_unfold_words
  rw [View.canon_unit_zero offsets_zero]
  simp only [View.readAt_eq_ld, h1.read_unread, h2.read_unread, h3.read_unread, h4.read_unread, h5.read_unread, h7.read_unread, h8.read_unread, View.ld_unit_zero (S := S5000x64) offsets_zero, View.ld_unit_zero (S := S64x64) offsets_zero, View.ld_unit_zero (S := S1x64) offsets_zero]

theorem out6_B_7_eq (c : Dev nD) (i : grid6.Coords) (a1 : Memref sig .tc .vmem S5000x64 .f32) (h1 : a1.IsWhole) (a2 : Memref sig .tc .vmem S5000x64 .f32) (h2 : a2.IsWhole) (a3 : Memref sig .tc .vmem S64x64 .f32) (h3 : a3.IsWhole) (a4 : Memref sig .tc .vmem S64x64 .f32) (h4 : a4.IsWhole) (a5 : Memref sig .tc .vmem S1x64 .f32) (h5 : a5.IsWhole) (a6 : Memref sig .tc .vmem S5000x64 .f32) (h6 : a6.IsWhole) (a7 : Memref sig .tc .vmem S1x64 .f32) (h7 : a7.IsWhole) (a8 : Memref sig .tc .vmem S1x64 .f32) (h8 : a8.IsWhole) (hc : ¬cond6_0 i)
    (x0 : Vec F S5000x64 .f32) (x1 : Vec F S5000x64 .f32) (x2 : Vec F S64x64 .f32) (x3 : Vec F S64x64 .f32) (x4 : Vec F S1x64 .f32) (xo6 : Vec F S1x64 .f32) (xo7 : Vec F S1x64 .f32) :
    out6_B_7 c i a1 h1 a2 h2 a3 h3 a4 h4 a5 h5 a6 h6 a7 h7 a8 h8 hc x0 x1 x2 x3 x4 xo6 xo7 = k6_pay1 (k6_pay6 xo7) (k6_pay7 x0 x2 x4 x1 x3) := by
  unfold out6_B_7
  rw [View.read_writes_eq_canon _ _ _ (cover6_B_7 c i a1 h1 a2 h2 a3 h3 a4 h4 a5 h5 a6 h6 a7 h7 a8 h8 hc x0 x1 x2 x3 x4 xo6 xo7)]
  unfold kernelRun6_B
  dsimp only
  sl_unfold_words
  rw [View.canon_unit_zero offsets_zero]
  simp only [View.readAt_eq_ld, h1.read_unread, h2.read_unread, h3.read_unread, h4.read_unread, h5.read_unread, h7.read_unread, h8.read_unread, View.ld_unit_zero (S := S5000x64) offsets_zero, View.ld_unit_zero (S := S64x64) offsets_zero, View.ld_unit_zero (S := S1x64) offsets_zero]

end Cert.KernelIdeal.RegionValue

end
-- ==== Proof.RegionR6Pay.lean ====
/-
  The dense step's block arithmetic read entry by entry over the extended reals.

  For one block of 5000 rows: the block of pre-activations at (p, q) is the aggregated row p against row q of the
  neighbour weights, plus the bias entry q, plus the node's own row p against row q of the root weights (each
  product is a sum over the 64 input features; the weights are stored with the output feature as their row, so the
  transposed weight read at (k, q) is the weight at (q, k)).  The two running rows are the previous row plus the
  block's column sums of the pre-activations, and of their squares.  The row that starts a run is zero.
-/
import proofs.«147565_j9259949490665_1_alg».proof.Proof.Gen.KernelIdeal.Skeleton
import proofs.«147565_j9259949490665_1_alg».proof.Proof.Spec
import proofs.«147565_j9259949490665_1_alg».proof.Proof.LibPlainDot
import proofs.«147565_j9259949490665_1_alg».proof.Proof.LibColumnSum
import Idealize.ShloMosaic.Lib.Pipeline.Value
import Idealize.ShloMosaic.Lib.ValueLayout

noncomputable section

open Idealize.ShloMosaic Idealize.ShloMosaic.ValueIdx
open scoped BigOperators

namespace Cert.KernelIdeal.RegionValue

open Cert.KernelIdeal Cert.KernelIdeal.Gen

/-- The block of pre-activations at (p, q): the dense step of the block's operands there. -/
theorem pay6_lin (a x : Vec Ideal S5000x64 .f32) (wl wr : Vec Ideal S64x64 .f32) (b : Vec Ideal S1x64 .f32)
    (p : Fin 5000) (q : Fin 64) :
    k6_pay4 (F := Ideal) a wl b x wr (ix2 p q) = Cert.Layer.lin a x wl wr b (ix2 p q) := by
  have hd : dot_S5000x64_S64x64_S5000x64_1_0_0_1_n_n = DotDims.plain 5000 64 64 := rfl
  have e1 : ∀ (l : FVec Ideal S5000x64 .f32) (w : FVec Ideal S64x64 .f32),
      matmul dot_S5000x64_S64x64_S5000x64_1_0_0_1_n_n none (shapeCast S5000x64 l shapeCasts_S5000x64_S5000x64)
          (transpose S64x64 [1, 0] (shapeCast S64x64 w shapeCasts_S64x64_S64x64) transposes_S64x64_p1_0_S64x64)
          (constant S5000x64 .f32 0x00000000#32) (ix2 p q)
        = ∑ k : Fin 64, l (ix2 p k) * w (ix2 q k) := by
    intro l w
    rw [shapeCast_self, shapeCast_self]
    refine (Cert.LibPlainDot.matmul_zero_apply _ hd none l _ p q).trans ?_
    exact Finset.sum_congr rfl fun k _ => congrArg (l (ix2 p k) * ·) (transpose_ix2_apply w _ k q)
  have e2 : broadcastTo S5000x64 (shapeCast S1x64 b shapeCasts_S1x64_S1x64) broadcasts_S1x64_S5000x64 (ix2 p q)
      = b (ix2 0 q) := by
    rw [shapeCast_self]
    exact broadcastTo_1b_ab_apply b _ p q
  rw [Cert.Layer.lin_apply]
  unfold k6_pay4
  exact congrArg₂ (· + ·) (congrArg₂ (· + ·) (e1 a wl) e2) (e1 x wr)

/-- The row that starts a run is zero. -/
theorem pay6_zero6 (j : S1x64.Idx) : k6_pay2 (F := Ideal) j = 0 := Ideal.ofBits_zero_f32

theorem pay6_zero7 (j : S1x64.Idx) : k6_pay3 (F := Ideal) j = 0 := Ideal.ofBits_zero_f32

/-- The running row of sums after a block: the row before plus the block's column sums. -/
theorem pay6_sum (a x : Vec Ideal S5000x64 .f32) (wl wr : Vec Ideal S64x64 .f32) (b acc : Vec Ideal S1x64 .f32) (q : Fin 64) :
    k6_pay5 (F := Ideal) a wl b x wr acc (ix2 0 q)
      = acc (ix2 0 q) + ∑ r : Fin 5000, k6_pay4 (F := Ideal) a wl b x wr (ix2 r q) := by
  unfold k6_pay5
  exact congrArg₂ (· + ·) (congrFun (shapeCast_self acc _) _)
    (Cert.LibColumnSum.rowReduce_apply (k6_pay4 (F := Ideal) a wl b x wr) reduces_S5000x64_S64 (.inl rfl) rfl
      shapeCasts_S64_S1x64 0 q)

/-- The running row of sums of squares after a block: the row before plus the block's column sums of squares. -/
theorem pay6_sumsq (a x : Vec Ideal S5000x64 .f32) (wl wr : Vec Ideal S64x64 .f32) (b acc : Vec Ideal S1x64 .f32) (q : Fin 64) :
    k6_pay1 (k6_pay6 (F := Ideal) acc) (k6_pay7 (F := Ideal) a wl b x wr) (ix2 0 q)
      = acc (ix2 0 q) + ∑ r : Fin 5000, k6_pay4 (F := Ideal) a wl b x wr (ix2 r q) * k6_pay4 (F := Ideal) a wl b x wr (ix2 r q) := by
  unfold k6_pay1 k6_pay6 k6_pay7
  exact congrArg₂ (· + ·) (congrFun (shapeCast_self acc _) _)
    (Cert.LibColumnSum.rowReduce_apply (mulf (k6_pay4 (F := Ideal) a wl b x wr) (k6_pay4 (F := Ideal) a wl b x wr))
      reduces_S5000x64_S64 (.inl rfl) rfl shapeCasts_S64_S1x64 0 q)

end Cert.KernelIdeal.RegionValue

end
-- ==== Proof.RegionR6.lean ====
/-
  The value of one dense-step stage: what its three result arrays hold after all ten steps.

  The stage walks ten blocks of 5000 rows.  Step t reads block t of the aggregated and of the node features (rows
  5000·t … 5000·t + 4999 of the arrays) and the whole of both weight arrays and of the bias row; it writes block t of
  the pre-activations, which is therefore block t of the dense step of the WHOLE arrays (an entry of the dense step
  depends on one row of each node-feature operand only), and adds the block's column sums, and column sums of
  squares, to two running rows that start at zero.  By induction on the step the running rows after step n hold the
  sums over the rows of blocks 0 … n, so after step 9, when they are written out, they hold the full column sums:
  a sum over 50000 = 10 · 5000 rows is the sum of its ten block sums.  Sums of extended reals are regrouped freely
  (addition is associative and commutative, and 0 + x = x); no law that needs finite values is used.
-/
import proofs.«147565_j9259949490665_1_alg».proof.Proof.Gen.KernelIdeal.Frame
import proofs.«147565_j9259949490665_1_alg».proof.Proof.Spec
import proofs.«147565_j9259949490665_1_alg».proof.Proof.LibRowBlocks
import proofs.«147565_j9259949490665_1_alg».proof.Proof.RegionR6Pieces
import proofs.«147565_j9259949490665_1_alg».proof.Proof.RegionR6Pay
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)
open scoped BigOperators

namespace Cert.KernelIdeal.RegionValue

open Cert.KernelIdeal Cert.KernelIdeal.Gen
open Cert.Layer (Mat lin colSum colSumSq)
open Cert.LibRowBlocks (blockSum blockSum_of_lt sum_range_blockSum lin_congr)

section Region6

variable (V : (c : Dev nD) → (b : Ref sig .tc) → Buf (Elt Ideal) ((c : Thread nD τ).loc b)) (c : Dev nD)

/-- The five operand arrays as the stage finds them. -/
abbrev agg6 : Mat 50000 64 := V c (Pipeline.arrRef spec6 0)
abbrev self6 : Mat 50000 64 := V c (Pipeline.arrRef spec6 1)
abbrev wl6 : Mat 64 64 := V c (Pipeline.arrRef spec6 2)
abbrev wr6 : Mat 64 64 := V c (Pipeline.arrRef spec6 3)
abbrev bias6 : Mat 1 64 := V c (Pipeline.arrRef spec6 4)

/-- The pre-activations of the whole arrays. -/
abbrev hpre6 : Mat 50000 64 := lin (agg6 V c) (self6 V c) (wl6 V c) (wr6 V c) (bias6 V c)

/-- Where each step's blocks sit: the row-blocked operands and the pre-activations at block t, column block 0. -/
theorem idx6 : ∀ t : Fin cfg6.N,
    win6_0.index t (0 : Fin 2) = t.val ∧ win6_0.index t (1 : Fin 2) = 0
    ∧ win6_1.index t (0 : Fin 2) = t.val ∧ win6_1.index t (1 : Fin 2) = 0
    ∧ win6_5.index t (0 : Fin 2) = t.val ∧ win6_5.index t (1 : Fin 2) = 0 :=
  (by decide +kernel : ∀ t : Fin grid6.N, _)

/-- The weights, the bias row and the two running rows are one block each, at block (0, 0) at every step. -/
theorem whole6 : ∀ t : Fin cfg6.N,
    win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_6.index t (0 : Fin 2) = 0 ∧ win6_6.index t (1 : Fin 2) = 0
    ∧ win6_7.index t (0 : Fin 2) = 0 ∧ win6_7.index t (1 : Fin 2) = 0 :=
  (by decide +kernel : ∀ t : Fin grid6.N, _)

/-- Row r of step t's block of operand 0 is row 5000·t + r of the array. -/
theorem blk6_0 (t : Fin cfg6.N) (r : Fin 5000) (k : Fin 64) (hr : t.val * 5000 + r.val < 50000) :
    iblk6 V c 0 t (ix2 r k) = agg6 V c (ix2 ⟨t.val * 5000 + r.val, hr⟩ k) := by
  have e0 := (idx6 t).1
  have e1 := (idx6 t).2.1
  show V c (Pipeline.arrRef spec6 0) (((cfg6.win 0).blk t).view.emb (ix2 r k))
    = V c (Pipeline.arrRef spec6 0) (ix2 ⟨t.val * 5000 + r.val, hr⟩ k)
  refine congrArg (V c (Pipeline.arrRef spec6 0)) (funext fun a => Fin.ext ?_)
  match a with
  | ⟨0, _⟩ => show win6_0.index t (0 : Fin 2) * 5000 + 1 * r.val = t.val * 5000 + r.val; rw [e0]; omega
  | ⟨1, _⟩ => show win6_0.index t (1 : Fin 2) * 64 + 1 * k.val = k.val; rw [e1]; omega

/-- Row r of step t's block of operand 1 is row 5000·t + r of the array. -/
theorem blk6_1 (t : Fin cfg6.N) (r : Fin 5000) (k : Fin 64) (hr : t.val * 5000 + r.val < 50000) :
    iblk6 V c 1 t (ix2 r k) = self6 V c (ix2 ⟨t.val * 5000 + r.val, hr⟩ k) := by
  have e0 := (idx6 t).2.2.1
  have e1 := (idx6 t).2.2.2.1
  show V c (Pipeline.arrRef spec6 1) (((cfg6.win 1).blk t).view.emb (ix2 r k))
    = V c (Pipeline.arrRef spec6 1) (ix2 ⟨t.val * 5000 + r.val, hr⟩ k)
  refine congrArg (V c (Pipeline.arrRef spec6 1)) (funext fun a => Fin.ext ?_)
  match a with
  | ⟨0, _⟩ => show win6_1.index t (0 : Fin 2) * 5000 + 1 * r.val = t.val * 5000 + r.val; rw [e0]; omega
  | ⟨1, _⟩ => show win6_1.index t (1 : Fin 2) * 64 + 1 * k.val = k.val; rw [e1]; omega

/-- Step t's block of operand 2 is the whole array. -/
theorem blk6_2 (t : Fin cfg6.N) (p : Fin 64) (k : Fin 64) :
    iblk6 V c 2 t (ix2 p k) = wl6 V c (ix2 p k) := by
  have e0 := (whole6 t).1
  have e1 := (whole6 t).2.1
  show V c (Pipeline.arrRef spec6 2) (((cfg6.win 2).blk t).view.emb (ix2 p k))
    = V c (Pipeline.arrRef spec6 2) (ix2 p k)
  refine congrArg (V c (Pipeline.arrRef spec6 2)) (funext fun a => Fin.ext ?_)
  match a with
  | ⟨0, _⟩ => show win6_2.index t (0 : Fin 2) * 64 + 1 * p.val = p.val; rw [e0]; omega
  | ⟨1, _⟩ => show win6_2.index t (1 : Fin 2) * 64 + 1 * k.val = k.val; rw [e1]; omega

/-- Step t's block of operand 3 is the whole array. -/
theorem blk6_3 (t : Fin cfg6.N) (p : Fin 64) (k : Fin 64) :
    iblk6 V c 3 t (ix2 p k) = wr6 V c (ix2 p k) := by
  have e0 := (whole6 t).2.2.1
  have e1 := (whole6 t).2.2.2.1
  show V c (Pipeline.arrRef spec6 3) (((cfg6.win 3).blk t).view.emb (ix2 p k))
    = V c (Pipeline.arrRef spec6 3) (ix2 p k)
  refine congrArg (V c (Pipeline.arrRef spec6 3)) (funext fun a => Fin.ext ?_)
  match a with
  | ⟨0, _⟩ => show win6_3.index t (0 : Fin 2) * 64 + 1 * p.val = p.val; rw [e0]; omega
  | ⟨1, _⟩ => show win6_3.index t (1 : Fin 2) * 64 + 1 * k.val = k.val; rw [e1]; omega

/-- Step t's block of operand 4 is the whole array. -/
theorem blk6_4 (t : Fin cfg6.N) (p : Fin 1) (k : Fin 64) :
    iblk6 V c 4 t (ix2 p k) = bias6 V c (ix2 p k) := by
  have e0 := (whole6 t).2.2.2.2.1
  have e1 := (whole6 t).2.2.2.2.2.1
  show V c (Pipeline.arrRef spec6 4) (((cfg6.win 4).blk t).view.emb (ix2 p k))
    = V c (Pipeline.arrRef spec6 4) (ix2 p k)
  refine congrArg (V c (Pipeline.arrRef spec6 4)) (funext fun a => Fin.ext ?_)
  match a with
  | ⟨0, _⟩ => show win6_4.index t (0 : Fin 2) * 1 + 1 * p.val = p.val; rw [e0]; omega
  | ⟨1, _⟩ => show win6_4.index t (1 : Fin 2) * 64 + 1 * k.val = k.val; rw [e1]; omega

/-- The block of pre-activations step t computes is block t of the whole arrays' pre-activations. -/
theorem hblk6 (t : Fin cfg6.N) (j : S5000x64.Idx) (hr : t.val * 5000 + (j 0).val < 50000) :
    (k6_pay4 (F := Ideal) (iblk6 V c 0 t) (iblk6 V c 2 t) (iblk6 V c 4 t) (iblk6 V c 1 t) (iblk6 V c 3 t)) j = hpre6 V c (ix2 ⟨t.val * 5000 + (j 0).val, hr⟩ (j 1)) := by
  obtain ⟨r, q, rfl⟩ : ∃ (r : Fin 5000) (q : Fin 64), j = ix2 r q := ⟨j 0, j 1, eq_ix2 j⟩
  exact (pay6_lin (iblk6 V c 0 t) (iblk6 V c 1 t) (iblk6 V c 2 t) (iblk6 V c 3 t) (iblk6 V c 4 t) r q).trans
    (lin_congr (R := 5000) (R' := 50000) (K := 64) (N := 64) (iblk6 V c 0 t) (iblk6 V c 1 t) (agg6 V c) (self6 V c)
      (iblk6 V c 2 t) (iblk6 V c 3 t) (wl6 V c) (wr6 V c) (iblk6 V c 4 t) (bias6 V c) r ⟨t.val * 5000 + r.val, hr⟩ q
      (fun k => blk6_0 V c t r k hr) (fun k => blk6_1 V c t r k hr) (fun k => blk6_2 V c t q k) (fun k => blk6_3 V c t q k)
      (blk6_4 V c t 0 q))

/-- What the three result blocks hold after a step that starts a run, -/
theorem outs6_A (t : Fin cfg6.N) (h0 : t.val % 10 = 0) :
    outsAt6 V c t.val t.isLt
      = (k6_pay4 (F := Ideal) (iblk6 V c 0 t) (iblk6 V c 2 t) (iblk6 V c 4 t) (iblk6 V c 1 t) (iblk6 V c 3 t), k6_pay5 (F := Ideal) (iblk6 V c 0 t) (iblk6 V c 2 t) (iblk6 V c 4 t) (iblk6 V c 1 t) (iblk6 V c 3 t) (k6_pay2 (F := Ideal)), k6_pay1 (k6_pay6 (F := Ideal) (k6_pay3 (F := Ideal))) (k6_pay7 (F := Ideal) (iblk6 V c 0 t) (iblk6 V c 2 t) (iblk6 V c 4 t) (iblk6 V c 1 t) (iblk6 V c 3 t))) :=
  (outsAt6_A V c t h0).trans (congrArg₂ Prod.mk (out6_A_5_eq (F := Ideal) c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) ((hcond6_0 t).mpr h0) (iblk6 V c 0 t) (iblk6 V c 1 t) (iblk6 V c 2 t) (iblk6 V c 3 t) (iblk6 V c 4 t))
    (congrArg₂ Prod.mk (out6_A_6_eq (F := Ideal) c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) ((hcond6_0 t).mpr h0) (iblk6 V c 0 t) (iblk6 V c 1 t) (iblk6 V c 2 t) (iblk6 V c 3 t) (iblk6 V c 4 t))
      (out6_A_7_eq (F := Ideal) c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) ((hcond6_0 t).mpr h0) (iblk6 V c 0 t) (iblk6 V c 1 t) (iblk6 V c 2 t) (iblk6 V c 3 t) (iblk6 V c 4 t))))

/-- and after any later step, over what the step before left in the running rows. -/
theorem outs6_B (t : Fin cfg6.N) (h0 : ¬t.val % 10 = 0) :
    outsAt6 V c t.val t.isLt
      = (k6_pay4 (F := Ideal) (iblk6 V c 0 t) (iblk6 V c 2 t) (iblk6 V c 4 t) (iblk6 V c 1 t) (iblk6 V c 3 t), k6_pay5 (F := Ideal) (iblk6 V c 0 t) (iblk6 V c 2 t) (iblk6 V c 4 t) (iblk6 V c 1 t) (iblk6 V c 3 t) (outsAt6 V c (t.val - 1) (Nat.lt_of_le_of_lt (Nat.sub_le _ _) t.isLt)).2.1, k6_pay1 (k6_pay6 (F := Ideal) (outsAt6 V c (t.val - 1) (Nat.lt_of_le_of_lt (Nat.sub_le _ _) t.isLt)).2.2) (k6_pay7 (F := Ideal) (iblk6 V c 0 t) (iblk6 V c 2 t) (iblk6 V c 4 t) (iblk6 V c 1 t) (iblk6 V c 3 t))) :=
  (outsAt6_B V c t h0).trans (congrArg₂ Prod.mk (out6_B_5_eq (F := Ideal) c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (fun h => h0 ((hcond6_0 t).mp h)) (iblk6 V c 0 t) (iblk6 V c 1 t) (iblk6 V c 2 t) (iblk6 V c 3 t) (iblk6 V c 4 t) (outsAt6 V c (t.val - 1) (Nat.lt_of_le_of_lt (Nat.sub_le _ _) t.isLt)).2.1 (outsAt6 V c (t.val - 1) (Nat.lt_of_le_of_lt (Nat.sub_le _ _) t.isLt)).2.2)
    (congrArg₂ Prod.mk (out6_B_6_eq (F := Ideal) c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (fun h => h0 ((hcond6_0 t).mp h)) (iblk6 V c 0 t) (iblk6 V c 1 t) (iblk6 V c 2 t) (iblk6 V c 3 t) (iblk6 V c 4 t) (outsAt6 V c (t.val - 1) (Nat.lt_of_le_of_lt (Nat.sub_le _ _) t.isLt)).2.1 (outsAt6 V c (t.val - 1) (Nat.lt_of_le_of_lt (Nat.sub_le _ _) t.isLt)).2.2)
      (out6_B_7_eq (F := Ideal) c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (fun h => h0 ((hcond6_0 t).mp h)) (iblk6 V c 0 t) (iblk6 V c 1 t) (iblk6 V c 2 t) (iblk6 V c 3 t) (iblk6 V c 4 t) (outsAt6 V c (t.val - 1) (Nat.lt_of_le_of_lt (Nat.sub_le _ _) t.isLt)).2.1 (outsAt6 V c (t.val - 1) (Nat.lt_of_le_of_lt (Nat.sub_le _ _) t.isLt)).2.2)))

/-- The column sums of step t's block of pre-activations are block sum t of the whole arrays' column, -/
theorem colblk6 (t : Fin cfg6.N) (q : Fin 64) :
    ∑ r : Fin 5000, (k6_pay4 (F := Ideal) (iblk6 V c 0 t) (iblk6 V c 2 t) (iblk6 V c 4 t) (iblk6 V c 1 t) (iblk6 V c 3 t)) (ix2 r q) = blockSum 10 5000 (fun p : Fin 50000 => hpre6 V c (ix2 p q)) t.val := by
  have ht : t.val < 10 := lt_of_lt_of_eq t.isLt (show cfg6.N = 10 from N_6)
  rw [blockSum_of_lt 10 5000 _ ht]
  exact Finset.sum_congr rfl fun r _ =>
    hblk6 V c t (ix2 r q) (show t.val * 5000 + r.val < 50000 by have := r.isLt; omega)

/-- and likewise the column sums of its squares. -/
theorem colblksq6 (t : Fin cfg6.N) (q : Fin 64) :
    ∑ r : Fin 5000, (k6_pay4 (F := Ideal) (iblk6 V c 0 t) (iblk6 V c 2 t) (iblk6 V c 4 t) (iblk6 V c 1 t) (iblk6 V c 3 t)) (ix2 r q) * (k6_pay4 (F := Ideal) (iblk6 V c 0 t) (iblk6 V c 2 t) (iblk6 V c 4 t) (iblk6 V c 1 t) (iblk6 V c 3 t)) (ix2 r q)
      = blockSum 10 5000 (fun p : Fin 50000 => hpre6 V c (ix2 p q) * hpre6 V c (ix2 p q)) t.val := by
  have ht : t.val < 10 := lt_of_lt_of_eq t.isLt (show cfg6.N = 10 from N_6)
  rw [blockSum_of_lt 10 5000 _ ht]
  exact Finset.sum_congr rfl fun r _ =>
    congrArg₂ (· * ·) (hblk6 V c t (ix2 r q) (show t.val * 5000 + r.val < 50000 by have := r.isLt; omega))
      (hblk6 V c t (ix2 r q) (show t.val * 5000 + r.val < 50000 by have := r.isLt; omega))

/-- THE RUNNING ROWS: after step n they hold the sums, and the sums of squares, over the rows of blocks 0 … n. -/
theorem rows6 : ∀ (n : ℕ) (h : n < cfg6.N) (q : Fin 64),
    (outsAt6 V c n h).2.1 (ix2 0 q) = ∑ s ∈ Finset.range (n + 1), blockSum 10 5000 (fun p : Fin 50000 => hpre6 V c (ix2 p q)) s
    ∧ (outsAt6 V c n h).2.2 (ix2 0 q)
        = ∑ s ∈ Finset.range (n + 1), blockSum 10 5000 (fun p : Fin 50000 => hpre6 V c (ix2 p q) * hpre6 V c (ix2 p q)) s
  | 0, h, q => by
    have e : outsAt6 V c 0 h = _ := outs6_A V c ⟨0, h⟩ rfl
    rw [e]
    exact ⟨((pay6_sum (iblk6 V c 0 ⟨0, h⟩) (iblk6 V c 1 ⟨0, h⟩) (iblk6 V c 2 ⟨0, h⟩) (iblk6 V c 3 ⟨0, h⟩) (iblk6 V c 4 ⟨0, h⟩) (k6_pay2 (F := Ideal)) q).trans
        ((congrArg₂ (· + ·) (pay6_zero6 (ix2 0 q)) (colblk6 V c ⟨0, h⟩ q)).trans (zero_add _))).trans
          (Finset.sum_range_one _).symm,
      ((pay6_sumsq (iblk6 V c 0 ⟨0, h⟩) (iblk6 V c 1 ⟨0, h⟩) (iblk6 V c 2 ⟨0, h⟩) (iblk6 V c 3 ⟨0, h⟩) (iblk6 V c 4 ⟨0, h⟩) (k6_pay3 (F := Ideal)) q).trans
        ((congrArg₂ (· + ·) (pay6_zero7 (ix2 0 q)) (colblksq6 V c ⟨0, h⟩ q)).trans (zero_add _))).trans
          (Finset.sum_range_one _).symm⟩
  | n + 1, h, q => by
    have hN : cfg6.N = 10 := N_6
    have hB : ¬(⟨n + 1, h⟩ : Fin cfg6.N).val % 10 = 0 := by dsimp only; omega
    have e : outsAt6 V c (n + 1) h = _ := outs6_B V c ⟨n + 1, h⟩ hB
    obtain ⟨ih6, ih7⟩ := rows6 n (Nat.lt_of_succ_lt h) q
    rw [e]
    exact ⟨((pay6_sum (iblk6 V c 0 ⟨n + 1, h⟩) (iblk6 V c 1 ⟨n + 1, h⟩) (iblk6 V c 2 ⟨n + 1, h⟩) (iblk6 V c 3 ⟨n + 1, h⟩) (iblk6 V c 4 ⟨n + 1, h⟩) (outsAt6 V c n (Nat.lt_of_succ_lt h)).2.1 q).trans
        (congrArg₂ (· + ·) ih6 (colblk6 V c ⟨n + 1, h⟩ q))).trans (Finset.sum_range_succ _ (n + 1)).symm,
      ((pay6_sumsq (iblk6 V c 0 ⟨n + 1, h⟩) (iblk6 V c 1 ⟨n + 1, h⟩) (iblk6 V c 2 ⟨n + 1, h⟩) (iblk6 V c 3 ⟨n + 1, h⟩) (iblk6 V c 4 ⟨n + 1, h⟩) (outsAt6 V c n (Nat.lt_of_succ_lt h)).2.2 q).trans
        (congrArg₂ (· + ·) ih7 (colblksq6 V c ⟨n + 1, h⟩ q))).trans (Finset.sum_range_succ _ (n + 1)).symm⟩

/-- The block of pre-activations after every step, whichever case the step is. -/
theorem first6 (t : Fin cfg6.N) : (outsAt6 V c t.val t.isLt).1 = k6_pay4 (F := Ideal) (iblk6 V c 0 t) (iblk6 V c 2 t) (iblk6 V c 4 t) (iblk6 V c 1 t) (iblk6 V c 3 t) := by
  by_cases h0 : t.val % 10 = 0
  · exact congrArg Prod.fst (outs6_A V c t h0)
  · exact congrArg Prod.fst (outs6_B V c t h0)

/-! ### The pre-activations array: every step writes its block back -/

/-- An index of the array is in step t's block iff each coordinate is in the block's range. -/
theorem mem_blk6_5 (t : Fin cfg6.N) (i : S50000x64.Idx) :
    i ∈ ((cfg6.win 5).blk t).view.set ↔ ∀ a : Fin 2, win6_5.index t a * S5000x64.size a ≤ (i a).val ∧ (i a).val < win6_5.index t a * S5000x64.size a + S5000x64.size a := by
  show i ∈ ((View.whole main_v112_0).slice (win6_5.rect t)).set ↔ _
  rw [View.set_slice_whole, Rect.mem_set_unit]
  exact Iff.rfl

/-- What step t writes back is block t of the whole arrays' pre-activations. -/
theorem flushed6_5 (t : Fin cfg6.N) :
    (dat6 V c).flushed 5 t = ((cfg6.win 5).blk t).view.read (Elt Ideal) (hpre6 V c) := by
  show (cfg6.win 5).cut (grid6.coords t) ((dat6 V c).after 5 t) = _
  rw [after6_5, first6 V c t]
  have ht : t.val < 10 := lt_of_lt_of_eq t.isLt (show cfg6.N = 10 from N_6)
  have e0 := (idx6 t).2.2.2.2.1
  have e1 := (idx6 t).2.2.2.2.2
  funext y
  have hy0 : (y 0).val < 5000 := (y 0).isLt
  have hy1 : (y 1).val < 64 := (y 1).isLt
  have hr : t.val * 5000 + (y 0).val < 50000 := by omega
  show (k6_pay4 (F := Ideal) (iblk6 V c 0 t) (iblk6 V c 2 t) (iblk6 V c 4 t) (iblk6 V c 1 t) (iblk6 V c 3 t)) ((cfg6.win 5).xinj (grid6.coords t) y) = hpre6 V c (((cfg6.win 5).blk t).view.emb y)
  refine (hblk6 V c t ((cfg6.win 5).xinj (grid6.coords t) y) hr).trans (congrArg (hpre6 V c) (funext fun a => Fin.ext ?_))
  match a with
  | ⟨0, _⟩ => show t.val * 5000 + (y 0).val = win6_5.index t (0 : Fin 2) * 5000 + 1 * (y 0).val; rw [e0]; omega
  | ⟨1, _⟩ => show (y 1).val = win6_5.index t (1 : Fin 2) * 64 + 1 * (y 1).val; rw [e1]; omega

/-- Row r of the array is in block r / 5000. -/
theorem cover6_5 (i : S50000x64.Idx) :
    ∃ t : Fin cfg6.N, (cfg6.win 5).flush t = true ∧ i ∈ ((cfg6.win 5).blk t).view.set := by
  have hi0 : (i 0).val < 50000 := (i 0).isLt
  have hi1 : (i 1).val < 64 := (i 1).isLt
  have hN : cfg6.N = 10 := N_6
  have hq : (i 0).val / 5000 < cfg6.N := by omega
  have e0 : win6_5.index ⟨(i 0).val / 5000, hq⟩ (0 : Fin 2) = (i 0).val / 5000 := (idx6 ⟨(i 0).val / 5000, hq⟩).2.2.2.2.1
  have e1 := (idx6 ⟨(i 0).val / 5000, hq⟩).2.2.2.2.2
  refine ⟨⟨(i 0).val / 5000, hq⟩, flush6_5 _, ?_⟩
  rw [mem_blk6_5]
  intro a
  match a with
  | ⟨0, _⟩ => show win6_5.index ⟨(i 0).val / 5000, hq⟩ (0 : Fin 2) * 5000 ≤ (i 0).val ∧ (i 0).val < win6_5.index ⟨(i 0).val / 5000, hq⟩ (0 : Fin 2) * 5000 + 5000; rw [e0]; omega
  | ⟨1, _⟩ => show win6_5.index ⟨(i 0).val / 5000, hq⟩ (1 : Fin 2) * 64 ≤ (i 1).val ∧ (i 1).val < win6_5.index ⟨(i 0).val / 5000, hq⟩ (1 : Fin 2) * 64 + 64; rw [e1]; omega

/-! ### The two rows: written back once, after the last step -/

/-- The last step. -/
abbrev last6 : Fin cfg6.N := ⟨9, by rw [show cfg6.N = 10 from N_6]; decide⟩

theorem mem_blk6_6 (t : Fin cfg6.N) (i : S1x64.Idx) :
    i ∈ ((cfg6.win 6).blk t).view.set ↔ ∀ a : Fin 2, win6_6.index t a * S1x64.size a ≤ (i a).val ∧ (i a).val < win6_6.index t a * S1x64.size a + S1x64.size a := by
  show i ∈ ((View.whole main_v112_1).slice (win6_6.rect t)).set ↔ _
  rw [View.set_slice_whole, Rect.mem_set_unit]
  exact Iff.rfl

/-- After the last step this running row is the full column sums: ten block sums make the sum over all rows. -/
theorem row6_6 (hl : 9 < cfg6.N) :
    ((outsAt6 V c 9 hl).2.1 : Mat 1 64) = colSum (hpre6 V c) := by
  funext j
  obtain ⟨u, q, rfl⟩ : ∃ (u : Fin 1) (q : Fin 64), j = ix2 u q := ⟨j 0, j 1, eq_ix2 j⟩
  obtain rfl : u = 0 := Subsingleton.elim _ _
  exact ((rows6 V c 9 hl q).1.trans
    (sum_range_blockSum 10 5000 (fun p : Fin 50000 => hpre6 V c (ix2 p q)))).trans
      (Cert.Layer.colSum_apply (hpre6 V c) q).symm

/-- The one write-back of this row, after step 9, writes the full column sums (its block is the whole row). -/
theorem flushed6_6 (t : Fin cfg6.N) (hf : (cfg6.win 6).flush t = true) :
    (dat6 V c).flushed 6 t = ((cfg6.win 6).blk t).view.read (Elt Ideal) (colSum (hpre6 V c)) := by
  have hN : cfg6.N = 10 := N_6
  have h9 : t.val = 9 := by have := (flush6_6 t).mp hf; have := t.isLt; omega
  have hl : 9 < cfg6.N := by omega
  have eo : ∀ (n : ℕ) (hn : n < cfg6.N), n = 9 → outsAt6 V c n hn = outsAt6 V c 9 hl :=
    fun n hn e => by subst e; rfl
  show (cfg6.win 6).cut (grid6.coords t) ((dat6 V c).after 6 t) = _
  rw [after6_6, eo t.val t.isLt h9, row6_6 V c hl]
  have e0 := (whole6 t).2.2.2.2.2.2.1
  have e1 := (whole6 t).2.2.2.2.2.2.2.1
  have hz' : (fun a => win6_6.index t a * main_v112_1.ty.shape.size a) = fun _ => 0 := funext fun a => by
    fin_cases a
    · show win6_6.index t (0 : Fin 2) * 1 = 0; rw [e0]
    · show win6_6.index t (1 : Fin 2) * 64 = 0; rw [e1]
  generalize colSum (hpre6 V c) = G
  exact (Memref.read_access_unit_zero (Elt Ideal) main_v112_1 hz' (fun a => by rw [congrFun hz' a]; simp) G).symm

/-- The last step's block is the whole row. -/
theorem cover6_6 (i : S1x64.Idx) :
    ∃ t : Fin cfg6.N, (cfg6.win 6).flush t = true ∧ i ∈ ((cfg6.win 6).blk t).view.set := by
  have hi0 : (i 0).val < 1 := (i 0).isLt
  have hi1 : (i 1).val < 64 := (i 1).isLt
  have e0 := (whole6 last6).2.2.2.2.2.2.1
  have e1 := (whole6 last6).2.2.2.2.2.2.2.1
  refine ⟨last6, (flush6_6 last6).mpr rfl, ?_⟩
  rw [mem_blk6_6]
  intro a
  match a with
  | ⟨0, _⟩ => show win6_6.index last6 (0 : Fin 2) * 1 ≤ (i 0).val ∧ (i 0).val < win6_6.index last6 (0 : Fin 2) * 1 + 1; rw [e0]; omega
  | ⟨1, _⟩ => show win6_6.index last6 (1 : Fin 2) * 64 ≤ (i 1).val ∧ (i 1).val < win6_6.index last6 (1 : Fin 2) * 64 + 64; rw [e1]; omega

theorem mem_blk6_7 (t : Fin cfg6.N) (i : S1x64.Idx) :
    i ∈ ((cfg6.win 7).blk t).view.set ↔ ∀ a : Fin 2, win6_7.index t a * S1x64.size a ≤ (i a).val ∧ (i a).val < win6_7.index t a * S1x64.size a + S1x64.size a := by
  show i ∈ ((View.whole main_v112_2).slice (win6_7.rect t)).set ↔ _
  rw [View.set_slice_whole, Rect.mem_set_unit]
  exact Iff.rfl

/-- After the last step this running row is the full column sums: ten block sums make the sum over all rows. -/
theorem row6_7 (hl : 9 < cfg6.N) :
    ((outsAt6 V c 9 hl).2.2 : Mat 1 64) = colSumSq (hpre6 V c) := by
  funext j
  obtain ⟨u, q, rfl⟩ : ∃ (u : Fin 1) (q : Fin 64), j = ix2 u q := ⟨j 0, j 1, eq_ix2 j⟩
  obtain rfl : u = 0 := Subsingleton.elim _ _
  exact ((rows6 V c 9 hl q).2.trans
    (sum_range_blockSum 10 5000 (fun p : Fin 50000 => hpre6 V c (ix2 p q) * hpre6 V c (ix2 p q)))).trans
      (Cert.Layer.colSumSq_apply (hpre6 V c) q).symm

/-- The one write-back of this row, after step 9, writes the full column sums (its block is the whole row). -/
theorem flushed6_7 (t : Fin cfg6.N) (hf : (cfg6.win 7).flush t = true) :
    (dat6 V c).flushed 7 t = ((cfg6.win 7).blk t).view.read (Elt Ideal) (colSumSq (hpre6 V c)) := by
  have hN : cfg6.N = 10 := N_6
  have h9 : t.val = 9 := by have := (flush6_7 t).mp hf; have := t.isLt; omega
  have hl : 9 < cfg6.N := by omega
  have eo : ∀ (n : ℕ) (hn : n < cfg6.N), n = 9 → outsAt6 V c n hn = outsAt6 V c 9 hl :=
    fun n hn e => by subst e; rfl
  show (cfg6.win 7).cut (grid6.coords t) ((dat6 V c).after 7 t) = _
  rw [after6_7, eo t.val t.isLt h9, row6_7 V c hl]
  have e0 := (whole6 t).2.2.2.2.2.2.2.2.1
  have e1 := (whole6 t).2.2.2.2.2.2.2.2.2
  have hz' : (fun a => win6_7.index t a * main_v112_2.ty.shape.size a) = fun _ => 0 := funext fun a => by
    fin_cases a
    · show win6_7.index t (0 : Fin 2) * 1 = 0; rw [e0]
    · show win6_7.index t (1 : Fin 2) * 64 = 0; rw [e1]
  generalize colSumSq (hpre6 V c) = G
  exact (Memref.read_access_unit_zero (Elt Ideal) main_v112_2 hz' (fun a => by rw [congrFun hz' a]; simp) G).symm

/-- The last step's block is the whole row. -/
theorem cover6_7 (i : S1x64.Idx) :
    ∃ t : Fin cfg6.N, (cfg6.win 7).flush t = true ∧ i ∈ ((cfg6.win 7).blk t).view.set := by
  have hi0 : (i 0).val < 1 := (i 0).isLt
  have hi1 : (i 1).val < 64 := (i 1).isLt
  have e0 := (whole6 last6).2.2.2.2.2.2.2.2.1
  have e1 := (whole6 last6).2.2.2.2.2.2.2.2.2
  refine ⟨last6, (flush6_7 last6).mpr rfl, ?_⟩
  rw [mem_blk6_7]
  intro a
  match a with
  | ⟨0, _⟩ => show win6_7.index last6 (0 : Fin 2) * 1 ≤ (i 0).val ∧ (i 0).val < win6_7.index last6 (0 : Fin 2) * 1 + 1; rw [e0]; omega
  | ⟨1, _⟩ => show win6_7.index last6 (1 : Fin 2) * 64 ≤ (i 1).val ∧ (i 1).val < win6_7.index last6 (1 : Fin 2) * 64 + 64; rw [e1]; omega

end Region6

/-- The pre-activations array after the stage: the dense step of the arrays the stage found. -/
theorem final6_5 (V : (c : Dev nD) → (b : Ref sig .tc) → Buf (Elt Ideal) ((c : Thread nD τ).loc b)) (c : Dev nD) :
    (Gen.dat6 (F := Ideal) V c).arrAt 5 cfg6.N
      = Cert.Layer.lin (V c (Pipeline.arrRef spec6 0)) (V c (Pipeline.arrRef spec6 1)) (V c (Pipeline.arrRef spec6 2)) (V c (Pipeline.arrRef spec6 3)) (V c (Pipeline.arrRef spec6 4)) :=
  (dat6 V c).arrAt_eq_of_cover 5 (hpre6 V c) (fun t _ => flushed6_5 V c t) cover6_5

/-- The row of sums after the stage: the column sums of that dense step. -/
theorem final6_6 (V : (c : Dev nD) → (b : Ref sig .tc) → Buf (Elt Ideal) ((c : Thread nD τ).loc b)) (c : Dev nD) :
    (Gen.dat6 (F := Ideal) V c).arrAt 6 cfg6.N
      = Cert.Layer.colSum (Cert.Layer.lin (V c (Pipeline.arrRef spec6 0)) (V c (Pipeline.arrRef spec6 1)) (V c (Pipeline.arrRef spec6 2)) (V c (Pipeline.arrRef spec6 3)) (V c (Pipeline.arrRef spec6 4))) :=
  (dat6 V c).arrAt_eq_of_cover 6 (colSum (hpre6 V c)) (flushed6_6 V c) cover6_6

/-- The row of sums of squares after the stage: the column sums of squares of that dense step. -/
theorem final6_7 (V : (c : Dev nD) → (b : Ref sig .tc) → Buf (Elt Ideal) ((c : Thread nD τ).loc b)) (c : Dev nD) :
    (Gen.dat6 (F := Ideal) V c).arrAt 7 cfg6.N
      = Cert.Layer.colSumSq (Cert.Layer.lin (V c (Pipeline.arrRef spec6 0)) (V c (Pipeline.arrRef spec6 1)) (V c (Pipeline.arrRef spec6 2)) (V c (Pipeline.arrRef spec6 3)) (V c (Pipeline.arrRef spec6 4))) :=
  (dat6 V c).arrAt_eq_of_cover 7 (colSumSq (hpre6 V c)) (flushed6_7 V c) cover6_7

end Cert.KernelIdeal.RegionValue

end
-- ==== Proof.RegionA7.lean ====
/-
  The normalising step of one layer, read off the pipeline's write-backs.

  The pipeline walks ten row blocks of 5000 rows.  At block t the body holds rows 5000·t … 5000·t + 4999 of the
  pre-activation array and the four per-column rows (mean, variance, gain, offset), and stores, at row p and column q of
  the block, tanh(((h − mean q)·rsqrt(var q + eps))·gain q + offset q) with h the pre-activation at row 5000·t + p.  That
  is block t of ONE function of the whole arrays, the blocks tile the 50000 rows, and every block is written back: so the
  output array ends holding that function.
-/
import proofs.«147565_j9259949490665_1_alg».proof.Proof.Gen.KernelIdeal.Frame
import proofs.«147565_j9259949490665_1_alg».proof.Proof.Spec
import Idealize.ShloMosaic.Lib.Pipeline.Value
import Idealize.ShloMosaic.Lib.ValueLayout

set_option maxRecDepth 16384

noncomputable section

namespace Cert.KernelIdeal.RegionValue

open Idealize.ShloMosaic Idealize.ShloMosaic.TcCoe Idealize.ShloMosaic.ValueIdx
open Idealize.ShloMosaic.Pipeline (Dat)

/-- The zero offsets of an access to a whole buffer. -/
theorem zero_off7 : (![0, 0] : Fin 2 → Nat) = fun _ => 0 := funext fun a => by fin_cases a <;> rfl

/-- Two functions of a 5000×64 block agree when they agree at every row and column. -/
theorem ext_block7 {α : Type} (f g : S5000x64.Idx → α) (h : ∀ (p : Fin 5000) (q : Fin 64), f (ix2 p q) = g (ix2 p q)) :
    f = g := funext fun j => by rw [eq_ix2 j]; exact h _ _

/-- The body's arithmetic at row p, column q of its block: the four rows are read at column q, the constant is the
    same binary word as the specification's. -/
theorem pay7_apply (x0 : Vec Ideal S5000x64 .f32) (x1 x2 x3 x4 : Vec Ideal S1x64 .f32) (p : Fin 5000) (q : Fin 64) :
    Gen.k7_pay1 (F := Ideal) x2 x0 x1 x3 x4 (ix2 p q)
      = Ideal.tanh ((((x0 (ix2 p q) - x1 (ix2 0 q)) * Ideal.rsqrt (x2 (ix2 0 q) + Cert.Layer.eps)) * x3 (ix2 0 q))
          + x4 (ix2 0 q)) := by
  unfold Gen.k7_pay1
  simp only [shapeCast_self]
  show Ideal.tanh ((((x0 (ix2 p q) - broadcastTo S5000x64 x1 _ (ix2 p q))
      * broadcastTo S5000x64 (rsqrt (F := Ideal) (addf (F := Ideal) x2 (broadcast S1x64 (Scalar.ofBits (F := Ideal) .f32 0x3727C5AC#32)))) _ (ix2 p q))
      * broadcastTo S5000x64 x3 _ (ix2 p q)) + broadcastTo S5000x64 x4 _ (ix2 p q)) = _
  simp only [broadcastTo_1b_ab_apply]
  rfl

/-- What the body leaves in the output block: its one store covers the block, and its loads read whole blocks, so the
    block holds the body's arithmetic of the five input blocks. -/
theorem out7_eq (x0 : Vec Ideal S5000x64 .f32) (x1 x2 x3 x4 : Vec Ideal S1x64 .f32) :
    Gen.out7_5 (F := Ideal) x0 x1 x2 x3 x4 = Gen.k7_pay1 x2 x0 x1 x3 x4 := by
  unfold Gen.out7_5
  rw [View.canon_unit_zero zero_off7]
  simp only [View.ld_unit_zero (S := S5000x64) zero_off7, View.ld_unit_zero (S := S1x64) zero_off7]

/-- When row p of the first block is row r of a whole array and the four rows are those of whole arrays, entry (p, q) of
    the output block is entry (r, q) of the normalising step of the whole arrays. -/
theorem block_val7 (x0 : Vec Ideal S5000x64 .f32) (x1 x2 x3 x4 : Vec Ideal S1x64 .f32)
    (A0 : Cert.Layer.Mat 50000 64) (A1 A2 A3 A4 : Cert.Layer.Mat 1 64) (p : Fin 5000) (q : Fin 64) (r : Fin 50000)
    (h0 : x0 (ix2 p q) = A0 (ix2 r q)) (h1 : x1 (ix2 0 q) = A1 (ix2 0 q)) (h2 : x2 (ix2 0 q) = A2 (ix2 0 q))
    (h3 : x3 (ix2 0 q) = A3 (ix2 0 q)) (h4 : x4 (ix2 0 q) = A4 (ix2 0 q)) :
    Gen.out7_5 (F := Ideal) x0 x1 x2 x3 x4 (ix2 p q) = Cert.Layer.bn A0 A1 A2 A3 A4 (ix2 r q) := by
  rw [out7_eq, pay7_apply, Cert.Layer.bn_apply, h0, h1, h2, h3, h4]

/-- The block index of every window at every point of the grid: the two row-blocked windows sit at block (t, 0), the
    four rows at block (0, 0). -/
theorem idx_facts7 : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = t.val ∧ win7_5.index t (1 : Fin 2) = 0 :=
  (by decide +kernel : ∀ t : Fin grid7.N, _)

/-- The grid has ten points. -/
theorem point_lt7 (t : Fin cfg7.N) : t.val < 10 := lt_of_lt_of_eq t.isLt Gen.N_7

/-- Row p, column q of the pre-activation block at point t sits at row 5000·t + p of the pre-activation array. -/
theorem emb7_0 (t : Fin cfg7.N) (p : Fin 5000) (q : Fin 64) (r : Fin 50000) (hr : r.val = t.val * 5000 + p.val) :
    (((cfg7.win 0).blk t).view.emb (ix2 p q : S5000x64.Idx) : S50000x64.Idx) = ix2 r q := by
  obtain ⟨e0, e1, -⟩ := idx_facts7 t
  refine funext fun a => Fin.ext ?_
  match a with
  | ⟨0, _⟩ => show win7_0.index t (0 : Fin 2) * 5000 + 1 * p.val = r.val; rw [e0, hr]; omega
  | ⟨1, _⟩ => show win7_0.index t (1 : Fin 2) * 64 + 1 * q.val = q.val; rw [e1]; omega

/-- Column q of per-column row 1's block at any point sits at column q of the row. -/
theorem emb7_1 (t : Fin cfg7.N) (q : Fin 64) :
    (((cfg7.win 1).blk t).view.emb (ix2 0 q : S1x64.Idx) : S1x64.Idx) = ix2 0 q := by
  obtain ⟨-, -, e0, e1, -⟩ := idx_facts7 t
  refine funext fun a => Fin.ext ?_
  match a with
  | ⟨0, _⟩ => show win7_1.index t (0 : Fin 2) * 1 + 1 * 0 = 0; rw [e0]
  | ⟨1, _⟩ => show win7_1.index t (1 : Fin 2) * 64 + 1 * q.val = q.val; rw [e1]; omega

/-- Column q of per-column row 2's block at any point sits at column q of the row. -/
theorem emb7_2 (t : Fin cfg7.N) (q : Fin 64) :
    (((cfg7.win 2).blk t).view.emb (ix2 0 q : S1x64.Idx) : S1x64.Idx) = ix2 0 q := by
  obtain ⟨-, -, -, -, e0, e1, -⟩ := idx_facts7 t
  refine funext fun a => Fin.ext ?_
  match a with
  | ⟨0, _⟩ => show win7_2.index t (0 : Fin 2) * 1 + 1 * 0 = 0; rw [e0]
  | ⟨1, _⟩ => show win7_2.index t (1 : Fin 2) * 64 + 1 * q.val = q.val; rw [e1]; omega

/-- Column q of per-column row 3's block at any point sits at column q of the row. -/
theorem emb7_3 (t : Fin cfg7.N) (q : Fin 64) :
    (((cfg7.win 3).blk t).view.emb (ix2 0 q : S1x64.Idx) : S1x64.Idx) = ix2 0 q := by
  obtain ⟨-, -, -, -, -, -, e0, e1, -⟩ := idx_facts7 t
  refine funext fun a => Fin.ext ?_
  match a with
  | ⟨0, _⟩ => show win7_3.index t (0 : Fin 2) * 1 + 1 * 0 = 0; rw [e0]
  | ⟨1, _⟩ => show win7_3.index t (1 : Fin 2) * 64 + 1 * q.val = q.val; rw [e1]; omega

/-- Column q of per-column row 4's block at any point sits at column q of the row. -/
theorem emb7_4 (t : Fin cfg7.N) (q : Fin 64) :
    (((cfg7.win 4).blk t).view.emb (ix2 0 q : S1x64.Idx) : S1x64.Idx) = ix2 0 q := by
  obtain ⟨-, -, -, -, -, -, -, -, e0, e1, -⟩ := idx_facts7 t
  refine funext fun a => Fin.ext ?_
  match a with
  | ⟨0, _⟩ => show win7_4.index t (0 : Fin 2) * 1 + 1 * 0 = 0; rw [e0]
  | ⟨1, _⟩ => show win7_4.index t (1 : Fin 2) * 64 + 1 * q.val = q.val; rw [e1]; omega

/-- Row p, column q of the output block at point t sits at row 5000·t + p of the output array. -/
theorem emb7_5 (t : Fin cfg7.N) (p : Fin 5000) (q : Fin 64) (r : Fin 50000) (hr : r.val = t.val * 5000 + p.val) :
    (((cfg7.win 5).blk t).view.emb (ix2 p q : S5000x64.Idx) : S50000x64.Idx) = ix2 r q := by
  obtain ⟨-, -, -, -, -, -, -, -, -, -, e0, e1⟩ := idx_facts7 t
  refine funext fun a => Fin.ext ?_
  match a with
  | ⟨0, _⟩ => show win7_5.index t (0 : Fin 2) * 5000 + 1 * p.val = r.val; rw [e0, hr]; omega
  | ⟨1, _⟩ => show win7_5.index t (1 : Fin 2) * 64 + 1 * q.val = q.val; rw [e1]; omega

section
variable (V : (c : Dev nD) → (b : Ref sig .tc) → Buf (Elt Ideal) ((c : Thread nD τ).loc b))

set_option maxHeartbeats 1000000 in
/-- Row p, column q of the pre-activation block at point t is row 5000·t + p of the pre-activation array. -/
theorem blk7_0_apply (c : Dev nD) (t : Fin cfg7.N) (p : Fin 5000) (q : Fin 64) (r : Fin 50000)
    (hr : r.val = t.val * 5000 + p.val) :
    (Gen.iblk7 (F := Ideal) V c 0 t : S5000x64.Idx → EReal) (ix2 p q)
      = (V c (Pipeline.arrRef spec7 0) : S50000x64.Idx → EReal) (ix2 r q) :=
  congrArg (V c (Pipeline.arrRef spec7 0) : S50000x64.Idx → EReal) (emb7_0 t p q r hr)

set_option maxHeartbeats 1000000 in
/-- The block of per-column row 1 at any point is the row itself. -/
theorem blk7_1_apply (c : Dev nD) (t : Fin cfg7.N) (q : Fin 64) :
    (Gen.iblk7 (F := Ideal) V c 1 t : S1x64.Idx → EReal) (ix2 0 q)
      = (V c (Pipeline.arrRef spec7 1) : S1x64.Idx → EReal) (ix2 0 q) :=
  congrArg (V c (Pipeline.arrRef spec7 1) : S1x64.Idx → EReal) (emb7_1 t q)

set_option maxHeartbeats 1000000 in
/-- The block of per-column row 2 at any point is the row itself. -/
theorem blk7_2_apply (c : Dev nD) (t : Fin cfg7.N) (q : Fin 64) :
    (Gen.iblk7 (F := Ideal) V c 2 t : S1x64.Idx → EReal) (ix2 0 q)
      = (V c (Pipeline.arrRef spec7 2) : S1x64.Idx → EReal) (ix2 0 q) :=
  congrArg (V c (Pipeline.arrRef spec7 2) : S1x64.Idx → EReal) (emb7_2 t q)

set_option maxHeartbeats 1000000 in
/-- The block of per-column row 3 at any point is the row itself. -/
theorem blk7_3_apply (c : Dev nD) (t : Fin cfg7.N) (q : Fin 64) :
    (Gen.iblk7 (F := Ideal) V c 3 t : S1x64.Idx → EReal) (ix2 0 q)
      = (V c (Pipeline.arrRef spec7 3) : S1x64.Idx → EReal) (ix2 0 q) :=
  congrArg (V c (Pipeline.arrRef spec7 3) : S1x64.Idx → EReal) (emb7_3 t q)

set_option maxHeartbeats 1000000 in
/-- The block of per-column row 4 at any point is the row itself. -/
theorem blk7_4_apply (c : Dev nD) (t : Fin cfg7.N) (q : Fin 64) :
    (Gen.iblk7 (F := Ideal) V c 4 t : S1x64.Idx → EReal) (ix2 0 q)
      = (V c (Pipeline.arrRef spec7 4) : S1x64.Idx → EReal) (ix2 0 q) :=
  congrArg (V c (Pipeline.arrRef spec7 4) : S1x64.Idx → EReal) (emb7_4 t q)

set_option maxHeartbeats 1000000 in
/-- What point t writes back is block t of the normalising step of the whole arrays. -/
theorem flushed7_5_eq (c : Dev nD) (t : Fin cfg7.N) :
    (Gen.dat7 (F := Ideal) V c).flushed 5 t
      = ((cfg7.win 5).blk t).view.read (Elt Ideal)
          (Cert.Layer.bn (V c (Pipeline.arrRef spec7 0)) (V c (Pipeline.arrRef spec7 1)) (V c (Pipeline.arrRef spec7 2))
            (V c (Pipeline.arrRef spec7 3)) (V c (Pipeline.arrRef spec7 4))) := by
  show (cfg7.win 5).cut (grid7.coords t) ((Gen.dat7 V c).after 5 t) = _
  rw [Gen.after7_5]
  refine ext_block7 _ _ fun p q => ?_
  have hp : p.val < 5000 := p.isLt
  have ht : t.val < 10 := point_lt7 t
  have hr : t.val * 5000 + p.val < 50000 := by omega
  exact (block_val7 (Gen.iblk7 V c 0 t) (Gen.iblk7 V c 1 t) (Gen.iblk7 V c 2 t) (Gen.iblk7 V c 3 t)
      (Gen.iblk7 V c 4 t) (V c (Pipeline.arrRef spec7 0)) (V c (Pipeline.arrRef spec7 1))
      (V c (Pipeline.arrRef spec7 2)) (V c (Pipeline.arrRef spec7 3)) (V c (Pipeline.arrRef spec7 4))
      p q ⟨t.val * 5000 + p.val, hr⟩ (blk7_0_apply V c t p q _ rfl) (blk7_1_apply V c t q) (blk7_2_apply V c t q)
      (blk7_3_apply V c t q) (blk7_4_apply V c t q)).trans
    (congrArg (Cert.Layer.bn (V c (Pipeline.arrRef spec7 0)) (V c (Pipeline.arrRef spec7 1))
      (V c (Pipeline.arrRef spec7 2)) (V c (Pipeline.arrRef spec7 3)) (V c (Pipeline.arrRef spec7 4)))
      (emb7_5 t p q ⟨t.val * 5000 + p.val, hr⟩ rfl).symm)

/-- An index of the output array lies in point t's block iff each coordinate lies in the block's range on its axis. -/
theorem mem_blk7_5 (t : Fin cfg7.N) (i : S50000x64.Idx) :
    i ∈ ((cfg7.win 5).blk t).view.set
      ↔ ∀ a : Fin 2, win7_5.index t a * S5000x64.size a ≤ (i a).val
          ∧ (i a).val < win7_5.index t a * S5000x64.size a + S5000x64.size a := by
  show i ∈ ((View.whole main_v121).slice (win7_5.rect t)).set ↔ _
  rw [View.set_slice_whole, Rect.mem_set_unit]
  exact Iff.rfl

/-- Every row of the output array lies in a block that is written back: row r in the block of point r / 5000. -/
theorem cover7_5 (i : S50000x64.Idx) :
    ∃ t : Fin cfg7.N, (cfg7.win 5).flush t = true ∧ i ∈ ((cfg7.win 5).blk t).view.set := by
  have hi0 : (i 0).val < 50000 := (i 0).isLt
  have hi1 : (i 1).val < 64 := (i 1).isLt
  have hN : (i 0).val / 5000 < cfg7.N := lt_of_lt_of_eq (by omega : (i 0).val / 5000 < 10) Gen.N_7.symm
  refine ⟨⟨(i 0).val / 5000, hN⟩, Gen.flush7_5 _, ?_⟩
  obtain ⟨-, -, -, -, -, -, -, -, -, -, e0, e1⟩ := idx_facts7 ⟨(i 0).val / 5000, hN⟩
  rw [mem_blk7_5]
  intro a
  match a with
  | ⟨0, _⟩ =>
    show win7_5.index ⟨(i 0).val / 5000, hN⟩ (0 : Fin 2) * 5000 ≤ (i 0).val
      ∧ (i 0).val < win7_5.index ⟨(i 0).val / 5000, hN⟩ (0 : Fin 2) * 5000 + 5000
    rw [e0]; show (i 0).val / 5000 * 5000 ≤ (i 0).val ∧ (i 0).val < (i 0).val / 5000 * 5000 + 5000; omega
  | ⟨1, _⟩ =>
    show win7_5.index ⟨(i 0).val / 5000, hN⟩ (1 : Fin 2) * 64 ≤ (i 1).val
      ∧ (i 1).val < win7_5.index ⟨(i 0).val / 5000, hN⟩ (1 : Fin 2) * 64 + 64
    rw [e1]; omega

set_option maxHeartbeats 1000000 in
/-- The output array after the region: the normalising step of the arrays the region found. -/
theorem final7_5 (c : Dev nD) :
    (Gen.dat7 (F := Ideal) V c).arrAt 5 cfg7.N
      = Cert.Layer.bn (V c (Pipeline.arrRef spec7 0)) (V c (Pipeline.arrRef spec7 1)) (V c (Pipeline.arrRef spec7 2))
          (V c (Pipeline.arrRef spec7 3)) (V c (Pipeline.arrRef spec7 4)) :=
  (Gen.dat7 V c).arrAt_eq_of_cover 5 _ (fun t _ => flushed7_5_eq V c t) cover7_5

end

end Cert.KernelIdeal.RegionValue

end
-- ==== Proof.KLayer3.lean ====
/-
  Layer 3 of the kernel program, from the buffer contents before its first host operation to its output array: the
  dense step and its two column-sum rows (launch 6), the mean and variance rows, and the normalising step (launch 7).
-/
import proofs.«147565_j9259949490665_1_alg».proof.Proof.KHostA3
import proofs.«147565_j9259949490665_1_alg».proof.Proof.KHostB3
import proofs.«147565_j9259949490665_1_alg».proof.Proof.RegionR6
import proofs.«147565_j9259949490665_1_alg».proof.Proof.RegionA7

set_option maxRecDepth 16384

noncomputable section

namespace Cert.KernelIdeal.Fold

open Idealize.ShloMosaic Idealize.ShloMosaic.TcCoe Idealize.SL.Sem Idealize.ShloMosaic.ValueIdx
open Cert.KernelIdeal Cert.KernelIdeal.Gen Cert.KernelIdeal.HostFn Cert.Layer

variable (m : (ℓ : Loc nD τ sig) → Buf (Elt Ideal) ℓ) (ρ : Dev nD → PrngReg)

set_option maxHeartbeats 1000000 in
/-- Launch 6's three result arrays at its exit. -/
theorem W14_ro0 (c : Dev nD) : W14 m ρ c (Proc.devRef .tc main_v112_0) = (lin (W13 m ρ c (Proc.devRef .tc main_v110)) (W13 m ρ c (Proc.devRef .tc main_v90)) (W13 m ρ c (Proc.devRef .tc main_v92)) (W13 m ρ c (Proc.devRef .tc main_v94)) (W13 m ρ c (Proc.devRef .tc main_v111))) :=
  (W14_arr m ρ c 5).trans (Cert.KernelIdeal.RegionValue.final6_5 (V13 m ρ) c)
set_option maxHeartbeats 1000000 in
theorem W14_ro1 (c : Dev nD) : W14 m ρ c (Proc.devRef .tc main_v112_1) = colSum (lin (W13 m ρ c (Proc.devRef .tc main_v110)) (W13 m ρ c (Proc.devRef .tc main_v90)) (W13 m ρ c (Proc.devRef .tc main_v92)) (W13 m ρ c (Proc.devRef .tc main_v94)) (W13 m ρ c (Proc.devRef .tc main_v111))) :=
  (W14_arr m ρ c 6).trans (Cert.KernelIdeal.RegionValue.final6_6 (V13 m ρ) c)
set_option maxHeartbeats 1000000 in
theorem W14_ro2 (c : Dev nD) : W14 m ρ c (Proc.devRef .tc main_v112_2) = colSumSq (lin (W13 m ρ c (Proc.devRef .tc main_v110)) (W13 m ρ c (Proc.devRef .tc main_v90)) (W13 m ρ c (Proc.devRef .tc main_v92)) (W13 m ρ c (Proc.devRef .tc main_v94)) (W13 m ρ c (Proc.devRef .tc main_v111))) :=
  (W14_arr m ρ c 7).trans (Cert.KernelIdeal.RegionValue.final6_7 (V13 m ρ) c)
theorem W14_gv (c : Dev nD) : W14 m ρ c (Proc.devRef .tc main_v98) = W13 m ρ c (Proc.devRef .tc main_v98) := W14_of_ne m ρ c main_v98 (by decide)
theorem W14_bev (c : Dev nD) : W14 m ρ c (Proc.devRef .tc main_v100) = W13 m ρ c (Proc.devRef .tc main_v100) := W14_of_ne m ρ c main_v100 (by decide)

set_option maxHeartbeats 1000000 in
/-- Launch 7's result array at its exit. -/
theorem W16_out (c : Dev nD) : W16 m ρ c (Proc.devRef .tc main_v121) = bn (W15 m ρ c (Proc.devRef .tc main_v112_0)) (W15 m ρ c (Proc.devRef .tc main_v114)) (W15 m ρ c (Proc.devRef .tc main_v118)) (W15 m ρ c (Proc.devRef .tc main_v119)) (W15 m ρ c (Proc.devRef .tc main_v120)) :=
  (W16_arr m ρ c 5).trans (Cert.KernelIdeal.RegionValue.final7_5 (V15 m ρ) c)

set_option maxHeartbeats 2000000 in
/-- The layer: its output array is the normalising step, with the array's own mean and variance, of the dense step of the
    aggregated and the plain input. -/
theorem layer3 (c : Dev nD) : W16 m ρ c (Proc.devRef .tc main_v121)
    = bnStep (lin (agg64 (W12 m ρ c (Proc.devRef .tc main_v1)) (W12 m ρ c (Proc.devRef .tc main_v3)) (W12 m ρ c (Proc.devRef .tc main_v90))) (W12 m ρ c (Proc.devRef .tc main_v90)) (matSlice ![2, 0, 0] slices_S7x64x64_S1x64x64_2_0_0 (W12 m ρ c (Proc.devRef .tc main_arg5))) (matSlice ![2, 0, 0] slices_S7x64x64_S1x64x64_2_0_0 (W12 m ρ c (Proc.devRef .tc main_arg6))) (Cert.Row.rowOf (vecSlice7 ![2, 0] slices_S7x64_S1x64_2_0 (W12 m ρ c (Proc.devRef .tc main_arg7))))) (Cert.Row.rowOf (vecSlice8 ![3, 0] slices_S8x64_S1x64_3_0 (W12 m ρ c (Proc.devRef .tc main_arg8)))) (Cert.Row.rowOf (vecSlice8 ![3, 0] slices_S8x64_S1x64_3_0 (W12 m ρ c (Proc.devRef .tc main_arg9)))) := by
  rw [W16_out, W15_hpre, W15_mean, W15_var, W15_grow, W15_berow, W14_ro0, W14_ro1, W14_ro2,
    W14_gv, W14_bev, W13_agg, W13_hp, W13_wl, W13_wr, W13_brow, W13_gv, W13_bev]
  rw [bcast1_row, bcast1_row, bcast1_row, meanRow_eq, varRow_eq]
  rfl

theorem keepL3_v1 (c : Dev nD) : W16 m ρ c (Proc.devRef .tc main_v1) = W12 m ρ c (Proc.devRef .tc main_v1) :=
  (W16_of_ne m ρ c main_v1 (by decide)).trans ((keepH7 m ρ c main_v1 (by decide)).trans ((W14_of_ne m ρ c main_v1 (by decide)).trans (keepH6 m ρ c main_v1 (by decide))))
theorem keepL3_v3 (c : Dev nD) : W16 m ρ c (Proc.devRef .tc main_v3) = W12 m ρ c (Proc.devRef .tc main_v3) :=
  (W16_of_ne m ρ c main_v3 (by decide)).trans ((keepH7 m ρ c main_v3 (by decide)).trans ((W14_of_ne m ρ c main_v3 (by decide)).trans (keepH6 m ρ c main_v3 (by decide))))
theorem keepL3_arg5 (c : Dev nD) : W16 m ρ c (Proc.devRef .tc main_arg5) = W12 m ρ c (Proc.devRef .tc main_arg5) :=
  (W16_of_ne m ρ c main_arg5 (by decide)).trans ((keepH7 m ρ c main_arg5 (by decide)).trans ((W14_of_ne m ρ c main_arg5 (by decide)).trans (keepH6 m ρ c main_arg5 (by decide))))
theorem keepL3_arg6 (c : Dev nD) : W16 m ρ c (Proc.devRef .tc main_arg6) = W12 m ρ c (Proc.devRef .tc main_arg6) :=
  (W16_of_ne m ρ c main_arg6 (by decide)).trans ((keepH7 m ρ c main_arg6 (by decide)).trans ((W14_of_ne m ρ c main_arg6 (by decide)).trans (keepH6 m ρ c main_arg6 (by decide))))
theorem keepL3_arg7 (c : Dev nD) : W16 m ρ c (Proc.devRef .tc main_arg7) = W12 m ρ c (Proc.devRef .tc main_arg7) :=
  (W16_of_ne m ρ c main_arg7 (by decide)).trans ((keepH7 m ρ c main_arg7 (by decide)).trans ((W14_of_ne m ρ c main_arg7 (by decide)).trans (keepH6 m ρ c main_arg7 (by decide))))
theorem keepL3_arg8 (c : Dev nD) : W16 m ρ c (Proc.devRef .tc main_arg8) = W12 m ρ c (Proc.devRef .tc main_arg8) :=
  (W16_of_ne m ρ c main_arg8 (by decide)).trans ((keepH7 m ρ c main_arg8 (by decide)).trans ((W14_of_ne m ρ c main_arg8 (by decide)).trans (keepH6 m ρ c main_arg8 (by decide))))
theorem keepL3_arg9 (c : Dev nD) : W16 m ρ c (Proc.devRef .tc main_arg9) = W12 m ρ c (Proc.devRef .tc main_arg9) :=
  (W16_of_ne m ρ c main_arg9 (by decide)).trans ((keepH7 m ρ c main_arg9 (by decide)).trans ((W14_of_ne m ρ c main_arg9 (by decide)).trans (keepH6 m ρ c main_arg9 (by decide))))
theorem keepL3_arg10 (c : Dev nD) : W16 m ρ c (Proc.devRef .tc main_arg10) = W12 m ρ c (Proc.devRef .tc main_arg10) :=
  (W16_of_ne m ρ c main_arg10 (by decide)).trans ((keepH7 m ρ c main_arg10 (by decide)).trans ((W14_of_ne m ρ c main_arg10 (by decide)).trans (keepH6 m ρ c main_arg10 (by decide))))
theorem keepL3_arg11 (c : Dev nD) : W16 m ρ c (Proc.devRef .tc main_arg11) = W12 m ρ c (Proc.devRef .tc main_arg11) :=
  (W16_of_ne m ρ c main_arg11 (by decide)).trans ((keepH7 m ρ c main_arg11 (by decide)).trans ((W14_of_ne m ρ c main_arg11 (by decide)).trans (keepH6 m ρ c main_arg11 (by decide))))

end Cert.KernelIdeal.Fold

end
-- ==== Proof.KHostA4.lean ====
/-
  The host operations before launch 8: which buffers they write, and what the ones the layer reads hold afterwards.
-/
import proofs.«147565_j9259949490665_1_alg».proof.Proof.Gen.KernelIdeal.Frame
import proofs.«147565_j9259949490665_1_alg».proof.Proof.KHostFn
import proofs.«147565_j9259949490665_1_alg».proof.Proof.LayerDefs

set_option maxRecDepth 16384

noncomputable section

namespace Cert.KernelIdeal.Fold

open Idealize.ShloMosaic Idealize.ShloMosaic.TcCoe Idealize.SL.Sem Idealize.ShloMosaic.ValueIdx
open Cert.KernelIdeal Cert.KernelIdeal.Gen Cert.KernelIdeal.HostFn Cert.Layer

variable (m : (ℓ : Loc nD τ sig) → Buf (Elt Ideal) ℓ) (ρ : Dev nD → PrngReg)

/-- The buffers the host operations before launch 8 write. -/
abbrev hostOps8_W : List (Ref sig .tc) := [main_v122, main_v123, main_v124, main_v125, main_v126, main_v127, main_v128, main_v129, main_v130, main_v131, main_c_18, main_v132, main_v133, main_c_19, main_v134, main_v135, main_v136, main_v137, main_v138, main_cst_20, main_v139, main_v140, main_v141, main_v142]

theorem hostOps8_writes : (hostOps8 : List (HloOp τ sig (Elt Ideal))).Forall fun op => op.writes ⊆ (hostOps8_W.map (Proc.devRef (τ := τ) .tc)).toFinset := by
  simp only [hostOps8, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- A buffer those operations do not write keeps its contents through them. -/
theorem keepH8 (c : Dev nD) (r : Ref sig .tc) (h : r ∉ hostOps8_W) :
    W17 m ρ c (Proc.devRef .tc r) = W16 m ρ c (Proc.devRef .tc r) :=
  StableHlo.after_of_writes_sub hostOps8 _ hostOps8_writes h

theorem W17_wl (c : Dev nD) : W17 m ρ c (Proc.devRef .tc main_v123) = (matSlice ![3, 0, 0] slices_S7x64x64_S1x64x64_3_0_0 (W16 m ρ c (Proc.devRef .tc main_arg5))) := by
  show StableHlo.after hostOps8 (W16 m ρ c) (Proc.devRef .tc main_v123) = _
  simp only [hostOps8]
  first | (after_results_simp <;> rfl) | (after_results <;> rfl)
theorem W17_wr (c : Dev nD) : W17 m ρ c (Proc.devRef .tc main_v125) = (matSlice ![3, 0, 0] slices_S7x64x64_S1x64x64_3_0_0 (W16 m ρ c (Proc.devRef .tc main_arg6))) := by
  show StableHlo.after hostOps8 (W16 m ρ c) (Proc.devRef .tc main_v125) = _
  simp only [hostOps8]
  first | (after_results_simp <;> rfl) | (after_results <;> rfl)
theorem W17_brow (c : Dev nD) : W17 m ρ c (Proc.devRef .tc main_v142) = broadcastInDim S1x64 ![1] bcast_S64_S1x64_1 (vecSlice7 ![3, 0] slices_S7x64_S1x64_3_0 (W16 m ρ c (Proc.devRef .tc main_arg7))) := by
  show StableHlo.after hostOps8 (W16 m ρ c) (Proc.devRef .tc main_v142) = _
  simp only [hostOps8]
  first | (after_results_simp <;> rfl) | (after_results <;> rfl)
theorem W17_gv (c : Dev nD) : W17 m ρ c (Proc.devRef .tc main_v129) = (vecSlice8 ![4, 0] slices_S8x64_S1x64_4_0 (W16 m ρ c (Proc.devRef .tc main_arg8))) := by
  show StableHlo.after hostOps8 (W16 m ρ c) (Proc.devRef .tc main_v129) = _
  simp only [hostOps8]
  first | (after_results_simp <;> rfl) | (after_results <;> rfl)
theorem W17_bev (c : Dev nD) : W17 m ρ c (Proc.devRef .tc main_v131) = (vecSlice8 ![4, 0] slices_S8x64_S1x64_4_0 (W16 m ρ c (Proc.devRef .tc main_arg9))) := by
  show StableHlo.after hostOps8 (W16 m ρ c) (Proc.devRef .tc main_v131) = _
  simp only [hostOps8]
  first | (after_results_simp <;> rfl) | (after_results <;> rfl)
theorem W17_agg (c : Dev nD) : W17 m ρ c (Proc.devRef .tc main_v141) = (agg64 (W16 m ρ c (Proc.devRef .tc main_v1)) (W16 m ρ c (Proc.devRef .tc main_v3)) (W16 m ρ c (Proc.devRef .tc main_v121))) := by
  show StableHlo.after hostOps8 (W16 m ρ c) (Proc.devRef .tc main_v141) = _
  simp only [hostOps8]
  first | (after_results_simp <;> rfl) | (after_results <;> rfl)
theorem W17_hp (c : Dev nD) : W17 m ρ c (Proc.devRef .tc main_v121) = W16 m ρ c (Proc.devRef .tc main_v121) := keepH8 m ρ c main_v121 (by decide)

end Cert.KernelIdeal.Fold

end
-- ==== Proof.KHostB4.lean ====
/-
  The host operations before launch 9: the mean row, the variance row, the gain and offset rows.
-/
import proofs.«147565_j9259949490665_1_alg».proof.Proof.Gen.KernelIdeal.Frame
import proofs.«147565_j9259949490665_1_alg».proof.Proof.KHostFn
import proofs.«147565_j9259949490665_1_alg».proof.Proof.LayerDefs

set_option maxRecDepth 16384

noncomputable section

namespace Cert.KernelIdeal.Fold

open Idealize.ShloMosaic Idealize.ShloMosaic.TcCoe Idealize.SL.Sem Idealize.ShloMosaic.ValueIdx
open Cert.KernelIdeal Cert.KernelIdeal.Gen Cert.KernelIdeal.HostFn Cert.Layer

variable (m : (ℓ : Loc nD τ sig) → Buf (Elt Ideal) ℓ) (ρ : Dev nD → PrngReg)

/-- The buffers the host operations before launch 9 write. -/
abbrev hostOps9_W : List (Ref sig .tc) := [main_cst_21, main_v144, main_v145, main_cst_22, main_v146, main_v147, main_v148, main_v149, main_v150, main_v151]

theorem hostOps9_writes : (hostOps9 : List (HloOp τ sig (Elt Ideal))).Forall fun op => op.writes ⊆ (hostOps9_W.map (Proc.devRef (τ := τ) .tc)).toFinset := by
  simp only [hostOps9, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- A buffer those operations do not write keeps its contents through them. -/
theorem keepH9 (c : Dev nD) (r : Ref sig .tc) (h : r ∉ hostOps9_W) :
    W19 m ρ c (Proc.devRef .tc r) = W18 m ρ c (Proc.devRef .tc r) :=
  StableHlo.after_of_writes_sub hostOps9 _ hostOps9_writes h

theorem W19_mean (c : Dev nD) : W19 m ρ c (Proc.devRef .tc main_v145) = (Host.divf (F := Ideal) (W18 m ρ c (Proc.devRef .tc main_v143_1)) (broadcastInDim S1x64 ![] bcast_S_S1x64 (constant (F := Ideal) S_ .f32 0x47435000#32)) : FVec Ideal S1x64 .f32) := by
  show StableHlo.after hostOps9 (W18 m ρ c) (Proc.devRef .tc main_v145) = _
  simp only [hostOps9]
  first | (after_results_simp <;> rfl) | (after_results <;> rfl)
theorem W19_var (c : Dev nD) : W19 m ρ c (Proc.devRef .tc main_v149) = (subf (F := Ideal) (Host.divf (F := Ideal) (W18 m ρ c (Proc.devRef .tc main_v143_2)) (broadcastInDim S1x64 ![] bcast_S_S1x64 (constant (F := Ideal) S_ .f32 0x47435000#32))) (mulf (F := Ideal) (Host.divf (F := Ideal) (W18 m ρ c (Proc.devRef .tc main_v143_1)) (broadcastInDim S1x64 ![] bcast_S_S1x64 (constant (F := Ideal) S_ .f32 0x47435000#32))) (Host.divf (F := Ideal) (W18 m ρ c (Proc.devRef .tc main_v143_1)) (broadcastInDim S1x64 ![] bcast_S_S1x64 (constant (F := Ideal) S_ .f32 0x47435000#32)))) : FVec Ideal S1x64 .f32) := by
  show StableHlo.after hostOps9 (W18 m ρ c) (Proc.devRef .tc main_v149) = _
  simp only [hostOps9]
  first | (after_results_simp <;> rfl) | (after_results <;> rfl)
theorem W19_grow (c : Dev nD) : W19 m ρ c (Proc.devRef .tc main_v150) = (broadcastInDim S1x64 ![1] bcast_S64_S1x64_1 (W18 m ρ c (Proc.devRef .tc main_v129)) : FVec Ideal S1x64 .f32) := by
  show StableHlo.after hostOps9 (W18 m ρ c) (Proc.devRef .tc main_v150) = _
  simp only [hostOps9]
  first | (after_results_simp <;> rfl) | (after_results <;> rfl)
theorem W19_berow (c : Dev nD) : W19 m ρ c (Proc.devRef .tc main_v151) = (broadcastInDim S1x64 ![1] bcast_S64_S1x64_1 (W18 m ρ c (Proc.devRef .tc main_v131)) : FVec Ideal S1x64 .f32) := by
  show StableHlo.after hostOps9 (W18 m ρ c) (Proc.devRef .tc main_v151) = _
  simp only [hostOps9]
  first | (after_results_simp <;> rfl) | (after_results <;> rfl)
theorem W19_hpre (c : Dev nD) : W19 m ρ c (Proc.devRef .tc main_v143_0) = W18 m ρ c (Proc.devRef .tc main_v143_0) := keepH9 m ρ c main_v143_0 (by decide)

end Cert.KernelIdeal.Fold

end
-- ==== Proof.RegionR8Pieces.lean ====
/-
  What one step of the dense-step body leaves in its three result blocks, as arithmetic of the blocks it read.

  At the first step of a run the two running rows are set to zero before the step adds to them; at every later step
  they are read as the step before left them.  In both cases the block of pre-activations is the same arithmetic of
  the five operand blocks, the row of sums is the previous row plus the block's column sums, and the row of sums of
  squares is the previous row plus the block's column sums of squares.
-/
import proofs.«147565_j9259949490665_1_alg».proof.Proof.Gen.KernelIdeal.Frame
import proofs.«147565_j9259949490665_1_alg».proof.Proof.LibColumnSum
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.RegionValue

open Cert.KernelIdeal Cert.KernelIdeal.Gen
open Cert.LibColumnSum (offsets_zero)

variable {F : FTy → Type} [FloatOps F]

theorem out8_A_5_eq (c : Dev nD) (i : grid8.Coords) (a1 : Memref sig .tc .vmem S5000x64 .f32) (h1 : a1.IsWhole) (a2 : Memref sig .tc .vmem S5000x64 .f32) (h2 : a2.IsWhole) (a3 : Memref sig .tc .vmem S64x64 .f32) (h3 : a3.IsWhole) (a4 : Memref sig .tc .vmem S64x64 .f32) (h4 : a4.IsWhole) (a5 : Memref sig .tc .vmem S1x64 .f32) (h5 : a5.IsWhole) (a6 : Memref sig .tc .vmem S5000x64 .f32) (h6 : a6.IsWhole) (a7 : Memref sig .tc .vmem S1x64 .f32) (h7 : a7.IsWhole) (a8 : Memref sig .tc .vmem S1x64 .f32) (h8 : a8.IsWhole) (hc : cond8_0 i)
    (x0 : Vec F S5000x64 .f32) (x1 : Vec F S5000x64 .f32) (x2 : Vec F S64x64 .f32) (x3 : Vec F S64x64 .f32) (x4 : Vec F S1x64 .f32) :
    out8_A_5 c i a1 h1 a2 h2 a3 h3 a4 h4 a5 h5 a6 h6 a7 h7 a8 h8 hc x0 x1 x2 x3 x4 = k8_pay4 x0 x2 x4 x1 x3 := by
  unfold out8_A_5
  rw [View.read_writes_eq_canon _ _ _ (cover8_A_5 c i a1 h1 a2 h2 a3 h3 a4 h4 a5 h5 a6 h6 a7 h7 a8 h8 hc x0 x1 x2 x3 x4)]
  unfold kernelRun8_A
  dsimp only
  sl_unfold_words
  rw [View.canon_unit_zero offsets_zero]
  simp only [View.readAt_eq_ld, h1.read_unread, h2.read_unread, h3.read_unread, h4.read_unread, h5.read_unread, h7.read_unread, h8.read_unread, View.ld_unit_zero (S := S5000x64) offsets_zero, View.ld_unit_zero (S := S64x64) offsets_zero, View.ld_unit_zero (S := S1x64) offsets_zero]

theorem out8_A_6_eq (c : Dev nD) (i : grid8.Coords) (a1 : Memref sig .tc .vmem S5000x64 .f32) (h1 : a1.IsWhole) (a2 : Memref sig .tc .vmem S5000x64 .f32) (h2 : a2.IsWhole) (a3 : Memref sig .tc .vmem S64x64 .f32) (h3 : a3.IsWhole) (a4 : Memref sig .tc .vmem S64x64 .f32) (h4 : a4.IsWhole) (a5 : Memref sig .tc .vmem S1x64 .f32) (h5 : a5.IsWhole) (a6 : Memref sig .tc .vmem S5000x64 .f32) (h6 : a6.IsWhole) (a7 : Memref sig .tc .vmem S1x64 .f32) (h7 : a7.IsWhole) (a8 : Memref sig .tc .vmem S1x64 .f32) (h8 : a8.IsWhole) (hc : cond8_0 i)
    (x0 : Vec F S5000x64 .f32) (x1 : Vec F S5000x64 .f32) (x2 : Vec F S64x64 .f32) (x3 : Vec F S64x64 .f32) (x4 : Vec F S1x64 .f32) :
    out8_A_6 c i a1 h1 a2 h2 a3 h3 a4 h4 a5 h5 a6 h6 a7 h7 a8 h8 hc x0 x1 x2 x3 x4 = k8_pay5 x0 x2 x4 x1 x3 (k8_pay2 (F := F)) := by
  unfold out8_A_6
  rw [View.read_writes_eq_canon _ _ _ (cover8_A_6 c i a1 h1 a2 h2 a3 h3 a4 h4 a5 h5 a6 h6 a7 h7 a8 h8 hc x0 x1 x2 x3 x4)]
  unfold kernelRun8_A
  dsimp only
  sl_unfold_words
  rw [View.canon_cons_unit_zero (S := S1x64) offsets_zero, View.readCov_unit_zero (S := S1x64) _ offsets_zero]
  simp only [View.readAt_eq_ld, h1.read_unread, h2.read_unread, h3.read_unread, h4.read_unread, h5.read_unread, h7.read_unread, h8.read_unread, View.ld_unit_zero (S := S5000x64) offsets_zero, View.ld_unit_zero (S := S64x64) offsets_zero, View.ld_unit_zero (S := S1x64) offsets_zero]

theorem out8_A_7_eq (c : Dev nD) (i : grid8.Coords) (a1 : Memref sig .tc .vmem S5000x64 .f32) (h1 : a1.IsWhole) (a2 : Memref sig .tc .vmem S5000x64 .f32) (h2 : a2.IsWhole) (a3 : Memref sig .tc .vmem S64x64 .f32) (h3 : a3.IsWhole) (a4 : Memref sig .tc .vmem S64x64 .f32) (h4 : a4.IsWhole) (a5 : Memref sig .tc .vmem S1x64 .f32) (h5 : a5.IsWhole) (a6 : Memref sig .tc .vmem S5000x64 .f32) (h6 : a6.IsWhole) (a7 : Memref sig .tc .vmem S1x64 .f32) (h7 : a7.IsWhole) (a8 : Memref sig .tc .vmem S1x64 .f32) (h8 : a8.IsWhole) (hc : cond8_0 i)
    (x0 : Vec F S5000x64 .f32) (x1 : Vec F S5000x64 .f32) (x2 : Vec F S64x64 .f32) (x3 : Vec F S64x64 .f32) (x4 : Vec F S1x64 .f32) :
    out8_A_7 c i a1 h1 a2 h2 a3 h3 a4 h4 a5 h5 a6 h6 a7 h7 a8 h8 hc x0 x1 x2 x3 x4 = k8_pay1 (k8_pay6 (k8_pay3 (F := F))) (k8_pay7 x0 x2 x4 x1 x3) := by
  unfold out8_A_7
  rw [View.read_writes_eq_canon _ _ _ (cover8_A_7 c i a1 h1 a2 h2 a3 h3 a4 h4 a5 h5 a6 h6 a7 h7 a8 h8 hc x0 x1 x2 x3 x4)]
  unfold kernelRun8_A
  dsimp only
  sl_unfold_words
  rw [View.canon_cons_unit_zero (S := S1x64) offsets_zero, View.readCov_unit_zero (S := S1x64) _ offsets_zero]
  simp only [View.readAt_eq_ld, h1.read_unread, h2.read_unread, h3.read_unread, h4.read_unread, h5.read_unread, h7.read_unread, h8.read_unread, View.ld_unit_zero (S := S5000x64) offsets_zero, View.ld_unit_zero (S := S64x64) offsets_zero, View.ld_unit_zero (S := S1x64) offsets_zero]

theorem out8_B_5_eq (c : Dev nD) (i : grid8.Coords) (a1 : Memref sig .tc .vmem S5000x64 .f32) (h1 : a1.IsWhole) (a2 : Memref sig .tc .vmem S5000x64 .f32) (h2 : a2.IsWhole) (a3 : Memref sig .tc .vmem S64x64 .f32) (h3 : a3.IsWhole) (a4 : Memref sig .tc .vmem S64x64 .f32) (h4 : a4.IsWhole) (a5 : Memref sig .tc .vmem S1x64 .f32) (h5 : a5.IsWhole) (a6 : Memref sig .tc .vmem S5000x64 .f32) (h6 : a6.IsWhole) (a7 : Memref sig .tc .vmem S1x64 .f32) (h7 : a7.IsWhole) (a8 : Memref sig .tc .vmem S1x64 .f32) (h8 : a8.IsWhole) (hc : ¬cond8_0 i)
    (x0 : Vec F S5000x64 .f32) (x1 : Vec F S5000x64 .f32) (x2 : Vec F S64x64 .f32) (x3 : Vec F S64x64 .f32) (x4 : Vec F S1x64 .f32) (xo6 : Vec F S1x64 .f32) (xo7 : Vec F S1x64 .f32) :
    out8_B_5 c i a1 h1 a2 h2 a3 h3 a4 h4 a5 h5 a6 h6 a7 h7 a8 h8 hc x0 x1 x2 x3 x4 xo6 xo7 = k8_pay4 x0 x2 x4 x1 x3 := by
  unfold out8_B_5
  rw [View.read_writes_eq_canon _ _ _ (cover8_B_5 c i a1 h1 a2 h2 a3 h3 a4 h4 a5 h5 a6 h6 a7 h7 a8 h8 hc x0 x1 x2 x3 x4 xo6 xo7)]
  unfold kernelRun8_B
  dsimp only
  sl_unfold_words
  rw [View.canon_unit_zero offsets_zero]
  simp only [View.readAt_eq_ld, h1.read_unread, h2.read_unread, h3.read_unread, h4.read_unread, h5.read_unread, h7.read_unread, h8.read_unread, View.ld_unit_zero (S := S5000x64) offsets_zero, View.ld_unit_zero (S := S64x64) offsets_zero, View.ld_unit_zero (S := S1x64) offsets_zero]

theorem out8_B_6_eq (c : Dev nD) (i : grid8.Coords) (a1 : Memref sig .tc .vmem S5000x64 .f32) (h1 : a1.IsWhole) (a2 : Memref sig .tc .vmem S5000x64 .f32) (h2 : a2.IsWhole) (a3 : Memref sig .tc .vmem S64x64 .f32) (h3 : a3.IsWhole) (a4 : Memref sig .tc .vmem S64x64 .f32) (h4 : a4.IsWhole) (a5 : Memref sig .tc .vmem S1x64 .f32) (h5 : a5.IsWhole) (a6 : Memref sig .tc .vmem S5000x64 .f32) (h6 : a6.IsWhole) (a7 : Memref sig .tc .vmem S1x64 .f32) (h7 : a7.IsWhole) (a8 : Memref sig .tc .vmem S1x64 .f32) (h8 : a8.IsWhole) (hc : ¬cond8_0 i)
    (x0 : Vec F S5000x64 .f32) (x1 : Vec F S5000x64 .f32) (x2 : Vec F S64x64 .f32) (x3 : Vec F S64x64 .f32) (x4 : Vec F S1x64 .f32) (xo6 : Vec F S1x64 .f32) (xo7 : Vec F S1x64 .f32) :
    out8_B_6 c i a1 h1 a2 h2 a3 h3 a4 h4 a5 h5 a6 h6 a7 h7 a8 h8 hc x0 x1 x2 x3 x4 xo6 xo7 = k8_pay5 x0 x2 x4 x1 x3 xo6 := by
  unfold out8_B_6
  rw [View.read_writes_eq_canon _ _ _ (cover8_B_6 c i a1 h1 a2 h2 a3 h3 a4 h4 a5 h5 a6 h6 a7 h7 a8 h8 hc x0 x1 x2 x3 x4 xo6 xo7)]
  unfold kernelRun8_B
  dsimp only
  sl_unfold_words
  rw [View.canon_unit_zero offsets_zero]
  simp only [View.readAt_eq_ld, h1.read_unread, h2.read_unread, h3.read_unread, h4.read_unread, h5.read_unread, h7.read_unread, h8.read_unread, View.ld_unit_zero (S := S5000x64) offsets_zero, View.ld_unit_zero (S := S64x64) offsets_zero, View.ld_unit_zero (S := S1x64) offsets_zero]

theorem out8_B_7_eq (c : Dev nD) (i : grid8.Coords) (a1 : Memref sig .tc .vmem S5000x64 .f32) (h1 : a1.IsWhole) (a2 : Memref sig .tc .vmem S5000x64 .f32) (h2 : a2.IsWhole) (a3 : Memref sig .tc .vmem S64x64 .f32) (h3 : a3.IsWhole) (a4 : Memref sig .tc .vmem S64x64 .f32) (h4 : a4.IsWhole) (a5 : Memref sig .tc .vmem S1x64 .f32) (h5 : a5.IsWhole) (a6 : Memref sig .tc .vmem S5000x64 .f32) (h6 : a6.IsWhole) (a7 : Memref sig .tc .vmem S1x64 .f32) (h7 : a7.IsWhole) (a8 : Memref sig .tc .vmem S1x64 .f32) (h8 : a8.IsWhole) (hc : ¬cond8_0 i)
    (x0 : Vec F S5000x64 .f32) (x1 : Vec F S5000x64 .f32) (x2 : Vec F S64x64 .f32) (x3 : Vec F S64x64 .f32) (x4 : Vec F S1x64 .f32) (xo6 : Vec F S1x64 .f32) (xo7 : Vec F S1x64 .f32) :
    out8_B_7 c i a1 h1 a2 h2 a3 h3 a4 h4 a5 h5 a6 h6 a7 h7 a8 h8 hc x0 x1 x2 x3 x4 xo6 xo7 = k8_pay1 (k8_pay6 xo7) (k8_pay7 x0 x2 x4 x1 x3) := by
  unfold out8_B_7
  rw [View.read_writes_eq_canon _ _ _ (cover8_B_7 c i a1 h1 a2 h2 a3 h3 a4 h4 a5 h5 a6 h6 a7 h7 a8 h8 hc x0 x1 x2 x3 x4 xo6 xo7)]
  unfold kernelRun8_B
  dsimp only
  sl_unfold_words
  rw [View.canon_unit_zero offsets_zero]
  simp only [View.readAt_eq_ld, h1.read_unread, h2.read_unread, h3.read_unread, h4.read_unread, h5.read_unread, h7.read_unread, h8.read_unread, View.ld_unit_zero (S := S5000x64) offsets_zero, View.ld_unit_zero (S := S64x64) offsets_zero, View.ld_unit_zero (S := S1x64) offsets_zero]

end Cert.KernelIdeal.RegionValue

end
-- ==== Proof.RegionR8Pay.lean ====
/-
  The dense step's block arithmetic read entry by entry over the extended reals.

  For one block of 5000 rows: the block of pre-activations at (p, q) is the aggregated row p against row q of the
  neighbour weights, plus the bias entry q, plus the node's own row p against row q of the root weights (each
  product is a sum over the 64 input features; the weights are stored with the output feature as their row, so the
  transposed weight read at (k, q) is the weight at (q, k)).  The two running rows are the previous row plus the
  block's column sums of the pre-activations, and of their squares.  The row that starts a run is zero.
-/
import proofs.«147565_j9259949490665_1_alg».proof.Proof.Gen.KernelIdeal.Skeleton
import proofs.«147565_j9259949490665_1_alg».proof.Proof.Spec
import proofs.«147565_j9259949490665_1_alg».proof.Proof.LibPlainDot
import proofs.«147565_j9259949490665_1_alg».proof.Proof.LibColumnSum
import Idealize.ShloMosaic.Lib.Pipeline.Value
import Idealize.ShloMosaic.Lib.ValueLayout

noncomputable section

open Idealize.ShloMosaic Idealize.ShloMosaic.ValueIdx
open scoped BigOperators

namespace Cert.KernelIdeal.RegionValue

open Cert.KernelIdeal Cert.KernelIdeal.Gen

/-- The block of pre-activations at (p, q): the dense step of the block's operands there. -/
theorem pay8_lin (a x : Vec Ideal S5000x64 .f32) (wl wr : Vec Ideal S64x64 .f32) (b : Vec Ideal S1x64 .f32)
    (p : Fin 5000) (q : Fin 64) :
    k8_pay4 (F := Ideal) a wl b x wr (ix2 p q) = Cert.Layer.lin a x wl wr b (ix2 p q) := by
  have hd : dot_S5000x64_S64x64_S5000x64_1_0_0_1_n_n = DotDims.plain 5000 64 64 := rfl
  have e1 : ∀ (l : FVec Ideal S5000x64 .f32) (w : FVec Ideal S64x64 .f32),
      matmul dot_S5000x64_S64x64_S5000x64_1_0_0_1_n_n none (shapeCast S5000x64 l shapeCasts_S5000x64_S5000x64)
          (transpose S64x64 [1, 0] (shapeCast S64x64 w shapeCasts_S64x64_S64x64) transposes_S64x64_p1_0_S64x64)
          (constant S5000x64 .f32 0x00000000#32) (ix2 p q)
        = ∑ k : Fin 64, l (ix2 p k) * w (ix2 q k) := by
    intro l w
    rw [shapeCast_self, shapeCast_self]
    refine (Cert.LibPlainDot.matmul_zero_apply _ hd none l _ p q).trans ?_
    exact Finset.sum_congr rfl fun k _ => congrArg (l (ix2 p k) * ·) (transpose_ix2_apply w _ k q)
  have e2 : broadcastTo S5000x64 (shapeCast S1x64 b shapeCasts_S1x64_S1x64) broadcasts_S1x64_S5000x64 (ix2 p q)
      = b (ix2 0 q) := by
    rw [shapeCast_self]
    exact broadcastTo_1b_ab_apply b _ p q
  rw [Cert.Layer.lin_apply]
  unfold k8_pay4
  exact congrArg₂ (· + ·) (congrArg₂ (· + ·) (e1 a wl) e2) (e1 x wr)

/-- The row that starts a run is zero. -/
theorem pay8_zero6 (j : S1x64.Idx) : k8_pay2 (F := Ideal) j = 0 := Ideal.ofBits_zero_f32

theorem pay8_zero7 (j : S1x64.Idx) : k8_pay3 (F := Ideal) j = 0 := Ideal.ofBits_zero_f32

/-- The running row of sums after a block: the row before plus the block's column sums. -/
theorem pay8_sum (a x : Vec Ideal S5000x64 .f32) (wl wr : Vec Ideal S64x64 .f32) (b acc : Vec Ideal S1x64 .f32) (q : Fin 64) :
    k8_pay5 (F := Ideal) a wl b x wr acc (ix2 0 q)
      = acc (ix2 0 q) + ∑ r : Fin 5000, k8_pay4 (F := Ideal) a wl b x wr (ix2 r q) := by
  unfold k8_pay5
  exact congrArg₂ (· + ·) (congrFun (shapeCast_self acc _) _)
    (Cert.LibColumnSum.rowReduce_apply (k8_pay4 (F := Ideal) a wl b x wr) reduces_S5000x64_S64 (.inl rfl) rfl
      shapeCasts_S64_S1x64 0 q)

/-- The running row of sums of squares after a block: the row before plus the block's column sums of squares. -/
theorem pay8_sumsq (a x : Vec Ideal S5000x64 .f32) (wl wr : Vec Ideal S64x64 .f32) (b acc : Vec Ideal S1x64 .f32) (q : Fin 64) :
    k8_pay1 (k8_pay6 (F := Ideal) acc) (k8_pay7 (F := Ideal) a wl b x wr) (ix2 0 q)
      = acc (ix2 0 q) + ∑ r : Fin 5000, k8_pay4 (F := Ideal) a wl b x wr (ix2 r q) * k8_pay4 (F := Ideal) a wl b x wr (ix2 r q) := by
  unfold k8_pay1 k8_pay6 k8_pay7
  exact congrArg₂ (· + ·) (congrFun (shapeCast_self acc _) _)
    (Cert.LibColumnSum.rowReduce_apply (mulf (k8_pay4 (F := Ideal) a wl b x wr) (k8_pay4 (F := Ideal) a wl b x wr))
      reduces_S5000x64_S64 (.inl rfl) rfl shapeCasts_S64_S1x64 0 q)

end Cert.KernelIdeal.RegionValue

end
-- ==== Proof.RegionR8.lean ====
/-
  The value of one dense-step stage: what its three result arrays hold after all ten steps.

  The stage walks ten blocks of 5000 rows.  Step t reads block t of the aggregated and of the node features (rows
  5000·t … 5000·t + 4999 of the arrays) and the whole of both weight arrays and of the bias row; it writes block t of
  the pre-activations, which is therefore block t of the dense step of the WHOLE arrays (an entry of the dense step
  depends on one row of each node-feature operand only), and adds the block's column sums, and column sums of
  squares, to two running rows that start at zero.  By induction on the step the running rows after step n hold the
  sums over the rows of blocks 0 … n, so after step 9, when they are written out, they hold the full column sums:
  a sum over 50000 = 10 · 5000 rows is the sum of its ten block sums.  Sums of extended reals are regrouped freely
  (addition is associative and commutative, and 0 + x = x); no law that needs finite values is used.
-/
import proofs.«147565_j9259949490665_1_alg».proof.Proof.Gen.KernelIdeal.Frame
import proofs.«147565_j9259949490665_1_alg».proof.Proof.Spec
import proofs.«147565_j9259949490665_1_alg».proof.Proof.LibRowBlocks
import proofs.«147565_j9259949490665_1_alg».proof.Proof.RegionR8Pieces
import proofs.«147565_j9259949490665_1_alg».proof.Proof.RegionR8Pay
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)
open scoped BigOperators

namespace Cert.KernelIdeal.RegionValue

open Cert.KernelIdeal Cert.KernelIdeal.Gen
open Cert.Layer (Mat lin colSum colSumSq)
open Cert.LibRowBlocks (blockSum blockSum_of_lt sum_range_blockSum lin_congr)

section Region8

variable (V : (c : Dev nD) → (b : Ref sig .tc) → Buf (Elt Ideal) ((c : Thread nD τ).loc b)) (c : Dev nD)

/-- The five operand arrays as the stage finds them. -/
abbrev agg8 : Mat 50000 64 := V c (Pipeline.arrRef spec8 0)
abbrev self8 : Mat 50000 64 := V c (Pipeline.arrRef spec8 1)
abbrev wl8 : Mat 64 64 := V c (Pipeline.arrRef spec8 2)
abbrev wr8 : Mat 64 64 := V c (Pipeline.arrRef spec8 3)
abbrev bias8 : Mat 1 64 := V c (Pipeline.arrRef spec8 4)

/-- The pre-activations of the whole arrays. -/
abbrev hpre8 : Mat 50000 64 := lin (agg8 V c) (self8 V c) (wl8 V c) (wr8 V c) (bias8 V c)

/-- Where each step's blocks sit: the row-blocked operands and the pre-activations at block t, column block 0. -/
theorem idx8 : ∀ t : Fin cfg8.N,
    win8_0.index t (0 : Fin 2) = t.val ∧ win8_0.index t (1 : Fin 2) = 0
    ∧ win8_1.index t (0 : Fin 2) = t.val ∧ win8_1.index t (1 : Fin 2) = 0
    ∧ win8_5.index t (0 : Fin 2) = t.val ∧ win8_5.index t (1 : Fin 2) = 0 :=
  (by decide +kernel : ∀ t : Fin grid8.N, _)

/-- The weights, the bias row and the two running rows are one block each, at block (0, 0) at every step. -/
theorem whole8 : ∀ t : Fin cfg8.N,
    win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_6.index t (0 : Fin 2) = 0 ∧ win8_6.index t (1 : Fin 2) = 0
    ∧ win8_7.index t (0 : Fin 2) = 0 ∧ win8_7.index t (1 : Fin 2) = 0 :=
  (by decide +kernel : ∀ t : Fin grid8.N, _)

/-- Row r of step t's block of operand 0 is row 5000·t + r of the array. -/
theorem blk8_0 (t : Fin cfg8.N) (r : Fin 5000) (k : Fin 64) (hr : t.val * 5000 + r.val < 50000) :
    iblk8 V c 0 t (ix2 r k) = agg8 V c (ix2 ⟨t.val * 5000 + r.val, hr⟩ k) := by
  have e0 := (idx8 t).1
  have e1 := (idx8 t).2.1
  show V c (Pipeline.arrRef spec8 0) (((cfg8.win 0).blk t).view.emb (ix2 r k))
    = V c (Pipeline.arrRef spec8 0) (ix2 ⟨t.val * 5000 + r.val, hr⟩ k)
  refine congrArg (V c (Pipeline.arrRef spec8 0)) (funext fun a => Fin.ext ?_)
  match a with
  | ⟨0, _⟩ => show win8_0.index t (0 : Fin 2) * 5000 + 1 * r.val = t.val * 5000 + r.val; rw [e0]; omega
  | ⟨1, _⟩ => show win8_0.index t (1 : Fin 2) * 64 + 1 * k.val = k.val; rw [e1]; omega

/-- Row r of step t's block of operand 1 is row 5000·t + r of the array. -/
theorem blk8_1 (t : Fin cfg8.N) (r : Fin 5000) (k : Fin 64) (hr : t.val * 5000 + r.val < 50000) :
    iblk8 V c 1 t (ix2 r k) = self8 V c (ix2 ⟨t.val * 5000 + r.val, hr⟩ k) := by
  have e0 := (idx8 t).2.2.1
  have e1 := (idx8 t).2.2.2.1
  show V c (Pipeline.arrRef spec8 1) (((cfg8.win 1).blk t).view.emb (ix2 r k))
    = V c (Pipeline.arrRef spec8 1) (ix2 ⟨t.val * 5000 + r.val, hr⟩ k)
  refine congrArg (V c (Pipeline.arrRef spec8 1)) (funext fun a => Fin.ext ?_)
  match a with
  | ⟨0, _⟩ => show win8_1.index t (0 : Fin 2) * 5000 + 1 * r.val = t.val * 5000 + r.val; rw [e0]; omega
  | ⟨1, _⟩ => show win8_1.index t (1 : Fin 2) * 64 + 1 * k.val = k.val; rw [e1]; omega

/-- Step t's block of operand 2 is the whole array. -/
theorem blk8_2 (t : Fin cfg8.N) (p : Fin 64) (k : Fin 64) :
    iblk8 V c 2 t (ix2 p k) = wl8 V c (ix2 p k) := by
  have e0 := (whole8 t).1
  have e1 := (whole8 t).2.1
  show V c (Pipeline.arrRef spec8 2) (((cfg8.win 2).blk t).view.emb (ix2 p k))
    = V c (Pipeline.arrRef spec8 2) (ix2 p k)
  refine congrArg (V c (Pipeline.arrRef spec8 2)) (funext fun a => Fin.ext ?_)
  match a with
  | ⟨0, _⟩ => show win8_2.index t (0 : Fin 2) * 64 + 1 * p.val = p.val; rw [e0]; omega
  | ⟨1, _⟩ => show win8_2.index t (1 : Fin 2) * 64 + 1 * k.val = k.val; rw [e1]; omega

/-- Step t's block of operand 3 is the whole array. -/
theorem blk8_3 (t : Fin cfg8.N) (p : Fin 64) (k : Fin 64) :
    iblk8 V c 3 t (ix2 p k) = wr8 V c (ix2 p k) := by
  have e0 := (whole8 t).2.2.1
  have e1 := (whole8 t).2.2.2.1
  show V c (Pipeline.arrRef spec8 3) (((cfg8.win 3).blk t).view.emb (ix2 p k))
    = V c (Pipeline.arrRef spec8 3) (ix2 p k)
  refine congrArg (V c (Pipeline.arrRef spec8 3)) (funext fun a => Fin.ext ?_)
  match a with
  | ⟨0, _⟩ => show win8_3.index t (0 : Fin 2) * 64 + 1 * p.val = p.val; rw [e0]; omega
  | ⟨1, _⟩ => show win8_3.index t (1 : Fin 2) * 64 + 1 * k.val = k.val; rw [e1]; omega

/-- Step t's block of operand 4 is the whole array. -/
theorem blk8_4 (t : Fin cfg8.N) (p : Fin 1) (k : Fin 64) :
    iblk8 V c 4 t (ix2 p k) = bias8 V c (ix2 p k) := by
  have e0 := (whole8 t).2.2.2.2.1
  have e1 := (whole8 t).2.2.2.2.2.1
  show V c (Pipeline.arrRef spec8 4) (((cfg8.win 4).blk t).view.emb (ix2 p k))
    = V c (Pipeline.arrRef spec8 4) (ix2 p k)
  refine congrArg (V c (Pipeline.arrRef spec8 4)) (funext fun a => Fin.ext ?_)
  match a with
  | ⟨0, _⟩ => show win8_4.index t (0 : Fin 2) * 1 + 1 * p.val = p.val; rw [e0]; omega
  | ⟨1, _⟩ => show win8_4.index t (1 : Fin 2) * 64 + 1 * k.val = k.val; rw [e1]; omega

/-- The block of pre-activations step t computes is block t of the whole arrays' pre-activations. -/
theorem hblk8 (t : Fin cfg8.N) (j : S5000x64.Idx) (hr : t.val * 5000 + (j 0).val < 50000) :
    (k8_pay4 (F := Ideal) (iblk8 V c 0 t) (iblk8 V c 2 t) (iblk8 V c 4 t) (iblk8 V c 1 t) (iblk8 V c 3 t)) j = hpre8 V c (ix2 ⟨t.val * 5000 + (j 0).val, hr⟩ (j 1)) := by
  obtain ⟨r, q, rfl⟩ : ∃ (r : Fin 5000) (q : Fin 64), j = ix2 r q := ⟨j 0, j 1, eq_ix2 j⟩
  exact (pay8_lin (iblk8 V c 0 t) (iblk8 V c 1 t) (iblk8 V c 2 t) (iblk8 V c 3 t) (iblk8 V c 4 t) r q).trans
    (lin_congr (R := 5000) (R' := 50000) (K := 64) (N := 64) (iblk8 V c 0 t) (iblk8 V c 1 t) (agg8 V c) (self8 V c)
      (iblk8 V c 2 t) (iblk8 V c 3 t) (wl8 V c) (wr8 V c) (iblk8 V c 4 t) (bias8 V c) r ⟨t.val * 5000 + r.val, hr⟩ q
      (fun k => blk8_0 V c t r k hr) (fun k => blk8_1 V c t r k hr) (fun k => blk8_2 V c t q k) (fun k => blk8_3 V c t q k)
      (blk8_4 V c t 0 q))

/-- What the three result blocks hold after a step that starts a run, -/
theorem outs8_A (t : Fin cfg8.N) (h0 : t.val % 10 = 0) :
    outsAt8 V c t.val t.isLt
      = (k8_pay4 (F := Ideal) (iblk8 V c 0 t) (iblk8 V c 2 t) (iblk8 V c 4 t) (iblk8 V c 1 t) (iblk8 V c 3 t), k8_pay5 (F := Ideal) (iblk8 V c 0 t) (iblk8 V c 2 t) (iblk8 V c 4 t) (iblk8 V c 1 t) (iblk8 V c 3 t) (k8_pay2 (F := Ideal)), k8_pay1 (k8_pay6 (F := Ideal) (k8_pay3 (F := Ideal))) (k8_pay7 (F := Ideal) (iblk8 V c 0 t) (iblk8 V c 2 t) (iblk8 V c 4 t) (iblk8 V c 1 t) (iblk8 V c 3 t))) :=
  (outsAt8_A V c t h0).trans (congrArg₂ Prod.mk (out8_A_5_eq (F := Ideal) c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) ((hcond8_0 t).mpr h0) (iblk8 V c 0 t) (iblk8 V c 1 t) (iblk8 V c 2 t) (iblk8 V c 3 t) (iblk8 V c 4 t))
    (congrArg₂ Prod.mk (out8_A_6_eq (F := Ideal) c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) ((hcond8_0 t).mpr h0) (iblk8 V c 0 t) (iblk8 V c 1 t) (iblk8 V c 2 t) (iblk8 V c 3 t) (iblk8 V c 4 t))
      (out8_A_7_eq (F := Ideal) c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) ((hcond8_0 t).mpr h0) (iblk8 V c 0 t) (iblk8 V c 1 t) (iblk8 V c 2 t) (iblk8 V c 3 t) (iblk8 V c 4 t))))

/-- and after any later step, over what the step before left in the running rows. -/
theorem outs8_B (t : Fin cfg8.N) (h0 : ¬t.val % 10 = 0) :
    outsAt8 V c t.val t.isLt
      = (k8_pay4 (F := Ideal) (iblk8 V c 0 t) (iblk8 V c 2 t) (iblk8 V c 4 t) (iblk8 V c 1 t) (iblk8 V c 3 t), k8_pay5 (F := Ideal) (iblk8 V c 0 t) (iblk8 V c 2 t) (iblk8 V c 4 t) (iblk8 V c 1 t) (iblk8 V c 3 t) (outsAt8 V c (t.val - 1) (Nat.lt_of_le_of_lt (Nat.sub_le _ _) t.isLt)).2.1, k8_pay1 (k8_pay6 (F := Ideal) (outsAt8 V c (t.val - 1) (Nat.lt_of_le_of_lt (Nat.sub_le _ _) t.isLt)).2.2) (k8_pay7 (F := Ideal) (iblk8 V c 0 t) (iblk8 V c 2 t) (iblk8 V c 4 t) (iblk8 V c 1 t) (iblk8 V c 3 t))) :=
  (outsAt8_B V c t h0).trans (congrArg₂ Prod.mk (out8_B_5_eq (F := Ideal) c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (fun h => h0 ((hcond8_0 t).mp h)) (iblk8 V c 0 t) (iblk8 V c 1 t) (iblk8 V c 2 t) (iblk8 V c 3 t) (iblk8 V c 4 t) (outsAt8 V c (t.val - 1) (Nat.lt_of_le_of_lt (Nat.sub_le _ _) t.isLt)).2.1 (outsAt8 V c (t.val - 1) (Nat.lt_of_le_of_lt (Nat.sub_le _ _) t.isLt)).2.2)
    (congrArg₂ Prod.mk (out8_B_6_eq (F := Ideal) c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (fun h => h0 ((hcond8_0 t).mp h)) (iblk8 V c 0 t) (iblk8 V c 1 t) (iblk8 V c 2 t) (iblk8 V c 3 t) (iblk8 V c 4 t) (outsAt8 V c (t.val - 1) (Nat.lt_of_le_of_lt (Nat.sub_le _ _) t.isLt)).2.1 (outsAt8 V c (t.val - 1) (Nat.lt_of_le_of_lt (Nat.sub_le _ _) t.isLt)).2.2)
      (out8_B_7_eq (F := Ideal) c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (fun h => h0 ((hcond8_0 t).mp h)) (iblk8 V c 0 t) (iblk8 V c 1 t) (iblk8 V c 2 t) (iblk8 V c 3 t) (iblk8 V c 4 t) (outsAt8 V c (t.val - 1) (Nat.lt_of_le_of_lt (Nat.sub_le _ _) t.isLt)).2.1 (outsAt8 V c (t.val - 1) (Nat.lt_of_le_of_lt (Nat.sub_le _ _) t.isLt)).2.2)))

/-- The column sums of step t's block of pre-activations are block sum t of the whole arrays' column, -/
theorem colblk8 (t : Fin cfg8.N) (q : Fin 64) :
    ∑ r : Fin 5000, (k8_pay4 (F := Ideal) (iblk8 V c 0 t) (iblk8 V c 2 t) (iblk8 V c 4 t) (iblk8 V c 1 t) (iblk8 V c 3 t)) (ix2 r q) = blockSum 10 5000 (fun p : Fin 50000 => hpre8 V c (ix2 p q)) t.val := by
  have ht : t.val < 10 := lt_of_lt_of_eq t.isLt (show cfg8.N = 10 from N_8)
  rw [blockSum_of_lt 10 5000 _ ht]
  exact Finset.sum_congr rfl fun r _ =>
    hblk8 V c t (ix2 r q) (show t.val * 5000 + r.val < 50000 by have := r.isLt; omega)

/-- and likewise the column sums of its squares. -/
theorem colblksq8 (t : Fin cfg8.N) (q : Fin 64) :
    ∑ r : Fin 5000, (k8_pay4 (F := Ideal) (iblk8 V c 0 t) (iblk8 V c 2 t) (iblk8 V c 4 t) (iblk8 V c 1 t) (iblk8 V c 3 t)) (ix2 r q) * (k8_pay4 (F := Ideal) (iblk8 V c 0 t) (iblk8 V c 2 t) (iblk8 V c 4 t) (iblk8 V c 1 t) (iblk8 V c 3 t)) (ix2 r q)
      = blockSum 10 5000 (fun p : Fin 50000 => hpre8 V c (ix2 p q) * hpre8 V c (ix2 p q)) t.val := by
  have ht : t.val < 10 := lt_of_lt_of_eq t.isLt (show cfg8.N = 10 from N_8)
  rw [blockSum_of_lt 10 5000 _ ht]
  exact Finset.sum_congr rfl fun r _ =>
    congrArg₂ (· * ·) (hblk8 V c t (ix2 r q) (show t.val * 5000 + r.val < 50000 by have := r.isLt; omega))
      (hblk8 V c t (ix2 r q) (show t.val * 5000 + r.val < 50000 by have := r.isLt; omega))

/-- THE RUNNING ROWS: after step n they hold the sums, and the sums of squares, over the rows of blocks 0 … n. -/
theorem rows8 : ∀ (n : ℕ) (h : n < cfg8.N) (q : Fin 64),
    (outsAt8 V c n h).2.1 (ix2 0 q) = ∑ s ∈ Finset.range (n + 1), blockSum 10 5000 (fun p : Fin 50000 => hpre8 V c (ix2 p q)) s
    ∧ (outsAt8 V c n h).2.2 (ix2 0 q)
        = ∑ s ∈ Finset.range (n + 1), blockSum 10 5000 (fun p : Fin 50000 => hpre8 V c (ix2 p q) * hpre8 V c (ix2 p q)) s
  | 0, h, q => by
    have e : outsAt8 V c 0 h = _ := outs8_A V c ⟨0, h⟩ rfl
    rw [e]
    exact ⟨((pay8_sum (iblk8 V c 0 ⟨0, h⟩) (iblk8 V c 1 ⟨0, h⟩) (iblk8 V c 2 ⟨0, h⟩) (iblk8 V c 3 ⟨0, h⟩) (iblk8 V c 4 ⟨0, h⟩) (k8_pay2 (F := Ideal)) q).trans
        ((congrArg₂ (· + ·) (pay8_zero6 (ix2 0 q)) (colblk8 V c ⟨0, h⟩ q)).trans (zero_add _))).trans
          (Finset.sum_range_one _).symm,
      ((pay8_sumsq (iblk8 V c 0 ⟨0, h⟩) (iblk8 V c 1 ⟨0, h⟩) (iblk8 V c 2 ⟨0, h⟩) (iblk8 V c 3 ⟨0, h⟩) (iblk8 V c 4 ⟨0, h⟩) (k8_pay3 (F := Ideal)) q).trans
        ((congrArg₂ (· + ·) (pay8_zero7 (ix2 0 q)) (colblksq8 V c ⟨0, h⟩ q)).trans (zero_add _))).trans
          (Finset.sum_range_one _).symm⟩
  | n + 1, h, q => by
    have hN : cfg8.N = 10 := N_8
    have hB : ¬(⟨n + 1, h⟩ : Fin cfg8.N).val % 10 = 0 := by dsimp only; omega
    have e : outsAt8 V c (n + 1) h = _ := outs8_B V c ⟨n + 1, h⟩ hB
    obtain ⟨ih6, ih7⟩ := rows8 n (Nat.lt_of_succ_lt h) q
    rw [e]
    exact ⟨((pay8_sum (iblk8 V c 0 ⟨n + 1, h⟩) (iblk8 V c 1 ⟨n + 1, h⟩) (iblk8 V c 2 ⟨n + 1, h⟩) (iblk8 V c 3 ⟨n + 1, h⟩) (iblk8 V c 4 ⟨n + 1, h⟩) (outsAt8 V c n (Nat.lt_of_succ_lt h)).2.1 q).trans
        (congrArg₂ (· + ·) ih6 (colblk8 V c ⟨n + 1, h⟩ q))).trans (Finset.sum_range_succ _ (n + 1)).symm,
      ((pay8_sumsq (iblk8 V c 0 ⟨n + 1, h⟩) (iblk8 V c 1 ⟨n + 1, h⟩) (iblk8 V c 2 ⟨n + 1, h⟩) (iblk8 V c 3 ⟨n + 1, h⟩) (iblk8 V c 4 ⟨n + 1, h⟩) (outsAt8 V c n (Nat.lt_of_succ_lt h)).2.2 q).trans
        (congrArg₂ (· + ·) ih7 (colblksq8 V c ⟨n + 1, h⟩ q))).trans (Finset.sum_range_succ _ (n + 1)).symm⟩

/-- The block of pre-activations after every step, whichever case the step is. -/
theorem first8 (t : Fin cfg8.N) : (outsAt8 V c t.val t.isLt).1 = k8_pay4 (F := Ideal) (iblk8 V c 0 t) (iblk8 V c 2 t) (iblk8 V c 4 t) (iblk8 V c 1 t) (iblk8 V c 3 t) := by
  by_cases h0 : t.val % 10 = 0
  · exact congrArg Prod.fst (outs8_A V c t h0)
  · exact congrArg Prod.fst (outs8_B V c t h0)

/-! ### The pre-activations array: every step writes its block back -/

/-- An index of the array is in step t's block iff each coordinate is in the block's range. -/
theorem mem_blk8_5 (t : Fin cfg8.N) (i : S50000x64.Idx) :
    i ∈ ((cfg8.win 5).blk t).view.set ↔ ∀ a : Fin 2, win8_5.index t a * S5000x64.size a ≤ (i a).val ∧ (i a).val < win8_5.index t a * S5000x64.size a + S5000x64.size a := by
  show i ∈ ((View.whole main_v143_0).slice (win8_5.rect t)).set ↔ _
  rw [View.set_slice_whole, Rect.mem_set_unit]
  exact Iff.rfl

/-- What step t writes back is block t of the whole arrays' pre-activations. -/
theorem flushed8_5 (t : Fin cfg8.N) :
    (dat8 V c).flushed 5 t = ((cfg8.win 5).blk t).view.read (Elt Ideal) (hpre8 V c) := by
  show (cfg8.win 5).cut (grid8.coords t) ((dat8 V c).after 5 t) = _
  rw [after8_5, first8 V c t]
  have ht : t.val < 10 := lt_of_lt_of_eq t.isLt (show cfg8.N = 10 from N_8)
  have e0 := (idx8 t).2.2.2.2.1
  have e1 := (idx8 t).2.2.2.2.2
  funext y
  have hy0 : (y 0).val < 5000 := (y 0).isLt
  have hy1 : (y 1).val < 64 := (y 1).isLt
  have hr : t.val * 5000 + (y 0).val < 50000 := by omega
  show (k8_pay4 (F := Ideal) (iblk8 V c 0 t) (iblk8 V c 2 t) (iblk8 V c 4 t) (iblk8 V c 1 t) (iblk8 V c 3 t)) ((cfg8.win 5).xinj (grid8.coords t) y) = hpre8 V c (((cfg8.win 5).blk t).view.emb y)
  refine (hblk8 V c t ((cfg8.win 5).xinj (grid8.coords t) y) hr).trans (congrArg (hpre8 V c) (funext fun a => Fin.ext ?_))
  match a with
  | ⟨0, _⟩ => show t.val * 5000 + (y 0).val = win8_5.index t (0 : Fin 2) * 5000 + 1 * (y 0).val; rw [e0]; omega
  | ⟨1, _⟩ => show (y 1).val = win8_5.index t (1 : Fin 2) * 64 + 1 * (y 1).val; rw [e1]; omega

/-- Row r of the array is in block r / 5000. -/
theorem cover8_5 (i : S50000x64.Idx) :
    ∃ t : Fin cfg8.N, (cfg8.win 5).flush t = true ∧ i ∈ ((cfg8.win 5).blk t).view.set := by
  have hi0 : (i 0).val < 50000 := (i 0).isLt
  have hi1 : (i 1).val < 64 := (i 1).isLt
  have hN : cfg8.N = 10 := N_8
  have hq : (i 0).val / 5000 < cfg8.N := by omega
  have e0 : win8_5.index ⟨(i 0).val / 5000, hq⟩ (0 : Fin 2) = (i 0).val / 5000 := (idx8 ⟨(i 0).val / 5000, hq⟩).2.2.2.2.1
  have e1 := (idx8 ⟨(i 0).val / 5000, hq⟩).2.2.2.2.2
  refine ⟨⟨(i 0).val / 5000, hq⟩, flush8_5 _, ?_⟩
  rw [mem_blk8_5]
  intro a
  match a with
  | ⟨0, _⟩ => show win8_5.index ⟨(i 0).val / 5000, hq⟩ (0 : Fin 2) * 5000 ≤ (i 0).val ∧ (i 0).val < win8_5.index ⟨(i 0).val / 5000, hq⟩ (0 : Fin 2) * 5000 + 5000; rw [e0]; omega
  | ⟨1, _⟩ => show win8_5.index ⟨(i 0).val / 5000, hq⟩ (1 : Fin 2) * 64 ≤ (i 1).val ∧ (i 1).val < win8_5.index ⟨(i 0).val / 5000, hq⟩ (1 : Fin 2) * 64 + 64; rw [e1]; omega

/-! ### The two rows: written back once, after the last step -/

/-- The last step. -/
abbrev last8 : Fin cfg8.N := ⟨9, by rw [show cfg8.N = 10 from N_8]; decide⟩

theorem mem_blk8_6 (t : Fin cfg8.N) (i : S1x64.Idx) :
    i ∈ ((cfg8.win 6).blk t).view.set ↔ ∀ a : Fin 2, win8_6.index t a * S1x64.size a ≤ (i a).val ∧ (i a).val < win8_6.index t a * S1x64.size a + S1x64.size a := by
  show i ∈ ((View.whole main_v143_1).slice (win8_6.rect t)).set ↔ _
  rw [View.set_slice_whole, Rect.mem_set_unit]
  exact Iff.rfl

/-- After the last step this running row is the full column sums: ten block sums make the sum over all rows. -/
theorem row8_6 (hl : 9 < cfg8.N) :
    ((outsAt8 V c 9 hl).2.1 : Mat 1 64) = colSum (hpre8 V c) := by
  funext j
  obtain ⟨u, q, rfl⟩ : ∃ (u : Fin 1) (q : Fin 64), j = ix2 u q := ⟨j 0, j 1, eq_ix2 j⟩
  obtain rfl : u = 0 := Subsingleton.elim _ _
  exact ((rows8 V c 9 hl q).1.trans
    (sum_range_blockSum 10 5000 (fun p : Fin 50000 => hpre8 V c (ix2 p q)))).trans
      (Cert.Layer.colSum_apply (hpre8 V c) q).symm

/-- The one write-back of this row, after step 9, writes the full column sums (its block is the whole row). -/
theorem flushed8_6 (t : Fin cfg8.N) (hf : (cfg8.win 6).flush t = true) :
    (dat8 V c).flushed 6 t = ((cfg8.win 6).blk t).view.read (Elt Ideal) (colSum (hpre8 V c)) := by
  have hN : cfg8.N = 10 := N_8
  have h9 : t.val = 9 := by have := (flush8_6 t).mp hf; have := t.isLt; omega
  have hl : 9 < cfg8.N := by omega
  have eo : ∀ (n : ℕ) (hn : n < cfg8.N), n = 9 → outsAt8 V c n hn = outsAt8 V c 9 hl :=
    fun n hn e => by subst e; rfl
  show (cfg8.win 6).cut (grid8.coords t) ((dat8 V c).after 6 t) = _
  rw [after8_6, eo t.val t.isLt h9, row8_6 V c hl]
  have e0 := (whole8 t).2.2.2.2.2.2.1
  have e1 := (whole8 t).2.2.2.2.2.2.2.1
  have hz' : (fun a => win8_6.index t a * main_v143_1.ty.shape.size a) = fun _ => 0 := funext fun a => by
    fin_cases a
    · show win8_6.index t (0 : Fin 2) * 1 = 0; rw [e0]
    · show win8_6.index t (1 : Fin 2) * 64 = 0; rw [e1]
  generalize colSum (hpre8 V c) = G
  exact (Memref.read_access_unit_zero (Elt Ideal) main_v143_1 hz' (fun a => by rw [congrFun hz' a]; simp) G).symm

/-- The last step's block is the whole row. -/
theorem cover8_6 (i : S1x64.Idx) :
    ∃ t : Fin cfg8.N, (cfg8.win 6).flush t = true ∧ i ∈ ((cfg8.win 6).blk t).view.set := by
  have hi0 : (i 0).val < 1 := (i 0).isLt
  have hi1 : (i 1).val < 64 := (i 1).isLt
  have e0 := (whole8 last8).2.2.2.2.2.2.1
  have e1 := (whole8 last8).2.2.2.2.2.2.2.1
  refine ⟨last8, (flush8_6 last8).mpr rfl, ?_⟩
  rw [mem_blk8_6]
  intro a
  match a with
  | ⟨0, _⟩ => show win8_6.index last8 (0 : Fin 2) * 1 ≤ (i 0).val ∧ (i 0).val < win8_6.index last8 (0 : Fin 2) * 1 + 1; rw [e0]; omega
  | ⟨1, _⟩ => show win8_6.index last8 (1 : Fin 2) * 64 ≤ (i 1).val ∧ (i 1).val < win8_6.index last8 (1 : Fin 2) * 64 + 64; rw [e1]; omega

theorem mem_blk8_7 (t : Fin cfg8.N) (i : S1x64.Idx) :
    i ∈ ((cfg8.win 7).blk t).view.set ↔ ∀ a : Fin 2, win8_7.index t a * S1x64.size a ≤ (i a).val ∧ (i a).val < win8_7.index t a * S1x64.size a + S1x64.size a := by
  show i ∈ ((View.whole main_v143_2).slice (win8_7.rect t)).set ↔ _
  rw [View.set_slice_whole, Rect.mem_set_unit]
  exact Iff.rfl

/-- After the last step this running row is the full column sums: ten block sums make the sum over all rows. -/
theorem row8_7 (hl : 9 < cfg8.N) :
    ((outsAt8 V c 9 hl).2.2 : Mat 1 64) = colSumSq (hpre8 V c) := by
  funext j
  obtain ⟨u, q, rfl⟩ : ∃ (u : Fin 1) (q : Fin 64), j = ix2 u q := ⟨j 0, j 1, eq_ix2 j⟩
  obtain rfl : u = 0 := Subsingleton.elim _ _
  exact ((rows8 V c 9 hl q).2.trans
    (sum_range_blockSum 10 5000 (fun p : Fin 50000 => hpre8 V c (ix2 p q) * hpre8 V c (ix2 p q)))).trans
      (Cert.Layer.colSumSq_apply (hpre8 V c) q).symm

/-- The one write-back of this row, after step 9, writes the full column sums (its block is the whole row). -/
theorem flushed8_7 (t : Fin cfg8.N) (hf : (cfg8.win 7).flush t = true) :
    (dat8 V c).flushed 7 t = ((cfg8.win 7).blk t).view.read (Elt Ideal) (colSumSq (hpre8 V c)) := by
  have hN : cfg8.N = 10 := N_8
  have h9 : t.val = 9 := by have := (flush8_7 t).mp hf; have := t.isLt; omega
  have hl : 9 < cfg8.N := by omega
  have eo : ∀ (n : ℕ) (hn : n < cfg8.N), n = 9 → outsAt8 V c n hn = outsAt8 V c 9 hl :=
    fun n hn e => by subst e; rfl
  show (cfg8.win 7).cut (grid8.coords t) ((dat8 V c).after 7 t) = _
  rw [after8_7, eo t.val t.isLt h9, row8_7 V c hl]
  have e0 := (whole8 t).2.2.2.2.2.2.2.2.1
  have e1 := (whole8 t).2.2.2.2.2.2.2.2.2
  have hz' : (fun a => win8_7.index t a * main_v143_2.ty.shape.size a) = fun _ => 0 := funext fun a => by
    fin_cases a
    · show win8_7.index t (0 : Fin 2) * 1 = 0; rw [e0]
    · show win8_7.index t (1 : Fin 2) * 64 = 0; rw [e1]
  generalize colSumSq (hpre8 V c) = G
  exact (Memref.read_access_unit_zero (Elt Ideal) main_v143_2 hz' (fun a => by rw [congrFun hz' a]; simp) G).symm

/-- The last step's block is the whole row. -/
theorem cover8_7 (i : S1x64.Idx) :
    ∃ t : Fin cfg8.N, (cfg8.win 7).flush t = true ∧ i ∈ ((cfg8.win 7).blk t).view.set := by
  have hi0 : (i 0).val < 1 := (i 0).isLt
  have hi1 : (i 1).val < 64 := (i 1).isLt
  have e0 := (whole8 last8).2.2.2.2.2.2.2.2.1
  have e1 := (whole8 last8).2.2.2.2.2.2.2.2.2
  refine ⟨last8, (flush8_7 last8).mpr rfl, ?_⟩
  rw [mem_blk8_7]
  intro a
  match a with
  | ⟨0, _⟩ => show win8_7.index last8 (0 : Fin 2) * 1 ≤ (i 0).val ∧ (i 0).val < win8_7.index last8 (0 : Fin 2) * 1 + 1; rw [e0]; omega
  | ⟨1, _⟩ => show win8_7.index last8 (1 : Fin 2) * 64 ≤ (i 1).val ∧ (i 1).val < win8_7.index last8 (1 : Fin 2) * 64 + 64; rw [e1]; omega

end Region8

/-- The pre-activations array after the stage: the dense step of the arrays the stage found. -/
theorem final8_5 (V : (c : Dev nD) → (b : Ref sig .tc) → Buf (Elt Ideal) ((c : Thread nD τ).loc b)) (c : Dev nD) :
    (Gen.dat8 (F := Ideal) V c).arrAt 5 cfg8.N
      = Cert.Layer.lin (V c (Pipeline.arrRef spec8 0)) (V c (Pipeline.arrRef spec8 1)) (V c (Pipeline.arrRef spec8 2)) (V c (Pipeline.arrRef spec8 3)) (V c (Pipeline.arrRef spec8 4)) :=
  (dat8 V c).arrAt_eq_of_cover 5 (hpre8 V c) (fun t _ => flushed8_5 V c t) cover8_5

/-- The row of sums after the stage: the column sums of that dense step. -/
theorem final8_6 (V : (c : Dev nD) → (b : Ref sig .tc) → Buf (Elt Ideal) ((c : Thread nD τ).loc b)) (c : Dev nD) :
    (Gen.dat8 (F := Ideal) V c).arrAt 6 cfg8.N
      = Cert.Layer.colSum (Cert.Layer.lin (V c (Pipeline.arrRef spec8 0)) (V c (Pipeline.arrRef spec8 1)) (V c (Pipeline.arrRef spec8 2)) (V c (Pipeline.arrRef spec8 3)) (V c (Pipeline.arrRef spec8 4))) :=
  (dat8 V c).arrAt_eq_of_cover 6 (colSum (hpre8 V c)) (flushed8_6 V c) cover8_6

/-- The row of sums of squares after the stage: the column sums of squares of that dense step. -/
theorem final8_7 (V : (c : Dev nD) → (b : Ref sig .tc) → Buf (Elt Ideal) ((c : Thread nD τ).loc b)) (c : Dev nD) :
    (Gen.dat8 (F := Ideal) V c).arrAt 7 cfg8.N
      = Cert.Layer.colSumSq (Cert.Layer.lin (V c (Pipeline.arrRef spec8 0)) (V c (Pipeline.arrRef spec8 1)) (V c (Pipeline.arrRef spec8 2)) (V c (Pipeline.arrRef spec8 3)) (V c (Pipeline.arrRef spec8 4))) :=
  (dat8 V c).arrAt_eq_of_cover 7 (colSumSq (hpre8 V c)) (flushed8_7 V c) cover8_7

end Cert.KernelIdeal.RegionValue

end
-- ==== Proof.RegionA9.lean ====
/-
  The normalising step of one layer, read off the pipeline's write-backs.

  The pipeline walks ten row blocks of 5000 rows.  At block t the body holds rows 5000·t … 5000·t + 4999 of the
  pre-activation array and the four per-column rows (mean, variance, gain, offset), and stores, at row p and column q of
  the block, tanh(((h − mean q)·rsqrt(var q + eps))·gain q + offset q) with h the pre-activation at row 5000·t + p.  That
  is block t of ONE function of the whole arrays, the blocks tile the 50000 rows, and every block is written back: so the
  output array ends holding that function.
-/
import proofs.«147565_j9259949490665_1_alg».proof.Proof.Gen.KernelIdeal.Frame
import proofs.«147565_j9259949490665_1_alg».proof.Proof.Spec
import Idealize.ShloMosaic.Lib.Pipeline.Value
import Idealize.ShloMosaic.Lib.ValueLayout

set_option maxRecDepth 16384

noncomputable section

namespace Cert.KernelIdeal.RegionValue

open Idealize.ShloMosaic Idealize.ShloMosaic.TcCoe Idealize.ShloMosaic.ValueIdx
open Idealize.ShloMosaic.Pipeline (Dat)

/-- The zero offsets of an access to a whole buffer. -/
theorem zero_off9 : (![0, 0] : Fin 2 → Nat) = fun _ => 0 := funext fun a => by fin_cases a <;> rfl

/-- Two functions of a 5000×64 block agree when they agree at every row and column. -/
theorem ext_block9 {α : Type} (f g : S5000x64.Idx → α) (h : ∀ (p : Fin 5000) (q : Fin 64), f (ix2 p q) = g (ix2 p q)) :
    f = g := funext fun j => by rw [eq_ix2 j]; exact h _ _

/-- The body's arithmetic at row p, column q of its block: the four rows are read at column q, the constant is the
    same binary word as the specification's. -/
theorem pay9_apply (x0 : Vec Ideal S5000x64 .f32) (x1 x2 x3 x4 : Vec Ideal S1x64 .f32) (p : Fin 5000) (q : Fin 64) :
    Gen.k9_pay1 (F := Ideal) x2 x0 x1 x3 x4 (ix2 p q)
      = Ideal.tanh ((((x0 (ix2 p q) - x1 (ix2 0 q)) * Ideal.rsqrt (x2 (ix2 0 q) + Cert.Layer.eps)) * x3 (ix2 0 q))
          + x4 (ix2 0 q)) := by
  unfold Gen.k9_pay1
  simp only [shapeCast_self]
  show Ideal.tanh ((((x0 (ix2 p q) - broadcastTo S5000x64 x1 _ (ix2 p q))
      * broadcastTo S5000x64 (rsqrt (F := Ideal) (addf (F := Ideal) x2 (broadcast S1x64 (Scalar.ofBits (F := Ideal) .f32 0x3727C5AC#32)))) _ (ix2 p q))
      * broadcastTo S5000x64 x3 _ (ix2 p q)) + broadcastTo S5000x64 x4 _ (ix2 p q)) = _
  simp only [broadcastTo_1b_ab_apply]
  rfl

/-- What the body leaves in the output block: its one store covers the block, and its loads read whole blocks, so the
    block holds the body's arithmetic of the five input blocks. -/
theorem out9_eq (x0 : Vec Ideal S5000x64 .f32) (x1 x2 x3 x4 : Vec Ideal S1x64 .f32) :
    Gen.out9_5 (F := Ideal) x0 x1 x2 x3 x4 = Gen.k9_pay1 x2 x0 x1 x3 x4 := by
  unfold Gen.out9_5
  rw [View.canon_unit_zero zero_off9]
  simp only [View.ld_unit_zero (S := S5000x64) zero_off9, View.ld_unit_zero (S := S1x64) zero_off9]

/-- When row p of the first block is row r of a whole array and the four rows are those of whole arrays, entry (p, q) of
    the output block is entry (r, q) of the normalising step of the whole arrays. -/
theorem block_val9 (x0 : Vec Ideal S5000x64 .f32) (x1 x2 x3 x4 : Vec Ideal S1x64 .f32)
    (A0 : Cert.Layer.Mat 50000 64) (A1 A2 A3 A4 : Cert.Layer.Mat 1 64) (p : Fin 5000) (q : Fin 64) (r : Fin 50000)
    (h0 : x0 (ix2 p q) = A0 (ix2 r q)) (h1 : x1 (ix2 0 q) = A1 (ix2 0 q)) (h2 : x2 (ix2 0 q) = A2 (ix2 0 q))
    (h3 : x3 (ix2 0 q) = A3 (ix2 0 q)) (h4 : x4 (ix2 0 q) = A4 (ix2 0 q)) :
    Gen.out9_5 (F := Ideal) x0 x1 x2 x3 x4 (ix2 p q) = Cert.Layer.bn A0 A1 A2 A3 A4 (ix2 r q) := by
  rw [out9_eq, pay9_apply, Cert.Layer.bn_apply, h0, h1, h2, h3, h4]

/-- The block index of every window at every point of the grid: the two row-blocked windows sit at block (t, 0), the
    four rows at block (0, 0). -/
theorem idx_facts9 : ∀ t : Fin cfg9.N,
    win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) = t.val ∧ win9_5.index t (1 : Fin 2) = 0 :=
  (by decide +kernel : ∀ t : Fin grid9.N, _)

/-- The grid has ten points. -/
theorem point_lt9 (t : Fin cfg9.N) : t.val < 10 := lt_of_lt_of_eq t.isLt Gen.N_9

/-- Row p, column q of the pre-activation block at point t sits at row 5000·t + p of the pre-activation array. -/
theorem emb9_0 (t : Fin cfg9.N) (p : Fin 5000) (q : Fin 64) (r : Fin 50000) (hr : r.val = t.val * 5000 + p.val) :
    (((cfg9.win 0).blk t).view.emb (ix2 p q : S5000x64.Idx) : S50000x64.Idx) = ix2 r q := by
  obtain ⟨e0, e1, -⟩ := idx_facts9 t
  refine funext fun a => Fin.ext ?_
  match a with
  | ⟨0, _⟩ => show win9_0.index t (0 : Fin 2) * 5000 + 1 * p.val = r.val; rw [e0, hr]; omega
  | ⟨1, _⟩ => show win9_0.index t (1 : Fin 2) * 64 + 1 * q.val = q.val; rw [e1]; omega

/-- Column q of per-column row 1's block at any point sits at column q of the row. -/
theorem emb9_1 (t : Fin cfg9.N) (q : Fin 64) :
    (((cfg9.win 1).blk t).view.emb (ix2 0 q : S1x64.Idx) : S1x64.Idx) = ix2 0 q := by
  obtain ⟨-, -, e0, e1, -⟩ := idx_facts9 t
  refine funext fun a => Fin.ext ?_
  match a with
  | ⟨0, _⟩ => show win9_1.index t (0 : Fin 2) * 1 + 1 * 0 = 0; rw [e0]
  | ⟨1, _⟩ => show win9_1.index t (1 : Fin 2) * 64 + 1 * q.val = q.val; rw [e1]; omega

/-- Column q of per-column row 2's block at any point sits at column q of the row. -/
theorem emb9_2 (t : Fin cfg9.N) (q : Fin 64) :
    (((cfg9.win 2).blk t).view.emb (ix2 0 q : S1x64.Idx) : S1x64.Idx) = ix2 0 q := by
  obtain ⟨-, -, -, -, e0, e1, -⟩ := idx_facts9 t
  refine funext fun a => Fin.ext ?_
  match a with
  | ⟨0, _⟩ => show win9_2.index t (0 : Fin 2) * 1 + 1 * 0 = 0; rw [e0]
  | ⟨1, _⟩ => show win9_2.index t (1 : Fin 2) * 64 + 1 * q.val = q.val; rw [e1]; omega

/-- Column q of per-column row 3's block at any point sits at column q of the row. -/
theorem emb9_3 (t : Fin cfg9.N) (q : Fin 64) :
    (((cfg9.win 3).blk t).view.emb (ix2 0 q : S1x64.Idx) : S1x64.Idx) = ix2 0 q := by
  obtain ⟨-, -, -, -, -, -, e0, e1, -⟩ := idx_facts9 t
  refine funext fun a => Fin.ext ?_
  match a with
  | ⟨0, _⟩ => show win9_3.index t (0 : Fin 2) * 1 + 1 * 0 = 0; rw [e0]
  | ⟨1, _⟩ => show win9_3.index t (1 : Fin 2) * 64 + 1 * q.val = q.val; rw [e1]; omega

/-- Column q of per-column row 4's block at any point sits at column q of the row. -/
theorem emb9_4 (t : Fin cfg9.N) (q : Fin 64) :
    (((cfg9.win 4).blk t).view.emb (ix2 0 q : S1x64.Idx) : S1x64.Idx) = ix2 0 q := by
  obtain ⟨-, -, -, -, -, -, -, -, e0, e1, -⟩ := idx_facts9 t
  refine funext fun a => Fin.ext ?_
  match a with
  | ⟨0, _⟩ => show win9_4.index t (0 : Fin 2) * 1 + 1 * 0 = 0; rw [e0]
  | ⟨1, _⟩ => show win9_4.index t (1 : Fin 2) * 64 + 1 * q.val = q.val; rw [e1]; omega

/-- Row p, column q of the output block at point t sits at row 5000·t + p of the output array. -/
theorem emb9_5 (t : Fin cfg9.N) (p : Fin 5000) (q : Fin 64) (r : Fin 50000) (hr : r.val = t.val * 5000 + p.val) :
    (((cfg9.win 5).blk t).view.emb (ix2 p q : S5000x64.Idx) : S50000x64.Idx) = ix2 r q := by
  obtain ⟨-, -, -, -, -, -, -, -, -, -, e0, e1⟩ := idx_facts9 t
  refine funext fun a => Fin.ext ?_
  match a with
  | ⟨0, _⟩ => show win9_5.index t (0 : Fin 2) * 5000 + 1 * p.val = r.val; rw [e0, hr]; omega
  | ⟨1, _⟩ => show win9_5.index t (1 : Fin 2) * 64 + 1 * q.val = q.val; rw [e1]; omega

section
variable (V : (c : Dev nD) → (b : Ref sig .tc) → Buf (Elt Ideal) ((c : Thread nD τ).loc b))

set_option maxHeartbeats 1000000 in
/-- Row p, column q of the pre-activation block at point t is row 5000·t + p of the pre-activation array. -/
theorem blk9_0_apply (c : Dev nD) (t : Fin cfg9.N) (p : Fin 5000) (q : Fin 64) (r : Fin 50000)
    (hr : r.val = t.val * 5000 + p.val) :
    (Gen.iblk9 (F := Ideal) V c 0 t : S5000x64.Idx → EReal) (ix2 p q)
      = (V c (Pipeline.arrRef spec9 0) : S50000x64.Idx → EReal) (ix2 r q) :=
  congrArg (V c (Pipeline.arrRef spec9 0) : S50000x64.Idx → EReal) (emb9_0 t p q r hr)

set_option maxHeartbeats 1000000 in
/-- The block of per-column row 1 at any point is the row itself. -/
theorem blk9_1_apply (c : Dev nD) (t : Fin cfg9.N) (q : Fin 64) :
    (Gen.iblk9 (F := Ideal) V c 1 t : S1x64.Idx → EReal) (ix2 0 q)
      = (V c (Pipeline.arrRef spec9 1) : S1x64.Idx → EReal) (ix2 0 q) :=
  congrArg (V c (Pipeline.arrRef spec9 1) : S1x64.Idx → EReal) (emb9_1 t q)

set_option maxHeartbeats 1000000 in
/-- The block of per-column row 2 at any point is the row itself. -/
theorem blk9_2_apply (c : Dev nD) (t : Fin cfg9.N) (q : Fin 64) :
    (Gen.iblk9 (F := Ideal) V c 2 t : S1x64.Idx → EReal) (ix2 0 q)
      = (V c (Pipeline.arrRef spec9 2) : S1x64.Idx → EReal) (ix2 0 q) :=
  congrArg (V c (Pipeline.arrRef spec9 2) : S1x64.Idx → EReal) (emb9_2 t q)

set_option maxHeartbeats 1000000 in
/-- The block of per-column row 3 at any point is the row itself. -/
theorem blk9_3_apply (c : Dev nD) (t : Fin cfg9.N) (q : Fin 64) :
    (Gen.iblk9 (F := Ideal) V c 3 t : S1x64.Idx → EReal) (ix2 0 q)
      = (V c (Pipeline.arrRef spec9 3) : S1x64.Idx → EReal) (ix2 0 q) :=
  congrArg (V c (Pipeline.arrRef spec9 3) : S1x64.Idx → EReal) (emb9_3 t q)

set_option maxHeartbeats 1000000 in
/-- The block of per-column row 4 at any point is the row itself. -/
theorem blk9_4_apply (c : Dev nD) (t : Fin cfg9.N) (q : Fin 64) :
    (Gen.iblk9 (F := Ideal) V c 4 t : S1x64.Idx → EReal) (ix2 0 q)
      = (V c (Pipeline.arrRef spec9 4) : S1x64.Idx → EReal) (ix2 0 q) :=
  congrArg (V c (Pipeline.arrRef spec9 4) : S1x64.Idx → EReal) (emb9_4 t q)

set_option maxHeartbeats 1000000 in
/-- What point t writes back is block t of the normalising step of the whole arrays. -/
theorem flushed9_5_eq (c : Dev nD) (t : Fin cfg9.N) :
    (Gen.dat9 (F := Ideal) V c).flushed 5 t
      = ((cfg9.win 5).blk t).view.read (Elt Ideal)
          (Cert.Layer.bn (V c (Pipeline.arrRef spec9 0)) (V c (Pipeline.arrRef spec9 1)) (V c (Pipeline.arrRef spec9 2))
            (V c (Pipeline.arrRef spec9 3)) (V c (Pipeline.arrRef spec9 4))) := by
  show (cfg9.win 5).cut (grid9.coords t) ((Gen.dat9 V c).after 5 t) = _
  rw [Gen.after9_5]
  refine ext_block9 _ _ fun p q => ?_
  have hp : p.val < 5000 := p.isLt
  have ht : t.val < 10 := point_lt9 t
  have hr : t.val * 5000 + p.val < 50000 := by omega
  exact (block_val9 (Gen.iblk9 V c 0 t) (Gen.iblk9 V c 1 t) (Gen.iblk9 V c 2 t) (Gen.iblk9 V c 3 t)
      (Gen.iblk9 V c 4 t) (V c (Pipeline.arrRef spec9 0)) (V c (Pipeline.arrRef spec9 1))
      (V c (Pipeline.arrRef spec9 2)) (V c (Pipeline.arrRef spec9 3)) (V c (Pipeline.arrRef spec9 4))
      p q ⟨t.val * 5000 + p.val, hr⟩ (blk9_0_apply V c t p q _ rfl) (blk9_1_apply V c t q) (blk9_2_apply V c t q)
      (blk9_3_apply V c t q) (blk9_4_apply V c t q)).trans
    (congrArg (Cert.Layer.bn (V c (Pipeline.arrRef spec9 0)) (V c (Pipeline.arrRef spec9 1))
      (V c (Pipeline.arrRef spec9 2)) (V c (Pipeline.arrRef spec9 3)) (V c (Pipeline.arrRef spec9 4)))
      (emb9_5 t p q ⟨t.val * 5000 + p.val, hr⟩ rfl).symm)

/-- An index of the output array lies in point t's block iff each coordinate lies in the block's range on its axis. -/
theorem mem_blk9_5 (t : Fin cfg9.N) (i : S50000x64.Idx) :
    i ∈ ((cfg9.win 5).blk t).view.set
      ↔ ∀ a : Fin 2, win9_5.index t a * S5000x64.size a ≤ (i a).val
          ∧ (i a).val < win9_5.index t a * S5000x64.size a + S5000x64.size a := by
  show i ∈ ((View.whole main_v152).slice (win9_5.rect t)).set ↔ _
  rw [View.set_slice_whole, Rect.mem_set_unit]
  exact Iff.rfl

/-- Every row of the output array lies in a block that is written back: row r in the block of point r / 5000. -/
theorem cover9_5 (i : S50000x64.Idx) :
    ∃ t : Fin cfg9.N, (cfg9.win 5).flush t = true ∧ i ∈ ((cfg9.win 5).blk t).view.set := by
  have hi0 : (i 0).val < 50000 := (i 0).isLt
  have hi1 : (i 1).val < 64 := (i 1).isLt
  have hN : (i 0).val / 5000 < cfg9.N := lt_of_lt_of_eq (by omega : (i 0).val / 5000 < 10) Gen.N_9.symm
  refine ⟨⟨(i 0).val / 5000, hN⟩, Gen.flush9_5 _, ?_⟩
  obtain ⟨-, -, -, -, -, -, -, -, -, -, e0, e1⟩ := idx_facts9 ⟨(i 0).val / 5000, hN⟩
  rw [mem_blk9_5]
  intro a
  match a with
  | ⟨0, _⟩ =>
    show win9_5.index ⟨(i 0).val / 5000, hN⟩ (0 : Fin 2) * 5000 ≤ (i 0).val
      ∧ (i 0).val < win9_5.index ⟨(i 0).val / 5000, hN⟩ (0 : Fin 2) * 5000 + 5000
    rw [e0]; show (i 0).val / 5000 * 5000 ≤ (i 0).val ∧ (i 0).val < (i 0).val / 5000 * 5000 + 5000; omega
  | ⟨1, _⟩ =>
    show win9_5.index ⟨(i 0).val / 5000, hN⟩ (1 : Fin 2) * 64 ≤ (i 1).val
      ∧ (i 1).val < win9_5.index ⟨(i 0).val / 5000, hN⟩ (1 : Fin 2) * 64 + 64
    rw [e1]; omega

set_option maxHeartbeats 1000000 in
/-- The output array after the region: the normalising step of the arrays the region found. -/
theorem final9_5 (c : Dev nD) :
    (Gen.dat9 (F := Ideal) V c).arrAt 5 cfg9.N
      = Cert.Layer.bn (V c (Pipeline.arrRef spec9 0)) (V c (Pipeline.arrRef spec9 1)) (V c (Pipeline.arrRef spec9 2))
          (V c (Pipeline.arrRef spec9 3)) (V c (Pipeline.arrRef spec9 4)) :=
  (Gen.dat9 V c).arrAt_eq_of_cover 5 _ (fun t _ => flushed9_5_eq V c t) cover9_5

end

end Cert.KernelIdeal.RegionValue

end
-- ==== Proof.KLayer4.lean ====
/-
  Layer 4 of the kernel program, from the buffer contents before its first host operation to its output array: the
  dense step and its two column-sum rows (launch 8), the mean and variance rows, and the normalising step (launch 9).
-/
import proofs.«147565_j9259949490665_1_alg».proof.Proof.KHostA4
import proofs.«147565_j9259949490665_1_alg».proof.Proof.KHostB4
import proofs.«147565_j9259949490665_1_alg».proof.Proof.RegionR8
import proofs.«147565_j9259949490665_1_alg».proof.Proof.RegionA9

set_option maxRecDepth 16384

noncomputable section

namespace Cert.KernelIdeal.Fold

open Idealize.ShloMosaic Idealize.ShloMosaic.TcCoe Idealize.SL.Sem Idealize.ShloMosaic.ValueIdx
open Cert.KernelIdeal Cert.KernelIdeal.Gen Cert.KernelIdeal.HostFn Cert.Layer

variable (m : (ℓ : Loc nD τ sig) → Buf (Elt Ideal) ℓ) (ρ : Dev nD → PrngReg)

set_option maxHeartbeats 1000000 in
/-- Launch 8's three result arrays at its exit. -/
theorem W18_ro0 (c : Dev nD) : W18 m ρ c (Proc.devRef .tc main_v143_0) = (lin (W17 m ρ c (Proc.devRef .tc main_v141)) (W17 m ρ c (Proc.devRef .tc main_v121)) (W17 m ρ c (Proc.devRef .tc main_v123)) (W17 m ρ c (Proc.devRef .tc main_v125)) (W17 m ρ c (Proc.devRef .tc main_v142))) :=
  (W18_arr m ρ c 5).trans (Cert.KernelIdeal.RegionValue.final8_5 (V17 m ρ) c)
set_option maxHeartbeats 1000000 in
theorem W18_ro1 (c : Dev nD) : W18 m ρ c (Proc.devRef .tc main_v143_1) = colSum (lin (W17 m ρ c (Proc.devRef .tc main_v141)) (W17 m ρ c (Proc.devRef .tc main_v121)) (W17 m ρ c (Proc.devRef .tc main_v123)) (W17 m ρ c (Proc.devRef .tc main_v125)) (W17 m ρ c (Proc.devRef .tc main_v142))) :=
  (W18_arr m ρ c 6).trans (Cert.KernelIdeal.RegionValue.final8_6 (V17 m ρ) c)
set_option maxHeartbeats 1000000 in
theorem W18_ro2 (c : Dev nD) : W18 m ρ c (Proc.devRef .tc main_v143_2) = colSumSq (lin (W17 m ρ c (Proc.devRef .tc main_v141)) (W17 m ρ c (Proc.devRef .tc main_v121)) (W17 m ρ c (Proc.devRef .tc main_v123)) (W17 m ρ c (Proc.devRef .tc main_v125)) (W17 m ρ c (Proc.devRef .tc main_v142))) :=
  (W18_arr m ρ c 7).trans (Cert.KernelIdeal.RegionValue.final8_7 (V17 m ρ) c)
theorem W18_gv (c : Dev nD) : W18 m ρ c (Proc.devRef .tc main_v129) = W17 m ρ c (Proc.devRef .tc main_v129) := W18_of_ne m ρ c main_v129 (by decide)
theorem W18_bev (c : Dev nD) : W18 m ρ c (Proc.devRef .tc main_v131) = W17 m ρ c (Proc.devRef .tc main_v131) := W18_of_ne m ρ c main_v131 (by decide)

set_option maxHeartbeats 1000000 in
/-- Launch 9's result array at its exit. -/
theorem W20_out (c : Dev nD) : W20 m ρ c (Proc.devRef .tc main_v152) = bn (W19 m ρ c (Proc.devRef .tc main_v143_0)) (W19 m ρ c (Proc.devRef .tc main_v145)) (W19 m ρ c (Proc.devRef .tc main_v149)) (W19 m ρ c (Proc.devRef .tc main_v150)) (W19 m ρ c (Proc.devRef .tc main_v151)) :=
  (W20_arr m ρ c 5).trans (Cert.KernelIdeal.RegionValue.final9_5 (V19 m ρ) c)

set_option maxHeartbeats 2000000 in
/-- The layer: its output array is the normalising step, with the array's own mean and variance, of the dense step of the
    aggregated and the plain input. -/
theorem layer4 (c : Dev nD) : W20 m ρ c (Proc.devRef .tc main_v152)
    = bnStep (lin (agg64 (W16 m ρ c (Proc.devRef .tc main_v1)) (W16 m ρ c (Proc.devRef .tc main_v3)) (W16 m ρ c (Proc.devRef .tc main_v121))) (W16 m ρ c (Proc.devRef .tc main_v121)) (matSlice ![3, 0, 0] slices_S7x64x64_S1x64x64_3_0_0 (W16 m ρ c (Proc.devRef .tc main_arg5))) (matSlice ![3, 0, 0] slices_S7x64x64_S1x64x64_3_0_0 (W16 m ρ c (Proc.devRef .tc main_arg6))) (Cert.Row.rowOf (vecSlice7 ![3, 0] slices_S7x64_S1x64_3_0 (W16 m ρ c (Proc.devRef .tc main_arg7))))) (Cert.Row.rowOf (vecSlice8 ![4, 0] slices_S8x64_S1x64_4_0 (W16 m ρ c (Proc.devRef .tc main_arg8)))) (Cert.Row.rowOf (vecSlice8 ![4, 0] slices_S8x64_S1x64_4_0 (W16 m ρ c (Proc.devRef .tc main_arg9)))) := by
  rw [W20_out, W19_hpre, W19_mean, W19_var, W19_grow, W19_berow, W18_ro0, W18_ro1, W18_ro2,
    W18_gv, W18_bev, W17_agg, W17_hp, W17_wl, W17_wr, W17_brow, W17_gv, W17_bev]
  rw [bcast1_row, bcast1_row, bcast1_row, meanRow_eq, varRow_eq]
  rfl

theorem keepL4_v1 (c : Dev nD) : W20 m ρ c (Proc.devRef .tc main_v1) = W16 m ρ c (Proc.devRef .tc main_v1) :=
  (W20_of_ne m ρ c main_v1 (by decide)).trans ((keepH9 m ρ c main_v1 (by decide)).trans ((W18_of_ne m ρ c main_v1 (by decide)).trans (keepH8 m ρ c main_v1 (by decide))))
theorem keepL4_v3 (c : Dev nD) : W20 m ρ c (Proc.devRef .tc main_v3) = W16 m ρ c (Proc.devRef .tc main_v3) :=
  (W20_of_ne m ρ c main_v3 (by decide)).trans ((keepH9 m ρ c main_v3 (by decide)).trans ((W18_of_ne m ρ c main_v3 (by decide)).trans (keepH8 m ρ c main_v3 (by decide))))
theorem keepL4_arg5 (c : Dev nD) : W20 m ρ c (Proc.devRef .tc main_arg5) = W16 m ρ c (Proc.devRef .tc main_arg5) :=
  (W20_of_ne m ρ c main_arg5 (by decide)).trans ((keepH9 m ρ c main_arg5 (by decide)).trans ((W18_of_ne m ρ c main_arg5 (by decide)).trans (keepH8 m ρ c main_arg5 (by decide))))
theorem keepL4_arg6 (c : Dev nD) : W20 m ρ c (Proc.devRef .tc main_arg6) = W16 m ρ c (Proc.devRef .tc main_arg6) :=
  (W20_of_ne m ρ c main_arg6 (by decide)).trans ((keepH9 m ρ c main_arg6 (by decide)).trans ((W18_of_ne m ρ c main_arg6 (by decide)).trans (keepH8 m ρ c main_arg6 (by decide))))
theorem keepL4_arg7 (c : Dev nD) : W20 m ρ c (Proc.devRef .tc main_arg7) = W16 m ρ c (Proc.devRef .tc main_arg7) :=
  (W20_of_ne m ρ c main_arg7 (by decide)).trans ((keepH9 m ρ c main_arg7 (by decide)).trans ((W18_of_ne m ρ c main_arg7 (by decide)).trans (keepH8 m ρ c main_arg7 (by decide))))
theorem keepL4_arg8 (c : Dev nD) : W20 m ρ c (Proc.devRef .tc main_arg8) = W16 m ρ c (Proc.devRef .tc main_arg8) :=
  (W20_of_ne m ρ c main_arg8 (by decide)).trans ((keepH9 m ρ c main_arg8 (by decide)).trans ((W18_of_ne m ρ c main_arg8 (by decide)).trans (keepH8 m ρ c main_arg8 (by decide))))
theorem keepL4_arg9 (c : Dev nD) : W20 m ρ c (Proc.devRef .tc main_arg9) = W16 m ρ c (Proc.devRef .tc main_arg9) :=
  (W20_of_ne m ρ c main_arg9 (by decide)).trans ((keepH9 m ρ c main_arg9 (by decide)).trans ((W18_of_ne m ρ c main_arg9 (by decide)).trans (keepH8 m ρ c main_arg9 (by decide))))
theorem keepL4_arg10 (c : Dev nD) : W20 m ρ c (Proc.devRef .tc main_arg10) = W16 m ρ c (Proc.devRef .tc main_arg10) :=
  (W20_of_ne m ρ c main_arg10 (by decide)).trans ((keepH9 m ρ c main_arg10 (by decide)).trans ((W18_of_ne m ρ c main_arg10 (by decide)).trans (keepH8 m ρ c main_arg10 (by decide))))
theorem keepL4_arg11 (c : Dev nD) : W20 m ρ c (Proc.devRef .tc main_arg11) = W16 m ρ c (Proc.devRef .tc main_arg11) :=
  (W20_of_ne m ρ c main_arg11 (by decide)).trans ((keepH9 m ρ c main_arg11 (by decide)).trans ((W18_of_ne m ρ c main_arg11 (by decide)).trans (keepH8 m ρ c main_arg11 (by decide))))

end Cert.KernelIdeal.Fold

end
-- ==== Proof.KHostA5.lean ====
/-
  The host operations before launch 10: which buffers they write, and what the ones the layer reads hold afterwards.
-/
import proofs.«147565_j9259949490665_1_alg».proof.Proof.Gen.KernelIdeal.Frame
import proofs.«147565_j9259949490665_1_alg».proof.Proof.KHostFn
import proofs.«147565_j9259949490665_1_alg».proof.Proof.LayerDefs

set_option maxRecDepth 16384

noncomputable section

namespace Cert.KernelIdeal.Fold

open Idealize.ShloMosaic Idealize.ShloMosaic.TcCoe Idealize.SL.Sem Idealize.ShloMosaic.ValueIdx
open Cert.KernelIdeal Cert.KernelIdeal.Gen Cert.KernelIdeal.HostFn Cert.Layer

variable (m : (ℓ : Loc nD τ sig) → Buf (Elt Ideal) ℓ) (ρ : Dev nD → PrngReg)

/-- The buffers the host operations before launch 10 write. -/
abbrev hostOps10_W : List (Ref sig .tc) := [main_v153, main_v154, main_v155, main_v156, main_v157, main_v158, main_v159, main_v160, main_v161, main_v162, main_c_23, main_v163, main_v164, main_c_24, main_v165, main_v166, main_v167, main_v168, main_v169, main_cst_25, main_v170, main_v171, main_v172, main_v173]

theorem hostOps10_writes : (hostOps10 : List (HloOp τ sig (Elt Ideal))).Forall fun op => op.writes ⊆ (hostOps10_W.map (Proc.devRef (τ := τ) .tc)).toFinset := by
  simp only [hostOps10, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- A buffer those operations do not write keeps its contents through them. -/
theorem keepH10 (c : Dev nD) (r : Ref sig .tc) (h : r ∉ hostOps10_W) :
    W21 m ρ c (Proc.devRef .tc r) = W20 m ρ c (Proc.devRef .tc r) :=
  StableHlo.after_of_writes_sub hostOps10 _ hostOps10_writes h

theorem W21_wl (c : Dev nD) : W21 m ρ c (Proc.devRef .tc main_v154) = (matSlice ![4, 0, 0] slices_S7x64x64_S1x64x64_4_0_0 (W20 m ρ c (Proc.devRef .tc main_arg5))) := by
  show StableHlo.after hostOps10 (W20 m ρ c) (Proc.devRef .tc main_v154) = _
  simp only [hostOps10]
  first | (after_results_simp <;> rfl) | (after_results <;> rfl)
theorem W21_wr (c : Dev nD) : W21 m ρ c (Proc.devRef .tc main_v156) = (matSlice ![4, 0, 0] slices_S7x64x64_S1x64x64_4_0_0 (W20 m ρ c (Proc.devRef .tc main_arg6))) := by
  show StableHlo.after hostOps10 (W20 m ρ c) (Proc.devRef .tc main_v156) = _
  simp only [hostOps10]
  first | (after_results_simp <;> rfl) | (after_results <;> rfl)
theorem W21_brow (c : Dev nD) : W21 m ρ c (Proc.devRef .tc main_v173) = broadcastInDim S1x64 ![1] bcast_S64_S1x64_1 (vecSlice7 ![4, 0] slices_S7x64_S1x64_4_0 (W20 m ρ c (Proc.devRef .tc main_arg7))) := by
  show StableHlo.after hostOps10 (W20 m ρ c) (Proc.devRef .tc main_v173) = _
  simp only [hostOps10]
  first | (after_results_simp <;> rfl) | (after_results <;> rfl)
theorem W21_gv (c : Dev nD) : W21 m ρ c (Proc.devRef .tc main_v160) = (vecSlice8 ![5, 0] slices_S8x64_S1x64_5_0 (W20 m ρ c (Proc.devRef .tc main_arg8))) := by
  show StableHlo.after hostOps10 (W20 m ρ c) (Proc.devRef .tc main_v160) = _
  simp only [hostOps10]
  first | (after_results_simp <;> rfl) | (after_results <;> rfl)
theorem W21_bev (c : Dev nD) : W21 m ρ c (Proc.devRef .tc main_v162) = (vecSlice8 ![5, 0] slices_S8x64_S1x64_5_0 (W20 m ρ c (Proc.devRef .tc main_arg9))) := by
  show StableHlo.after hostOps10 (W20 m ρ c) (Proc.devRef .tc main_v162) = _
  simp only [hostOps10]
  first | (after_results_simp <;> rfl) | (after_results <;> rfl)
theorem W21_agg (c : Dev nD) : W21 m ρ c (Proc.devRef .tc main_v172) = (agg64 (W20 m ρ c (Proc.devRef .tc main_v1)) (W20 m ρ c (Proc.devRef .tc main_v3)) (W20 m ρ c (Proc.devRef .tc main_v152))) := by
  show StableHlo.after hostOps10 (W20 m ρ c) (Proc.devRef .tc main_v172) = _
  simp only [hostOps10]
  first | (after_results_simp <;> rfl) | (after_results <;> rfl)
theorem W21_hp (c : Dev nD) : W21 m ρ c (Proc.devRef .tc main_v152) = W20 m ρ c (Proc.devRef .tc main_v152) := keepH10 m ρ c main_v152 (by decide)

end Cert.KernelIdeal.Fold

end
-- ==== Proof.KHostB5.lean ====
/-
  The host operations before launch 11: the mean row, the variance row, the gain and offset rows.
-/
import proofs.«147565_j9259949490665_1_alg».proof.Proof.Gen.KernelIdeal.Frame
import proofs.«147565_j9259949490665_1_alg».proof.Proof.KHostFn
import proofs.«147565_j9259949490665_1_alg».proof.Proof.LayerDefs

set_option maxRecDepth 16384

noncomputable section

namespace Cert.KernelIdeal.Fold

open Idealize.ShloMosaic Idealize.ShloMosaic.TcCoe Idealize.SL.Sem Idealize.ShloMosaic.ValueIdx
open Cert.KernelIdeal Cert.KernelIdeal.Gen Cert.KernelIdeal.HostFn Cert.Layer

variable (m : (ℓ : Loc nD τ sig) → Buf (Elt Ideal) ℓ) (ρ : Dev nD → PrngReg)

/-- The buffers the host operations before launch 11 write. -/
abbrev hostOps11_W : List (Ref sig .tc) := [main_cst_26, main_v175, main_v176, main_cst_27, main_v177, main_v178, main_v179, main_v180, main_v181, main_v182]

theorem hostOps11_writes : (hostOps11 : List (HloOp τ sig (Elt Ideal))).Forall fun op => op.writes ⊆ (hostOps11_W.map (Proc.devRef (τ := τ) .tc)).toFinset := by
  simp only [hostOps11, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- A buffer those operations do not write keeps its contents through them. -/
theorem keepH11 (c : Dev nD) (r : Ref sig .tc) (h : r ∉ hostOps11_W) :
    W23 m ρ c (Proc.devRef .tc r) = W22 m ρ c (Proc.devRef .tc r) :=
  StableHlo.after_of_writes_sub hostOps11 _ hostOps11_writes h

theorem W23_mean (c : Dev nD) : W23 m ρ c (Proc.devRef .tc main_v176) = (Host.divf (F := Ideal) (W22 m ρ c (Proc.devRef .tc main_v174_1)) (broadcastInDim S1x64 ![] bcast_S_S1x64 (constant (F := Ideal) S_ .f32 0x47435000#32)) : FVec Ideal S1x64 .f32) := by
  show StableHlo.after hostOps11 (W22 m ρ c) (Proc.devRef .tc main_v176) = _
  simp only [hostOps11]
  first | (after_results_simp <;> rfl) | (after_results <;> rfl)
theorem W23_var (c : Dev nD) : W23 m ρ c (Proc.devRef .tc main_v180) = (subf (F := Ideal) (Host.divf (F := Ideal) (W22 m ρ c (Proc.devRef .tc main_v174_2)) (broadcastInDim S1x64 ![] bcast_S_S1x64 (constant (F := Ideal) S_ .f32 0x47435000#32))) (mulf (F := Ideal) (Host.divf (F := Ideal) (W22 m ρ c (Proc.devRef .tc main_v174_1)) (broadcastInDim S1x64 ![] bcast_S_S1x64 (constant (F := Ideal) S_ .f32 0x47435000#32))) (Host.divf (F := Ideal) (W22 m ρ c (Proc.devRef .tc main_v174_1)) (broadcastInDim S1x64 ![] bcast_S_S1x64 (constant (F := Ideal) S_ .f32 0x47435000#32)))) : FVec Ideal S1x64 .f32) := by
  show StableHlo.after hostOps11 (W22 m ρ c) (Proc.devRef .tc main_v180) = _
  simp only [hostOps11]
  first | (after_results_simp <;> rfl) | (after_results <;> rfl)
theorem W23_grow (c : Dev nD) : W23 m ρ c (Proc.devRef .tc main_v181) = (broadcastInDim S1x64 ![1] bcast_S64_S1x64_1 (W22 m ρ c (Proc.devRef .tc main_v160)) : FVec Ideal S1x64 .f32) := by
  show StableHlo.after hostOps11 (W22 m ρ c) (Proc.devRef .tc main_v181) = _
  simp only [hostOps11]
  first | (after_results_simp <;> rfl) | (after_results <;> rfl)
theorem W23_berow (c : Dev nD) : W23 m ρ c (Proc.devRef .tc main_v182) = (broadcastInDim S1x64 ![1] bcast_S64_S1x64_1 (W22 m ρ c (Proc.devRef .tc main_v162)) : FVec Ideal S1x64 .f32) := by
  show StableHlo.after hostOps11 (W22 m ρ c) (Proc.devRef .tc main_v182) = _
  simp only [hostOps11]
  first | (after_results_simp <;> rfl) | (after_results <;> rfl)
theorem W23_hpre (c : Dev nD) : W23 m ρ c (Proc.devRef .tc main_v174_0) = W22 m ρ c (Proc.devRef .tc main_v174_0) := keepH11 m ρ c main_v174_0 (by decide)

end Cert.KernelIdeal.Fold

end
-- ==== Proof.RegionR10Pieces.lean ====
/-
  What one step of the dense-step body leaves in its three result blocks, as arithmetic of the blocks it read.

  At the first step of a run the two running rows are set to zero before the step adds to them; at every later step
  they are read as the step before left them.  In both cases the block of pre-activations is the same arithmetic of
  the five operand blocks, the row of sums is the previous row plus the block's column sums, and the row of sums of
  squares is the previous row plus the block's column sums of squares.
-/
import proofs.«147565_j9259949490665_1_alg».proof.Proof.Gen.KernelIdeal.Frame
import proofs.«147565_j9259949490665_1_alg».proof.Proof.LibColumnSum
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.RegionValue

open Cert.KernelIdeal Cert.KernelIdeal.Gen
open Cert.LibColumnSum (offsets_zero)

variable {F : FTy → Type} [FloatOps F]

theorem out10_A_5_eq (c : Dev nD) (i : grid10.Coords) (a1 : Memref sig .tc .vmem S5000x64 .f32) (h1 : a1.IsWhole) (a2 : Memref sig .tc .vmem S5000x64 .f32) (h2 : a2.IsWhole) (a3 : Memref sig .tc .vmem S64x64 .f32) (h3 : a3.IsWhole) (a4 : Memref sig .tc .vmem S64x64 .f32) (h4 : a4.IsWhole) (a5 : Memref sig .tc .vmem S1x64 .f32) (h5 : a5.IsWhole) (a6 : Memref sig .tc .vmem S5000x64 .f32) (h6 : a6.IsWhole) (a7 : Memref sig .tc .vmem S1x64 .f32) (h7 : a7.IsWhole) (a8 : Memref sig .tc .vmem S1x64 .f32) (h8 : a8.IsWhole) (hc : cond10_0 i)
    (x0 : Vec F S5000x64 .f32) (x1 : Vec F S5000x64 .f32) (x2 : Vec F S64x64 .f32) (x3 : Vec F S64x64 .f32) (x4 : Vec F S1x64 .f32) :
    out10_A_5 c i a1 h1 a2 h2 a3 h3 a4 h4 a5 h5 a6 h6 a7 h7 a8 h8 hc x0 x1 x2 x3 x4 = k10_pay4 x0 x2 x4 x1 x3 := by
  unfold out10_A_5
  rw [View.read_writes_eq_canon _ _ _ (cover10_A_5 c i a1 h1 a2 h2 a3 h3 a4 h4 a5 h5 a6 h6 a7 h7 a8 h8 hc x0 x1 x2 x3 x4)]
  unfold kernelRun10_A
  dsimp only
  sl_unfold_words
  rw [View.canon_unit_zero offsets_zero]
  simp only [View.readAt_eq_ld, h1.read_unread, h2.read_unread, h3.read_unread, h4.read_unread, h5.read_unread, h7.read_unread, h8.read_unread, View.ld_unit_zero (S := S5000x64) offsets_zero, View.ld_unit_zero (S := S64x64) offsets_zero, View.ld_unit_zero (S := S1x64) offsets_zero]

theorem out10_A_6_eq (c : Dev nD) (i : grid10.Coords) (a1 : Memref sig .tc .vmem S5000x64 .f32) (h1 : a1.IsWhole) (a2 : Memref sig .tc .vmem S5000x64 .f32) (h2 : a2.IsWhole) (a3 : Memref sig .tc .vmem S64x64 .f32) (h3 : a3.IsWhole) (a4 : Memref sig .tc .vmem S64x64 .f32) (h4 : a4.IsWhole) (a5 : Memref sig .tc .vmem S1x64 .f32) (h5 : a5.IsWhole) (a6 : Memref sig .tc .vmem S5000x64 .f32) (h6 : a6.IsWhole) (a7 : Memref sig .tc .vmem S1x64 .f32) (h7 : a7.IsWhole) (a8 : Memref sig .tc .vmem S1x64 .f32) (h8 : a8.IsWhole) (hc : cond10_0 i)
    (x0 : Vec F S5000x64 .f32) (x1 : Vec F S5000x64 .f32) (x2 : Vec F S64x64 .f32) (x3 : Vec F S64x64 .f32) (x4 : Vec F S1x64 .f32) :
    out10_A_6 c i a1 h1 a2 h2 a3 h3 a4 h4 a5 h5 a6 h6 a7 h7 a8 h8 hc x0 x1 x2 x3 x4 = k10_pay5 x0 x2 x4 x1 x3 (k10_pay2 (F := F)) := by
  unfold out10_A_6
  rw [View.read_writes_eq_canon _ _ _ (cover10_A_6 c i a1 h1 a2 h2 a3 h3 a4 h4 a5 h5 a6 h6 a7 h7 a8 h8 hc x0 x1 x2 x3 x4)]
  unfold kernelRun10_A
  dsimp only
  sl_unfold_words
  rw [View.canon_cons_unit_zero (S := S1x64) offsets_zero, View.readCov_unit_zero (S := S1x64) _ offsets_zero]
  simp only [View.readAt_eq_ld, h1.read_unread, h2.read_unread, h3.read_unread, h4.read_unread, h5.read_unread, h7.read_unread, h8.read_unread, View.ld_unit_zero (S := S5000x64) offsets_zero, View.ld_unit_zero (S := S64x64) offsets_zero, View.ld_unit_zero (S := S1x64) offsets_zero]

theorem out10_A_7_eq (c : Dev nD) (i : grid10.Coords) (a1 : Memref sig .tc .vmem S5000x64 .f32) (h1 : a1.IsWhole) (a2 : Memref sig .tc .vmem S5000x64 .f32) (h2 : a2.IsWhole) (a3 : Memref sig .tc .vmem S64x64 .f32) (h3 : a3.IsWhole) (a4 : Memref sig .tc .vmem S64x64 .f32) (h4 : a4.IsWhole) (a5 : Memref sig .tc .vmem S1x64 .f32) (h5 : a5.IsWhole) (a6 : Memref sig .tc .vmem S5000x64 .f32) (h6 : a6.IsWhole) (a7 : Memref sig .tc .vmem S1x64 .f32) (h7 : a7.IsWhole) (a8 : Memref sig .tc .vmem S1x64 .f32) (h8 : a8.IsWhole) (hc : cond10_0 i)
    (x0 : Vec F S5000x64 .f32) (x1 : Vec F S5000x64 .f32) (x2 : Vec F S64x64 .f32) (x3 : Vec F S64x64 .f32) (x4 : Vec F S1x64 .f32) :
    out10_A_7 c i a1 h1 a2 h2 a3 h3 a4 h4 a5 h5 a6 h6 a7 h7 a8 h8 hc x0 x1 x2 x3 x4 = k10_pay1 (k10_pay6 (k10_pay3 (F := F))) (k10_pay7 x0 x2 x4 x1 x3) := by
  unfold out10_A_7
  rw [View.read_writes_eq_canon _ _ _ (cover10_A_7 c i a1 h1 a2 h2 a3 h3 a4 h4 a5 h5 a6 h6 a7 h7 a8 h8 hc x0 x1 x2 x3 x4)]
  unfold kernelRun10_A
  dsimp only
  sl_unfold_words
  rw [View.canon_cons_unit_zero (S := S1x64) offsets_zero, View.readCov_unit_zero (S := S1x64) _ offsets_zero]
  simp only [View.readAt_eq_ld, h1.read_unread, h2.read_unread, h3.read_unread, h4.read_unread, h5.read_unread, h7.read_unread, h8.read_unread, View.ld_unit_zero (S := S5000x64) offsets_zero, View.ld_unit_zero (S := S64x64) offsets_zero, View.ld_unit_zero (S := S1x64) offsets_zero]

theorem out10_B_5_eq (c : Dev nD) (i : grid10.Coords) (a1 : Memref sig .tc .vmem S5000x64 .f32) (h1 : a1.IsWhole) (a2 : Memref sig .tc .vmem S5000x64 .f32) (h2 : a2.IsWhole) (a3 : Memref sig .tc .vmem S64x64 .f32) (h3 : a3.IsWhole) (a4 : Memref sig .tc .vmem S64x64 .f32) (h4 : a4.IsWhole) (a5 : Memref sig .tc .vmem S1x64 .f32) (h5 : a5.IsWhole) (a6 : Memref sig .tc .vmem S5000x64 .f32) (h6 : a6.IsWhole) (a7 : Memref sig .tc .vmem S1x64 .f32) (h7 : a7.IsWhole) (a8 : Memref sig .tc .vmem S1x64 .f32) (h8 : a8.IsWhole) (hc : ¬cond10_0 i)
    (x0 : Vec F S5000x64 .f32) (x1 : Vec F S5000x64 .f32) (x2 : Vec F S64x64 .f32) (x3 : Vec F S64x64 .f32) (x4 : Vec F S1x64 .f32) (xo6 : Vec F S1x64 .f32) (xo7 : Vec F S1x64 .f32) :
    out10_B_5 c i a1 h1 a2 h2 a3 h3 a4 h4 a5 h5 a6 h6 a7 h7 a8 h8 hc x0 x1 x2 x3 x4 xo6 xo7 = k10_pay4 x0 x2 x4 x1 x3 := by
  unfold out10_B_5
  rw [View.read_writes_eq_canon _ _ _ (cover10_B_5 c i a1 h1 a2 h2 a3 h3 a4 h4 a5 h5 a6 h6 a7 h7 a8 h8 hc x0 x1 x2 x3 x4 xo6 xo7)]
  unfold kernelRun10_B
  dsimp only
  sl_unfold_words
  rw [View.canon_unit_zero offsets_zero]
  simp only [View.readAt_eq_ld, h1.read_unread, h2.read_unread, h3.read_unread, h4.read_unread, h5.read_unread, h7.read_unread, h8.read_unread, View.ld_unit_zero (S := S5000x64) offsets_zero, View.ld_unit_zero (S := S64x64) offsets_zero, View.ld_unit_zero (S := S1x64) offsets_zero]

theorem out10_B_6_eq (c : Dev nD) (i : grid10.Coords) (a1 : Memref sig .tc .vmem S5000x64 .f32) (h1 : a1.IsWhole) (a2 : Memref sig .tc .vmem S5000x64 .f32) (h2 : a2.IsWhole) (a3 : Memref sig .tc .vmem S64x64 .f32) (h3 : a3.IsWhole) (a4 : Memref sig .tc .vmem S64x64 .f32) (h4 : a4.IsWhole) (a5 : Memref sig .tc .vmem S1x64 .f32) (h5 : a5.IsWhole) (a6 : Memref sig .tc .vmem S5000x64 .f32) (h6 : a6.IsWhole) (a7 : Memref sig .tc .vmem S1x64 .f32) (h7 : a7.IsWhole) (a8 : Memref sig .tc .vmem S1x64 .f32) (h8 : a8.IsWhole) (hc : ¬cond10_0 i)
    (x0 : Vec F S5000x64 .f32) (x1 : Vec F S5000x64 .f32) (x2 : Vec F S64x64 .f32) (x3 : Vec F S64x64 .f32) (x4 : Vec F S1x64 .f32) (xo6 : Vec F S1x64 .f32) (xo7 : Vec F S1x64 .f32) :
    out10_B_6 c i a1 h1 a2 h2 a3 h3 a4 h4 a5 h5 a6 h6 a7 h7 a8 h8 hc x0 x1 x2 x3 x4 xo6 xo7 = k10_pay5 x0 x2 x4 x1 x3 xo6 := by
  unfold out10_B_6
  rw [View.read_writes_eq_canon _ _ _ (cover10_B_6 c i a1 h1 a2 h2 a3 h3 a4 h4 a5 h5 a6 h6 a7 h7 a8 h8 hc x0 x1 x2 x3 x4 xo6 xo7)]
  unfold kernelRun10_B
  dsimp only
  sl_unfold_words
  rw [View.canon_unit_zero offsets_zero]
  simp only [View.readAt_eq_ld, h1.read_unread, h2.read_unread, h3.read_unread, h4.read_unread, h5.read_unread, h7.read_unread, h8.read_unread, View.ld_unit_zero (S := S5000x64) offsets_zero, View.ld_unit_zero (S := S64x64) offsets_zero, View.ld_unit_zero (S := S1x64) offsets_zero]

theorem out10_B_7_eq (c : Dev nD) (i : grid10.Coords) (a1 : Memref sig .tc .vmem S5000x64 .f32) (h1 : a1.IsWhole) (a2 : Memref sig .tc .vmem S5000x64 .f32) (h2 : a2.IsWhole) (a3 : Memref sig .tc .vmem S64x64 .f32) (h3 : a3.IsWhole) (a4 : Memref sig .tc .vmem S64x64 .f32) (h4 : a4.IsWhole) (a5 : Memref sig .tc .vmem S1x64 .f32) (h5 : a5.IsWhole) (a6 : Memref sig .tc .vmem S5000x64 .f32) (h6 : a6.IsWhole) (a7 : Memref sig .tc .vmem S1x64 .f32) (h7 : a7.IsWhole) (a8 : Memref sig .tc .vmem S1x64 .f32) (h8 : a8.IsWhole) (hc : ¬cond10_0 i)
    (x0 : Vec F S5000x64 .f32) (x1 : Vec F S5000x64 .f32) (x2 : Vec F S64x64 .f32) (x3 : Vec F S64x64 .f32) (x4 : Vec F S1x64 .f32) (xo6 : Vec F S1x64 .f32) (xo7 : Vec F S1x64 .f32) :
    out10_B_7 c i a1 h1 a2 h2 a3 h3 a4 h4 a5 h5 a6 h6 a7 h7 a8 h8 hc x0 x1 x2 x3 x4 xo6 xo7 = k10_pay1 (k10_pay6 xo7) (k10_pay7 x0 x2 x4 x1 x3) := by
  unfold out10_B_7
  rw [View.read_writes_eq_canon _ _ _ (cover10_B_7 c i a1 h1 a2 h2 a3 h3 a4 h4 a5 h5 a6 h6 a7 h7 a8 h8 hc x0 x1 x2 x3 x4 xo6 xo7)]
  unfold kernelRun10_B
  dsimp only
  sl_unfold_words
  rw [View.canon_unit_zero offsets_zero]
  simp only [View.readAt_eq_ld, h1.read_unread, h2.read_unread, h3.read_unread, h4.read_unread, h5.read_unread, h7.read_unread, h8.read_unread, View.ld_unit_zero (S := S5000x64) offsets_zero, View.ld_unit_zero (S := S64x64) offsets_zero, View.ld_unit_zero (S := S1x64) offsets_zero]

end Cert.KernelIdeal.RegionValue

end
-- ==== Proof.RegionR10Pay.lean ====
/-
  The dense step's block arithmetic read entry by entry over the extended reals.

  For one block of 5000 rows: the block of pre-activations at (p, q) is the aggregated row p against row q of the
  neighbour weights, plus the bias entry q, plus the node's own row p against row q of the root weights (each
  product is a sum over the 64 input features; the weights are stored with the output feature as their row, so the
  transposed weight read at (k, q) is the weight at (q, k)).  The two running rows are the previous row plus the
  block's column sums of the pre-activations, and of their squares.  The row that starts a run is zero.
-/
import proofs.«147565_j9259949490665_1_alg».proof.Proof.Gen.KernelIdeal.Skeleton
import proofs.«147565_j9259949490665_1_alg».proof.Proof.Spec
import proofs.«147565_j9259949490665_1_alg».proof.Proof.LibPlainDot
import proofs.«147565_j9259949490665_1_alg».proof.Proof.LibColumnSum
import Idealize.ShloMosaic.Lib.Pipeline.Value
import Idealize.ShloMosaic.Lib.ValueLayout

noncomputable section

open Idealize.ShloMosaic Idealize.ShloMosaic.ValueIdx
open scoped BigOperators

namespace Cert.KernelIdeal.RegionValue

open Cert.KernelIdeal Cert.KernelIdeal.Gen

/-- The block of pre-activations at (p, q): the dense step of the block's operands there. -/
theorem pay10_lin (a x : Vec Ideal S5000x64 .f32) (wl wr : Vec Ideal S64x64 .f32) (b : Vec Ideal S1x64 .f32)
    (p : Fin 5000) (q : Fin 64) :
    k10_pay4 (F := Ideal) a wl b x wr (ix2 p q) = Cert.Layer.lin a x wl wr b (ix2 p q) := by
  have hd : dot_S5000x64_S64x64_S5000x64_1_0_0_1_n_n = DotDims.plain 5000 64 64 := rfl
  have e1 : ∀ (l : FVec Ideal S5000x64 .f32) (w : FVec Ideal S64x64 .f32),
      matmul dot_S5000x64_S64x64_S5000x64_1_0_0_1_n_n none (shapeCast S5000x64 l shapeCasts_S5000x64_S5000x64)
          (transpose S64x64 [1, 0] (shapeCast S64x64 w shapeCasts_S64x64_S64x64) transposes_S64x64_p1_0_S64x64)
          (constant S5000x64 .f32 0x00000000#32) (ix2 p q)
        = ∑ k : Fin 64, l (ix2 p k) * w (ix2 q k) := by
    intro l w
    rw [shapeCast_self, shapeCast_self]
    refine (Cert.LibPlainDot.matmul_zero_apply _ hd none l _ p q).trans ?_
    exact Finset.sum_congr rfl fun k _ => congrArg (l (ix2 p k) * ·) (transpose_ix2_apply w _ k q)
  have e2 : broadcastTo S5000x64 (shapeCast S1x64 b shapeCasts_S1x64_S1x64) broadcasts_S1x64_S5000x64 (ix2 p q)
      = b (ix2 0 q) := by
    rw [shapeCast_self]
    exact broadcastTo_1b_ab_apply b _ p q
  rw [Cert.Layer.lin_apply]
  unfold k10_pay4
  exact congrArg₂ (· + ·) (congrArg₂ (· + ·) (e1 a wl) e2) (e1 x wr)

/-- The row that starts a run is zero. -/
theorem pay10_zero6 (j : S1x64.Idx) : k10_pay2 (F := Ideal) j = 0 := Ideal.ofBits_zero_f32

theorem pay10_zero7 (j : S1x64.Idx) : k10_pay3 (F := Ideal) j = 0 := Ideal.ofBits_zero_f32

/-- The running row of sums after a block: the row before plus the block's column sums. -/
theorem pay10_sum (a x : Vec Ideal S5000x64 .f32) (wl wr : Vec Ideal S64x64 .f32) (b acc : Vec Ideal S1x64 .f32) (q : Fin 64) :
    k10_pay5 (F := Ideal) a wl b x wr acc (ix2 0 q)
      = acc (ix2 0 q) + ∑ r : Fin 5000, k10_pay4 (F := Ideal) a wl b x wr (ix2 r q) := by
  unfold k10_pay5
  exact congrArg₂ (· + ·) (congrFun (shapeCast_self acc _) _)
    (Cert.LibColumnSum.rowReduce_apply (k10_pay4 (F := Ideal) a wl b x wr) reduces_S5000x64_S64 (.inl rfl) rfl
      shapeCasts_S64_S1x64 0 q)

/-- The running row of sums of squares after a block: the row before plus the block's column sums of squares. -/
theorem pay10_sumsq (a x : Vec Ideal S5000x64 .f32) (wl wr : Vec Ideal S64x64 .f32) (b acc : Vec Ideal S1x64 .f32) (q : Fin 64) :
    k10_pay1 (k10_pay6 (F := Ideal) acc) (k10_pay7 (F := Ideal) a wl b x wr) (ix2 0 q)
      = acc (ix2 0 q) + ∑ r : Fin 5000, k10_pay4 (F := Ideal) a wl b x wr (ix2 r q) * k10_pay4 (F := Ideal) a wl b x wr (ix2 r q) := by
  unfold k10_pay1 k10_pay6 k10_pay7
  exact congrArg₂ (· + ·) (congrFun (shapeCast_self acc _) _)
    (Cert.LibColumnSum.rowReduce_apply (mulf (k10_pay4 (F := Ideal) a wl b x wr) (k10_pay4 (F := Ideal) a wl b x wr))
      reduces_S5000x64_S64 (.inl rfl) rfl shapeCasts_S64_S1x64 0 q)

end Cert.KernelIdeal.RegionValue

end
-- ==== Proof.RegionR10.lean ====
/-
  The value of one dense-step stage: what its three result arrays hold after all ten steps.

  The stage walks ten blocks of 5000 rows.  Step t reads block t of the aggregated and of the node features (rows
  5000·t … 5000·t + 4999 of the arrays) and the whole of both weight arrays and of the bias row; it writes block t of
  the pre-activations, which is therefore block t of the dense step of the WHOLE arrays (an entry of the dense step
  depends on one row of each node-feature operand only), and adds the block's column sums, and column sums of
  squares, to two running rows that start at zero.  By induction on the step the running rows after step n hold the
  sums over the rows of blocks 0 … n, so after step 9, when they are written out, they hold the full column sums:
  a sum over 50000 = 10 · 5000 rows is the sum of its ten block sums.  Sums of extended reals are regrouped freely
  (addition is associative and commutative, and 0 + x = x); no law that needs finite values is used.
-/
import proofs.«147565_j9259949490665_1_alg».proof.Proof.Gen.KernelIdeal.Frame
import proofs.«147565_j9259949490665_1_alg».proof.Proof.Spec
import proofs.«147565_j9259949490665_1_alg».proof.Proof.LibRowBlocks
import proofs.«147565_j9259949490665_1_alg».proof.Proof.RegionR10Pieces
import proofs.«147565_j9259949490665_1_alg».proof.Proof.RegionR10Pay
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)
open scoped BigOperators

namespace Cert.KernelIdeal.RegionValue

open Cert.KernelIdeal Cert.KernelIdeal.Gen
open Cert.Layer (Mat lin colSum colSumSq)
open Cert.LibRowBlocks (blockSum blockSum_of_lt sum_range_blockSum lin_congr)

section Region10

variable (V : (c : Dev nD) → (b : Ref sig .tc) → Buf (Elt Ideal) ((c : Thread nD τ).loc b)) (c : Dev nD)

/-- The five operand arrays as the stage finds them. -/
abbrev agg10 : Mat 50000 64 := V c (Pipeline.arrRef spec10 0)
abbrev self10 : Mat 50000 64 := V c (Pipeline.arrRef spec10 1)
abbrev wl10 : Mat 64 64 := V c (Pipeline.arrRef spec10 2)
abbrev wr10 : Mat 64 64 := V c (Pipeline.arrRef spec10 3)
abbrev bias10 : Mat 1 64 := V c (Pipeline.arrRef spec10 4)

/-- The pre-activations of the whole arrays. -/
abbrev hpre10 : Mat 50000 64 := lin (agg10 V c) (self10 V c) (wl10 V c) (wr10 V c) (bias10 V c)

/-- Where each step's blocks sit: the row-blocked operands and the pre-activations at block t, column block 0. -/
theorem idx10 : ∀ t : Fin cfg10.N,
    win10_0.index t (0 : Fin 2) = t.val ∧ win10_0.index t (1 : Fin 2) = 0
    ∧ win10_1.index t (0 : Fin 2) = t.val ∧ win10_1.index t (1 : Fin 2) = 0
    ∧ win10_5.index t (0 : Fin 2) = t.val ∧ win10_5.index t (1 : Fin 2) = 0 :=
  (by decide +kernel : ∀ t : Fin grid10.N, _)

/-- The weights, the bias row and the two running rows are one block each, at block (0, 0) at every step. -/
theorem whole10 : ∀ t : Fin cfg10.N,
    win10_2.index t (0 : Fin 2) = 0 ∧ win10_2.index t (1 : Fin 2) = 0
    ∧ win10_3.index t (0 : Fin 2) = 0 ∧ win10_3.index t (1 : Fin 2) = 0
    ∧ win10_4.index t (0 : Fin 2) = 0 ∧ win10_4.index t (1 : Fin 2) = 0
    ∧ win10_6.index t (0 : Fin 2) = 0 ∧ win10_6.index t (1 : Fin 2) = 0
    ∧ win10_7.index t (0 : Fin 2) = 0 ∧ win10_7.index t (1 : Fin 2) = 0 :=
  (by decide +kernel : ∀ t : Fin grid10.N, _)

/-- Row r of step t's block of operand 0 is row 5000·t + r of the array. -/
theorem blk10_0 (t : Fin cfg10.N) (r : Fin 5000) (k : Fin 64) (hr : t.val * 5000 + r.val < 50000) :
    iblk10 V c 0 t (ix2 r k) = agg10 V c (ix2 ⟨t.val * 5000 + r.val, hr⟩ k) := by
  have e0 := (idx10 t).1
  have e1 := (idx10 t).2.1
  show V c (Pipeline.arrRef spec10 0) (((cfg10.win 0).blk t).view.emb (ix2 r k))
    = V c (Pipeline.arrRef spec10 0) (ix2 ⟨t.val * 5000 + r.val, hr⟩ k)
  refine congrArg (V c (Pipeline.arrRef spec10 0)) (funext fun a => Fin.ext ?_)
  match a with
  | ⟨0, _⟩ => show win10_0.index t (0 : Fin 2) * 5000 + 1 * r.val = t.val * 5000 + r.val; rw [e0]; omega
  | ⟨1, _⟩ => show win10_0.index t (1 : Fin 2) * 64 + 1 * k.val = k.val; rw [e1]; omega

/-- Row r of step t's block of operand 1 is row 5000·t + r of the array. -/
theorem blk10_1 (t : Fin cfg10.N) (r : Fin 5000) (k : Fin 64) (hr : t.val * 5000 + r.val < 50000) :
    iblk10 V c 1 t (ix2 r k) = self10 V c (ix2 ⟨t.val * 5000 + r.val, hr⟩ k) := by
  have e0 := (idx10 t).2.2.1
  have e1 := (idx10 t).2.2.2.1
  show V c (Pipeline.arrRef spec10 1) (((cfg10.win 1).blk t).view.emb (ix2 r k))
    = V c (Pipeline.arrRef spec10 1) (ix2 ⟨t.val * 5000 + r.val, hr⟩ k)
  refine congrArg (V c (Pipeline.arrRef spec10 1)) (funext fun a => Fin.ext ?_)
  match a with
  | ⟨0, _⟩ => show win10_1.index t (0 : Fin 2) * 5000 + 1 * r.val = t.val * 5000 + r.val; rw [e0]; omega
  | ⟨1, _⟩ => show win10_1.index t (1 : Fin 2) * 64 + 1 * k.val = k.val; rw [e1]; omega

/-- Step t's block of operand 2 is the whole array. -/
theorem blk10_2 (t : Fin cfg10.N) (p : Fin 64) (k : Fin 64) :
    iblk10 V c 2 t (ix2 p k) = wl10 V c (ix2 p k) := by
  have e0 := (whole10 t).1
  have e1 := (whole10 t).2.1
  show V c (Pipeline.arrRef spec10 2) (((cfg10.win 2).blk t).view.emb (ix2 p k))
    = V c (Pipeline.arrRef spec10 2) (ix2 p k)
  refine congrArg (V c (Pipeline.arrRef spec10 2)) (funext fun a => Fin.ext ?_)
  match a with
  | ⟨0, _⟩ => show win10_2.index t (0 : Fin 2) * 64 + 1 * p.val = p.val; rw [e0]; omega
  | ⟨1, _⟩ => show win10_2.index t (1 : Fin 2) * 64 + 1 * k.val = k.val; rw [e1]; omega

/-- Step t's block of operand 3 is the whole array. -/
theorem blk10_3 (t : Fin cfg10.N) (p : Fin 64) (k : Fin 64) :
    iblk10 V c 3 t (ix2 p k) = wr10 V c (ix2 p k) := by
  have e0 := (whole10 t).2.2.1
  have e1 := (whole10 t).2.2.2.1
  show V c (Pipeline.arrRef spec10 3) (((cfg10.win 3).blk t).view.emb (ix2 p k))
    = V c (Pipeline.arrRef spec10 3) (ix2 p k)
  refine congrArg (V c (Pipeline.arrRef spec10 3)) (funext fun a => Fin.ext ?_)
  match a with
  | ⟨0, _⟩ => show win10_3.index t (0 : Fin 2) * 64 + 1 * p.val = p.val; rw [e0]; omega
  | ⟨1, _⟩ => show win10_3.index t (1 : Fin 2) * 64 + 1 * k.val = k.val; rw [e1]; omega

/-- Step t's block of operand 4 is the whole array. -/
theorem blk10_4 (t : Fin cfg10.N) (p : Fin 1) (k : Fin 64) :
    iblk10 V c 4 t (ix2 p k) = bias10 V c (ix2 p k) := by
  have e0 := (whole10 t).2.2.2.2.1
  have e1 := (whole10 t).2.2.2.2.2.1
  show V c (Pipeline.arrRef spec10 4) (((cfg10.win 4).blk t).view.emb (ix2 p k))
    = V c (Pipeline.arrRef spec10 4) (ix2 p k)
  refine congrArg (V c (Pipeline.arrRef spec10 4)) (funext fun a => Fin.ext ?_)
  match a with
  | ⟨0, _⟩ => show win10_4.index t (0 : Fin 2) * 1 + 1 * p.val = p.val; rw [e0]; omega
  | ⟨1, _⟩ => show win10_4.index t (1 : Fin 2) * 64 + 1 * k.val = k.val; rw [e1]; omega

/-- The block of pre-activations step t computes is block t of the whole arrays' pre-activations. -/
theorem hblk10 (t : Fin cfg10.N) (j : S5000x64.Idx) (hr : t.val * 5000 + (j 0).val < 50000) :
    (k10_pay4 (F := Ideal) (iblk10 V c 0 t) (iblk10 V c 2 t) (iblk10 V c 4 t) (iblk10 V c 1 t) (iblk10 V c 3 t)) j = hpre10 V c (ix2 ⟨t.val * 5000 + (j 0).val, hr⟩ (j 1)) := by
  obtain ⟨r, q, rfl⟩ : ∃ (r : Fin 5000) (q : Fin 64), j = ix2 r q := ⟨j 0, j 1, eq_ix2 j⟩
  exact (pay10_lin (iblk10 V c 0 t) (iblk10 V c 1 t) (iblk10 V c 2 t) (iblk10 V c 3 t) (iblk10 V c 4 t) r q).trans
    (lin_congr (R := 5000) (R' := 50000) (K := 64) (N := 64) (iblk10 V c 0 t) (iblk10 V c 1 t) (agg10 V c) (self10 V c)
      (iblk10 V c 2 t) (iblk10 V c 3 t) (wl10 V c) (wr10 V c) (iblk10 V c 4 t) (bias10 V c) r ⟨t.val * 5000 + r.val, hr⟩ q
      (fun k => blk10_0 V c t r k hr) (fun k => blk10_1 V c t r k hr) (fun k => blk10_2 V c t q k) (fun k => blk10_3 V c t q k)
      (blk10_4 V c t 0 q))

/-- What the three result blocks hold after a step that starts a run, -/
theorem outs10_A (t : Fin cfg10.N) (h0 : t.val % 10 = 0) :
    outsAt10 V c t.val t.isLt
      = (k10_pay4 (F := Ideal) (iblk10 V c 0 t) (iblk10 V c 2 t) (iblk10 V c 4 t) (iblk10 V c 1 t) (iblk10 V c 3 t), k10_pay5 (F := Ideal) (iblk10 V c 0 t) (iblk10 V c 2 t) (iblk10 V c 4 t) (iblk10 V c 1 t) (iblk10 V c 3 t) (k10_pay2 (F := Ideal)), k10_pay1 (k10_pay6 (F := Ideal) (k10_pay3 (F := Ideal))) (k10_pay7 (F := Ideal) (iblk10 V c 0 t) (iblk10 V c 2 t) (iblk10 V c 4 t) (iblk10 V c 1 t) (iblk10 V c 3 t))) :=
  (outsAt10_A V c t h0).trans (congrArg₂ Prod.mk (out10_A_5_eq (F := Ideal) c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) ((hcond10_0 t).mpr h0) (iblk10 V c 0 t) (iblk10 V c 1 t) (iblk10 V c 2 t) (iblk10 V c 3 t) (iblk10 V c 4 t))
    (congrArg₂ Prod.mk (out10_A_6_eq (F := Ideal) c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) ((hcond10_0 t).mpr h0) (iblk10 V c 0 t) (iblk10 V c 1 t) (iblk10 V c 2 t) (iblk10 V c 3 t) (iblk10 V c 4 t))
      (out10_A_7_eq (F := Ideal) c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) ((hcond10_0 t).mpr h0) (iblk10 V c 0 t) (iblk10 V c 1 t) (iblk10 V c 2 t) (iblk10 V c 3 t) (iblk10 V c 4 t))))

/-- and after any later step, over what the step before left in the running rows. -/
theorem outs10_B (t : Fin cfg10.N) (h0 : ¬t.val % 10 = 0) :
    outsAt10 V c t.val t.isLt
      = (k10_pay4 (F := Ideal) (iblk10 V c 0 t) (iblk10 V c 2 t) (iblk10 V c 4 t) (iblk10 V c 1 t) (iblk10 V c 3 t), k10_pay5 (F := Ideal) (iblk10 V c 0 t) (iblk10 V c 2 t) (iblk10 V c 4 t) (iblk10 V c 1 t) (iblk10 V c 3 t) (outsAt10 V c (t.val - 1) (Nat.lt_of_le_of_lt (Nat.sub_le _ _) t.isLt)).2.1, k10_pay1 (k10_pay6 (F := Ideal) (outsAt10 V c (t.val - 1) (Nat.lt_of_le_of_lt (Nat.sub_le _ _) t.isLt)).2.2) (k10_pay7 (F := Ideal) (iblk10 V c 0 t) (iblk10 V c 2 t) (iblk10 V c 4 t) (iblk10 V c 1 t) (iblk10 V c 3 t))) :=
  (outsAt10_B V c t h0).trans (congrArg₂ Prod.mk (out10_B_5_eq (F := Ideal) c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) (fun h => h0 ((hcond10_0 t).mp h)) (iblk10 V c 0 t) (iblk10 V c 1 t) (iblk10 V c 2 t) (iblk10 V c 3 t) (iblk10 V c 4 t) (outsAt10 V c (t.val - 1) (Nat.lt_of_le_of_lt (Nat.sub_le _ _) t.isLt)).2.1 (outsAt10 V c (t.val - 1) (Nat.lt_of_le_of_lt (Nat.sub_le _ _) t.isLt)).2.2)
    (congrArg₂ Prod.mk (out10_B_6_eq (F := Ideal) c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) (fun h => h0 ((hcond10_0 t).mp h)) (iblk10 V c 0 t) (iblk10 V c 1 t) (iblk10 V c 2 t) (iblk10 V c 3 t) (iblk10 V c 4 t) (outsAt10 V c (t.val - 1) (Nat.lt_of_le_of_lt (Nat.sub_le _ _) t.isLt)).2.1 (outsAt10 V c (t.val - 1) (Nat.lt_of_le_of_lt (Nat.sub_le _ _) t.isLt)).2.2)
      (out10_B_7_eq (F := Ideal) c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) (fun h => h0 ((hcond10_0 t).mp h)) (iblk10 V c 0 t) (iblk10 V c 1 t) (iblk10 V c 2 t) (iblk10 V c 3 t) (iblk10 V c 4 t) (outsAt10 V c (t.val - 1) (Nat.lt_of_le_of_lt (Nat.sub_le _ _) t.isLt)).2.1 (outsAt10 V c (t.val - 1) (Nat.lt_of_le_of_lt (Nat.sub_le _ _) t.isLt)).2.2)))

/-- The column sums of step t's block of pre-activations are block sum t of the whole arrays' column, -/
theorem colblk10 (t : Fin cfg10.N) (q : Fin 64) :
    ∑ r : Fin 5000, (k10_pay4 (F := Ideal) (iblk10 V c 0 t) (iblk10 V c 2 t) (iblk10 V c 4 t) (iblk10 V c 1 t) (iblk10 V c 3 t)) (ix2 r q) = blockSum 10 5000 (fun p : Fin 50000 => hpre10 V c (ix2 p q)) t.val := by
  have ht : t.val < 10 := lt_of_lt_of_eq t.isLt (show cfg10.N = 10 from N_10)
  rw [blockSum_of_lt 10 5000 _ ht]
  exact Finset.sum_congr rfl fun r _ =>
    hblk10 V c t (ix2 r q) (show t.val * 5000 + r.val < 50000 by have := r.isLt; omega)

/-- and likewise the column sums of its squares. -/
theorem colblksq10 (t : Fin cfg10.N) (q : Fin 64) :
    ∑ r : Fin 5000, (k10_pay4 (F := Ideal) (iblk10 V c 0 t) (iblk10 V c 2 t) (iblk10 V c 4 t) (iblk10 V c 1 t) (iblk10 V c 3 t)) (ix2 r q) * (k10_pay4 (F := Ideal) (iblk10 V c 0 t) (iblk10 V c 2 t) (iblk10 V c 4 t) (iblk10 V c 1 t) (iblk10 V c 3 t)) (ix2 r q)
      = blockSum 10 5000 (fun p : Fin 50000 => hpre10 V c (ix2 p q) * hpre10 V c (ix2 p q)) t.val := by
  have ht : t.val < 10 := lt_of_lt_of_eq t.isLt (show cfg10.N = 10 from N_10)
  rw [blockSum_of_lt 10 5000 _ ht]
  exact Finset.sum_congr rfl fun r _ =>
    congrArg₂ (· * ·) (hblk10 V c t (ix2 r q) (show t.val * 5000 + r.val < 50000 by have := r.isLt; omega))
      (hblk10 V c t (ix2 r q) (show t.val * 5000 + r.val < 50000 by have := r.isLt; omega))

/-- THE RUNNING ROWS: after step n they hold the sums, and the sums of squares, over the rows of blocks 0 … n. -/
theorem rows10 : ∀ (n : ℕ) (h : n < cfg10.N) (q : Fin 64),
    (outsAt10 V c n h).2.1 (ix2 0 q) = ∑ s ∈ Finset.range (n + 1), blockSum 10 5000 (fun p : Fin 50000 => hpre10 V c (ix2 p q)) s
    ∧ (outsAt10 V c n h).2.2 (ix2 0 q)
        = ∑ s ∈ Finset.range (n + 1), blockSum 10 5000 (fun p : Fin 50000 => hpre10 V c (ix2 p q) * hpre10 V c (ix2 p q)) s
  | 0, h, q => by
    have e : outsAt10 V c 0 h = _ := outs10_A V c ⟨0, h⟩ rfl
    rw [e]
    exact ⟨((pay10_sum (iblk10 V c 0 ⟨0, h⟩) (iblk10 V c 1 ⟨0, h⟩) (iblk10 V c 2 ⟨0, h⟩) (iblk10 V c 3 ⟨0, h⟩) (iblk10 V c 4 ⟨0, h⟩) (k10_pay2 (F := Ideal)) q).trans
        ((congrArg₂ (· + ·) (pay10_zero6 (ix2 0 q)) (colblk10 V c ⟨0, h⟩ q)).trans (zero_add _))).trans
          (Finset.sum_range_one _).symm,
      ((pay10_sumsq (iblk10 V c 0 ⟨0, h⟩) (iblk10 V c 1 ⟨0, h⟩) (iblk10 V c 2 ⟨0, h⟩) (iblk10 V c 3 ⟨0, h⟩) (iblk10 V c 4 ⟨0, h⟩) (k10_pay3 (F := Ideal)) q).trans
        ((congrArg₂ (· + ·) (pay10_zero7 (ix2 0 q)) (colblksq10 V c ⟨0, h⟩ q)).trans (zero_add _))).trans
          (Finset.sum_range_one _).symm⟩
  | n + 1, h, q => by
    have hN : cfg10.N = 10 := N_10
    have hB : ¬(⟨n + 1, h⟩ : Fin cfg10.N).val % 10 = 0 := by dsimp only; omega
    have e : outsAt10 V c (n + 1) h = _ := outs10_B V c ⟨n + 1, h⟩ hB
    obtain ⟨ih6, ih7⟩ := rows10 n (Nat.lt_of_succ_lt h) q
    rw [e]
    exact ⟨((pay10_sum (iblk10 V c 0 ⟨n + 1, h⟩) (iblk10 V c 1 ⟨n + 1, h⟩) (iblk10 V c 2 ⟨n + 1, h⟩) (iblk10 V c 3 ⟨n + 1, h⟩) (iblk10 V c 4 ⟨n + 1, h⟩) (outsAt10 V c n (Nat.lt_of_succ_lt h)).2.1 q).trans
        (congrArg₂ (· + ·) ih6 (colblk10 V c ⟨n + 1, h⟩ q))).trans (Finset.sum_range_succ _ (n + 1)).symm,
      ((pay10_sumsq (iblk10 V c 0 ⟨n + 1, h⟩) (iblk10 V c 1 ⟨n + 1, h⟩) (iblk10 V c 2 ⟨n + 1, h⟩) (iblk10 V c 3 ⟨n + 1, h⟩) (iblk10 V c 4 ⟨n + 1, h⟩) (outsAt10 V c n (Nat.lt_of_succ_lt h)).2.2 q).trans
        (congrArg₂ (· + ·) ih7 (colblksq10 V c ⟨n + 1, h⟩ q))).trans (Finset.sum_range_succ _ (n + 1)).symm⟩

/-- The block of pre-activations after every step, whichever case the step is. -/
theorem first10 (t : Fin cfg10.N) : (outsAt10 V c t.val t.isLt).1 = k10_pay4 (F := Ideal) (iblk10 V c 0 t) (iblk10 V c 2 t) (iblk10 V c 4 t) (iblk10 V c 1 t) (iblk10 V c 3 t) := by
  by_cases h0 : t.val % 10 = 0
  · exact congrArg Prod.fst (outs10_A V c t h0)
  · exact congrArg Prod.fst (outs10_B V c t h0)

/-! ### The pre-activations array: every step writes its block back -/

/-- An index of the array is in step t's block iff each coordinate is in the block's range. -/
theorem mem_blk10_5 (t : Fin cfg10.N) (i : S50000x64.Idx) :
    i ∈ ((cfg10.win 5).blk t).view.set ↔ ∀ a : Fin 2, win10_5.index t a * S5000x64.size a ≤ (i a).val ∧ (i a).val < win10_5.index t a * S5000x64.size a + S5000x64.size a := by
  show i ∈ ((View.whole main_v174_0).slice (win10_5.rect t)).set ↔ _
  rw [View.set_slice_whole, Rect.mem_set_unit]
  exact Iff.rfl

/-- What step t writes back is block t of the whole arrays' pre-activations. -/
theorem flushed10_5 (t : Fin cfg10.N) :
    (dat10 V c).flushed 5 t = ((cfg10.win 5).blk t).view.read (Elt Ideal) (hpre10 V c) := by
  show (cfg10.win 5).cut (grid10.coords t) ((dat10 V c).after 5 t) = _
  rw [after10_5, first10 V c t]
  have ht : t.val < 10 := lt_of_lt_of_eq t.isLt (show cfg10.N = 10 from N_10)
  have e0 := (idx10 t).2.2.2.2.1
  have e1 := (idx10 t).2.2.2.2.2
  funext y
  have hy0 : (y 0).val < 5000 := (y 0).isLt
  have hy1 : (y 1).val < 64 := (y 1).isLt
  have hr : t.val * 5000 + (y 0).val < 50000 := by omega
  show (k10_pay4 (F := Ideal) (iblk10 V c 0 t) (iblk10 V c 2 t) (iblk10 V c 4 t) (iblk10 V c 1 t) (iblk10 V c 3 t)) ((cfg10.win 5).xinj (grid10.coords t) y) = hpre10 V c (((cfg10.win 5).blk t).view.emb y)
  refine (hblk10 V c t ((cfg10.win 5).xinj (grid10.coords t) y) hr).trans (congrArg (hpre10 V c) (funext fun a => Fin.ext ?_))
  match a with
  | ⟨0, _⟩ => show t.val * 5000 + (y 0).val = win10_5.index t (0 : Fin 2) * 5000 + 1 * (y 0).val; rw [e0]; omega
  | ⟨1, _⟩ => show (y 1).val = win10_5.index t (1 : Fin 2) * 64 + 1 * (y 1).val; rw [e1]; omega

/-- Row r of the array is in block r / 5000. -/
theorem cover10_5 (i : S50000x64.Idx) :
    ∃ t : Fin cfg10.N, (cfg10.win 5).flush t = true ∧ i ∈ ((cfg10.win 5).blk t).view.set := by
  have hi0 : (i 0).val < 50000 := (i 0).isLt
  have hi1 : (i 1).val < 64 := (i 1).isLt
  have hN : cfg10.N = 10 := N_10
  have hq : (i 0).val / 5000 < cfg10.N := by omega
  have e0 : win10_5.index ⟨(i 0).val / 5000, hq⟩ (0 : Fin 2) = (i 0).val / 5000 := (idx10 ⟨(i 0).val / 5000, hq⟩).2.2.2.2.1
  have e1 := (idx10 ⟨(i 0).val / 5000, hq⟩).2.2.2.2.2
  refine ⟨⟨(i 0).val / 5000, hq⟩, flush10_5 _, ?_⟩
  rw [mem_blk10_5]
  intro a
  match a with
  | ⟨0, _⟩ => show win10_5.index ⟨(i 0).val / 5000, hq⟩ (0 : Fin 2) * 5000 ≤ (i 0).val ∧ (i 0).val < win10_5.index ⟨(i 0).val / 5000, hq⟩ (0 : Fin 2) * 5000 + 5000; rw [e0]; omega
  | ⟨1, _⟩ => show win10_5.index ⟨(i 0).val / 5000, hq⟩ (1 : Fin 2) * 64 ≤ (i 1).val ∧ (i 1).val < win10_5.index ⟨(i 0).val / 5000, hq⟩ (1 : Fin 2) * 64 + 64; rw [e1]; omega

/-! ### The two rows: written back once, after the last step -/

/-- The last step. -/
abbrev last10 : Fin cfg10.N := ⟨9, by rw [show cfg10.N = 10 from N_10]; decide⟩

theorem mem_blk10_6 (t : Fin cfg10.N) (i : S1x64.Idx) :
    i ∈ ((cfg10.win 6).blk t).view.set ↔ ∀ a : Fin 2, win10_6.index t a * S1x64.size a ≤ (i a).val ∧ (i a).val < win10_6.index t a * S1x64.size a + S1x64.size a := by
  show i ∈ ((View.whole main_v174_1).slice (win10_6.rect t)).set ↔ _
  rw [View.set_slice_whole, Rect.mem_set_unit]
  exact Iff.rfl

/-- After the last step this running row is the full column sums: ten block sums make the sum over all rows. -/
theorem row10_6 (hl : 9 < cfg10.N) :
    ((outsAt10 V c 9 hl).2.1 : Mat 1 64) = colSum (hpre10 V c) := by
  funext j
  obtain ⟨u, q, rfl⟩ : ∃ (u : Fin 1) (q : Fin 64), j = ix2 u q := ⟨j 0, j 1, eq_ix2 j⟩
  obtain rfl : u = 0 := Subsingleton.elim _ _
  exact ((rows10 V c 9 hl q).1.trans
    (sum_range_blockSum 10 5000 (fun p : Fin 50000 => hpre10 V c (ix2 p q)))).trans
      (Cert.Layer.colSum_apply (hpre10 V c) q).symm

/-- The one write-back of this row, after step 9, writes the full column sums (its block is the whole row). -/
theorem flushed10_6 (t : Fin cfg10.N) (hf : (cfg10.win 6).flush t = true) :
    (dat10 V c).flushed 6 t = ((cfg10.win 6).blk t).view.read (Elt Ideal) (colSum (hpre10 V c)) := by
  have hN : cfg10.N = 10 := N_10
  have h9 : t.val = 9 := by have := (flush10_6 t).mp hf; have := t.isLt; omega
  have hl : 9 < cfg10.N := by omega
  have eo : ∀ (n : ℕ) (hn : n < cfg10.N), n = 9 → outsAt10 V c n hn = outsAt10 V c 9 hl :=
    fun n hn e => by subst e; rfl
  show (cfg10.win 6).cut (grid10.coords t) ((dat10 V c).after 6 t) = _
  rw [after10_6, eo t.val t.isLt h9, row10_6 V c hl]
  have e0 := (whole10 t).2.2.2.2.2.2.1
  have e1 := (whole10 t).2.2.2.2.2.2.2.1
  have hz' : (fun a => win10_6.index t a * main_v174_1.ty.shape.size a) = fun _ => 0 := funext fun a => by
    fin_cases a
    · show win10_6.index t (0 : Fin 2) * 1 = 0; rw [e0]
    · show win10_6.index t (1 : Fin 2) * 64 = 0; rw [e1]
  generalize colSum (hpre10 V c) = G
  exact (Memref.read_access_unit_zero (Elt Ideal) main_v174_1 hz' (fun a => by rw [congrFun hz' a]; simp) G).symm

/-- The last step's block is the whole row. -/
theorem cover10_6 (i : S1x64.Idx) :
    ∃ t : Fin cfg10.N, (cfg10.win 6).flush t = true ∧ i ∈ ((cfg10.win 6).blk t).view.set := by
  have hi0 : (i 0).val < 1 := (i 0).isLt
  have hi1 : (i 1).val < 64 := (i 1).isLt
  have e0 := (whole10 last10).2.2.2.2.2.2.1
  have e1 := (whole10 last10).2.2.2.2.2.2.2.1
  refine ⟨last10, (flush10_6 last10).mpr rfl, ?_⟩
  rw [mem_blk10_6]
  intro a
  match a with
  | ⟨0, _⟩ => show win10_6.index last10 (0 : Fin 2) * 1 ≤ (i 0).val ∧ (i 0).val < win10_6.index last10 (0 : Fin 2) * 1 + 1; rw [e0]; omega
  | ⟨1, _⟩ => show win10_6.index last10 (1 : Fin 2) * 64 ≤ (i 1).val ∧ (i 1).val < win10_6.index last10 (1 : Fin 2) * 64 + 64; rw [e1]; omega

theorem mem_blk10_7 (t : Fin cfg10.N) (i : S1x64.Idx) :
    i ∈ ((cfg10.win 7).blk t).view.set ↔ ∀ a : Fin 2, win10_7.index t a * S1x64.size a ≤ (i a).val ∧ (i a).val < win10_7.index t a * S1x64.size a + S1x64.size a := by
  show i ∈ ((View.whole main_v174_2).slice (win10_7.rect t)).set ↔ _
  rw [View.set_slice_whole, Rect.mem_set_unit]
  exact Iff.rfl

/-- After the last step this running row is the full column sums: ten block sums make the sum over all rows. -/
theorem row10_7 (hl : 9 < cfg10.N) :
    ((outsAt10 V c 9 hl).2.2 : Mat 1 64) = colSumSq (hpre10 V c) := by
  funext j
  obtain ⟨u, q, rfl⟩ : ∃ (u : Fin 1) (q : Fin 64), j = ix2 u q := ⟨j 0, j 1, eq_ix2 j⟩
  obtain rfl : u = 0 := Subsingleton.elim _ _
  exact ((rows10 V c 9 hl q).2.trans
    (sum_range_blockSum 10 5000 (fun p : Fin 50000 => hpre10 V c (ix2 p q) * hpre10 V c (ix2 p q)))).trans
      (Cert.Layer.colSumSq_apply (hpre10 V c) q).symm

/-- The one write-back of this row, after step 9, writes the full column sums (its block is the whole row). -/
theorem flushed10_7 (t : Fin cfg10.N) (hf : (cfg10.win 7).flush t = true) :
    (dat10 V c).flushed 7 t = ((cfg10.win 7).blk t).view.read (Elt Ideal) (colSumSq (hpre10 V c)) := by
  have hN : cfg10.N = 10 := N_10
  have h9 : t.val = 9 := by have := (flush10_7 t).mp hf; have := t.isLt; omega
  have hl : 9 < cfg10.N := by omega
  have eo : ∀ (n : ℕ) (hn : n < cfg10.N), n = 9 → outsAt10 V c n hn = outsAt10 V c 9 hl :=
    fun n hn e => by subst e; rfl
  show (cfg10.win 7).cut (grid10.coords t) ((dat10 V c).after 7 t) = _
  rw [after10_7, eo t.val t.isLt h9, row10_7 V c hl]
  have e0 := (whole10 t).2.2.2.2.2.2.2.2.1
  have e1 := (whole10 t).2.2.2.2.2.2.2.2.2
  have hz' : (fun a => win10_7.index t a * main_v174_2.ty.shape.size a) = fun _ => 0 := funext fun a => by
    fin_cases a
    · show win10_7.index t (0 : Fin 2) * 1 = 0; rw [e0]
    · show win10_7.index t (1 : Fin 2) * 64 = 0; rw [e1]
  generalize colSumSq (hpre10 V c) = G
  exact (Memref.read_access_unit_zero (Elt Ideal) main_v174_2 hz' (fun a => by rw [congrFun hz' a]; simp) G).symm

/-- The last step's block is the whole row. -/
theorem cover10_7 (i : S1x64.Idx) :
    ∃ t : Fin cfg10.N, (cfg10.win 7).flush t = true ∧ i ∈ ((cfg10.win 7).blk t).view.set := by
  have hi0 : (i 0).val < 1 := (i 0).isLt
  have hi1 : (i 1).val < 64 := (i 1).isLt
  have e0 := (whole10 last10).2.2.2.2.2.2.2.2.1
  have e1 := (whole10 last10).2.2.2.2.2.2.2.2.2
  refine ⟨last10, (flush10_7 last10).mpr rfl, ?_⟩
  rw [mem_blk10_7]
  intro a
  match a with
  | ⟨0, _⟩ => show win10_7.index last10 (0 : Fin 2) * 1 ≤ (i 0).val ∧ (i 0).val < win10_7.index last10 (0 : Fin 2) * 1 + 1; rw [e0]; omega
  | ⟨1, _⟩ => show win10_7.index last10 (1 : Fin 2) * 64 ≤ (i 1).val ∧ (i 1).val < win10_7.index last10 (1 : Fin 2) * 64 + 64; rw [e1]; omega

end Region10

/-- The pre-activations array after the stage: the dense step of the arrays the stage found. -/
theorem final10_5 (V : (c : Dev nD) → (b : Ref sig .tc) → Buf (Elt Ideal) ((c : Thread nD τ).loc b)) (c : Dev nD) :
    (Gen.dat10 (F := Ideal) V c).arrAt 5 cfg10.N
      = Cert.Layer.lin (V c (Pipeline.arrRef spec10 0)) (V c (Pipeline.arrRef spec10 1)) (V c (Pipeline.arrRef spec10 2)) (V c (Pipeline.arrRef spec10 3)) (V c (Pipeline.arrRef spec10 4)) :=
  (dat10 V c).arrAt_eq_of_cover 5 (hpre10 V c) (fun t _ => flushed10_5 V c t) cover10_5

/-- The row of sums after the stage: the column sums of that dense step. -/
theorem final10_6 (V : (c : Dev nD) → (b : Ref sig .tc) → Buf (Elt Ideal) ((c : Thread nD τ).loc b)) (c : Dev nD) :
    (Gen.dat10 (F := Ideal) V c).arrAt 6 cfg10.N
      = Cert.Layer.colSum (Cert.Layer.lin (V c (Pipeline.arrRef spec10 0)) (V c (Pipeline.arrRef spec10 1)) (V c (Pipeline.arrRef spec10 2)) (V c (Pipeline.arrRef spec10 3)) (V c (Pipeline.arrRef spec10 4))) :=
  (dat10 V c).arrAt_eq_of_cover 6 (colSum (hpre10 V c)) (flushed10_6 V c) cover10_6

/-- The row of sums of squares after the stage: the column sums of squares of that dense step. -/
theorem final10_7 (V : (c : Dev nD) → (b : Ref sig .tc) → Buf (Elt Ideal) ((c : Thread nD τ).loc b)) (c : Dev nD) :
    (Gen.dat10 (F := Ideal) V c).arrAt 7 cfg10.N
      = Cert.Layer.colSumSq (Cert.Layer.lin (V c (Pipeline.arrRef spec10 0)) (V c (Pipeline.arrRef spec10 1)) (V c (Pipeline.arrRef spec10 2)) (V c (Pipeline.arrRef spec10 3)) (V c (Pipeline.arrRef spec10 4))) :=
  (dat10 V c).arrAt_eq_of_cover 7 (colSumSq (hpre10 V c)) (flushed10_7 V c) cover10_7

end Cert.KernelIdeal.RegionValue

end
-- ==== Proof.RegionA11.lean ====
/-
  The normalising step of one layer, read off the pipeline's write-backs.

  The pipeline walks ten row blocks of 5000 rows.  At block t the body holds rows 5000·t … 5000·t + 4999 of the
  pre-activation array and the four per-column rows (mean, variance, gain, offset), and stores, at row p and column q of
  the block, tanh(((h − mean q)·rsqrt(var q + eps))·gain q + offset q) with h the pre-activation at row 5000·t + p.  That
  is block t of ONE function of the whole arrays, the blocks tile the 50000 rows, and every block is written back: so the
  output array ends holding that function.
-/
import proofs.«147565_j9259949490665_1_alg».proof.Proof.Gen.KernelIdeal.Frame
import proofs.«147565_j9259949490665_1_alg».proof.Proof.Spec
import Idealize.ShloMosaic.Lib.Pipeline.Value
import Idealize.ShloMosaic.Lib.ValueLayout

set_option maxRecDepth 16384

noncomputable section

namespace Cert.KernelIdeal.RegionValue

open Idealize.ShloMosaic Idealize.ShloMosaic.TcCoe Idealize.ShloMosaic.ValueIdx
open Idealize.ShloMosaic.Pipeline (Dat)

/-- The zero offsets of an access to a whole buffer. -/
theorem zero_off11 : (![0, 0] : Fin 2 → Nat) = fun _ => 0 := funext fun a => by fin_cases a <;> rfl

/-- Two functions of a 5000×64 block agree when they agree at every row and column. -/
theorem ext_block11 {α : Type} (f g : S5000x64.Idx → α) (h : ∀ (p : Fin 5000) (q : Fin 64), f (ix2 p q) = g (ix2 p q)) :
    f = g := funext fun j => by rw [eq_ix2 j]; exact h _ _

/-- The body's arithmetic at row p, column q of its block: the four rows are read at column q, the constant is the
    same binary word as the specification's. -/
theorem pay11_apply (x0 : Vec Ideal S5000x64 .f32) (x1 x2 x3 x4 : Vec Ideal S1x64 .f32) (p : Fin 5000) (q : Fin 64) :
    Gen.k11_pay1 (F := Ideal) x2 x0 x1 x3 x4 (ix2 p q)
      = Ideal.tanh ((((x0 (ix2 p q) - x1 (ix2 0 q)) * Ideal.rsqrt (x2 (ix2 0 q) + Cert.Layer.eps)) * x3 (ix2 0 q))
          + x4 (ix2 0 q)) := by
  unfold Gen.k11_pay1
  simp only [shapeCast_self]
  show Ideal.tanh ((((x0 (ix2 p q) - broadcastTo S5000x64 x1 _ (ix2 p q))
      * broadcastTo S5000x64 (rsqrt (F := Ideal) (addf (F := Ideal) x2 (broadcast S1x64 (Scalar.ofBits (F := Ideal) .f32 0x3727C5AC#32)))) _ (ix2 p q))
      * broadcastTo S5000x64 x3 _ (ix2 p q)) + broadcastTo S5000x64 x4 _ (ix2 p q)) = _
  simp only [broadcastTo_1b_ab_apply]
  rfl

/-- What the body leaves in the output block: its one store covers the block, and its loads read whole blocks, so the
    block holds the body's arithmetic of the five input blocks. -/
theorem out11_eq (x0 : Vec Ideal S5000x64 .f32) (x1 x2 x3 x4 : Vec Ideal S1x64 .f32) :
    Gen.out11_5 (F := Ideal) x0 x1 x2 x3 x4 = Gen.k11_pay1 x2 x0 x1 x3 x4 := by
  unfold Gen.out11_5
  rw [View.canon_unit_zero zero_off11]
  simp only [View.ld_unit_zero (S := S5000x64) zero_off11, View.ld_unit_zero (S := S1x64) zero_off11]

/-- When row p of the first block is row r of a whole array and the four rows are those of whole arrays, entry (p, q) of
    the output block is entry (r, q) of the normalising step of the whole arrays. -/
theorem block_val11 (x0 : Vec Ideal S5000x64 .f32) (x1 x2 x3 x4 : Vec Ideal S1x64 .f32)
    (A0 : Cert.Layer.Mat 50000 64) (A1 A2 A3 A4 : Cert.Layer.Mat 1 64) (p : Fin 5000) (q : Fin 64) (r : Fin 50000)
    (h0 : x0 (ix2 p q) = A0 (ix2 r q)) (h1 : x1 (ix2 0 q) = A1 (ix2 0 q)) (h2 : x2 (ix2 0 q) = A2 (ix2 0 q))
    (h3 : x3 (ix2 0 q) = A3 (ix2 0 q)) (h4 : x4 (ix2 0 q) = A4 (ix2 0 q)) :
    Gen.out11_5 (F := Ideal) x0 x1 x2 x3 x4 (ix2 p q) = Cert.Layer.bn A0 A1 A2 A3 A4 (ix2 r q) := by
  rw [out11_eq, pay11_apply, Cert.Layer.bn_apply, h0, h1, h2, h3, h4]

/-- The block index of every window at every point of the grid: the two row-blocked windows sit at block (t, 0), the
    four rows at block (0, 0). -/
theorem idx_facts11 : ∀ t : Fin cfg11.N,
    win11_0.index t (0 : Fin 2) = t.val ∧ win11_0.index t (1 : Fin 2) = 0
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) = 0 ∧ win11_3.index t (1 : Fin 2) = 0
    ∧ win11_4.index t (0 : Fin 2) = 0 ∧ win11_4.index t (1 : Fin 2) = 0
    ∧ win11_5.index t (0 : Fin 2) = t.val ∧ win11_5.index t (1 : Fin 2) = 0 :=
  (by decide +kernel : ∀ t : Fin grid11.N, _)

/-- The grid has ten points. -/
theorem point_lt11 (t : Fin cfg11.N) : t.val < 10 := lt_of_lt_of_eq t.isLt Gen.N_11

/-- Row p, column q of the pre-activation block at point t sits at row 5000·t + p of the pre-activation array. -/
theorem emb11_0 (t : Fin cfg11.N) (p : Fin 5000) (q : Fin 64) (r : Fin 50000) (hr : r.val = t.val * 5000 + p.val) :
    (((cfg11.win 0).blk t).view.emb (ix2 p q : S5000x64.Idx) : S50000x64.Idx) = ix2 r q := by
  obtain ⟨e0, e1, -⟩ := idx_facts11 t
  refine funext fun a => Fin.ext ?_
  match a with
  | ⟨0, _⟩ => show win11_0.index t (0 : Fin 2) * 5000 + 1 * p.val = r.val; rw [e0, hr]; omega
  | ⟨1, _⟩ => show win11_0.index t (1 : Fin 2) * 64 + 1 * q.val = q.val; rw [e1]; omega

/-- Column q of per-column row 1's block at any point sits at column q of the row. -/
theorem emb11_1 (t : Fin cfg11.N) (q : Fin 64) :
    (((cfg11.win 1).blk t).view.emb (ix2 0 q : S1x64.Idx) : S1x64.Idx) = ix2 0 q := by
  obtain ⟨-, -, e0, e1, -⟩ := idx_facts11 t
  refine funext fun a => Fin.ext ?_
  match a with
  | ⟨0, _⟩ => show win11_1.index t (0 : Fin 2) * 1 + 1 * 0 = 0; rw [e0]
  | ⟨1, _⟩ => show win11_1.index t (1 : Fin 2) * 64 + 1 * q.val = q.val; rw [e1]; omega

/-- Column q of per-column row 2's block at any point sits at column q of the row. -/
theorem emb11_2 (t : Fin cfg11.N) (q : Fin 64) :
    (((cfg11.win 2).blk t).view.emb (ix2 0 q : S1x64.Idx) : S1x64.Idx) = ix2 0 q := by
  obtain ⟨-, -, -, -, e0, e1, -⟩ := idx_facts11 t
  refine funext fun a => Fin.ext ?_
  match a with
  | ⟨0, _⟩ => show win11_2.index t (0 : Fin 2) * 1 + 1 * 0 = 0; rw [e0]
  | ⟨1, _⟩ => show win11_2.index t (1 : Fin 2) * 64 + 1 * q.val = q.val; rw [e1]; omega

/-- Column q of per-column row 3's block at any point sits at column q of the row. -/
theorem emb11_3 (t : Fin cfg11.N) (q : Fin 64) :
    (((cfg11.win 3).blk t).view.emb (ix2 0 q : S1x64.Idx) : S1x64.Idx) = ix2 0 q := by
  obtain ⟨-, -, -, -, -, -, e0, e1, -⟩ := idx_facts11 t
  refine funext fun a => Fin.ext ?_
  match a with
  | ⟨0, _⟩ => show win11_3.index t (0 : Fin 2) * 1 + 1 * 0 = 0; rw [e0]
  | ⟨1, _⟩ => show win11_3.index t (1 : Fin 2) * 64 + 1 * q.val = q.val; rw [e1]; omega

/-- Column q of per-column row 4's block at any point sits at column q of the row. -/
theorem emb11_4 (t : Fin cfg11.N) (q : Fin 64) :
    (((cfg11.win 4).blk t).view.emb (ix2 0 q : S1x64.Idx) : S1x64.Idx) = ix2 0 q := by
  obtain ⟨-, -, -, -, -, -, -, -, e0, e1, -⟩ := idx_facts11 t
  refine funext fun a => Fin.ext ?_
  match a with
  | ⟨0, _⟩ => show win11_4.index t (0 : Fin 2) * 1 + 1 * 0 = 0; rw [e0]
  | ⟨1, _⟩ => show win11_4.index t (1 : Fin 2) * 64 + 1 * q.val = q.val; rw [e1]; omega

/-- Row p, column q of the output block at point t sits at row 5000·t + p of the output array. -/
theorem emb11_5 (t : Fin cfg11.N) (p : Fin 5000) (q : Fin 64) (r : Fin 50000) (hr : r.val = t.val * 5000 + p.val) :
    (((cfg11.win 5).blk t).view.emb (ix2 p q : S5000x64.Idx) : S50000x64.Idx) = ix2 r q := by
  obtain ⟨-, -, -, -, -, -, -, -, -, -, e0, e1⟩ := idx_facts11 t
  refine funext fun a => Fin.ext ?_
  match a with
  | ⟨0, _⟩ => show win11_5.index t (0 : Fin 2) * 5000 + 1 * p.val = r.val; rw [e0, hr]; omega
  | ⟨1, _⟩ => show win11_5.index t (1 : Fin 2) * 64 + 1 * q.val = q.val; rw [e1]; omega

section
variable (V : (c : Dev nD) → (b : Ref sig .tc) → Buf (Elt Ideal) ((c : Thread nD τ).loc b))

set_option maxHeartbeats 1000000 in
/-- Row p, column q of the pre-activation block at point t is row 5000·t + p of the pre-activation array. -/
theorem blk11_0_apply (c : Dev nD) (t : Fin cfg11.N) (p : Fin 5000) (q : Fin 64) (r : Fin 50000)
    (hr : r.val = t.val * 5000 + p.val) :
    (Gen.iblk11 (F := Ideal) V c 0 t : S5000x64.Idx → EReal) (ix2 p q)
      = (V c (Pipeline.arrRef spec11 0) : S50000x64.Idx → EReal) (ix2 r q) :=
  congrArg (V c (Pipeline.arrRef spec11 0) : S50000x64.Idx → EReal) (emb11_0 t p q r hr)

set_option maxHeartbeats 1000000 in
/-- The block of per-column row 1 at any point is the row itself. -/
theorem blk11_1_apply (c : Dev nD) (t : Fin cfg11.N) (q : Fin 64) :
    (Gen.iblk11 (F := Ideal) V c 1 t : S1x64.Idx → EReal) (ix2 0 q)
      = (V c (Pipeline.arrRef spec11 1) : S1x64.Idx → EReal) (ix2 0 q) :=
  congrArg (V c (Pipeline.arrRef spec11 1) : S1x64.Idx → EReal) (emb11_1 t q)

set_option maxHeartbeats 1000000 in
/-- The block of per-column row 2 at any point is the row itself. -/
theorem blk11_2_apply (c : Dev nD) (t : Fin cfg11.N) (q : Fin 64) :
    (Gen.iblk11 (F := Ideal) V c 2 t : S1x64.Idx → EReal) (ix2 0 q)
      = (V c (Pipeline.arrRef spec11 2) : S1x64.Idx → EReal) (ix2 0 q) :=
  congrArg (V c (Pipeline.arrRef spec11 2) : S1x64.Idx → EReal) (emb11_2 t q)

set_option maxHeartbeats 1000000 in
/-- The block of per-column row 3 at any point is the row itself. -/
theorem blk11_3_apply (c : Dev nD) (t : Fin cfg11.N) (q : Fin 64) :
    (Gen.iblk11 (F := Ideal) V c 3 t : S1x64.Idx → EReal) (ix2 0 q)
      = (V c (Pipeline.arrRef spec11 3) : S1x64.Idx → EReal) (ix2 0 q) :=
  congrArg (V c (Pipeline.arrRef spec11 3) : S1x64.Idx → EReal) (emb11_3 t q)

set_option maxHeartbeats 1000000 in
/-- The block of per-column row 4 at any point is the row itself. -/
theorem blk11_4_apply (c : Dev nD) (t : Fin cfg11.N) (q : Fin 64) :
    (Gen.iblk11 (F := Ideal) V c 4 t : S1x64.Idx → EReal) (ix2 0 q)
      = (V c (Pipeline.arrRef spec11 4) : S1x64.Idx → EReal) (ix2 0 q) :=
  congrArg (V c (Pipeline.arrRef spec11 4) : S1x64.Idx → EReal) (emb11_4 t q)

set_option maxHeartbeats 1000000 in
/-- What point t writes back is block t of the normalising step of the whole arrays. -/
theorem flushed11_5_eq (c : Dev nD) (t : Fin cfg11.N) :
    (Gen.dat11 (F := Ideal) V c).flushed 5 t
      = ((cfg11.win 5).blk t).view.read (Elt Ideal)
          (Cert.Layer.bn (V c (Pipeline.arrRef spec11 0)) (V c (Pipeline.arrRef spec11 1)) (V c (Pipeline.arrRef spec11 2))
            (V c (Pipeline.arrRef spec11 3)) (V c (Pipeline.arrRef spec11 4))) := by
  show (cfg11.win 5).cut (grid11.coords t) ((Gen.dat11 V c).after 5 t) = _
  rw [Gen.after11_5]
  refine ext_block11 _ _ fun p q => ?_
  have hp : p.val < 5000 := p.isLt
  have ht : t.val < 10 := point_lt11 t
  have hr : t.val * 5000 + p.val < 50000 := by omega
  exact (block_val11 (Gen.iblk11 V c 0 t) (Gen.iblk11 V c 1 t) (Gen.iblk11 V c 2 t) (Gen.iblk11 V c 3 t)
      (Gen.iblk11 V c 4 t) (V c (Pipeline.arrRef spec11 0)) (V c (Pipeline.arrRef spec11 1))
      (V c (Pipeline.arrRef spec11 2)) (V c (Pipeline.arrRef spec11 3)) (V c (Pipeline.arrRef spec11 4))
      p q ⟨t.val * 5000 + p.val, hr⟩ (blk11_0_apply V c t p q _ rfl) (blk11_1_apply V c t q) (blk11_2_apply V c t q)
      (blk11_3_apply V c t q) (blk11_4_apply V c t q)).trans
    (congrArg (Cert.Layer.bn (V c (Pipeline.arrRef spec11 0)) (V c (Pipeline.arrRef spec11 1))
      (V c (Pipeline.arrRef spec11 2)) (V c (Pipeline.arrRef spec11 3)) (V c (Pipeline.arrRef spec11 4)))
      (emb11_5 t p q ⟨t.val * 5000 + p.val, hr⟩ rfl).symm)

/-- An index of the output array lies in point t's block iff each coordinate lies in the block's range on its axis. -/
theorem mem_blk11_5 (t : Fin cfg11.N) (i : S50000x64.Idx) :
    i ∈ ((cfg11.win 5).blk t).view.set
      ↔ ∀ a : Fin 2, win11_5.index t a * S5000x64.size a ≤ (i a).val
          ∧ (i a).val < win11_5.index t a * S5000x64.size a + S5000x64.size a := by
  show i ∈ ((View.whole main_v183).slice (win11_5.rect t)).set ↔ _
  rw [View.set_slice_whole, Rect.mem_set_unit]
  exact Iff.rfl

/-- Every row of the output array lies in a block that is written back: row r in the block of point r / 5000. -/
theorem cover11_5 (i : S50000x64.Idx) :
    ∃ t : Fin cfg11.N, (cfg11.win 5).flush t = true ∧ i ∈ ((cfg11.win 5).blk t).view.set := by
  have hi0 : (i 0).val < 50000 := (i 0).isLt
  have hi1 : (i 1).val < 64 := (i 1).isLt
  have hN : (i 0).val / 5000 < cfg11.N := lt_of_lt_of_eq (by omega : (i 0).val / 5000 < 10) Gen.N_11.symm
  refine ⟨⟨(i 0).val / 5000, hN⟩, Gen.flush11_5 _, ?_⟩
  obtain ⟨-, -, -, -, -, -, -, -, -, -, e0, e1⟩ := idx_facts11 ⟨(i 0).val / 5000, hN⟩
  rw [mem_blk11_5]
  intro a
  match a with
  | ⟨0, _⟩ =>
    show win11_5.index ⟨(i 0).val / 5000, hN⟩ (0 : Fin 2) * 5000 ≤ (i 0).val
      ∧ (i 0).val < win11_5.index ⟨(i 0).val / 5000, hN⟩ (0 : Fin 2) * 5000 + 5000
    rw [e0]; show (i 0).val / 5000 * 5000 ≤ (i 0).val ∧ (i 0).val < (i 0).val / 5000 * 5000 + 5000; omega
  | ⟨1, _⟩ =>
    show win11_5.index ⟨(i 0).val / 5000, hN⟩ (1 : Fin 2) * 64 ≤ (i 1).val
      ∧ (i 1).val < win11_5.index ⟨(i 0).val / 5000, hN⟩ (1 : Fin 2) * 64 + 64
    rw [e1]; omega

set_option maxHeartbeats 1000000 in
/-- The output array after the region: the normalising step of the arrays the region found. -/
theorem final11_5 (c : Dev nD) :
    (Gen.dat11 (F := Ideal) V c).arrAt 5 cfg11.N
      = Cert.Layer.bn (V c (Pipeline.arrRef spec11 0)) (V c (Pipeline.arrRef spec11 1)) (V c (Pipeline.arrRef spec11 2))
          (V c (Pipeline.arrRef spec11 3)) (V c (Pipeline.arrRef spec11 4)) :=
  (Gen.dat11 V c).arrAt_eq_of_cover 5 _ (fun t _ => flushed11_5_eq V c t) cover11_5

end

end Cert.KernelIdeal.RegionValue

end
-- ==== Proof.KLayer5.lean ====
/-
  Layer 5 of the kernel program, from the buffer contents before its first host operation to its output array: the
  dense step and its two column-sum rows (launch 10), the mean and variance rows, and the normalising step (launch 11).
-/
import proofs.«147565_j9259949490665_1_alg».proof.Proof.KHostA5
import proofs.«147565_j9259949490665_1_alg».proof.Proof.KHostB5
import proofs.«147565_j9259949490665_1_alg».proof.Proof.RegionR10
import proofs.«147565_j9259949490665_1_alg».proof.Proof.RegionA11

set_option maxRecDepth 16384

noncomputable section

namespace Cert.KernelIdeal.Fold

open Idealize.ShloMosaic Idealize.ShloMosaic.TcCoe Idealize.SL.Sem Idealize.ShloMosaic.ValueIdx
open Cert.KernelIdeal Cert.KernelIdeal.Gen Cert.KernelIdeal.HostFn Cert.Layer

variable (m : (ℓ : Loc nD τ sig) → Buf (Elt Ideal) ℓ) (ρ : Dev nD → PrngReg)

set_option maxHeartbeats 1000000 in
/-- Launch 10's three result arrays at its exit. -/
theorem W22_ro0 (c : Dev nD) : W22 m ρ c (Proc.devRef .tc main_v174_0) = (lin (W21 m ρ c (Proc.devRef .tc main_v172)) (W21 m ρ c (Proc.devRef .tc main_v152)) (W21 m ρ c (Proc.devRef .tc main_v154)) (W21 m ρ c (Proc.devRef .tc main_v156)) (W21 m ρ c (Proc.devRef .tc main_v173))) :=
  (W22_arr m ρ c 5).trans (Cert.KernelIdeal.RegionValue.final10_5 (V21 m ρ) c)
set_option maxHeartbeats 1000000 in
theorem W22_ro1 (c : Dev nD) : W22 m ρ c (Proc.devRef .tc main_v174_1) = colSum (lin (W21 m ρ c (Proc.devRef .tc main_v172)) (W21 m ρ c (Proc.devRef .tc main_v152)) (W21 m ρ c (Proc.devRef .tc main_v154)) (W21 m ρ c (Proc.devRef .tc main_v156)) (W21 m ρ c (Proc.devRef .tc main_v173))) :=
  (W22_arr m ρ c 6).trans (Cert.KernelIdeal.RegionValue.final10_6 (V21 m ρ) c)
set_option maxHeartbeats 1000000 in
theorem W22_ro2 (c : Dev nD) : W22 m ρ c (Proc.devRef .tc main_v174_2) = colSumSq (lin (W21 m ρ c (Proc.devRef .tc main_v172)) (W21 m ρ c (Proc.devRef .tc main_v152)) (W21 m ρ c (Proc.devRef .tc main_v154)) (W21 m ρ c (Proc.devRef .tc main_v156)) (W21 m ρ c (Proc.devRef .tc main_v173))) :=
  (W22_arr m ρ c 7).trans (Cert.KernelIdeal.RegionValue.final10_7 (V21 m ρ) c)
theorem W22_gv (c : Dev nD) : W22 m ρ c (Proc.devRef .tc main_v160) = W21 m ρ c (Proc.devRef .tc main_v160) := W22_of_ne m ρ c main_v160 (by decide)
theorem W22_bev (c : Dev nD) : W22 m ρ c (Proc.devRef .tc main_v162) = W21 m ρ c (Proc.devRef .tc main_v162) := W22_of_ne m ρ c main_v162 (by decide)

set_option maxHeartbeats 1000000 in
/-- Launch 11's result array at its exit. -/
theorem W24_out (c : Dev nD) : W24 m ρ c (Proc.devRef .tc main_v183) = bn (W23 m ρ c (Proc.devRef .tc main_v174_0)) (W23 m ρ c (Proc.devRef .tc main_v176)) (W23 m ρ c (Proc.devRef .tc main_v180)) (W23 m ρ c (Proc.devRef .tc main_v181)) (W23 m ρ c (Proc.devRef .tc main_v182)) :=
  (W24_arr m ρ c 5).trans (Cert.KernelIdeal.RegionValue.final11_5 (V23 m ρ) c)

set_option maxHeartbeats 2000000 in
/-- The layer: its output array is the normalising step, with the array's own mean and variance, of the dense step of the
    aggregated and the plain input. -/
theorem layer5 (c : Dev nD) : W24 m ρ c (Proc.devRef .tc main_v183)
    = bnStep (lin (agg64 (W20 m ρ c (Proc.devRef .tc main_v1)) (W20 m ρ c (Proc.devRef .tc main_v3)) (W20 m ρ c (Proc.devRef .tc main_v152))) (W20 m ρ c (Proc.devRef .tc main_v152)) (matSlice ![4, 0, 0] slices_S7x64x64_S1x64x64_4_0_0 (W20 m ρ c (Proc.devRef .tc main_arg5))) (matSlice ![4, 0, 0] slices_S7x64x64_S1x64x64_4_0_0 (W20 m ρ c (Proc.devRef .tc main_arg6))) (Cert.Row.rowOf (vecSlice7 ![4, 0] slices_S7x64_S1x64_4_0 (W20 m ρ c (Proc.devRef .tc main_arg7))))) (Cert.Row.rowOf (vecSlice8 ![5, 0] slices_S8x64_S1x64_5_0 (W20 m ρ c (Proc.devRef .tc main_arg8)))) (Cert.Row.rowOf (vecSlice8 ![5, 0] slices_S8x64_S1x64_5_0 (W20 m ρ c (Proc.devRef .tc main_arg9)))) := by
  rw [W24_out, W23_hpre, W23_mean, W23_var, W23_grow, W23_berow, W22_ro0, W22_ro1, W22_ro2,
    W22_gv, W22_bev, W21_agg, W21_hp, W21_wl, W21_wr, W21_brow, W21_gv, W21_bev]
  rw [bcast1_row, bcast1_row, bcast1_row, meanRow_eq, varRow_eq]
  rfl

theorem keepL5_v1 (c : Dev nD) : W24 m ρ c (Proc.devRef .tc main_v1) = W20 m ρ c (Proc.devRef .tc main_v1) :=
  (W24_of_ne m ρ c main_v1 (by decide)).trans ((keepH11 m ρ c main_v1 (by decide)).trans ((W22_of_ne m ρ c main_v1 (by decide)).trans (keepH10 m ρ c main_v1 (by decide))))
theorem keepL5_v3 (c : Dev nD) : W24 m ρ c (Proc.devRef .tc main_v3) = W20 m ρ c (Proc.devRef .tc main_v3) :=
  (W24_of_ne m ρ c main_v3 (by decide)).trans ((keepH11 m ρ c main_v3 (by decide)).trans ((W22_of_ne m ρ c main_v3 (by decide)).trans (keepH10 m ρ c main_v3 (by decide))))
theorem keepL5_arg5 (c : Dev nD) : W24 m ρ c (Proc.devRef .tc main_arg5) = W20 m ρ c (Proc.devRef .tc main_arg5) :=
  (W24_of_ne m ρ c main_arg5 (by decide)).trans ((keepH11 m ρ c main_arg5 (by decide)).trans ((W22_of_ne m ρ c main_arg5 (by decide)).trans (keepH10 m ρ c main_arg5 (by decide))))
theorem keepL5_arg6 (c : Dev nD) : W24 m ρ c (Proc.devRef .tc main_arg6) = W20 m ρ c (Proc.devRef .tc main_arg6) :=
  (W24_of_ne m ρ c main_arg6 (by decide)).trans ((keepH11 m ρ c main_arg6 (by decide)).trans ((W22_of_ne m ρ c main_arg6 (by decide)).trans (keepH10 m ρ c main_arg6 (by decide))))
theorem keepL5_arg7 (c : Dev nD) : W24 m ρ c (Proc.devRef .tc main_arg7) = W20 m ρ c (Proc.devRef .tc main_arg7) :=
  (W24_of_ne m ρ c main_arg7 (by decide)).trans ((keepH11 m ρ c main_arg7 (by decide)).trans ((W22_of_ne m ρ c main_arg7 (by decide)).trans (keepH10 m ρ c main_arg7 (by decide))))
theorem keepL5_arg8 (c : Dev nD) : W24 m ρ c (Proc.devRef .tc main_arg8) = W20 m ρ c (Proc.devRef .tc main_arg8) :=
  (W24_of_ne m ρ c main_arg8 (by decide)).trans ((keepH11 m ρ c main_arg8 (by decide)).trans ((W22_of_ne m ρ c main_arg8 (by decide)).trans (keepH10 m ρ c main_arg8 (by decide))))
theorem keepL5_arg9 (c : Dev nD) : W24 m ρ c (Proc.devRef .tc main_arg9) = W20 m ρ c (Proc.devRef .tc main_arg9) :=
  (W24_of_ne m ρ c main_arg9 (by decide)).trans ((keepH11 m ρ c main_arg9 (by decide)).trans ((W22_of_ne m ρ c main_arg9 (by decide)).trans (keepH10 m ρ c main_arg9 (by decide))))
theorem keepL5_arg10 (c : Dev nD) : W24 m ρ c (Proc.devRef .tc main_arg10) = W20 m ρ c (Proc.devRef .tc main_arg10) :=
  (W24_of_ne m ρ c main_arg10 (by decide)).trans ((keepH11 m ρ c main_arg10 (by decide)).trans ((W22_of_ne m ρ c main_arg10 (by decide)).trans (keepH10 m ρ c main_arg10 (by decide))))
theorem keepL5_arg11 (c : Dev nD) : W24 m ρ c (Proc.devRef .tc main_arg11) = W20 m ρ c (Proc.devRef .tc main_arg11) :=
  (W24_of_ne m ρ c main_arg11 (by decide)).trans ((keepH11 m ρ c main_arg11 (by decide)).trans ((W22_of_ne m ρ c main_arg11 (by decide)).trans (keepH10 m ρ c main_arg11 (by decide))))

end Cert.KernelIdeal.Fold

end
-- ==== Proof.KHostA6.lean ====
/-
  The host operations before launch 12: which buffers they write, and what the ones the layer reads hold afterwards.
-/
import proofs.«147565_j9259949490665_1_alg».proof.Proof.Gen.KernelIdeal.Frame
import proofs.«147565_j9259949490665_1_alg».proof.Proof.KHostFn
import proofs.«147565_j9259949490665_1_alg».proof.Proof.LayerDefs

set_option maxRecDepth 16384

noncomputable section

namespace Cert.KernelIdeal.Fold

open Idealize.ShloMosaic Idealize.ShloMosaic.TcCoe Idealize.SL.Sem Idealize.ShloMosaic.ValueIdx
open Cert.KernelIdeal Cert.KernelIdeal.Gen Cert.KernelIdeal.HostFn Cert.Layer

variable (m : (ℓ : Loc nD τ sig) → Buf (Elt Ideal) ℓ) (ρ : Dev nD → PrngReg)

/-- The buffers the host operations before launch 12 write. -/
abbrev hostOps12_W : List (Ref sig .tc) := [main_v184, main_v185, main_v186, main_v187, main_v188, main_v189, main_v190, main_v191, main_v192, main_v193, main_c_28, main_v194, main_v195, main_c_29, main_v196, main_v197, main_v198, main_v199, main_v200, main_cst_30, main_v201, main_v202, main_v203, main_v204]

theorem hostOps12_writes : (hostOps12 : List (HloOp τ sig (Elt Ideal))).Forall fun op => op.writes ⊆ (hostOps12_W.map (Proc.devRef (τ := τ) .tc)).toFinset := by
  simp only [hostOps12, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- A buffer those operations do not write keeps its contents through them. -/
theorem keepH12 (c : Dev nD) (r : Ref sig .tc) (h : r ∉ hostOps12_W) :
    W25 m ρ c (Proc.devRef .tc r) = W24 m ρ c (Proc.devRef .tc r) :=
  StableHlo.after_of_writes_sub hostOps12 _ hostOps12_writes h

theorem W25_wl (c : Dev nD) : W25 m ρ c (Proc.devRef .tc main_v185) = (matSlice ![5, 0, 0] slices_S7x64x64_S1x64x64_5_0_0 (W24 m ρ c (Proc.devRef .tc main_arg5))) := by
  show StableHlo.after hostOps12 (W24 m ρ c) (Proc.devRef .tc main_v185) = _
  simp only [hostOps12]
  first | (after_results_simp <;> rfl) | (after_results <;> rfl)
theorem W25_wr (c : Dev nD) : W25 m ρ c (Proc.devRef .tc main_v187) = (matSlice ![5, 0, 0] slices_S7x64x64_S1x64x64_5_0_0 (W24 m ρ c (Proc.devRef .tc main_arg6))) := by
  show StableHlo.after hostOps12 (W24 m ρ c) (Proc.devRef .tc main_v187) = _
  simp only [hostOps12]
  first | (after_results_simp <;> rfl) | (after_results <;> rfl)
theorem W25_brow (c : Dev nD) : W25 m ρ c (Proc.devRef .tc main_v204) = broadcastInDim S1x64 ![1] bcast_S64_S1x64_1 (vecSlice7 ![5, 0] slices_S7x64_S1x64_5_0 (W24 m ρ c (Proc.devRef .tc main_arg7))) := by
  show StableHlo.after hostOps12 (W24 m ρ c) (Proc.devRef .tc main_v204) = _
  simp only [hostOps12]
  first | (after_results_simp <;> rfl) | (after_results <;> rfl)
theorem W25_gv (c : Dev nD) : W25 m ρ c (Proc.devRef .tc main_v191) = (vecSlice8 ![6, 0] slices_S8x64_S1x64_6_0 (W24 m ρ c (Proc.devRef .tc main_arg8))) := by
  show StableHlo.after hostOps12 (W24 m ρ c) (Proc.devRef .tc main_v191) = _
  simp only [hostOps12]
  first | (after_results_simp <;> rfl) | (after_results <;> rfl)
theorem W25_bev (c : Dev nD) : W25 m ρ c (Proc.devRef .tc main_v193) = (vecSlice8 ![6, 0] slices_S8x64_S1x64_6_0 (W24 m ρ c (Proc.devRef .tc main_arg9))) := by
  show StableHlo.after hostOps12 (W24 m ρ c) (Proc.devRef .tc main_v193) = _
  simp only [hostOps12]
  first | (after_results_simp <;> rfl) | (after_results <;> rfl)
theorem W25_agg (c : Dev nD) : W25 m ρ c (Proc.devRef .tc main_v203) = (agg64 (W24 m ρ c (Proc.devRef .tc main_v1)) (W24 m ρ c (Proc.devRef .tc main_v3)) (W24 m ρ c (Proc.devRef .tc main_v183))) := by
  show StableHlo.after hostOps12 (W24 m ρ c) (Proc.devRef .tc main_v203) = _
  simp only [hostOps12]
  first | (after_results_simp <;> rfl) | (after_results <;> rfl)
theorem W25_hp (c : Dev nD) : W25 m ρ c (Proc.devRef .tc main_v183) = W24 m ρ c (Proc.devRef .tc main_v183) := keepH12 m ρ c main_v183 (by decide)

end Cert.KernelIdeal.Fold

end
-- ==== Proof.KHostB6.lean ====
/-
  The host operations before launch 13: the mean row, the variance row, the gain and offset rows.
-/
import proofs.«147565_j9259949490665_1_alg».proof.Proof.Gen.KernelIdeal.Frame
import proofs.«147565_j9259949490665_1_alg».proof.Proof.KHostFn
import proofs.«147565_j9259949490665_1_alg».proof.Proof.LayerDefs

set_option maxRecDepth 16384

noncomputable section

namespace Cert.KernelIdeal.Fold

open Idealize.ShloMosaic Idealize.ShloMosaic.TcCoe Idealize.SL.Sem Idealize.ShloMosaic.ValueIdx
open Cert.KernelIdeal Cert.KernelIdeal.Gen Cert.KernelIdeal.HostFn Cert.Layer

variable (m : (ℓ : Loc nD τ sig) → Buf (Elt Ideal) ℓ) (ρ : Dev nD → PrngReg)

/-- The buffers the host operations before launch 13 write. -/
abbrev hostOps13_W : List (Ref sig .tc) := [main_cst_31, main_v206, main_v207, main_cst_32, main_v208, main_v209, main_v210, main_v211, main_v212, main_v213]

theorem hostOps13_writes : (hostOps13 : List (HloOp τ sig (Elt Ideal))).Forall fun op => op.writes ⊆ (hostOps13_W.map (Proc.devRef (τ := τ) .tc)).toFinset := by
  simp only [hostOps13, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- A buffer those operations do not write keeps its contents through them. -/
theorem keepH13 (c : Dev nD) (r : Ref sig .tc) (h : r ∉ hostOps13_W) :
    W27 m ρ c (Proc.devRef .tc r) = W26 m ρ c (Proc.devRef .tc r) :=
  StableHlo.after_of_writes_sub hostOps13 _ hostOps13_writes h

theorem W27_mean (c : Dev nD) : W27 m ρ c (Proc.devRef .tc main_v207) = (Host.divf (F := Ideal) (W26 m ρ c (Proc.devRef .tc main_v205_1)) (broadcastInDim S1x64 ![] bcast_S_S1x64 (constant (F := Ideal) S_ .f32 0x47435000#32)) : FVec Ideal S1x64 .f32) := by
  show StableHlo.after hostOps13 (W26 m ρ c) (Proc.devRef .tc main_v207) = _
  simp only [hostOps13]
  first | (after_results_simp <;> rfl) | (after_results <;> rfl)
theorem W27_var (c : Dev nD) : W27 m ρ c (Proc.devRef .tc main_v211) = (subf (F := Ideal) (Host.divf (F := Ideal) (W26 m ρ c (Proc.devRef .tc main_v205_2)) (broadcastInDim S1x64 ![] bcast_S_S1x64 (constant (F := Ideal) S_ .f32 0x47435000#32))) (mulf (F := Ideal) (Host.divf (F := Ideal) (W26 m ρ c (Proc.devRef .tc main_v205_1)) (broadcastInDim S1x64 ![] bcast_S_S1x64 (constant (F := Ideal) S_ .f32 0x47435000#32))) (Host.divf (F := Ideal) (W26 m ρ c (Proc.devRef .tc main_v205_1)) (broadcastInDim S1x64 ![] bcast_S_S1x64 (constant (F := Ideal) S_ .f32 0x47435000#32)))) : FVec Ideal S1x64 .f32) := by
  show StableHlo.after hostOps13 (W26 m ρ c) (Proc.devRef .tc main_v211) = _
  simp only [hostOps13]
  first | (after_results_simp <;> rfl) | (after_results <;> rfl)
theorem W27_grow (c : Dev nD) : W27 m ρ c (Proc.devRef .tc main_v212) = (broadcastInDim S1x64 ![1] bcast_S64_S1x64_1 (W26 m ρ c (Proc.devRef .tc main_v191)) : FVec Ideal S1x64 .f32) := by
  show StableHlo.after hostOps13 (W26 m ρ c) (Proc.devRef .tc main_v212) = _
  simp only [hostOps13]
  first | (after_results_simp <;> rfl) | (after_results <;> rfl)
theorem W27_berow (c : Dev nD) : W27 m ρ c (Proc.devRef .tc main_v213) = (broadcastInDim S1x64 ![1] bcast_S64_S1x64_1 (W26 m ρ c (Proc.devRef .tc main_v193)) : FVec Ideal S1x64 .f32) := by
  show StableHlo.after hostOps13 (W26 m ρ c) (Proc.devRef .tc main_v213) = _
  simp only [hostOps13]
  first | (after_results_simp <;> rfl) | (after_results <;> rfl)
theorem W27_hpre (c : Dev nD) : W27 m ρ c (Proc.devRef .tc main_v205_0) = W26 m ρ c (Proc.devRef .tc main_v205_0) := keepH13 m ρ c main_v205_0 (by decide)

end Cert.KernelIdeal.Fold

end
-- ==== Proof.RegionR12Pieces.lean ====
/-
  What one step of the dense-step body leaves in its three result blocks, as arithmetic of the blocks it read.

  At the first step of a run the two running rows are set to zero before the step adds to them; at every later step
  they are read as the step before left them.  In both cases the block of pre-activations is the same arithmetic of
  the five operand blocks, the row of sums is the previous row plus the block's column sums, and the row of sums of
  squares is the previous row plus the block's column sums of squares.
-/
import proofs.«147565_j9259949490665_1_alg».proof.Proof.Gen.KernelIdeal.Frame
import proofs.«147565_j9259949490665_1_alg».proof.Proof.LibColumnSum
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.RegionValue

open Cert.KernelIdeal Cert.KernelIdeal.Gen
open Cert.LibColumnSum (offsets_zero)

variable {F : FTy → Type} [FloatOps F]

theorem out12_A_5_eq (c : Dev nD) (i : grid12.Coords) (a1 : Memref sig .tc .vmem S5000x64 .f32) (h1 : a1.IsWhole) (a2 : Memref sig .tc .vmem S5000x64 .f32) (h2 : a2.IsWhole) (a3 : Memref sig .tc .vmem S64x64 .f32) (h3 : a3.IsWhole) (a4 : Memref sig .tc .vmem S64x64 .f32) (h4 : a4.IsWhole) (a5 : Memref sig .tc .vmem S1x64 .f32) (h5 : a5.IsWhole) (a6 : Memref sig .tc .vmem S5000x64 .f32) (h6 : a6.IsWhole) (a7 : Memref sig .tc .vmem S1x64 .f32) (h7 : a7.IsWhole) (a8 : Memref sig .tc .vmem S1x64 .f32) (h8 : a8.IsWhole) (hc : cond12_0 i)
    (x0 : Vec F S5000x64 .f32) (x1 : Vec F S5000x64 .f32) (x2 : Vec F S64x64 .f32) (x3 : Vec F S64x64 .f32) (x4 : Vec F S1x64 .f32) :
    out12_A_5 c i a1 h1 a2 h2 a3 h3 a4 h4 a5 h5 a6 h6 a7 h7 a8 h8 hc x0 x1 x2 x3 x4 = k12_pay4 x0 x2 x4 x1 x3 := by
  unfold out12_A_5
  rw [View.read_writes_eq_canon _ _ _ (cover12_A_5 c i a1 h1 a2 h2 a3 h3 a4 h4 a5 h5 a6 h6 a7 h7 a8 h8 hc x0 x1 x2 x3 x4)]
  unfold kernelRun12_A
  dsimp only
  sl_unfold_words
  rw [View.canon_unit_zero offsets_zero]
  simp only [View.readAt_eq_ld, h1.read_unread, h2.read_unread, h3.read_unread, h4.read_unread, h5.read_unread, h7.read_unread, h8.read_unread, View.ld_unit_zero (S := S5000x64) offsets_zero, View.ld_unit_zero (S := S64x64) offsets_zero, View.ld_unit_zero (S := S1x64) offsets_zero]

theorem out12_A_6_eq (c : Dev nD) (i : grid12.Coords) (a1 : Memref sig .tc .vmem S5000x64 .f32) (h1 : a1.IsWhole) (a2 : Memref sig .tc .vmem S5000x64 .f32) (h2 : a2.IsWhole) (a3 : Memref sig .tc .vmem S64x64 .f32) (h3 : a3.IsWhole) (a4 : Memref sig .tc .vmem S64x64 .f32) (h4 : a4.IsWhole) (a5 : Memref sig .tc .vmem S1x64 .f32) (h5 : a5.IsWhole) (a6 : Memref sig .tc .vmem S5000x64 .f32) (h6 : a6.IsWhole) (a7 : Memref sig .tc .vmem S1x64 .f32) (h7 : a7.IsWhole) (a8 : Memref sig .tc .vmem S1x64 .f32) (h8 : a8.IsWhole) (hc : cond12_0 i)
    (x0 : Vec F S5000x64 .f32) (x1 : Vec F S5000x64 .f32) (x2 : Vec F S64x64 .f32) (x3 : Vec F S64x64 .f32) (x4 : Vec F S1x64 .f32) :
    out12_A_6 c i a1 h1 a2 h2 a3 h3 a4 h4 a5 h5 a6 h6 a7 h7 a8 h8 hc x0 x1 x2 x3 x4 = k12_pay5 x0 x2 x4 x1 x3 (k12_pay2 (F := F)) := by
  unfold out12_A_6
  rw [View.read_writes_eq_canon _ _ _ (cover12_A_6 c i a1 h1 a2 h2 a3 h3 a4 h4 a5 h5 a6 h6 a7 h7 a8 h8 hc x0 x1 x2 x3 x4)]
  unfold kernelRun12_A
  dsimp only
  sl_unfold_words
  rw [View.canon_cons_unit_zero (S := S1x64) offsets_zero, View.readCov_unit_zero (S := S1x64) _ offsets_zero]
  simp only [View.readAt_eq_ld, h1.read_unread, h2.read_unread, h3.read_unread, h4.read_unread, h5.read_unread, h7.read_unread, h8.read_unread, View.ld_unit_zero (S := S5000x64) offsets_zero, View.ld_unit_zero (S := S64x64) offsets_zero, View.ld_unit_zero (S := S1x64) offsets_zero]

theorem out12_A_7_eq (c : Dev nD) (i : grid12.Coords) (a1 : Memref sig .tc .vmem S5000x64 .f32) (h1 : a1.IsWhole) (a2 : Memref sig .tc .vmem S5000x64 .f32) (h2 : a2.IsWhole) (a3 : Memref sig .tc .vmem S64x64 .f32) (h3 : a3.IsWhole) (a4 : Memref sig .tc .vmem S64x64 .f32) (h4 : a4.IsWhole) (a5 : Memref sig .tc .vmem S1x64 .f32) (h5 : a5.IsWhole) (a6 : Memref sig .tc .vmem S5000x64 .f32) (h6 : a6.IsWhole) (a7 : Memref sig .tc .vmem S1x64 .f32) (h7 : a7.IsWhole) (a8 : Memref sig .tc .vmem S1x64 .f32) (h8 : a8.IsWhole) (hc : cond12_0 i)
    (x0 : Vec F S5000x64 .f32) (x1 : Vec F S5000x64 .f32) (x2 : Vec F S64x64 .f32) (x3 : Vec F S64x64 .f32) (x4 : Vec F S1x64 .f32) :
    out12_A_7 c i a1 h1 a2 h2 a3 h3 a4 h4 a5 h5 a6 h6 a7 h7 a8 h8 hc x0 x1 x2 x3 x4 = k12_pay1 (k12_pay6 (k12_pay3 (F := F))) (k12_pay7 x0 x2 x4 x1 x3) := by
  unfold out12_A_7
  rw [View.read_writes_eq_canon _ _ _ (cover12_A_7 c i a1 h1 a2 h2 a3 h3 a4 h4 a5 h5 a6 h6 a7 h7 a8 h8 hc x0 x1 x2 x3 x4)]
  unfold kernelRun12_A
  dsimp only
  sl_unfold_words
  rw [View.canon_cons_unit_zero (S := S1x64) offsets_zero, View.readCov_unit_zero (S := S1x64) _ offsets_zero]
  simp only [View.readAt_eq_ld, h1.read_unread, h2.read_unread, h3.read_unread, h4.read_unread, h5.read_unread, h7.read_unread, h8.read_unread, View.ld_unit_zero (S := S5000x64) offsets_zero, View.ld_unit_zero (S := S64x64) offsets_zero, View.ld_unit_zero (S := S1x64) offsets_zero]

theorem out12_B_5_eq (c : Dev nD) (i : grid12.Coords) (a1 : Memref sig .tc .vmem S5000x64 .f32) (h1 : a1.IsWhole) (a2 : Memref sig .tc .vmem S5000x64 .f32) (h2 : a2.IsWhole) (a3 : Memref sig .tc .vmem S64x64 .f32) (h3 : a3.IsWhole) (a4 : Memref sig .tc .vmem S64x64 .f32) (h4 : a4.IsWhole) (a5 : Memref sig .tc .vmem S1x64 .f32) (h5 : a5.IsWhole) (a6 : Memref sig .tc .vmem S5000x64 .f32) (h6 : a6.IsWhole) (a7 : Memref sig .tc .vmem S1x64 .f32) (h7 : a7.IsWhole) (a8 : Memref sig .tc .vmem S1x64 .f32) (h8 : a8.IsWhole) (hc : ¬cond12_0 i)
    (x0 : Vec F S5000x64 .f32) (x1 : Vec F S5000x64 .f32) (x2 : Vec F S64x64 .f32) (x3 : Vec F S64x64 .f32) (x4 : Vec F S1x64 .f32) (xo6 : Vec F S1x64 .f32) (xo7 : Vec F S1x64 .f32) :
    out12_B_5 c i a1 h1 a2 h2 a3 h3 a4 h4 a5 h5 a6 h6 a7 h7 a8 h8 hc x0 x1 x2 x3 x4 xo6 xo7 = k12_pay4 x0 x2 x4 x1 x3 := by
  unfold out12_B_5
  rw [View.read_writes_eq_canon _ _ _ (cover12_B_5 c i a1 h1 a2 h2 a3 h3 a4 h4 a5 h5 a6 h6 a7 h7 a8 h8 hc x0 x1 x2 x3 x4 xo6 xo7)]
  unfold kernelRun12_B
  dsimp only
  sl_unfold_words
  rw [View.canon_unit_zero offsets_zero]
  simp only [View.readAt_eq_ld, h1.read_unread, h2.read_unread, h3.read_unread, h4.read_unread, h5.read_unread, h7.read_unread, h8.read_unread, View.ld_unit_zero (S := S5000x64) offsets_zero, View.ld_unit_zero (S := S64x64) offsets_zero, View.ld_unit_zero (S := S1x64) offsets_zero]

theorem out12_B_6_eq (c : Dev nD) (i : grid12.Coords) (a1 : Memref sig .tc .vmem S5000x64 .f32) (h1 : a1.IsWhole) (a2 : Memref sig .tc .vmem S5000x64 .f32) (h2 : a2.IsWhole) (a3 : Memref sig .tc .vmem S64x64 .f32) (h3 : a3.IsWhole) (a4 : Memref sig .tc .vmem S64x64 .f32) (h4 : a4.IsWhole) (a5 : Memref sig .tc .vmem S1x64 .f32) (h5 : a5.IsWhole) (a6 : Memref sig .tc .vmem S5000x64 .f32) (h6 : a6.IsWhole) (a7 : Memref sig .tc .vmem S1x64 .f32) (h7 : a7.IsWhole) (a8 : Memref sig .tc .vmem S1x64 .f32) (h8 : a8.IsWhole) (hc : ¬cond12_0 i)
    (x0 : Vec F S5000x64 .f32) (x1 : Vec F S5000x64 .f32) (x2 : Vec F S64x64 .f32) (x3 : Vec F S64x64 .f32) (x4 : Vec F S1x64 .f32) (xo6 : Vec F S1x64 .f32) (xo7 : Vec F S1x64 .f32) :
    out12_B_6 c i a1 h1 a2 h2 a3 h3 a4 h4 a5 h5 a6 h6 a7 h7 a8 h8 hc x0 x1 x2 x3 x4 xo6 xo7 = k12_pay5 x0 x2 x4 x1 x3 xo6 := by
  unfold out12_B_6
  rw [View.read_writes_eq_canon _ _ _ (cover12_B_6 c i a1 h1 a2 h2 a3 h3 a4 h4 a5 h5 a6 h6 a7 h7 a8 h8 hc x0 x1 x2 x3 x4 xo6 xo7)]
  unfold kernelRun12_B
  dsimp only
  sl_unfold_words
  rw [View.canon_unit_zero offsets_zero]
  simp only [View.readAt_eq_ld, h1.read_unread, h2.read_unread, h3.read_unread, h4.read_unread, h5.read_unread, h7.read_unread, h8.read_unread, View.ld_unit_zero (S := S5000x64) offsets_zero, View.ld_unit_zero (S := S64x64) offsets_zero, View.ld_unit_zero (S := S1x64) offsets_zero]

theorem out12_B_7_eq (c : Dev nD) (i : grid12.Coords) (a1 : Memref sig .tc .vmem S5000x64 .f32) (h1 : a1.IsWhole) (a2 : Memref sig .tc .vmem S5000x64 .f32) (h2 : a2.IsWhole) (a3 : Memref sig .tc .vmem S64x64 .f32) (h3 : a3.IsWhole) (a4 : Memref sig .tc .vmem S64x64 .f32) (h4 : a4.IsWhole) (a5 : Memref sig .tc .vmem S1x64 .f32) (h5 : a5.IsWhole) (a6 : Memref sig .tc .vmem S5000x64 .f32) (h6 : a6.IsWhole) (a7 : Memref sig .tc .vmem S1x64 .f32) (h7 : a7.IsWhole) (a8 : Memref sig .tc .vmem S1x64 .f32) (h8 : a8.IsWhole) (hc : ¬cond12_0 i)
    (x0 : Vec F S5000x64 .f32) (x1 : Vec F S5000x64 .f32) (x2 : Vec F S64x64 .f32) (x3 : Vec F S64x64 .f32) (x4 : Vec F S1x64 .f32) (xo6 : Vec F S1x64 .f32) (xo7 : Vec F S1x64 .f32) :
    out12_B_7 c i a1 h1 a2 h2 a3 h3 a4 h4 a5 h5 a6 h6 a7 h7 a8 h8 hc x0 x1 x2 x3 x4 xo6 xo7 = k12_pay1 (k12_pay6 xo7) (k12_pay7 x0 x2 x4 x1 x3) := by
  unfold out12_B_7
  rw [View.read_writes_eq_canon _ _ _ (cover12_B_7 c i a1 h1 a2 h2 a3 h3 a4 h4 a5 h5 a6 h6 a7 h7 a8 h8 hc x0 x1 x2 x3 x4 xo6 xo7)]
  unfold kernelRun12_B
  dsimp only
  sl_unfold_words
  rw [View.canon_unit_zero offsets_zero]
  simp only [View.readAt_eq_ld, h1.read_unread, h2.read_unread, h3.read_unread, h4.read_unread, h5.read_unread, h7.read_unread, h8.read_unread, View.ld_unit_zero (S := S5000x64) offsets_zero, View.ld_unit_zero (S := S64x64) offsets_zero, View.ld_unit_zero (S := S1x64) offsets_zero]

end Cert.KernelIdeal.RegionValue

end
-- ==== Proof.RegionR12Pay.lean ====
/-
  The dense step's block arithmetic read entry by entry over the extended reals.

  For one block of 5000 rows: the block of pre-activations at (p, q) is the aggregated row p against row q of the
  neighbour weights, plus the bias entry q, plus the node's own row p against row q of the root weights (each
  product is a sum over the 64 input features; the weights are stored with the output feature as their row, so the
  transposed weight read at (k, q) is the weight at (q, k)).  The two running rows are the previous row plus the
  block's column sums of the pre-activations, and of their squares.  The row that starts a run is zero.
-/
import proofs.«147565_j9259949490665_1_alg».proof.Proof.Gen.KernelIdeal.Skeleton
import proofs.«147565_j9259949490665_1_alg».proof.Proof.Spec
import proofs.«147565_j9259949490665_1_alg».proof.Proof.LibPlainDot
import proofs.«147565_j9259949490665_1_alg».proof.Proof.LibColumnSum
import Idealize.ShloMosaic.Lib.Pipeline.Value
import Idealize.ShloMosaic.Lib.ValueLayout

noncomputable section

open Idealize.ShloMosaic Idealize.ShloMosaic.ValueIdx
open scoped BigOperators

namespace Cert.KernelIdeal.RegionValue

open Cert.KernelIdeal Cert.KernelIdeal.Gen

/-- The block of pre-activations at (p, q): the dense step of the block's operands there. -/
theorem pay12_lin (a x : Vec Ideal S5000x64 .f32) (wl wr : Vec Ideal S64x64 .f32) (b : Vec Ideal S1x64 .f32)
    (p : Fin 5000) (q : Fin 64) :
    k12_pay4 (F := Ideal) a wl b x wr (ix2 p q) = Cert.Layer.lin a x wl wr b (ix2 p q) := by
  have hd : dot_S5000x64_S64x64_S5000x64_1_0_0_1_n_n = DotDims.plain 5000 64 64 := rfl
  have e1 : ∀ (l : FVec Ideal S5000x64 .f32) (w : FVec Ideal S64x64 .f32),
      matmul dot_S5000x64_S64x64_S5000x64_1_0_0_1_n_n none (shapeCast S5000x64 l shapeCasts_S5000x64_S5000x64)
          (transpose S64x64 [1, 0] (shapeCast S64x64 w shapeCasts_S64x64_S64x64) transposes_S64x64_p1_0_S64x64)
          (constant S5000x64 .f32 0x00000000#32) (ix2 p q)
        = ∑ k : Fin 64, l (ix2 p k) * w (ix2 q k) := by
    intro l w
    rw [shapeCast_self, shapeCast_self]
    refine (Cert.LibPlainDot.matmul_zero_apply _ hd none l _ p q).trans ?_
    exact Finset.sum_congr rfl fun k _ => congrArg (l (ix2 p k) * ·) (transpose_ix2_apply w _ k q)
  have e2 : broadcastTo S5000x64 (shapeCast S1x64 b shapeCasts_S1x64_S1x64) broadcasts_S1x64_S5000x64 (ix2 p q)
      = b (ix2 0 q) := by
    rw [shapeCast_self]
    exact broadcastTo_1b_ab_apply b _ p q
  rw [Cert.Layer.lin_apply]
  unfold k12_pay4
  exact congrArg₂ (· + ·) (congrArg₂ (· + ·) (e1 a wl) e2) (e1 x wr)

/-- The row that starts a run is zero. -/
theorem pay12_zero6 (j : S1x64.Idx) : k12_pay2 (F := Ideal) j = 0 := Ideal.ofBits_zero_f32

theorem pay12_zero7 (j : S1x64.Idx) : k12_pay3 (F := Ideal) j = 0 := Ideal.ofBits_zero_f32

/-- The running row of sums after a block: the row before plus the block's column sums. -/
theorem pay12_sum (a x : Vec Ideal S5000x64 .f32) (wl wr : Vec Ideal S64x64 .f32) (b acc : Vec Ideal S1x64 .f32) (q : Fin 64) :
    k12_pay5 (F := Ideal) a wl b x wr acc (ix2 0 q)
      = acc (ix2 0 q) + ∑ r : Fin 5000, k12_pay4 (F := Ideal) a wl b x wr (ix2 r q) := by
  unfold k12_pay5
  exact congrArg₂ (· + ·) (congrFun (shapeCast_self acc _) _)
    (Cert.LibColumnSum.rowReduce_apply (k12_pay4 (F := Ideal) a wl b x wr) reduces_S5000x64_S64 (.inl rfl) rfl
      shapeCasts_S64_S1x64 0 q)

/-- The running row of sums of squares after a block: the row before plus the block's column sums of squares. -/
theorem pay12_sumsq (a x : Vec Ideal S5000x64 .f32) (wl wr : Vec Ideal S64x64 .f32) (b acc : Vec Ideal S1x64 .f32) (q : Fin 64) :
    k12_pay1 (k12_pay6 (F := Ideal) acc) (k12_pay7 (F := Ideal) a wl b x wr) (ix2 0 q)
      = acc (ix2 0 q) + ∑ r : Fin 5000, k12_pay4 (F := Ideal) a wl b x wr (ix2 r q) * k12_pay4 (F := Ideal) a wl b x wr (ix2 r q) := by
  unfold k12_pay1 k12_pay6 k12_pay7
  exact congrArg₂ (· + ·) (congrFun (shapeCast_self acc _) _)
    (Cert.LibColumnSum.rowReduce_apply (mulf (k12_pay4 (F := Ideal) a wl b x wr) (k12_pay4 (F := Ideal) a wl b x wr))
      reduces_S5000x64_S64 (.inl rfl) rfl shapeCasts_S64_S1x64 0 q)

end Cert.KernelIdeal.RegionValue

end
-- ==== Proof.RegionR12.lean ====
/-
  The value of one dense-step stage: what its three result arrays hold after all ten steps.

  The stage walks ten blocks of 5000 rows.  Step t reads block t of the aggregated and of the node features (rows
  5000·t … 5000·t + 4999 of the arrays) and the whole of both weight arrays and of the bias row; it writes block t of
  the pre-activations, which is therefore block t of the dense step of the WHOLE arrays (an entry of the dense step
  depends on one row of each node-feature operand only), and adds the block's column sums, and column sums of
  squares, to two running rows that start at zero.  By induction on the step the running rows after step n hold the
  sums over the rows of blocks 0 … n, so after step 9, when they are written out, they hold the full column sums:
  a sum over 50000 = 10 · 5000 rows is the sum of its ten block sums.  Sums of extended reals are regrouped freely
  (addition is associative and commutative, and 0 + x = x); no law that needs finite values is used.
-/
import proofs.«147565_j9259949490665_1_alg».proof.Proof.Gen.KernelIdeal.Frame
import proofs.«147565_j9259949490665_1_alg».proof.Proof.Spec
import proofs.«147565_j9259949490665_1_alg».proof.Proof.LibRowBlocks
import proofs.«147565_j9259949490665_1_alg».proof.Proof.RegionR12Pieces
import proofs.«147565_j9259949490665_1_alg».proof.Proof.RegionR12Pay
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)
open scoped BigOperators

namespace Cert.KernelIdeal.RegionValue

open Cert.KernelIdeal Cert.KernelIdeal.Gen
open Cert.Layer (Mat lin colSum colSumSq)
open Cert.LibRowBlocks (blockSum blockSum_of_lt sum_range_blockSum lin_congr)

section Region12

variable (V : (c : Dev nD) → (b : Ref sig .tc) → Buf (Elt Ideal) ((c : Thread nD τ).loc b)) (c : Dev nD)

/-- The five operand arrays as the stage finds them. -/
abbrev agg12 : Mat 50000 64 := V c (Pipeline.arrRef spec12 0)
abbrev self12 : Mat 50000 64 := V c (Pipeline.arrRef spec12 1)
abbrev wl12 : Mat 64 64 := V c (Pipeline.arrRef spec12 2)
abbrev wr12 : Mat 64 64 := V c (Pipeline.arrRef spec12 3)
abbrev bias12 : Mat 1 64 := V c (Pipeline.arrRef spec12 4)

/-- The pre-activations of the whole arrays. -/
abbrev hpre12 : Mat 50000 64 := lin (agg12 V c) (self12 V c) (wl12 V c) (wr12 V c) (bias12 V c)

/-- Where each step's blocks sit: the row-blocked operands and the pre-activations at block t, column block 0. -/
theorem idx12 : ∀ t : Fin cfg12.N,
    win12_0.index t (0 : Fin 2) = t.val ∧ win12_0.index t (1 : Fin 2) = 0
    ∧ win12_1.index t (0 : Fin 2) = t.val ∧ win12_1.index t (1 : Fin 2) = 0
    ∧ win12_5.index t (0 : Fin 2) = t.val ∧ win12_5.index t (1 : Fin 2) = 0 :=
  (by decide +kernel : ∀ t : Fin grid12.N, _)

/-- The weights, the bias row and the two running rows are one block each, at block (0, 0) at every step. -/
theorem whole12 : ∀ t : Fin cfg12.N,
    win12_2.index t (0 : Fin 2) = 0 ∧ win12_2.index t (1 : Fin 2) = 0
    ∧ win12_3.index t (0 : Fin 2) = 0 ∧ win12_3.index t (1 : Fin 2) = 0
    ∧ win12_4.index t (0 : Fin 2) = 0 ∧ win12_4.index t (1 : Fin 2) = 0
    ∧ win12_6.index t (0 : Fin 2) = 0 ∧ win12_6.index t (1 : Fin 2) = 0
    ∧ win12_7.index t (0 : Fin 2) = 0 ∧ win12_7.index t (1 : Fin 2) = 0 :=
  (by decide +kernel : ∀ t : Fin grid12.N, _)

/-- Row r of step t's block of operand 0 is row 5000·t + r of the array. -/
theorem blk12_0 (t : Fin cfg12.N) (r : Fin 5000) (k : Fin 64) (hr : t.val * 5000 + r.val < 50000) :
    iblk12 V c 0 t (ix2 r k) = agg12 V c (ix2 ⟨t.val * 5000 + r.val, hr⟩ k) := by
  have e0 := (idx12 t).1
  have e1 := (idx12 t).2.1
  show V c (Pipeline.arrRef spec12 0) (((cfg12.win 0).blk t).view.emb (ix2 r k))
    = V c (Pipeline.arrRef spec12 0) (ix2 ⟨t.val * 5000 + r.val, hr⟩ k)
  refine congrArg (V c (Pipeline.arrRef spec12 0)) (funext fun a => Fin.ext ?_)
  match a with
  | ⟨0, _⟩ => show win12_0.index t (0 : Fin 2) * 5000 + 1 * r.val = t.val * 5000 + r.val; rw [e0]; omega
  | ⟨1, _⟩ => show win12_0.index t (1 : Fin 2) * 64 + 1 * k.val = k.val; rw [e1]; omega

/-- Row r of step t's block of operand 1 is row 5000·t + r of the array. -/
theorem blk12_1 (t : Fin cfg12.N) (r : Fin 5000) (k : Fin 64) (hr : t.val * 5000 + r.val < 50000) :
    iblk12 V c 1 t (ix2 r k) = self12 V c (ix2 ⟨t.val * 5000 + r.val, hr⟩ k) := by
  have e0 := (idx12 t).2.2.1
  have e1 := (idx12 t).2.2.2.1
  show V c (Pipeline.arrRef spec12 1) (((cfg12.win 1).blk t).view.emb (ix2 r k))
    = V c (Pipeline.arrRef spec12 1) (ix2 ⟨t.val * 5000 + r.val, hr⟩ k)
  refine congrArg (V c (Pipeline.arrRef spec12 1)) (funext fun a => Fin.ext ?_)
  match a with
  | ⟨0, _⟩ => show win12_1.index t (0 : Fin 2) * 5000 + 1 * r.val = t.val * 5000 + r.val; rw [e0]; omega
  | ⟨1, _⟩ => show win12_1.index t (1 : Fin 2) * 64 + 1 * k.val = k.val; rw [e1]; omega

/-- Step t's block of operand 2 is the whole array. -/
theorem blk12_2 (t : Fin cfg12.N) (p : Fin 64) (k : Fin 64) :
    iblk12 V c 2 t (ix2 p k) = wl12 V c (ix2 p k) := by
  have e0 := (whole12 t).1
  have e1 := (whole12 t).2.1
  show V c (Pipeline.arrRef spec12 2) (((cfg12.win 2).blk t).view.emb (ix2 p k))
    = V c (Pipeline.arrRef spec12 2) (ix2 p k)
  refine congrArg (V c (Pipeline.arrRef spec12 2)) (funext fun a => Fin.ext ?_)
  match a with
  | ⟨0, _⟩ => show win12_2.index t (0 : Fin 2) * 64 + 1 * p.val = p.val; rw [e0]; omega
  | ⟨1, _⟩ => show win12_2.index t (1 : Fin 2) * 64 + 1 * k.val = k.val; rw [e1]; omega

/-- Step t's block of operand 3 is the whole array. -/
theorem blk12_3 (t : Fin cfg12.N) (p : Fin 64) (k : Fin 64) :
    iblk12 V c 3 t (ix2 p k) = wr12 V c (ix2 p k) := by
  have e0 := (whole12 t).2.2.1
  have e1 := (whole12 t).2.2.2.1
  show V c (Pipeline.arrRef spec12 3) (((cfg12.win 3).blk t).view.emb (ix2 p k))
    = V c (Pipeline.arrRef spec12 3) (ix2 p k)
  refine congrArg (V c (Pipeline.arrRef spec12 3)) (funext fun a => Fin.ext ?_)
  match a with
  | ⟨0, _⟩ => show win12_3.index t (0 : Fin 2) * 64 + 1 * p.val = p.val; rw [e0]; omega
  | ⟨1, _⟩ => show win12_3.index t (1 : Fin 2) * 64 + 1 * k.val = k.val; rw [e1]; omega

/-- Step t's block of operand 4 is the whole array. -/
theorem blk12_4 (t : Fin cfg12.N) (p : Fin 1) (k : Fin 64) :
    iblk12 V c 4 t (ix2 p k) = bias12 V c (ix2 p k) := by
  have e0 := (whole12 t).2.2.2.2.1
  have e1 := (whole12 t).2.2.2.2.2.1
  show V c (Pipeline.arrRef spec12 4) (((cfg12.win 4).blk t).view.emb (ix2 p k))
    = V c (Pipeline.arrRef spec12 4) (ix2 p k)
  refine congrArg (V c (Pipeline.arrRef spec12 4)) (funext fun a => Fin.ext ?_)
  match a with
  | ⟨0, _⟩ => show win12_4.index t (0 : Fin 2) * 1 + 1 * p.val = p.val; rw [e0]; omega
  | ⟨1, _⟩ => show win12_4.index t (1 : Fin 2) * 64 + 1 * k.val = k.val; rw [e1]; omega

/-- The block of pre-activations step t computes is block t of the whole arrays' pre-activations. -/
theorem hblk12 (t : Fin cfg12.N) (j : S5000x64.Idx) (hr : t.val * 5000 + (j 0).val < 50000) :
    (k12_pay4 (F := Ideal) (iblk12 V c 0 t) (iblk12 V c 2 t) (iblk12 V c 4 t) (iblk12 V c 1 t) (iblk12 V c 3 t)) j = hpre12 V c (ix2 ⟨t.val * 5000 + (j 0).val, hr⟩ (j 1)) := by
  obtain ⟨r, q, rfl⟩ : ∃ (r : Fin 5000) (q : Fin 64), j = ix2 r q := ⟨j 0, j 1, eq_ix2 j⟩
  exact (pay12_lin (iblk12 V c 0 t) (iblk12 V c 1 t) (iblk12 V c 2 t) (iblk12 V c 3 t) (iblk12 V c 4 t) r q).trans
    (lin_congr (R := 5000) (R' := 50000) (K := 64) (N := 64) (iblk12 V c 0 t) (iblk12 V c 1 t) (agg12 V c) (self12 V c)
      (iblk12 V c 2 t) (iblk12 V c 3 t) (wl12 V c) (wr12 V c) (iblk12 V c 4 t) (bias12 V c) r ⟨t.val * 5000 + r.val, hr⟩ q
      (fun k => blk12_0 V c t r k hr) (fun k => blk12_1 V c t r k hr) (fun k => blk12_2 V c t q k) (fun k => blk12_3 V c t q k)
      (blk12_4 V c t 0 q))

/-- What the three result blocks hold after a step that starts a run, -/
theorem outs12_A (t : Fin cfg12.N) (h0 : t.val % 10 = 0) :
    outsAt12 V c t.val t.isLt
      = (k12_pay4 (F := Ideal) (iblk12 V c 0 t) (iblk12 V c 2 t) (iblk12 V c 4 t) (iblk12 V c 1 t) (iblk12 V c 3 t), k12_pay5 (F := Ideal) (iblk12 V c 0 t) (iblk12 V c 2 t) (iblk12 V c 4 t) (iblk12 V c 1 t) (iblk12 V c 3 t) (k12_pay2 (F := Ideal)), k12_pay1 (k12_pay6 (F := Ideal) (k12_pay3 (F := Ideal))) (k12_pay7 (F := Ideal) (iblk12 V c 0 t) (iblk12 V c 2 t) (iblk12 V c 4 t) (iblk12 V c 1 t) (iblk12 V c 3 t))) :=
  (outsAt12_A V c t h0).trans (congrArg₂ Prod.mk (out12_A_5_eq (F := Ideal) c (grid12.coords t) (ms12_0 t) (hs12_0 t) (ms12_1 t) (hs12_1 t) (ms12_2 t) (hs12_2 t) (ms12_3 t) (hs12_3 t) (ms12_4 t) (hs12_4 t) (ms12_5 t) (hs12_5 t) (ms12_6 t) (hs12_6 t) (ms12_7 t) (hs12_7 t) ((hcond12_0 t).mpr h0) (iblk12 V c 0 t) (iblk12 V c 1 t) (iblk12 V c 2 t) (iblk12 V c 3 t) (iblk12 V c 4 t))
    (congrArg₂ Prod.mk (out12_A_6_eq (F := Ideal) c (grid12.coords t) (ms12_0 t) (hs12_0 t) (ms12_1 t) (hs12_1 t) (ms12_2 t) (hs12_2 t) (ms12_3 t) (hs12_3 t) (ms12_4 t) (hs12_4 t) (ms12_5 t) (hs12_5 t) (ms12_6 t) (hs12_6 t) (ms12_7 t) (hs12_7 t) ((hcond12_0 t).mpr h0) (iblk12 V c 0 t) (iblk12 V c 1 t) (iblk12 V c 2 t) (iblk12 V c 3 t) (iblk12 V c 4 t))
      (out12_A_7_eq (F := Ideal) c (grid12.coords t) (ms12_0 t) (hs12_0 t) (ms12_1 t) (hs12_1 t) (ms12_2 t) (hs12_2 t) (ms12_3 t) (hs12_3 t) (ms12_4 t) (hs12_4 t) (ms12_5 t) (hs12_5 t) (ms12_6 t) (hs12_6 t) (ms12_7 t) (hs12_7 t) ((hcond12_0 t).mpr h0) (iblk12 V c 0 t) (iblk12 V c 1 t) (iblk12 V c 2 t) (iblk12 V c 3 t) (iblk12 V c 4 t))))

/-- and after any later step, over what the step before left in the running rows. -/
theorem outs12_B (t : Fin cfg12.N) (h0 : ¬t.val % 10 = 0) :
    outsAt12 V c t.val t.isLt
      = (k12_pay4 (F := Ideal) (iblk12 V c 0 t) (iblk12 V c 2 t) (iblk12 V c 4 t) (iblk12 V c 1 t) (iblk12 V c 3 t), k12_pay5 (F := Ideal) (iblk12 V c 0 t) (iblk12 V c 2 t) (iblk12 V c 4 t) (iblk12 V c 1 t) (iblk12 V c 3 t) (outsAt12 V c (t.val - 1) (Nat.lt_of_le_of_lt (Nat.sub_le _ _) t.isLt)).2.1, k12_pay1 (k12_pay6 (F := Ideal) (outsAt12 V c (t.val - 1) (Nat.lt_of_le_of_lt (Nat.sub_le _ _) t.isLt)).2.2) (k12_pay7 (F := Ideal) (iblk12 V c 0 t) (iblk12 V c 2 t) (iblk12 V c 4 t) (iblk12 V c 1 t) (iblk12 V c 3 t))) :=
  (outsAt12_B V c t h0).trans (congrArg₂ Prod.mk (out12_B_5_eq (F := Ideal) c (grid12.coords t) (ms12_0 t) (hs12_0 t) (ms12_1 t) (hs12_1 t) (ms12_2 t) (hs12_2 t) (ms12_3 t) (hs12_3 t) (ms12_4 t) (hs12_4 t) (ms12_5 t) (hs12_5 t) (ms12_6 t) (hs12_6 t) (ms12_7 t) (hs12_7 t) (fun h => h0 ((hcond12_0 t).mp h)) (iblk12 V c 0 t) (iblk12 V c 1 t) (iblk12 V c 2 t) (iblk12 V c 3 t) (iblk12 V c 4 t) (outsAt12 V c (t.val - 1) (Nat.lt_of_le_of_lt (Nat.sub_le _ _) t.isLt)).2.1 (outsAt12 V c (t.val - 1) (Nat.lt_of_le_of_lt (Nat.sub_le _ _) t.isLt)).2.2)
    (congrArg₂ Prod.mk (out12_B_6_eq (F := Ideal) c (grid12.coords t) (ms12_0 t) (hs12_0 t) (ms12_1 t) (hs12_1 t) (ms12_2 t) (hs12_2 t) (ms12_3 t) (hs12_3 t) (ms12_4 t) (hs12_4 t) (ms12_5 t) (hs12_5 t) (ms12_6 t) (hs12_6 t) (ms12_7 t) (hs12_7 t) (fun h => h0 ((hcond12_0 t).mp h)) (iblk12 V c 0 t) (iblk12 V c 1 t) (iblk12 V c 2 t) (iblk12 V c 3 t) (iblk12 V c 4 t) (outsAt12 V c (t.val - 1) (Nat.lt_of_le_of_lt (Nat.sub_le _ _) t.isLt)).2.1 (outsAt12 V c (t.val - 1) (Nat.lt_of_le_of_lt (Nat.sub_le _ _) t.isLt)).2.2)
      (out12_B_7_eq (F := Ideal) c (grid12.coords t) (ms12_0 t) (hs12_0 t) (ms12_1 t) (hs12_1 t) (ms12_2 t) (hs12_2 t) (ms12_3 t) (hs12_3 t) (ms12_4 t) (hs12_4 t) (ms12_5 t) (hs12_5 t) (ms12_6 t) (hs12_6 t) (ms12_7 t) (hs12_7 t) (fun h => h0 ((hcond12_0 t).mp h)) (iblk12 V c 0 t) (iblk12 V c 1 t) (iblk12 V c 2 t) (iblk12 V c 3 t) (iblk12 V c 4 t) (outsAt12 V c (t.val - 1) (Nat.lt_of_le_of_lt (Nat.sub_le _ _) t.isLt)).2.1 (outsAt12 V c (t.val - 1) (Nat.lt_of_le_of_lt (Nat.sub_le _ _) t.isLt)).2.2)))

/-- The column sums of step t's block of pre-activations are block sum t of the whole arrays' column, -/
theorem colblk12 (t : Fin cfg12.N) (q : Fin 64) :
    ∑ r : Fin 5000, (k12_pay4 (F := Ideal) (iblk12 V c 0 t) (iblk12 V c 2 t) (iblk12 V c 4 t) (iblk12 V c 1 t) (iblk12 V c 3 t)) (ix2 r q) = blockSum 10 5000 (fun p : Fin 50000 => hpre12 V c (ix2 p q)) t.val := by
  have ht : t.val < 10 := lt_of_lt_of_eq t.isLt (show cfg12.N = 10 from N_12)
  rw [blockSum_of_lt 10 5000 _ ht]
  exact Finset.sum_congr rfl fun r _ =>
    hblk12 V c t (ix2 r q) (show t.val * 5000 + r.val < 50000 by have := r.isLt; omega)

/-- and likewise the column sums of its squares. -/
theorem colblksq12 (t : Fin cfg12.N) (q : Fin 64) :
    ∑ r : Fin 5000, (k12_pay4 (F := Ideal) (iblk12 V c 0 t) (iblk12 V c 2 t) (iblk12 V c 4 t) (iblk12 V c 1 t) (iblk12 V c 3 t)) (ix2 r q) * (k12_pay4 (F := Ideal) (iblk12 V c 0 t) (iblk12 V c 2 t) (iblk12 V c 4 t) (iblk12 V c 1 t) (iblk12 V c 3 t)) (ix2 r q)
      = blockSum 10 5000 (fun p : Fin 50000 => hpre12 V c (ix2 p q) * hpre12 V c (ix2 p q)) t.val := by
  have ht : t.val < 10 := lt_of_lt_of_eq t.isLt (show cfg12.N = 10 from N_12)
  rw [blockSum_of_lt 10 5000 _ ht]
  exact Finset.sum_congr rfl fun r _ =>
    congrArg₂ (· * ·) (hblk12 V c t (ix2 r q) (show t.val * 5000 + r.val < 50000 by have := r.isLt; omega))
      (hblk12 V c t (ix2 r q) (show t.val * 5000 + r.val < 50000 by have := r.isLt; omega))

/-- THE RUNNING ROWS: after step n they hold the sums, and the sums of squares, over the rows of blocks 0 … n. -/
theorem rows12 : ∀ (n : ℕ) (h : n < cfg12.N) (q : Fin 64),
    (outsAt12 V c n h).2.1 (ix2 0 q) = ∑ s ∈ Finset.range (n + 1), blockSum 10 5000 (fun p : Fin 50000 => hpre12 V c (ix2 p q)) s
    ∧ (outsAt12 V c n h).2.2 (ix2 0 q)
        = ∑ s ∈ Finset.range (n + 1), blockSum 10 5000 (fun p : Fin 50000 => hpre12 V c (ix2 p q) * hpre12 V c (ix2 p q)) s
  | 0, h, q => by
    have e : outsAt12 V c 0 h = _ := outs12_A V c ⟨0, h⟩ rfl
    rw [e]
    exact ⟨((pay12_sum (iblk12 V c 0 ⟨0, h⟩) (iblk12 V c 1 ⟨0, h⟩) (iblk12 V c 2 ⟨0, h⟩) (iblk12 V c 3 ⟨0, h⟩) (iblk12 V c 4 ⟨0, h⟩) (k12_pay2 (F := Ideal)) q).trans
        ((congrArg₂ (· + ·) (pay12_zero6 (ix2 0 q)) (colblk12 V c ⟨0, h⟩ q)).trans (zero_add _))).trans
          (Finset.sum_range_one _).symm,
      ((pay12_sumsq (iblk12 V c 0 ⟨0, h⟩) (iblk12 V c 1 ⟨0, h⟩) (iblk12 V c 2 ⟨0, h⟩) (iblk12 V c 3 ⟨0, h⟩) (iblk12 V c 4 ⟨0, h⟩) (k12_pay3 (F := Ideal)) q).trans
        ((congrArg₂ (· + ·) (pay12_zero7 (ix2 0 q)) (colblksq12 V c ⟨0, h⟩ q)).trans (zero_add _))).trans
          (Finset.sum_range_one _).symm⟩
  | n + 1, h, q => by
    have hN : cfg12.N = 10 := N_12
    have hB : ¬(⟨n + 1, h⟩ : Fin cfg12.N).val % 10 = 0 := by dsimp only; omega
    have e : outsAt12 V c (n + 1) h = _ := outs12_B V c ⟨n + 1, h⟩ hB
    obtain ⟨ih6, ih7⟩ := rows12 n (Nat.lt_of_succ_lt h) q
    rw [e]
    exact ⟨((pay12_sum (iblk12 V c 0 ⟨n + 1, h⟩) (iblk12 V c 1 ⟨n + 1, h⟩) (iblk12 V c 2 ⟨n + 1, h⟩) (iblk12 V c 3 ⟨n + 1, h⟩) (iblk12 V c 4 ⟨n + 1, h⟩) (outsAt12 V c n (Nat.lt_of_succ_lt h)).2.1 q).trans
        (congrArg₂ (· + ·) ih6 (colblk12 V c ⟨n + 1, h⟩ q))).trans (Finset.sum_range_succ _ (n + 1)).symm,
      ((pay12_sumsq (iblk12 V c 0 ⟨n + 1, h⟩) (iblk12 V c 1 ⟨n + 1, h⟩) (iblk12 V c 2 ⟨n + 1, h⟩) (iblk12 V c 3 ⟨n + 1, h⟩) (iblk12 V c 4 ⟨n + 1, h⟩) (outsAt12 V c n (Nat.lt_of_succ_lt h)).2.2 q).trans
        (congrArg₂ (· + ·) ih7 (colblksq12 V c ⟨n + 1, h⟩ q))).trans (Finset.sum_range_succ _ (n + 1)).symm⟩

/-- The block of pre-activations after every step, whichever case the step is. -/
theorem first12 (t : Fin cfg12.N) : (outsAt12 V c t.val t.isLt).1 = k12_pay4 (F := Ideal) (iblk12 V c 0 t) (iblk12 V c 2 t) (iblk12 V c 4 t) (iblk12 V c 1 t) (iblk12 V c 3 t) := by
  by_cases h0 : t.val % 10 = 0
  · exact congrArg Prod.fst (outs12_A V c t h0)
  · exact congrArg Prod.fst (outs12_B V c t h0)

/-! ### The pre-activations array: every step writes its block back -/

/-- An index of the array is in step t's block iff each coordinate is in the block's range. -/
theorem mem_blk12_5 (t : Fin cfg12.N) (i : S50000x64.Idx) :
    i ∈ ((cfg12.win 5).blk t).view.set ↔ ∀ a : Fin 2, win12_5.index t a * S5000x64.size a ≤ (i a).val ∧ (i a).val < win12_5.index t a * S5000x64.size a + S5000x64.size a := by
  show i ∈ ((View.whole main_v205_0).slice (win12_5.rect t)).set ↔ _
  rw [View.set_slice_whole, Rect.mem_set_unit]
  exact Iff.rfl

/-- What step t writes back is block t of the whole arrays' pre-activations. -/
theorem flushed12_5 (t : Fin cfg12.N) :
    (dat12 V c).flushed 5 t = ((cfg12.win 5).blk t).view.read (Elt Ideal) (hpre12 V c) := by
  show (cfg12.win 5).cut (grid12.coords t) ((dat12 V c).after 5 t) = _
  rw [after12_5, first12 V c t]
  have ht : t.val < 10 := lt_of_lt_of_eq t.isLt (show cfg12.N = 10 from N_12)
  have e0 := (idx12 t).2.2.2.2.1
  have e1 := (idx12 t).2.2.2.2.2
  funext y
  have hy0 : (y 0).val < 5000 := (y 0).isLt
  have hy1 : (y 1).val < 64 := (y 1).isLt
  have hr : t.val * 5000 + (y 0).val < 50000 := by omega
  show (k12_pay4 (F := Ideal) (iblk12 V c 0 t) (iblk12 V c 2 t) (iblk12 V c 4 t) (iblk12 V c 1 t) (iblk12 V c 3 t)) ((cfg12.win 5).xinj (grid12.coords t) y) = hpre12 V c (((cfg12.win 5).blk t).view.emb y)
  refine (hblk12 V c t ((cfg12.win 5).xinj (grid12.coords t) y) hr).trans (congrArg (hpre12 V c) (funext fun a => Fin.ext ?_))
  match a with
  | ⟨0, _⟩ => show t.val * 5000 + (y 0).val = win12_5.index t (0 : Fin 2) * 5000 + 1 * (y 0).val; rw [e0]; omega
  | ⟨1, _⟩ => show (y 1).val = win12_5.index t (1 : Fin 2) * 64 + 1 * (y 1).val; rw [e1]; omega

/-- Row r of the array is in block r / 5000. -/
theorem cover12_5 (i : S50000x64.Idx) :
    ∃ t : Fin cfg12.N, (cfg12.win 5).flush t = true ∧ i ∈ ((cfg12.win 5).blk t).view.set := by
  have hi0 : (i 0).val < 50000 := (i 0).isLt
  have hi1 : (i 1).val < 64 := (i 1).isLt
  have hN : cfg12.N = 10 := N_12
  have hq : (i 0).val / 5000 < cfg12.N := by omega
  have e0 : win12_5.index ⟨(i 0).val / 5000, hq⟩ (0 : Fin 2) = (i 0).val / 5000 := (idx12 ⟨(i 0).val / 5000, hq⟩).2.2.2.2.1
  have e1 := (idx12 ⟨(i 0).val / 5000, hq⟩).2.2.2.2.2
  refine ⟨⟨(i 0).val / 5000, hq⟩, flush12_5 _, ?_⟩
  rw [mem_blk12_5]
  intro a
  match a with
  | ⟨0, _⟩ => show win12_5.index ⟨(i 0).val / 5000, hq⟩ (0 : Fin 2) * 5000 ≤ (i 0).val ∧ (i 0).val < win12_5.index ⟨(i 0).val / 5000, hq⟩ (0 : Fin 2) * 5000 + 5000; rw [e0]; omega
  | ⟨1, _⟩ => show win12_5.index ⟨(i 0).val / 5000, hq⟩ (1 : Fin 2) * 64 ≤ (i 1).val ∧ (i 1).val < win12_5.index ⟨(i 0).val / 5000, hq⟩ (1 : Fin 2) * 64 + 64; rw [e1]; omega

/-! ### The two rows: written back once, after the last step -/

/-- The last step. -/
abbrev last12 : Fin cfg12.N := ⟨9, by rw [show cfg12.N = 10 from N_12]; decide⟩

theorem mem_blk12_6 (t : Fin cfg12.N) (i : S1x64.Idx) :
    i ∈ ((cfg12.win 6).blk t).view.set ↔ ∀ a : Fin 2, win12_6.index t a * S1x64.size a ≤ (i a).val ∧ (i a).val < win12_6.index t a * S1x64.size a + S1x64.size a := by
  show i ∈ ((View.whole main_v205_1).slice (win12_6.rect t)).set ↔ _
  rw [View.set_slice_whole, Rect.mem_set_unit]
  exact Iff.rfl

/-- After the last step this running row is the full column sums: ten block sums make the sum over all rows. -/
theorem row12_6 (hl : 9 < cfg12.N) :
    ((outsAt12 V c 9 hl).2.1 : Mat 1 64) = colSum (hpre12 V c) := by
  funext j
  obtain ⟨u, q, rfl⟩ : ∃ (u : Fin 1) (q : Fin 64), j = ix2 u q := ⟨j 0, j 1, eq_ix2 j⟩
  obtain rfl : u = 0 := Subsingleton.elim _ _
  exact ((rows12 V c 9 hl q).1.trans
    (sum_range_blockSum 10 5000 (fun p : Fin 50000 => hpre12 V c (ix2 p q)))).trans
      (Cert.Layer.colSum_apply (hpre12 V c) q).symm

/-- The one write-back of this row, after step 9, writes the full column sums (its block is the whole row). -/
theorem flushed12_6 (t : Fin cfg12.N) (hf : (cfg12.win 6).flush t = true) :
    (dat12 V c).flushed 6 t = ((cfg12.win 6).blk t).view.read (Elt Ideal) (colSum (hpre12 V c)) := by
  have hN : cfg12.N = 10 := N_12
  have h9 : t.val = 9 := by have := (flush12_6 t).mp hf; have := t.isLt; omega
  have hl : 9 < cfg12.N := by omega
  have eo : ∀ (n : ℕ) (hn : n < cfg12.N), n = 9 → outsAt12 V c n hn = outsAt12 V c 9 hl :=
    fun n hn e => by subst e; rfl
  show (cfg12.win 6).cut (grid12.coords t) ((dat12 V c).after 6 t) = _
  rw [after12_6, eo t.val t.isLt h9, row12_6 V c hl]
  have e0 := (whole12 t).2.2.2.2.2.2.1
  have e1 := (whole12 t).2.2.2.2.2.2.2.1
  have hz' : (fun a => win12_6.index t a * main_v205_1.ty.shape.size a) = fun _ => 0 := funext fun a => by
    fin_cases a
    · show win12_6.index t (0 : Fin 2) * 1 = 0; rw [e0]
    · show win12_6.index t (1 : Fin 2) * 64 = 0; rw [e1]
  generalize colSum (hpre12 V c) = G
  exact (Memref.read_access_unit_zero (Elt Ideal) main_v205_1 hz' (fun a => by rw [congrFun hz' a]; simp) G).symm

/-- The last step's block is the whole row. -/
theorem cover12_6 (i : S1x64.Idx) :
    ∃ t : Fin cfg12.N, (cfg12.win 6).flush t = true ∧ i ∈ ((cfg12.win 6).blk t).view.set := by
  have hi0 : (i 0).val < 1 := (i 0).isLt
  have hi1 : (i 1).val < 64 := (i 1).isLt
  have e0 := (whole12 last12).2.2.2.2.2.2.1
  have e1 := (whole12 last12).2.2.2.2.2.2.2.1
  refine ⟨last12, (flush12_6 last12).mpr rfl, ?_⟩
  rw [mem_blk12_6]
  intro a
  match a with
  | ⟨0, _⟩ => show win12_6.index last12 (0 : Fin 2) * 1 ≤ (i 0).val ∧ (i 0).val < win12_6.index last12 (0 : Fin 2) * 1 + 1; rw [e0]; omega
  | ⟨1, _⟩ => show win12_6.index last12 (1 : Fin 2) * 64 ≤ (i 1).val ∧ (i 1).val < win12_6.index last12 (1 : Fin 2) * 64 + 64; rw [e1]; omega

theorem mem_blk12_7 (t : Fin cfg12.N) (i : S1x64.Idx) :
    i ∈ ((cfg12.win 7).blk t).view.set ↔ ∀ a : Fin 2, win12_7.index t a * S1x64.size a ≤ (i a).val ∧ (i a).val < win12_7.index t a * S1x64.size a + S1x64.size a := by
  show i ∈ ((View.whole main_v205_2).slice (win12_7.rect t)).set ↔ _
  rw [View.set_slice_whole, Rect.mem_set_unit]
  exact Iff.rfl

/-- After the last step this running row is the full column sums: ten block sums make the sum over all rows. -/
theorem row12_7 (hl : 9 < cfg12.N) :
    ((outsAt12 V c 9 hl).2.2 : Mat 1 64) = colSumSq (hpre12 V c) := by
  funext j
  obtain ⟨u, q, rfl⟩ : ∃ (u : Fin 1) (q : Fin 64), j = ix2 u q := ⟨j 0, j 1, eq_ix2 j⟩
  obtain rfl : u = 0 := Subsingleton.elim _ _
  exact ((rows12 V c 9 hl q).2.trans
    (sum_range_blockSum 10 5000 (fun p : Fin 50000 => hpre12 V c (ix2 p q) * hpre12 V c (ix2 p q)))).trans
      (Cert.Layer.colSumSq_apply (hpre12 V c) q).symm

/-- The one write-back of this row, after step 9, writes the full column sums (its block is the whole row). -/
theorem flushed12_7 (t : Fin cfg12.N) (hf : (cfg12.win 7).flush t = true) :
    (dat12 V c).flushed 7 t = ((cfg12.win 7).blk t).view.read (Elt Ideal) (colSumSq (hpre12 V c)) := by
  have hN : cfg12.N = 10 := N_12
  have h9 : t.val = 9 := by have := (flush12_7 t).mp hf; have := t.isLt; omega
  have hl : 9 < cfg12.N := by omega
  have eo : ∀ (n : ℕ) (hn : n < cfg12.N), n = 9 → outsAt12 V c n hn = outsAt12 V c 9 hl :=
    fun n hn e => by subst e; rfl
  show (cfg12.win 7).cut (grid12.coords t) ((dat12 V c).after 7 t) = _
  rw [after12_7, eo t.val t.isLt h9, row12_7 V c hl]
  have e0 := (whole12 t).2.2.2.2.2.2.2.2.1
  have e1 := (whole12 t).2.2.2.2.2.2.2.2.2
  have hz' : (fun a => win12_7.index t a * main_v205_2.ty.shape.size a) = fun _ => 0 := funext fun a => by
    fin_cases a
    · show win12_7.index t (0 : Fin 2) * 1 = 0; rw [e0]
    · show win12_7.index t (1 : Fin 2) * 64 = 0; rw [e1]
  generalize colSumSq (hpre12 V c) = G
  exact (Memref.read_access_unit_zero (Elt Ideal) main_v205_2 hz' (fun a => by rw [congrFun hz' a]; simp) G).symm

/-- The last step's block is the whole row. -/
theorem cover12_7 (i : S1x64.Idx) :
    ∃ t : Fin cfg12.N, (cfg12.win 7).flush t = true ∧ i ∈ ((cfg12.win 7).blk t).view.set := by
  have hi0 : (i 0).val < 1 := (i 0).isLt
  have hi1 : (i 1).val < 64 := (i 1).isLt
  have e0 := (whole12 last12).2.2.2.2.2.2.2.2.1
  have e1 := (whole12 last12).2.2.2.2.2.2.2.2.2
  refine ⟨last12, (flush12_7 last12).mpr rfl, ?_⟩
  rw [mem_blk12_7]
  intro a
  match a with
  | ⟨0, _⟩ => show win12_7.index last12 (0 : Fin 2) * 1 ≤ (i 0).val ∧ (i 0).val < win12_7.index last12 (0 : Fin 2) * 1 + 1; rw [e0]; omega
  | ⟨1, _⟩ => show win12_7.index last12 (1 : Fin 2) * 64 ≤ (i 1).val ∧ (i 1).val < win12_7.index last12 (1 : Fin 2) * 64 + 64; rw [e1]; omega

end Region12

/-- The pre-activations array after the stage: the dense step of the arrays the stage found. -/
theorem final12_5 (V : (c : Dev nD) → (b : Ref sig .tc) → Buf (Elt Ideal) ((c : Thread nD τ).loc b)) (c : Dev nD) :
    (Gen.dat12 (F := Ideal) V c).arrAt 5 cfg12.N
      = Cert.Layer.lin (V c (Pipeline.arrRef spec12 0)) (V c (Pipeline.arrRef spec12 1)) (V c (Pipeline.arrRef spec12 2)) (V c (Pipeline.arrRef spec12 3)) (V c (Pipeline.arrRef spec12 4)) :=
  (dat12 V c).arrAt_eq_of_cover 5 (hpre12 V c) (fun t _ => flushed12_5 V c t) cover12_5

/-- The row of sums after the stage: the column sums of that dense step. -/
theorem final12_6 (V : (c : Dev nD) → (b : Ref sig .tc) → Buf (Elt Ideal) ((c : Thread nD τ).loc b)) (c : Dev nD) :
    (Gen.dat12 (F := Ideal) V c).arrAt 6 cfg12.N
      = Cert.Layer.colSum (Cert.Layer.lin (V c (Pipeline.arrRef spec12 0)) (V c (Pipeline.arrRef spec12 1)) (V c (Pipeline.arrRef spec12 2)) (V c (Pipeline.arrRef spec12 3)) (V c (Pipeline.arrRef spec12 4))) :=
  (dat12 V c).arrAt_eq_of_cover 6 (colSum (hpre12 V c)) (flushed12_6 V c) cover12_6

/-- The row of sums of squares after the stage: the column sums of squares of that dense step. -/
theorem final12_7 (V : (c : Dev nD) → (b : Ref sig .tc) → Buf (Elt Ideal) ((c : Thread nD τ).loc b)) (c : Dev nD) :
    (Gen.dat12 (F := Ideal) V c).arrAt 7 cfg12.N
      = Cert.Layer.colSumSq (Cert.Layer.lin (V c (Pipeline.arrRef spec12 0)) (V c (Pipeline.arrRef spec12 1)) (V c (Pipeline.arrRef spec12 2)) (V c (Pipeline.arrRef spec12 3)) (V c (Pipeline.arrRef spec12 4))) :=
  (dat12 V c).arrAt_eq_of_cover 7 (colSumSq (hpre12 V c)) (flushed12_7 V c) cover12_7

end Cert.KernelIdeal.RegionValue

end
-- ==== Proof.RegionA13.lean ====
/-
  The normalising step of one layer, read off the pipeline's write-backs.

  The pipeline walks ten row blocks of 5000 rows.  At block t the body holds rows 5000·t … 5000·t + 4999 of the
  pre-activation array and the four per-column rows (mean, variance, gain, offset), and stores, at row p and column q of
  the block, tanh(((h − mean q)·rsqrt(var q + eps))·gain q + offset q) with h the pre-activation at row 5000·t + p.  That
  is block t of ONE function of the whole arrays, the blocks tile the 50000 rows, and every block is written back: so the
  output array ends holding that function.
-/
import proofs.«147565_j9259949490665_1_alg».proof.Proof.Gen.KernelIdeal.Frame
import proofs.«147565_j9259949490665_1_alg».proof.Proof.Spec
import Idealize.ShloMosaic.Lib.Pipeline.Value
import Idealize.ShloMosaic.Lib.ValueLayout

set_option maxRecDepth 16384

noncomputable section

namespace Cert.KernelIdeal.RegionValue

open Idealize.ShloMosaic Idealize.ShloMosaic.TcCoe Idealize.ShloMosaic.ValueIdx
open Idealize.ShloMosaic.Pipeline (Dat)

/-- The zero offsets of an access to a whole buffer. -/
theorem zero_off13 : (![0, 0] : Fin 2 → Nat) = fun _ => 0 := funext fun a => by fin_cases a <;> rfl

/-- Two functions of a 5000×64 block agree when they agree at every row and column. -/
theorem ext_block13 {α : Type} (f g : S5000x64.Idx → α) (h : ∀ (p : Fin 5000) (q : Fin 64), f (ix2 p q) = g (ix2 p q)) :
    f = g := funext fun j => by rw [eq_ix2 j]; exact h _ _

/-- The body's arithmetic at row p, column q of its block: the four rows are read at column q, the constant is the
    same binary word as the specification's. -/
theorem pay13_apply (x0 : Vec Ideal S5000x64 .f32) (x1 x2 x3 x4 : Vec Ideal S1x64 .f32) (p : Fin 5000) (q : Fin 64) :
    Gen.k13_pay1 (F := Ideal) x2 x0 x1 x3 x4 (ix2 p q)
      = Ideal.tanh ((((x0 (ix2 p q) - x1 (ix2 0 q)) * Ideal.rsqrt (x2 (ix2 0 q) + Cert.Layer.eps)) * x3 (ix2 0 q))
          + x4 (ix2 0 q)) := by
  unfold Gen.k13_pay1
  simp only [shapeCast_self]
  show Ideal.tanh ((((x0 (ix2 p q) - broadcastTo S5000x64 x1 _ (ix2 p q))
      * broadcastTo S5000x64 (rsqrt (F := Ideal) (addf (F := Ideal) x2 (broadcast S1x64 (Scalar.ofBits (F := Ideal) .f32 0x3727C5AC#32)))) _ (ix2 p q))
      * broadcastTo S5000x64 x3 _ (ix2 p q)) + broadcastTo S5000x64 x4 _ (ix2 p q)) = _
  simp only [broadcastTo_1b_ab_apply]
  rfl

/-- What the body leaves in the output block: its one store covers the block, and its loads read whole blocks, so the
    block holds the body's arithmetic of the five input blocks. -/
theorem out13_eq (x0 : Vec Ideal S5000x64 .f32) (x1 x2 x3 x4 : Vec Ideal S1x64 .f32) :
    Gen.out13_5 (F := Ideal) x0 x1 x2 x3 x4 = Gen.k13_pay1 x2 x0 x1 x3 x4 := by
  unfold Gen.out13_5
  rw [View.canon_unit_zero zero_off13]
  simp only [View.ld_unit_zero (S := S5000x64) zero_off13, View.ld_unit_zero (S := S1x64) zero_off13]

/-- When row p of the first block is row r of a whole array and the four rows are those of whole arrays, entry (p, q) of
    the output block is entry (r, q) of the normalising step of the whole arrays. -/
theorem block_val13 (x0 : Vec Ideal S5000x64 .f32) (x1 x2 x3 x4 : Vec Ideal S1x64 .f32)
    (A0 : Cert.Layer.Mat 50000 64) (A1 A2 A3 A4 : Cert.Layer.Mat 1 64) (p : Fin 5000) (q : Fin 64) (r : Fin 50000)
    (h0 : x0 (ix2 p q) = A0 (ix2 r q)) (h1 : x1 (ix2 0 q) = A1 (ix2 0 q)) (h2 : x2 (ix2 0 q) = A2 (ix2 0 q))
    (h3 : x3 (ix2 0 q) = A3 (ix2 0 q)) (h4 : x4 (ix2 0 q) = A4 (ix2 0 q)) :
    Gen.out13_5 (F := Ideal) x0 x1 x2 x3 x4 (ix2 p q) = Cert.Layer.bn A0 A1 A2 A3 A4 (ix2 r q) := by
  rw [out13_eq, pay13_apply, Cert.Layer.bn_apply, h0, h1, h2, h3, h4]

/-- The block index of every window at every point of the grid: the two row-blocked windows sit at block (t, 0), the
    four rows at block (0, 0). -/
theorem idx_facts13 : ∀ t : Fin cfg13.N,
    win13_0.index t (0 : Fin 2) = t.val ∧ win13_0.index t (1 : Fin 2) = 0
    ∧ win13_1.index t (0 : Fin 2) = 0 ∧ win13_1.index t (1 : Fin 2) = 0
    ∧ win13_2.index t (0 : Fin 2) = 0 ∧ win13_2.index t (1 : Fin 2) = 0
    ∧ win13_3.index t (0 : Fin 2) = 0 ∧ win13_3.index t (1 : Fin 2) = 0
    ∧ win13_4.index t (0 : Fin 2) = 0 ∧ win13_4.index t (1 : Fin 2) = 0
    ∧ win13_5.index t (0 : Fin 2) = t.val ∧ win13_5.index t (1 : Fin 2) = 0 :=
  (by decide +kernel : ∀ t : Fin grid13.N, _)

/-- The grid has ten points. -/
theorem point_lt13 (t : Fin cfg13.N) : t.val < 10 := lt_of_lt_of_eq t.isLt Gen.N_13

/-- Row p, column q of the pre-activation block at point t sits at row 5000·t + p of the pre-activation array. -/
theorem emb13_0 (t : Fin cfg13.N) (p : Fin 5000) (q : Fin 64) (r : Fin 50000) (hr : r.val = t.val * 5000 + p.val) :
    (((cfg13.win 0).blk t).view.emb (ix2 p q : S5000x64.Idx) : S50000x64.Idx) = ix2 r q := by
  obtain ⟨e0, e1, -⟩ := idx_facts13 t
  refine funext fun a => Fin.ext ?_
  match a with
  | ⟨0, _⟩ => show win13_0.index t (0 : Fin 2) * 5000 + 1 * p.val = r.val; rw [e0, hr]; omega
  | ⟨1, _⟩ => show win13_0.index t (1 : Fin 2) * 64 + 1 * q.val = q.val; rw [e1]; omega

/-- Column q of per-column row 1's block at any point sits at column q of the row. -/
theorem emb13_1 (t : Fin cfg13.N) (q : Fin 64) :
    (((cfg13.win 1).blk t).view.emb (ix2 0 q : S1x64.Idx) : S1x64.Idx) = ix2 0 q := by
  obtain ⟨-, -, e0, e1, -⟩ := idx_facts13 t
  refine funext fun a => Fin.ext ?_
  match a with
  | ⟨0, _⟩ => show win13_1.index t (0 : Fin 2) * 1 + 1 * 0 = 0; rw [e0]
  | ⟨1, _⟩ => show win13_1.index t (1 : Fin 2) * 64 + 1 * q.val = q.val; rw [e1]; omega

/-- Column q of per-column row 2's block at any point sits at column q of the row. -/
theorem emb13_2 (t : Fin cfg13.N) (q : Fin 64) :
    (((cfg13.win 2).blk t).view.emb (ix2 0 q : S1x64.Idx) : S1x64.Idx) = ix2 0 q := by
  obtain ⟨-, -, -, -, e0, e1, -⟩ := idx_facts13 t
  refine funext fun a => Fin.ext ?_
  match a with
  | ⟨0, _⟩ => show win13_2.index t (0 : Fin 2) * 1 + 1 * 0 = 0; rw [e0]
  | ⟨1, _⟩ => show win13_2.index t (1 : Fin 2) * 64 + 1 * q.val = q.val; rw [e1]; omega

/-- Column q of per-column row 3's block at any point sits at column q of the row. -/
theorem emb13_3 (t : Fin cfg13.N) (q : Fin 64) :
    (((cfg13.win 3).blk t).view.emb (ix2 0 q : S1x64.Idx) : S1x64.Idx) = ix2 0 q := by
  obtain ⟨-, -, -, -, -, -, e0, e1, -⟩ := idx_facts13 t
  refine funext fun a => Fin.ext ?_
  match a with
  | ⟨0, _⟩ => show win13_3.index t (0 : Fin 2) * 1 + 1 * 0 = 0; rw [e0]
  | ⟨1, _⟩ => show win13_3.index t (1 : Fin 2) * 64 + 1 * q.val = q.val; rw [e1]; omega

/-- Column q of per-column row 4's block at any point sits at column q of the row. -/
theorem emb13_4 (t : Fin cfg13.N) (q : Fin 64) :
    (((cfg13.win 4).blk t).view.emb (ix2 0 q : S1x64.Idx) : S1x64.Idx) = ix2 0 q := by
  obtain ⟨-, -, -, -, -, -, -, -, e0, e1, -⟩ := idx_facts13 t
  refine funext fun a => Fin.ext ?_
  match a with
  | ⟨0, _⟩ => show win13_4.index t (0 : Fin 2) * 1 + 1 * 0 = 0; rw [e0]
  | ⟨1, _⟩ => show win13_4.index t (1 : Fin 2) * 64 + 1 * q.val = q.val; rw [e1]; omega

/-- Row p, column q of the output block at point t sits at row 5000·t + p of the output array. -/
theorem emb13_5 (t : Fin cfg13.N) (p : Fin 5000) (q : Fin 64) (r : Fin 50000) (hr : r.val = t.val * 5000 + p.val) :
    (((cfg13.win 5).blk t).view.emb (ix2 p q : S5000x64.Idx) : S50000x64.Idx) = ix2 r q := by
  obtain ⟨-, -, -, -, -, -, -, -, -, -, e0, e1⟩ := idx_facts13 t
  refine funext fun a => Fin.ext ?_
  match a with
  | ⟨0, _⟩ => show win13_5.index t (0 : Fin 2) * 5000 + 1 * p.val = r.val; rw [e0, hr]; omega
  | ⟨1, _⟩ => show win13_5.index t (1 : Fin 2) * 64 + 1 * q.val = q.val; rw [e1]; omega

section
variable (V : (c : Dev nD) → (b : Ref sig .tc) → Buf (Elt Ideal) ((c : Thread nD τ).loc b))

set_option maxHeartbeats 1000000 in
/-- Row p, column q of the pre-activation block at point t is row 5000·t + p of the pre-activation array. -/
theorem blk13_0_apply (c : Dev nD) (t : Fin cfg13.N) (p : Fin 5000) (q : Fin 64) (r : Fin 50000)
    (hr : r.val = t.val * 5000 + p.val) :
    (Gen.iblk13 (F := Ideal) V c 0 t : S5000x64.Idx → EReal) (ix2 p q)
      = (V c (Pipeline.arrRef spec13 0) : S50000x64.Idx → EReal) (ix2 r q) :=
  congrArg (V c (Pipeline.arrRef spec13 0) : S50000x64.Idx → EReal) (emb13_0 t p q r hr)

set_option maxHeartbeats 1000000 in
/-- The block of per-column row 1 at any point is the row itself. -/
theorem blk13_1_apply (c : Dev nD) (t : Fin cfg13.N) (q : Fin 64) :
    (Gen.iblk13 (F := Ideal) V c 1 t : S1x64.Idx → EReal) (ix2 0 q)
      = (V c (Pipeline.arrRef spec13 1) : S1x64.Idx → EReal) (ix2 0 q) :=
  congrArg (V c (Pipeline.arrRef spec13 1) : S1x64.Idx → EReal) (emb13_1 t q)

set_option maxHeartbeats 1000000 in
/-- The block of per-column row 2 at any point is the row itself. -/
theorem blk13_2_apply (c : Dev nD) (t : Fin cfg13.N) (q : Fin 64) :
    (Gen.iblk13 (F := Ideal) V c 2 t : S1x64.Idx → EReal) (ix2 0 q)
      = (V c (Pipeline.arrRef spec13 2) : S1x64.Idx → EReal) (ix2 0 q) :=
  congrArg (V c (Pipeline.arrRef spec13 2) : S1x64.Idx → EReal) (emb13_2 t q)

set_option maxHeartbeats 1000000 in
/-- The block of per-column row 3 at any point is the row itself. -/
theorem blk13_3_apply (c : Dev nD) (t : Fin cfg13.N) (q : Fin 64) :
    (Gen.iblk13 (F := Ideal) V c 3 t : S1x64.Idx → EReal) (ix2 0 q)
      = (V c (Pipeline.arrRef spec13 3) : S1x64.Idx → EReal) (ix2 0 q) :=
  congrArg (V c (Pipeline.arrRef spec13 3) : S1x64.Idx → EReal) (emb13_3 t q)

set_option maxHeartbeats 1000000 in
/-- The block of per-column row 4 at any point is the row itself. -/
theorem blk13_4_apply (c : Dev nD) (t : Fin cfg13.N) (q : Fin 64) :
    (Gen.iblk13 (F := Ideal) V c 4 t : S1x64.Idx → EReal) (ix2 0 q)
      = (V c (Pipeline.arrRef spec13 4) : S1x64.Idx → EReal) (ix2 0 q) :=
  congrArg (V c (Pipeline.arrRef spec13 4) : S1x64.Idx → EReal) (emb13_4 t q)

set_option maxHeartbeats 1000000 in
/-- What point t writes back is block t of the normalising step of the whole arrays. -/
theorem flushed13_5_eq (c : Dev nD) (t : Fin cfg13.N) :
    (Gen.dat13 (F := Ideal) V c).flushed 5 t
      = ((cfg13.win 5).blk t).view.read (Elt Ideal)
          (Cert.Layer.bn (V c (Pipeline.arrRef spec13 0)) (V c (Pipeline.arrRef spec13 1)) (V c (Pipeline.arrRef spec13 2))
            (V c (Pipeline.arrRef spec13 3)) (V c (Pipeline.arrRef spec13 4))) := by
  show (cfg13.win 5).cut (grid13.coords t) ((Gen.dat13 V c).after 5 t) = _
  rw [Gen.after13_5]
  refine ext_block13 _ _ fun p q => ?_
  have hp : p.val < 5000 := p.isLt
  have ht : t.val < 10 := point_lt13 t
  have hr : t.val * 5000 + p.val < 50000 := by omega
  exact (block_val13 (Gen.iblk13 V c 0 t) (Gen.iblk13 V c 1 t) (Gen.iblk13 V c 2 t) (Gen.iblk13 V c 3 t)
      (Gen.iblk13 V c 4 t) (V c (Pipeline.arrRef spec13 0)) (V c (Pipeline.arrRef spec13 1))
      (V c (Pipeline.arrRef spec13 2)) (V c (Pipeline.arrRef spec13 3)) (V c (Pipeline.arrRef spec13 4))
      p q ⟨t.val * 5000 + p.val, hr⟩ (blk13_0_apply V c t p q _ rfl) (blk13_1_apply V c t q) (blk13_2_apply V c t q)
      (blk13_3_apply V c t q) (blk13_4_apply V c t q)).trans
    (congrArg (Cert.Layer.bn (V c (Pipeline.arrRef spec13 0)) (V c (Pipeline.arrRef spec13 1))
      (V c (Pipeline.arrRef spec13 2)) (V c (Pipeline.arrRef spec13 3)) (V c (Pipeline.arrRef spec13 4)))
      (emb13_5 t p q ⟨t.val * 5000 + p.val, hr⟩ rfl).symm)

/-- An index of the output array lies in point t's block iff each coordinate lies in the block's range on its axis. -/
theorem mem_blk13_5 (t : Fin cfg13.N) (i : S50000x64.Idx) :
    i ∈ ((cfg13.win 5).blk t).view.set
      ↔ ∀ a : Fin 2, win13_5.index t a * S5000x64.size a ≤ (i a).val
          ∧ (i a).val < win13_5.index t a * S5000x64.size a + S5000x64.size a := by
  show i ∈ ((View.whole main_v214).slice (win13_5.rect t)).set ↔ _
  rw [View.set_slice_whole, Rect.mem_set_unit]
  exact Iff.rfl

/-- Every row of the output array lies in a block that is written back: row r in the block of point r / 5000. -/
theorem cover13_5 (i : S50000x64.Idx) :
    ∃ t : Fin cfg13.N, (cfg13.win 5).flush t = true ∧ i ∈ ((cfg13.win 5).blk t).view.set := by
  have hi0 : (i 0).val < 50000 := (i 0).isLt
  have hi1 : (i 1).val < 64 := (i 1).isLt
  have hN : (i 0).val / 5000 < cfg13.N := lt_of_lt_of_eq (by omega : (i 0).val / 5000 < 10) Gen.N_13.symm
  refine ⟨⟨(i 0).val / 5000, hN⟩, Gen.flush13_5 _, ?_⟩
  obtain ⟨-, -, -, -, -, -, -, -, -, -, e0, e1⟩ := idx_facts13 ⟨(i 0).val / 5000, hN⟩
  rw [mem_blk13_5]
  intro a
  match a with
  | ⟨0, _⟩ =>
    show win13_5.index ⟨(i 0).val / 5000, hN⟩ (0 : Fin 2) * 5000 ≤ (i 0).val
      ∧ (i 0).val < win13_5.index ⟨(i 0).val / 5000, hN⟩ (0 : Fin 2) * 5000 + 5000
    rw [e0]; show (i 0).val / 5000 * 5000 ≤ (i 0).val ∧ (i 0).val < (i 0).val / 5000 * 5000 + 5000; omega
  | ⟨1, _⟩ =>
    show win13_5.index ⟨(i 0).val / 5000, hN⟩ (1 : Fin 2) * 64 ≤ (i 1).val
      ∧ (i 1).val < win13_5.index ⟨(i 0).val / 5000, hN⟩ (1 : Fin 2) * 64 + 64
    rw [e1]; omega

set_option maxHeartbeats 1000000 in
/-- The output array after the region: the normalising step of the arrays the region found. -/
theorem final13_5 (c : Dev nD) :
    (Gen.dat13 (F := Ideal) V c).arrAt 5 cfg13.N
      = Cert.Layer.bn (V c (Pipeline.arrRef spec13 0)) (V c (Pipeline.arrRef spec13 1)) (V c (Pipeline.arrRef spec13 2))
          (V c (Pipeline.arrRef spec13 3)) (V c (Pipeline.arrRef spec13 4)) :=
  (Gen.dat13 V c).arrAt_eq_of_cover 5 _ (fun t _ => flushed13_5_eq V c t) cover13_5

end

end Cert.KernelIdeal.RegionValue

end
-- ==== Proof.KLayer6.lean ====
/-
  Layer 6 of the kernel program, from the buffer contents before its first host operation to its output array: the
  dense step and its two column-sum rows (launch 12), the mean and variance rows, and the normalising step (launch 13).
-/
import proofs.«147565_j9259949490665_1_alg».proof.Proof.KHostA6
import proofs.«147565_j9259949490665_1_alg».proof.Proof.KHostB6
import proofs.«147565_j9259949490665_1_alg».proof.Proof.RegionR12
import proofs.«147565_j9259949490665_1_alg».proof.Proof.RegionA13

set_option maxRecDepth 16384

noncomputable section

namespace Cert.KernelIdeal.Fold

open Idealize.ShloMosaic Idealize.ShloMosaic.TcCoe Idealize.SL.Sem Idealize.ShloMosaic.ValueIdx
open Cert.KernelIdeal Cert.KernelIdeal.Gen Cert.KernelIdeal.HostFn Cert.Layer

variable (m : (ℓ : Loc nD τ sig) → Buf (Elt Ideal) ℓ) (ρ : Dev nD → PrngReg)

set_option maxHeartbeats 1000000 in
/-- Launch 12's three result arrays at its exit. -/
theorem W26_ro0 (c : Dev nD) : W26 m ρ c (Proc.devRef .tc main_v205_0) = (lin (W25 m ρ c (Proc.devRef .tc main_v203)) (W25 m ρ c (Proc.devRef .tc main_v183)) (W25 m ρ c (Proc.devRef .tc main_v185)) (W25 m ρ c (Proc.devRef .tc main_v187)) (W25 m ρ c (Proc.devRef .tc main_v204))) :=
  (W26_arr m ρ c 5).trans (Cert.KernelIdeal.RegionValue.final12_5 (V25 m ρ) c)
set_option maxHeartbeats 1000000 in
theorem W26_ro1 (c : Dev nD) : W26 m ρ c (Proc.devRef .tc main_v205_1) = colSum (lin (W25 m ρ c (Proc.devRef .tc main_v203)) (W25 m ρ c (Proc.devRef .tc main_v183)) (W25 m ρ c (Proc.devRef .tc main_v185)) (W25 m ρ c (Proc.devRef .tc main_v187)) (W25 m ρ c (Proc.devRef .tc main_v204))) :=
  (W26_arr m ρ c 6).trans (Cert.KernelIdeal.RegionValue.final12_6 (V25 m ρ) c)
set_option maxHeartbeats 1000000 in
theorem W26_ro2 (c : Dev nD) : W26 m ρ c (Proc.devRef .tc main_v205_2) = colSumSq (lin (W25 m ρ c (Proc.devRef .tc main_v203)) (W25 m ρ c (Proc.devRef .tc main_v183)) (W25 m ρ c (Proc.devRef .tc main_v185)) (W25 m ρ c (Proc.devRef .tc main_v187)) (W25 m ρ c (Proc.devRef .tc main_v204))) :=
  (W26_arr m ρ c 7).trans (Cert.KernelIdeal.RegionValue.final12_7 (V25 m ρ) c)
theorem W26_gv (c : Dev nD) : W26 m ρ c (Proc.devRef .tc main_v191) = W25 m ρ c (Proc.devRef .tc main_v191) := W26_of_ne m ρ c main_v191 (by decide)
theorem W26_bev (c : Dev nD) : W26 m ρ c (Proc.devRef .tc main_v193) = W25 m ρ c (Proc.devRef .tc main_v193) := W26_of_ne m ρ c main_v193 (by decide)

set_option maxHeartbeats 1000000 in
/-- Launch 13's result array at its exit. -/
theorem W28_out (c : Dev nD) : W28 m ρ c (Proc.devRef .tc main_v214) = bn (W27 m ρ c (Proc.devRef .tc main_v205_0)) (W27 m ρ c (Proc.devRef .tc main_v207)) (W27 m ρ c (Proc.devRef .tc main_v211)) (W27 m ρ c (Proc.devRef .tc main_v212)) (W27 m ρ c (Proc.devRef .tc main_v213)) :=
  (W28_arr m ρ c 5).trans (Cert.KernelIdeal.RegionValue.final13_5 (V27 m ρ) c)

set_option maxHeartbeats 2000000 in
/-- The layer: its output array is the normalising step, with the array's own mean and variance, of the dense step of the
    aggregated and the plain input. -/
theorem layer6 (c : Dev nD) : W28 m ρ c (Proc.devRef .tc main_v214)
    = bnStep (lin (agg64 (W24 m ρ c (Proc.devRef .tc main_v1)) (W24 m ρ c (Proc.devRef .tc main_v3)) (W24 m ρ c (Proc.devRef .tc main_v183))) (W24 m ρ c (Proc.devRef .tc main_v183)) (matSlice ![5, 0, 0] slices_S7x64x64_S1x64x64_5_0_0 (W24 m ρ c (Proc.devRef .tc main_arg5))) (matSlice ![5, 0, 0] slices_S7x64x64_S1x64x64_5_0_0 (W24 m ρ c (Proc.devRef .tc main_arg6))) (Cert.Row.rowOf (vecSlice7 ![5, 0] slices_S7x64_S1x64_5_0 (W24 m ρ c (Proc.devRef .tc main_arg7))))) (Cert.Row.rowOf (vecSlice8 ![6, 0] slices_S8x64_S1x64_6_0 (W24 m ρ c (Proc.devRef .tc main_arg8)))) (Cert.Row.rowOf (vecSlice8 ![6, 0] slices_S8x64_S1x64_6_0 (W24 m ρ c (Proc.devRef .tc main_arg9)))) := by
  rw [W28_out, W27_hpre, W27_mean, W27_var, W27_grow, W27_berow, W26_ro0, W26_ro1, W26_ro2,
    W26_gv, W26_bev, W25_agg, W25_hp, W25_wl, W25_wr, W25_brow, W25_gv, W25_bev]
  rw [bcast1_row, bcast1_row, bcast1_row, meanRow_eq, varRow_eq]
  rfl

theorem keepL6_v1 (c : Dev nD) : W28 m ρ c (Proc.devRef .tc main_v1) = W24 m ρ c (Proc.devRef .tc main_v1) :=
  (W28_of_ne m ρ c main_v1 (by decide)).trans ((keepH13 m ρ c main_v1 (by decide)).trans ((W26_of_ne m ρ c main_v1 (by decide)).trans (keepH12 m ρ c main_v1 (by decide))))
theorem keepL6_v3 (c : Dev nD) : W28 m ρ c (Proc.devRef .tc main_v3) = W24 m ρ c (Proc.devRef .tc main_v3) :=
  (W28_of_ne m ρ c main_v3 (by decide)).trans ((keepH13 m ρ c main_v3 (by decide)).trans ((W26_of_ne m ρ c main_v3 (by decide)).trans (keepH12 m ρ c main_v3 (by decide))))
theorem keepL6_arg5 (c : Dev nD) : W28 m ρ c (Proc.devRef .tc main_arg5) = W24 m ρ c (Proc.devRef .tc main_arg5) :=
  (W28_of_ne m ρ c main_arg5 (by decide)).trans ((keepH13 m ρ c main_arg5 (by decide)).trans ((W26_of_ne m ρ c main_arg5 (by decide)).trans (keepH12 m ρ c main_arg5 (by decide))))
theorem keepL6_arg6 (c : Dev nD) : W28 m ρ c (Proc.devRef .tc main_arg6) = W24 m ρ c (Proc.devRef .tc main_arg6) :=
  (W28_of_ne m ρ c main_arg6 (by decide)).trans ((keepH13 m ρ c main_arg6 (by decide)).trans ((W26_of_ne m ρ c main_arg6 (by decide)).trans (keepH12 m ρ c main_arg6 (by decide))))
theorem keepL6_arg7 (c : Dev nD) : W28 m ρ c (Proc.devRef .tc main_arg7) = W24 m ρ c (Proc.devRef .tc main_arg7) :=
  (W28_of_ne m ρ c main_arg7 (by decide)).trans ((keepH13 m ρ c main_arg7 (by decide)).trans ((W26_of_ne m ρ c main_arg7 (by decide)).trans (keepH12 m ρ c main_arg7 (by decide))))
theorem keepL6_arg8 (c : Dev nD) : W28 m ρ c (Proc.devRef .tc main_arg8) = W24 m ρ c (Proc.devRef .tc main_arg8) :=
  (W28_of_ne m ρ c main_arg8 (by decide)).trans ((keepH13 m ρ c main_arg8 (by decide)).trans ((W26_of_ne m ρ c main_arg8 (by decide)).trans (keepH12 m ρ c main_arg8 (by decide))))
theorem keepL6_arg9 (c : Dev nD) : W28 m ρ c (Proc.devRef .tc main_arg9) = W24 m ρ c (Proc.devRef .tc main_arg9) :=
  (W28_of_ne m ρ c main_arg9 (by decide)).trans ((keepH13 m ρ c main_arg9 (by decide)).trans ((W26_of_ne m ρ c main_arg9 (by decide)).trans (keepH12 m ρ c main_arg9 (by decide))))
theorem keepL6_arg10 (c : Dev nD) : W28 m ρ c (Proc.devRef .tc main_arg10) = W24 m ρ c (Proc.devRef .tc main_arg10) :=
  (W28_of_ne m ρ c main_arg10 (by decide)).trans ((keepH13 m ρ c main_arg10 (by decide)).trans ((W26_of_ne m ρ c main_arg10 (by decide)).trans (keepH12 m ρ c main_arg10 (by decide))))
theorem keepL6_arg11 (c : Dev nD) : W28 m ρ c (Proc.devRef .tc main_arg11) = W24 m ρ c (Proc.devRef .tc main_arg11) :=
  (W28_of_ne m ρ c main_arg11 (by decide)).trans ((keepH13 m ρ c main_arg11 (by decide)).trans ((W26_of_ne m ρ c main_arg11 (by decide)).trans (keepH12 m ρ c main_arg11 (by decide))))

end Cert.KernelIdeal.Fold

end
-- ==== Proof.KHostA7.lean ====
/-
  The host operations before launch 14: which buffers they write, and what the ones the layer reads hold afterwards.
-/
import proofs.«147565_j9259949490665_1_alg».proof.Proof.Gen.KernelIdeal.Frame
import proofs.«147565_j9259949490665_1_alg».proof.Proof.KHostFn
import proofs.«147565_j9259949490665_1_alg».proof.Proof.LayerDefs

set_option maxRecDepth 16384

noncomputable section

namespace Cert.KernelIdeal.Fold

open Idealize.ShloMosaic Idealize.ShloMosaic.TcCoe Idealize.SL.Sem Idealize.ShloMosaic.ValueIdx
open Cert.KernelIdeal Cert.KernelIdeal.Gen Cert.KernelIdeal.HostFn Cert.Layer

variable (m : (ℓ : Loc nD τ sig) → Buf (Elt Ideal) ℓ) (ρ : Dev nD → PrngReg)

/-- The buffers the host operations before launch 14 write. -/
abbrev hostOps14_W : List (Ref sig .tc) := [main_v215, main_v216, main_v217, main_v218, main_v219, main_v220, main_v221, main_v222, main_v223, main_v224, main_c_33, main_v225, main_v226, main_c_34, main_v227, main_v228, main_v229, main_v230, main_v231, main_cst_35, main_v232, main_v233, main_v234, main_v235]

theorem hostOps14_writes : (hostOps14 : List (HloOp τ sig (Elt Ideal))).Forall fun op => op.writes ⊆ (hostOps14_W.map (Proc.devRef (τ := τ) .tc)).toFinset := by
  simp only [hostOps14, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- A buffer those operations do not write keeps its contents through them. -/
theorem keepH14 (c : Dev nD) (r : Ref sig .tc) (h : r ∉ hostOps14_W) :
    W29 m ρ c (Proc.devRef .tc r) = W28 m ρ c (Proc.devRef .tc r) :=
  StableHlo.after_of_writes_sub hostOps14 _ hostOps14_writes h

theorem W29_wl (c : Dev nD) : W29 m ρ c (Proc.devRef .tc main_v216) = (matSlice ![6, 0, 0] slices_S7x64x64_S1x64x64_6_0_0 (W28 m ρ c (Proc.devRef .tc main_arg5))) := by
  show StableHlo.after hostOps14 (W28 m ρ c) (Proc.devRef .tc main_v216) = _
  simp only [hostOps14]
  first | (after_results_simp <;> rfl) | (after_results <;> rfl)
theorem W29_wr (c : Dev nD) : W29 m ρ c (Proc.devRef .tc main_v218) = (matSlice ![6, 0, 0] slices_S7x64x64_S1x64x64_6_0_0 (W28 m ρ c (Proc.devRef .tc main_arg6))) := by
  show StableHlo.after hostOps14 (W28 m ρ c) (Proc.devRef .tc main_v218) = _
  simp only [hostOps14]
  first | (after_results_simp <;> rfl) | (after_results <;> rfl)
theorem W29_brow (c : Dev nD) : W29 m ρ c (Proc.devRef .tc main_v235) = broadcastInDim S1x64 ![1] bcast_S64_S1x64_1 (vecSlice7 ![6, 0] slices_S7x64_S1x64_6_0 (W28 m ρ c (Proc.devRef .tc main_arg7))) := by
  show StableHlo.after hostOps14 (W28 m ρ c) (Proc.devRef .tc main_v235) = _
  simp only [hostOps14]
  first | (after_results_simp <;> rfl) | (after_results <;> rfl)
theorem W29_gv (c : Dev nD) : W29 m ρ c (Proc.devRef .tc main_v222) = (vecSlice8 ![7, 0] slices_S8x64_S1x64_7_0 (W28 m ρ c (Proc.devRef .tc main_arg8))) := by
  show StableHlo.after hostOps14 (W28 m ρ c) (Proc.devRef .tc main_v222) = _
  simp only [hostOps14]
  first | (after_results_simp <;> rfl) | (after_results <;> rfl)
theorem W29_bev (c : Dev nD) : W29 m ρ c (Proc.devRef .tc main_v224) = (vecSlice8 ![7, 0] slices_S8x64_S1x64_7_0 (W28 m ρ c (Proc.devRef .tc main_arg9))) := by
  show StableHlo.after hostOps14 (W28 m ρ c) (Proc.devRef .tc main_v224) = _
  simp only [hostOps14]
  first | (after_results_simp <;> rfl) | (after_results <;> rfl)
theorem W29_agg (c : Dev nD) : W29 m ρ c (Proc.devRef .tc main_v234) = (agg64 (W28 m ρ c (Proc.devRef .tc main_v1)) (W28 m ρ c (Proc.devRef .tc main_v3)) (W28 m ρ c (Proc.devRef .tc main_v214))) := by
  show StableHlo.after hostOps14 (W28 m ρ c) (Proc.devRef .tc main_v234) = _
  simp only [hostOps14]
  first | (after_results_simp <;> rfl) | (after_results <;> rfl)
theorem W29_hp (c : Dev nD) : W29 m ρ c (Proc.devRef .tc main_v214) = W28 m ρ c (Proc.devRef .tc main_v214) := keepH14 m ρ c main_v214 (by decide)

end Cert.KernelIdeal.Fold

end
-- ==== Proof.KHostB7.lean ====
/-
  The host operations before launch 15: the mean row, the variance row, the gain and offset rows.
-/
import proofs.«147565_j9259949490665_1_alg».proof.Proof.Gen.KernelIdeal.Frame
import proofs.«147565_j9259949490665_1_alg».proof.Proof.KHostFn
import proofs.«147565_j9259949490665_1_alg».proof.Proof.LayerDefs

set_option maxRecDepth 16384

noncomputable section

namespace Cert.KernelIdeal.Fold

open Idealize.ShloMosaic Idealize.ShloMosaic.TcCoe Idealize.SL.Sem Idealize.ShloMosaic.ValueIdx
open Cert.KernelIdeal Cert.KernelIdeal.Gen Cert.KernelIdeal.HostFn Cert.Layer

variable (m : (ℓ : Loc nD τ sig) → Buf (Elt Ideal) ℓ) (ρ : Dev nD → PrngReg)

/-- The buffers the host operations before launch 15 write. -/
abbrev hostOps15_W : List (Ref sig .tc) := [main_cst_36, main_v237, main_v238, main_cst_37, main_v239, main_v240, main_v241, main_v242, main_v243, main_v244]

theorem hostOps15_writes : (hostOps15 : List (HloOp τ sig (Elt Ideal))).Forall fun op => op.writes ⊆ (hostOps15_W.map (Proc.devRef (τ := τ) .tc)).toFinset := by
  simp only [hostOps15, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- A buffer those operations do not write keeps its contents through them. -/
theorem keepH15 (c : Dev nD) (r : Ref sig .tc) (h : r ∉ hostOps15_W) :
    W31 m ρ c (Proc.devRef .tc r) = W30 m ρ c (Proc.devRef .tc r) :=
  StableHlo.after_of_writes_sub hostOps15 _ hostOps15_writes h

theorem W31_mean (c : Dev nD) : W31 m ρ c (Proc.devRef .tc main_v238) = (Host.divf (F := Ideal) (W30 m ρ c (Proc.devRef .tc main_v236_1)) (broadcastInDim S1x64 ![] bcast_S_S1x64 (constant (F := Ideal) S_ .f32 0x47435000#32)) : FVec Ideal S1x64 .f32) := by
  show StableHlo.after hostOps15 (W30 m ρ c) (Proc.devRef .tc main_v238) = _
  simp only [hostOps15]
  first | (after_results_simp <;> rfl) | (after_results <;> rfl)
theorem W31_var (c : Dev nD) : W31 m ρ c (Proc.devRef .tc main_v242) = (subf (F := Ideal) (Host.divf (F := Ideal) (W30 m ρ c (Proc.devRef .tc main_v236_2)) (broadcastInDim S1x64 ![] bcast_S_S1x64 (constant (F := Ideal) S_ .f32 0x47435000#32))) (mulf (F := Ideal) (Host.divf (F := Ideal) (W30 m ρ c (Proc.devRef .tc main_v236_1)) (broadcastInDim S1x64 ![] bcast_S_S1x64 (constant (F := Ideal) S_ .f32 0x47435000#32))) (Host.divf (F := Ideal) (W30 m ρ c (Proc.devRef .tc main_v236_1)) (broadcastInDim S1x64 ![] bcast_S_S1x64 (constant (F := Ideal) S_ .f32 0x47435000#32)))) : FVec Ideal S1x64 .f32) := by
  show StableHlo.after hostOps15 (W30 m ρ c) (Proc.devRef .tc main_v242) = _
  simp only [hostOps15]
  first | (after_results_simp <;> rfl) | (after_results <;> rfl)
theorem W31_grow (c : Dev nD) : W31 m ρ c (Proc.devRef .tc main_v243) = (broadcastInDim S1x64 ![1] bcast_S64_S1x64_1 (W30 m ρ c (Proc.devRef .tc main_v222)) : FVec Ideal S1x64 .f32) := by
  show StableHlo.after hostOps15 (W30 m ρ c) (Proc.devRef .tc main_v243) = _
  simp only [hostOps15]
  first | (after_results_simp <;> rfl) | (after_results <;> rfl)
theorem W31_berow (c : Dev nD) : W31 m ρ c (Proc.devRef .tc main_v244) = (broadcastInDim S1x64 ![1] bcast_S64_S1x64_1 (W30 m ρ c (Proc.devRef .tc main_v224)) : FVec Ideal S1x64 .f32) := by
  show StableHlo.after hostOps15 (W30 m ρ c) (Proc.devRef .tc main_v244) = _
  simp only [hostOps15]
  first | (after_results_simp <;> rfl) | (after_results <;> rfl)
theorem W31_hpre (c : Dev nD) : W31 m ρ c (Proc.devRef .tc main_v236_0) = W30 m ρ c (Proc.devRef .tc main_v236_0) := keepH15 m ρ c main_v236_0 (by decide)

end Cert.KernelIdeal.Fold

end
-- ==== Proof.RegionR14Pieces.lean ====
/-
  What one step of the dense-step body leaves in its three result blocks, as arithmetic of the blocks it read.

  At the first step of a run the two running rows are set to zero before the step adds to them; at every later step
  they are read as the step before left them.  In both cases the block of pre-activations is the same arithmetic of
  the five operand blocks, the row of sums is the previous row plus the block's column sums, and the row of sums of
  squares is the previous row plus the block's column sums of squares.
-/
import proofs.«147565_j9259949490665_1_alg».proof.Proof.Gen.KernelIdeal.Frame
import proofs.«147565_j9259949490665_1_alg».proof.Proof.LibColumnSum
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.RegionValue

open Cert.KernelIdeal Cert.KernelIdeal.Gen
open Cert.LibColumnSum (offsets_zero)

variable {F : FTy → Type} [FloatOps F]

theorem out14_A_5_eq (c : Dev nD) (i : grid14.Coords) (a1 : Memref sig .tc .vmem S5000x64 .f32) (h1 : a1.IsWhole) (a2 : Memref sig .tc .vmem S5000x64 .f32) (h2 : a2.IsWhole) (a3 : Memref sig .tc .vmem S64x64 .f32) (h3 : a3.IsWhole) (a4 : Memref sig .tc .vmem S64x64 .f32) (h4 : a4.IsWhole) (a5 : Memref sig .tc .vmem S1x64 .f32) (h5 : a5.IsWhole) (a6 : Memref sig .tc .vmem S5000x64 .f32) (h6 : a6.IsWhole) (a7 : Memref sig .tc .vmem S1x64 .f32) (h7 : a7.IsWhole) (a8 : Memref sig .tc .vmem S1x64 .f32) (h8 : a8.IsWhole) (hc : cond14_0 i)
    (x0 : Vec F S5000x64 .f32) (x1 : Vec F S5000x64 .f32) (x2 : Vec F S64x64 .f32) (x3 : Vec F S64x64 .f32) (x4 : Vec F S1x64 .f32) :
    out14_A_5 c i a1 h1 a2 h2 a3 h3 a4 h4 a5 h5 a6 h6 a7 h7 a8 h8 hc x0 x1 x2 x3 x4 = k14_pay4 x0 x2 x4 x1 x3 := by
  unfold out14_A_5
  rw [View.read_writes_eq_canon _ _ _ (cover14_A_5 c i a1 h1 a2 h2 a3 h3 a4 h4 a5 h5 a6 h6 a7 h7 a8 h8 hc x0 x1 x2 x3 x4)]
  unfold kernelRun14_A
  dsimp only
  sl_unfold_words
  rw [View.canon_unit_zero offsets_zero]
  simp only [View.readAt_eq_ld, h1.read_unread, h2.read_unread, h3.read_unread, h4.read_unread, h5.read_unread, h7.read_unread, h8.read_unread, View.ld_unit_zero (S := S5000x64) offsets_zero, View.ld_unit_zero (S := S64x64) offsets_zero, View.ld_unit_zero (S := S1x64) offsets_zero]

theorem out14_A_6_eq (c : Dev nD) (i : grid14.Coords) (a1 : Memref sig .tc .vmem S5000x64 .f32) (h1 : a1.IsWhole) (a2 : Memref sig .tc .vmem S5000x64 .f32) (h2 : a2.IsWhole) (a3 : Memref sig .tc .vmem S64x64 .f32) (h3 : a3.IsWhole) (a4 : Memref sig .tc .vmem S64x64 .f32) (h4 : a4.IsWhole) (a5 : Memref sig .tc .vmem S1x64 .f32) (h5 : a5.IsWhole) (a6 : Memref sig .tc .vmem S5000x64 .f32) (h6 : a6.IsWhole) (a7 : Memref sig .tc .vmem S1x64 .f32) (h7 : a7.IsWhole) (a8 : Memref sig .tc .vmem S1x64 .f32) (h8 : a8.IsWhole) (hc : cond14_0 i)
    (x0 : Vec F S5000x64 .f32) (x1 : Vec F S5000x64 .f32) (x2 : Vec F S64x64 .f32) (x3 : Vec F S64x64 .f32) (x4 : Vec F S1x64 .f32) :
    out14_A_6 c i a1 h1 a2 h2 a3 h3 a4 h4 a5 h5 a6 h6 a7 h7 a8 h8 hc x0 x1 x2 x3 x4 = k14_pay5 x0 x2 x4 x1 x3 (k14_pay2 (F := F)) := by
  unfold out14_A_6
  rw [View.read_writes_eq_canon _ _ _ (cover14_A_6 c i a1 h1 a2 h2 a3 h3 a4 h4 a5 h5 a6 h6 a7 h7 a8 h8 hc x0 x1 x2 x3 x4)]
  unfold kernelRun14_A
  dsimp only
  sl_unfold_words
  rw [View.canon_cons_unit_zero (S := S1x64) offsets_zero, View.readCov_unit_zero (S := S1x64) _ offsets_zero]
  simp only [View.readAt_eq_ld, h1.read_unread, h2.read_unread, h3.read_unread, h4.read_unread, h5.read_unread, h7.read_unread, h8.read_unread, View.ld_unit_zero (S := S5000x64) offsets_zero, View.ld_unit_zero (S := S64x64) offsets_zero, View.ld_unit_zero (S := S1x64) offsets_zero]

theorem out14_A_7_eq (c : Dev nD) (i : grid14.Coords) (a1 : Memref sig .tc .vmem S5000x64 .f32) (h1 : a1.IsWhole) (a2 : Memref sig .tc .vmem S5000x64 .f32) (h2 : a2.IsWhole) (a3 : Memref sig .tc .vmem S64x64 .f32) (h3 : a3.IsWhole) (a4 : Memref sig .tc .vmem S64x64 .f32) (h4 : a4.IsWhole) (a5 : Memref sig .tc .vmem S1x64 .f32) (h5 : a5.IsWhole) (a6 : Memref sig .tc .vmem S5000x64 .f32) (h6 : a6.IsWhole) (a7 : Memref sig .tc .vmem S1x64 .f32) (h7 : a7.IsWhole) (a8 : Memref sig .tc .vmem S1x64 .f32) (h8 : a8.IsWhole) (hc : cond14_0 i)
    (x0 : Vec F S5000x64 .f32) (x1 : Vec F S5000x64 .f32) (x2 : Vec F S64x64 .f32) (x3 : Vec F S64x64 .f32) (x4 : Vec F S1x64 .f32) :
    out14_A_7 c i a1 h1 a2 h2 a3 h3 a4 h4 a5 h5 a6 h6 a7 h7 a8 h8 hc x0 x1 x2 x3 x4 = k14_pay1 (k14_pay6 (k14_pay3 (F := F))) (k14_pay7 x0 x2 x4 x1 x3) := by
  unfold out14_A_7
  rw [View.read_writes_eq_canon _ _ _ (cover14_A_7 c i a1 h1 a2 h2 a3 h3 a4 h4 a5 h5 a6 h6 a7 h7 a8 h8 hc x0 x1 x2 x3 x4)]
  unfold kernelRun14_A
  dsimp only
  sl_unfold_words
  rw [View.canon_cons_unit_zero (S := S1x64) offsets_zero, View.readCov_unit_zero (S := S1x64) _ offsets_zero]
  simp only [View.readAt_eq_ld, h1.read_unread, h2.read_unread, h3.read_unread, h4.read_unread, h5.read_unread, h7.read_unread, h8.read_unread, View.ld_unit_zero (S := S5000x64) offsets_zero, View.ld_unit_zero (S := S64x64) offsets_zero, View.ld_unit_zero (S := S1x64) offsets_zero]

theorem out14_B_5_eq (c : Dev nD) (i : grid14.Coords) (a1 : Memref sig .tc .vmem S5000x64 .f32) (h1 : a1.IsWhole) (a2 : Memref sig .tc .vmem S5000x64 .f32) (h2 : a2.IsWhole) (a3 : Memref sig .tc .vmem S64x64 .f32) (h3 : a3.IsWhole) (a4 : Memref sig .tc .vmem S64x64 .f32) (h4 : a4.IsWhole) (a5 : Memref sig .tc .vmem S1x64 .f32) (h5 : a5.IsWhole) (a6 : Memref sig .tc .vmem S5000x64 .f32) (h6 : a6.IsWhole) (a7 : Memref sig .tc .vmem S1x64 .f32) (h7 : a7.IsWhole) (a8 : Memref sig .tc .vmem S1x64 .f32) (h8 : a8.IsWhole) (hc : ¬cond14_0 i)
    (x0 : Vec F S5000x64 .f32) (x1 : Vec F S5000x64 .f32) (x2 : Vec F S64x64 .f32) (x3 : Vec F S64x64 .f32) (x4 : Vec F S1x64 .f32) (xo6 : Vec F S1x64 .f32) (xo7 : Vec F S1x64 .f32) :
    out14_B_5 c i a1 h1 a2 h2 a3 h3 a4 h4 a5 h5 a6 h6 a7 h7 a8 h8 hc x0 x1 x2 x3 x4 xo6 xo7 = k14_pay4 x0 x2 x4 x1 x3 := by
  unfold out14_B_5
  rw [View.read_writes_eq_canon _ _ _ (cover14_B_5 c i a1 h1 a2 h2 a3 h3 a4 h4 a5 h5 a6 h6 a7 h7 a8 h8 hc x0 x1 x2 x3 x4 xo6 xo7)]
  unfold kernelRun14_B
  dsimp only
  sl_unfold_words
  rw [View.canon_unit_zero offsets_zero]
  simp only [View.readAt_eq_ld, h1.read_unread, h2.read_unread, h3.read_unread, h4.read_unread, h5.read_unread, h7.read_unread, h8.read_unread, View.ld_unit_zero (S := S5000x64) offsets_zero, View.ld_unit_zero (S := S64x64) offsets_zero, View.ld_unit_zero (S := S1x64) offsets_zero]

theorem out14_B_6_eq (c : Dev nD) (i : grid14.Coords) (a1 : Memref sig .tc .vmem S5000x64 .f32) (h1 : a1.IsWhole) (a2 : Memref sig .tc .vmem S5000x64 .f32) (h2 : a2.IsWhole) (a3 : Memref sig .tc .vmem S64x64 .f32) (h3 : a3.IsWhole) (a4 : Memref sig .tc .vmem S64x64 .f32) (h4 : a4.IsWhole) (a5 : Memref sig .tc .vmem S1x64 .f32) (h5 : a5.IsWhole) (a6 : Memref sig .tc .vmem S5000x64 .f32) (h6 : a6.IsWhole) (a7 : Memref sig .tc .vmem S1x64 .f32) (h7 : a7.IsWhole) (a8 : Memref sig .tc .vmem S1x64 .f32) (h8 : a8.IsWhole) (hc : ¬cond14_0 i)
    (x0 : Vec F S5000x64 .f32) (x1 : Vec F S5000x64 .f32) (x2 : Vec F S64x64 .f32) (x3 : Vec F S64x64 .f32) (x4 : Vec F S1x64 .f32) (xo6 : Vec F S1x64 .f32) (xo7 : Vec F S1x64 .f32) :
    out14_B_6 c i a1 h1 a2 h2 a3 h3 a4 h4 a5 h5 a6 h6 a7 h7 a8 h8 hc x0 x1 x2 x3 x4 xo6 xo7 = k14_pay5 x0 x2 x4 x1 x3 xo6 := by
  unfold out14_B_6
  rw [View.read_writes_eq_canon _ _ _ (cover14_B_6 c i a1 h1 a2 h2 a3 h3 a4 h4 a5 h5 a6 h6 a7 h7 a8 h8 hc x0 x1 x2 x3 x4 xo6 xo7)]
  unfold kernelRun14_B
  dsimp only
  sl_unfold_words
  rw [View.canon_unit_zero offsets_zero]
  simp only [View.readAt_eq_ld, h1.read_unread, h2.read_unread, h3.read_unread, h4.read_unread, h5.read_unread, h7.read_unread, h8.read_unread, View.ld_unit_zero (S := S5000x64) offsets_zero, View.ld_unit_zero (S := S64x64) offsets_zero, View.ld_unit_zero (S := S1x64) offsets_zero]

theorem out14_B_7_eq (c : Dev nD) (i : grid14.Coords) (a1 : Memref sig .tc .vmem S5000x64 .f32) (h1 : a1.IsWhole) (a2 : Memref sig .tc .vmem S5000x64 .f32) (h2 : a2.IsWhole) (a3 : Memref sig .tc .vmem S64x64 .f32) (h3 : a3.IsWhole) (a4 : Memref sig .tc .vmem S64x64 .f32) (h4 : a4.IsWhole) (a5 : Memref sig .tc .vmem S1x64 .f32) (h5 : a5.IsWhole) (a6 : Memref sig .tc .vmem S5000x64 .f32) (h6 : a6.IsWhole) (a7 : Memref sig .tc .vmem S1x64 .f32) (h7 : a7.IsWhole) (a8 : Memref sig .tc .vmem S1x64 .f32) (h8 : a8.IsWhole) (hc : ¬cond14_0 i)
    (x0 : Vec F S5000x64 .f32) (x1 : Vec F S5000x64 .f32) (x2 : Vec F S64x64 .f32) (x3 : Vec F S64x64 .f32) (x4 : Vec F S1x64 .f32) (xo6 : Vec F S1x64 .f32) (xo7 : Vec F S1x64 .f32) :
    out14_B_7 c i a1 h1 a2 h2 a3 h3 a4 h4 a5 h5 a6 h6 a7 h7 a8 h8 hc x0 x1 x2 x3 x4 xo6 xo7 = k14_pay1 (k14_pay6 xo7) (k14_pay7 x0 x2 x4 x1 x3) := by
  unfold out14_B_7
  rw [View.read_writes_eq_canon _ _ _ (cover14_B_7 c i a1 h1 a2 h2 a3 h3 a4 h4 a5 h5 a6 h6 a7 h7 a8 h8 hc x0 x1 x2 x3 x4 xo6 xo7)]
  unfold kernelRun14_B
  dsimp only
  sl_unfold_words
  rw [View.canon_unit_zero offsets_zero]
  simp only [View.readAt_eq_ld, h1.read_unread, h2.read_unread, h3.read_unread, h4.read_unread, h5.read_unread, h7.read_unread, h8.read_unread, View.ld_unit_zero (S := S5000x64) offsets_zero, View.ld_unit_zero (S := S64x64) offsets_zero, View.ld_unit_zero (S := S1x64) offsets_zero]

end Cert.KernelIdeal.RegionValue

end
-- ==== Proof.RegionR14Pay.lean ====
/-
  The dense step's block arithmetic read entry by entry over the extended reals.

  For one block of 5000 rows: the block of pre-activations at (p, q) is the aggregated row p against row q of the
  neighbour weights, plus the bias entry q, plus the node's own row p against row q of the root weights (each
  product is a sum over the 64 input features; the weights are stored with the output feature as their row, so the
  transposed weight read at (k, q) is the weight at (q, k)).  The two running rows are the previous row plus the
  block's column sums of the pre-activations, and of their squares.  The row that starts a run is zero.
-/
import proofs.«147565_j9259949490665_1_alg».proof.Proof.Gen.KernelIdeal.Skeleton
import proofs.«147565_j9259949490665_1_alg».proof.Proof.Spec
import proofs.«147565_j9259949490665_1_alg».proof.Proof.LibPlainDot
import proofs.«147565_j9259949490665_1_alg».proof.Proof.LibColumnSum
import Idealize.ShloMosaic.Lib.Pipeline.Value
import Idealize.ShloMosaic.Lib.ValueLayout

noncomputable section

open Idealize.ShloMosaic Idealize.ShloMosaic.ValueIdx
open scoped BigOperators

namespace Cert.KernelIdeal.RegionValue

open Cert.KernelIdeal Cert.KernelIdeal.Gen

/-- The block of pre-activations at (p, q): the dense step of the block's operands there. -/
theorem pay14_lin (a x : Vec Ideal S5000x64 .f32) (wl wr : Vec Ideal S64x64 .f32) (b : Vec Ideal S1x64 .f32)
    (p : Fin 5000) (q : Fin 64) :
    k14_pay4 (F := Ideal) a wl b x wr (ix2 p q) = Cert.Layer.lin a x wl wr b (ix2 p q) := by
  have hd : dot_S5000x64_S64x64_S5000x64_1_0_0_1_n_n = DotDims.plain 5000 64 64 := rfl
  have e1 : ∀ (l : FVec Ideal S5000x64 .f32) (w : FVec Ideal S64x64 .f32),
      matmul dot_S5000x64_S64x64_S5000x64_1_0_0_1_n_n none (shapeCast S5000x64 l shapeCasts_S5000x64_S5000x64)
          (transpose S64x64 [1, 0] (shapeCast S64x64 w shapeCasts_S64x64_S64x64) transposes_S64x64_p1_0_S64x64)
          (constant S5000x64 .f32 0x00000000#32) (ix2 p q)
        = ∑ k : Fin 64, l (ix2 p k) * w (ix2 q k) := by
    intro l w
    rw [shapeCast_self, shapeCast_self]
    refine (Cert.LibPlainDot.matmul_zero_apply _ hd none l _ p q).trans ?_
    exact Finset.sum_congr rfl fun k _ => congrArg (l (ix2 p k) * ·) (transpose_ix2_apply w _ k q)
  have e2 : broadcastTo S5000x64 (shapeCast S1x64 b shapeCasts_S1x64_S1x64) broadcasts_S1x64_S5000x64 (ix2 p q)
      = b (ix2 0 q) := by
    rw [shapeCast_self]
    exact broadcastTo_1b_ab_apply b _ p q
  rw [Cert.Layer.lin_apply]
  unfold k14_pay4
  exact congrArg₂ (· + ·) (congrArg₂ (· + ·) (e1 a wl) e2) (e1 x wr)

/-- The row that starts a run is zero. -/
theorem pay14_zero6 (j : S1x64.Idx) : k14_pay2 (F := Ideal) j = 0 := Ideal.ofBits_zero_f32

theorem pay14_zero7 (j : S1x64.Idx) : k14_pay3 (F := Ideal) j = 0 := Ideal.ofBits_zero_f32

/-- The running row of sums after a block: the row before plus the block's column sums. -/
theorem pay14_sum (a x : Vec Ideal S5000x64 .f32) (wl wr : Vec Ideal S64x64 .f32) (b acc : Vec Ideal S1x64 .f32) (q : Fin 64) :
    k14_pay5 (F := Ideal) a wl b x wr acc (ix2 0 q)
      = acc (ix2 0 q) + ∑ r : Fin 5000, k14_pay4 (F := Ideal) a wl b x wr (ix2 r q) := by
  unfold k14_pay5
  exact congrArg₂ (· + ·) (congrFun (shapeCast_self acc _) _)
    (Cert.LibColumnSum.rowReduce_apply (k14_pay4 (F := Ideal) a wl b x wr) reduces_S5000x64_S64 (.inl rfl) rfl
      shapeCasts_S64_S1x64 0 q)

/-- The running row of sums of squares after a block: the row before plus the block's column sums of squares. -/
theorem pay14_sumsq (a x : Vec Ideal S5000x64 .f32) (wl wr : Vec Ideal S64x64 .f32) (b acc : Vec Ideal S1x64 .f32) (q : Fin 64) :
    k14_pay1 (k14_pay6 (F := Ideal) acc) (k14_pay7 (F := Ideal) a wl b x wr) (ix2 0 q)
      = acc (ix2 0 q) + ∑ r : Fin 5000, k14_pay4 (F := Ideal) a wl b x wr (ix2 r q) * k14_pay4 (F := Ideal) a wl b x wr (ix2 r q) := by
  unfold k14_pay1 k14_pay6 k14_pay7
  exact congrArg₂ (· + ·) (congrFun (shapeCast_self acc _) _)
    (Cert.LibColumnSum.rowReduce_apply (mulf (k14_pay4 (F := Ideal) a wl b x wr) (k14_pay4 (F := Ideal) a wl b x wr))
      reduces_S5000x64_S64 (.inl rfl) rfl shapeCasts_S64_S1x64 0 q)

end Cert.KernelIdeal.RegionValue

end
-- ==== Proof.RegionR14.lean ====
/-
  The value of one dense-step stage: what its three result arrays hold after all ten steps.

  The stage walks ten blocks of 5000 rows.  Step t reads block t of the aggregated and of the node features (rows
  5000·t … 5000·t + 4999 of the arrays) and the whole of both weight arrays and of the bias row; it writes block t of
  the pre-activations, which is therefore block t of the dense step of the WHOLE arrays (an entry of the dense step
  depends on one row of each node-feature operand only), and adds the block's column sums, and column sums of
  squares, to two running rows that start at zero.  By induction on the step the running rows after step n hold the
  sums over the rows of blocks 0 … n, so after step 9, when they are written out, they hold the full column sums:
  a sum over 50000 = 10 · 5000 rows is the sum of its ten block sums.  Sums of extended reals are regrouped freely
  (addition is associative and commutative, and 0 + x = x); no law that needs finite values is used.
-/
import proofs.«147565_j9259949490665_1_alg».proof.Proof.Gen.KernelIdeal.Frame
import proofs.«147565_j9259949490665_1_alg».proof.Proof.Spec
import proofs.«147565_j9259949490665_1_alg».proof.Proof.LibRowBlocks
import proofs.«147565_j9259949490665_1_alg».proof.Proof.RegionR14Pieces
import proofs.«147565_j9259949490665_1_alg».proof.Proof.RegionR14Pay
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)
open scoped BigOperators

namespace Cert.KernelIdeal.RegionValue

open Cert.KernelIdeal Cert.KernelIdeal.Gen
open Cert.Layer (Mat lin colSum colSumSq)
open Cert.LibRowBlocks (blockSum blockSum_of_lt sum_range_blockSum lin_congr)

section Region14

variable (V : (c : Dev nD) → (b : Ref sig .tc) → Buf (Elt Ideal) ((c : Thread nD τ).loc b)) (c : Dev nD)

/-- The five operand arrays as the stage finds them. -/
abbrev agg14 : Mat 50000 64 := V c (Pipeline.arrRef spec14 0)
abbrev self14 : Mat 50000 64 := V c (Pipeline.arrRef spec14 1)
abbrev wl14 : Mat 64 64 := V c (Pipeline.arrRef spec14 2)
abbrev wr14 : Mat 64 64 := V c (Pipeline.arrRef spec14 3)
abbrev bias14 : Mat 1 64 := V c (Pipeline.arrRef spec14 4)

/-- The pre-activations of the whole arrays. -/
abbrev hpre14 : Mat 50000 64 := lin (agg14 V c) (self14 V c) (wl14 V c) (wr14 V c) (bias14 V c)

/-- Where each step's blocks sit: the row-blocked operands and the pre-activations at block t, column block 0. -/
theorem idx14 : ∀ t : Fin cfg14.N,
    win14_0.index t (0 : Fin 2) = t.val ∧ win14_0.index t (1 : Fin 2) = 0
    ∧ win14_1.index t (0 : Fin 2) = t.val ∧ win14_1.index t (1 : Fin 2) = 0
    ∧ win14_5.index t (0 : Fin 2) = t.val ∧ win14_5.index t (1 : Fin 2) = 0 :=
  (by decide +kernel : ∀ t : Fin grid14.N, _)

/-- The weights, the bias row and the two running rows are one block each, at block (0, 0) at every step. -/
theorem whole14 : ∀ t : Fin cfg14.N,
    win14_2.index t (0 : Fin 2) = 0 ∧ win14_2.index t (1 : Fin 2) = 0
    ∧ win14_3.index t (0 : Fin 2) = 0 ∧ win14_3.index t (1 : Fin 2) = 0
    ∧ win14_4.index t (0 : Fin 2) = 0 ∧ win14_4.index t (1 : Fin 2) = 0
    ∧ win14_6.index t (0 : Fin 2) = 0 ∧ win14_6.index t (1 : Fin 2) = 0
    ∧ win14_7.index t (0 : Fin 2) = 0 ∧ win14_7.index t (1 : Fin 2) = 0 :=
  (by decide +kernel : ∀ t : Fin grid14.N, _)

/-- Row r of step t's block of operand 0 is row 5000·t + r of the array. -/
theorem blk14_0 (t : Fin cfg14.N) (r : Fin 5000) (k : Fin 64) (hr : t.val * 5000 + r.val < 50000) :
    iblk14 V c 0 t (ix2 r k) = agg14 V c (ix2 ⟨t.val * 5000 + r.val, hr⟩ k) := by
  have e0 := (idx14 t).1
  have e1 := (idx14 t).2.1
  show V c (Pipeline.arrRef spec14 0) (((cfg14.win 0).blk t).view.emb (ix2 r k))
    = V c (Pipeline.arrRef spec14 0) (ix2 ⟨t.val * 5000 + r.val, hr⟩ k)
  refine congrArg (V c (Pipeline.arrRef spec14 0)) (funext fun a => Fin.ext ?_)
  match a with
  | ⟨0, _⟩ => show win14_0.index t (0 : Fin 2) * 5000 + 1 * r.val = t.val * 5000 + r.val; rw [e0]; omega
  | ⟨1, _⟩ => show win14_0.index t (1 : Fin 2) * 64 + 1 * k.val = k.val; rw [e1]; omega

/-- Row r of step t's block of operand 1 is row 5000·t + r of the array. -/
theorem blk14_1 (t : Fin cfg14.N) (r : Fin 5000) (k : Fin 64) (hr : t.val * 5000 + r.val < 50000) :
    iblk14 V c 1 t (ix2 r k) = self14 V c (ix2 ⟨t.val * 5000 + r.val, hr⟩ k) := by
  have e0 := (idx14 t).2.2.1
  have e1 := (idx14 t).2.2.2.1
  show V c (Pipeline.arrRef spec14 1) (((cfg14.win 1).blk t).view.emb (ix2 r k))
    = V c (Pipeline.arrRef spec14 1) (ix2 ⟨t.val * 5000 + r.val, hr⟩ k)
  refine congrArg (V c (Pipeline.arrRef spec14 1)) (funext fun a => Fin.ext ?_)
  match a with
  | ⟨0, _⟩ => show win14_1.index t (0 : Fin 2) * 5000 + 1 * r.val = t.val * 5000 + r.val; rw [e0]; omega
  | ⟨1, _⟩ => show win14_1.index t (1 : Fin 2) * 64 + 1 * k.val = k.val; rw [e1]; omega

/-- Step t's block of operand 2 is the whole array. -/
theorem blk14_2 (t : Fin cfg14.N) (p : Fin 64) (k : Fin 64) :
    iblk14 V c 2 t (ix2 p k) = wl14 V c (ix2 p k) := by
  have e0 := (whole14 t).1
  have e1 := (whole14 t).2.1
  show V c (Pipeline.arrRef spec14 2) (((cfg14.win 2).blk t).view.emb (ix2 p k))
    = V c (Pipeline.arrRef spec14 2) (ix2 p k)
  refine congrArg (V c (Pipeline.arrRef spec14 2)) (funext fun a => Fin.ext ?_)
  match a with
  | ⟨0, _⟩ => show win14_2.index t (0 : Fin 2) * 64 + 1 * p.val = p.val; rw [e0]; omega
  | ⟨1, _⟩ => show win14_2.index t (1 : Fin 2) * 64 + 1 * k.val = k.val; rw [e1]; omega

/-- Step t's block of operand 3 is the whole array. -/
theorem blk14_3 (t : Fin cfg14.N) (p : Fin 64) (k : Fin 64) :
    iblk14 V c 3 t (ix2 p k) = wr14 V c (ix2 p k) := by
  have e0 := (whole14 t).2.2.1
  have e1 := (whole14 t).2.2.2.1
  show V c (Pipeline.arrRef spec14 3) (((cfg14.win 3).blk t).view.emb (ix2 p k))
    = V c (Pipeline.arrRef spec14 3) (ix2 p k)
  refine congrArg (V c (Pipeline.arrRef spec14 3)) (funext fun a => Fin.ext ?_)
  match a with
  | ⟨0, _⟩ => show win14_3.index t (0 : Fin 2) * 64 + 1 * p.val = p.val; rw [e0]; omega
  | ⟨1, _⟩ => show win14_3.index t (1 : Fin 2) * 64 + 1 * k.val = k.val; rw [e1]; omega

/-- Step t's block of operand 4 is the whole array. -/
theorem blk14_4 (t : Fin cfg14.N) (p : Fin 1) (k : Fin 64) :
    iblk14 V c 4 t (ix2 p k) = bias14 V c (ix2 p k) := by
  have e0 := (whole14 t).2.2.2.2.1
  have e1 := (whole14 t).2.2.2.2.2.1
  show V c (Pipeline.arrRef spec14 4) (((cfg14.win 4).blk t).view.emb (ix2 p k))
    = V c (Pipeline.arrRef spec14 4) (ix2 p k)
  refine congrArg (V c (Pipeline.arrRef spec14 4)) (funext fun a => Fin.ext ?_)
  match a with
  | ⟨0, _⟩ => show win14_4.index t (0 : Fin 2) * 1 + 1 * p.val = p.val; rw [e0]; omega
  | ⟨1, _⟩ => show win14_4.index t (1 : Fin 2) * 64 + 1 * k.val = k.val; rw [e1]; omega

/-- The block of pre-activations step t computes is block t of the whole arrays' pre-activations. -/
theorem hblk14 (t : Fin cfg14.N) (j : S5000x64.Idx) (hr : t.val * 5000 + (j 0).val < 50000) :
    (k14_pay4 (F := Ideal) (iblk14 V c 0 t) (iblk14 V c 2 t) (iblk14 V c 4 t) (iblk14 V c 1 t) (iblk14 V c 3 t)) j = hpre14 V c (ix2 ⟨t.val * 5000 + (j 0).val, hr⟩ (j 1)) := by
  obtain ⟨r, q, rfl⟩ : ∃ (r : Fin 5000) (q : Fin 64), j = ix2 r q := ⟨j 0, j 1, eq_ix2 j⟩
  exact (pay14_lin (iblk14 V c 0 t) (iblk14 V c 1 t) (iblk14 V c 2 t) (iblk14 V c 3 t) (iblk14 V c 4 t) r q).trans
    (lin_congr (R := 5000) (R' := 50000) (K := 64) (N := 64) (iblk14 V c 0 t) (iblk14 V c 1 t) (agg14 V c) (self14 V c)
      (iblk14 V c 2 t) (iblk14 V c 3 t) (wl14 V c) (wr14 V c) (iblk14 V c 4 t) (bias14 V c) r ⟨t.val * 5000 + r.val, hr⟩ q
      (fun k => blk14_0 V c t r k hr) (fun k => blk14_1 V c t r k hr) (fun k => blk14_2 V c t q k) (fun k => blk14_3 V c t q k)
      (blk14_4 V c t 0 q))

/-- What the three result blocks hold after a step that starts a run, -/
theorem outs14_A (t : Fin cfg14.N) (h0 : t.val % 10 = 0) :
    outsAt14 V c t.val t.isLt
      = (k14_pay4 (F := Ideal) (iblk14 V c 0 t) (iblk14 V c 2 t) (iblk14 V c 4 t) (iblk14 V c 1 t) (iblk14 V c 3 t), k14_pay5 (F := Ideal) (iblk14 V c 0 t) (iblk14 V c 2 t) (iblk14 V c 4 t) (iblk14 V c 1 t) (iblk14 V c 3 t) (k14_pay2 (F := Ideal)), k14_pay1 (k14_pay6 (F := Ideal) (k14_pay3 (F := Ideal))) (k14_pay7 (F := Ideal) (iblk14 V c 0 t) (iblk14 V c 2 t) (iblk14 V c 4 t) (iblk14 V c 1 t) (iblk14 V c 3 t))) :=
  (outsAt14_A V c t h0).trans (congrArg₂ Prod.mk (out14_A_5_eq (F := Ideal) c (grid14.coords t) (ms14_0 t) (hs14_0 t) (ms14_1 t) (hs14_1 t) (ms14_2 t) (hs14_2 t) (ms14_3 t) (hs14_3 t) (ms14_4 t) (hs14_4 t) (ms14_5 t) (hs14_5 t) (ms14_6 t) (hs14_6 t) (ms14_7 t) (hs14_7 t) ((hcond14_0 t).mpr h0) (iblk14 V c 0 t) (iblk14 V c 1 t) (iblk14 V c 2 t) (iblk14 V c 3 t) (iblk14 V c 4 t))
    (congrArg₂ Prod.mk (out14_A_6_eq (F := Ideal) c (grid14.coords t) (ms14_0 t) (hs14_0 t) (ms14_1 t) (hs14_1 t) (ms14_2 t) (hs14_2 t) (ms14_3 t) (hs14_3 t) (ms14_4 t) (hs14_4 t) (ms14_5 t) (hs14_5 t) (ms14_6 t) (hs14_6 t) (ms14_7 t) (hs14_7 t) ((hcond14_0 t).mpr h0) (iblk14 V c 0 t) (iblk14 V c 1 t) (iblk14 V c 2 t) (iblk14 V c 3 t) (iblk14 V c 4 t))
      (out14_A_7_eq (F := Ideal) c (grid14.coords t) (ms14_0 t) (hs14_0 t) (ms14_1 t) (hs14_1 t) (ms14_2 t) (hs14_2 t) (ms14_3 t) (hs14_3 t) (ms14_4 t) (hs14_4 t) (ms14_5 t) (hs14_5 t) (ms14_6 t) (hs14_6 t) (ms14_7 t) (hs14_7 t) ((hcond14_0 t).mpr h0) (iblk14 V c 0 t) (iblk14 V c 1 t) (iblk14 V c 2 t) (iblk14 V c 3 t) (iblk14 V c 4 t))))

/-- and after any later step, over what the step before left in the running rows. -/
theorem outs14_B (t : Fin cfg14.N) (h0 : ¬t.val % 10 = 0) :
    outsAt14 V c t.val t.isLt
      = (k14_pay4 (F := Ideal) (iblk14 V c 0 t) (iblk14 V c 2 t) (iblk14 V c 4 t) (iblk14 V c 1 t) (iblk14 V c 3 t), k14_pay5 (F := Ideal) (iblk14 V c 0 t) (iblk14 V c 2 t) (iblk14 V c 4 t) (iblk14 V c 1 t) (iblk14 V c 3 t) (outsAt14 V c (t.val - 1) (Nat.lt_of_le_of_lt (Nat.sub_le _ _) t.isLt)).2.1, k14_pay1 (k14_pay6 (F := Ideal) (outsAt14 V c (t.val - 1) (Nat.lt_of_le_of_lt (Nat.sub_le _ _) t.isLt)).2.2) (k14_pay7 (F := Ideal) (iblk14 V c 0 t) (iblk14 V c 2 t) (iblk14 V c 4 t) (iblk14 V c 1 t) (iblk14 V c 3 t))) :=
  (outsAt14_B V c t h0).trans (congrArg₂ Prod.mk (out14_B_5_eq (F := Ideal) c (grid14.coords t) (ms14_0 t) (hs14_0 t) (ms14_1 t) (hs14_1 t) (ms14_2 t) (hs14_2 t) (ms14_3 t) (hs14_3 t) (ms14_4 t) (hs14_4 t) (ms14_5 t) (hs14_5 t) (ms14_6 t) (hs14_6 t) (ms14_7 t) (hs14_7 t) (fun h => h0 ((hcond14_0 t).mp h)) (iblk14 V c 0 t) (iblk14 V c 1 t) (iblk14 V c 2 t) (iblk14 V c 3 t) (iblk14 V c 4 t) (outsAt14 V c (t.val - 1) (Nat.lt_of_le_of_lt (Nat.sub_le _ _) t.isLt)).2.1 (outsAt14 V c (t.val - 1) (Nat.lt_of_le_of_lt (Nat.sub_le _ _) t.isLt)).2.2)
    (congrArg₂ Prod.mk (out14_B_6_eq (F := Ideal) c (grid14.coords t) (ms14_0 t) (hs14_0 t) (ms14_1 t) (hs14_1 t) (ms14_2 t) (hs14_2 t) (ms14_3 t) (hs14_3 t) (ms14_4 t) (hs14_4 t) (ms14_5 t) (hs14_5 t) (ms14_6 t) (hs14_6 t) (ms14_7 t) (hs14_7 t) (fun h => h0 ((hcond14_0 t).mp h)) (iblk14 V c 0 t) (iblk14 V c 1 t) (iblk14 V c 2 t) (iblk14 V c 3 t) (iblk14 V c 4 t) (outsAt14 V c (t.val - 1) (Nat.lt_of_le_of_lt (Nat.sub_le _ _) t.isLt)).2.1 (outsAt14 V c (t.val - 1) (Nat.lt_of_le_of_lt (Nat.sub_le _ _) t.isLt)).2.2)
      (out14_B_7_eq (F := Ideal) c (grid14.coords t) (ms14_0 t) (hs14_0 t) (ms14_1 t) (hs14_1 t) (ms14_2 t) (hs14_2 t) (ms14_3 t) (hs14_3 t) (ms14_4 t) (hs14_4 t) (ms14_5 t) (hs14_5 t) (ms14_6 t) (hs14_6 t) (ms14_7 t) (hs14_7 t) (fun h => h0 ((hcond14_0 t).mp h)) (iblk14 V c 0 t) (iblk14 V c 1 t) (iblk14 V c 2 t) (iblk14 V c 3 t) (iblk14 V c 4 t) (outsAt14 V c (t.val - 1) (Nat.lt_of_le_of_lt (Nat.sub_le _ _) t.isLt)).2.1 (outsAt14 V c (t.val - 1) (Nat.lt_of_le_of_lt (Nat.sub_le _ _) t.isLt)).2.2)))

/-- The column sums of step t's block of pre-activations are block sum t of the whole arrays' column, -/
theorem colblk14 (t : Fin cfg14.N) (q : Fin 64) :
    ∑ r : Fin 5000, (k14_pay4 (F := Ideal) (iblk14 V c 0 t) (iblk14 V c 2 t) (iblk14 V c 4 t) (iblk14 V c 1 t) (iblk14 V c 3 t)) (ix2 r q) = blockSum 10 5000 (fun p : Fin 50000 => hpre14 V c (ix2 p q)) t.val := by
  have ht : t.val < 10 := lt_of_lt_of_eq t.isLt (show cfg14.N = 10 from N_14)
  rw [blockSum_of_lt 10 5000 _ ht]
  exact Finset.sum_congr rfl fun r _ =>
    hblk14 V c t (ix2 r q) (show t.val * 5000 + r.val < 50000 by have := r.isLt; omega)

/-- and likewise the column sums of its squares. -/
theorem colblksq14 (t : Fin cfg14.N) (q : Fin 64) :
    ∑ r : Fin 5000, (k14_pay4 (F := Ideal) (iblk14 V c 0 t) (iblk14 V c 2 t) (iblk14 V c 4 t) (iblk14 V c 1 t) (iblk14 V c 3 t)) (ix2 r q) * (k14_pay4 (F := Ideal) (iblk14 V c 0 t) (iblk14 V c 2 t) (iblk14 V c 4 t) (iblk14 V c 1 t) (iblk14 V c 3 t)) (ix2 r q)
      = blockSum 10 5000 (fun p : Fin 50000 => hpre14 V c (ix2 p q) * hpre14 V c (ix2 p q)) t.val := by
  have ht : t.val < 10 := lt_of_lt_of_eq t.isLt (show cfg14.N = 10 from N_14)
  rw [blockSum_of_lt 10 5000 _ ht]
  exact Finset.sum_congr rfl fun r _ =>
    congrArg₂ (· * ·) (hblk14 V c t (ix2 r q) (show t.val * 5000 + r.val < 50000 by have := r.isLt; omega))
      (hblk14 V c t (ix2 r q) (show t.val * 5000 + r.val < 50000 by have := r.isLt; omega))

/-- THE RUNNING ROWS: after step n they hold the sums, and the sums of squares, over the rows of blocks 0 … n. -/
theorem rows14 : ∀ (n : ℕ) (h : n < cfg14.N) (q : Fin 64),
    (outsAt14 V c n h).2.1 (ix2 0 q) = ∑ s ∈ Finset.range (n + 1), blockSum 10 5000 (fun p : Fin 50000 => hpre14 V c (ix2 p q)) s
    ∧ (outsAt14 V c n h).2.2 (ix2 0 q)
        = ∑ s ∈ Finset.range (n + 1), blockSum 10 5000 (fun p : Fin 50000 => hpre14 V c (ix2 p q) * hpre14 V c (ix2 p q)) s
  | 0, h, q => by
    have e : outsAt14 V c 0 h = _ := outs14_A V c ⟨0, h⟩ rfl
    rw [e]
    exact ⟨((pay14_sum (iblk14 V c 0 ⟨0, h⟩) (iblk14 V c 1 ⟨0, h⟩) (iblk14 V c 2 ⟨0, h⟩) (iblk14 V c 3 ⟨0, h⟩) (iblk14 V c 4 ⟨0, h⟩) (k14_pay2 (F := Ideal)) q).trans
        ((congrArg₂ (· + ·) (pay14_zero6 (ix2 0 q)) (colblk14 V c ⟨0, h⟩ q)).trans (zero_add _))).trans
          (Finset.sum_range_one _).symm,
      ((pay14_sumsq (iblk14 V c 0 ⟨0, h⟩) (iblk14 V c 1 ⟨0, h⟩) (iblk14 V c 2 ⟨0, h⟩) (iblk14 V c 3 ⟨0, h⟩) (iblk14 V c 4 ⟨0, h⟩) (k14_pay3 (F := Ideal)) q).trans
        ((congrArg₂ (· + ·) (pay14_zero7 (ix2 0 q)) (colblksq14 V c ⟨0, h⟩ q)).trans (zero_add _))).trans
          (Finset.sum_range_one _).symm⟩
  | n + 1, h, q => by
    have hN : cfg14.N = 10 := N_14
    have hB : ¬(⟨n + 1, h⟩ : Fin cfg14.N).val % 10 = 0 := by dsimp only; omega
    have e : outsAt14 V c (n + 1) h = _ := outs14_B V c ⟨n + 1, h⟩ hB
    obtain ⟨ih6, ih7⟩ := rows14 n (Nat.lt_of_succ_lt h) q
    rw [e]
    exact ⟨((pay14_sum (iblk14 V c 0 ⟨n + 1, h⟩) (iblk14 V c 1 ⟨n + 1, h⟩) (iblk14 V c 2 ⟨n + 1, h⟩) (iblk14 V c 3 ⟨n + 1, h⟩) (iblk14 V c 4 ⟨n + 1, h⟩) (outsAt14 V c n (Nat.lt_of_succ_lt h)).2.1 q).trans
        (congrArg₂ (· + ·) ih6 (colblk14 V c ⟨n + 1, h⟩ q))).trans (Finset.sum_range_succ _ (n + 1)).symm,
      ((pay14_sumsq (iblk14 V c 0 ⟨n + 1, h⟩) (iblk14 V c 1 ⟨n + 1, h⟩) (iblk14 V c 2 ⟨n + 1, h⟩) (iblk14 V c 3 ⟨n + 1, h⟩) (iblk14 V c 4 ⟨n + 1, h⟩) (outsAt14 V c n (Nat.lt_of_succ_lt h)).2.2 q).trans
        (congrArg₂ (· + ·) ih7 (colblksq14 V c ⟨n + 1, h⟩ q))).trans (Finset.sum_range_succ _ (n + 1)).symm⟩

/-- The block of pre-activations after every step, whichever case the step is. -/
theorem first14 (t : Fin cfg14.N) : (outsAt14 V c t.val t.isLt).1 = k14_pay4 (F := Ideal) (iblk14 V c 0 t) (iblk14 V c 2 t) (iblk14 V c 4 t) (iblk14 V c 1 t) (iblk14 V c 3 t) := by
  by_cases h0 : t.val % 10 = 0
  · exact congrArg Prod.fst (outs14_A V c t h0)
  · exact congrArg Prod.fst (outs14_B V c t h0)

/-! ### The pre-activations array: every step writes its block back -/

/-- An index of the array is in step t's block iff each coordinate is in the block's range. -/
theorem mem_blk14_5 (t : Fin cfg14.N) (i : S50000x64.Idx) :
    i ∈ ((cfg14.win 5).blk t).view.set ↔ ∀ a : Fin 2, win14_5.index t a * S5000x64.size a ≤ (i a).val ∧ (i a).val < win14_5.index t a * S5000x64.size a + S5000x64.size a := by
  show i ∈ ((View.whole main_v236_0).slice (win14_5.rect t)).set ↔ _
  rw [View.set_slice_whole, Rect.mem_set_unit]
  exact Iff.rfl

/-- What step t writes back is block t of the whole arrays' pre-activations. -/
theorem flushed14_5 (t : Fin cfg14.N) :
    (dat14 V c).flushed 5 t = ((cfg14.win 5).blk t).view.read (Elt Ideal) (hpre14 V c) := by
  show (cfg14.win 5).cut (grid14.coords t) ((dat14 V c).after 5 t) = _
  rw [after14_5, first14 V c t]
  have ht : t.val < 10 := lt_of_lt_of_eq t.isLt (show cfg14.N = 10 from N_14)
  have e0 := (idx14 t).2.2.2.2.1
  have e1 := (idx14 t).2.2.2.2.2
  funext y
  have hy0 : (y 0).val < 5000 := (y 0).isLt
  have hy1 : (y 1).val < 64 := (y 1).isLt
  have hr : t.val * 5000 + (y 0).val < 50000 := by omega
  show (k14_pay4 (F := Ideal) (iblk14 V c 0 t) (iblk14 V c 2 t) (iblk14 V c 4 t) (iblk14 V c 1 t) (iblk14 V c 3 t)) ((cfg14.win 5).xinj (grid14.coords t) y) = hpre14 V c (((cfg14.win 5).blk t).view.emb y)
  refine (hblk14 V c t ((cfg14.win 5).xinj (grid14.coords t) y) hr).trans (congrArg (hpre14 V c) (funext fun a => Fin.ext ?_))
  match a with
  | ⟨0, _⟩ => show t.val * 5000 + (y 0).val = win14_5.index t (0 : Fin 2) * 5000 + 1 * (y 0).val; rw [e0]; omega
  | ⟨1, _⟩ => show (y 1).val = win14_5.index t (1 : Fin 2) * 64 + 1 * (y 1).val; rw [e1]; omega

/-- Row r of the array is in block r / 5000. -/
theorem cover14_5 (i : S50000x64.Idx) :
    ∃ t : Fin cfg14.N, (cfg14.win 5).flush t = true ∧ i ∈ ((cfg14.win 5).blk t).view.set := by
  have hi0 : (i 0).val < 50000 := (i 0).isLt
  have hi1 : (i 1).val < 64 := (i 1).isLt
  have hN : cfg14.N = 10 := N_14
  have hq : (i 0).val / 5000 < cfg14.N := by omega
  have e0 : win14_5.index ⟨(i 0).val / 5000, hq⟩ (0 : Fin 2) = (i 0).val / 5000 := (idx14 ⟨(i 0).val / 5000, hq⟩).2.2.2.2.1
  have e1 := (idx14 ⟨(i 0).val / 5000, hq⟩).2.2.2.2.2
  refine ⟨⟨(i 0).val / 5000, hq⟩, flush14_5 _, ?_⟩
  rw [mem_blk14_5]
  intro a
  match a with
  | ⟨0, _⟩ => show win14_5.index ⟨(i 0).val / 5000, hq⟩ (0 : Fin 2) * 5000 ≤ (i 0).val ∧ (i 0).val < win14_5.index ⟨(i 0).val / 5000, hq⟩ (0 : Fin 2) * 5000 + 5000; rw [e0]; omega
  | ⟨1, _⟩ => show win14_5.index ⟨(i 0).val / 5000, hq⟩ (1 : Fin 2) * 64 ≤ (i 1).val ∧ (i 1).val < win14_5.index ⟨(i 0).val / 5000, hq⟩ (1 : Fin 2) * 64 + 64; rw [e1]; omega

/-! ### The two rows: written back once, after the last step -/

/-- The last step. -/
abbrev last14 : Fin cfg14.N := ⟨9, by rw [show cfg14.N = 10 from N_14]; decide⟩

theorem mem_blk14_6 (t : Fin cfg14.N) (i : S1x64.Idx) :
    i ∈ ((cfg14.win 6).blk t).view.set ↔ ∀ a : Fin 2, win14_6.index t a * S1x64.size a ≤ (i a).val ∧ (i a).val < win14_6.index t a * S1x64.size a + S1x64.size a := by
  show i ∈ ((View.whole main_v236_1).slice (win14_6.rect t)).set ↔ _
  rw [View.set_slice_whole, Rect.mem_set_unit]
  exact Iff.rfl

/-- After the last step this running row is the full column sums: ten block sums make the sum over all rows. -/
theorem row14_6 (hl : 9 < cfg14.N) :
    ((outsAt14 V c 9 hl).2.1 : Mat 1 64) = colSum (hpre14 V c) := by
  funext j
  obtain ⟨u, q, rfl⟩ : ∃ (u : Fin 1) (q : Fin 64), j = ix2 u q := ⟨j 0, j 1, eq_ix2 j⟩
  obtain rfl : u = 0 := Subsingleton.elim _ _
  exact ((rows14 V c 9 hl q).1.trans
    (sum_range_blockSum 10 5000 (fun p : Fin 50000 => hpre14 V c (ix2 p q)))).trans
      (Cert.Layer.colSum_apply (hpre14 V c) q).symm

/-- The one write-back of this row, after step 9, writes the full column sums (its block is the whole row). -/
theorem flushed14_6 (t : Fin cfg14.N) (hf : (cfg14.win 6).flush t = true) :
    (dat14 V c).flushed 6 t = ((cfg14.win 6).blk t).view.read (Elt Ideal) (colSum (hpre14 V c)) := by
  have hN : cfg14.N = 10 := N_14
  have h9 : t.val = 9 := by have := (flush14_6 t).mp hf; have := t.isLt; omega
  have hl : 9 < cfg14.N := by omega
  have eo : ∀ (n : ℕ) (hn : n < cfg14.N), n = 9 → outsAt14 V c n hn = outsAt14 V c 9 hl :=
    fun n hn e => by subst e; rfl
  show (cfg14.win 6).cut (grid14.coords t) ((dat14 V c).after 6 t) = _
  rw [after14_6, eo t.val t.isLt h9, row14_6 V c hl]
  have e0 := (whole14 t).2.2.2.2.2.2.1
  have e1 := (whole14 t).2.2.2.2.2.2.2.1
  have hz' : (fun a => win14_6.index t a * main_v236_1.ty.shape.size a) = fun _ => 0 := funext fun a => by
    fin_cases a
    · show win14_6.index t (0 : Fin 2) * 1 = 0; rw [e0]
    · show win14_6.index t (1 : Fin 2) * 64 = 0; rw [e1]
  generalize colSum (hpre14 V c) = G
  exact (Memref.read_access_unit_zero (Elt Ideal) main_v236_1 hz' (fun a => by rw [congrFun hz' a]; simp) G).symm

/-- The last step's block is the whole row. -/
theorem cover14_6 (i : S1x64.Idx) :
    ∃ t : Fin cfg14.N, (cfg14.win 6).flush t = true ∧ i ∈ ((cfg14.win 6).blk t).view.set := by
  have hi0 : (i 0).val < 1 := (i 0).isLt
  have hi1 : (i 1).val < 64 := (i 1).isLt
  have e0 := (whole14 last14).2.2.2.2.2.2.1
  have e1 := (whole14 last14).2.2.2.2.2.2.2.1
  refine ⟨last14, (flush14_6 last14).mpr rfl, ?_⟩
  rw [mem_blk14_6]
  intro a
  match a with
  | ⟨0, _⟩ => show win14_6.index last14 (0 : Fin 2) * 1 ≤ (i 0).val ∧ (i 0).val < win14_6.index last14 (0 : Fin 2) * 1 + 1; rw [e0]; omega
  | ⟨1, _⟩ => show win14_6.index last14 (1 : Fin 2) * 64 ≤ (i 1).val ∧ (i 1).val < win14_6.index last14 (1 : Fin 2) * 64 + 64; rw [e1]; omega

theorem mem_blk14_7 (t : Fin cfg14.N) (i : S1x64.Idx) :
    i ∈ ((cfg14.win 7).blk t).view.set ↔ ∀ a : Fin 2, win14_7.index t a * S1x64.size a ≤ (i a).val ∧ (i a).val < win14_7.index t a * S1x64.size a + S1x64.size a := by
  show i ∈ ((View.whole main_v236_2).slice (win14_7.rect t)).set ↔ _
  rw [View.set_slice_whole, Rect.mem_set_unit]
  exact Iff.rfl

/-- After the last step this running row is the full column sums: ten block sums make the sum over all rows. -/
theorem row14_7 (hl : 9 < cfg14.N) :
    ((outsAt14 V c 9 hl).2.2 : Mat 1 64) = colSumSq (hpre14 V c) := by
  funext j
  obtain ⟨u, q, rfl⟩ : ∃ (u : Fin 1) (q : Fin 64), j = ix2 u q := ⟨j 0, j 1, eq_ix2 j⟩
  obtain rfl : u = 0 := Subsingleton.elim _ _
  exact ((rows14 V c 9 hl q).2.trans
    (sum_range_blockSum 10 5000 (fun p : Fin 50000 => hpre14 V c (ix2 p q) * hpre14 V c (ix2 p q)))).trans
      (Cert.Layer.colSumSq_apply (hpre14 V c) q).symm

/-- The one write-back of this row, after step 9, writes the full column sums (its block is the whole row). -/
theorem flushed14_7 (t : Fin cfg14.N) (hf : (cfg14.win 7).flush t = true) :
    (dat14 V c).flushed 7 t = ((cfg14.win 7).blk t).view.read (Elt Ideal) (colSumSq (hpre14 V c)) := by
  have hN : cfg14.N = 10 := N_14
  have h9 : t.val = 9 := by have := (flush14_7 t).mp hf; have := t.isLt; omega
  have hl : 9 < cfg14.N := by omega
  have eo : ∀ (n : ℕ) (hn : n < cfg14.N), n = 9 → outsAt14 V c n hn = outsAt14 V c 9 hl :=
    fun n hn e => by subst e; rfl
  show (cfg14.win 7).cut (grid14.coords t) ((dat14 V c).after 7 t) = _
  rw [after14_7, eo t.val t.isLt h9, row14_7 V c hl]
  have e0 := (whole14 t).2.2.2.2.2.2.2.2.1
  have e1 := (whole14 t).2.2.2.2.2.2.2.2.2
  have hz' : (fun a => win14_7.index t a * main_v236_2.ty.shape.size a) = fun _ => 0 := funext fun a => by
    fin_cases a
    · show win14_7.index t (0 : Fin 2) * 1 = 0; rw [e0]
    · show win14_7.index t (1 : Fin 2) * 64 = 0; rw [e1]
  generalize colSumSq (hpre14 V c) = G
  exact (Memref.read_access_unit_zero (Elt Ideal) main_v236_2 hz' (fun a => by rw [congrFun hz' a]; simp) G).symm

/-- The last step's block is the whole row. -/
theorem cover14_7 (i : S1x64.Idx) :
    ∃ t : Fin cfg14.N, (cfg14.win 7).flush t = true ∧ i ∈ ((cfg14.win 7).blk t).view.set := by
  have hi0 : (i 0).val < 1 := (i 0).isLt
  have hi1 : (i 1).val < 64 := (i 1).isLt
  have e0 := (whole14 last14).2.2.2.2.2.2.2.2.1
  have e1 := (whole14 last14).2.2.2.2.2.2.2.2.2
  refine ⟨last14, (flush14_7 last14).mpr rfl, ?_⟩
  rw [mem_blk14_7]
  intro a
  match a with
  | ⟨0, _⟩ => show win14_7.index last14 (0 : Fin 2) * 1 ≤ (i 0).val ∧ (i 0).val < win14_7.index last14 (0 : Fin 2) * 1 + 1; rw [e0]; omega
  | ⟨1, _⟩ => show win14_7.index last14 (1 : Fin 2) * 64 ≤ (i 1).val ∧ (i 1).val < win14_7.index last14 (1 : Fin 2) * 64 + 64; rw [e1]; omega

end Region14

/-- The pre-activations array after the stage: the dense step of the arrays the stage found. -/
theorem final14_5 (V : (c : Dev nD) → (b : Ref sig .tc) → Buf (Elt Ideal) ((c : Thread nD τ).loc b)) (c : Dev nD) :
    (Gen.dat14 (F := Ideal) V c).arrAt 5 cfg14.N
      = Cert.Layer.lin (V c (Pipeline.arrRef spec14 0)) (V c (Pipeline.arrRef spec14 1)) (V c (Pipeline.arrRef spec14 2)) (V c (Pipeline.arrRef spec14 3)) (V c (Pipeline.arrRef spec14 4)) :=
  (dat14 V c).arrAt_eq_of_cover 5 (hpre14 V c) (fun t _ => flushed14_5 V c t) cover14_5

/-- The row of sums after the stage: the column sums of that dense step. -/
theorem final14_6 (V : (c : Dev nD) → (b : Ref sig .tc) → Buf (Elt Ideal) ((c : Thread nD τ).loc b)) (c : Dev nD) :
    (Gen.dat14 (F := Ideal) V c).arrAt 6 cfg14.N
      = Cert.Layer.colSum (Cert.Layer.lin (V c (Pipeline.arrRef spec14 0)) (V c (Pipeline.arrRef spec14 1)) (V c (Pipeline.arrRef spec14 2)) (V c (Pipeline.arrRef spec14 3)) (V c (Pipeline.arrRef spec14 4))) :=
  (dat14 V c).arrAt_eq_of_cover 6 (colSum (hpre14 V c)) (flushed14_6 V c) cover14_6

/-- The row of sums of squares after the stage: the column sums of squares of that dense step. -/
theorem final14_7 (V : (c : Dev nD) → (b : Ref sig .tc) → Buf (Elt Ideal) ((c : Thread nD τ).loc b)) (c : Dev nD) :
    (Gen.dat14 (F := Ideal) V c).arrAt 7 cfg14.N
      = Cert.Layer.colSumSq (Cert.Layer.lin (V c (Pipeline.arrRef spec14 0)) (V c (Pipeline.arrRef spec14 1)) (V c (Pipeline.arrRef spec14 2)) (V c (Pipeline.arrRef spec14 3)) (V c (Pipeline.arrRef spec14 4))) :=
  (dat14 V c).arrAt_eq_of_cover 7 (colSumSq (hpre14 V c)) (flushed14_7 V c) cover14_7

end Cert.KernelIdeal.RegionValue

end
-- ==== Proof.RegionA15.lean ====
/-
  The normalising step of one layer, read off the pipeline's write-backs.

  The pipeline walks ten row blocks of 5000 rows.  At block t the body holds rows 5000·t … 5000·t + 4999 of the
  pre-activation array and the four per-column rows (mean, variance, gain, offset), and stores, at row p and column q of
  the block, tanh(((h − mean q)·rsqrt(var q + eps))·gain q + offset q) with h the pre-activation at row 5000·t + p.  That
  is block t of ONE function of the whole arrays, the blocks tile the 50000 rows, and every block is written back: so the
  output array ends holding that function.
-/
import proofs.«147565_j9259949490665_1_alg».proof.Proof.Gen.KernelIdeal.Frame
import proofs.«147565_j9259949490665_1_alg».proof.Proof.Spec
import Idealize.ShloMosaic.Lib.Pipeline.Value
import Idealize.ShloMosaic.Lib.ValueLayout

set_option maxRecDepth 16384

noncomputable section

namespace Cert.KernelIdeal.RegionValue

open Idealize.ShloMosaic Idealize.ShloMosaic.TcCoe Idealize.ShloMosaic.ValueIdx
open Idealize.ShloMosaic.Pipeline (Dat)

/-- The zero offsets of an access to a whole buffer. -/
theorem zero_off15 : (![0, 0] : Fin 2 → Nat) = fun _ => 0 := funext fun a => by fin_cases a <;> rfl

/-- Two functions of a 5000×64 block agree when they agree at every row and column. -/
theorem ext_block15 {α : Type} (f g : S5000x64.Idx → α) (h : ∀ (p : Fin 5000) (q : Fin 64), f (ix2 p q) = g (ix2 p q)) :
    f = g := funext fun j => by rw [eq_ix2 j]; exact h _ _

/-- The body's arithmetic at row p, column q of its block: the four rows are read at column q, the constant is the
    same binary word as the specification's. -/
theorem pay15_apply (x0 : Vec Ideal S5000x64 .f32) (x1 x2 x3 x4 : Vec Ideal S1x64 .f32) (p : Fin 5000) (q : Fin 64) :
    Gen.k15_pay1 (F := Ideal) x2 x0 x1 x3 x4 (ix2 p q)
      = Ideal.tanh ((((x0 (ix2 p q) - x1 (ix2 0 q)) * Ideal.rsqrt (x2 (ix2 0 q) + Cert.Layer.eps)) * x3 (ix2 0 q))
          + x4 (ix2 0 q)) := by
  unfold Gen.k15_pay1
  simp only [shapeCast_self]
  show Ideal.tanh ((((x0 (ix2 p q) - broadcastTo S5000x64 x1 _ (ix2 p q))
      * broadcastTo S5000x64 (rsqrt (F := Ideal) (addf (F := Ideal) x2 (broadcast S1x64 (Scalar.ofBits (F := Ideal) .f32 0x3727C5AC#32)))) _ (ix2 p q))
      * broadcastTo S5000x64 x3 _ (ix2 p q)) + broadcastTo S5000x64 x4 _ (ix2 p q)) = _
  simp only [broadcastTo_1b_ab_apply]
  rfl

/-- What the body leaves in the output block: its one store covers the block, and its loads read whole blocks, so the
    block holds the body's arithmetic of the five input blocks. -/
theorem out15_eq (x0 : Vec Ideal S5000x64 .f32) (x1 x2 x3 x4 : Vec Ideal S1x64 .f32) :
    Gen.out15_5 (F := Ideal) x0 x1 x2 x3 x4 = Gen.k15_pay1 x2 x0 x1 x3 x4 := by
  unfold Gen.out15_5
  rw [View.canon_unit_zero zero_off15]
  simp only [View.ld_unit_zero (S := S5000x64) zero_off15, View.ld_unit_zero (S := S1x64) zero_off15]

/-- When row p of the first block is row r of a whole array and the four rows are those of whole arrays, entry (p, q) of
    the output block is entry (r, q) of the normalising step of the whole arrays. -/
theorem block_val15 (x0 : Vec Ideal S5000x64 .f32) (x1 x2 x3 x4 : Vec Ideal S1x64 .f32)
    (A0 : Cert.Layer.Mat 50000 64) (A1 A2 A3 A4 : Cert.Layer.Mat 1 64) (p : Fin 5000) (q : Fin 64) (r : Fin 50000)
    (h0 : x0 (ix2 p q) = A0 (ix2 r q)) (h1 : x1 (ix2 0 q) = A1 (ix2 0 q)) (h2 : x2 (ix2 0 q) = A2 (ix2 0 q))
    (h3 : x3 (ix2 0 q) = A3 (ix2 0 q)) (h4 : x4 (ix2 0 q) = A4 (ix2 0 q)) :
    Gen.out15_5 (F := Ideal) x0 x1 x2 x3 x4 (ix2 p q) = Cert.Layer.bn A0 A1 A2 A3 A4 (ix2 r q) := by
  rw [out15_eq, pay15_apply, Cert.Layer.bn_apply, h0, h1, h2, h3, h4]

/-- The block index of every window at every point of the grid: the two row-blocked windows sit at block (t, 0), the
    four rows at block (0, 0). -/
theorem idx_facts15 : ∀ t : Fin cfg15.N,
    win15_0.index t (0 : Fin 2) = t.val ∧ win15_0.index t (1 : Fin 2) = 0
    ∧ win15_1.index t (0 : Fin 2) = 0 ∧ win15_1.index t (1 : Fin 2) = 0
    ∧ win15_2.index t (0 : Fin 2) = 0 ∧ win15_2.index t (1 : Fin 2) = 0
    ∧ win15_3.index t (0 : Fin 2) = 0 ∧ win15_3.index t (1 : Fin 2) = 0
    ∧ win15_4.index t (0 : Fin 2) = 0 ∧ win15_4.index t (1 : Fin 2) = 0
    ∧ win15_5.index t (0 : Fin 2) = t.val ∧ win15_5.index t (1 : Fin 2) = 0 :=
  (by decide +kernel : ∀ t : Fin grid15.N, _)

/-- The grid has ten points. -/
theorem point_lt15 (t : Fin cfg15.N) : t.val < 10 := lt_of_lt_of_eq t.isLt Gen.N_15

/-- Row p, column q of the pre-activation block at point t sits at row 5000·t + p of the pre-activation array. -/
theorem emb15_0 (t : Fin cfg15.N) (p : Fin 5000) (q : Fin 64) (r : Fin 50000) (hr : r.val = t.val * 5000 + p.val) :
    (((cfg15.win 0).blk t).view.emb (ix2 p q : S5000x64.Idx) : S50000x64.Idx) = ix2 r q := by
  obtain ⟨e0, e1, -⟩ := idx_facts15 t
  refine funext fun a => Fin.ext ?_
  match a with
  | ⟨0, _⟩ => show win15_0.index t (0 : Fin 2) * 5000 + 1 * p.val = r.val; rw [e0, hr]; omega
  | ⟨1, _⟩ => show win15_0.index t (1 : Fin 2) * 64 + 1 * q.val = q.val; rw [e1]; omega

/-- Column q of per-column row 1's block at any point sits at column q of the row. -/
theorem emb15_1 (t : Fin cfg15.N) (q : Fin 64) :
    (((cfg15.win 1).blk t).view.emb (ix2 0 q : S1x64.Idx) : S1x64.Idx) = ix2 0 q := by
  obtain ⟨-, -, e0, e1, -⟩ := idx_facts15 t
  refine funext fun a => Fin.ext ?_
  match a with
  | ⟨0, _⟩ => show win15_1.index t (0 : Fin 2) * 1 + 1 * 0 = 0; rw [e0]
  | ⟨1, _⟩ => show win15_1.index t (1 : Fin 2) * 64 + 1 * q.val = q.val; rw [e1]; omega

/-- Column q of per-column row 2's block at any point sits at column q of the row. -/
theorem emb15_2 (t : Fin cfg15.N) (q : Fin 64) :
    (((cfg15.win 2).blk t).view.emb (ix2 0 q : S1x64.Idx) : S1x64.Idx) = ix2 0 q := by
  obtain ⟨-, -, -, -, e0, e1, -⟩ := idx_facts15 t
  refine funext fun a => Fin.ext ?_
  match a with
  | ⟨0, _⟩ => show win15_2.index t (0 : Fin 2) * 1 + 1 * 0 = 0; rw [e0]
  | ⟨1, _⟩ => show win15_2.index t (1 : Fin 2) * 64 + 1 * q.val = q.val; rw [e1]; omega

/-- Column q of per-column row 3's block at any point sits at column q of the row. -/
theorem emb15_3 (t : Fin cfg15.N) (q : Fin 64) :
    (((cfg15.win 3).blk t).view.emb (ix2 0 q : S1x64.Idx) : S1x64.Idx) = ix2 0 q := by
  obtain ⟨-, -, -, -, -, -, e0, e1, -⟩ := idx_facts15 t
  refine funext fun a => Fin.ext ?_
  match a with
  | ⟨0, _⟩ => show win15_3.index t (0 : Fin 2) * 1 + 1 * 0 = 0; rw [e0]
  | ⟨1, _⟩ => show win15_3.index t (1 : Fin 2) * 64 + 1 * q.val = q.val; rw [e1]; omega

/-- Column q of per-column row 4's block at any point sits at column q of the row. -/
theorem emb15_4 (t : Fin cfg15.N) (q : Fin 64) :
    (((cfg15.win 4).blk t).view.emb (ix2 0 q : S1x64.Idx) : S1x64.Idx) = ix2 0 q := by
  obtain ⟨-, -, -, -, -, -, -, -, e0, e1, -⟩ := idx_facts15 t
  refine funext fun a => Fin.ext ?_
  match a with
  | ⟨0, _⟩ => show win15_4.index t (0 : Fin 2) * 1 + 1 * 0 = 0; rw [e0]
  | ⟨1, _⟩ => show win15_4.index t (1 : Fin 2) * 64 + 1 * q.val = q.val; rw [e1]; omega

/-- Row p, column q of the output block at point t sits at row 5000·t + p of the output array. -/
theorem emb15_5 (t : Fin cfg15.N) (p : Fin 5000) (q : Fin 64) (r : Fin 50000) (hr : r.val = t.val * 5000 + p.val) :
    (((cfg15.win 5).blk t).view.emb (ix2 p q : S5000x64.Idx) : S50000x64.Idx) = ix2 r q := by
  obtain ⟨-, -, -, -, -, -, -, -, -, -, e0, e1⟩ := idx_facts15 t
  refine funext fun a => Fin.ext ?_
  match a with
  | ⟨0, _⟩ => show win15_5.index t (0 : Fin 2) * 5000 + 1 * p.val = r.val; rw [e0, hr]; omega
  | ⟨1, _⟩ => show win15_5.index t (1 : Fin 2) * 64 + 1 * q.val = q.val; rw [e1]; omega

section
variable (V : (c : Dev nD) → (b : Ref sig .tc) → Buf (Elt Ideal) ((c : Thread nD τ).loc b))

set_option maxHeartbeats 1000000 in
/-- Row p, column q of the pre-activation block at point t is row 5000·t + p of the pre-activation array. -/
theorem blk15_0_apply (c : Dev nD) (t : Fin cfg15.N) (p : Fin 5000) (q : Fin 64) (r : Fin 50000)
    (hr : r.val = t.val * 5000 + p.val) :
    (Gen.iblk15 (F := Ideal) V c 0 t : S5000x64.Idx → EReal) (ix2 p q)
      = (V c (Pipeline.arrRef spec15 0) : S50000x64.Idx → EReal) (ix2 r q) :=
  congrArg (V c (Pipeline.arrRef spec15 0) : S50000x64.Idx → EReal) (emb15_0 t p q r hr)

set_option maxHeartbeats 1000000 in
/-- The block of per-column row 1 at any point is the row itself. -/
theorem blk15_1_apply (c : Dev nD) (t : Fin cfg15.N) (q : Fin 64) :
    (Gen.iblk15 (F := Ideal) V c 1 t : S1x64.Idx → EReal) (ix2 0 q)
      = (V c (Pipeline.arrRef spec15 1) : S1x64.Idx → EReal) (ix2 0 q) :=
  congrArg (V c (Pipeline.arrRef spec15 1) : S1x64.Idx → EReal) (emb15_1 t q)

set_option maxHeartbeats 1000000 in
/-- The block of per-column row 2 at any point is the row itself. -/
theorem blk15_2_apply (c : Dev nD) (t : Fin cfg15.N) (q : Fin 64) :
    (Gen.iblk15 (F := Ideal) V c 2 t : S1x64.Idx → EReal) (ix2 0 q)
      = (V c (Pipeline.arrRef spec15 2) : S1x64.Idx → EReal) (ix2 0 q) :=
  congrArg (V c (Pipeline.arrRef spec15 2) : S1x64.Idx → EReal) (emb15_2 t q)

set_option maxHeartbeats 1000000 in
/-- The block of per-column row 3 at any point is the row itself. -/
theorem blk15_3_apply (c : Dev nD) (t : Fin cfg15.N) (q : Fin 64) :
    (Gen.iblk15 (F := Ideal) V c 3 t : S1x64.Idx → EReal) (ix2 0 q)
      = (V c (Pipeline.arrRef spec15 3) : S1x64.Idx → EReal) (ix2 0 q) :=
  congrArg (V c (Pipeline.arrRef spec15 3) : S1x64.Idx → EReal) (emb15_3 t q)

set_option maxHeartbeats 1000000 in
/-- The block of per-column row 4 at any point is the row itself. -/
theorem blk15_4_apply (c : Dev nD) (t : Fin cfg15.N) (q : Fin 64) :
    (Gen.iblk15 (F := Ideal) V c 4 t : S1x64.Idx → EReal) (ix2 0 q)
      = (V c (Pipeline.arrRef spec15 4) : S1x64.Idx → EReal) (ix2 0 q) :=
  congrArg (V c (Pipeline.arrRef spec15 4) : S1x64.Idx → EReal) (emb15_4 t q)

set_option maxHeartbeats 1000000 in
/-- What point t writes back is block t of the normalising step of the whole arrays. -/
theorem flushed15_5_eq (c : Dev nD) (t : Fin cfg15.N) :
    (Gen.dat15 (F := Ideal) V c).flushed 5 t
      = ((cfg15.win 5).blk t).view.read (Elt Ideal)
          (Cert.Layer.bn (V c (Pipeline.arrRef spec15 0)) (V c (Pipeline.arrRef spec15 1)) (V c (Pipeline.arrRef spec15 2))
            (V c (Pipeline.arrRef spec15 3)) (V c (Pipeline.arrRef spec15 4))) := by
  show (cfg15.win 5).cut (grid15.coords t) ((Gen.dat15 V c).after 5 t) = _
  rw [Gen.after15_5]
  refine ext_block15 _ _ fun p q => ?_
  have hp : p.val < 5000 := p.isLt
  have ht : t.val < 10 := point_lt15 t
  have hr : t.val * 5000 + p.val < 50000 := by omega
  exact (block_val15 (Gen.iblk15 V c 0 t) (Gen.iblk15 V c 1 t) (Gen.iblk15 V c 2 t) (Gen.iblk15 V c 3 t)
      (Gen.iblk15 V c 4 t) (V c (Pipeline.arrRef spec15 0)) (V c (Pipeline.arrRef spec15 1))
      (V c (Pipeline.arrRef spec15 2)) (V c (Pipeline.arrRef spec15 3)) (V c (Pipeline.arrRef spec15 4))
      p q ⟨t.val * 5000 + p.val, hr⟩ (blk15_0_apply V c t p q _ rfl) (blk15_1_apply V c t q) (blk15_2_apply V c t q)
      (blk15_3_apply V c t q) (blk15_4_apply V c t q)).trans
    (congrArg (Cert.Layer.bn (V c (Pipeline.arrRef spec15 0)) (V c (Pipeline.arrRef spec15 1))
      (V c (Pipeline.arrRef spec15 2)) (V c (Pipeline.arrRef spec15 3)) (V c (Pipeline.arrRef spec15 4)))
      (emb15_5 t p q ⟨t.val * 5000 + p.val, hr⟩ rfl).symm)

/-- An index of the output array lies in point t's block iff each coordinate lies in the block's range on its axis. -/
theorem mem_blk15_5 (t : Fin cfg15.N) (i : S50000x64.Idx) :
    i ∈ ((cfg15.win 5).blk t).view.set
      ↔ ∀ a : Fin 2, win15_5.index t a * S5000x64.size a ≤ (i a).val
          ∧ (i a).val < win15_5.index t a * S5000x64.size a + S5000x64.size a := by
  show i ∈ ((View.whole main_v245).slice (win15_5.rect t)).set ↔ _
  rw [View.set_slice_whole, Rect.mem_set_unit]
  exact Iff.rfl

/-- Every row of the output array lies in a block that is written back: row r in the block of point r / 5000. -/
theorem cover15_5 (i : S50000x64.Idx) :
    ∃ t : Fin cfg15.N, (cfg15.win 5).flush t = true ∧ i ∈ ((cfg15.win 5).blk t).view.set := by
  have hi0 : (i 0).val < 50000 := (i 0).isLt
  have hi1 : (i 1).val < 64 := (i 1).isLt
  have hN : (i 0).val / 5000 < cfg15.N := lt_of_lt_of_eq (by omega : (i 0).val / 5000 < 10) Gen.N_15.symm
  refine ⟨⟨(i 0).val / 5000, hN⟩, Gen.flush15_5 _, ?_⟩
  obtain ⟨-, -, -, -, -, -, -, -, -, -, e0, e1⟩ := idx_facts15 ⟨(i 0).val / 5000, hN⟩
  rw [mem_blk15_5]
  intro a
  match a with
  | ⟨0, _⟩ =>
    show win15_5.index ⟨(i 0).val / 5000, hN⟩ (0 : Fin 2) * 5000 ≤ (i 0).val
      ∧ (i 0).val < win15_5.index ⟨(i 0).val / 5000, hN⟩ (0 : Fin 2) * 5000 + 5000
    rw [e0]; show (i 0).val / 5000 * 5000 ≤ (i 0).val ∧ (i 0).val < (i 0).val / 5000 * 5000 + 5000; omega
  | ⟨1, _⟩ =>
    show win15_5.index ⟨(i 0).val / 5000, hN⟩ (1 : Fin 2) * 64 ≤ (i 1).val
      ∧ (i 1).val < win15_5.index ⟨(i 0).val / 5000, hN⟩ (1 : Fin 2) * 64 + 64
    rw [e1]; omega

set_option maxHeartbeats 1000000 in
/-- The output array after the region: the normalising step of the arrays the region found. -/
theorem final15_5 (c : Dev nD) :
    (Gen.dat15 (F := Ideal) V c).arrAt 5 cfg15.N
      = Cert.Layer.bn (V c (Pipeline.arrRef spec15 0)) (V c (Pipeline.arrRef spec15 1)) (V c (Pipeline.arrRef spec15 2))
          (V c (Pipeline.arrRef spec15 3)) (V c (Pipeline.arrRef spec15 4)) :=
  (Gen.dat15 V c).arrAt_eq_of_cover 5 _ (fun t _ => flushed15_5_eq V c t) cover15_5

end

end Cert.KernelIdeal.RegionValue

end
-- ==== Proof.KLayer7.lean ====
/-
  Layer 7 of the kernel program, from the buffer contents before its first host operation to its output array: the
  dense step and its two column-sum rows (launch 14), the mean and variance rows, and the normalising step (launch 15).
-/
import proofs.«147565_j9259949490665_1_alg».proof.Proof.KHostA7
import proofs.«147565_j9259949490665_1_alg».proof.Proof.KHostB7
import proofs.«147565_j9259949490665_1_alg».proof.Proof.RegionR14
import proofs.«147565_j9259949490665_1_alg».proof.Proof.RegionA15

set_option maxRecDepth 16384

noncomputable section

namespace Cert.KernelIdeal.Fold

open Idealize.ShloMosaic Idealize.ShloMosaic.TcCoe Idealize.SL.Sem Idealize.ShloMosaic.ValueIdx
open Cert.KernelIdeal Cert.KernelIdeal.Gen Cert.KernelIdeal.HostFn Cert.Layer

variable (m : (ℓ : Loc nD τ sig) → Buf (Elt Ideal) ℓ) (ρ : Dev nD → PrngReg)

set_option maxHeartbeats 1000000 in
/-- Launch 14's three result arrays at its exit. -/
theorem W30_ro0 (c : Dev nD) : W30 m ρ c (Proc.devRef .tc main_v236_0) = (lin (W29 m ρ c (Proc.devRef .tc main_v234)) (W29 m ρ c (Proc.devRef .tc main_v214)) (W29 m ρ c (Proc.devRef .tc main_v216)) (W29 m ρ c (Proc.devRef .tc main_v218)) (W29 m ρ c (Proc.devRef .tc main_v235))) :=
  (W30_arr m ρ c 5).trans (Cert.KernelIdeal.RegionValue.final14_5 (V29 m ρ) c)
set_option maxHeartbeats 1000000 in
theorem W30_ro1 (c : Dev nD) : W30 m ρ c (Proc.devRef .tc main_v236_1) = colSum (lin (W29 m ρ c (Proc.devRef .tc main_v234)) (W29 m ρ c (Proc.devRef .tc main_v214)) (W29 m ρ c (Proc.devRef .tc main_v216)) (W29 m ρ c (Proc.devRef .tc main_v218)) (W29 m ρ c (Proc.devRef .tc main_v235))) :=
  (W30_arr m ρ c 6).trans (Cert.KernelIdeal.RegionValue.final14_6 (V29 m ρ) c)
set_option maxHeartbeats 1000000 in
theorem W30_ro2 (c : Dev nD) : W30 m ρ c (Proc.devRef .tc main_v236_2) = colSumSq (lin (W29 m ρ c (Proc.devRef .tc main_v234)) (W29 m ρ c (Proc.devRef .tc main_v214)) (W29 m ρ c (Proc.devRef .tc main_v216)) (W29 m ρ c (Proc.devRef .tc main_v218)) (W29 m ρ c (Proc.devRef .tc main_v235))) :=
  (W30_arr m ρ c 7).trans (Cert.KernelIdeal.RegionValue.final14_7 (V29 m ρ) c)
theorem W30_gv (c : Dev nD) : W30 m ρ c (Proc.devRef .tc main_v222) = W29 m ρ c (Proc.devRef .tc main_v222) := W30_of_ne m ρ c main_v222 (by decide)
theorem W30_bev (c : Dev nD) : W30 m ρ c (Proc.devRef .tc main_v224) = W29 m ρ c (Proc.devRef .tc main_v224) := W30_of_ne m ρ c main_v224 (by decide)

set_option maxHeartbeats 1000000 in
/-- Launch 15's result array at its exit. -/
theorem W32_out (c : Dev nD) : W32 m ρ c (Proc.devRef .tc main_v245) = bn (W31 m ρ c (Proc.devRef .tc main_v236_0)) (W31 m ρ c (Proc.devRef .tc main_v238)) (W31 m ρ c (Proc.devRef .tc main_v242)) (W31 m ρ c (Proc.devRef .tc main_v243)) (W31 m ρ c (Proc.devRef .tc main_v244)) :=
  (W32_arr m ρ c 5).trans (Cert.KernelIdeal.RegionValue.final15_5 (V31 m ρ) c)

set_option maxHeartbeats 2000000 in
/-- The layer: its output array is the normalising step, with the array's own mean and variance, of the dense step of the
    aggregated and the plain input. -/
theorem layer7 (c : Dev nD) : W32 m ρ c (Proc.devRef .tc main_v245)
    = bnStep (lin (agg64 (W28 m ρ c (Proc.devRef .tc main_v1)) (W28 m ρ c (Proc.devRef .tc main_v3)) (W28 m ρ c (Proc.devRef .tc main_v214))) (W28 m ρ c (Proc.devRef .tc main_v214)) (matSlice ![6, 0, 0] slices_S7x64x64_S1x64x64_6_0_0 (W28 m ρ c (Proc.devRef .tc main_arg5))) (matSlice ![6, 0, 0] slices_S7x64x64_S1x64x64_6_0_0 (W28 m ρ c (Proc.devRef .tc main_arg6))) (Cert.Row.rowOf (vecSlice7 ![6, 0] slices_S7x64_S1x64_6_0 (W28 m ρ c (Proc.devRef .tc main_arg7))))) (Cert.Row.rowOf (vecSlice8 ![7, 0] slices_S8x64_S1x64_7_0 (W28 m ρ c (Proc.devRef .tc main_arg8)))) (Cert.Row.rowOf (vecSlice8 ![7, 0] slices_S8x64_S1x64_7_0 (W28 m ρ c (Proc.devRef .tc main_arg9)))) := by
  rw [W32_out, W31_hpre, W31_mean, W31_var, W31_grow, W31_berow, W30_ro0, W30_ro1, W30_ro2,
    W30_gv, W30_bev, W29_agg, W29_hp, W29_wl, W29_wr, W29_brow, W29_gv, W29_bev]
  rw [bcast1_row, bcast1_row, bcast1_row, meanRow_eq, varRow_eq]
  rfl

theorem keepL7_v1 (c : Dev nD) : W32 m ρ c (Proc.devRef .tc main_v1) = W28 m ρ c (Proc.devRef .tc main_v1) :=
  (W32_of_ne m ρ c main_v1 (by decide)).trans ((keepH15 m ρ c main_v1 (by decide)).trans ((W30_of_ne m ρ c main_v1 (by decide)).trans (keepH14 m ρ c main_v1 (by decide))))
theorem keepL7_v3 (c : Dev nD) : W32 m ρ c (Proc.devRef .tc main_v3) = W28 m ρ c (Proc.devRef .tc main_v3) :=
  (W32_of_ne m ρ c main_v3 (by decide)).trans ((keepH15 m ρ c main_v3 (by decide)).trans ((W30_of_ne m ρ c main_v3 (by decide)).trans (keepH14 m ρ c main_v3 (by decide))))
theorem keepL7_arg5 (c : Dev nD) : W32 m ρ c (Proc.devRef .tc main_arg5) = W28 m ρ c (Proc.devRef .tc main_arg5) :=
  (W32_of_ne m ρ c main_arg5 (by decide)).trans ((keepH15 m ρ c main_arg5 (by decide)).trans ((W30_of_ne m ρ c main_arg5 (by decide)).trans (keepH14 m ρ c main_arg5 (by decide))))
theorem keepL7_arg6 (c : Dev nD) : W32 m ρ c (Proc.devRef .tc main_arg6) = W28 m ρ c (Proc.devRef .tc main_arg6) :=
  (W32_of_ne m ρ c main_arg6 (by decide)).trans ((keepH15 m ρ c main_arg6 (by decide)).trans ((W30_of_ne m ρ c main_arg6 (by decide)).trans (keepH14 m ρ c main_arg6 (by decide))))
theorem keepL7_arg7 (c : Dev nD) : W32 m ρ c (Proc.devRef .tc main_arg7) = W28 m ρ c (Proc.devRef .tc main_arg7) :=
  (W32_of_ne m ρ c main_arg7 (by decide)).trans ((keepH15 m ρ c main_arg7 (by decide)).trans ((W30_of_ne m ρ c main_arg7 (by decide)).trans (keepH14 m ρ c main_arg7 (by decide))))
theorem keepL7_arg8 (c : Dev nD) : W32 m ρ c (Proc.devRef .tc main_arg8) = W28 m ρ c (Proc.devRef .tc main_arg8) :=
  (W32_of_ne m ρ c main_arg8 (by decide)).trans ((keepH15 m ρ c main_arg8 (by decide)).trans ((W30_of_ne m ρ c main_arg8 (by decide)).trans (keepH14 m ρ c main_arg8 (by decide))))
theorem keepL7_arg9 (c : Dev nD) : W32 m ρ c (Proc.devRef .tc main_arg9) = W28 m ρ c (Proc.devRef .tc main_arg9) :=
  (W32_of_ne m ρ c main_arg9 (by decide)).trans ((keepH15 m ρ c main_arg9 (by decide)).trans ((W30_of_ne m ρ c main_arg9 (by decide)).trans (keepH14 m ρ c main_arg9 (by decide))))
theorem keepL7_arg10 (c : Dev nD) : W32 m ρ c (Proc.devRef .tc main_arg10) = W28 m ρ c (Proc.devRef .tc main_arg10) :=
  (W32_of_ne m ρ c main_arg10 (by decide)).trans ((keepH15 m ρ c main_arg10 (by decide)).trans ((W30_of_ne m ρ c main_arg10 (by decide)).trans (keepH14 m ρ c main_arg10 (by decide))))
theorem keepL7_arg11 (c : Dev nD) : W32 m ρ c (Proc.devRef .tc main_arg11) = W28 m ρ c (Proc.devRef .tc main_arg11) :=
  (W32_of_ne m ρ c main_arg11 (by decide)).trans ((keepH15 m ρ c main_arg11 (by decide)).trans ((W30_of_ne m ρ c main_arg11 (by decide)).trans (keepH14 m ρ c main_arg11 (by decide))))

end Cert.KernelIdeal.Fold

end
-- ==== Proof.Net.lean ====
/-
  One layer as a function of its input array, its parameters and the aggregation applied to the input: the normalising
  step, with the array's own mean and variance, of the dense step of the aggregated and the plain input; bias, gain and
  offset given as length-64 vectors and used as 1×64 rows.
-/
import proofs.«147565_j9259949490665_1_alg».proof.Proof.LayerDefs

noncomputable section

namespace Cert.Layer

open Idealize.ShloMosaic Idealize.ShloMosaic.ValueIdx

/-- A layer with K input features. -/
def layerOf {K : ℕ} (agg : Mat 50000 K → Mat 50000 K) (x : Mat 50000 K) (wl wr : Mat 64 K)
    (b g be : FVec Ideal ⟨1, ![64]⟩ .f32) : Mat 50000 64 :=
  bnStep (lin (agg x) x wl wr (Cert.Row.rowOf b)) (Cert.Row.rowOf g) (Cert.Row.rowOf be)

/-- The head: the projection of the last layer's output, its bias a length-200 vector. -/
def headOf (h : Mat 50000 64) (w : Mat 200 64) (b : FVec Ideal ⟨1, ![200]⟩ .f32) : Mat 50000 200 :=
  proj h w (Cert.Row.rowOf b)

end Cert.Layer

end
-- ==== Proof.RegionP16.lean ====
/-
  The final projection, read off the pipeline's write-backs.

  The pipeline walks ten row blocks of 5000 rows.  At block t the body holds rows 5000·t … 5000·t + 4999 of the last
  layer's activations, the whole 200×64 weight array and the 1×200 bias row; it transposes the weights, multiplies the
  block by them into a zero accumulator and adds the bias row to every row.  At row p and column q of the block that is
  ∑ₖ h(5000·t + p, k)·w(q, k) + b(q): block t of ONE function of the whole arrays.  The blocks tile the 50000 rows and
  every block is written back, so the output array ends holding that function.
-/
import proofs.«147565_j9259949490665_1_alg».proof.Proof.Gen.KernelIdeal.Frame
import proofs.«147565_j9259949490665_1_alg».proof.Proof.Spec
import Idealize.ShloMosaic.Lib.Pipeline.Value
import Idealize.ShloMosaic.Lib.ValueLayout
import proofs.«147565_j9259949490665_1_alg».proof.Proof.LibPlainDot

set_option maxRecDepth 16384

noncomputable section

namespace Cert.KernelIdeal.RegionValue

open Idealize.ShloMosaic Idealize.ShloMosaic.TcCoe Idealize.ShloMosaic.ValueIdx
open Idealize.ShloMosaic.Pipeline (Dat)
open scoped BigOperators

/-- The zero offsets of an access to a whole buffer. -/
theorem zero_off16 : (![0, 0] : Fin 2 → Nat) = fun _ => 0 := funext fun a => by fin_cases a <;> rfl

/-- Two functions of a 5000×200 block agree when they agree at every row and column. -/
theorem ext_block16 {α : Type} (f g : S5000x200.Idx → α) (h : ∀ (p : Fin 5000) (q : Fin 200), f (ix2 p q) = g (ix2 p q)) :
    f = g := funext fun j => by rw [eq_ix2 j]; exact h _ _

/-- The body's contraction is the plain one: the block's columns against the transposed weights' rows. -/
theorem dot16_plain : dot_S5000x64_S64x200_S5000x200_1_0_0_1_n_n = DotDims.plain 5000 64 200 := rfl

/-- The body's arithmetic at row p, column q of its block: the block's row p against row q of the weights (the
    transpose swaps the weights' coordinates), plus the bias at column q. -/
theorem pay16_apply (x0 : Vec Ideal S5000x64 .f32) (x1 : Vec Ideal S200x64 .f32) (x2 : Vec Ideal S1x200 .f32)
    (p : Fin 5000) (q : Fin 200) :
    Gen.k16_pay1 (F := Ideal) x0 x1 x2 (ix2 p q) = (∑ k : Fin 64, x0 (ix2 p k) * x1 (ix2 q k)) + x2 (ix2 0 q) := by
  unfold Gen.k16_pay1
  simp only [shapeCast_self]
  show FloatOps.matmul (F := Ideal) dot_S5000x64_S64x200_S5000x200_1_0_0_1_n_n none x0
        (transpose S64x200 [1, 0] x1 Facts₀.transposes_S200x64_p1_0_S64x200) (constant (F := Ideal) S5000x200 .f32 0x00000000#32) (ix2 p q)
      + broadcastTo S5000x200 x2 _ (ix2 p q) = _
  rw [broadcastTo_1b_ab_apply]
  refine congrArg (fun z : EReal => z + x2 (ix2 0 q)) ?_
  refine (Cert.LibPlainDot.matmul_zero_apply dot_S5000x64_S64x200_S5000x200_1_0_0_1_n_n dot16_plain none x0
    (transpose S64x200 [1, 0] x1 Facts₀.transposes_S200x64_p1_0_S64x200) p q).trans ?_
  refine Finset.sum_congr rfl fun k _ => ?_
  rw [transpose_ix2_apply]

/-- The block index of every window at every point of the grid: the two row-blocked windows sit at block (t, 0), the
    weights and the bias row at block (0, 0). -/
theorem idx_facts16 : ∀ t : Fin cfg16.N,
    win16_0.index t (0 : Fin 2) = t.val ∧ win16_0.index t (1 : Fin 2) = 0
    ∧ win16_1.index t (0 : Fin 2) = 0 ∧ win16_1.index t (1 : Fin 2) = 0
    ∧ win16_2.index t (0 : Fin 2) = 0 ∧ win16_2.index t (1 : Fin 2) = 0
    ∧ win16_3.index t (0 : Fin 2) = t.val ∧ win16_3.index t (1 : Fin 2) = 0 :=
  (by decide +kernel : ∀ t : Fin grid16.N, _)

/-- The grid has ten points. -/
theorem point_lt16 (t : Fin cfg16.N) : t.val < 10 := lt_of_lt_of_eq t.isLt Gen.N_16

section
variable (V : (c : Dev nD) → (b : Ref sig .tc) → Buf (Elt Ideal) ((c : Thread nD τ).loc b))

/-- Row p, column k of the activation block at point t is row 5000·t + p of the activation array. -/
theorem blk16_0_apply (c : Dev nD) (t : Fin cfg16.N) (p : Fin 5000) (k : Fin 64) (r : Fin 50000)
    (hr : r.val = t.val * 5000 + p.val) :
    (Gen.iblk16 (F := Ideal) V c 0 t : S5000x64.Idx → EReal) (ix2 p k)
      = (V c (Pipeline.arrRef spec16 0) : S50000x64.Idx → EReal) (ix2 r k) := by
  obtain ⟨e0, e1, -⟩ := idx_facts16 t
  unfold Gen.iblk16
  rw [View.read_apply]
  show (V c (Pipeline.arrRef spec16 0) : S50000x64.Idx → EReal) _ = _
  refine congrArg _ (funext fun a => Fin.ext ?_)
  match a with
  | ⟨0, _⟩ => show win16_0.index t (0 : Fin 2) * 5000 + 1 * p.val = r.val; rw [e0, hr]; omega
  | ⟨1, _⟩ => show win16_0.index t (1 : Fin 2) * 64 + 1 * k.val = k.val; rw [e1]; omega

/-- The weights' block at any point is the whole weight array. -/
theorem blk16_1_apply (c : Dev nD) (t : Fin cfg16.N) (q : Fin 200) (k : Fin 64) :
    (Gen.iblk16 (F := Ideal) V c 1 t : S200x64.Idx → EReal) (ix2 q k)
      = (V c (Pipeline.arrRef spec16 1) : S200x64.Idx → EReal) (ix2 q k) := by
  obtain ⟨-, -, e0, e1, -⟩ := idx_facts16 t
  unfold Gen.iblk16
  rw [View.read_apply]
  show (V c (Pipeline.arrRef spec16 1) : S200x64.Idx → EReal) _ = _
  refine congrArg _ (funext fun a => Fin.ext ?_)
  match a with
  | ⟨0, _⟩ => show win16_1.index t (0 : Fin 2) * 200 + 1 * q.val = q.val; rw [e0]; omega
  | ⟨1, _⟩ => show win16_1.index t (1 : Fin 2) * 64 + 1 * k.val = k.val; rw [e1]; omega

/-- The bias row's block at any point is the row itself. -/
theorem blk16_2_apply (c : Dev nD) (t : Fin cfg16.N) (q : Fin 200) :
    (Gen.iblk16 (F := Ideal) V c 2 t : S1x200.Idx → EReal) (ix2 0 q)
      = (V c (Pipeline.arrRef spec16 2) : S1x200.Idx → EReal) (ix2 0 q) := by
  obtain ⟨-, -, -, -, e0, e1, -⟩ := idx_facts16 t
  unfold Gen.iblk16
  rw [View.read_apply]
  show (V c (Pipeline.arrRef spec16 2) : S1x200.Idx → EReal) _ = _
  refine congrArg _ (funext fun a => Fin.ext ?_)
  match a with
  | ⟨0, _⟩ => show win16_2.index t (0 : Fin 2) * 1 + 1 * 0 = 0; rw [e0]
  | ⟨1, _⟩ => show win16_2.index t (1 : Fin 2) * 200 + 1 * q.val = q.val; rw [e1]; omega

/-- Row p, column q of the output block at point t is row 5000·t + p of the output array. -/
theorem emb16_3 (t : Fin cfg16.N) (p : Fin 5000) (q : Fin 200) (r : Fin 50000) (hr : r.val = t.val * 5000 + p.val) :
    (((cfg16.win 3).blk t).view.emb (ix2 p q : S5000x200.Idx) : S50000x200.Idx) = ix2 r q := by
  obtain ⟨-, -, -, -, -, -, e0, e1⟩ := idx_facts16 t
  refine funext fun a => Fin.ext ?_
  match a with
  | ⟨0, _⟩ => show win16_3.index t (0 : Fin 2) * 5000 + 1 * p.val = r.val; rw [e0, hr]; omega
  | ⟨1, _⟩ => show win16_3.index t (1 : Fin 2) * 200 + 1 * q.val = q.val; rw [e1]; omega

/-- What point t writes back is block t of the projection of the whole arrays. -/
theorem flushed16_3_eq (c : Dev nD) (t : Fin cfg16.N) :
    (Gen.dat16 (F := Ideal) V c).flushed 3 t
      = ((cfg16.win 3).blk t).view.read (Elt Ideal)
          (Cert.Layer.proj (V c (Pipeline.arrRef spec16 0)) (V c (Pipeline.arrRef spec16 1)) (V c (Pipeline.arrRef spec16 2))) := by
  show (cfg16.win 3).cut (grid16.coords t) ((Gen.dat16 V c).after 3 t) = _
  rw [Gen.after16_3]
  unfold Gen.out16_3
  rw [View.canon_unit_zero zero_off16]
  simp only [View.ld_unit_zero (S := S5000x64) zero_off16, View.ld_unit_zero (S := S200x64) zero_off16,
    View.ld_unit_zero (S := S1x200) zero_off16]
  refine ext_block16 _ _ fun p q => ?_
  have hp : p.val < 5000 := p.isLt
  have ht : t.val < 10 := point_lt16 t
  have hr : t.val * 5000 + p.val < 50000 := by omega
  rw [View.read_apply, emb16_3 t p q ⟨t.val * 5000 + p.val, hr⟩ rfl]
  show Gen.k16_pay1 (F := Ideal) (Gen.iblk16 V c 0 t) (Gen.iblk16 V c 1 t) (Gen.iblk16 V c 2 t) (ix2 p q)
    = Cert.Layer.proj _ _ _ (ix2 (⟨t.val * 5000 + p.val, hr⟩ : Fin 50000) q)
  refine (pay16_apply (Gen.iblk16 V c 0 t) (Gen.iblk16 V c 1 t) (Gen.iblk16 V c 2 t) p q).trans ?_
  rw [Cert.Layer.proj_apply, blk16_2_apply V c t q]
  refine congrArg (fun z : EReal => z + _) (Finset.sum_congr rfl fun k _ => ?_)
  rw [blk16_0_apply V c t p k ⟨t.val * 5000 + p.val, hr⟩ rfl, blk16_1_apply V c t q k]

/-- An index of the output array lies in point t's block iff each coordinate lies in the block's range on its axis. -/
theorem mem_blk16_3 (t : Fin cfg16.N) (i : S50000x200.Idx) :
    i ∈ ((cfg16.win 3).blk t).view.set
      ↔ ∀ a : Fin 2, win16_3.index t a * S5000x200.size a ≤ (i a).val
          ∧ (i a).val < win16_3.index t a * S5000x200.size a + S5000x200.size a := by
  show i ∈ ((View.whole main_v247).slice (win16_3.rect t)).set ↔ _
  rw [View.set_slice_whole, Rect.mem_set_unit]
  exact Iff.rfl

/-- Every row of the output array lies in a block that is written back: row r in the block of point r / 5000. -/
theorem cover16_3 (i : S50000x200.Idx) :
    ∃ t : Fin cfg16.N, (cfg16.win 3).flush t = true ∧ i ∈ ((cfg16.win 3).blk t).view.set := by
  have hi0 : (i 0).val < 50000 := (i 0).isLt
  have hi1 : (i 1).val < 200 := (i 1).isLt
  have hN : (i 0).val / 5000 < cfg16.N := lt_of_lt_of_eq (by omega : (i 0).val / 5000 < 10) Gen.N_16.symm
  refine ⟨⟨(i 0).val / 5000, hN⟩, Gen.flush16_3 _, ?_⟩
  obtain ⟨-, -, -, -, -, -, e0, e1⟩ := idx_facts16 ⟨(i 0).val / 5000, hN⟩
  rw [mem_blk16_3]
  intro a
  match a with
  | ⟨0, _⟩ =>
    show win16_3.index ⟨(i 0).val / 5000, hN⟩ (0 : Fin 2) * 5000 ≤ (i 0).val
      ∧ (i 0).val < win16_3.index ⟨(i 0).val / 5000, hN⟩ (0 : Fin 2) * 5000 + 5000
    rw [e0]; show (i 0).val / 5000 * 5000 ≤ (i 0).val ∧ (i 0).val < (i 0).val / 5000 * 5000 + 5000; omega
  | ⟨1, _⟩ =>
    show win16_3.index ⟨(i 0).val / 5000, hN⟩ (1 : Fin 2) * 200 ≤ (i 1).val
      ∧ (i 1).val < win16_3.index ⟨(i 0).val / 5000, hN⟩ (1 : Fin 2) * 200 + 200
    rw [e1]; omega

/-- The output array after the region: the projection of the arrays the region found. -/
theorem final16_3 (c : Dev nD) :
    (Gen.dat16 (F := Ideal) V c).arrAt 3 cfg16.N
      = Cert.Layer.proj (V c (Pipeline.arrRef spec16 0)) (V c (Pipeline.arrRef spec16 1)) (V c (Pipeline.arrRef spec16 2)) :=
  (Gen.dat16 V c).arrAt_eq_of_cover 3 _ (fun t _ => flushed16_3_eq V c t) cover16_3

end

end Cert.KernelIdeal.RegionValue

end
-- ==== Proof.KHead.lean ====
/-
  The last host operation and the projection launch: the program's result array is the projection of the last layer's
  output, with the head's weights and its bias vector as a row.
-/
import proofs.«147565_j9259949490665_1_alg».proof.Proof.Gen.KernelIdeal.Frame
import proofs.«147565_j9259949490665_1_alg».proof.Proof.KHostFn
import proofs.«147565_j9259949490665_1_alg».proof.Proof.Net
import proofs.«147565_j9259949490665_1_alg».proof.Proof.RegionP16

set_option maxRecDepth 16384

noncomputable section

namespace Cert.KernelIdeal.Fold

open Idealize.ShloMosaic Idealize.ShloMosaic.TcCoe Idealize.SL.Sem Idealize.ShloMosaic.ValueIdx
open Cert.KernelIdeal Cert.KernelIdeal.Gen Cert.KernelIdeal.HostFn Cert.Layer

variable (m : (ℓ : Loc nD τ sig) → Buf (Elt Ideal) ℓ) (ρ : Dev nD → PrngReg)

/-- The buffers the host operations before launch 16 write. -/
abbrev hostOps16_W : List (Ref sig .tc) := [main_v246]

theorem hostOps16_writes : (hostOps16 : List (HloOp τ sig (Elt Ideal))).Forall fun op => op.writes ⊆ (hostOps16_W.map (Proc.devRef (τ := τ) .tc)).toFinset := by
  simp only [hostOps16, List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- A buffer those operations do not write keeps its contents through them. -/
theorem keepH16 (c : Dev nD) (r : Ref sig .tc) (h : r ∉ hostOps16_W) :
    W33 m ρ c (Proc.devRef .tc r) = W32 m ρ c (Proc.devRef .tc r) :=
  StableHlo.after_of_writes_sub hostOps16 _ hostOps16_writes h

theorem W33_bh (c : Dev nD) : W33 m ρ c (Proc.devRef .tc main_v246) = broadcastInDim S1x200 ![1] bcast_S200_S1x200_1 (W32 m ρ c (Proc.devRef .tc main_arg11)) := by
  show StableHlo.after hostOps16 (W32 m ρ c) (Proc.devRef .tc main_v246) = _
  simp only [hostOps16]
  first | (after_results_simp <;> rfl) | (after_results <;> rfl)
theorem W33_h (c : Dev nD) : W33 m ρ c (Proc.devRef .tc main_v245) = W32 m ρ c (Proc.devRef .tc main_v245) := keepH16 m ρ c main_v245 (by decide)
theorem W33_wh (c : Dev nD) : W33 m ρ c (Proc.devRef .tc main_arg10) = W32 m ρ c (Proc.devRef .tc main_arg10) := keepH16 m ρ c main_arg10 (by decide)

set_option maxHeartbeats 1000000 in
/-- The projection launch's result array at its exit. -/
theorem W34_out (c : Dev nD) : W34 m ρ c (Proc.devRef .tc main_v247) = proj (W33 m ρ c (Proc.devRef .tc main_v245)) (W33 m ρ c (Proc.devRef .tc main_arg10)) (W33 m ρ c (Proc.devRef .tc main_v246)) :=
  (W34_arr m ρ c 3).trans (Cert.KernelIdeal.RegionValue.final16_3 (V33 m ρ) c)

set_option maxHeartbeats 1000000 in
/-- The head. -/
theorem head (c : Dev nD) : W34 m ρ c (Proc.devRef .tc main_v247) = headOf (W32 m ρ c (Proc.devRef .tc main_v245)) (W32 m ρ c (Proc.devRef .tc main_arg10)) (W32 m ρ c (Proc.devRef .tc main_arg11)) := by
  rw [W34_out, W33_h, W33_wh, W33_bh, bcast1_row]
  rfl

end Cert.KernelIdeal.Fold

end
-- ==== Proof.KNet.lean ====
/-
  The kernel program's result as a function of its argument arrays: the source and target index vectors (the edge
  list's two rows), eight layers — each the layer function of the one before, the first of the node features, with
  that layer's slices of the stacked parameters — and the head.
-/
import proofs.«147565_j9259949490665_1_alg».proof.Proof.KHostFn
import proofs.«147565_j9259949490665_1_alg».proof.Proof.Net
import proofs.«147565_j9259949490665_1_alg».proof.Proof.Gen.KernelIdeal

noncomputable section

namespace Cert.KernelIdeal.NetValue

open Idealize.ShloMosaic Idealize.ShloMosaic.TcCoe Idealize.SL.Sem
open Cert.KernelIdeal Cert.KernelIdeal.Gen Cert.KernelIdeal.HostFn Cert.Layer

variable (m : (ℓ : Loc nD τ sig) → Buf (Elt Ideal) ℓ) (c : Dev nD)

/-- The source and target index vectors. -/
def kv1 : IVec S800000 32 := idxRow ![0, 0] slices_S2x800000_S1x800000_0_0 (m ((c.tc : Thread nD τ).loc main_arg1))
def kv3 : IVec S800000 32 := idxRow ![1, 0] slices_S2x800000_S1x800000_1_0 (m ((c.tc : Thread nD τ).loc main_arg1))

/-- The layers' outputs. -/
def kH1 : Mat 50000 64 :=
  layerOf (agg8 (kv1 m c) (kv3 m c)) (m ((c.tc : Thread nD τ).loc main_arg0)) (m ((c.tc : Thread nD τ).loc main_arg2)) (m ((c.tc : Thread nD τ).loc main_arg3)) (m ((c.tc : Thread nD τ).loc main_arg4))
    (vecSlice8 ![0, 0] slices_S8x64_S1x64_0_0 (m ((c.tc : Thread nD τ).loc main_arg8))) (vecSlice8 ![0, 0] slices_S8x64_S1x64_0_0 (m ((c.tc : Thread nD τ).loc main_arg9)))
def kH2 : Mat 50000 64 :=
  layerOf (agg64 (kv1 m c) (kv3 m c)) (kH1 m c) (matSlice ![0, 0, 0] slices_S7x64x64_S1x64x64_0_0_0 (m ((c.tc : Thread nD τ).loc main_arg5)))
    (matSlice ![0, 0, 0] slices_S7x64x64_S1x64x64_0_0_0 (m ((c.tc : Thread nD τ).loc main_arg6))) (vecSlice7 ![0, 0] slices_S7x64_S1x64_0_0 (m ((c.tc : Thread nD τ).loc main_arg7)))
    (vecSlice8 ![1, 0] slices_S8x64_S1x64_1_0 (m ((c.tc : Thread nD τ).loc main_arg8))) (vecSlice8 ![1, 0] slices_S8x64_S1x64_1_0 (m ((c.tc : Thread nD τ).loc main_arg9)))
def kH3 : Mat 50000 64 :=
  layerOf (agg64 (kv1 m c) (kv3 m c)) (kH2 m c) (matSlice ![1, 0, 0] slices_S7x64x64_S1x64x64_1_0_0 (m ((c.tc : Thread nD τ).loc main_arg5)))
    (matSlice ![1, 0, 0] slices_S7x64x64_S1x64x64_1_0_0 (m ((c.tc : Thread nD τ).loc main_arg6))) (vecSlice7 ![1, 0] slices_S7x64_S1x64_1_0 (m ((c.tc : Thread nD τ).loc main_arg7)))
    (vecSlice8 ![2, 0] slices_S8x64_S1x64_2_0 (m ((c.tc : Thread nD τ).loc main_arg8))) (vecSlice8 ![2, 0] slices_S8x64_S1x64_2_0 (m ((c.tc : Thread nD τ).loc main_arg9)))
def kH4 : Mat 50000 64 :=
  layerOf (agg64 (kv1 m c) (kv3 m c)) (kH3 m c) (matSlice ![2, 0, 0] slices_S7x64x64_S1x64x64_2_0_0 (m ((c.tc : Thread nD τ).loc main_arg5)))
    (matSlice ![2, 0, 0] slices_S7x64x64_S1x64x64_2_0_0 (m ((c.tc : Thread nD τ).loc main_arg6))) (vecSlice7 ![2, 0] slices_S7x64_S1x64_2_0 (m ((c.tc : Thread nD τ).loc main_arg7)))
    (vecSlice8 ![3, 0] slices_S8x64_S1x64_3_0 (m ((c.tc : Thread nD τ).loc main_arg8))) (vecSlice8 ![3, 0] slices_S8x64_S1x64_3_0 (m ((c.tc : Thread nD τ).loc main_arg9)))
def kH5 : Mat 50000 64 :=
  layerOf (agg64 (kv1 m c) (kv3 m c)) (kH4 m c) (matSlice ![3, 0, 0] slices_S7x64x64_S1x64x64_3_0_0 (m ((c.tc : Thread nD τ).loc main_arg5)))
    (matSlice ![3, 0, 0] slices_S7x64x64_S1x64x64_3_0_0 (m ((c.tc : Thread nD τ).loc main_arg6))) (vecSlice7 ![3, 0] slices_S7x64_S1x64_3_0 (m ((c.tc : Thread nD τ).loc main_arg7)))
    (vecSlice8 ![4, 0] slices_S8x64_S1x64_4_0 (m ((c.tc : Thread nD τ).loc main_arg8))) (vecSlice8 ![4, 0] slices_S8x64_S1x64_4_0 (m ((c.tc : Thread nD τ).loc main_arg9)))
def kH6 : Mat 50000 64 :=
  layerOf (agg64 (kv1 m c) (kv3 m c)) (kH5 m c) (matSlice ![4, 0, 0] slices_S7x64x64_S1x64x64_4_0_0 (m ((c.tc : Thread nD τ).loc main_arg5)))
    (matSlice ![4, 0, 0] slices_S7x64x64_S1x64x64_4_0_0 (m ((c.tc : Thread nD τ).loc main_arg6))) (vecSlice7 ![4, 0] slices_S7x64_S1x64_4_0 (m ((c.tc : Thread nD τ).loc main_arg7)))
    (vecSlice8 ![5, 0] slices_S8x64_S1x64_5_0 (m ((c.tc : Thread nD τ).loc main_arg8))) (vecSlice8 ![5, 0] slices_S8x64_S1x64_5_0 (m ((c.tc : Thread nD τ).loc main_arg9)))
def kH7 : Mat 50000 64 :=
  layerOf (agg64 (kv1 m c) (kv3 m c)) (kH6 m c) (matSlice ![5, 0, 0] slices_S7x64x64_S1x64x64_5_0_0 (m ((c.tc : Thread nD τ).loc main_arg5)))
    (matSlice ![5, 0, 0] slices_S7x64x64_S1x64x64_5_0_0 (m ((c.tc : Thread nD τ).loc main_arg6))) (vecSlice7 ![5, 0] slices_S7x64_S1x64_5_0 (m ((c.tc : Thread nD τ).loc main_arg7)))
    (vecSlice8 ![6, 0] slices_S8x64_S1x64_6_0 (m ((c.tc : Thread nD τ).loc main_arg8))) (vecSlice8 ![6, 0] slices_S8x64_S1x64_6_0 (m ((c.tc : Thread nD τ).loc main_arg9)))
def kH8 : Mat 50000 64 :=
  layerOf (agg64 (kv1 m c) (kv3 m c)) (kH7 m c) (matSlice ![6, 0, 0] slices_S7x64x64_S1x64x64_6_0_0 (m ((c.tc : Thread nD τ).loc main_arg5)))
    (matSlice ![6, 0, 0] slices_S7x64x64_S1x64x64_6_0_0 (m ((c.tc : Thread nD τ).loc main_arg6))) (vecSlice7 ![6, 0] slices_S7x64_S1x64_6_0 (m ((c.tc : Thread nD τ).loc main_arg7)))
    (vecSlice8 ![7, 0] slices_S8x64_S1x64_7_0 (m ((c.tc : Thread nD τ).loc main_arg8))) (vecSlice8 ![7, 0] slices_S8x64_S1x64_7_0 (m ((c.tc : Thread nD τ).loc main_arg9)))

/-- The result. -/
def kOut : Mat 50000 200 := headOf (kH8 m c) (m ((c.tc : Thread nD τ).loc main_arg10)) (m ((c.tc : Thread nD τ).loc main_arg11))

end Cert.KernelIdeal.NetValue

end
-- ==== Proof.KChain.lean ====
/-
  The kernel program's result array is the network function of its arguments: each layer's output array is the layer
  function of the one before, the buffers every layer reads keep their launch contents, and the last launch is the head.
-/
import proofs.«147565_j9259949490665_1_alg».proof.Proof.KLayer0
import proofs.«147565_j9259949490665_1_alg».proof.Proof.KLayer1
import proofs.«147565_j9259949490665_1_alg».proof.Proof.KLayer2
import proofs.«147565_j9259949490665_1_alg».proof.Proof.KLayer3
import proofs.«147565_j9259949490665_1_alg».proof.Proof.KLayer4
import proofs.«147565_j9259949490665_1_alg».proof.Proof.KLayer5
import proofs.«147565_j9259949490665_1_alg».proof.Proof.KLayer6
import proofs.«147565_j9259949490665_1_alg».proof.Proof.KLayer7
import proofs.«147565_j9259949490665_1_alg».proof.Proof.KHead
import proofs.«147565_j9259949490665_1_alg».proof.Proof.KNet

set_option maxRecDepth 16384

noncomputable section

namespace Cert.KernelIdeal.Fold

open Idealize.ShloMosaic Idealize.ShloMosaic.TcCoe Idealize.SL.Sem Idealize.ShloMosaic.ValueIdx
open Cert.KernelIdeal Cert.KernelIdeal.Gen Cert.KernelIdeal.HostFn Cert.Layer Cert.KernelIdeal.NetValue

variable (m : (ℓ : Loc nD τ sig) → Buf (Elt Ideal) ℓ) (ρ : Dev nD → PrngReg)

/-! The buffers every layer reads keep their contents from the launch (the index vectors: from their definition). -/
theorem keepTo1_v1 (c : Dev nD) : W4 m ρ c (Proc.devRef .tc main_v1) = kv1 m c := keepL0_v1 m ρ c
theorem keepTo1_v3 (c : Dev nD) : W4 m ρ c (Proc.devRef .tc main_v3) = kv3 m c := keepL0_v3 m ρ c
theorem keepTo1_arg5 (c : Dev nD) : W4 m ρ c (Proc.devRef .tc main_arg5) = m ((c.tc : Thread nD τ).loc main_arg5) := keepL0_arg5 m ρ c
theorem keepTo1_arg6 (c : Dev nD) : W4 m ρ c (Proc.devRef .tc main_arg6) = m ((c.tc : Thread nD τ).loc main_arg6) := keepL0_arg6 m ρ c
theorem keepTo1_arg7 (c : Dev nD) : W4 m ρ c (Proc.devRef .tc main_arg7) = m ((c.tc : Thread nD τ).loc main_arg7) := keepL0_arg7 m ρ c
theorem keepTo1_arg8 (c : Dev nD) : W4 m ρ c (Proc.devRef .tc main_arg8) = m ((c.tc : Thread nD τ).loc main_arg8) := keepL0_arg8 m ρ c
theorem keepTo1_arg9 (c : Dev nD) : W4 m ρ c (Proc.devRef .tc main_arg9) = m ((c.tc : Thread nD τ).loc main_arg9) := keepL0_arg9 m ρ c
theorem keepTo1_arg10 (c : Dev nD) : W4 m ρ c (Proc.devRef .tc main_arg10) = m ((c.tc : Thread nD τ).loc main_arg10) := keepL0_arg10 m ρ c
theorem keepTo1_arg11 (c : Dev nD) : W4 m ρ c (Proc.devRef .tc main_arg11) = m ((c.tc : Thread nD τ).loc main_arg11) := keepL0_arg11 m ρ c
theorem keepTo2_v1 (c : Dev nD) : W8 m ρ c (Proc.devRef .tc main_v1) = kv1 m c := (keepL1_v1 m ρ c).trans (keepTo1_v1 m ρ c)
theorem keepTo2_v3 (c : Dev nD) : W8 m ρ c (Proc.devRef .tc main_v3) = kv3 m c := (keepL1_v3 m ρ c).trans (keepTo1_v3 m ρ c)
theorem keepTo2_arg5 (c : Dev nD) : W8 m ρ c (Proc.devRef .tc main_arg5) = m ((c.tc : Thread nD τ).loc main_arg5) := (keepL1_arg5 m ρ c).trans (keepTo1_arg5 m ρ c)
theorem keepTo2_arg6 (c : Dev nD) : W8 m ρ c (Proc.devRef .tc main_arg6) = m ((c.tc : Thread nD τ).loc main_arg6) := (keepL1_arg6 m ρ c).trans (keepTo1_arg6 m ρ c)
theorem keepTo2_arg7 (c : Dev nD) : W8 m ρ c (Proc.devRef .tc main_arg7) = m ((c.tc : Thread nD τ).loc main_arg7) := (keepL1_arg7 m ρ c).trans (keepTo1_arg7 m ρ c)
theorem keepTo2_arg8 (c : Dev nD) : W8 m ρ c (Proc.devRef .tc main_arg8) = m ((c.tc : Thread nD τ).loc main_arg8) := (keepL1_arg8 m ρ c).trans (keepTo1_arg8 m ρ c)
theorem keepTo2_arg9 (c : Dev nD) : W8 m ρ c (Proc.devRef .tc main_arg9) = m ((c.tc : Thread nD τ).loc main_arg9) := (keepL1_arg9 m ρ c).trans (keepTo1_arg9 m ρ c)
theorem keepTo2_arg10 (c : Dev nD) : W8 m ρ c (Proc.devRef .tc main_arg10) = m ((c.tc : Thread nD τ).loc main_arg10) := (keepL1_arg10 m ρ c).trans (keepTo1_arg10 m ρ c)
theorem keepTo2_arg11 (c : Dev nD) : W8 m ρ c (Proc.devRef .tc main_arg11) = m ((c.tc : Thread nD τ).loc main_arg11) := (keepL1_arg11 m ρ c).trans (keepTo1_arg11 m ρ c)
theorem keepTo3_v1 (c : Dev nD) : W12 m ρ c (Proc.devRef .tc main_v1) = kv1 m c := (keepL2_v1 m ρ c).trans (keepTo2_v1 m ρ c)
theorem keepTo3_v3 (c : Dev nD) : W12 m ρ c (Proc.devRef .tc main_v3) = kv3 m c := (keepL2_v3 m ρ c).trans (keepTo2_v3 m ρ c)
theorem keepTo3_arg5 (c : Dev nD) : W12 m ρ c (Proc.devRef .tc main_arg5) = m ((c.tc : Thread nD τ).loc main_arg5) := (keepL2_arg5 m ρ c).trans (keepTo2_arg5 m ρ c)
theorem keepTo3_arg6 (c : Dev nD) : W12 m ρ c (Proc.devRef .tc main_arg6) = m ((c.tc : Thread nD τ).loc main_arg6) := (keepL2_arg6 m ρ c).trans (keepTo2_arg6 m ρ c)
theorem keepTo3_arg7 (c : Dev nD) : W12 m ρ c (Proc.devRef .tc main_arg7) = m ((c.tc : Thread nD τ).loc main_arg7) := (keepL2_arg7 m ρ c).trans (keepTo2_arg7 m ρ c)
theorem keepTo3_arg8 (c : Dev nD) : W12 m ρ c (Proc.devRef .tc main_arg8) = m ((c.tc : Thread nD τ).loc main_arg8) := (keepL2_arg8 m ρ c).trans (keepTo2_arg8 m ρ c)
theorem keepTo3_arg9 (c : Dev nD) : W12 m ρ c (Proc.devRef .tc main_arg9) = m ((c.tc : Thread nD τ).loc main_arg9) := (keepL2_arg9 m ρ c).trans (keepTo2_arg9 m ρ c)
theorem keepTo3_arg10 (c : Dev nD) : W12 m ρ c (Proc.devRef .tc main_arg10) = m ((c.tc : Thread nD τ).loc main_arg10) := (keepL2_arg10 m ρ c).trans (keepTo2_arg10 m ρ c)
theorem keepTo3_arg11 (c : Dev nD) : W12 m ρ c (Proc.devRef .tc main_arg11) = m ((c.tc : Thread nD τ).loc main_arg11) := (keepL2_arg11 m ρ c).trans (keepTo2_arg11 m ρ c)
theorem keepTo4_v1 (c : Dev nD) : W16 m ρ c (Proc.devRef .tc main_v1) = kv1 m c := (keepL3_v1 m ρ c).trans (keepTo3_v1 m ρ c)
theorem keepTo4_v3 (c : Dev nD) : W16 m ρ c (Proc.devRef .tc main_v3) = kv3 m c := (keepL3_v3 m ρ c).trans (keepTo3_v3 m ρ c)
theorem keepTo4_arg5 (c : Dev nD) : W16 m ρ c (Proc.devRef .tc main_arg5) = m ((c.tc : Thread nD τ).loc main_arg5) := (keepL3_arg5 m ρ c).trans (keepTo3_arg5 m ρ c)
theorem keepTo4_arg6 (c : Dev nD) : W16 m ρ c (Proc.devRef .tc main_arg6) = m ((c.tc : Thread nD τ).loc main_arg6) := (keepL3_arg6 m ρ c).trans (keepTo3_arg6 m ρ c)
theorem keepTo4_arg7 (c : Dev nD) : W16 m ρ c (Proc.devRef .tc main_arg7) = m ((c.tc : Thread nD τ).loc main_arg7) := (keepL3_arg7 m ρ c).trans (keepTo3_arg7 m ρ c)
theorem keepTo4_arg8 (c : Dev nD) : W16 m ρ c (Proc.devRef .tc main_arg8) = m ((c.tc : Thread nD τ).loc main_arg8) := (keepL3_arg8 m ρ c).trans (keepTo3_arg8 m ρ c)
theorem keepTo4_arg9 (c : Dev nD) : W16 m ρ c (Proc.devRef .tc main_arg9) = m ((c.tc : Thread nD τ).loc main_arg9) := (keepL3_arg9 m ρ c).trans (keepTo3_arg9 m ρ c)
theorem keepTo4_arg10 (c : Dev nD) : W16 m ρ c (Proc.devRef .tc main_arg10) = m ((c.tc : Thread nD τ).loc main_arg10) := (keepL3_arg10 m ρ c).trans (keepTo3_arg10 m ρ c)
theorem keepTo4_arg11 (c : Dev nD) : W16 m ρ c (Proc.devRef .tc main_arg11) = m ((c.tc : Thread nD τ).loc main_arg11) := (keepL3_arg11 m ρ c).trans (keepTo3_arg11 m ρ c)
theorem keepTo5_v1 (c : Dev nD) : W20 m ρ c (Proc.devRef .tc main_v1) = kv1 m c := (keepL4_v1 m ρ c).trans (keepTo4_v1 m ρ c)
theorem keepTo5_v3 (c : Dev nD) : W20 m ρ c (Proc.devRef .tc main_v3) = kv3 m c := (keepL4_v3 m ρ c).trans (keepTo4_v3 m ρ c)
theorem keepTo5_arg5 (c : Dev nD) : W20 m ρ c (Proc.devRef .tc main_arg5) = m ((c.tc : Thread nD τ).loc main_arg5) := (keepL4_arg5 m ρ c).trans (keepTo4_arg5 m ρ c)
theorem keepTo5_arg6 (c : Dev nD) : W20 m ρ c (Proc.devRef .tc main_arg6) = m ((c.tc : Thread nD τ).loc main_arg6) := (keepL4_arg6 m ρ c).trans (keepTo4_arg6 m ρ c)
theorem keepTo5_arg7 (c : Dev nD) : W20 m ρ c (Proc.devRef .tc main_arg7) = m ((c.tc : Thread nD τ).loc main_arg7) := (keepL4_arg7 m ρ c).trans (keepTo4_arg7 m ρ c)
theorem keepTo5_arg8 (c : Dev nD) : W20 m ρ c (Proc.devRef .tc main_arg8) = m ((c.tc : Thread nD τ).loc main_arg8) := (keepL4_arg8 m ρ c).trans (keepTo4_arg8 m ρ c)
theorem keepTo5_arg9 (c : Dev nD) : W20 m ρ c (Proc.devRef .tc main_arg9) = m ((c.tc : Thread nD τ).loc main_arg9) := (keepL4_arg9 m ρ c).trans (keepTo4_arg9 m ρ c)
theorem keepTo5_arg10 (c : Dev nD) : W20 m ρ c (Proc.devRef .tc main_arg10) = m ((c.tc : Thread nD τ).loc main_arg10) := (keepL4_arg10 m ρ c).trans (keepTo4_arg10 m ρ c)
theorem keepTo5_arg11 (c : Dev nD) : W20 m ρ c (Proc.devRef .tc main_arg11) = m ((c.tc : Thread nD τ).loc main_arg11) := (keepL4_arg11 m ρ c).trans (keepTo4_arg11 m ρ c)
theorem keepTo6_v1 (c : Dev nD) : W24 m ρ c (Proc.devRef .tc main_v1) = kv1 m c := (keepL5_v1 m ρ c).trans (keepTo5_v1 m ρ c)
theorem keepTo6_v3 (c : Dev nD) : W24 m ρ c (Proc.devRef .tc main_v3) = kv3 m c := (keepL5_v3 m ρ c).trans (keepTo5_v3 m ρ c)
theorem keepTo6_arg5 (c : Dev nD) : W24 m ρ c (Proc.devRef .tc main_arg5) = m ((c.tc : Thread nD τ).loc main_arg5) := (keepL5_arg5 m ρ c).trans (keepTo5_arg5 m ρ c)
theorem keepTo6_arg6 (c : Dev nD) : W24 m ρ c (Proc.devRef .tc main_arg6) = m ((c.tc : Thread nD τ).loc main_arg6) := (keepL5_arg6 m ρ c).trans (keepTo5_arg6 m ρ c)
theorem keepTo6_arg7 (c : Dev nD) : W24 m ρ c (Proc.devRef .tc main_arg7) = m ((c.tc : Thread nD τ).loc main_arg7) := (keepL5_arg7 m ρ c).trans (keepTo5_arg7 m ρ c)
theorem keepTo6_arg8 (c : Dev nD) : W24 m ρ c (Proc.devRef .tc main_arg8) = m ((c.tc : Thread nD τ).loc main_arg8) := (keepL5_arg8 m ρ c).trans (keepTo5_arg8 m ρ c)
theorem keepTo6_arg9 (c : Dev nD) : W24 m ρ c (Proc.devRef .tc main_arg9) = m ((c.tc : Thread nD τ).loc main_arg9) := (keepL5_arg9 m ρ c).trans (keepTo5_arg9 m ρ c)
theorem keepTo6_arg10 (c : Dev nD) : W24 m ρ c (Proc.devRef .tc main_arg10) = m ((c.tc : Thread nD τ).loc main_arg10) := (keepL5_arg10 m ρ c).trans (keepTo5_arg10 m ρ c)
theorem keepTo6_arg11 (c : Dev nD) : W24 m ρ c (Proc.devRef .tc main_arg11) = m ((c.tc : Thread nD τ).loc main_arg11) := (keepL5_arg11 m ρ c).trans (keepTo5_arg11 m ρ c)
theorem keepTo7_v1 (c : Dev nD) : W28 m ρ c (Proc.devRef .tc main_v1) = kv1 m c := (keepL6_v1 m ρ c).trans (keepTo6_v1 m ρ c)
theorem keepTo7_v3 (c : Dev nD) : W28 m ρ c (Proc.devRef .tc main_v3) = kv3 m c := (keepL6_v3 m ρ c).trans (keepTo6_v3 m ρ c)
theorem keepTo7_arg5 (c : Dev nD) : W28 m ρ c (Proc.devRef .tc main_arg5) = m ((c.tc : Thread nD τ).loc main_arg5) := (keepL6_arg5 m ρ c).trans (keepTo6_arg5 m ρ c)
theorem keepTo7_arg6 (c : Dev nD) : W28 m ρ c (Proc.devRef .tc main_arg6) = m ((c.tc : Thread nD τ).loc main_arg6) := (keepL6_arg6 m ρ c).trans (keepTo6_arg6 m ρ c)
theorem keepTo7_arg7 (c : Dev nD) : W28 m ρ c (Proc.devRef .tc main_arg7) = m ((c.tc : Thread nD τ).loc main_arg7) := (keepL6_arg7 m ρ c).trans (keepTo6_arg7 m ρ c)
theorem keepTo7_arg8 (c : Dev nD) : W28 m ρ c (Proc.devRef .tc main_arg8) = m ((c.tc : Thread nD τ).loc main_arg8) := (keepL6_arg8 m ρ c).trans (keepTo6_arg8 m ρ c)
theorem keepTo7_arg9 (c : Dev nD) : W28 m ρ c (Proc.devRef .tc main_arg9) = m ((c.tc : Thread nD τ).loc main_arg9) := (keepL6_arg9 m ρ c).trans (keepTo6_arg9 m ρ c)
theorem keepTo7_arg10 (c : Dev nD) : W28 m ρ c (Proc.devRef .tc main_arg10) = m ((c.tc : Thread nD τ).loc main_arg10) := (keepL6_arg10 m ρ c).trans (keepTo6_arg10 m ρ c)
theorem keepTo7_arg11 (c : Dev nD) : W28 m ρ c (Proc.devRef .tc main_arg11) = m ((c.tc : Thread nD τ).loc main_arg11) := (keepL6_arg11 m ρ c).trans (keepTo6_arg11 m ρ c)
theorem keepTo8_v1 (c : Dev nD) : W32 m ρ c (Proc.devRef .tc main_v1) = kv1 m c := (keepL7_v1 m ρ c).trans (keepTo7_v1 m ρ c)
theorem keepTo8_v3 (c : Dev nD) : W32 m ρ c (Proc.devRef .tc main_v3) = kv3 m c := (keepL7_v3 m ρ c).trans (keepTo7_v3 m ρ c)
theorem keepTo8_arg5 (c : Dev nD) : W32 m ρ c (Proc.devRef .tc main_arg5) = m ((c.tc : Thread nD τ).loc main_arg5) := (keepL7_arg5 m ρ c).trans (keepTo7_arg5 m ρ c)
theorem keepTo8_arg6 (c : Dev nD) : W32 m ρ c (Proc.devRef .tc main_arg6) = m ((c.tc : Thread nD τ).loc main_arg6) := (keepL7_arg6 m ρ c).trans (keepTo7_arg6 m ρ c)
theorem keepTo8_arg7 (c : Dev nD) : W32 m ρ c (Proc.devRef .tc main_arg7) = m ((c.tc : Thread nD τ).loc main_arg7) := (keepL7_arg7 m ρ c).trans (keepTo7_arg7 m ρ c)
theorem keepTo8_arg8 (c : Dev nD) : W32 m ρ c (Proc.devRef .tc main_arg8) = m ((c.tc : Thread nD τ).loc main_arg8) := (keepL7_arg8 m ρ c).trans (keepTo7_arg8 m ρ c)
theorem keepTo8_arg9 (c : Dev nD) : W32 m ρ c (Proc.devRef .tc main_arg9) = m ((c.tc : Thread nD τ).loc main_arg9) := (keepL7_arg9 m ρ c).trans (keepTo7_arg9 m ρ c)
theorem keepTo8_arg10 (c : Dev nD) : W32 m ρ c (Proc.devRef .tc main_arg10) = m ((c.tc : Thread nD τ).loc main_arg10) := (keepL7_arg10 m ρ c).trans (keepTo7_arg10 m ρ c)
theorem keepTo8_arg11 (c : Dev nD) : W32 m ρ c (Proc.devRef .tc main_arg11) = m ((c.tc : Thread nD τ).loc main_arg11) := (keepL7_arg11 m ρ c).trans (keepTo7_arg11 m ρ c)

/-! Each layer's output array is the layer function of the one before. -/
theorem out1 (c : Dev nD) : W4 m ρ c (Proc.devRef .tc main_v28) = kH1 m c := layer0 m ρ c
theorem out2 (c : Dev nD) : W8 m ρ c (Proc.devRef .tc main_v59) = kH2 m c := by
  rw [layer1, out1, keepTo1_v1, keepTo1_v3, keepTo1_arg5, keepTo1_arg6, keepTo1_arg7, keepTo1_arg8, keepTo1_arg9]
  rfl
theorem out3 (c : Dev nD) : W12 m ρ c (Proc.devRef .tc main_v90) = kH3 m c := by
  rw [layer2, out2, keepTo2_v1, keepTo2_v3, keepTo2_arg5, keepTo2_arg6, keepTo2_arg7, keepTo2_arg8, keepTo2_arg9]
  rfl
theorem out4 (c : Dev nD) : W16 m ρ c (Proc.devRef .tc main_v121) = kH4 m c := by
  rw [layer3, out3, keepTo3_v1, keepTo3_v3, keepTo3_arg5, keepTo3_arg6, keepTo3_arg7, keepTo3_arg8, keepTo3_arg9]
  rfl
theorem out5 (c : Dev nD) : W20 m ρ c (Proc.devRef .tc main_v152) = kH5 m c := by
  rw [layer4, out4, keepTo4_v1, keepTo4_v3, keepTo4_arg5, keepTo4_arg6, keepTo4_arg7, keepTo4_arg8, keepTo4_arg9]
  rfl
theorem out6 (c : Dev nD) : W24 m ρ c (Proc.devRef .tc main_v183) = kH6 m c := by
  rw [layer5, out5, keepTo5_v1, keepTo5_v3, keepTo5_arg5, keepTo5_arg6, keepTo5_arg7, keepTo5_arg8, keepTo5_arg9]
  rfl
theorem out7 (c : Dev nD) : W28 m ρ c (Proc.devRef .tc main_v214) = kH7 m c := by
  rw [layer6, out6, keepTo6_v1, keepTo6_v3, keepTo6_arg5, keepTo6_arg6, keepTo6_arg7, keepTo6_arg8, keepTo6_arg9]
  rfl
theorem out8 (c : Dev nD) : W32 m ρ c (Proc.devRef .tc main_v245) = kH8 m c := by
  rw [layer7, out7, keepTo7_v1, keepTo7_v3, keepTo7_arg5, keepTo7_arg6, keepTo7_arg7, keepTo7_arg8, keepTo7_arg9]
  rfl

/-- The program's result array. -/
theorem result (c : Dev nD) : W34 m ρ c (Proc.devRef .tc main_v247) = kOut m c := by
  rw [head, out8, keepTo8_arg10, keepTo8_arg11]
  rfl

end Cert.KernelIdeal.Fold

end
-- ==== Proof.LibRealEntries.lean ====
/-
  General facts about extended-real arrays whose entries are all real numbers. Nothing here mentions a program.

  * `AllReal v`: every entry of `v` is a real number (neither infinity). It is kept by finite sums and products, by a
    selection between two arrays, by the reciprocal square root of an entry raised to at least one, and — whatever the
    indices are — by a gather (an entry of the result is an entry of the operand) and by an accumulating scatter (an
    entry of the result is the operand's entry plus a finite sum of update entries).
  * The coercion of a finite real sum into the extended reals is the sum of the coercions.
  * The two forms of a variance agree on real columns: for n = the number of rows, n ≠ 0, and μ = (Σ h)/n,
        (Σ (h − μ)²)/n = (Σ h²)/n − μ² ,
    each quotient the host's division by the real n. With an infinite entry the two sides need not agree, which is
    why a certificate that meets both forms has to show its column real first.
-/
import Idealize.ShloMosaic.PureOps.Ideal
import Idealize.ShloMosaic.PureOps.Ideal.Laws

noncomputable section

namespace Cert.LibRealEntries

open Idealize.ShloMosaic

/-- `1.0` denotes the real 1. -/
theorem ofBits_one : Ideal.ofBits .f32 0x3F800000#32 = ((1 : ℝ) : EReal) := by
  simp [Ideal.ofBits, Ideal.ieee, -EReal.coe_mul]; norm_num

/-! ## Every entry a real number -/

/-- Every entry of the array is a real number (neither infinity). -/
def AllReal {S : Shape} (v : S.Idx → EReal) : Prop := ∀ i, ∃ r : ℝ, v i = (r : EReal)

/-! ## Finite sums, and the two forms of the variance -/

/-- The coercion of a finite real sum. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- For a column of real numbers h over n = card ι rows (n ≠ 0), with mean μ = (Σ h)/n:
    (Σ (h − μ)²)/n = (Σ h²)/n − μ².  Both quotients are the host's division by the real n. -/
theorem var_forms_eq {ι : Type} [Fintype ι] (h : ι → EReal) (hr : ∀ k, ∃ r : ℝ, h k = (r : EReal)) (n : ℝ)
    (hn : n = (Fintype.card ι : ℝ)) (hn0 : n ≠ 0) :
    Ideal.div (∑ k, (h k - Ideal.div (∑ k, h k) (n : EReal)) * (h k - Ideal.div (∑ k, h k) (n : EReal))) (n : EReal)
      = Ideal.div (∑ k, h k * h k) (n : EReal)
        - Ideal.div (∑ k, h k) (n : EReal) * Ideal.div (∑ k, h k) (n : EReal) := by
  choose r hr using hr
  have hh : h = fun k => (r k : EReal) := funext hr
  subst hh
  simp only [Ideal.div_coe hn0]
  simp only [← EReal.coe_mul, ← coe_sum, ← EReal.coe_sub]
  congr 1
  have hc : (∑ _k : ι, (1 : ℝ)) = n := by simp [hn]
  have hn1 : n * (1 / n) = 1 := by field_simp
  have e : ∀ k, (r k - (∑ k, r k) * (1 / n)) * (r k - (∑ k, r k) * (1 / n))
      = r k * r k - 2 * ((∑ k, r k) * (1 / n)) * r k + ((∑ k, r k) * (1 / n)) * ((∑ k, r k) * (1 / n)) * 1 := fun k => by ring
  simp only [e, Finset.sum_add_distrib, Finset.sum_sub_distrib, ← Finset.mul_sum, hc]
  have : ((∑ k, r k) * (1 / n)) * ((∑ k, r k) * (1 / n)) * n = (∑ k, r k) * (∑ k, r k) * (1 / n) * (n * (1 / n)) := by ring
  rw [this, hn1]; ring

/-! ## Real numbers are closed under what the layer does -/

/-- A real number plus a finite sum of real numbers is a real number. -/
theorem real_add_sum {ι : Type} (s : Finset ι) (a : EReal) (f : ι → EReal) (ha : ∃ r : ℝ, a = (r : EReal))
    (hf : ∀ j, ∃ r : ℝ, f j = (r : EReal)) : ∃ r : ℝ, a + ∑ j ∈ s, f j = (r : EReal) := by
  obtain ⟨ra, hra⟩ := ha
  choose rf hrf using hf
  refine ⟨ra + ∑ j ∈ s, rf j, ?_⟩
  rw [EReal.coe_add, coe_sum, hra]
  exact congrArg (fun t => (ra : EReal) + t) (Finset.sum_congr rfl fun j _ => hrf j)

/-- A finite sum of real numbers is a real number. -/
theorem real_sum {ι : Type} (s : Finset ι) (f : ι → EReal) (hf : ∀ j, ∃ r : ℝ, f j = (r : EReal)) :
    ∃ r : ℝ, ∑ j ∈ s, f j = (r : EReal) := by
  choose rf hrf using hf
  exact ⟨∑ j ∈ s, rf j, by rw [coe_sum]; exact Finset.sum_congr rfl fun j _ => hrf j⟩

/-- A product of two real numbers is a real number. -/
theorem real_mul {a b : EReal} (ha : ∃ r : ℝ, a = (r : EReal)) (hb : ∃ r : ℝ, b = (r : EReal)) :
    ∃ r : ℝ, a * b = (r : EReal) := by
  obtain ⟨ra, rfl⟩ := ha
  obtain ⟨rb, rfl⟩ := hb
  exact ⟨ra * rb, (EReal.coe_mul ra rb).symm⟩

/-- A sum of two real numbers is a real number. -/
theorem real_add {a b : EReal} (ha : ∃ r : ℝ, a = (r : EReal)) (hb : ∃ r : ℝ, b = (r : EReal)) :
    ∃ r : ℝ, a + b = (r : EReal) := by
  obtain ⟨ra, rfl⟩ := ha
  obtain ⟨rb, rfl⟩ := hb
  exact ⟨ra + rb, (EReal.coe_add ra rb).symm⟩

/-- The reciprocal square root of max(d, 1) is a real number when d is: max(d, 1) ≥ 1 is neither negative nor 0. -/
theorem real_rsqrt_max_one {d : EReal} (hd : ∃ r : ℝ, d = (r : EReal)) :
    ∃ r : ℝ, Ideal.rsqrt (max d ((1 : ℝ) : EReal)) = (r : EReal) := by
  obtain ⟨rd, rfl⟩ := hd
  have h1 : (1 : ℝ) ≤ max rd 1 := le_max_right rd 1
  refine ⟨(Real.sqrt (max rd 1))⁻¹, ?_⟩
  rw [← EReal.coe_strictMono.monotone.map_max, Ideal.rsqrt_coe, if_neg (by linarith), if_neg (by linarith)]

/-- A choice between two real numbers is a real number. -/
theorem real_select (c : BitVec 1) {a b : EReal} (ha : ∃ r : ℝ, a = (r : EReal)) (hb : ∃ r : ℝ, b = (r : EReal)) :
    ∃ r : ℝ, Scalar.select c a b = (r : EReal) := by
  unfold Scalar.select
  split
  · exact ha
  · exact hb

/-- The literal 0.0 is the real number 0. -/
theorem real_zero : ∃ r : ℝ, FloatOps.ofBits (F := Ideal) .f32 0x00000000#32 = (r : EReal) :=
  ⟨0, by rw [Ideal.ofBits_def, Ideal.ofBits_zero_f32]; rfl⟩

/-- The literal 1.0 is the real number 1. -/
theorem real_one : ∃ r : ℝ, FloatOps.ofBits (F := Ideal) .f32 0x3F800000#32 = (r : EReal) :=
  ⟨1, by rw [Ideal.ofBits_def, ofBits_one]⟩

/-! ## Gathers and accumulating scatters, whatever their indices -/

/-- An entry of a gathered array is an entry of its operand. -/
theorem allReal_gather {s si t : Shape} {w : Nat} (d : GatherDims s si t) (x : s.Idx → EReal) (idx : IVec si w)
    (hx : AllReal x) : AllReal (Host.gather d x idx) :=
  fun j => hx (d.operandIdx j idx)

/-- An entry of an accumulating scatter is the operand's entry plus a finite sum of update entries. -/
theorem allReal_scatterAdd {s si u : Shape} {w : Nat} (d : ScatterDims s si u) (x : FVec Ideal s .f32) (idx : IVec si w)
    (upd : FVec Ideal u .f32) (hx : AllReal x) (hu : AllReal upd) :
    AllReal (Host.scatterAdd (F := Ideal) d x idx upd) := by
  intro i
  show ∃ r : ℝ, FloatOps.hostScatterAdd d .single x idx upd i = (r : EReal)
  rw [Ideal.hostScatterAdd_def]
  exact real_add_sum _ (x i) upd (hx i) hu

end Cert.LibRealEntries

end
-- ==== Proof.LibHostForms.lean ====
/-
  The host's spelling of the layer's three steps, read index by index over the extended reals. Nothing here mentions a
  program: the array extents are variables and every shape relation an operation needs is a hypothesis.

  * The dense step.  A weight matrix is stored with the output feature as its row, and the host transposes it before
    the product; entry (k, q) of the transpose is entry (q, k) of the stored matrix, so the product's entry (p, q) is
    ∑ₖ a(p,k)·w(q,k).  The bias vector is copied into every row by two broadcasts; entry (p, q) of the copy is entry q.
  * The column mean.  The host adds a column from the initial value 0 and divides by a constant word; at column q that
    is (∑ₚ x(p,q)) / n.
  * The normalising step.  The host computes the variance as the mean of the squared deviations from the mean.  On a
    column of real numbers, and with n the number of rows, that equals the mean of the squares minus the squared mean,
    which is the form the specification takes.  This is the one place where the entries must be real; every other
    operation is the same expression on both sides.
-/
import Idealize.ShloMosaic.Lib.IdealHost
import Idealize.ShloMosaic.Lib.ValueLayout
import proofs.«147565_j9259949490665_1_alg».proof.Proof.Spec
import proofs.«147565_j9259949490665_1_alg».proof.Proof.LibPlainDot
import proofs.«147565_j9259949490665_1_alg».proof.Proof.LibBiasRow
import proofs.«147565_j9259949490665_1_alg».proof.Proof.LibRealEntries

noncomputable section

namespace Cert.Layer.Ref

open Idealize.ShloMosaic Idealize.ShloMosaic.ValueIdx Cert.LibRealEntries
open scoped BigOperators

variable {R K N : ℕ}

/-! ## Pointwise host functions at an index -/

/-- The host's hyperbolic tangent at an index is the tangent of the entry. -/
theorem hostTanh_apply {s : Shape} {φ : FTy} (x : FVec Ideal s φ) (i : s.Idx) : Host.tanh x i = Ideal.tanh (x i) := rfl

/-- The host's reciprocal square root at an index is that of the entry. -/
theorem hostRsqrt_apply {s : Shape} {φ : FTy} (x : FVec Ideal s φ) (i : s.Idx) : Host.rsqrt x i = Ideal.rsqrt (x i) := rfl

/-- A constant word broadcast from a scalar reads the word's value everywhere. -/
theorem scalar_apply {T : Shape} (hs : (⟨0, ![]⟩ : Shape).BroadcastsInDim T ![]) (w : BitVec FTy.f32.bits) (j : T.Idx) :
    broadcastInDim T ![] hs (constant (F := Ideal) ⟨0, ![]⟩ .f32 w) j = Ideal.ofBits .f32 w :=
  broadcastInDim_scalar_apply hs _ j

/-! ## A vector copied into every row -/

/-- A length-N vector copied into each of R rows, as the host does it: to one row, then down the rows. -/
def rows (h1 : (⟨1, ![N]⟩ : Shape).BroadcastsInDim ⟨2, ![1, N]⟩ ![1])
    (h2 : (⟨2, ![1, N]⟩ : Shape).BroadcastsInDim ⟨2, ![R, N]⟩ ![0, 1]) (v : FVec Ideal ⟨1, ![N]⟩ .f32) :
    FVec Ideal ⟨2, ![R, N]⟩ .f32 :=
  broadcastInDim ⟨2, ![R, N]⟩ ![0, 1] h2 (broadcastInDim ⟨2, ![1, N]⟩ ![1] h1 v)

/-- Entry (p, q) of the copy is entry q of the vector. -/
theorem rows_apply (h1 : (⟨1, ![N]⟩ : Shape).BroadcastsInDim ⟨2, ![1, N]⟩ ![1])
    (h2 : (⟨2, ![1, N]⟩ : Shape).BroadcastsInDim ⟨2, ![R, N]⟩ ![0, 1]) (v : FVec Ideal ⟨1, ![N]⟩ .f32) (p : Fin R) (q : Fin N) :
    rows h1 h2 v (ix2 p q) = v (ix1 q) :=
  Cert.Row.bcast_row_apply v h1 h2 p q

/-! ## The dense step and the projection -/

/-- A product against a transposed weight matrix: entry (p, q) contracts row p of the left operand with row q of the
    stored weights. -/
theorem dot_transposed_apply {M : ℕ} (d : DotDims ⟨2, ![M, K]⟩ ⟨2, ![K, N]⟩ ⟨2, ![M, N]⟩) (hd : d = DotDims.plain M K N)
    (ht : (⟨2, ![N, K]⟩ : Shape).Transposes [1, 0] ⟨2, ![K, N]⟩) (y : FVec Ideal ⟨2, ![M, K]⟩ .f32)
    (w : FVec Ideal ⟨2, ![N, K]⟩ .f32) (p : Fin M) (q : Fin N) :
    Host.dotGeneral d none y (transpose ⟨2, ![K, N]⟩ [1, 0] w ht) (ix2 p q) = ∑ k : Fin K, y (ix2 p k) * w (ix2 q k) :=
  (Cert.LibPlainDot.dotGeneral_apply d hd none .single y _ p q).trans
    (Finset.sum_congr rfl fun k _ => by rw [transpose_ix2_apply])

/-- The host's dense step, (a·wlᵀ + bias rows) + x·wrᵀ, is the specification's. -/
theorem hostLin_eq {M : ℕ} (d : DotDims ⟨2, ![M, K]⟩ ⟨2, ![K, N]⟩ ⟨2, ![M, N]⟩) (hd : d = DotDims.plain M K N)
    (ht : (⟨2, ![N, K]⟩ : Shape).Transposes [1, 0] ⟨2, ![K, N]⟩)
    (h1 : (⟨1, ![N]⟩ : Shape).BroadcastsInDim ⟨2, ![1, N]⟩ ![1])
    (h2 : (⟨2, ![1, N]⟩ : Shape).BroadcastsInDim ⟨2, ![M, N]⟩ ![0, 1])
    (a x : FVec Ideal ⟨2, ![M, K]⟩ .f32) (wl wr : FVec Ideal ⟨2, ![N, K]⟩ .f32) (b : FVec Ideal ⟨1, ![N]⟩ .f32) :
    addf (addf (Host.dotGeneral d none a (transpose ⟨2, ![K, N]⟩ [1, 0] wl ht)) (rows h1 h2 b))
        (Host.dotGeneral d none x (transpose ⟨2, ![K, N]⟩ [1, 0] wr ht))
      = lin a x wl wr (Cert.Row.rowOf b) := by
  funext i
  obtain ⟨p, q, rfl⟩ : ∃ (p : Fin M) (q : Fin N), i = ix2 p q := ⟨i 0, i 1, eq_ix2 i⟩
  rw [lin_apply, addf_apply, addf_apply, rows_apply, dot_transposed_apply d hd ht a wl p q,
    dot_transposed_apply d hd ht x wr p q]
  rfl

/-- The host's projection, h·wᵀ + bias rows, is the specification's. -/
theorem hostProj_eq {M : ℕ} (d : DotDims ⟨2, ![M, K]⟩ ⟨2, ![K, N]⟩ ⟨2, ![M, N]⟩) (hd : d = DotDims.plain M K N)
    (ht : (⟨2, ![N, K]⟩ : Shape).Transposes [1, 0] ⟨2, ![K, N]⟩)
    (h1 : (⟨1, ![N]⟩ : Shape).BroadcastsInDim ⟨2, ![1, N]⟩ ![1])
    (h2 : (⟨2, ![1, N]⟩ : Shape).BroadcastsInDim ⟨2, ![M, N]⟩ ![0, 1])
    (h : FVec Ideal ⟨2, ![M, K]⟩ .f32) (w : FVec Ideal ⟨2, ![N, K]⟩ .f32) (b : FVec Ideal ⟨1, ![N]⟩ .f32) :
    addf (Host.dotGeneral d none h (transpose ⟨2, ![K, N]⟩ [1, 0] w ht)) (rows h1 h2 b)
      = proj h w (Cert.Row.rowOf b) := by
  funext i
  obtain ⟨p, q, rfl⟩ : ∃ (p : Fin M) (q : Fin N), i = ix2 p q := ⟨i 0, i 1, eq_ix2 i⟩
  rw [proj_apply, addf_apply, rows_apply, dot_transposed_apply d hd ht h w p q]
  rfl

/-! ## Column sums and the column mean -/

/-- The host's sum down the rows from the initial value 0, at column q. -/
theorem hostColSum_apply (x : FVec Ideal ⟨2, ![R, N]⟩ .f32) (h' : (⟨2, ![R, N]⟩ : Shape).ReducesTo [0] ⟨1, ![N]⟩)
    (hR : (⟨2, ![R, N]⟩ : Shape).Reduces [0] ⟨1, ![N]⟩) (hu : 0 < (⟨0, ![]⟩ : Shape).numel) (q : Fin N) :
    Host.reduceAdd x (constant (F := Ideal) ⟨0, ![]⟩ .f32 0x00000000#32) h' hu (ix1 q) = ∑ p : Fin R, x (ix2 p q) := by
  rw [hostReduceAdd_apply]
  refine (Ideal.hostReduceAdd_single h' hR x _ (ix1 q)).trans ?_
  rw [constant_apply, Ideal.ofBits_zero_f32, zero_add]
  refine Finset.sum_congr rfl fun k _ => congrArg x ?_
  funext a
  refine Fin.ext ?_
  match a with
  | ⟨0, _⟩ => rfl
  | ⟨1, _⟩ => rfl

/-- The column sums divided by a constant word, as the host spells a mean over the rows. -/
def colMean (h' : (⟨2, ![R, N]⟩ : Shape).ReducesTo [0] ⟨1, ![N]⟩) (hu : 0 < (⟨0, ![]⟩ : Shape).numel)
    (hs : (⟨0, ![]⟩ : Shape).BroadcastsInDim ⟨1, ![N]⟩ ![]) (wn : BitVec FTy.f32.bits) (x : FVec Ideal ⟨2, ![R, N]⟩ .f32) :
    FVec Ideal ⟨1, ![N]⟩ .f32 :=
  Host.divf (Host.reduceAdd x (constant (F := Ideal) ⟨0, ![]⟩ .f32 0x00000000#32) h' hu)
    (broadcastInDim ⟨1, ![N]⟩ ![] hs (constant (F := Ideal) ⟨0, ![]⟩ .f32 wn))

/-- At column q it is the column's sum divided by the word's value. -/
theorem colMean_apply (h' : (⟨2, ![R, N]⟩ : Shape).ReducesTo [0] ⟨1, ![N]⟩)
    (hR : (⟨2, ![R, N]⟩ : Shape).Reduces [0] ⟨1, ![N]⟩) (hu : 0 < (⟨0, ![]⟩ : Shape).numel)
    (hs : (⟨0, ![]⟩ : Shape).BroadcastsInDim ⟨1, ![N]⟩ ![]) (wn : BitVec FTy.f32.bits) (x : FVec Ideal ⟨2, ![R, N]⟩ .f32)
    (q : Fin N) :
    colMean h' hu hs wn x (ix1 q) = Ideal.div (∑ p : Fin R, x (ix2 p q)) (Ideal.ofBits .f32 wn) := by
  unfold colMean
  rw [hostDivf_apply, hostColSum_apply x h' hR hu q, scalar_apply hs wn]

/-! ## The normalising step -/

/-- The host's normalising step — mean, deviations, mean of their squares, reciprocal square root, gain, offset,
    tangent — is the specification's with the variance written as the mean of the squares minus the squared mean,
    when every entry of the array is real and n is its number of rows. -/
theorem hostBn_eq (n : ℝ) (hn : n = (R : ℝ)) (hn0 : n ≠ 0) (wn : BitVec FTy.f32.bits)
    (hwn : Ideal.ofBits .f32 wn = (n : EReal))
    (h1 : (⟨1, ![N]⟩ : Shape).BroadcastsInDim ⟨2, ![1, N]⟩ ![1])
    (h2 : (⟨2, ![1, N]⟩ : Shape).BroadcastsInDim ⟨2, ![R, N]⟩ ![0, 1])
    (h' : (⟨2, ![R, N]⟩ : Shape).ReducesTo [0] ⟨1, ![N]⟩) (hR : (⟨2, ![R, N]⟩ : Shape).Reduces [0] ⟨1, ![N]⟩)
    (hu : 0 < (⟨0, ![]⟩ : Shape).numel) (hs : (⟨0, ![]⟩ : Shape).BroadcastsInDim ⟨1, ![N]⟩ ![])
    (h : FVec Ideal ⟨2, ![R, N]⟩ .f32) (g b : FVec Ideal ⟨1, ![N]⟩ .f32) (hr : AllReal h) :
    Host.tanh (addf (mulf (mulf (subf h (rows h1 h2 (colMean h' hu hs wn h)))
        (rows h1 h2 (Host.rsqrt (addf
          (colMean h' hu hs wn (mulf (subf h (rows h1 h2 (colMean h' hu hs wn h))) (subf h (rows h1 h2 (colMean h' hu hs wn h)))))
          (broadcastInDim ⟨1, ![N]⟩ ![] hs (constant (F := Ideal) ⟨0, ![]⟩ .f32 0x3727C5AC#32))))))
        (rows h1 h2 g)) (rows h1 h2 b))
      = bn h (fun j => Ideal.div (colSum h j) (n : EReal))
          (fun j => Ideal.div (colSumSq h j) (n : EReal) - Ideal.div (colSum h j) (n : EReal) * Ideal.div (colSum h j) (n : EReal))
          (Cert.Row.rowOf g) (Cert.Row.rowOf b) := by
  funext i
  obtain ⟨p, q, rfl⟩ : ∃ (p : Fin R) (q : Fin N), i = ix2 p q := ⟨i 0, i 1, eq_ix2 i⟩
  -- the mean of column q
  have hm : colMean h' hu hs wn h (ix1 q) = Ideal.div (∑ k : Fin R, h (ix2 k q)) (n : EReal) := by
    rw [colMean_apply h' hR hu hs wn h q, hwn]
  -- the mean of the squared deviations of column q, in the other form
  have hv : colMean h' hu hs wn (mulf (subf h (rows h1 h2 (colMean h' hu hs wn h))) (subf h (rows h1 h2 (colMean h' hu hs wn h)))) (ix1 q)
      = Ideal.div (∑ k : Fin R, h (ix2 k q) * h (ix2 k q)) (n : EReal)
        - Ideal.div (∑ k : Fin R, h (ix2 k q)) (n : EReal) * Ideal.div (∑ k : Fin R, h (ix2 k q)) (n : EReal) := by
    rw [colMean_apply h' hR hu hs wn _ q, hwn]
    simp only [mulf_apply, subf_apply, rows_apply, hm]
    exact var_forms_eq (fun k : Fin R => h (ix2 k q)) (fun k => hr _) n (by rw [Fintype.card_fin]; exact hn) hn0
  rw [bn_apply, hostTanh_apply, addf_apply, mulf_apply, mulf_apply, subf_apply]
  simp only [rows_apply, hostRsqrt_apply, addf_apply, scalar_apply, hm, hv]
  rfl

end Cert.Layer.Ref

end
-- ==== Proof.LibLayerReal.lean ====
/-
  Facts about the layer's three steps over the extended reals that mention no program.

  * The dense step keeps real numbers: an entry is two finite sums of products of entries plus a bias entry.
  * The normalising step yields real numbers whatever it is given: its last operation is the hyperbolic tangent, which
    sends minus infinity to −1, plus infinity to 1 and a real number to a real number.
  * A vector read as a one-row matrix has the vector's entries, so it is real when the vector is.
  * The normalising step reads its four rows (mean, variance, gain, offset) only at (0, q), so two choices of rows that
    agree at every (0, q) give the same array.
  * The binary word 0x47435000 denotes the real number 50000 (sign +, exponent 142, significand 1.52587890625:
    2¹⁵ · 1.52587890625 = 50000).
-/
import proofs.«147565_j9259949490665_1_alg».proof.Proof.Spec
import proofs.«147565_j9259949490665_1_alg».proof.Proof.LibRealEntries
import proofs.«147565_j9259949490665_1_alg».proof.Proof.LibBiasRow

noncomputable section

namespace Cert.Layer.Ref

open Idealize.ShloMosaic Idealize.ShloMosaic.ValueIdx Cert.LibRealEntries
open scoped BigOperators

/-- The word 0x47435000 denotes 50000. -/
theorem ofBits_50000 : Ideal.ofBits .f32 0x47435000#32 = ((50000 : ℝ) : EReal) := by
  simp [Ideal.ofBits, Ideal.ieee, -EReal.coe_mul]; norm_num

/-- The hyperbolic tangent of an extended real is a real number: −1 at minus infinity, 1 at plus infinity. -/
theorem real_tanh (x : EReal) : ∃ r : ℝ, Ideal.tanh x = (r : EReal) := by
  induction x using EReal.rec with
  | bot => exact ⟨-1, by rw [Ideal.tanh_bot, EReal.coe_neg, EReal.coe_one]⟩
  | top => exact ⟨1, by rw [Ideal.tanh_top]; norm_cast⟩
  | coe r => exact ⟨Real.tanh r, rfl⟩

/-- The dense step of real arrays is a real array. -/
theorem allReal_lin {R K N : ℕ} {a x : Mat R K} {wl wr : Mat N K} {b : Mat 1 N} (ha : AllReal a) (hx : AllReal x)
    (hwl : AllReal wl) (hwr : AllReal wr) (hb : AllReal b) : AllReal (lin a x wl wr b) := fun i =>
  real_add
    (real_add (real_sum _ _ fun k => real_mul (ha _) (hwl _)) (hb _))
    (real_sum _ _ fun k => real_mul (hx _) (hwr _))

/-- The normalising step is a real array whatever its arguments are. -/
theorem allReal_bn {R N : ℕ} (h : Mat R N) (mean var g b : Mat 1 N) : AllReal (bn h mean var g b) := fun _ =>
  real_tanh _

/-- A real vector read as a one-row matrix is real. -/
theorem allReal_rowOf {N : ℕ} {b : FVec Ideal ⟨1, ![N]⟩ .f32} (hb : AllReal b) : AllReal (Cert.Row.rowOf b) := fun j =>
  hb (ix1 (j 1))

/-- The normalising step depends on its four rows only through their entries (0, q). -/
theorem bn_congr_rows {R N : ℕ} (h : Mat R N) {mean mean' var var' g g' b b' : Mat 1 N}
    (hm : ∀ q : Fin N, mean (ix2 0 q) = mean' (ix2 0 q)) (hv : ∀ q : Fin N, var (ix2 0 q) = var' (ix2 0 q))
    (hg : ∀ q : Fin N, g (ix2 0 q) = g' (ix2 0 q)) (hb : ∀ q : Fin N, b (ix2 0 q) = b' (ix2 0 q)) :
    bn h mean var g b = bn h mean' var' g' b' := by
  funext i
  obtain ⟨p, q, rfl⟩ : ∃ (p : Fin R) (q : Fin N), i = ix2 p q := ⟨i 0, i 1, eq_ix2 i⟩
  rw [bn_apply, bn_apply, hm q, hv q, hg q, hb q]

end Cert.Layer.Ref

end
-- ==== Proof.RefForms.lean ====
/-
  The reference program's host operations for one layer, and for the final projection, are the specification's
  functions of the arrays they are applied to.

  Per layer the reference forms  (agg·Wlᵀ + bias rows) + x·Wrᵀ,  then the per-column mean (column sums over the 50000
  rows, divided by 50000), the per-column mean of the squared deviations, and
  tanh(((h − mean)·rsqrt(var + eps))·gain + offset).  The specification writes the variance as the mean of the
  squares minus the squared mean; the two agree on an array of real numbers, which is the hypothesis of the
  normalising step's statement below and of nothing else here.  The extents are 50000 rows, 8 or 64 input features,
  64 features per layer and 200 outputs.
-/
import proofs.«147565_j9259949490665_1_alg».proof.ReferenceIdeal
import proofs.«147565_j9259949490665_1_alg».proof.Proof.LibHostForms
import proofs.«147565_j9259949490665_1_alg».proof.Proof.LibLayerReal

noncomputable section

namespace Cert.Layer.Ref

open Idealize.ShloMosaic Idealize.ShloMosaic.ValueIdx Cert.LibRealEntries
open Cert.ReferenceIdeal Cert.ReferenceIdeal.Facts₀ Cert.ReferenceIdeal.Facts

variable [Cert.ReferenceIdeal.Facts]

/-- Layer 0's dense step (8 input features). -/
theorem hpre8_ref (agg x : FVec Ideal S50000x8 .f32) (wl wr : FVec Ideal S64x8 .f32) (b : FVec Ideal S64 .f32) :
    addf (addf (Host.dotGeneral dot_S50000x8_S8x64_S50000x64_1_0_0_1_n_n none agg (transpose S8x64 [1, 0] wl transposes_S64x8_S8x64_1_0))
        (broadcastInDim S50000x64 ![0, 1] bcast_S1x64_S50000x64_0_1 (broadcastInDim S1x64 ![1] bcast_S64_S1x64_1 b)))
      (Host.dotGeneral dot_S50000x8_S8x64_S50000x64_1_0_0_1_n_n none x (transpose S8x64 [1, 0] wr transposes_S64x8_S8x64_1_0))
    = Cert.Layer.lin agg x wl wr (Cert.Row.rowOf b) :=
  hostLin_eq dot_S50000x8_S8x64_S50000x64_1_0_0_1_n_n rfl transposes_S64x8_S8x64_1_0 bcast_S64_S1x64_1
    bcast_S1x64_S50000x64_0_1 agg x wl wr b

/-- A later layer's dense step (64 input features). -/
theorem hpre64_ref (agg x : FVec Ideal S50000x64 .f32) (wl wr : FVec Ideal S64x64 .f32) (b : FVec Ideal S64 .f32) :
    addf (addf (Host.dotGeneral dot_S50000x64_S64x64_S50000x64_1_0_0_1_n_n none agg (transpose S64x64 [1, 0] wl transposes_S64x64_S64x64_1_0))
        (broadcastInDim S50000x64 ![0, 1] bcast_S1x64_S50000x64_0_1 (broadcastInDim S1x64 ![1] bcast_S64_S1x64_1 b)))
      (Host.dotGeneral dot_S50000x64_S64x64_S50000x64_1_0_0_1_n_n none x (transpose S64x64 [1, 0] wr transposes_S64x64_S64x64_1_0))
    = Cert.Layer.lin agg x wl wr (Cert.Row.rowOf b) :=
  hostLin_eq dot_S50000x64_S64x64_S50000x64_1_0_0_1_n_n rfl transposes_S64x64_S64x64_1_0 bcast_S64_S1x64_1
    bcast_S1x64_S50000x64_0_1 agg x wl wr b

/-- The final projection to 200 outputs. -/
theorem proj_ref (h : FVec Ideal S50000x64 .f32) (w : FVec Ideal S200x64 .f32) (b : FVec Ideal S200 .f32) :
    addf (Host.dotGeneral dot_S50000x64_S64x200_S50000x200_1_0_0_1_n_n none h (transpose S64x200 [1, 0] w transposes_S200x64_S64x200_1_0))
        (broadcastInDim S50000x200 ![0, 1] bcast_S1x200_S50000x200_0_1 (broadcastInDim S1x200 ![1] bcast_S200_S1x200_1 b))
    = Cert.Layer.proj h w (Cert.Row.rowOf b) :=
  hostProj_eq dot_S50000x64_S64x200_S50000x200_1_0_0_1_n_n rfl transposes_S200x64_S64x200_1_0 bcast_S200_S1x200_1
    bcast_S1x200_S50000x200_0_1 h w b

/-- A layer's normalising step on an array of real numbers, with 50000 the number of rows. -/
theorem bn_ref (h : FVec Ideal S50000x64 .f32) (g b : FVec Ideal S64 .f32) (hr : AllReal h) :
    Host.tanh (addf (mulf (mulf (subf h (broadcastInDim S50000x64 ![0, 1] bcast_S1x64_S50000x64_0_1 (broadcastInDim S1x64 ![1] bcast_S64_S1x64_1 (Host.divf (F := Ideal) (Host.reduceAdd (F := Ideal) h (constant (F := Ideal) S_ .f32 0x00000000#32) reducesTo_S50000x64_S64_d0 h_S_) (broadcastInDim S64 ![] bcast_S_S64 (constant (F := Ideal) S_ .f32 0x47435000#32)))))) (broadcastInDim S50000x64 ![0, 1] bcast_S1x64_S50000x64_0_1 (broadcastInDim S1x64 ![1] bcast_S64_S1x64_1 (Host.rsqrt (addf (Host.divf (F := Ideal) (Host.reduceAdd (F := Ideal) (mulf (subf h (broadcastInDim S50000x64 ![0, 1] bcast_S1x64_S50000x64_0_1 (broadcastInDim S1x64 ![1] bcast_S64_S1x64_1 (Host.divf (F := Ideal) (Host.reduceAdd (F := Ideal) h (constant (F := Ideal) S_ .f32 0x00000000#32) reducesTo_S50000x64_S64_d0 h_S_) (broadcastInDim S64 ![] bcast_S_S64 (constant (F := Ideal) S_ .f32 0x47435000#32)))))) (subf h (broadcastInDim S50000x64 ![0, 1] bcast_S1x64_S50000x64_0_1 (broadcastInDim S1x64 ![1] bcast_S64_S1x64_1 (Host.divf (F := Ideal) (Host.reduceAdd (F := Ideal) h (constant (F := Ideal) S_ .f32 0x00000000#32) reducesTo_S50000x64_S64_d0 h_S_) (broadcastInDim S64 ![] bcast_S_S64 (constant (F := Ideal) S_ .f32 0x47435000#32))))))) (constant (F := Ideal) S_ .f32 0x00000000#32) reducesTo_S50000x64_S64_d0 h_S_) (broadcastInDim S64 ![] bcast_S_S64 (constant (F := Ideal) S_ .f32 0x47435000#32))) (broadcastInDim S64 ![] bcast_S_S64 (constant (F := Ideal) S_ .f32 0x3727C5AC#32))))))) (broadcastInDim S50000x64 ![0, 1] bcast_S1x64_S50000x64_0_1 (broadcastInDim S1x64 ![1] bcast_S64_S1x64_1 g))) (broadcastInDim S50000x64 ![0, 1] bcast_S1x64_S50000x64_0_1 (broadcastInDim S1x64 ![1] bcast_S64_S1x64_1 b)))
    = Cert.Layer.bn h (fun j => Ideal.div (Cert.Layer.colSum h j) ((50000 : ℝ) : EReal))
        (fun j => Ideal.div (Cert.Layer.colSumSq h j) ((50000 : ℝ) : EReal)
          - Ideal.div (Cert.Layer.colSum h j) ((50000 : ℝ) : EReal) * Ideal.div (Cert.Layer.colSum h j) ((50000 : ℝ) : EReal))
        (Cert.Row.rowOf g) (Cert.Row.rowOf b) :=
  hostBn_eq (50000 : ℝ) (by norm_num) (by norm_num) 0x47435000#32 ofBits_50000 bcast_S64_S1x64_1 bcast_S1x64_S50000x64_0_1
    reducesTo_S50000x64_S64_d0 (by decide) h_S_ bcast_S_S64 h g b hr

end Cert.Layer.Ref

end
-- ==== Proof.RHostFn.lean ====
/-
  The reference program's host operations on the edge list and the stacked parameters, as functions.

  From the 2×E edge list: the source and target index vectors (its two rows).  The aggregation of a feature array h: the
  rows h[src e] (a negative source index wrapped by the number of nodes) are added into a zero array at the rows tgt e.
  A layer's weights, bias, gain and offset are slices of the stacked parameter arrays, reshaped to drop the unit axis.
-/
import proofs.«147565_j9259949490665_1_alg».proof.ReferenceIdeal
import Idealize.ShloMosaic.PureOps.Ideal

noncomputable section

namespace Cert.ReferenceIdeal.HostFn

open Idealize.ShloMosaic Cert.ReferenceIdeal

variable [Cert.ReferenceIdeal.Facts]
open Cert.ReferenceIdeal.Facts₀ Cert.ReferenceIdeal.Facts

/-- Row `r` of the edge list (r = 0 the sources, r = 1 the targets). -/
def idxRow (off : Fin 2 → Nat) (h : S2x800000.Slices off S1x800000) (ei : IVec S2x800000 32) : IVec S800000 32 :=
  shapeCast S800000 (extractStridedSlice S1x800000 off ei h) shapeCasts_S1x800000_S800000

/-- The source indices as gather start indices: a negative index wrapped by 50000, as an E×1 column. -/
def srcCol (v1 : IVec S800000 32) : IVec S800000x1 32 :=
  broadcastInDim S800000x1 ![0] bcast_S800000_S800000x1_0
    (select (cmpi .slt v1 (broadcastInDim S800000 ![] bcast_S_S800000 (constantI S_ 32 0#32)))
      (addi v1 (broadcastInDim S800000 ![] bcast_S_S800000 (constantI S_ 32 50000#32))) v1)

/-- The target indices as an E×1 column. -/
def dstCol (v3 : IVec S800000 32) : IVec S800000x1 32 := broadcastInDim S800000x1 ![0] bcast_S800000_S800000x1_0 v3

/-- The aggregation of an array of 8 features. -/
def agg8 (v1 v3 : IVec S800000 32) (x : FVec Ideal S50000x8 .f32) : FVec Ideal S50000x8 .f32 :=
  Host.scatterAdd scatter_S50000x8_S800000x1_S800000x8_1_0_0_1
    (broadcastInDim S50000x8 ![] bcast_S_S50000x8 (constant S_ .f32 0x00000000#32)) (dstCol v3)
    (Host.gather gather_S50000x8_S800000x1_S800000x8_1_0_n_n_0_1_18 x (srcCol v1))

/-- The aggregation of an array of 64 features. -/
def agg64 (v1 v3 : IVec S800000 32) (x : FVec Ideal S50000x64 .f32) : FVec Ideal S50000x64 .f32 :=
  Host.scatterAdd scatter_S50000x64_S800000x1_S800000x64_1_0_0_1
    (broadcastInDim S50000x64 ![] bcast_S_S50000x64 (constant S_ .f32 0x00000000#32)) (dstCol v3)
    (Host.gather gather_S50000x64_S800000x1_S800000x64_1_0_n_n_0_1_164 x (srcCol v1))

/-- One 64×64 matrix of a stack of seven. -/
def matSlice (off : Fin 3 → Nat) (h : S7x64x64.Slices off S1x64x64) (w : FVec Ideal S7x64x64 .f32) : FVec Ideal S64x64 .f32 :=
  shapeCast S64x64 (extractStridedSlice S1x64x64 off w h) shapeCasts_S1x64x64_S64x64

/-- One length-64 row of a stack of seven. -/
def vecSlice7 (off : Fin 2 → Nat) (h : S7x64.Slices off S1x64) (w : FVec Ideal S7x64 .f32) : FVec Ideal S64 .f32 :=
  shapeCast S64 (extractStridedSlice S1x64 off w h) shapeCasts_S1x64_S64

/-- One length-64 row of a stack of eight. -/
def vecSlice8 (off : Fin 2 → Nat) (h : S8x64.Slices off S1x64) (w : FVec Ideal S8x64 .f32) : FVec Ideal S64 .f32 :=
  shapeCast S64 (extractStridedSlice S1x64 off w h) shapeCasts_S1x64_S64

end Cert.ReferenceIdeal.HostFn

end
-- ==== Proof.RefChain.lean ====
/-
  The reference program's eight layers and its projection, stated over the named intermediate arrays of its run.

  Layer 0 takes the node features (8 per node); each later layer takes the previous layer's output (64 per node).  A
  layer's pre-activation is the specification's dense step of the aggregated features (each node's incoming neighbours'
  rows, summed) and the features themselves, with that layer's two weight matrices and bias; its output is the
  specification's normalising step of the pre-activation with the pre-activation's own column mean and variance and
  that layer's gain and offset.  The normalising step needs the pre-activation to consist of real numbers (it is where
  the two forms of the variance are identified); the dense step needs nothing.  The program's result is the projection
  of the last layer's output.
-/
import proofs.«147565_j9259949490665_1_alg».proof.Proof.Gen.ReferenceIdeal.Run
import proofs.«147565_j9259949490665_1_alg».proof.Proof.RefForms
import proofs.«147565_j9259949490665_1_alg».proof.Proof.RHostFn
import proofs.«147565_j9259949490665_1_alg».proof.Proof.LayerDefs

noncomputable section

namespace Cert.Layer.Ref

open Idealize.ShloMosaic Idealize.ShloMosaic.TcCoe Idealize.SL.Sem Idealize.ShloMosaic.StableHlo
open Cert.ReferenceIdeal Cert.ReferenceIdeal.Gen Cert.ReferenceIdeal.Value Cert.ReferenceIdeal.HostFn
open Cert.LibRealEntries Cert.Layer Cert.Row

variable (V0 : Valuation τ sig (Elt Ideal))

/-- The edges' source nodes: row 0 of the edge list. -/
abbrev srcIdx : IVec S800000 32 := idxRow ![0, 0] slices_S2x800000_S1x800000_0_0 (V0 (Proc.devRef .tc main_arg1))

/-- The edges' target nodes: row 1 of the edge list. -/
abbrev dstIdx : IVec S800000 32 := idxRow ![1, 0] slices_S2x800000_S1x800000_1_0 (V0 (Proc.devRef .tc main_arg1))

/-! ## Layer 0 -/

set_option maxRecDepth 8192 in
/-- Layer 0's pre-activation is the dense step of the aggregated node features and the node features. -/
theorem hpre0 : res_main_v21 (F := Ideal) V0
    = lin (agg8 (srcIdx V0) (dstIdx V0) (V0 (Proc.devRef .tc main_arg0))) (V0 (Proc.devRef .tc main_arg0)) (V0 (Proc.devRef .tc main_arg2)) (V0 (Proc.devRef .tc main_arg3)) (rowOf (V0 (Proc.devRef .tc main_arg4))) := by
  unfold res_main_v21
  exact hpre8_ref _ _ _ _ _

set_option maxRecDepth 8192 in
/-- Layer 0's output is the normalising step of its pre-activation, when the pre-activation is real. -/
theorem out0 (hr : AllReal (S := S50000x64) (res_main_v21 (F := Ideal) V0)) : res_main_v51 (F := Ideal) V0
    = bnStep (res_main_v21 (F := Ideal) V0) (rowOf (vecSlice8 ![0, 0] slices_S8x64_S1x64_0_0 (V0 (Proc.devRef .tc main_arg8)))) (rowOf (vecSlice8 ![0, 0] slices_S8x64_S1x64_0_0 (V0 (Proc.devRef .tc main_arg9)))) := by
  unfold res_main_v51 res_main_v31 res_main_v28
  exact bn_ref _ _ _ hr

/-! ## Layer 1 -/

set_option maxRecDepth 8192 in
/-- Layer 1's pre-activation is the dense step of the aggregated output of layer 0 and that output. -/
theorem hpre1 : res_main_v75 (F := Ideal) V0
    = lin (agg64 (srcIdx V0) (dstIdx V0) (res_main_v51 (F := Ideal) V0)) (res_main_v51 (F := Ideal) V0)
        (matSlice ![0, 0, 0] slices_S7x64x64_S1x64x64_0_0_0 (V0 (Proc.devRef .tc main_arg5)))
        (matSlice ![0, 0, 0] slices_S7x64x64_S1x64x64_0_0_0 (V0 (Proc.devRef .tc main_arg6)))
        (rowOf (vecSlice7 ![0, 0] slices_S7x64_S1x64_0_0 (V0 (Proc.devRef .tc main_arg7)))) := by
  unfold res_main_v75
  exact hpre64_ref _ _ _ _ _

set_option maxRecDepth 8192 in
/-- Layer 1's output is the normalising step of its pre-activation, when the pre-activation is real. -/
theorem out1 (hr : AllReal (S := S50000x64) (res_main_v75 (F := Ideal) V0)) : res_main_v105 (F := Ideal) V0
    = bnStep (res_main_v75 (F := Ideal) V0) (rowOf (vecSlice8 ![1, 0] slices_S8x64_S1x64_1_0 (V0 (Proc.devRef .tc main_arg8)))) (rowOf (vecSlice8 ![1, 0] slices_S8x64_S1x64_1_0 (V0 (Proc.devRef .tc main_arg9)))) := by
  unfold res_main_v105 res_main_v85 res_main_v82
  exact bn_ref _ _ _ hr

/-! ## Layer 2 -/

set_option maxRecDepth 8192 in
/-- Layer 2's pre-activation is the dense step of the aggregated output of layer 1 and that output. -/
theorem hpre2 : res_main_v129 (F := Ideal) V0
    = lin (agg64 (srcIdx V0) (dstIdx V0) (res_main_v105 (F := Ideal) V0)) (res_main_v105 (F := Ideal) V0)
        (matSlice ![1, 0, 0] slices_S7x64x64_S1x64x64_1_0_0 (V0 (Proc.devRef .tc main_arg5)))
        (matSlice ![1, 0, 0] slices_S7x64x64_S1x64x64_1_0_0 (V0 (Proc.devRef .tc main_arg6)))
        (rowOf (vecSlice7 ![1, 0] slices_S7x64_S1x64_1_0 (V0 (Proc.devRef .tc main_arg7)))) := by
  unfold res_main_v129
  exact hpre64_ref _ _ _ _ _

set_option maxRecDepth 8192 in
/-- Layer 2's output is the normalising step of its pre-activation, when the pre-activation is real. -/
theorem out2 (hr : AllReal (S := S50000x64) (res_main_v129 (F := Ideal) V0)) : res_main_v159 (F := Ideal) V0
    = bnStep (res_main_v129 (F := Ideal) V0) (rowOf (vecSlice8 ![2, 0] slices_S8x64_S1x64_2_0 (V0 (Proc.devRef .tc main_arg8)))) (rowOf (vecSlice8 ![2, 0] slices_S8x64_S1x64_2_0 (V0 (Proc.devRef .tc main_arg9)))) := by
  unfold res_main_v159 res_main_v139 res_main_v136
  exact bn_ref _ _ _ hr

/-! ## Layer 3 -/

set_option maxRecDepth 8192 in
/-- Layer 3's pre-activation is the dense step of the aggregated output of layer 2 and that output. -/
theorem hpre3 : res_main_v183 (F := Ideal) V0
    = lin (agg64 (srcIdx V0) (dstIdx V0) (res_main_v159 (F := Ideal) V0)) (res_main_v159 (F := Ideal) V0)
        (matSlice ![2, 0, 0] slices_S7x64x64_S1x64x64_2_0_0 (V0 (Proc.devRef .tc main_arg5)))
        (matSlice ![2, 0, 0] slices_S7x64x64_S1x64x64_2_0_0 (V0 (Proc.devRef .tc main_arg6)))
        (rowOf (vecSlice7 ![2, 0] slices_S7x64_S1x64_2_0 (V0 (Proc.devRef .tc main_arg7)))) := by
  unfold res_main_v183
  exact hpre64_ref _ _ _ _ _

set_option maxRecDepth 8192 in
/-- Layer 3's output is the normalising step of its pre-activation, when the pre-activation is real. -/
theorem out3 (hr : AllReal (S := S50000x64) (res_main_v183 (F := Ideal) V0)) : res_main_v213 (F := Ideal) V0
    = bnStep (res_main_v183 (F := Ideal) V0) (rowOf (vecSlice8 ![3, 0] slices_S8x64_S1x64_3_0 (V0 (Proc.devRef .tc main_arg8)))) (rowOf (vecSlice8 ![3, 0] slices_S8x64_S1x64_3_0 (V0 (Proc.devRef .tc main_arg9)))) := by
  unfold res_main_v213 res_main_v193 res_main_v190
  exact bn_ref _ _ _ hr

/-! ## Layer 4 -/

set_option maxRecDepth 8192 in
/-- Layer 4's pre-activation is the dense step of the aggregated output of layer 3 and that output. -/
theorem hpre4 : res_main_v237 (F := Ideal) V0
    = lin (agg64 (srcIdx V0) (dstIdx V0) (res_main_v213 (F := Ideal) V0)) (res_main_v213 (F := Ideal) V0)
        (matSlice ![3, 0, 0] slices_S7x64x64_S1x64x64_3_0_0 (V0 (Proc.devRef .tc main_arg5)))
        (matSlice ![3, 0, 0] slices_S7x64x64_S1x64x64_3_0_0 (V0 (Proc.devRef .tc main_arg6)))
        (rowOf (vecSlice7 ![3, 0] slices_S7x64_S1x64_3_0 (V0 (Proc.devRef .tc main_arg7)))) := by
  unfold res_main_v237
  exact hpre64_ref _ _ _ _ _

set_option maxRecDepth 8192 in
/-- Layer 4's output is the normalising step of its pre-activation, when the pre-activation is real. -/
theorem out4 (hr : AllReal (S := S50000x64) (res_main_v237 (F := Ideal) V0)) : res_main_v267 (F := Ideal) V0
    = bnStep (res_main_v237 (F := Ideal) V0) (rowOf (vecSlice8 ![4, 0] slices_S8x64_S1x64_4_0 (V0 (Proc.devRef .tc main_arg8)))) (rowOf (vecSlice8 ![4, 0] slices_S8x64_S1x64_4_0 (V0 (Proc.devRef .tc main_arg9)))) := by
  unfold res_main_v267 res_main_v247 res_main_v244
  exact bn_ref _ _ _ hr

/-! ## Layer 5 -/

set_option maxRecDepth 8192 in
/-- Layer 5's pre-activation is the dense step of the aggregated output of layer 4 and that output. -/
theorem hpre5 : res_main_v291 (F := Ideal) V0
    = lin (agg64 (srcIdx V0) (dstIdx V0) (res_main_v267 (F := Ideal) V0)) (res_main_v267 (F := Ideal) V0)
        (matSlice ![4, 0, 0] slices_S7x64x64_S1x64x64_4_0_0 (V0 (Proc.devRef .tc main_arg5)))
        (matSlice ![4, 0, 0] slices_S7x64x64_S1x64x64_4_0_0 (V0 (Proc.devRef .tc main_arg6)))
        (rowOf (vecSlice7 ![4, 0] slices_S7x64_S1x64_4_0 (V0 (Proc.devRef .tc main_arg7)))) := by
  unfold res_main_v291
  exact hpre64_ref _ _ _ _ _

set_option maxRecDepth 8192 in
/-- Layer 5's output is the normalising step of its pre-activation, when the pre-activation is real. -/
theorem out5 (hr : AllReal (S := S50000x64) (res_main_v291 (F := Ideal) V0)) : res_main_v321 (F := Ideal) V0
    = bnStep (res_main_v291 (F := Ideal) V0) (rowOf (vecSlice8 ![5, 0] slices_S8x64_S1x64_5_0 (V0 (Proc.devRef .tc main_arg8)))) (rowOf (vecSlice8 ![5, 0] slices_S8x64_S1x64_5_0 (V0 (Proc.devRef .tc main_arg9)))) := by
  unfold res_main_v321 res_main_v301 res_main_v298
  exact bn_ref _ _ _ hr

/-! ## Layer 6 -/

set_option maxRecDepth 8192 in
/-- Layer 6's pre-activation is the dense step of the aggregated output of layer 5 and that output. -/
theorem hpre6 : res_main_v345 (F := Ideal) V0
    = lin (agg64 (srcIdx V0) (dstIdx V0) (res_main_v321 (F := Ideal) V0)) (res_main_v321 (F := Ideal) V0)
        (matSlice ![5, 0, 0] slices_S7x64x64_S1x64x64_5_0_0 (V0 (Proc.devRef .tc main_arg5)))
        (matSlice ![5, 0, 0] slices_S7x64x64_S1x64x64_5_0_0 (V0 (Proc.devRef .tc main_arg6)))
        (rowOf (vecSlice7 ![5, 0] slices_S7x64_S1x64_5_0 (V0 (Proc.devRef .tc main_arg7)))) := by
  unfold res_main_v345
  exact hpre64_ref _ _ _ _ _

set_option maxRecDepth 8192 in
/-- Layer 6's output is the normalising step of its pre-activation, when the pre-activation is real. -/
theorem out6 (hr : AllReal (S := S50000x64) (res_main_v345 (F := Ideal) V0)) : res_main_v375 (F := Ideal) V0
    = bnStep (res_main_v345 (F := Ideal) V0) (rowOf (vecSlice8 ![6, 0] slices_S8x64_S1x64_6_0 (V0 (Proc.devRef .tc main_arg8)))) (rowOf (vecSlice8 ![6, 0] slices_S8x64_S1x64_6_0 (V0 (Proc.devRef .tc main_arg9)))) := by
  unfold res_main_v375 res_main_v355 res_main_v352
  exact bn_ref _ _ _ hr

/-! ## Layer 7 -/

set_option maxRecDepth 8192 in
/-- Layer 7's pre-activation is the dense step of the aggregated output of layer 6 and that output. -/
theorem hpre7 : res_main_v399 (F := Ideal) V0
    = lin (agg64 (srcIdx V0) (dstIdx V0) (res_main_v375 (F := Ideal) V0)) (res_main_v375 (F := Ideal) V0)
        (matSlice ![6, 0, 0] slices_S7x64x64_S1x64x64_6_0_0 (V0 (Proc.devRef .tc main_arg5)))
        (matSlice ![6, 0, 0] slices_S7x64x64_S1x64x64_6_0_0 (V0 (Proc.devRef .tc main_arg6)))
        (rowOf (vecSlice7 ![6, 0] slices_S7x64_S1x64_6_0 (V0 (Proc.devRef .tc main_arg7)))) := by
  unfold res_main_v399
  exact hpre64_ref _ _ _ _ _

set_option maxRecDepth 8192 in
/-- Layer 7's output, which the run does not name, is the normalising step of its pre-activation, when that is real. -/
theorem out7 (hr : AllReal (S := S50000x64) (res_main_v399 (F := Ideal) V0)) :
    (Host.tanh (addf (mulf (mulf (subf (res_main_v399 (F := Ideal) V0) (broadcastInDim S50000x64 ![0, 1] bcast_S1x64_S50000x64_0_1 (broadcastInDim S1x64 ![1] bcast_S64_S1x64_1 (res_main_v406 (F := Ideal) V0)))) (broadcastInDim S50000x64 ![0, 1] bcast_S1x64_S50000x64_0_1 (broadcastInDim S1x64 ![1] bcast_S64_S1x64_1 (Host.rsqrt (addf (Host.divf (F := Ideal) (Host.reduceAdd (F := Ideal) (mulf (res_main_v409 (F := Ideal) V0) (res_main_v409 (F := Ideal) V0)) (constant (F := Ideal) S_ .f32 0x00000000#32) reducesTo_S50000x64_S64_d0 h_S_) (broadcastInDim S64 ![] bcast_S_S64 (constant (F := Ideal) S_ .f32 0x47435000#32))) (broadcastInDim S64 ![] bcast_S_S64 (constant (F := Ideal) S_ .f32 0x3727C5AC#32))))))) (broadcastInDim S50000x64 ![0, 1] bcast_S1x64_S50000x64_0_1 (broadcastInDim S1x64 ![1] bcast_S64_S1x64_1 (shapeCast S64 (extractStridedSlice S1x64 ![7, 0] (V0 (Proc.devRef .tc main_arg8)) slices_S8x64_S1x64_7_0) shapeCasts_S1x64_S64)))) (broadcastInDim S50000x64 ![0, 1] bcast_S1x64_S50000x64_0_1 (broadcastInDim S1x64 ![1] bcast_S64_S1x64_1 (shapeCast S64 (extractStridedSlice S1x64 ![7, 0] (V0 (Proc.devRef .tc main_arg9)) slices_S8x64_S1x64_7_0) shapeCasts_S1x64_S64)))))
    = bnStep (res_main_v399 (F := Ideal) V0) (rowOf (vecSlice8 ![7, 0] slices_S8x64_S1x64_7_0 (V0 (Proc.devRef .tc main_arg8)))) (rowOf (vecSlice8 ![7, 0] slices_S8x64_S1x64_7_0 (V0 (Proc.devRef .tc main_arg9)))) := by
  unfold res_main_v409 res_main_v406
  exact bn_ref _ _ _ hr

/-! ## The result -/

set_option maxRecDepth 8192 in
/-- The program's result is the projection of layer 7's output. -/
theorem final (hr : AllReal (S := S50000x64) (res_main_v399 (F := Ideal) V0)) :
    addf (Host.dotGeneral (φ₂ := .f32) dot_S50000x64_S64x200_S50000x200_1_0_0_1_n_n none
        (Host.tanh (addf (mulf (mulf (subf (res_main_v399 (F := Ideal) V0) (broadcastInDim S50000x64 ![0, 1] bcast_S1x64_S50000x64_0_1 (broadcastInDim S1x64 ![1] bcast_S64_S1x64_1 (res_main_v406 (F := Ideal) V0)))) (broadcastInDim S50000x64 ![0, 1] bcast_S1x64_S50000x64_0_1 (broadcastInDim S1x64 ![1] bcast_S64_S1x64_1 (Host.rsqrt (addf (Host.divf (F := Ideal) (Host.reduceAdd (F := Ideal) (mulf (res_main_v409 (F := Ideal) V0) (res_main_v409 (F := Ideal) V0)) (constant (F := Ideal) S_ .f32 0x00000000#32) reducesTo_S50000x64_S64_d0 h_S_) (broadcastInDim S64 ![] bcast_S_S64 (constant (F := Ideal) S_ .f32 0x47435000#32))) (broadcastInDim S64 ![] bcast_S_S64 (constant (F := Ideal) S_ .f32 0x3727C5AC#32))))))) (broadcastInDim S50000x64 ![0, 1] bcast_S1x64_S50000x64_0_1 (broadcastInDim S1x64 ![1] bcast_S64_S1x64_1 (shapeCast S64 (extractStridedSlice S1x64 ![7, 0] (V0 (Proc.devRef .tc main_arg8)) slices_S8x64_S1x64_7_0) shapeCasts_S1x64_S64)))) (broadcastInDim S50000x64 ![0, 1] bcast_S1x64_S50000x64_0_1 (broadcastInDim S1x64 ![1] bcast_S64_S1x64_1 (shapeCast S64 (extractStridedSlice S1x64 ![7, 0] (V0 (Proc.devRef .tc main_arg9)) slices_S8x64_S1x64_7_0) shapeCasts_S1x64_S64)))))
        (transpose S64x200 [1, 0] (V0 (Proc.devRef .tc main_arg10) : FVec Ideal S200x64 .f32) transposes_S200x64_S64x200_1_0))
      (broadcastInDim S50000x200 ![0, 1] bcast_S1x200_S50000x200_0_1 (broadcastInDim S1x200 ![1] bcast_S200_S1x200_1 (V0 (Proc.devRef .tc main_arg11))))
    = proj (bnStep (res_main_v399 (F := Ideal) V0) (rowOf (vecSlice8 ![7, 0] slices_S8x64_S1x64_7_0 (V0 (Proc.devRef .tc main_arg8)))) (rowOf (vecSlice8 ![7, 0] slices_S8x64_S1x64_7_0 (V0 (Proc.devRef .tc main_arg9))))) (V0 (Proc.devRef .tc main_arg10)) (rowOf (V0 (Proc.devRef .tc main_arg11))) := by
  rw [out7 V0 hr]
  exact proj_ref _ _ _

end Cert.Layer.Ref

end
-- ==== Proof.HostFnBridge.lean ====
/-
  The kernel's and the reference's host operations are the same functions.

  Both programs name the same shapes (the same literals), the same gather and scatter dimension numbers and the same
  slices and reshapes; they differ only in which proofs of the side conditions they carry, and a proof of a proposition
  is equal to any other. So each host function of the one program, at that program's proved side conditions, is the
  corresponding function of the other.
-/
import proofs.«147565_j9259949490665_1_alg».proof.Proof.KHostFn
import proofs.«147565_j9259949490665_1_alg».proof.Proof.RHostFn
import proofs.«147565_j9259949490665_1_alg».proof.Proof.Gen.KernelIdeal
import proofs.«147565_j9259949490665_1_alg».proof.Proof.Gen.ReferenceIdeal

noncomputable section

namespace Cert.HostFnBridge

open Idealize.ShloMosaic

/-- The row of the edge list is the same function in both programs. -/
theorem idxRow_eq (off : Fin 2 → Nat) (hK : Cert.KernelIdeal.S2x800000.Slices off Cert.KernelIdeal.S1x800000)
    (hR : Cert.ReferenceIdeal.S2x800000.Slices off Cert.ReferenceIdeal.S1x800000) (ei : IVec Cert.KernelIdeal.S2x800000 32) :
    @Cert.KernelIdeal.HostFn.idxRow Cert.KernelIdeal.Gen.facts off hK ei
      = @Cert.ReferenceIdeal.HostFn.idxRow Cert.ReferenceIdeal.Gen.facts off hR ei := rfl

/-- The source column is the same function in both programs. -/
theorem srcCol_eq : @Cert.KernelIdeal.HostFn.srcCol Cert.KernelIdeal.Gen.facts
    = @Cert.ReferenceIdeal.HostFn.srcCol Cert.ReferenceIdeal.Gen.facts := rfl

/-- The target column is the same function in both programs. -/
theorem dstCol_eq : @Cert.KernelIdeal.HostFn.dstCol Cert.KernelIdeal.Gen.facts
    = @Cert.ReferenceIdeal.HostFn.dstCol Cert.ReferenceIdeal.Gen.facts := rfl

/-- The aggregation of 8 features is the same function in both programs. -/
theorem agg8_eq : @Cert.KernelIdeal.HostFn.agg8 Cert.KernelIdeal.Gen.facts
    = @Cert.ReferenceIdeal.HostFn.agg8 Cert.ReferenceIdeal.Gen.facts := rfl

/-- The aggregation of 64 features is the same function in both programs. -/
theorem agg64_eq : @Cert.KernelIdeal.HostFn.agg64 Cert.KernelIdeal.Gen.facts
    = @Cert.ReferenceIdeal.HostFn.agg64 Cert.ReferenceIdeal.Gen.facts := rfl

/-- A matrix of the stack is the same function in both programs. -/
theorem matSlice_eq (off : Fin 3 → Nat) (hK : Cert.KernelIdeal.S7x64x64.Slices off Cert.KernelIdeal.S1x64x64)
    (hR : Cert.ReferenceIdeal.S7x64x64.Slices off Cert.ReferenceIdeal.S1x64x64) (w : FVec Ideal Cert.KernelIdeal.S7x64x64 .f32) :
    @Cert.KernelIdeal.HostFn.matSlice Cert.KernelIdeal.Gen.facts off hK w
      = @Cert.ReferenceIdeal.HostFn.matSlice Cert.ReferenceIdeal.Gen.facts off hR w := rfl

/-- A row of the stack of seven is the same function in both programs. -/
theorem vecSlice7_eq (off : Fin 2 → Nat) (hK : Cert.KernelIdeal.S7x64.Slices off Cert.KernelIdeal.S1x64)
    (hR : Cert.ReferenceIdeal.S7x64.Slices off Cert.ReferenceIdeal.S1x64) (w : FVec Ideal Cert.KernelIdeal.S7x64 .f32) :
    @Cert.KernelIdeal.HostFn.vecSlice7 Cert.KernelIdeal.Gen.facts off hK w
      = @Cert.ReferenceIdeal.HostFn.vecSlice7 Cert.ReferenceIdeal.Gen.facts off hR w := rfl

/-- A row of the stack of eight is the same function in both programs. -/
theorem vecSlice8_eq (off : Fin 2 → Nat) (hK : Cert.KernelIdeal.S8x64.Slices off Cert.KernelIdeal.S1x64)
    (hR : Cert.ReferenceIdeal.S8x64.Slices off Cert.ReferenceIdeal.S1x64) (w : FVec Ideal Cert.KernelIdeal.S8x64 .f32) :
    @Cert.KernelIdeal.HostFn.vecSlice8 Cert.KernelIdeal.Gen.facts off hK w
      = @Cert.ReferenceIdeal.HostFn.vecSlice8 Cert.ReferenceIdeal.Gen.facts off hR w := rfl

end Cert.HostFnBridge

end
-- ==== Proof.LibRealReindex.lean ====
/-
  Real entries are kept by re-indexings, and a broadcast zero has real entries. Nothing here mentions a program.

  A reshape, a unit-stride slice and a broadcast along axes only re-index: an entry of the result is an entry of the
  operand, so an array all of whose entries are real numbers stays one. The scalar constant 0.0 broadcast to any
  shape has every entry the real number 0.
-/
import proofs.«147565_j9259949490665_1_alg».proof.Proof.LibRealEntries

noncomputable section

namespace Cert.LibRealReindex

open Idealize.ShloMosaic Cert.LibRealEntries

/-- A reshape of an array of real numbers: entry j is the operand's entry at the index with the same row-major position. -/
theorem allReal_shapeCast {s t : Shape} (x : s.Idx → EReal) (h : s.ShapeCasts t) (hx : AllReal x) :
    AllReal (shapeCast t x h) :=
  fun j => hx (Shape.reshapeEquiv h j)

/-- A unit-stride slice of an array of real numbers: entry j is the operand's entry at off + j. -/
theorem allReal_extractStridedSlice {s t : Shape} (off : Fin s.rank → Nat) (x : s.Idx → EReal) (h : s.Slices off t)
    (hx : AllReal x) : AllReal (extractStridedSlice t off x h) := by
  intro j
  unfold extractStridedSlice
  exact hx _

/-- A broadcast along axes of an array of real numbers: entry j is an entry of the operand. -/
theorem allReal_broadcastInDim {s t : Shape} (dims : Fin s.rank → Fin t.rank) (h : s.BroadcastsInDim t dims)
    (x : s.Idx → EReal) (hx : AllReal x) : AllReal (broadcastInDim t dims h x) := by
  intro j
  unfold broadcastInDim
  exact hx _

/-- The scalar constant 0.0 broadcast to any shape: every entry is the real number 0. -/
theorem allReal_zero {T : Shape} (h : (⟨0, ![]⟩ : Shape).BroadcastsInDim T ![]) :
    AllReal (broadcastInDim T ![] h (constant (F := Ideal) (⟨0, ![]⟩ : Shape) .f32 0x00000000#32)) := by
  intro j
  unfold broadcastInDim
  exact real_zero

end Cert.LibRealReindex

end
-- ==== Proof.KHostReal.lean ====
/-
  The host operations between the launches keep real entries.

  An aggregation is an accumulating scatter, into the zero array, of a gather of the feature array: an entry of the
  result is 0 plus a finite sum of entries of the feature array, so it is a real number when they all are, whatever the
  edge list holds. A slice of a stacked parameter array, reshaped, only re-indexes the array.
-/
import proofs.«147565_j9259949490665_1_alg».proof.Proof.KHostFn
import proofs.«147565_j9259949490665_1_alg».proof.Proof.LibRealEntries
import proofs.«147565_j9259949490665_1_alg».proof.Proof.LibRealReindex

noncomputable section

namespace Cert.KernelIdeal.HostFn

open Idealize.ShloMosaic Cert.KernelIdeal
open Cert.LibRealEntries Cert.LibRealReindex

variable [Cert.KernelIdeal.Facts]
open Cert.KernelIdeal.Facts₀ Cert.KernelIdeal.Facts

/-- The aggregation of an array of 8 real features has real entries. -/
theorem allReal_agg8 (v1 v3 : IVec S800000 32) {x : FVec Ideal S50000x8 .f32} (hx : AllReal x) :
    AllReal (agg8 v1 v3 x) :=
  allReal_scatterAdd _ _ _ _ (allReal_zero _) (allReal_gather _ x _ hx)

/-- The aggregation of an array of 64 real features has real entries. -/
theorem allReal_agg64 (v1 v3 : IVec S800000 32) {x : FVec Ideal S50000x64 .f32} (hx : AllReal x) :
    AllReal (agg64 v1 v3 x) :=
  allReal_scatterAdd _ _ _ _ (allReal_zero _) (allReal_gather _ x _ hx)

/-- A 64×64 matrix of a stack of real matrices has real entries. -/
theorem allReal_matSlice (off : Fin 3 → Nat) (h : S7x64x64.Slices off S1x64x64) {w : FVec Ideal S7x64x64 .f32}
    (hw : AllReal w) : AllReal (matSlice off h w) :=
  allReal_shapeCast _ _ (allReal_extractStridedSlice off w h hw)

/-- A row of a stack of seven real rows has real entries. -/
theorem allReal_vecSlice7 (off : Fin 2 → Nat) (h : S7x64.Slices off S1x64) {w : FVec Ideal S7x64 .f32}
    (hw : AllReal w) : AllReal (vecSlice7 off h w) :=
  allReal_shapeCast _ _ (allReal_extractStridedSlice off w h hw)

/-- A row of a stack of eight real rows has real entries. -/
theorem allReal_vecSlice8 (off : Fin 2 → Nat) (h : S8x64.Slices off S1x64) {w : FVec Ideal S8x64 .f32}
    (hw : AllReal w) : AllReal (vecSlice8 off h w) :=
  allReal_shapeCast _ _ (allReal_extractStridedSlice off w h hw)

end Cert.KernelIdeal.HostFn

end
-- ==== Proof.PreReal.lean ====
/-
  From the finiteness precondition to real entries.

  The precondition says, of each float argument x, that the conjunction over all its indices of |x| < +∞ holds
  (|x| = max(x, −x), +∞ written as the bit pattern 0x7F800000), and that the eleven conjunctions hold together.
  An extended real with max(x, −x) < +∞ is neither infinity, hence a real number: so every entry of every float
  argument is a real number.
-/
import proofs.«147565_j9259949490665_1_alg».proof.Defs
import proofs.«147565_j9259949490665_1_alg».proof.Proof.Gen.Pre_finite_inputs
import proofs.«147565_j9259949490665_1_alg».proof.Proof.LibRealEntries
import Idealize.ShloMosaic.Lib.ReduceAll
import Idealize.ShloMosaic.Lib.ValueIdx

noncomputable section

namespace Cert.PreReal

open Idealize.ShloMosaic Idealize.SL.Sem
open Cert.LibRealEntries

/-- The pattern 0x7F800000 (sign 0, exponent all ones, significand 0) denotes +∞. -/
theorem ofBits_inf : Ideal.ofBits .f32 0x7F800000#32 = (⊤ : EReal) := by
  simp [Ideal.ofBits, Ideal.ieee]

/-- An extended real x with max(x, −x) < +∞ is a real number: x = +∞ gives max = +∞, and x = −∞ gives −x = +∞. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- The rank-0 shape has one index. -/
instance subsingleton_scalarIdx : Subsingleton (⟨0, ![]⟩ : Shape).Idx := ⟨fun a b => funext fun d => d.elim0⟩

/-- If |v| < +∞ holds at every index of an array v — the comparison being against the broadcast of the scalar
    constant 0x7F800000 — then every entry of v is a real number. -/
theorem allReal_of_abs_olt_inf {S : Shape} (hb : (⟨0, ![]⟩ : Shape).BroadcastsInDim S ![]) (v : FVec Ideal S .f32)
    (h : ∀ i, cmpf .olt (Host.absf v)
      (broadcastInDim S ![] hb (constant (F := Ideal) (⟨0, ![]⟩ : Shape) .f32 0x7F800000#32)) i = 1#1) :
    AllReal v := by
  intro i
  have hi := h i
  change Ideal.cmp .olt (max (v i) (-(v i))) (Ideal.ofBits .f32 0x7F800000#32) = 1#1 at hi
  rw [ofBits_inf] at hi
  unfold Ideal.cmp at hi
  refine real_of_abs_lt_top (v i) ?_
  by_contra hn
  simp [hn] at hi

open Cert.Pre_finite_inputs in
/-- The precondition's function, at arbitrary arguments: if it answers 1 then every float argument has only real
    entries. The answer is the conjunction of eleven conjunctions-over-all-indices of |x| < +∞, one per float
    argument; a conjunction that is 1 has every conjunct 1. -/
theorem allReal_of_fn [inst : Cert.Pre_finite_inputs.Facts]
    (a0 : FVec Ideal S50000x8 .f32) (a1 : IVec S2x800000 32) (a2 : FVec Ideal S64x8 .f32) (a3 : FVec Ideal S64x8 .f32)
    (a4 : FVec Ideal S64 .f32) (a5 : FVec Ideal S7x64x64 .f32) (a6 : FVec Ideal S7x64x64 .f32)
    (a7 : FVec Ideal S7x64 .f32) (a8 : FVec Ideal S8x64 .f32) (a9 : FVec Ideal S8x64 .f32)
    (a10 : FVec Ideal S200x64 .f32) (a11 : FVec Ideal S200 .f32)
    (h : Cert.Pre_finite_inputs.fn (F := Ideal) a0 a1 a2 a3 a4 a5 a6 a7 a8 a9 a10 a11 = (fun _ => 1#1)) :
    AllReal a0 ∧ AllReal a2 ∧ AllReal a3 ∧ AllReal a4 ∧ AllReal a5 ∧ AllReal a6 ∧ AllReal a7 ∧ AllReal a8
      ∧ AllReal a9 ∧ AllReal a10 ∧ AllReal a11 := by
  have h0 := congrFun h ValueIdx.ix0
  dsimp only [Cert.Pre_finite_inputs.fn, Cert.Pre_finite_inputs.fn_part1, Cert.Pre_finite_inputs.fn_part2,
    Cert.Pre_finite_inputs.fn_part3, andi] at h0
  simp only [IntOp.andi_eq_one] at h0
  obtain ⟨⟨⟨⟨⟨⟨⟨⟨⟨⟨e0, e2⟩, e3⟩, e4⟩, e5⟩, e6⟩, e7⟩, e8⟩, e9⟩, e10⟩, e11⟩ := h0
  exact ⟨allReal_of_abs_olt_inf _ a0 (Host.reduce_andi_all _ _ _ _ _ e0),
    allReal_of_abs_olt_inf _ a2 (Host.reduce_andi_all _ _ _ _ _ e2),
    allReal_of_abs_olt_inf _ a3 (Host.reduce_andi_all _ _ _ _ _ e3),
    allReal_of_abs_olt_inf _ a4 (Host.reduce_andi_all _ _ _ _ _ e4),
    allReal_of_abs_olt_inf _ a5 (Host.reduce_andi_all _ _ _ _ _ e5),
    allReal_of_abs_olt_inf _ a6 (Host.reduce_andi_all _ _ _ _ _ e6),
    allReal_of_abs_olt_inf _ a7 (Host.reduce_andi_all _ _ _ _ _ e7),
    allReal_of_abs_olt_inf _ a8 (Host.reduce_andi_all _ _ _ _ _ e8),
    allReal_of_abs_olt_inf _ a9 (Host.reduce_andi_all _ _ _ _ _ e9),
    allReal_of_abs_olt_inf _ a10 (Host.reduce_andi_all _ _ _ _ _ e10),
    allReal_of_abs_olt_inf _ a11 (Host.reduce_andi_all _ _ _ _ _ e11)⟩

/-- Under the precondition every entry of every float argument of the program is a real number, on every device. -/
theorem allReal_args (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    AllReal (m ((c.tc : Thread Cert.KernelIdeal.nD Cert.KernelIdeal.τ).loc Cert.KernelIdeal.main_arg0))
    ∧ AllReal (m ((c.tc : Thread Cert.KernelIdeal.nD Cert.KernelIdeal.τ).loc Cert.KernelIdeal.main_arg2))
    ∧ AllReal (m ((c.tc : Thread Cert.KernelIdeal.nD Cert.KernelIdeal.τ).loc Cert.KernelIdeal.main_arg3))
    ∧ AllReal (m ((c.tc : Thread Cert.KernelIdeal.nD Cert.KernelIdeal.τ).loc Cert.KernelIdeal.main_arg4))
    ∧ AllReal (m ((c.tc : Thread Cert.KernelIdeal.nD Cert.KernelIdeal.τ).loc Cert.KernelIdeal.main_arg5))
    ∧ AllReal (m ((c.tc : Thread Cert.KernelIdeal.nD Cert.KernelIdeal.τ).loc Cert.KernelIdeal.main_arg6))
    ∧ AllReal (m ((c.tc : Thread Cert.KernelIdeal.nD Cert.KernelIdeal.τ).loc Cert.KernelIdeal.main_arg7))
    ∧ AllReal (m ((c.tc : Thread Cert.KernelIdeal.nD Cert.KernelIdeal.τ).loc Cert.KernelIdeal.main_arg8))
    ∧ AllReal (m ((c.tc : Thread Cert.KernelIdeal.nD Cert.KernelIdeal.τ).loc Cert.KernelIdeal.main_arg9))
    ∧ AllReal (m ((c.tc : Thread Cert.KernelIdeal.nD Cert.KernelIdeal.τ).loc Cert.KernelIdeal.main_arg10))
    ∧ AllReal (m ((c.tc : Thread Cert.KernelIdeal.nD Cert.KernelIdeal.τ).loc Cert.KernelIdeal.main_arg11)) :=
  allReal_of_fn (inst := Cert.Pre_finite_inputs.Gen.facts) _ _ _ _ _ _ _ _ _ _ _ _ (h c)

end Cert.PreReal

end
-- ==== Proof.Bridge.lean ====
/-
  The reference program's result is the kernel program's network function of the kernel program's arguments.

  Both programs are given the same twelve arrays, and under the precondition the eleven float arrays consist of real
  numbers.  Layer by layer: the reference's pre-activation is the dense step of the aggregated input and the input,
  with that layer's slices of the stacked parameters; the two programs spell the aggregation and the slices with the
  same operations, so this is the network function's pre-activation once the inputs agree.  A dense step of real arrays
  is real (the aggregation adds finitely many entries; a slice re-indexes), and a layer's output is real whatever it
  is given, so every pre-activation is real and the reference's normalising step — whose variance is the mean of the
  squared deviations — is the network function's, whose variance is the mean of the squares minus the squared mean.
  Hence each layer's output is the network function's, and the projection of the last one is its result.
-/
import proofs.«147565_j9259949490665_1_alg».proof.Proof.KNet
import proofs.«147565_j9259949490665_1_alg».proof.Proof.RefChain
import proofs.«147565_j9259949490665_1_alg».proof.Proof.HostFnBridge
import proofs.«147565_j9259949490665_1_alg».proof.Proof.KHostReal
import proofs.«147565_j9259949490665_1_alg».proof.Proof.PreReal
import proofs.«147565_j9259949490665_1_alg».proof.Proof.LibLayerReal

noncomputable section

namespace Cert.Bridge

open Idealize.ShloMosaic Idealize.ShloMosaic.TcCoe Idealize.SL.Sem Idealize.ShloMosaic.StableHlo
open Cert.KernelIdeal.NetValue Cert.Layer Cert.Layer.Ref Cert.Row Cert.LibRealEntries

set_option maxRecDepth 8192 in
/-- The chain of the eight layers, for a reference valuation whose twelve arguments are the kernel program's. -/
theorem chain (V0 : Valuation Cert.ReferenceIdeal.τ Cert.ReferenceIdeal.sig (Elt Ideal))
    (m : (ℓ : Loc Cert.KernelIdeal.nD Cert.KernelIdeal.τ Cert.KernelIdeal.sig) → Buf (Elt Ideal) ℓ) (c : Dev Cert.KernelIdeal.nD)
    (e0 : (V0 (Proc.devRef .tc Cert.ReferenceIdeal.main_arg0)) = (m ((c.tc : Thread Cert.KernelIdeal.nD Cert.KernelIdeal.τ).loc Cert.KernelIdeal.main_arg0)))
    (e1 : (V0 (Proc.devRef .tc Cert.ReferenceIdeal.main_arg1)) = (m ((c.tc : Thread Cert.KernelIdeal.nD Cert.KernelIdeal.τ).loc Cert.KernelIdeal.main_arg1)))
    (e2 : (V0 (Proc.devRef .tc Cert.ReferenceIdeal.main_arg2)) = (m ((c.tc : Thread Cert.KernelIdeal.nD Cert.KernelIdeal.τ).loc Cert.KernelIdeal.main_arg2)))
    (e3 : (V0 (Proc.devRef .tc Cert.ReferenceIdeal.main_arg3)) = (m ((c.tc : Thread Cert.KernelIdeal.nD Cert.KernelIdeal.τ).loc Cert.KernelIdeal.main_arg3)))
    (e4 : (V0 (Proc.devRef .tc Cert.ReferenceIdeal.main_arg4)) = (m ((c.tc : Thread Cert.KernelIdeal.nD Cert.KernelIdeal.τ).loc Cert.KernelIdeal.main_arg4)))
    (e5 : (V0 (Proc.devRef .tc Cert.ReferenceIdeal.main_arg5)) = (m ((c.tc : Thread Cert.KernelIdeal.nD Cert.KernelIdeal.τ).loc Cert.KernelIdeal.main_arg5)))
    (e6 : (V0 (Proc.devRef .tc Cert.ReferenceIdeal.main_arg6)) = (m ((c.tc : Thread Cert.KernelIdeal.nD Cert.KernelIdeal.τ).loc Cert.KernelIdeal.main_arg6)))
    (e7 : (V0 (Proc.devRef .tc Cert.ReferenceIdeal.main_arg7)) = (m ((c.tc : Thread Cert.KernelIdeal.nD Cert.KernelIdeal.τ).loc Cert.KernelIdeal.main_arg7)))
    (e8 : (V0 (Proc.devRef .tc Cert.ReferenceIdeal.main_arg8)) = (m ((c.tc : Thread Cert.KernelIdeal.nD Cert.KernelIdeal.τ).loc Cert.KernelIdeal.main_arg8)))
    (e9 : (V0 (Proc.devRef .tc Cert.ReferenceIdeal.main_arg9)) = (m ((c.tc : Thread Cert.KernelIdeal.nD Cert.KernelIdeal.τ).loc Cert.KernelIdeal.main_arg9)))
    (e10 : (V0 (Proc.devRef .tc Cert.ReferenceIdeal.main_arg10)) = (m ((c.tc : Thread Cert.KernelIdeal.nD Cert.KernelIdeal.τ).loc Cert.KernelIdeal.main_arg10)))
    (e11 : (V0 (Proc.devRef .tc Cert.ReferenceIdeal.main_arg11)) = (m ((c.tc : Thread Cert.KernelIdeal.nD Cert.KernelIdeal.τ).loc Cert.KernelIdeal.main_arg11)))
    (r0 : AllReal (m ((c.tc : Thread Cert.KernelIdeal.nD Cert.KernelIdeal.τ).loc Cert.KernelIdeal.main_arg0)))
    (r2 : AllReal (m ((c.tc : Thread Cert.KernelIdeal.nD Cert.KernelIdeal.τ).loc Cert.KernelIdeal.main_arg2)))
    (r3 : AllReal (m ((c.tc : Thread Cert.KernelIdeal.nD Cert.KernelIdeal.τ).loc Cert.KernelIdeal.main_arg3)))
    (r4 : AllReal (m ((c.tc : Thread Cert.KernelIdeal.nD Cert.KernelIdeal.τ).loc Cert.KernelIdeal.main_arg4)))
    (r5 : AllReal (m ((c.tc : Thread Cert.KernelIdeal.nD Cert.KernelIdeal.τ).loc Cert.KernelIdeal.main_arg5)))
    (r6 : AllReal (m ((c.tc : Thread Cert.KernelIdeal.nD Cert.KernelIdeal.τ).loc Cert.KernelIdeal.main_arg6)))
    (r7 : AllReal (m ((c.tc : Thread Cert.KernelIdeal.nD Cert.KernelIdeal.τ).loc Cert.KernelIdeal.main_arg7)))
    (r8 : AllReal (m ((c.tc : Thread Cert.KernelIdeal.nD Cert.KernelIdeal.τ).loc Cert.KernelIdeal.main_arg8)))
    (r9 : AllReal (m ((c.tc : Thread Cert.KernelIdeal.nD Cert.KernelIdeal.τ).loc Cert.KernelIdeal.main_arg9)))
    (r10 : AllReal (m ((c.tc : Thread Cert.KernelIdeal.nD Cert.KernelIdeal.τ).loc Cert.KernelIdeal.main_arg10)))
    (r11 : AllReal (m ((c.tc : Thread Cert.KernelIdeal.nD Cert.KernelIdeal.τ).loc Cert.KernelIdeal.main_arg11)))
    : AllReal (S := Cert.ReferenceIdeal.S50000x64) (Cert.ReferenceIdeal.Value.res_main_v399 (F := Ideal) V0)
      ∧ proj (bnStep (Cert.ReferenceIdeal.Value.res_main_v399 (F := Ideal) V0) (rowOf (Cert.ReferenceIdeal.HostFn.vecSlice8 ![7, 0] Cert.ReferenceIdeal.Gen.slices_S8x64_S1x64_7_0 (V0 (Proc.devRef .tc Cert.ReferenceIdeal.main_arg8)))) (rowOf (Cert.ReferenceIdeal.HostFn.vecSlice8 ![7, 0] Cert.ReferenceIdeal.Gen.slices_S8x64_S1x64_7_0 (V0 (Proc.devRef .tc Cert.ReferenceIdeal.main_arg9))))) (V0 (Proc.devRef .tc Cert.ReferenceIdeal.main_arg10)) (rowOf (V0 (Proc.devRef .tc Cert.ReferenceIdeal.main_arg11)))
        = kOut m c := by
  -- the edge list's two rows
  have hs : srcIdx V0 = kv1 m c := by
    show Cert.ReferenceIdeal.HostFn.idxRow ![0, 0] Cert.ReferenceIdeal.Gen.slices_S2x800000_S1x800000_0_0 (V0 (Proc.devRef .tc Cert.ReferenceIdeal.main_arg1)) = _
    rw [e1]; rfl
  have hd : dstIdx V0 = kv3 m c := by
    show Cert.ReferenceIdeal.HostFn.idxRow ![1, 0] Cert.ReferenceIdeal.Gen.slices_S2x800000_S1x800000_1_0 (V0 (Proc.devRef .tc Cert.ReferenceIdeal.main_arg1)) = _
    rw [e1]; rfl
  -- layer 0
  have hp0 : (Cert.ReferenceIdeal.Value.res_main_v21 (F := Ideal) V0)
      = lin (Cert.KernelIdeal.HostFn.agg8 (kv1 m c) (kv3 m c) (m ((c.tc : Thread Cert.KernelIdeal.nD Cert.KernelIdeal.τ).loc Cert.KernelIdeal.main_arg0))) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (rowOf (m ((c.tc : Thread Cert.KernelIdeal.nD Cert.KernelIdeal.τ).loc Cert.KernelIdeal.main_arg4))) := by
    rw [hpre0 V0, hs, hd, e0, e2, e3, e4]; rfl
  have hr0 : AllReal (S := Cert.ReferenceIdeal.S50000x64) (Cert.ReferenceIdeal.Value.res_main_v21 (F := Ideal) V0) := by
    rw [hp0]; exact allReal_lin (Cert.KernelIdeal.HostFn.allReal_agg8 _ _ r0) r0 r2 r3 (allReal_rowOf r4)
  have o0 : (Cert.ReferenceIdeal.Value.res_main_v51 (F := Ideal) V0) = kH1 m c := by
    rw [out0 V0 hr0, hp0, e8, e9]; rfl
  -- layer 1
  have hk1 : AllReal (kH1 m c) := by
    unfold kH1 layerOf bnStep; exact allReal_bn _ _ _ _ _
  have hp1 : (Cert.ReferenceIdeal.Value.res_main_v75 (F := Ideal) V0)
      = lin (Cert.KernelIdeal.HostFn.agg64 (kv1 m c) (kv3 m c) (kH1 m c)) (kH1 m c)
          (Cert.KernelIdeal.HostFn.matSlice ![0, 0, 0] Cert.KernelIdeal.Gen.slices_S7x64x64_S1x64x64_0_0_0 (m ((c.tc : Thread Cert.KernelIdeal.nD Cert.KernelIdeal.τ).loc Cert.KernelIdeal.main_arg5)))
          (Cert.KernelIdeal.HostFn.matSlice ![0, 0, 0] Cert.KernelIdeal.Gen.slices_S7x64x64_S1x64x64_0_0_0 (m ((c.tc : Thread Cert.KernelIdeal.nD Cert.KernelIdeal.τ).loc Cert.KernelIdeal.main_arg6)))
          (rowOf (Cert.KernelIdeal.HostFn.vecSlice7 ![0, 0] Cert.KernelIdeal.Gen.slices_S7x64_S1x64_0_0 (m ((c.tc : Thread Cert.KernelIdeal.nD Cert.KernelIdeal.τ).loc Cert.KernelIdeal.main_arg7)))) := by
    rw [hpre1 V0, o0, hs, hd, e5, e6, e7]; rfl
  have hr1 : AllReal (S := Cert.ReferenceIdeal.S50000x64) (Cert.ReferenceIdeal.Value.res_main_v75 (F := Ideal) V0) := by
    rw [hp1]
    exact allReal_lin (Cert.KernelIdeal.HostFn.allReal_agg64 _ _ hk1) hk1 (Cert.KernelIdeal.HostFn.allReal_matSlice _ _ r5)
      (Cert.KernelIdeal.HostFn.allReal_matSlice _ _ r6) (allReal_rowOf (Cert.KernelIdeal.HostFn.allReal_vecSlice7 _ _ r7))
  have o1 : (Cert.ReferenceIdeal.Value.res_main_v105 (F := Ideal) V0) = kH2 m c := by
    rw [out1 V0 hr1, hp1, e8, e9]; rfl
  -- layer 2
  have hk2 : AllReal (kH2 m c) := by
    unfold kH2 layerOf bnStep; exact allReal_bn _ _ _ _ _
  have hp2 : (Cert.ReferenceIdeal.Value.res_main_v129 (F := Ideal) V0)
      = lin (Cert.KernelIdeal.HostFn.agg64 (kv1 m c) (kv3 m c) (kH2 m c)) (kH2 m c)
          (Cert.KernelIdeal.HostFn.matSlice ![1, 0, 0] Cert.KernelIdeal.Gen.slices_S7x64x64_S1x64x64_1_0_0 (m ((c.tc : Thread Cert.KernelIdeal.nD Cert.KernelIdeal.τ).loc Cert.KernelIdeal.main_arg5)))
          (Cert.KernelIdeal.HostFn.matSlice ![1, 0, 0] Cert.KernelIdeal.Gen.slices_S7x64x64_S1x64x64_1_0_0 (m ((c.tc : Thread Cert.KernelIdeal.nD Cert.KernelIdeal.τ).loc Cert.KernelIdeal.main_arg6)))
          (rowOf (Cert.KernelIdeal.HostFn.vecSlice7 ![1, 0] Cert.KernelIdeal.Gen.slices_S7x64_S1x64_1_0 (m ((c.tc : Thread Cert.KernelIdeal.nD Cert.KernelIdeal.τ).loc Cert.KernelIdeal.main_arg7)))) := by
    rw [hpre2 V0, o1, hs, hd, e5, e6, e7]; rfl
  have hr2 : AllReal (S := Cert.ReferenceIdeal.S50000x64) (Cert.ReferenceIdeal.Value.res_main_v129 (F := Ideal) V0) := by
    rw [hp2]
    exact allReal_lin (Cert.KernelIdeal.HostFn.allReal_agg64 _ _ hk2) hk2 (Cert.KernelIdeal.HostFn.allReal_matSlice _ _ r5)
      (Cert.KernelIdeal.HostFn.allReal_matSlice _ _ r6) (allReal_rowOf (Cert.KernelIdeal.HostFn.allReal_vecSlice7 _ _ r7))
  have o2 : (Cert.ReferenceIdeal.Value.res_main_v159 (F := Ideal) V0) = kH3 m c := by
    rw [out2 V0 hr2, hp2, e8, e9]; rfl
  -- layer 3
  have hk3 : AllReal (kH3 m c) := by
    unfold kH3 layerOf bnStep; exact allReal_bn _ _ _ _ _
  have hp3 : (Cert.ReferenceIdeal.Value.res_main_v183 (F := Ideal) V0)
      = lin (Cert.KernelIdeal.HostFn.agg64 (kv1 m c) (kv3 m c) (kH3 m c)) (kH3 m c)
          (Cert.KernelIdeal.HostFn.matSlice ![2, 0, 0] Cert.KernelIdeal.Gen.slices_S7x64x64_S1x64x64_2_0_0 (m ((c.tc : Thread Cert.KernelIdeal.nD Cert.KernelIdeal.τ).loc Cert.KernelIdeal.main_arg5)))
          (Cert.KernelIdeal.HostFn.matSlice ![2, 0, 0] Cert.KernelIdeal.Gen.slices_S7x64x64_S1x64x64_2_0_0 (m ((c.tc : Thread Cert.KernelIdeal.nD Cert.KernelIdeal.τ).loc Cert.KernelIdeal.main_arg6)))
          (rowOf (Cert.KernelIdeal.HostFn.vecSlice7 ![2, 0] Cert.KernelIdeal.Gen.slices_S7x64_S1x64_2_0 (m ((c.tc : Thread Cert.KernelIdeal.nD Cert.KernelIdeal.τ).loc Cert.KernelIdeal.main_arg7)))) := by
    rw [hpre3 V0, o2, hs, hd, e5, e6, e7]; rfl
  have hr3 : AllReal (S := Cert.ReferenceIdeal.S50000x64) (Cert.ReferenceIdeal.Value.res_main_v183 (F := Ideal) V0) := by
    rw [hp3]
    exact allReal_lin (Cert.KernelIdeal.HostFn.allReal_agg64 _ _ hk3) hk3 (Cert.KernelIdeal.HostFn.allReal_matSlice _ _ r5)
      (Cert.KernelIdeal.HostFn.allReal_matSlice _ _ r6) (allReal_rowOf (Cert.KernelIdeal.HostFn.allReal_vecSlice7 _ _ r7))
  have o3 : (Cert.ReferenceIdeal.Value.res_main_v213 (F := Ideal) V0) = kH4 m c := by
    rw [out3 V0 hr3, hp3, e8, e9]; rfl
  -- layer 4
  have hk4 : AllReal (kH4 m c) := by
    unfold kH4 layerOf bnStep; exact allReal_bn _ _ _ _ _
  have hp4 : (Cert.ReferenceIdeal.Value.res_main_v237 (F := Ideal) V0)
      = lin (Cert.KernelIdeal.HostFn.agg64 (kv1 m c) (kv3 m c) (kH4 m c)) (kH4 m c)
          (Cert.KernelIdeal.HostFn.matSlice ![3, 0, 0] Cert.KernelIdeal.Gen.slices_S7x64x64_S1x64x64_3_0_0 (m ((c.tc : Thread Cert.KernelIdeal.nD Cert.KernelIdeal.τ).loc Cert.KernelIdeal.main_arg5)))
          (Cert.KernelIdeal.HostFn.matSlice ![3, 0, 0] Cert.KernelIdeal.Gen.slices_S7x64x64_S1x64x64_3_0_0 (m ((c.tc : Thread Cert.KernelIdeal.nD Cert.KernelIdeal.τ).loc Cert.KernelIdeal.main_arg6)))
          (rowOf (Cert.KernelIdeal.HostFn.vecSlice7 ![3, 0] Cert.KernelIdeal.Gen.slices_S7x64_S1x64_3_0 (m ((c.tc : Thread Cert.KernelIdeal.nD Cert.KernelIdeal.τ).loc Cert.KernelIdeal.main_arg7)))) := by
    rw [hpre4 V0, o3, hs, hd, e5, e6, e7]; rfl
  have hr4 : AllReal (S := Cert.ReferenceIdeal.S50000x64) (Cert.ReferenceIdeal.Value.res_main_v237 (F := Ideal) V0) := by
    rw [hp4]
    exact allReal_lin (Cert.KernelIdeal.HostFn.allReal_agg64 _ _ hk4) hk4 (Cert.KernelIdeal.HostFn.allReal_matSlice _ _ r5)
      (Cert.KernelIdeal.HostFn.allReal_matSlice _ _ r6) (allReal_rowOf (Cert.KernelIdeal.HostFn.allReal_vecSlice7 _ _ r7))
  have o4 : (Cert.ReferenceIdeal.Value.res_main_v267 (F := Ideal) V0) = kH5 m c := by
    rw [out4 V0 hr4, hp4, e8, e9]; rfl
  -- layer 5
  have hk5 : AllReal (kH5 m c) := by
    unfold kH5 layerOf bnStep; exact allReal_bn _ _ _ _ _
  have hp5 : (Cert.ReferenceIdeal.Value.res_main_v291 (F := Ideal) V0)
      = lin (Cert.KernelIdeal.HostFn.agg64 (kv1 m c) (kv3 m c) (kH5 m c)) (kH5 m c)
          (Cert.KernelIdeal.HostFn.matSlice ![4, 0, 0] Cert.KernelIdeal.Gen.slices_S7x64x64_S1x64x64_4_0_0 (m ((c.tc : Thread Cert.KernelIdeal.nD Cert.KernelIdeal.τ).loc Cert.KernelIdeal.main_arg5)))
          (Cert.KernelIdeal.HostFn.matSlice ![4, 0, 0] Cert.KernelIdeal.Gen.slices_S7x64x64_S1x64x64_4_0_0 (m ((c.tc : Thread Cert.KernelIdeal.nD Cert.KernelIdeal.τ).loc Cert.KernelIdeal.main_arg6)))
          (rowOf (Cert.KernelIdeal.HostFn.vecSlice7 ![4, 0] Cert.KernelIdeal.Gen.slices_S7x64_S1x64_4_0 (m ((c.tc : Thread Cert.KernelIdeal.nD Cert.KernelIdeal.τ).loc Cert.KernelIdeal.main_arg7)))) := by
    rw [hpre5 V0, o4, hs, hd, e5, e6, e7]; rfl
  have hr5 : AllReal (S := Cert.ReferenceIdeal.S50000x64) (Cert.ReferenceIdeal.Value.res_main_v291 (F := Ideal) V0) := by
    rw [hp5]
    exact allReal_lin (Cert.KernelIdeal.HostFn.allReal_agg64 _ _ hk5) hk5 (Cert.KernelIdeal.HostFn.allReal_matSlice _ _ r5)
      (Cert.KernelIdeal.HostFn.allReal_matSlice _ _ r6) (allReal_rowOf (Cert.KernelIdeal.HostFn.allReal_vecSlice7 _ _ r7))
  have o5 : (Cert.ReferenceIdeal.Value.res_main_v321 (F := Ideal) V0) = kH6 m c := by
    rw [out5 V0 hr5, hp5, e8, e9]; rfl
  -- layer 6
  have hk6 : AllReal (kH6 m c) := by
    unfold kH6 layerOf bnStep; exact allReal_bn _ _ _ _ _
  have hp6 : (Cert.ReferenceIdeal.Value.res_main_v345 (F := Ideal) V0)
      = lin (Cert.KernelIdeal.HostFn.agg64 (kv1 m c) (kv3 m c) (kH6 m c)) (kH6 m c)
          (Cert.KernelIdeal.HostFn.matSlice ![5, 0, 0] Cert.KernelIdeal.Gen.slices_S7x64x64_S1x64x64_5_0_0 (m ((c.tc : Thread Cert.KernelIdeal.nD Cert.KernelIdeal.τ).loc Cert.KernelIdeal.main_arg5)))
          (Cert.KernelIdeal.HostFn.matSlice ![5, 0, 0] Cert.KernelIdeal.Gen.slices_S7x64x64_S1x64x64_5_0_0 (m ((c.tc : Thread Cert.KernelIdeal.nD Cert.KernelIdeal.τ).loc Cert.KernelIdeal.main_arg6)))
          (rowOf (Cert.KernelIdeal.HostFn.vecSlice7 ![5, 0] Cert.KernelIdeal.Gen.slices_S7x64_S1x64_5_0 (m ((c.tc : Thread Cert.KernelIdeal.nD Cert.KernelIdeal.τ).loc Cert.KernelIdeal.main_arg7)))) := by
    rw [hpre6 V0, o5, hs, hd, e5, e6, e7]; rfl
  have hr6 : AllReal (S := Cert.ReferenceIdeal.S50000x64) (Cert.ReferenceIdeal.Value.res_main_v345 (F := Ideal) V0) := by
    rw [hp6]
    exact allReal_lin (Cert.KernelIdeal.HostFn.allReal_agg64 _ _ hk6) hk6 (Cert.KernelIdeal.HostFn.allReal_matSlice _ _ r5)
      (Cert.KernelIdeal.HostFn.allReal_matSlice _ _ r6) (allReal_rowOf (Cert.KernelIdeal.HostFn.allReal_vecSlice7 _ _ r7))
  have o6 : (Cert.ReferenceIdeal.Value.res_main_v375 (F := Ideal) V0) = kH7 m c := by
    rw [out6 V0 hr6, hp6, e8, e9]; rfl
  -- layer 7
  have hk7 : AllReal (kH7 m c) := by
    unfold kH7 layerOf bnStep; exact allReal_bn _ _ _ _ _
  have hp7 : (Cert.ReferenceIdeal.Value.res_main_v399 (F := Ideal) V0)
      = lin (Cert.KernelIdeal.HostFn.agg64 (kv1 m c) (kv3 m c) (kH7 m c)) (kH7 m c)
          (Cert.KernelIdeal.HostFn.matSlice ![6, 0, 0] Cert.KernelIdeal.Gen.slices_S7x64x64_S1x64x64_6_0_0 (m ((c.tc : Thread Cert.KernelIdeal.nD Cert.KernelIdeal.τ).loc Cert.KernelIdeal.main_arg5)))
          (Cert.KernelIdeal.HostFn.matSlice ![6, 0, 0] Cert.KernelIdeal.Gen.slices_S7x64x64_S1x64x64_6_0_0 (m ((c.tc : Thread Cert.KernelIdeal.nD Cert.KernelIdeal.τ).loc Cert.KernelIdeal.main_arg6)))
          (rowOf (Cert.KernelIdeal.HostFn.vecSlice7 ![6, 0] Cert.KernelIdeal.Gen.slices_S7x64_S1x64_6_0 (m ((c.tc : Thread Cert.KernelIdeal.nD Cert.KernelIdeal.τ).loc Cert.KernelIdeal.main_arg7)))) := by
    rw [hpre7 V0, o6, hs, hd, e5, e6, e7]; rfl
  have hr7 : AllReal (S := Cert.ReferenceIdeal.S50000x64) (Cert.ReferenceIdeal.Value.res_main_v399 (F := Ideal) V0) := by
    rw [hp7]
    exact allReal_lin (Cert.KernelIdeal.HostFn.allReal_agg64 _ _ hk7) hk7 (Cert.KernelIdeal.HostFn.allReal_matSlice _ _ r5)
      (Cert.KernelIdeal.HostFn.allReal_matSlice _ _ r6) (allReal_rowOf (Cert.KernelIdeal.HostFn.allReal_vecSlice7 _ _ r7))
  have o7 : bnStep (Cert.ReferenceIdeal.Value.res_main_v399 (F := Ideal) V0) (rowOf (Cert.ReferenceIdeal.HostFn.vecSlice8 ![7, 0] Cert.ReferenceIdeal.Gen.slices_S8x64_S1x64_7_0 (V0 (Proc.devRef .tc Cert.ReferenceIdeal.main_arg8)))) (rowOf (Cert.ReferenceIdeal.HostFn.vecSlice8 ![7, 0] Cert.ReferenceIdeal.Gen.slices_S8x64_S1x64_7_0 (V0 (Proc.devRef .tc Cert.ReferenceIdeal.main_arg9))))
      = kH8 m c := by
    rw [hp7, e8, e9]; rfl
  -- the projection
  refine ⟨hr7, ?_⟩
  rw [o7, e10, e11]; rfl

/-- Under the precondition, and with the reference given the kernel program's twelve arguments, the reference's last
    pre-activation is real and the projection of its normalising step is the kernel program's network function. -/
theorem ref_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal (hPre_finite_inputs := Cert.Pre_finite_inputs.Gen.facts) m) (c : Dev Cert.KernelIdeal.nD)
    (hag : m' ((c.tc : Thread Cert.ReferenceIdeal.nD Cert.ReferenceIdeal.τ).loc Cert.ReferenceIdeal.main_arg0) = (m ((c.tc : Thread Cert.KernelIdeal.nD Cert.KernelIdeal.τ).loc Cert.KernelIdeal.main_arg0))
      ∧ m' ((c.tc : Thread Cert.ReferenceIdeal.nD Cert.ReferenceIdeal.τ).loc Cert.ReferenceIdeal.main_arg1) = (m ((c.tc : Thread Cert.KernelIdeal.nD Cert.KernelIdeal.τ).loc Cert.KernelIdeal.main_arg1))
      ∧ m' ((c.tc : Thread Cert.ReferenceIdeal.nD Cert.ReferenceIdeal.τ).loc Cert.ReferenceIdeal.main_arg2) = (m ((c.tc : Thread Cert.KernelIdeal.nD Cert.KernelIdeal.τ).loc Cert.KernelIdeal.main_arg2))
      ∧ m' ((c.tc : Thread Cert.ReferenceIdeal.nD Cert.ReferenceIdeal.τ).loc Cert.ReferenceIdeal.main_arg3) = (m ((c.tc : Thread Cert.KernelIdeal.nD Cert.KernelIdeal.τ).loc Cert.KernelIdeal.main_arg3))
      ∧ m' ((c.tc : Thread Cert.ReferenceIdeal.nD Cert.ReferenceIdeal.τ).loc Cert.ReferenceIdeal.main_arg4) = (m ((c.tc : Thread Cert.KernelIdeal.nD Cert.KernelIdeal.τ).loc Cert.KernelIdeal.main_arg4))
      ∧ m' ((c.tc : Thread Cert.ReferenceIdeal.nD Cert.ReferenceIdeal.τ).loc Cert.ReferenceIdeal.main_arg5) = (m ((c.tc : Thread Cert.KernelIdeal.nD Cert.KernelIdeal.τ).loc Cert.KernelIdeal.main_arg5))
      ∧ m' ((c.tc : Thread Cert.ReferenceIdeal.nD Cert.ReferenceIdeal.τ).loc Cert.ReferenceIdeal.main_arg6) = (m ((c.tc : Thread Cert.KernelIdeal.nD Cert.KernelIdeal.τ).loc Cert.KernelIdeal.main_arg6))
      ∧ m' ((c.tc : Thread Cert.ReferenceIdeal.nD Cert.ReferenceIdeal.τ).loc Cert.ReferenceIdeal.main_arg7) = (m ((c.tc : Thread Cert.KernelIdeal.nD Cert.KernelIdeal.τ).loc Cert.KernelIdeal.main_arg7))
      ∧ m' ((c.tc : Thread Cert.ReferenceIdeal.nD Cert.ReferenceIdeal.τ).loc Cert.ReferenceIdeal.main_arg8) = (m ((c.tc : Thread Cert.KernelIdeal.nD Cert.KernelIdeal.τ).loc Cert.KernelIdeal.main_arg8))
      ∧ m' ((c.tc : Thread Cert.ReferenceIdeal.nD Cert.ReferenceIdeal.τ).loc Cert.ReferenceIdeal.main_arg9) = (m ((c.tc : Thread Cert.KernelIdeal.nD Cert.KernelIdeal.τ).loc Cert.KernelIdeal.main_arg9))
      ∧ m' ((c.tc : Thread Cert.ReferenceIdeal.nD Cert.ReferenceIdeal.τ).loc Cert.ReferenceIdeal.main_arg10) = (m ((c.tc : Thread Cert.KernelIdeal.nD Cert.KernelIdeal.τ).loc Cert.KernelIdeal.main_arg10))
      ∧ m' ((c.tc : Thread Cert.ReferenceIdeal.nD Cert.ReferenceIdeal.τ).loc Cert.ReferenceIdeal.main_arg11) = (m ((c.tc : Thread Cert.KernelIdeal.nD Cert.KernelIdeal.τ).loc Cert.KernelIdeal.main_arg11))) :
    AllReal (S := Cert.ReferenceIdeal.S50000x64) (Cert.ReferenceIdeal.Value.res_main_v399 (F := Ideal) (launchContents m' c))
      ∧ proj (bnStep (Cert.ReferenceIdeal.Value.res_main_v399 (F := Ideal) (launchContents m' c)) (rowOf (Cert.ReferenceIdeal.HostFn.vecSlice8 ![7, 0] Cert.ReferenceIdeal.Gen.slices_S8x64_S1x64_7_0 (launchContents m' c (Proc.devRef .tc Cert.ReferenceIdeal.main_arg8)))) (rowOf (Cert.ReferenceIdeal.HostFn.vecSlice8 ![7, 0] Cert.ReferenceIdeal.Gen.slices_S8x64_S1x64_7_0 (launchContents m' c (Proc.devRef .tc Cert.ReferenceIdeal.main_arg9))))) (launchContents m' c (Proc.devRef .tc Cert.ReferenceIdeal.main_arg10)) (rowOf (launchContents m' c (Proc.devRef .tc Cert.ReferenceIdeal.main_arg11)))
        = kOut m c := by
  obtain ⟨a0, a1, a2, a3, a4, a5, a6, a7, a8, a9, a10, a11⟩ := hag
  obtain ⟨r0, r2, r3, r4, r5, r6, r7, r8, r9, r10, r11⟩ := Cert.PreReal.allReal_args m hpre c
  exact chain (launchContents m' c) m c a0 a1 a2 a3 a4 a5 a6 a7 a8 a9 a10 a11 r0 r2 r3 r4 r5 r6 r7 r8 r9 r10 r11

end Cert.Bridge

end
-- ==== Proof.lean ====
/-
  The proof of the certificate's claim for an eight-layer neighbourhood-aggregation network.

  Both programs compute, per layer, a dense step of the aggregated and the plain node features, a per-column
  normalisation of it followed by the hyperbolic tangent, and at the end a projection.  The kernel program computes the
  dense step block by block in launches of ten row blocks, accumulates the column sums of the result and of its squares
  across the blocks, and takes the variance as "mean of squares minus square of mean"; the reference sums whole columns
  and takes the variance as the mean of the squared deviations.  Over the extended reals the block-wise sums are the
  whole-column sums (addition is commutative and associative there), and the two forms of the variance agree on columns
  of real numbers — which is where the precondition, every float argument entry finite, is used: the arguments are real,
  so every dense step is real, and every layer's output is real because the hyperbolic tangent of any extended real is.

  The three frames: the two kernel programs' are the generated frame certificates; the reference's is its generated run
  with the result dropped.  The idealization rewrote nothing, so there is nothing to preserve.  The value claim: the
  kernel program's result buffer ends at the last boundary of the fold through its seventeen launches, which the layer
  modules read down to the network function of the arguments; the reference's run ends at its composed term, which is
  the same network function of arguments that agree.
-/
import proofs.«147565_j9259949490665_1_alg».proof.Defs
import proofs.«147565_j9259949490665_1_alg».proof.Proof.Gen.Kernel
import proofs.«147565_j9259949490665_1_alg».proof.Proof.Gen.Kernel.Skeleton
import proofs.«147565_j9259949490665_1_alg».proof.Proof.Gen.Kernel.Launch
import proofs.«147565_j9259949490665_1_alg».proof.Proof.Gen.Kernel.Points
import proofs.«147565_j9259949490665_1_alg».proof.Proof.Gen.Kernel.Frame
import proofs.«147565_j9259949490665_1_alg».proof.Proof.Gen.KernelIdeal
import proofs.«147565_j9259949490665_1_alg».proof.Proof.Gen.KernelIdeal.Skeleton
import proofs.«147565_j9259949490665_1_alg».proof.Proof.Gen.KernelIdeal.Launch
import proofs.«147565_j9259949490665_1_alg».proof.Proof.Gen.KernelIdeal.Points
import proofs.«147565_j9259949490665_1_alg».proof.Proof.Gen.KernelIdeal.Frame
import proofs.«147565_j9259949490665_1_alg».proof.Proof.Gen.ReferenceIdeal
import proofs.«147565_j9259949490665_1_alg».proof.Proof.Gen.Pre_finite_inputs
import proofs.«147565_j9259949490665_1_alg».proof.Proof.Gen.ReferenceIdeal.Run
import proofs.«147565_j9259949490665_1_alg».proof.Proof.KernelRun
import proofs.«147565_j9259949490665_1_alg».proof.Proof.KChain
import proofs.«147565_j9259949490665_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the network function of the kernel program's arguments. -/
theorem algebraic : Cert.algebraic_KernelIdeal_ReferenceIdeal := by
  intro m ρ m' ρ' hpre hagree
  refine ⟨fun c => Cert.KernelIdeal.NetValue.kOut m c, ?_, ?_⟩
  · exact (θ_run Cert.KernelIdeal.defs _ _).mono
      (fun _ h c => ⟨(h c).1.trans (Cert.KernelIdeal.Fold.result m ρ c), (h c).2⟩)
      (Cert.KernelIdeal.RunValue.run (F := Ideal) m ρ)
  · refine (θ_run Cert.ReferenceIdeal.defs _ _).mono (fun _ h c => ⟨(h c).1.trans ?_, (h c).2⟩)
      (Cert.ReferenceIdeal.Value.run (F := Ideal) m' ρ')
    obtain ⟨hr, he⟩ := Cert.Bridge.ref_eq m m' hpre c (hagree c)
    exact (Cert.Layer.Ref.final _ hr).trans he

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
